-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v275)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v275) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v459) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S4x2x500000 : Shape := ⟨3, ![4, 2, 500000]⟩
abbrev S4x128x128 : Shape := ⟨3, ![4, 128, 128]⟩
abbrev S4x128 : Shape := ⟨2, ![4, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x2 .f32) (main_arg11 : FVec F S2 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x2 .f32 := Host.absf main_arg10
  let main_cst_16 : FVec F S_ .f32 := constant S_ .f32 0x7F800000#32
  let main_v45 : FVec F S128x2 .f32 := broadcastInDim S128x2 ![] bcast_S_S128x2 main_cst_16
  let main_v46 : IVec S128x2 1 := cmpf .olt main_v44 main_v45
  let main_c_17 : IVec S_ 1 := constantI S_ 1 1#1
  let main_v47 : IVec S_ 1 := (fun x v => Host.reduce IntOp.andi x v reducesTo_S128x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg5 : FVec F S4x128 .f32) (main_arg6 : FVec F S128 .f32) (main_arg7 : FVec F S128 .f32) (main_arg8 : FVec F S128x128 .f32) (main_arg9 : FVec F S128 .f32) (main_arg10 : FVec F S128x2 .f32) (main_arg11 : FVec F S2 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg5
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S4x2x500000 32) (main_arg2 : FVec F S4x128x128 .f32) (main_arg3 : FVec F S4x128 .f32) (main_arg4 : FVec F S4x128x128 .f32) (main_arg5 : FVec F S4x128 .f32) (main_arg6 : FVec F S128 .f32) (main_arg7 : FVec F S128 .f32) (main_arg8 : FVec F S128x128 .f32) (main_arg9 : FVec F S128 .f32) (main_arg10 : FVec F S128x2 .f32) (main_arg11 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg2
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg3
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg4
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S4x2x500000 : Shape := ⟨3, ![4, 2, 500000]⟩
abbrev S4x128x128 : Shape := ⟨3, ![4, 128, 128]⟩
abbrev S4x128 : Shape := ⟨2, ![4, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x2x500000 : Shape := ⟨3, ![1, 2, 500000]⟩
abbrev S2x500000 : Shape := ⟨2, ![2, 500000]⟩
abbrev S50000 : Shape := ⟨1, ![50000]⟩
abbrev S1x500000 : Shape := ⟨2, ![1, 500000]⟩
abbrev S500000 : Shape := ⟨1, ![500000]⟩
abbrev S550000 : Shape := ⟨1, ![550000]⟩
abbrev S_ : Shape := ⟨0, ![]⟩
abbrev S550000x1 : Shape := ⟨2, ![550000, 1]⟩
abbrev S128x4x128 : Shape := ⟨3, ![128, 4, 128]⟩
abbrev S128x512 : Shape := ⟨2, ![128, 512]⟩
abbrev S50000x512 : Shape := ⟨2, ![50000, 512]⟩
abbrev S2000x128 : Shape := ⟨2, ![2000, 128]⟩
abbrev S2000x512 : Shape := ⟨2, ![2000, 512]⟩
abbrev S550000x128 : Shape := ⟨2, ![550000, 128]⟩
abbrev S1x128 : Shape := ⟨2, ![1, 128]⟩
abbrev S1 : Shape := ⟨1, ![1]⟩
abbrev S50000x2 : Shape := ⟨2, ![50000, 2]⟩

abbrev nBuf : Space → Nat
  | .hbm => 383
  | .vmem => 30
  | .smem => 0
  | _ => 0

abbrev hbmTy0_0 (i : Nat) : BufTy := match i % 128 with
  | 0 => ⟨S50000x128, .f32⟩
  | 1 => ⟨S4x2x500000, .i32⟩
  | 2 => ⟨S4x128x128, .f32⟩
  | 3 => ⟨S4x128, .f32⟩
  | 4 => ⟨S4x128x128, .f32⟩
  | 5 => ⟨S4x128, .f32⟩
  | 6 => ⟨S128, .f32⟩
  | 7 => ⟨S128, .f32⟩
  | 8 => ⟨S128x128, .f32⟩
  | 9 => ⟨S128, .f32⟩
  | 10 => ⟨S128x2, .f32⟩
  | 11 => ⟨S2, .f32⟩
  | 12 => ⟨S1x2x500000, .i32⟩
  | 13 => ⟨S2x500000, .i32⟩
  | 14 => ⟨S50000, .i32⟩
  | 15 => ⟨S1x500000, .i32⟩
  | 16 => ⟨S500000, .i32⟩
  | 17 => ⟨S550000, .i32⟩
  | 18 => ⟨S1x500000, .i32⟩
  | 19 => ⟨S500000, .i32⟩
  | 20 => ⟨S550000, .i32⟩
  | 21 => ⟨S_, .f32⟩
  | 22 => ⟨S550000, .f32⟩
  | 23 => ⟨S_, .f32⟩
  | 24 => ⟨S50000, .f32⟩
  | 25 => ⟨S550000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S550000, .i32⟩
  | 37 => ⟨S550000, .i1⟩
  | 38 => ⟨S_, .i32⟩
  | 39 => ⟨S550000, .i32⟩
  | 40 => ⟨S550000, .i32⟩
  | 41 => ⟨S550000, .i32⟩
  | 42 => ⟨S550000x1, .i32⟩
  | 43 => ⟨S550000, .f32⟩
  | 44 => ⟨S_, .i32⟩
  | 45 => ⟨S550000, .i32⟩
  | 46 => ⟨S550000, .i1⟩
  | 47 => ⟨S_, .i32⟩
  | 48 => ⟨S550000, .i32⟩
  | 49 => ⟨S550000, .i32⟩
  | 50 => ⟨S550000, .i32⟩
  | 51 => ⟨S550000x1, .i32⟩
  | 52 => ⟨S550000, .f32⟩
  | 53 => ⟨S550000, .f32⟩
  | 54 => ⟨S1x2x500000, .i32⟩
  | 55 => ⟨S2x500000, .i32⟩
  | 56 => ⟨S50000, .i32⟩
  | 57 => ⟨S1x500000, .i32⟩
  | 58 => ⟨S500000, .i32⟩
  | 59 => ⟨S550000, .i32⟩
  | 60 => ⟨S1x500000, .i32⟩
  | 61 => ⟨S500000, .i32⟩
  | 62 => ⟨S550000, .i32⟩
  | 63 => ⟨S_, .f32⟩
  | 64 => ⟨S550000, .f32⟩
  | 65 => ⟨S_, .f32⟩
  | 66 => ⟨S50000, .f32⟩
  | 67 => ⟨S550000x1, .i32⟩
  | 68 => ⟨S50000, .f32⟩
  | 69 => ⟨S_, .f32⟩
  | 70 => ⟨S50000, .f32⟩
  | 71 => ⟨S50000, .i1⟩
  | 72 => ⟨S50000, .f32⟩
  | 73 => ⟨S_, .f32⟩
  | 74 => ⟨S_, .f32⟩
  | 75 => ⟨S50000, .f32⟩
  | 76 => ⟨S50000, .f32⟩
  | 77 => ⟨S_, .i32⟩
  | 78 => ⟨S550000, .i32⟩
  | 79 => ⟨S550000, .i1⟩
  | 80 => ⟨S_, .i32⟩
  | 81 => ⟨S550000, .i32⟩
  | 82 => ⟨S550000, .i32⟩
  | 83 => ⟨S550000, .i32⟩
  | 84 => ⟨S550000x1, .i32⟩
  | 85 => ⟨S550000, .f32⟩
  | 86 => ⟨S_, .i32⟩
  | 87 => ⟨S550000, .i32⟩
  | 88 => ⟨S550000, .i1⟩
  | 89 => ⟨S_, .i32⟩
  | 90 => ⟨S550000, .i32⟩
  | 91 => ⟨S550000, .i32⟩
  | 92 => ⟨S550000, .i32⟩
  | 93 => ⟨S550000x1, .i32⟩
  | 94 => ⟨S550000, .f32⟩
  | 95 => ⟨S550000, .f32⟩
  | 96 => ⟨S1x2x500000, .i32⟩
  | 97 => ⟨S2x500000, .i32⟩
  | 98 => ⟨S50000, .i32⟩
  | 99 => ⟨S1x500000, .i32⟩
  | 100 => ⟨S500000, .i32⟩
  | 101 => ⟨S550000, .i32⟩
  | 102 => ⟨S1x500000, .i32⟩
  | 103 => ⟨S500000, .i32⟩
  | 104 => ⟨S550000, .i32⟩
  | 105 => ⟨S_, .f32⟩
  | 106 => ⟨S550000, .f32⟩
  | 107 => ⟨S_, .f32⟩
  | 108 => ⟨S50000, .f32⟩
  | 109 => ⟨S550000x1, .i32⟩
  | 110 => ⟨S50000, .f32⟩
  | 111 => ⟨S_, .f32⟩
  | 112 => ⟨S50000, .f32⟩
  | 113 => ⟨S50000, .i1⟩
  | 114 => ⟨S50000, .f32⟩
  | 115 => ⟨S_, .f32⟩
  | 116 => ⟨S_, .f32⟩
  | 117 => ⟨S50000, .f32⟩
  | 118 => ⟨S50000, .f32⟩
  | 119 => ⟨S_, .i32⟩
  | 120 => ⟨S550000, .i32⟩
  | 121 => ⟨S550000, .i1⟩
  | 122 => ⟨S_, .i32⟩
  | 123 => ⟨S550000, .i32⟩
  | 124 => ⟨S550000, .i32⟩
  | 125 => ⟨S550000, .i32⟩
  | 126 => ⟨S550000x1, .i32⟩
  | 127 => ⟨S550000, .f32⟩
  | _ => ⟨S50000x128, .f32⟩

abbrev hbmTy0_1 (i : Nat) : BufTy := match i % 128 with
  | 0 => ⟨S_, .i32⟩
  | 1 => ⟨S550000, .i32⟩
  | 2 => ⟨S550000, .i1⟩
  | 3 => ⟨S_, .i32⟩
  | 4 => ⟨S550000, .i32⟩
  | 5 => ⟨S550000, .i32⟩
  | 6 => ⟨S550000, .i32⟩
  | 7 => ⟨S550000x1, .i32⟩
  | 8 => ⟨S550000, .f32⟩
  | 9 => ⟨S550000, .f32⟩
  | 10 => ⟨S1x2x500000, .i32⟩
  | 11 => ⟨S2x500000, .i32⟩
  | 12 => ⟨S50000, .i32⟩
  | 13 => ⟨S1x500000, .i32⟩
  | 14 => ⟨S500000, .i32⟩
  | 15 => ⟨S550000, .i32⟩
  | 16 => ⟨S1x500000, .i32⟩
  | 17 => ⟨S500000, .i32⟩
  | 18 => ⟨S550000, .i32⟩
  | 19 => ⟨S_, .f32⟩
  | 20 => ⟨S550000, .f32⟩
  | 21 => ⟨S_, .f32⟩
  | 22 => ⟨S50000, .f32⟩
  | 23 => ⟨S550000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S550000, .i32⟩
  | 35 => ⟨S550000, .i1⟩
  | 36 => ⟨S_, .i32⟩
  | 37 => ⟨S550000, .i32⟩
  | 38 => ⟨S550000, .i32⟩
  | 39 => ⟨S550000, .i32⟩
  | 40 => ⟨S550000x1, .i32⟩
  | 41 => ⟨S550000, .f32⟩
  | 42 => ⟨S_, .i32⟩
  | 43 => ⟨S550000, .i32⟩
  | 44 => ⟨S550000, .i1⟩
  | 45 => ⟨S_, .i32⟩
  | 46 => ⟨S550000, .i32⟩
  | 47 => ⟨S550000, .i32⟩
  | 48 => ⟨S550000, .i32⟩
  | 49 => ⟨S550000x1, .i32⟩
  | 50 => ⟨S550000, .f32⟩
  | 51 => ⟨S550000, .f32⟩
  | 52 => ⟨S128x4x128, .f32⟩
  | 53 => ⟨S128x512, .f32⟩
  | 54 => ⟨S50000x512, .f32⟩
  | 55 => ⟨S50000x128, .f32⟩
  | 56 => ⟨S_, .i32⟩
  | 57 => ⟨S550000, .i32⟩
  | 58 => ⟨S550000, .i1⟩
  | 59 => ⟨S_, .i32⟩
  | 60 => ⟨S550000, .i32⟩
  | 61 => ⟨S550000, .i32⟩
  | 62 => ⟨S550000, .i32⟩
  | 63 => ⟨S550000x1, .i32⟩
  | 64 => ⟨S550000x128, .f32⟩
  | 65 => ⟨S550000x1, .f32⟩
  | 66 => ⟨S550000x128, .f32⟩
  | 67 => ⟨S550000x128, .f32⟩
  | 68 => ⟨S_, .f32⟩
  | 69 => ⟨S50000x128, .f32⟩
  | 70 => ⟨S550000x1, .i32⟩
  | 71 => ⟨S50000x128, .f32⟩
  | 72 => ⟨S50000x128, .f32⟩
  | 73 => ⟨S_, .i32⟩
  | 74 => ⟨S550000, .i32⟩
  | 75 => ⟨S550000, .i1⟩
  | 76 => ⟨S_, .i32⟩
  | 77 => ⟨S550000, .i32⟩
  | 78 => ⟨S550000, .i32⟩
  | 79 => ⟨S550000, .i32⟩
  | 80 => ⟨S550000x1, .i32⟩
  | 81 => ⟨S550000x128, .f32⟩
  | 82 => ⟨S550000x1, .f32⟩
  | 83 => ⟨S550000x128, .f32⟩
  | 84 => ⟨S550000x128, .f32⟩
  | 85 => ⟨S_, .f32⟩
  | 86 => ⟨S50000x128, .f32⟩
  | 87 => ⟨S550000x1, .i32⟩
  | 88 => ⟨S50000x128, .f32⟩
  | 89 => ⟨S50000x128, .f32⟩
  | 90 => ⟨S_, .i32⟩
  | 91 => ⟨S550000, .i32⟩
  | 92 => ⟨S550000, .i1⟩
  | 93 => ⟨S_, .i32⟩
  | 94 => ⟨S550000, .i32⟩
  | 95 => ⟨S550000, .i32⟩
  | 96 => ⟨S550000, .i32⟩
  | 97 => ⟨S550000x1, .i32⟩
  | 98 => ⟨S550000x128, .f32⟩
  | 99 => ⟨S550000x1, .f32⟩
  | 100 => ⟨S550000x128, .f32⟩
  | 101 => ⟨S550000x128, .f32⟩
  | 102 => ⟨S_, .f32⟩
  | 103 => ⟨S50000x128, .f32⟩
  | 104 => ⟨S550000x1, .i32⟩
  | 105 => ⟨S50000x128, .f32⟩
  | 106 => ⟨S50000x128, .f32⟩
  | 107 => ⟨S_, .i32⟩
  | 108 => ⟨S550000, .i32⟩
  | 109 => ⟨S550000, .i1⟩
  | 110 => ⟨S_, .i32⟩
  | 111 => ⟨S550000, .i32⟩
  | 112 => ⟨S550000, .i32⟩
  | 113 => ⟨S550000, .i32⟩
  | 114 => ⟨S550000x1, .i32⟩
  | 115 => ⟨S550000x128, .f32⟩
  | 116 => ⟨S550000x1, .f32⟩
  | 117 => ⟨S550000x128, .f32⟩
  | 118 => ⟨S550000x128, .f32⟩
  | 119 => ⟨S_, .f32⟩
  | 120 => ⟨S50000x128, .f32⟩
  | 121 => ⟨S550000x1, .i32⟩
  | 122 => ⟨S50000x128, .f32⟩
  | 123 => ⟨S50000x512, .f32⟩
  | 124 => ⟨S_, .f32⟩
  | 125 => ⟨S128, .f32⟩
  | 126 => ⟨S1x128, .f32⟩
  | 127 => ⟨S50000x128, .f32⟩
  | _ => ⟨S50000x128, .f32⟩

abbrev hbmTy0_2 (i : Nat) : BufTy := match i % 128 with
  | 0 => ⟨S128x4x128, .f32⟩
  | 1 => ⟨S128x512, .f32⟩
  | 2 => ⟨S50000x512, .f32⟩
  | 3 => ⟨S50000x128, .f32⟩
  | 4 => ⟨S_, .i32⟩
  | 5 => ⟨S550000, .i32⟩
  | 6 => ⟨S550000, .i1⟩
  | 7 => ⟨S_, .i32⟩
  | 8 => ⟨S550000, .i32⟩
  | 9 => ⟨S550000, .i32⟩
  | 10 => ⟨S550000, .i32⟩
  | 11 => ⟨S550000x1, .i32⟩
  | 12 => ⟨S550000x128, .f32⟩
  | 13 => ⟨S550000x1, .f32⟩
  | 14 => ⟨S550000x128, .f32⟩
  | 15 => ⟨S550000x128, .f32⟩
  | 16 => ⟨S_, .f32⟩
  | 17 => ⟨S50000x128, .f32⟩
  | 18 => ⟨S550000x1, .i32⟩
  | 19 => ⟨S50000x128, .f32⟩
  | 20 => ⟨S50000x128, .f32⟩
  | 21 => ⟨S_, .i32⟩
  | 22 => ⟨S550000, .i32⟩
  | 23 => ⟨S550000, .i1⟩
  | 24 => ⟨S_, .i32⟩
  | 25 => ⟨S550000, .i32⟩
  | 26 => ⟨S550000, .i32⟩
  | 27 => ⟨S550000, .i32⟩
  | 28 => ⟨S550000x1, .i32⟩
  | 29 => ⟨S550000x128, .f32⟩
  | 30 => ⟨S550000x1, .f32⟩
  | 31 => ⟨S550000x128, .f32⟩
  | 32 => ⟨S550000x128, .f32⟩
  | 33 => ⟨S_, .f32⟩
  | 34 => ⟨S50000x128, .f32⟩
  | 35 => ⟨S550000x1, .i32⟩
  | 36 => ⟨S50000x128, .f32⟩
  | 37 => ⟨S50000x128, .f32⟩
  | 38 => ⟨S_, .i32⟩
  | 39 => ⟨S550000, .i32⟩
  | 40 => ⟨S550000, .i1⟩
  | 41 => ⟨S_, .i32⟩
  | 42 => ⟨S550000, .i32⟩
  | 43 => ⟨S550000, .i32⟩
  | 44 => ⟨S550000, .i32⟩
  | 45 => ⟨S550000x1, .i32⟩
  | 46 => ⟨S550000x128, .f32⟩
  | 47 => ⟨S550000x1, .f32⟩
  | 48 => ⟨S550000x128, .f32⟩
  | 49 => ⟨S550000x128, .f32⟩
  | 50 => ⟨S_, .f32⟩
  | 51 => ⟨S50000x128, .f32⟩
  | 52 => ⟨S550000x1, .i32⟩
  | 53 => ⟨S50000x128, .f32⟩
  | 54 => ⟨S50000x128, .f32⟩
  | 55 => ⟨S_, .i32⟩
  | 56 => ⟨S550000, .i32⟩
  | 57 => ⟨S550000, .i1⟩
  | 58 => ⟨S_, .i32⟩
  | 59 => ⟨S550000, .i32⟩
  | 60 => ⟨S550000, .i32⟩
  | 61 => ⟨S550000, .i32⟩
  | 62 => ⟨S550000x1, .i32⟩
  | 63 => ⟨S550000x128, .f32⟩
  | 64 => ⟨S550000x1, .f32⟩
  | 65 => ⟨S550000x128, .f32⟩
  | 66 => ⟨S550000x128, .f32⟩
  | 67 => ⟨S_, .f32⟩
  | 68 => ⟨S50000x128, .f32⟩
  | 69 => ⟨S550000x1, .i32⟩
  | 70 => ⟨S50000x128, .f32⟩
  | 71 => ⟨S50000x512, .f32⟩
  | 72 => ⟨S_, .f32⟩
  | 73 => ⟨S128, .f32⟩
  | 74 => ⟨S1x128, .f32⟩
  | 75 => ⟨S50000x128, .f32⟩
  | 76 => ⟨S_, .f32⟩
  | 77 => ⟨S128, .f32⟩
  | 78 => ⟨S_, .f32⟩
  | 79 => ⟨S128, .f32⟩
  | 80 => ⟨S128, .f32⟩
  | 81 => ⟨S_, .i32⟩
  | 82 => ⟨S_, .f32⟩
  | 83 => ⟨S128, .f32⟩
  | 84 => ⟨S1x128, .f32⟩
  | 85 => ⟨S_, .f32⟩
  | 86 => ⟨S1x128, .f32⟩
  | 87 => ⟨S1x128, .f32⟩
  | 88 => ⟨S50000x128, .f32⟩
  | 89 => ⟨S50000x128, .f32⟩
  | 90 => ⟨S50000x128, .f32⟩
  | 91 => ⟨S_, .f32⟩
  | 92 => ⟨S_, .f32⟩
  | 93 => ⟨S_, .f32⟩
  | 94 => ⟨S_, .f32⟩
  | 95 => ⟨S128, .f32⟩
  | 96 => ⟨S128, .f32⟩
  | 97 => ⟨S128, .f32⟩
  | 98 => ⟨S_, .f32⟩
  | 99 => ⟨S_, .i1⟩
  | 100 => ⟨S_, .f32⟩
  | 101 => ⟨S_, .f32⟩
  | 102 => ⟨S128, .f32⟩
  | 103 => ⟨S128, .f32⟩
  | 104 => ⟨S_, .f32⟩
  | 105 => ⟨S128, .f32⟩
  | 106 => ⟨S128, .f32⟩
  | 107 => ⟨S128, .f32⟩
  | 108 => ⟨S128, .f32⟩
  | 109 => ⟨S128, .f32⟩
  | 110 => ⟨S128, .f32⟩
  | 111 => ⟨S_, .f32⟩
  | 112 => ⟨S128x128, .f32⟩
  | 113 => ⟨S_, .i32⟩
  | 114 => ⟨S1, .i32⟩
  | 115 => ⟨S128x128, .f32⟩
  | 116 => ⟨S_, .f32⟩
  | 117 => ⟨S128, .f32⟩
  | 118 => ⟨S_, .i32⟩
  | 119 => ⟨S1, .i32⟩
  | 120 => ⟨S128, .f32⟩
  | 121 => ⟨S1x128, .f32⟩
  | 122 => ⟨S1x128, .f32⟩
  | 123 => ⟨S1x128, .f32⟩
  | 124 => ⟨S1x128, .f32⟩
  | 125 => ⟨S50000x128, .f32⟩
  | 126 => ⟨S50000x2, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x512, .f32⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x512, .f32⟩
  | .local _ .vmem, ⟨13, _⟩ => ⟨S2000x512, .f32⟩
  | .local _ .vmem, ⟨14, _⟩ => ⟨S2000x512, .f32⟩
  | .local _ .vmem, ⟨15, _⟩ => ⟨S2000x512, .f32⟩
  | .local _ .vmem, ⟨16, _⟩ => ⟨S2000x512, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S1x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_call1_v0 : Ref sig .tc := ⟨.hbm, 74, rfl⟩
abbrev main_call1_v1 : Ref sig .tc := ⟨.hbm, 75, rfl⟩
abbrev main_v48 : Ref sig .tc := ⟨.hbm, 76, rfl⟩
abbrev main_c_10 : Ref sig .tc := ⟨.hbm, 77, rfl⟩
abbrev main_v49 : Ref sig .tc := ⟨.hbm, 78, rfl⟩
abbrev main_v50 : Ref sig .tc := ⟨.hbm, 79, rfl⟩
abbrev main_c_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_12 : Ref sig .tc := ⟨.hbm, 86, rfl⟩
abbrev main_v56 : Ref sig .tc := ⟨.hbm, 87, rfl⟩
abbrev main_v57 : Ref sig .tc := ⟨.hbm, 88, rfl⟩
abbrev main_c_13 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_14 : Ref sig .tc := ⟨.hbm, 105, rfl⟩
abbrev main_v73 : Ref sig .tc := ⟨.hbm, 106, rfl⟩
abbrev main_cst_15 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_16 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_17 : Ref sig .tc := ⟨.hbm, 115, rfl⟩
abbrev main_call2_v0 : Ref sig .tc := ⟨.hbm, 116, rfl⟩
abbrev main_call2_v1 : Ref sig .tc := ⟨.hbm, 117, rfl⟩
abbrev main_v80 : Ref sig .tc := ⟨.hbm, 118, rfl⟩
abbrev main_c_18 : Ref sig .tc := ⟨.hbm, 119, rfl⟩
abbrev main_v81 : Ref sig .tc := ⟨.hbm, 120, rfl⟩
abbrev main_v82 : Ref sig .tc := ⟨.hbm, 121, rfl⟩
abbrev main_c_19 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_c_20 : Ref sig .tc := ⟨.hbm, 128, rfl⟩
abbrev main_v88 : Ref sig .tc := ⟨.hbm, 129, rfl⟩
abbrev main_v89 : Ref sig .tc := ⟨.hbm, 130, rfl⟩
abbrev main_c_21 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_22 : Ref sig .tc := ⟨.hbm, 147, rfl⟩
abbrev main_v105 : Ref sig .tc := ⟨.hbm, 148, rfl⟩
abbrev main_cst_23 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_24 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_25 : Ref sig .tc := ⟨.hbm, 157, rfl⟩
abbrev main_call3_v0 : Ref sig .tc := ⟨.hbm, 158, rfl⟩
abbrev main_call3_v1 : Ref sig .tc := ⟨.hbm, 159, rfl⟩
abbrev main_v112 : Ref sig .tc := ⟨.hbm, 160, rfl⟩
abbrev main_c_26 : Ref sig .tc := ⟨.hbm, 161, rfl⟩
abbrev main_v113 : Ref sig .tc := ⟨.hbm, 162, rfl⟩
abbrev main_v114 : Ref sig .tc := ⟨.hbm, 163, rfl⟩
abbrev main_c_27 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_c_28 : Ref sig .tc := ⟨.hbm, 170, rfl⟩
abbrev main_v120 : Ref sig .tc := ⟨.hbm, 171, rfl⟩
abbrev main_v121 : Ref sig .tc := ⟨.hbm, 172, rfl⟩
abbrev main_c_29 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_c_30 : Ref sig .tc := ⟨.hbm, 184, rfl⟩
abbrev main_v132 : Ref sig .tc := ⟨.hbm, 185, rfl⟩
abbrev main_v133 : Ref sig .tc := ⟨.hbm, 186, rfl⟩
abbrev main_c_31 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_cst_32 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_c_33 : Ref sig .tc := ⟨.hbm, 201, rfl⟩
abbrev main_v146 : Ref sig .tc := ⟨.hbm, 202, rfl⟩
abbrev main_v147 : Ref sig .tc := ⟨.hbm, 203, rfl⟩
abbrev main_c_34 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_cst_35 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_c_36 : Ref sig .tc := ⟨.hbm, 218, rfl⟩
abbrev main_v160 : Ref sig .tc := ⟨.hbm, 219, rfl⟩
abbrev main_v161 : Ref sig .tc := ⟨.hbm, 220, rfl⟩
abbrev main_c_37 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_cst_38 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_c_39 : Ref sig .tc := ⟨.hbm, 235, rfl⟩
abbrev main_v174 : Ref sig .tc := ⟨.hbm, 236, rfl⟩
abbrev main_v175 : Ref sig .tc := ⟨.hbm, 237, rfl⟩
abbrev main_c_40 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_cst_41 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_cst_42 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_c_43 : Ref sig .tc := ⟨.hbm, 260, rfl⟩
abbrev main_v195 : Ref sig .tc := ⟨.hbm, 261, rfl⟩
abbrev main_v196 : Ref sig .tc := ⟨.hbm, 262, rfl⟩
abbrev main_c_44 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_cst_45 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_c_46 : Ref sig .tc := ⟨.hbm, 277, rfl⟩
abbrev main_v209 : Ref sig .tc := ⟨.hbm, 278, rfl⟩
abbrev main_v210 : Ref sig .tc := ⟨.hbm, 279, rfl⟩
abbrev main_c_47 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_cst_48 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_c_49 : Ref sig .tc := ⟨.hbm, 294, rfl⟩
abbrev main_v223 : Ref sig .tc := ⟨.hbm, 295, rfl⟩
abbrev main_v224 : Ref sig .tc := ⟨.hbm, 296, rfl⟩
abbrev main_c_50 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_cst_51 : Ref sig .tc := ⟨.hbm, 306, rfl⟩
abbrev main_v233 : Ref sig .tc := ⟨.hbm, 307, rfl⟩
abbrev main_v234 : Ref sig .tc := ⟨.hbm, 308, rfl⟩
abbrev main_v235 : Ref sig .tc := ⟨.hbm, 309, rfl⟩
abbrev main_v236 : Ref sig .tc := ⟨.hbm, 310, rfl⟩
abbrev main_c_52 : Ref sig .tc := ⟨.hbm, 311, rfl⟩
abbrev main_v237 : Ref sig .tc := ⟨.hbm, 312, rfl⟩
abbrev main_v238 : Ref sig .tc := ⟨.hbm, 313, rfl⟩
abbrev main_c_53 : Ref sig .tc := ⟨.hbm, 314, rfl⟩
abbrev main_v239 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_cst_54 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_cst_55 : Ref sig .tc := ⟨.hbm, 328, rfl⟩
abbrev main_v251 : Ref sig .tc := ⟨.hbm, 329, rfl⟩
abbrev main_v252 : Ref sig .tc := ⟨.hbm, 330, rfl⟩
abbrev main_v253 : Ref sig .tc := ⟨.hbm, 331, rfl⟩
abbrev main_cst_56 : Ref sig .tc := ⟨.hbm, 332, rfl⟩
abbrev main_v254 : Ref sig .tc := ⟨.hbm, 333, rfl⟩
abbrev main_cst_57 : Ref sig .tc := ⟨.hbm, 334, rfl⟩
abbrev main_v255 : Ref sig .tc := ⟨.hbm, 335, rfl⟩
abbrev main_v256 : Ref sig .tc := ⟨.hbm, 336, rfl⟩
abbrev main_c_58 : Ref sig .tc := ⟨.hbm, 337, rfl⟩
abbrev main_call4_cst : Ref sig .tc := ⟨.hbm, 338, rfl⟩
abbrev main_call4_v0 : Ref sig .tc := ⟨.hbm, 339, rfl⟩
abbrev main_call4_v1 : Ref sig .tc := ⟨.hbm, 340, rfl⟩
abbrev main_call4_cst_0 : Ref sig .tc := ⟨.hbm, 341, rfl⟩
abbrev main_call4_v2 : Ref sig .tc := ⟨.hbm, 342, rfl⟩
abbrev main_call4_v3 : Ref sig .tc := ⟨.hbm, 343, rfl⟩
abbrev main_call4_v4 : Ref sig .tc := ⟨.hbm, 344, rfl⟩
abbrev main_call4_v5 : Ref sig .tc := ⟨.hbm, 345, rfl⟩
abbrev main_call4_v6 : Ref sig .tc := ⟨.hbm, 346, rfl⟩
abbrev main_call4_v7 : Ref sig .tc := ⟨.hbm, 347, rfl⟩
abbrev main_call4_cst_1 : Ref sig .tc := ⟨.hbm, 348, rfl⟩
abbrev main_call4_v8 : Ref sig .tc := ⟨.hbm, 349, rfl⟩
abbrev main_call4_cst_2 : Ref sig .tc := ⟨.hbm, 350, rfl⟩
abbrev main_call4_v9 : Ref sig .tc := ⟨.hbm, 351, rfl⟩
abbrev main_call4_v10 : Ref sig .tc := ⟨.hbm, 352, rfl⟩
abbrev main_call4_v11 : Ref sig .tc := ⟨.hbm, 353, rfl⟩
abbrev main_call4_cst_3 : Ref sig .tc := ⟨.hbm, 354, rfl⟩
abbrev main_call4_v12 : Ref sig .tc := ⟨.hbm, 355, rfl⟩
abbrev main_call4_cst_4 : Ref sig .tc := ⟨.hbm, 356, rfl⟩
abbrev main_call4_call0_v0 : Ref sig .tc := ⟨.hbm, 357, rfl⟩
abbrev main_call4_call0_v1 : Ref sig .tc := ⟨.hbm, 358, rfl⟩
abbrev main_v257 : Ref sig .tc := ⟨.hbm, 359, rfl⟩
abbrev main_cst_59 : Ref sig .tc := ⟨.hbm, 360, rfl⟩
abbrev main_v258 : Ref sig .tc := ⟨.hbm, 361, rfl⟩
abbrev main_v259 : Ref sig .tc := ⟨.hbm, 362, rfl⟩
abbrev main_v260 : Ref sig .tc := ⟨.hbm, 363, rfl⟩
abbrev main_v261 : Ref sig .tc := ⟨.hbm, 364, rfl⟩
abbrev main_v262 : Ref sig .tc := ⟨.hbm, 365, rfl⟩
abbrev main_v263 : Ref sig .tc := ⟨.hbm, 366, rfl⟩
abbrev main_cst_60 : Ref sig .tc := ⟨.hbm, 367, rfl⟩
abbrev main_v264 : Ref sig .tc := ⟨.hbm, 368, rfl⟩
abbrev main_c_61 : Ref sig .tc := ⟨.hbm, 369, rfl⟩
abbrev main_v265 : Ref sig .tc := ⟨.hbm, 370, rfl⟩
abbrev main_v266 : Ref sig .tc := ⟨.hbm, 371, rfl⟩
abbrev main_cst_62 : Ref sig .tc := ⟨.hbm, 372, rfl⟩
abbrev main_v267 : Ref sig .tc := ⟨.hbm, 373, rfl⟩
abbrev main_c_63 : Ref sig .tc := ⟨.hbm, 374, rfl⟩
abbrev main_v268 : Ref sig .tc := ⟨.hbm, 375, rfl⟩
abbrev main_v269 : Ref sig .tc := ⟨.hbm, 376, rfl⟩
abbrev main_v270 : Ref sig .tc := ⟨.hbm, 377, rfl⟩
abbrev main_v271 : Ref sig .tc := ⟨.hbm, 378, rfl⟩
abbrev main_v272 : Ref sig .tc := ⟨.hbm, 379, rfl⟩
abbrev main_v273 : Ref sig .tc := ⟨.hbm, 380, rfl⟩
abbrev main_v274 : Ref sig .tc := ⟨.hbm, 381, rfl⟩
abbrev main_v275 : Ref sig .tc := ⟨.hbm, 382, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg4_0 : Ref sig .tc := ⟨.vmem, 25, rfl⟩
abbrev cc4_stg5_0 : Ref sig .tc := ⟨.vmem, 26, rfl⟩
abbrev cc4_stg6_0 : Ref sig .tc := ⟨.vmem, 27, rfl⟩
abbrev cc4_stg7_0 : Ref sig .tc := ⟨.vmem, 28, rfl⟩
abbrev cc4_stg7_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem4_0 : DmaSem sig := 25
abbrev cc4_sem5_0 : DmaSem sig := 26
abbrev cc4_sem6_0 : DmaSem sig := 27
abbrev cc4_sem7_0 : DmaSem sig := 28
abbrev cc4_sem7_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S4x2x500000_S1x2x500000_0_0_0 : S4x2x500000.Slices ![0, 0, 0] S1x2x500000
  shapeCasts_S1x2x500000_S2x500000 : S1x2x500000.ShapeCasts S2x500000
  slices_S2x500000_S1x500000_0_0 : S2x500000.Slices ![0, 0] S1x500000
  shapeCasts_S1x500000_S500000 : S1x500000.ShapeCasts S500000
  concatenates_S500000_S50000_S550000_d0 : Shape.Concatenates [S500000, S50000] S550000 0
  slices_S2x500000_S1x500000_1_0 : S2x500000.Slices ![1, 0] S1x500000
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  slices_S4x2x500000_S1x2x500000_1_0_0 : S4x2x500000.Slices ![1, 0, 0] S1x2x500000
  slices_S4x2x500000_S1x2x500000_2_0_0 : S4x2x500000.Slices ![2, 0, 0] S1x2x500000
  slices_S4x2x500000_S1x2x500000_3_0_0 : S4x2x500000.Slices ![3, 0, 0] S1x2x500000
  transposes_S4x128x128_S128x4x128_1_0_2 : S4x128x128.Transposes [1, 0, 2] S128x4x128
  shapeCasts_S128x4x128_S128x512 : S128x4x128.ShapeCasts S128x512
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S2000x512_S2000x512_0_0 : ∀ a, (![0, 0] : Fin 2 → Nat) a + S2000x512.size a ≤ S2000x512.size a
  h_S2000x512 : 0 < S2000x512.numel
  slices_S50000x512_S50000x128_0_0 : S50000x512.Slices ![0, 0] S50000x128
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  slices_S50000x512_S50000x128_0_128 : S50000x512.Slices ![0, 128] S50000x128
  slices_S50000x512_S50000x128_0_256 : S50000x512.Slices ![0, 256] S50000x128
  slices_S50000x512_S50000x128_0_384 : S50000x512.Slices ![0, 384] S50000x128
  concatenates_S50000x128_S50000x128_S50000x128_S50000x128_S50000x512_d1 : Shape.Concatenates [S50000x128, S50000x128, S50000x128, S50000x128] S50000x512 1
  reducesTo_S4x128_S128_d0 : S4x128.ReducesTo [0] S128
  h_S_ : 0 < S_.numel
  bcast_S128_S1x128_1 : S128.BroadcastsInDim S1x128 (![1] : Fin 1 → Fin S1x128.rank)
  inb_S2000x512_S2000x128_0_0 : ∀ a, (![0, 0] : Fin 2 → Nat) a + S2000x128.size a ≤ S2000x512.size a
  shapeCasts_S2000x128_S2000x128 : S2000x128.ShapeCasts S2000x128
  inb_S2000x512_S2000x128_0_128 : ∀ a, (![0, 128] : Fin 2 → Nat) a + S2000x128.size a ≤ S2000x512.size a
  inb_S2000x512_S2000x128_0_256 : ∀ a, (![0, 256] : Fin 2 → Nat) a + S2000x128.size a ≤ S2000x512.size a
  inb_S2000x512_S2000x128_0_384 : ∀ a, (![0, 384] : Fin 2 → Nat) a + S2000x128.size a ≤ S2000x512.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  bcast_S_S128x128 : S_.BroadcastsInDim S128x128 (![] : Fin 0 → Fin S128x128.rank)
  bcast_S_S1 : S_.BroadcastsInDim S1 (![] : Fin 0 → Fin S1.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S50000x128_S50000x2_0_0 : S50000x128.Slices ![0, 0] S50000x2
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  dot_S2000x128_S128x512_S2000x512_1_0_0_1_n_n_wf : DotDims.WF S2000x128 S128x512 S2000x512 [1] [0] [0] [1] [] []
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  scatter_S128x128_S1_S128x2_01_n_1_0_wf : ScatterDims.WF S128x128 S1 S128x2 [0, 1] [] [1] 0
  scatter_S128_S1_S2_0_n_0_0_wf : ScatterDims.WF S128 S1 S2 [0] [] [0] 0
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S50000x512.size a
  hwx0_2 : ∀ i : grid0.Coords, EltTy.bits .f32 = 32 ∨ (Rect.block (s := S50000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x512.size a ≤ S128x512.size a
  hwx2_1 : ∀ i : grid2.Coords, EltTy.bits .f32 = 32 ∨ (Rect.block (s := S128x512) S128x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x512.size a ≤ S50000x512.size a
  hwx2_2 : ∀ i : grid2.Coords, EltTy.bits .f32 = 32 ∨ (Rect.block (s := S50000x512) S2000x512.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S50000x512.size a
  hwx3_0 : ∀ i : grid3.Coords, EltTy.bits .f32 = 32 ∨ (Rect.block (s := S50000x512) S2000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x128.size a ≤ S50000x128.size a
  hwx4_7 : ∀ i : grid4.Coords, EltTy.bits .f32 = 32 ∨ (Rect.block (s := S50000x128) S2000x128.size (cc4_transform_7 i) (hinb4_7 i)).WholeWords (EltTy.packing .f32)

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def scatter_S128x128_S1_S128x2_01_n_1_0 : ScatterDims S128x128 S1 S128x2 where
  updateWindowDims := [0, 1]
  insertedWindowDims := []
  scatterDimsToOperandDims := [1]
  indexVectorDim := 0
  wf := scatter_S128x128_S1_S128x2_01_n_1_0_wf
def scatter_S128_S1_S2_0_n_0_0 : ScatterDims S128 S1 S2 where
  updateWindowDims := [0]
  insertedWindowDims := []
  scatterDimsToOperandDims := [0]
  indexVectorDim := 0
  wf := scatter_S128_S1_S2_0_n_0_0_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v129) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v130) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v187) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v189) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v190) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v190) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v192) S128x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v193) S2000x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v250) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v252) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v253) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v253) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v270) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v271) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v272) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v266) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v273) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v274) S2000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x128 : Shape := ⟨2, ![50000, 128]⟩
abbrev S4x2x500000 : Shape := ⟨3, ![4, 2, 500000]⟩
abbrev S4x128x128 : Shape := ⟨3, ![4, 128, 128]⟩
abbrev S4x128 : Shape := ⟨2, ![4, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x2x500000 : Shape := ⟨3, ![1, 2, 500000]⟩
abbrev S2x500000 : Shape := ⟨2, ![2, 500000]⟩
abbrev S1x128x128 : Shape := ⟨3, ![1, 128, 128]⟩
abbrev S1x128 : Shape := ⟨2, ![1, 128]⟩
abbrev S50000 : Shape := ⟨1, ![50000]⟩
abbrev S1x500000 : Shape := ⟨2, ![1, 500000]⟩
abbrev S500000 : Shape := ⟨1, ![500000]⟩
abbrev S550000 : Shape := ⟨1, ![550000]⟩
abbrev S_ : Shape := ⟨0, ![]⟩
abbrev S550000x1 : Shape := ⟨2, ![550000, 1]⟩
abbrev S550000x128 : Shape := ⟨2, ![550000, 128]⟩
abbrev S50000x2 : Shape := ⟨2, ![50000, 2]⟩
abbrev S1x2 : Shape := ⟨2, ![1, 2]⟩

abbrev nBuf : Space → Nat
  | .hbm => 607
  | .vmem => 0
  | .smem => 0
  | _ => 0

abbrev hbmTy0_0 (i : Nat) : BufTy := match i % 128 with
  | 0 => ⟨S50000x128, .f32⟩
  | 1 => ⟨S4x2x500000, .i32⟩
  | 2 => ⟨S4x128x128, .f32⟩
  | 3 => ⟨S4x128, .f32⟩
  | 4 => ⟨S4x128x128, .f32⟩
  | 5 => ⟨S4x128, .f32⟩
  | 6 => ⟨S128, .f32⟩
  | 7 => ⟨S128, .f32⟩
  | 8 => ⟨S128x128, .f32⟩
  | 9 => ⟨S128, .f32⟩
  | 10 => ⟨S128x2, .f32⟩
  | 11 => ⟨S2, .f32⟩
  | 12 => ⟨S1x2x500000, .i32⟩
  | 13 => ⟨S2x500000, .i32⟩
  | 14 => ⟨S1x128x128, .f32⟩
  | 15 => ⟨S128x128, .f32⟩
  | 16 => ⟨S1x128, .f32⟩
  | 17 => ⟨S128, .f32⟩
  | 18 => ⟨S50000x128, .f32⟩
  | 19 => ⟨S50000, .i32⟩
  | 20 => ⟨S1x500000, .i32⟩
  | 21 => ⟨S500000, .i32⟩
  | 22 => ⟨S550000, .i32⟩
  | 23 => ⟨S1x500000, .i32⟩
  | 24 => ⟨S500000, .i32⟩
  | 25 => ⟨S550000, .i32⟩
  | 26 => ⟨S_, .f32⟩
  | 27 => ⟨S550000, .f32⟩
  | 28 => ⟨S_, .f32⟩
  | 29 => ⟨S50000, .f32⟩
  | 30 => ⟨S550000x1, .i32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S550000, .i32⟩
  | 42 => ⟨S550000, .i1⟩
  | 43 => ⟨S_, .i32⟩
  | 44 => ⟨S550000, .i32⟩
  | 45 => ⟨S550000, .i32⟩
  | 46 => ⟨S550000, .i32⟩
  | 47 => ⟨S550000x1, .i32⟩
  | 48 => ⟨S550000, .f32⟩
  | 49 => ⟨S_, .i32⟩
  | 50 => ⟨S550000, .i32⟩
  | 51 => ⟨S550000, .i1⟩
  | 52 => ⟨S_, .i32⟩
  | 53 => ⟨S550000, .i32⟩
  | 54 => ⟨S550000, .i32⟩
  | 55 => ⟨S550000, .i32⟩
  | 56 => ⟨S550000x1, .i32⟩
  | 57 => ⟨S550000, .f32⟩
  | 58 => ⟨S550000, .f32⟩
  | 59 => ⟨S_, .i32⟩
  | 60 => ⟨S550000, .i32⟩
  | 61 => ⟨S550000, .i1⟩
  | 62 => ⟨S_, .i32⟩
  | 63 => ⟨S550000, .i32⟩
  | 64 => ⟨S550000, .i32⟩
  | 65 => ⟨S550000, .i32⟩
  | 66 => ⟨S550000x1, .i32⟩
  | 67 => ⟨S550000x128, .f32⟩
  | 68 => ⟨S550000x1, .f32⟩
  | 69 => ⟨S550000x128, .f32⟩
  | 70 => ⟨S550000x128, .f32⟩
  | 71 => ⟨S_, .f32⟩
  | 72 => ⟨S50000x128, .f32⟩
  | 73 => ⟨S550000x1, .i32⟩
  | 74 => ⟨S50000x128, .f32⟩
  | 75 => ⟨S1x128, .f32⟩
  | 76 => ⟨S50000x128, .f32⟩
  | 77 => ⟨S50000x128, .f32⟩
  | 78 => ⟨S1x2x500000, .i32⟩
  | 79 => ⟨S2x500000, .i32⟩
  | 80 => ⟨S1x128x128, .f32⟩
  | 81 => ⟨S128x128, .f32⟩
  | 82 => ⟨S1x128, .f32⟩
  | 83 => ⟨S128, .f32⟩
  | 84 => ⟨S50000x128, .f32⟩
  | 85 => ⟨S50000, .i32⟩
  | 86 => ⟨S1x500000, .i32⟩
  | 87 => ⟨S500000, .i32⟩
  | 88 => ⟨S550000, .i32⟩
  | 89 => ⟨S1x500000, .i32⟩
  | 90 => ⟨S500000, .i32⟩
  | 91 => ⟨S550000, .i32⟩
  | 92 => ⟨S_, .f32⟩
  | 93 => ⟨S550000, .f32⟩
  | 94 => ⟨S_, .f32⟩
  | 95 => ⟨S50000, .f32⟩
  | 96 => ⟨S550000x1, .i32⟩
  | 97 => ⟨S50000, .f32⟩
  | 98 => ⟨S_, .f32⟩
  | 99 => ⟨S50000, .f32⟩
  | 100 => ⟨S50000, .i1⟩
  | 101 => ⟨S50000, .f32⟩
  | 102 => ⟨S_, .f32⟩
  | 103 => ⟨S_, .f32⟩
  | 104 => ⟨S50000, .f32⟩
  | 105 => ⟨S50000, .f32⟩
  | 106 => ⟨S_, .i32⟩
  | 107 => ⟨S550000, .i32⟩
  | 108 => ⟨S550000, .i1⟩
  | 109 => ⟨S_, .i32⟩
  | 110 => ⟨S550000, .i32⟩
  | 111 => ⟨S550000, .i32⟩
  | 112 => ⟨S550000, .i32⟩
  | 113 => ⟨S550000x1, .i32⟩
  | 114 => ⟨S550000, .f32⟩
  | 115 => ⟨S_, .i32⟩
  | 116 => ⟨S550000, .i32⟩
  | 117 => ⟨S550000, .i1⟩
  | 118 => ⟨S_, .i32⟩
  | 119 => ⟨S550000, .i32⟩
  | 120 => ⟨S550000, .i32⟩
  | 121 => ⟨S550000, .i32⟩
  | 122 => ⟨S550000x1, .i32⟩
  | 123 => ⟨S550000, .f32⟩
  | 124 => ⟨S550000, .f32⟩
  | 125 => ⟨S_, .i32⟩
  | 126 => ⟨S550000, .i32⟩
  | 127 => ⟨S550000, .i1⟩
  | _ => ⟨S50000x128, .f32⟩

abbrev hbmTy0_1 (i : Nat) : BufTy := match i % 128 with
  | 0 => ⟨S_, .i32⟩
  | 1 => ⟨S550000, .i32⟩
  | 2 => ⟨S550000, .i32⟩
  | 3 => ⟨S550000, .i32⟩
  | 4 => ⟨S550000x1, .i32⟩
  | 5 => ⟨S550000x128, .f32⟩
  | 6 => ⟨S550000x1, .f32⟩
  | 7 => ⟨S550000x128, .f32⟩
  | 8 => ⟨S550000x128, .f32⟩
  | 9 => ⟨S_, .f32⟩
  | 10 => ⟨S50000x128, .f32⟩
  | 11 => ⟨S550000x1, .i32⟩
  | 12 => ⟨S50000x128, .f32⟩
  | 13 => ⟨S1x128, .f32⟩
  | 14 => ⟨S50000x128, .f32⟩
  | 15 => ⟨S50000x128, .f32⟩
  | 16 => ⟨S50000x128, .f32⟩
  | 17 => ⟨S1x2x500000, .i32⟩
  | 18 => ⟨S2x500000, .i32⟩
  | 19 => ⟨S1x128x128, .f32⟩
  | 20 => ⟨S128x128, .f32⟩
  | 21 => ⟨S1x128, .f32⟩
  | 22 => ⟨S128, .f32⟩
  | 23 => ⟨S50000x128, .f32⟩
  | 24 => ⟨S50000, .i32⟩
  | 25 => ⟨S1x500000, .i32⟩
  | 26 => ⟨S500000, .i32⟩
  | 27 => ⟨S550000, .i32⟩
  | 28 => ⟨S1x500000, .i32⟩
  | 29 => ⟨S500000, .i32⟩
  | 30 => ⟨S550000, .i32⟩
  | 31 => ⟨S_, .f32⟩
  | 32 => ⟨S550000, .f32⟩
  | 33 => ⟨S_, .f32⟩
  | 34 => ⟨S50000, .f32⟩
  | 35 => ⟨S550000x1, .i32⟩
  | 36 => ⟨S50000, .f32⟩
  | 37 => ⟨S_, .f32⟩
  | 38 => ⟨S50000, .f32⟩
  | 39 => ⟨S50000, .i1⟩
  | 40 => ⟨S50000, .f32⟩
  | 41 => ⟨S_, .f32⟩
  | 42 => ⟨S_, .f32⟩
  | 43 => ⟨S50000, .f32⟩
  | 44 => ⟨S50000, .f32⟩
  | 45 => ⟨S_, .i32⟩
  | 46 => ⟨S550000, .i32⟩
  | 47 => ⟨S550000, .i1⟩
  | 48 => ⟨S_, .i32⟩
  | 49 => ⟨S550000, .i32⟩
  | 50 => ⟨S550000, .i32⟩
  | 51 => ⟨S550000, .i32⟩
  | 52 => ⟨S550000x1, .i32⟩
  | 53 => ⟨S550000, .f32⟩
  | 54 => ⟨S_, .i32⟩
  | 55 => ⟨S550000, .i32⟩
  | 56 => ⟨S550000, .i1⟩
  | 57 => ⟨S_, .i32⟩
  | 58 => ⟨S550000, .i32⟩
  | 59 => ⟨S550000, .i32⟩
  | 60 => ⟨S550000, .i32⟩
  | 61 => ⟨S550000x1, .i32⟩
  | 62 => ⟨S550000, .f32⟩
  | 63 => ⟨S550000, .f32⟩
  | 64 => ⟨S_, .i32⟩
  | 65 => ⟨S550000, .i32⟩
  | 66 => ⟨S550000, .i1⟩
  | 67 => ⟨S_, .i32⟩
  | 68 => ⟨S550000, .i32⟩
  | 69 => ⟨S550000, .i32⟩
  | 70 => ⟨S550000, .i32⟩
  | 71 => ⟨S550000x1, .i32⟩
  | 72 => ⟨S550000x128, .f32⟩
  | 73 => ⟨S550000x1, .f32⟩
  | 74 => ⟨S550000x128, .f32⟩
  | 75 => ⟨S550000x128, .f32⟩
  | 76 => ⟨S_, .f32⟩
  | 77 => ⟨S50000x128, .f32⟩
  | 78 => ⟨S550000x1, .i32⟩
  | 79 => ⟨S50000x128, .f32⟩
  | 80 => ⟨S1x128, .f32⟩
  | 81 => ⟨S50000x128, .f32⟩
  | 82 => ⟨S50000x128, .f32⟩
  | 83 => ⟨S50000x128, .f32⟩
  | 84 => ⟨S1x2x500000, .i32⟩
  | 85 => ⟨S2x500000, .i32⟩
  | 86 => ⟨S1x128x128, .f32⟩
  | 87 => ⟨S128x128, .f32⟩
  | 88 => ⟨S1x128, .f32⟩
  | 89 => ⟨S128, .f32⟩
  | 90 => ⟨S50000x128, .f32⟩
  | 91 => ⟨S50000, .i32⟩
  | 92 => ⟨S1x500000, .i32⟩
  | 93 => ⟨S500000, .i32⟩
  | 94 => ⟨S550000, .i32⟩
  | 95 => ⟨S1x500000, .i32⟩
  | 96 => ⟨S500000, .i32⟩
  | 97 => ⟨S550000, .i32⟩
  | 98 => ⟨S_, .f32⟩
  | 99 => ⟨S550000, .f32⟩
  | 100 => ⟨S_, .f32⟩
  | 101 => ⟨S50000, .f32⟩
  | 102 => ⟨S550000x1, .i32⟩
  | 103 => ⟨S50000, .f32⟩
  | 104 => ⟨S_, .f32⟩
  | 105 => ⟨S50000, .f32⟩
  | 106 => ⟨S50000, .i1⟩
  | 107 => ⟨S50000, .f32⟩
  | 108 => ⟨S_, .f32⟩
  | 109 => ⟨S_, .f32⟩
  | 110 => ⟨S50000, .f32⟩
  | 111 => ⟨S50000, .f32⟩
  | 112 => ⟨S_, .i32⟩
  | 113 => ⟨S550000, .i32⟩
  | 114 => ⟨S550000, .i1⟩
  | 115 => ⟨S_, .i32⟩
  | 116 => ⟨S550000, .i32⟩
  | 117 => ⟨S550000, .i32⟩
  | 118 => ⟨S550000, .i32⟩
  | 119 => ⟨S550000x1, .i32⟩
  | 120 => ⟨S550000, .f32⟩
  | 121 => ⟨S_, .i32⟩
  | 122 => ⟨S550000, .i32⟩
  | 123 => ⟨S550000, .i1⟩
  | 124 => ⟨S_, .i32⟩
  | 125 => ⟨S550000, .i32⟩
  | 126 => ⟨S550000, .i32⟩
  | 127 => ⟨S550000, .i32⟩
  | _ => ⟨S50000x128, .f32⟩

abbrev hbmTy0_2 (i : Nat) : BufTy := match i % 128 with
  | 0 => ⟨S550000x1, .i32⟩
  | 1 => ⟨S550000, .f32⟩
  | 2 => ⟨S550000, .f32⟩
  | 3 => ⟨S_, .i32⟩
  | 4 => ⟨S550000, .i32⟩
  | 5 => ⟨S550000, .i1⟩
  | 6 => ⟨S_, .i32⟩
  | 7 => ⟨S550000, .i32⟩
  | 8 => ⟨S550000, .i32⟩
  | 9 => ⟨S550000, .i32⟩
  | 10 => ⟨S550000x1, .i32⟩
  | 11 => ⟨S550000x128, .f32⟩
  | 12 => ⟨S550000x1, .f32⟩
  | 13 => ⟨S550000x128, .f32⟩
  | 14 => ⟨S550000x128, .f32⟩
  | 15 => ⟨S_, .f32⟩
  | 16 => ⟨S50000x128, .f32⟩
  | 17 => ⟨S550000x1, .i32⟩
  | 18 => ⟨S50000x128, .f32⟩
  | 19 => ⟨S1x128, .f32⟩
  | 20 => ⟨S50000x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S1x2x500000, .i32⟩
  | 27 => ⟨S2x500000, .i32⟩
  | 28 => ⟨S1x128x128, .f32⟩
  | 29 => ⟨S128x128, .f32⟩
  | 30 => ⟨S1x128, .f32⟩
  | 31 => ⟨S128, .f32⟩
  | 32 => ⟨S50000x128, .f32⟩
  | 33 => ⟨S50000, .i32⟩
  | 34 => ⟨S1x500000, .i32⟩
  | 35 => ⟨S500000, .i32⟩
  | 36 => ⟨S550000, .i32⟩
  | 37 => ⟨S1x500000, .i32⟩
  | 38 => ⟨S500000, .i32⟩
  | 39 => ⟨S550000, .i32⟩
  | 40 => ⟨S_, .f32⟩
  | 41 => ⟨S550000, .f32⟩
  | 42 => ⟨S_, .f32⟩
  | 43 => ⟨S50000, .f32⟩
  | 44 => ⟨S550000x1, .i32⟩
  | 45 => ⟨S50000, .f32⟩
  | 46 => ⟨S_, .f32⟩
  | 47 => ⟨S50000, .f32⟩
  | 48 => ⟨S50000, .i1⟩
  | 49 => ⟨S50000, .f32⟩
  | 50 => ⟨S_, .f32⟩
  | 51 => ⟨S_, .f32⟩
  | 52 => ⟨S50000, .f32⟩
  | 53 => ⟨S50000, .f32⟩
  | 54 => ⟨S_, .i32⟩
  | 55 => ⟨S550000, .i32⟩
  | 56 => ⟨S550000, .i1⟩
  | 57 => ⟨S_, .i32⟩
  | 58 => ⟨S550000, .i32⟩
  | 59 => ⟨S550000, .i32⟩
  | 60 => ⟨S550000, .i32⟩
  | 61 => ⟨S550000x1, .i32⟩
  | 62 => ⟨S550000, .f32⟩
  | 63 => ⟨S_, .i32⟩
  | 64 => ⟨S550000, .i32⟩
  | 65 => ⟨S550000, .i1⟩
  | 66 => ⟨S_, .i32⟩
  | 67 => ⟨S550000, .i32⟩
  | 68 => ⟨S550000, .i32⟩
  | 69 => ⟨S550000, .i32⟩
  | 70 => ⟨S550000x1, .i32⟩
  | 71 => ⟨S550000, .f32⟩
  | 72 => ⟨S550000, .f32⟩
  | 73 => ⟨S_, .i32⟩
  | 74 => ⟨S550000, .i32⟩
  | 75 => ⟨S550000, .i1⟩
  | 76 => ⟨S_, .i32⟩
  | 77 => ⟨S550000, .i32⟩
  | 78 => ⟨S550000, .i32⟩
  | 79 => ⟨S550000, .i32⟩
  | 80 => ⟨S550000x1, .i32⟩
  | 81 => ⟨S550000x128, .f32⟩
  | 82 => ⟨S550000x1, .f32⟩
  | 83 => ⟨S550000x128, .f32⟩
  | 84 => ⟨S550000x128, .f32⟩
  | 85 => ⟨S_, .f32⟩
  | 86 => ⟨S50000x128, .f32⟩
  | 87 => ⟨S550000x1, .i32⟩
  | 88 => ⟨S50000x128, .f32⟩
  | 89 => ⟨S1x128, .f32⟩
  | 90 => ⟨S50000x128, .f32⟩
  | 91 => ⟨S50000x128, .f32⟩
  | 92 => ⟨S1x2x500000, .i32⟩
  | 93 => ⟨S2x500000, .i32⟩
  | 94 => ⟨S1x128x128, .f32⟩
  | 95 => ⟨S128x128, .f32⟩
  | 96 => ⟨S1x128, .f32⟩
  | 97 => ⟨S128, .f32⟩
  | 98 => ⟨S50000x128, .f32⟩
  | 99 => ⟨S50000, .i32⟩
  | 100 => ⟨S1x500000, .i32⟩
  | 101 => ⟨S500000, .i32⟩
  | 102 => ⟨S550000, .i32⟩
  | 103 => ⟨S1x500000, .i32⟩
  | 104 => ⟨S500000, .i32⟩
  | 105 => ⟨S550000, .i32⟩
  | 106 => ⟨S_, .f32⟩
  | 107 => ⟨S550000, .f32⟩
  | 108 => ⟨S_, .f32⟩
  | 109 => ⟨S50000, .f32⟩
  | 110 => ⟨S550000x1, .i32⟩
  | 111 => ⟨S50000, .f32⟩
  | 112 => ⟨S_, .f32⟩
  | 113 => ⟨S50000, .f32⟩
  | 114 => ⟨S50000, .i1⟩
  | 115 => ⟨S50000, .f32⟩
  | 116 => ⟨S_, .f32⟩
  | 117 => ⟨S_, .f32⟩
  | 118 => ⟨S50000, .f32⟩
  | 119 => ⟨S50000, .f32⟩
  | 120 => ⟨S_, .i32⟩
  | 121 => ⟨S550000, .i32⟩
  | 122 => ⟨S550000, .i1⟩
  | 123 => ⟨S_, .i32⟩
  | 124 => ⟨S550000, .i32⟩
  | 125 => ⟨S550000, .i32⟩
  | 126 => ⟨S550000, .i32⟩
  | 127 => ⟨S550000x1, .i32⟩
  | _ => ⟨S50000x128, .f32⟩

abbrev hbmTy0_3 (i : Nat) : BufTy := match i % 128 with
  | 0 => ⟨S550000, .f32⟩
  | 1 => ⟨S_, .i32⟩
  | 2 => ⟨S550000, .i32⟩
  | 3 => ⟨S550000, .i1⟩
  | 4 => ⟨S_, .i32⟩
  | 5 => ⟨S550000, .i32⟩
  | 6 => ⟨S550000, .i32⟩
  | 7 => ⟨S550000, .i32⟩
  | 8 => ⟨S550000x1, .i32⟩
  | 9 => ⟨S550000, .f32⟩
  | 10 => ⟨S550000, .f32⟩
  | 11 => ⟨S_, .i32⟩
  | 12 => ⟨S550000, .i32⟩
  | 13 => ⟨S550000, .i1⟩
  | 14 => ⟨S_, .i32⟩
  | 15 => ⟨S550000, .i32⟩
  | 16 => ⟨S550000, .i32⟩
  | 17 => ⟨S550000, .i32⟩
  | 18 => ⟨S550000x1, .i32⟩
  | 19 => ⟨S550000x128, .f32⟩
  | 20 => ⟨S550000x1, .f32⟩
  | 21 => ⟨S550000x128, .f32⟩
  | 22 => ⟨S550000x128, .f32⟩
  | 23 => ⟨S_, .f32⟩
  | 24 => ⟨S50000x128, .f32⟩
  | 25 => ⟨S550000x1, .i32⟩
  | 26 => ⟨S50000x128, .f32⟩
  | 27 => ⟨S1x128, .f32⟩
  | 28 => ⟨S50000x128, .f32⟩
  | 29 => ⟨S50000x128, .f32⟩
  | 30 => ⟨S50000x128, .f32⟩
  | 31 => ⟨S1x2x500000, .i32⟩
  | 32 => ⟨S2x500000, .i32⟩
  | 33 => ⟨S1x128x128, .f32⟩
  | 34 => ⟨S128x128, .f32⟩
  | 35 => ⟨S1x128, .f32⟩
  | 36 => ⟨S128, .f32⟩
  | 37 => ⟨S50000x128, .f32⟩
  | 38 => ⟨S50000, .i32⟩
  | 39 => ⟨S1x500000, .i32⟩
  | 40 => ⟨S500000, .i32⟩
  | 41 => ⟨S550000, .i32⟩
  | 42 => ⟨S1x500000, .i32⟩
  | 43 => ⟨S500000, .i32⟩
  | 44 => ⟨S550000, .i32⟩
  | 45 => ⟨S_, .f32⟩
  | 46 => ⟨S550000, .f32⟩
  | 47 => ⟨S_, .f32⟩
  | 48 => ⟨S50000, .f32⟩
  | 49 => ⟨S550000x1, .i32⟩
  | 50 => ⟨S50000, .f32⟩
  | 51 => ⟨S_, .f32⟩
  | 52 => ⟨S50000, .f32⟩
  | 53 => ⟨S50000, .i1⟩
  | 54 => ⟨S50000, .f32⟩
  | 55 => ⟨S_, .f32⟩
  | 56 => ⟨S_, .f32⟩
  | 57 => ⟨S50000, .f32⟩
  | 58 => ⟨S50000, .f32⟩
  | 59 => ⟨S_, .i32⟩
  | 60 => ⟨S550000, .i32⟩
  | 61 => ⟨S550000, .i1⟩
  | 62 => ⟨S_, .i32⟩
  | 63 => ⟨S550000, .i32⟩
  | 64 => ⟨S550000, .i32⟩
  | 65 => ⟨S550000, .i32⟩
  | 66 => ⟨S550000x1, .i32⟩
  | 67 => ⟨S550000, .f32⟩
  | 68 => ⟨S_, .i32⟩
  | 69 => ⟨S550000, .i32⟩
  | 70 => ⟨S550000, .i1⟩
  | 71 => ⟨S_, .i32⟩
  | 72 => ⟨S550000, .i32⟩
  | 73 => ⟨S550000, .i32⟩
  | 74 => ⟨S550000, .i32⟩
  | 75 => ⟨S550000x1, .i32⟩
  | 76 => ⟨S550000, .f32⟩
  | 77 => ⟨S550000, .f32⟩
  | 78 => ⟨S_, .i32⟩
  | 79 => ⟨S550000, .i32⟩
  | 80 => ⟨S550000, .i1⟩
  | 81 => ⟨S_, .i32⟩
  | 82 => ⟨S550000, .i32⟩
  | 83 => ⟨S550000, .i32⟩
  | 84 => ⟨S550000, .i32⟩
  | 85 => ⟨S550000x1, .i32⟩
  | 86 => ⟨S550000x128, .f32⟩
  | 87 => ⟨S550000x1, .f32⟩
  | 88 => ⟨S550000x128, .f32⟩
  | 89 => ⟨S550000x128, .f32⟩
  | 90 => ⟨S_, .f32⟩
  | 91 => ⟨S50000x128, .f32⟩
  | 92 => ⟨S550000x1, .i32⟩
  | 93 => ⟨S50000x128, .f32⟩
  | 94 => ⟨S1x128, .f32⟩
  | 95 => ⟨S50000x128, .f32⟩
  | 96 => ⟨S50000x128, .f32⟩
  | 97 => ⟨S50000x128, .f32⟩
  | 98 => ⟨S1x2x500000, .i32⟩
  | 99 => ⟨S2x500000, .i32⟩
  | 100 => ⟨S1x128x128, .f32⟩
  | 101 => ⟨S128x128, .f32⟩
  | 102 => ⟨S1x128, .f32⟩
  | 103 => ⟨S128, .f32⟩
  | 104 => ⟨S50000x128, .f32⟩
  | 105 => ⟨S50000, .i32⟩
  | 106 => ⟨S1x500000, .i32⟩
  | 107 => ⟨S500000, .i32⟩
  | 108 => ⟨S550000, .i32⟩
  | 109 => ⟨S1x500000, .i32⟩
  | 110 => ⟨S500000, .i32⟩
  | 111 => ⟨S550000, .i32⟩
  | 112 => ⟨S_, .f32⟩
  | 113 => ⟨S550000, .f32⟩
  | 114 => ⟨S_, .f32⟩
  | 115 => ⟨S50000, .f32⟩
  | 116 => ⟨S550000x1, .i32⟩
  | 117 => ⟨S50000, .f32⟩
  | 118 => ⟨S_, .f32⟩
  | 119 => ⟨S50000, .f32⟩
  | 120 => ⟨S50000, .i1⟩
  | 121 => ⟨S50000, .f32⟩
  | 122 => ⟨S_, .f32⟩
  | 123 => ⟨S_, .f32⟩
  | 124 => ⟨S50000, .f32⟩
  | 125 => ⟨S50000, .f32⟩
  | 126 => ⟨S_, .i32⟩
  | 127 => ⟨S550000, .i32⟩
  | _ => ⟨S50000x128, .f32⟩

abbrev hbmTy0_4 (i : Nat) : BufTy := match i % 128 with
  | 0 => ⟨S550000, .i1⟩
  | 1 => ⟨S_, .i32⟩
  | 2 => ⟨S550000, .i32⟩
  | 3 => ⟨S550000, .i32⟩
  | 4 => ⟨S550000, .i32⟩
  | 5 => ⟨S550000x1, .i32⟩
  | 6 => ⟨S550000, .f32⟩
  | 7 => ⟨S_, .i32⟩
  | 8 => ⟨S550000, .i32⟩
  | 9 => ⟨S550000, .i1⟩
  | 10 => ⟨S_, .i32⟩
  | 11 => ⟨S550000, .i32⟩
  | 12 => ⟨S550000, .i32⟩
  | 13 => ⟨S550000, .i32⟩
  | 14 => ⟨S550000x1, .i32⟩
  | 15 => ⟨S550000, .f32⟩
  | 16 => ⟨S550000, .f32⟩
  | 17 => ⟨S_, .i32⟩
  | 18 => ⟨S550000, .i32⟩
  | 19 => ⟨S550000, .i1⟩
  | 20 => ⟨S_, .i32⟩
  | 21 => ⟨S550000, .i32⟩
  | 22 => ⟨S550000, .i32⟩
  | 23 => ⟨S550000, .i32⟩
  | 24 => ⟨S550000x1, .i32⟩
  | 25 => ⟨S550000x128, .f32⟩
  | 26 => ⟨S550000x1, .f32⟩
  | 27 => ⟨S550000x128, .f32⟩
  | 28 => ⟨S550000x128, .f32⟩
  | 29 => ⟨S_, .f32⟩
  | 30 => ⟨S50000x128, .f32⟩
  | 31 => ⟨S550000x1, .i32⟩
  | 32 => ⟨S50000x128, .f32⟩
  | 33 => ⟨S1x128, .f32⟩
  | 34 => ⟨S50000x128, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S_, .f32⟩
  | 41 => ⟨S128, .f32⟩
  | 42 => ⟨S_, .f32⟩
  | 43 => ⟨S128, .f32⟩
  | 44 => ⟨S128, .f32⟩
  | 45 => ⟨S_, .i32⟩
  | 46 => ⟨S_, .f32⟩
  | 47 => ⟨S128, .f32⟩
  | 48 => ⟨S1x128, .f32⟩
  | 49 => ⟨S_, .f32⟩
  | 50 => ⟨S1x128, .f32⟩
  | 51 => ⟨S1x128, .f32⟩
  | 52 => ⟨S50000x128, .f32⟩
  | 53 => ⟨S50000x128, .f32⟩
  | 54 => ⟨S50000x128, .f32⟩
  | 55 => ⟨S_, .f32⟩
  | 56 => ⟨S_, .f32⟩
  | 57 => ⟨S_, .f32⟩
  | 58 => ⟨S_, .f32⟩
  | 59 => ⟨S128, .f32⟩
  | 60 => ⟨S128, .f32⟩
  | 61 => ⟨S128, .f32⟩
  | 62 => ⟨S_, .f32⟩
  | 63 => ⟨S_, .i1⟩
  | 64 => ⟨S_, .f32⟩
  | 65 => ⟨S_, .f32⟩
  | 66 => ⟨S128, .f32⟩
  | 67 => ⟨S128, .f32⟩
  | 68 => ⟨S1x128, .f32⟩
  | 69 => ⟨S50000x128, .f32⟩
  | 70 => ⟨S50000x128, .f32⟩
  | 71 => ⟨S_, .f32⟩
  | 72 => ⟨S128, .f32⟩
  | 73 => ⟨S128, .f32⟩
  | 74 => ⟨S128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S50000x2, .f32⟩
  | 92 => ⟨S1x2, .f32⟩
  | 93 => ⟨S50000x2, .f32⟩
  | 94 => ⟨S50000x2, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v21 : Ref sig .tc := ⟨.hbm, 39, rfl⟩
abbrev main_c : Ref sig .tc := ⟨.hbm, 40, rfl⟩
abbrev main_v22 : Ref sig .tc := ⟨.hbm, 41, rfl⟩
abbrev main_v23 : Ref sig .tc := ⟨.hbm, 42, rfl⟩
abbrev main_c_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_9 : Ref sig .tc := ⟨.hbm, 92, rfl⟩
abbrev main_v67 : Ref sig .tc := ⟨.hbm, 93, rfl⟩
abbrev main_cst_10 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_11 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_12 : Ref sig .tc := ⟨.hbm, 102, rfl⟩
abbrev main_call1_v0 : Ref sig .tc := ⟨.hbm, 103, rfl⟩
abbrev main_call1_v1 : Ref sig .tc := ⟨.hbm, 104, rfl⟩
abbrev main_v74 : Ref sig .tc := ⟨.hbm, 105, rfl⟩
abbrev main_c_13 : Ref sig .tc := ⟨.hbm, 106, rfl⟩
abbrev main_v75 : Ref sig .tc := ⟨.hbm, 107, rfl⟩
abbrev main_v76 : Ref sig .tc := ⟨.hbm, 108, rfl⟩
abbrev main_c_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_c_15 : Ref sig .tc := ⟨.hbm, 115, rfl⟩
abbrev main_v82 : Ref sig .tc := ⟨.hbm, 116, rfl⟩
abbrev main_v83 : Ref sig .tc := ⟨.hbm, 117, rfl⟩
abbrev main_c_16 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_c_17 : Ref sig .tc := ⟨.hbm, 125, rfl⟩
abbrev main_v90 : Ref sig .tc := ⟨.hbm, 126, rfl⟩
abbrev main_v91 : Ref sig .tc := ⟨.hbm, 127, rfl⟩
abbrev main_c_18 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_19 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_cst_20 : Ref sig .tc := ⟨.hbm, 159, rfl⟩
abbrev main_v121 : Ref sig .tc := ⟨.hbm, 160, rfl⟩
abbrev main_cst_21 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_22 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_23 : Ref sig .tc := ⟨.hbm, 169, rfl⟩
abbrev main_call2_v0 : Ref sig .tc := ⟨.hbm, 170, rfl⟩
abbrev main_call2_v1 : Ref sig .tc := ⟨.hbm, 171, rfl⟩
abbrev main_v128 : Ref sig .tc := ⟨.hbm, 172, rfl⟩
abbrev main_c_24 : Ref sig .tc := ⟨.hbm, 173, rfl⟩
abbrev main_v129 : Ref sig .tc := ⟨.hbm, 174, rfl⟩
abbrev main_v130 : Ref sig .tc := ⟨.hbm, 175, rfl⟩
abbrev main_c_25 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_c_26 : Ref sig .tc := ⟨.hbm, 182, rfl⟩
abbrev main_v136 : Ref sig .tc := ⟨.hbm, 183, rfl⟩
abbrev main_v137 : Ref sig .tc := ⟨.hbm, 184, rfl⟩
abbrev main_c_27 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_c_28 : Ref sig .tc := ⟨.hbm, 192, rfl⟩
abbrev main_v144 : Ref sig .tc := ⟨.hbm, 193, rfl⟩
abbrev main_v145 : Ref sig .tc := ⟨.hbm, 194, rfl⟩
abbrev main_c_29 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_cst_30 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_cst_31 : Ref sig .tc := ⟨.hbm, 226, rfl⟩
abbrev main_v175 : Ref sig .tc := ⟨.hbm, 227, rfl⟩
abbrev main_cst_32 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_cst_33 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_cst_34 : Ref sig .tc := ⟨.hbm, 236, rfl⟩
abbrev main_call3_v0 : Ref sig .tc := ⟨.hbm, 237, rfl⟩
abbrev main_call3_v1 : Ref sig .tc := ⟨.hbm, 238, rfl⟩
abbrev main_v182 : Ref sig .tc := ⟨.hbm, 239, rfl⟩
abbrev main_c_35 : Ref sig .tc := ⟨.hbm, 240, rfl⟩
abbrev main_v183 : Ref sig .tc := ⟨.hbm, 241, rfl⟩
abbrev main_v184 : Ref sig .tc := ⟨.hbm, 242, rfl⟩
abbrev main_c_36 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_c_37 : Ref sig .tc := ⟨.hbm, 249, rfl⟩
abbrev main_v190 : Ref sig .tc := ⟨.hbm, 250, rfl⟩
abbrev main_v191 : Ref sig .tc := ⟨.hbm, 251, rfl⟩
abbrev main_c_38 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_c_39 : Ref sig .tc := ⟨.hbm, 259, rfl⟩
abbrev main_v198 : Ref sig .tc := ⟨.hbm, 260, rfl⟩
abbrev main_v199 : Ref sig .tc := ⟨.hbm, 261, rfl⟩
abbrev main_c_40 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_cst_41 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_call4_cst : Ref sig .tc := ⟨.hbm, 279, rfl⟩
abbrev main_call4_v0 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_cst_42 : Ref sig .tc := ⟨.hbm, 296, rfl⟩
abbrev main_v230 : Ref sig .tc := ⟨.hbm, 297, rfl⟩
abbrev main_cst_43 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_cst_44 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_cst_45 : Ref sig .tc := ⟨.hbm, 306, rfl⟩
abbrev main_call5_v0 : Ref sig .tc := ⟨.hbm, 307, rfl⟩
abbrev main_call5_v1 : Ref sig .tc := ⟨.hbm, 308, rfl⟩
abbrev main_v237 : Ref sig .tc := ⟨.hbm, 309, rfl⟩
abbrev main_c_46 : Ref sig .tc := ⟨.hbm, 310, rfl⟩
abbrev main_v238 : Ref sig .tc := ⟨.hbm, 311, rfl⟩
abbrev main_v239 : Ref sig .tc := ⟨.hbm, 312, rfl⟩
abbrev main_c_47 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_c_48 : Ref sig .tc := ⟨.hbm, 319, rfl⟩
abbrev main_v245 : Ref sig .tc := ⟨.hbm, 320, rfl⟩
abbrev main_v246 : Ref sig .tc := ⟨.hbm, 321, rfl⟩
abbrev main_c_49 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_c_50 : Ref sig .tc := ⟨.hbm, 329, rfl⟩
abbrev main_v253 : Ref sig .tc := ⟨.hbm, 330, rfl⟩
abbrev main_v254 : Ref sig .tc := ⟨.hbm, 331, rfl⟩
abbrev main_c_51 : Ref sig .tc := ⟨.hbm, 332, rfl⟩
abbrev main_v255 : Ref sig .tc := ⟨.hbm, 333, rfl⟩
abbrev main_v256 : Ref sig .tc := ⟨.hbm, 334, rfl⟩
abbrev main_v257 : Ref sig .tc := ⟨.hbm, 335, rfl⟩
abbrev main_v258 : Ref sig .tc := ⟨.hbm, 336, rfl⟩
abbrev main_v259 : Ref sig .tc := ⟨.hbm, 337, rfl⟩
abbrev main_v260 : Ref sig .tc := ⟨.hbm, 338, rfl⟩
abbrev main_v261 : Ref sig .tc := ⟨.hbm, 339, rfl⟩
abbrev main_v262 : Ref sig .tc := ⟨.hbm, 340, rfl⟩
abbrev main_cst_52 : Ref sig .tc := ⟨.hbm, 341, rfl⟩
abbrev main_v263 : Ref sig .tc := ⟨.hbm, 342, rfl⟩
abbrev main_v264 : Ref sig .tc := ⟨.hbm, 343, rfl⟩
abbrev main_v265 : Ref sig .tc := ⟨.hbm, 344, rfl⟩
abbrev main_v266 : Ref sig .tc := ⟨.hbm, 345, rfl⟩
abbrev main_v267 : Ref sig .tc := ⟨.hbm, 346, rfl⟩
abbrev main_v268 : Ref sig .tc := ⟨.hbm, 347, rfl⟩
abbrev main_v269 : Ref sig .tc := ⟨.hbm, 348, rfl⟩
abbrev main_v270 : Ref sig .tc := ⟨.hbm, 349, rfl⟩
abbrev main_v271 : Ref sig .tc := ⟨.hbm, 350, rfl⟩
abbrev main_v272 : Ref sig .tc := ⟨.hbm, 351, rfl⟩
abbrev main_v273 : Ref sig .tc := ⟨.hbm, 352, rfl⟩
abbrev main_v274 : Ref sig .tc := ⟨.hbm, 353, rfl⟩
abbrev main_v275 : Ref sig .tc := ⟨.hbm, 354, rfl⟩
abbrev main_v276 : Ref sig .tc := ⟨.hbm, 355, rfl⟩
abbrev main_v277 : Ref sig .tc := ⟨.hbm, 356, rfl⟩
abbrev main_v278 : Ref sig .tc := ⟨.hbm, 357, rfl⟩
abbrev main_v279 : Ref sig .tc := ⟨.hbm, 358, rfl⟩
abbrev main_v280 : Ref sig .tc := ⟨.hbm, 359, rfl⟩
abbrev main_v281 : Ref sig .tc := ⟨.hbm, 360, rfl⟩
abbrev main_v282 : Ref sig .tc := ⟨.hbm, 361, rfl⟩
abbrev main_cst_53 : Ref sig .tc := ⟨.hbm, 362, rfl⟩
abbrev main_v283 : Ref sig .tc := ⟨.hbm, 363, rfl⟩
abbrev main_cst_54 : Ref sig .tc := ⟨.hbm, 364, rfl⟩
abbrev main_v284 : Ref sig .tc := ⟨.hbm, 365, rfl⟩
abbrev main_v285 : Ref sig .tc := ⟨.hbm, 366, rfl⟩
abbrev main_v286 : Ref sig .tc := ⟨.hbm, 367, rfl⟩
abbrev main_cst_55 : Ref sig .tc := ⟨.hbm, 368, rfl⟩
abbrev main_v287 : Ref sig .tc := ⟨.hbm, 369, rfl⟩
abbrev main_v288 : Ref sig .tc := ⟨.hbm, 370, rfl⟩
abbrev main_v289 : Ref sig .tc := ⟨.hbm, 371, rfl⟩
abbrev main_cst_56 : Ref sig .tc := ⟨.hbm, 372, rfl⟩
abbrev main_call6_v0 : Ref sig .tc := ⟨.hbm, 373, rfl⟩
abbrev main_call6_v1 : Ref sig .tc := ⟨.hbm, 374, rfl⟩
abbrev main_v290 : Ref sig .tc := ⟨.hbm, 375, rfl⟩
abbrev main_c_57 : Ref sig .tc := ⟨.hbm, 376, rfl⟩
abbrev main_v291 : Ref sig .tc := ⟨.hbm, 377, rfl⟩
abbrev main_v292 : Ref sig .tc := ⟨.hbm, 378, rfl⟩
abbrev main_c_58 : Ref sig .tc := ⟨.hbm, 379, rfl⟩
abbrev main_v293 : Ref sig .tc := ⟨.hbm, 380, rfl⟩
abbrev main_v294 : Ref sig .tc := ⟨.hbm, 381, rfl⟩
abbrev main_v295 : Ref sig .tc := ⟨.hbm, 382, rfl⟩
abbrev main_v296 : Ref sig .tc := ⟨.hbm, 383, rfl⟩
abbrev main_v297 : Ref sig .tc := ⟨.hbm, 384, rfl⟩
abbrev main_c_59 : Ref sig .tc := ⟨.hbm, 385, rfl⟩
abbrev main_v298 : Ref sig .tc := ⟨.hbm, 386, rfl⟩
abbrev main_v299 : Ref sig .tc := ⟨.hbm, 387, rfl⟩
abbrev main_c_60 : Ref sig .tc := ⟨.hbm, 388, rfl⟩
abbrev main_v300 : Ref sig .tc := ⟨.hbm, 389, rfl⟩
abbrev main_v301 : Ref sig .tc := ⟨.hbm, 390, rfl⟩
abbrev main_v302 : Ref sig .tc := ⟨.hbm, 391, rfl⟩
abbrev main_v303 : Ref sig .tc := ⟨.hbm, 392, rfl⟩
abbrev main_v304 : Ref sig .tc := ⟨.hbm, 393, rfl⟩
abbrev main_v305 : Ref sig .tc := ⟨.hbm, 394, rfl⟩
abbrev main_c_61 : Ref sig .tc := ⟨.hbm, 395, rfl⟩
abbrev main_v306 : Ref sig .tc := ⟨.hbm, 396, rfl⟩
abbrev main_v307 : Ref sig .tc := ⟨.hbm, 397, rfl⟩
abbrev main_c_62 : Ref sig .tc := ⟨.hbm, 398, rfl⟩
abbrev main_v308 : Ref sig .tc := ⟨.hbm, 399, rfl⟩
abbrev main_v309 : Ref sig .tc := ⟨.hbm, 400, rfl⟩
abbrev main_v310 : Ref sig .tc := ⟨.hbm, 401, rfl⟩
abbrev main_v311 : Ref sig .tc := ⟨.hbm, 402, rfl⟩
abbrev main_v312 : Ref sig .tc := ⟨.hbm, 403, rfl⟩
abbrev main_v313 : Ref sig .tc := ⟨.hbm, 404, rfl⟩
abbrev main_v314 : Ref sig .tc := ⟨.hbm, 405, rfl⟩
abbrev main_v315 : Ref sig .tc := ⟨.hbm, 406, rfl⟩
abbrev main_cst_63 : Ref sig .tc := ⟨.hbm, 407, rfl⟩
abbrev main_v316 : Ref sig .tc := ⟨.hbm, 408, rfl⟩
abbrev main_v317 : Ref sig .tc := ⟨.hbm, 409, rfl⟩
abbrev main_v318 : Ref sig .tc := ⟨.hbm, 410, rfl⟩
abbrev main_v319 : Ref sig .tc := ⟨.hbm, 411, rfl⟩
abbrev main_v320 : Ref sig .tc := ⟨.hbm, 412, rfl⟩
abbrev main_v321 : Ref sig .tc := ⟨.hbm, 413, rfl⟩
abbrev main_v322 : Ref sig .tc := ⟨.hbm, 414, rfl⟩
abbrev main_v323 : Ref sig .tc := ⟨.hbm, 415, rfl⟩
abbrev main_v324 : Ref sig .tc := ⟨.hbm, 416, rfl⟩
abbrev main_v325 : Ref sig .tc := ⟨.hbm, 417, rfl⟩
abbrev main_v326 : Ref sig .tc := ⟨.hbm, 418, rfl⟩
abbrev main_v327 : Ref sig .tc := ⟨.hbm, 419, rfl⟩
abbrev main_v328 : Ref sig .tc := ⟨.hbm, 420, rfl⟩
abbrev main_v329 : Ref sig .tc := ⟨.hbm, 421, rfl⟩
abbrev main_v330 : Ref sig .tc := ⟨.hbm, 422, rfl⟩
abbrev main_v331 : Ref sig .tc := ⟨.hbm, 423, rfl⟩
abbrev main_v332 : Ref sig .tc := ⟨.hbm, 424, rfl⟩
abbrev main_v333 : Ref sig .tc := ⟨.hbm, 425, rfl⟩
abbrev main_v334 : Ref sig .tc := ⟨.hbm, 426, rfl⟩
abbrev main_v335 : Ref sig .tc := ⟨.hbm, 427, rfl⟩
abbrev main_v336 : Ref sig .tc := ⟨.hbm, 428, rfl⟩
abbrev main_cst_64 : Ref sig .tc := ⟨.hbm, 429, rfl⟩
abbrev main_v337 : Ref sig .tc := ⟨.hbm, 430, rfl⟩
abbrev main_cst_65 : Ref sig .tc := ⟨.hbm, 431, rfl⟩
abbrev main_v338 : Ref sig .tc := ⟨.hbm, 432, rfl⟩
abbrev main_v339 : Ref sig .tc := ⟨.hbm, 433, rfl⟩
abbrev main_v340 : Ref sig .tc := ⟨.hbm, 434, rfl⟩
abbrev main_cst_66 : Ref sig .tc := ⟨.hbm, 435, rfl⟩
abbrev main_v341 : Ref sig .tc := ⟨.hbm, 436, rfl⟩
abbrev main_v342 : Ref sig .tc := ⟨.hbm, 437, rfl⟩
abbrev main_v343 : Ref sig .tc := ⟨.hbm, 438, rfl⟩
abbrev main_cst_67 : Ref sig .tc := ⟨.hbm, 439, rfl⟩
abbrev main_call7_v0 : Ref sig .tc := ⟨.hbm, 440, rfl⟩
abbrev main_call7_v1 : Ref sig .tc := ⟨.hbm, 441, rfl⟩
abbrev main_v344 : Ref sig .tc := ⟨.hbm, 442, rfl⟩
abbrev main_c_68 : Ref sig .tc := ⟨.hbm, 443, rfl⟩
abbrev main_v345 : Ref sig .tc := ⟨.hbm, 444, rfl⟩
abbrev main_v346 : Ref sig .tc := ⟨.hbm, 445, rfl⟩
abbrev main_c_69 : Ref sig .tc := ⟨.hbm, 446, rfl⟩
abbrev main_v347 : Ref sig .tc := ⟨.hbm, 447, rfl⟩
abbrev main_v348 : Ref sig .tc := ⟨.hbm, 448, rfl⟩
abbrev main_v349 : Ref sig .tc := ⟨.hbm, 449, rfl⟩
abbrev main_v350 : Ref sig .tc := ⟨.hbm, 450, rfl⟩
abbrev main_v351 : Ref sig .tc := ⟨.hbm, 451, rfl⟩
abbrev main_c_70 : Ref sig .tc := ⟨.hbm, 452, rfl⟩
abbrev main_v352 : Ref sig .tc := ⟨.hbm, 453, rfl⟩
abbrev main_v353 : Ref sig .tc := ⟨.hbm, 454, rfl⟩
abbrev main_c_71 : Ref sig .tc := ⟨.hbm, 455, rfl⟩
abbrev main_v354 : Ref sig .tc := ⟨.hbm, 456, rfl⟩
abbrev main_v355 : Ref sig .tc := ⟨.hbm, 457, rfl⟩
abbrev main_v356 : Ref sig .tc := ⟨.hbm, 458, rfl⟩
abbrev main_v357 : Ref sig .tc := ⟨.hbm, 459, rfl⟩
abbrev main_v358 : Ref sig .tc := ⟨.hbm, 460, rfl⟩
abbrev main_v359 : Ref sig .tc := ⟨.hbm, 461, rfl⟩
abbrev main_c_72 : Ref sig .tc := ⟨.hbm, 462, rfl⟩
abbrev main_v360 : Ref sig .tc := ⟨.hbm, 463, rfl⟩
abbrev main_v361 : Ref sig .tc := ⟨.hbm, 464, rfl⟩
abbrev main_c_73 : Ref sig .tc := ⟨.hbm, 465, rfl⟩
abbrev main_v362 : Ref sig .tc := ⟨.hbm, 466, rfl⟩
abbrev main_v363 : Ref sig .tc := ⟨.hbm, 467, rfl⟩
abbrev main_v364 : Ref sig .tc := ⟨.hbm, 468, rfl⟩
abbrev main_v365 : Ref sig .tc := ⟨.hbm, 469, rfl⟩
abbrev main_v366 : Ref sig .tc := ⟨.hbm, 470, rfl⟩
abbrev main_v367 : Ref sig .tc := ⟨.hbm, 471, rfl⟩
abbrev main_v368 : Ref sig .tc := ⟨.hbm, 472, rfl⟩
abbrev main_v369 : Ref sig .tc := ⟨.hbm, 473, rfl⟩
abbrev main_cst_74 : Ref sig .tc := ⟨.hbm, 474, rfl⟩
abbrev main_v370 : Ref sig .tc := ⟨.hbm, 475, rfl⟩
abbrev main_v371 : Ref sig .tc := ⟨.hbm, 476, rfl⟩
abbrev main_v372 : Ref sig .tc := ⟨.hbm, 477, rfl⟩
abbrev main_v373 : Ref sig .tc := ⟨.hbm, 478, rfl⟩
abbrev main_v374 : Ref sig .tc := ⟨.hbm, 479, rfl⟩
abbrev main_v375 : Ref sig .tc := ⟨.hbm, 480, rfl⟩
abbrev main_v376 : Ref sig .tc := ⟨.hbm, 481, rfl⟩
abbrev main_v377 : Ref sig .tc := ⟨.hbm, 482, rfl⟩
abbrev main_v378 : Ref sig .tc := ⟨.hbm, 483, rfl⟩
abbrev main_v379 : Ref sig .tc := ⟨.hbm, 484, rfl⟩
abbrev main_v380 : Ref sig .tc := ⟨.hbm, 485, rfl⟩
abbrev main_v381 : Ref sig .tc := ⟨.hbm, 486, rfl⟩
abbrev main_v382 : Ref sig .tc := ⟨.hbm, 487, rfl⟩
abbrev main_v383 : Ref sig .tc := ⟨.hbm, 488, rfl⟩
abbrev main_v384 : Ref sig .tc := ⟨.hbm, 489, rfl⟩
abbrev main_v385 : Ref sig .tc := ⟨.hbm, 490, rfl⟩
abbrev main_v386 : Ref sig .tc := ⟨.hbm, 491, rfl⟩
abbrev main_v387 : Ref sig .tc := ⟨.hbm, 492, rfl⟩
abbrev main_v388 : Ref sig .tc := ⟨.hbm, 493, rfl⟩
abbrev main_v389 : Ref sig .tc := ⟨.hbm, 494, rfl⟩
abbrev main_v390 : Ref sig .tc := ⟨.hbm, 495, rfl⟩
abbrev main_cst_75 : Ref sig .tc := ⟨.hbm, 496, rfl⟩
abbrev main_v391 : Ref sig .tc := ⟨.hbm, 497, rfl⟩
abbrev main_cst_76 : Ref sig .tc := ⟨.hbm, 498, rfl⟩
abbrev main_v392 : Ref sig .tc := ⟨.hbm, 499, rfl⟩
abbrev main_v393 : Ref sig .tc := ⟨.hbm, 500, rfl⟩
abbrev main_v394 : Ref sig .tc := ⟨.hbm, 501, rfl⟩
abbrev main_cst_77 : Ref sig .tc := ⟨.hbm, 502, rfl⟩
abbrev main_v395 : Ref sig .tc := ⟨.hbm, 503, rfl⟩
abbrev main_v396 : Ref sig .tc := ⟨.hbm, 504, rfl⟩
abbrev main_v397 : Ref sig .tc := ⟨.hbm, 505, rfl⟩
abbrev main_cst_78 : Ref sig .tc := ⟨.hbm, 506, rfl⟩
abbrev main_call8_v0 : Ref sig .tc := ⟨.hbm, 507, rfl⟩
abbrev main_call8_v1 : Ref sig .tc := ⟨.hbm, 508, rfl⟩
abbrev main_v398 : Ref sig .tc := ⟨.hbm, 509, rfl⟩
abbrev main_c_79 : Ref sig .tc := ⟨.hbm, 510, rfl⟩
abbrev main_v399 : Ref sig .tc := ⟨.hbm, 511, rfl⟩
abbrev main_v400 : Ref sig .tc := ⟨.hbm, 512, rfl⟩
abbrev main_c_80 : Ref sig .tc := ⟨.hbm, 513, rfl⟩
abbrev main_v401 : Ref sig .tc := ⟨.hbm, 514, rfl⟩
abbrev main_v402 : Ref sig .tc := ⟨.hbm, 515, rfl⟩
abbrev main_v403 : Ref sig .tc := ⟨.hbm, 516, rfl⟩
abbrev main_v404 : Ref sig .tc := ⟨.hbm, 517, rfl⟩
abbrev main_v405 : Ref sig .tc := ⟨.hbm, 518, rfl⟩
abbrev main_c_81 : Ref sig .tc := ⟨.hbm, 519, rfl⟩
abbrev main_v406 : Ref sig .tc := ⟨.hbm, 520, rfl⟩
abbrev main_v407 : Ref sig .tc := ⟨.hbm, 521, rfl⟩
abbrev main_c_82 : Ref sig .tc := ⟨.hbm, 522, rfl⟩
abbrev main_v408 : Ref sig .tc := ⟨.hbm, 523, rfl⟩
abbrev main_v409 : Ref sig .tc := ⟨.hbm, 524, rfl⟩
abbrev main_v410 : Ref sig .tc := ⟨.hbm, 525, rfl⟩
abbrev main_v411 : Ref sig .tc := ⟨.hbm, 526, rfl⟩
abbrev main_v412 : Ref sig .tc := ⟨.hbm, 527, rfl⟩
abbrev main_v413 : Ref sig .tc := ⟨.hbm, 528, rfl⟩
abbrev main_c_83 : Ref sig .tc := ⟨.hbm, 529, rfl⟩
abbrev main_v414 : Ref sig .tc := ⟨.hbm, 530, rfl⟩
abbrev main_v415 : Ref sig .tc := ⟨.hbm, 531, rfl⟩
abbrev main_c_84 : Ref sig .tc := ⟨.hbm, 532, rfl⟩
abbrev main_v416 : Ref sig .tc := ⟨.hbm, 533, rfl⟩
abbrev main_v417 : Ref sig .tc := ⟨.hbm, 534, rfl⟩
abbrev main_v418 : Ref sig .tc := ⟨.hbm, 535, rfl⟩
abbrev main_v419 : Ref sig .tc := ⟨.hbm, 536, rfl⟩
abbrev main_v420 : Ref sig .tc := ⟨.hbm, 537, rfl⟩
abbrev main_v421 : Ref sig .tc := ⟨.hbm, 538, rfl⟩
abbrev main_v422 : Ref sig .tc := ⟨.hbm, 539, rfl⟩
abbrev main_v423 : Ref sig .tc := ⟨.hbm, 540, rfl⟩
abbrev main_cst_85 : Ref sig .tc := ⟨.hbm, 541, rfl⟩
abbrev main_v424 : Ref sig .tc := ⟨.hbm, 542, rfl⟩
abbrev main_v425 : Ref sig .tc := ⟨.hbm, 543, rfl⟩
abbrev main_v426 : Ref sig .tc := ⟨.hbm, 544, rfl⟩
abbrev main_v427 : Ref sig .tc := ⟨.hbm, 545, rfl⟩
abbrev main_v428 : Ref sig .tc := ⟨.hbm, 546, rfl⟩
abbrev main_v429 : Ref sig .tc := ⟨.hbm, 547, rfl⟩
abbrev main_v430 : Ref sig .tc := ⟨.hbm, 548, rfl⟩
abbrev main_call9_cst : Ref sig .tc := ⟨.hbm, 549, rfl⟩
abbrev main_call9_v0 : Ref sig .tc := ⟨.hbm, 550, rfl⟩
abbrev main_v431 : Ref sig .tc := ⟨.hbm, 551, rfl⟩
abbrev main_cst_86 : Ref sig .tc := ⟨.hbm, 552, rfl⟩
abbrev main_v432 : Ref sig .tc := ⟨.hbm, 553, rfl⟩
abbrev main_cst_87 : Ref sig .tc := ⟨.hbm, 554, rfl⟩
abbrev main_v433 : Ref sig .tc := ⟨.hbm, 555, rfl⟩
abbrev main_v434 : Ref sig .tc := ⟨.hbm, 556, rfl⟩
abbrev main_c_88 : Ref sig .tc := ⟨.hbm, 557, rfl⟩
abbrev main_call10_cst : Ref sig .tc := ⟨.hbm, 558, rfl⟩
abbrev main_call10_v0 : Ref sig .tc := ⟨.hbm, 559, rfl⟩
abbrev main_call10_v1 : Ref sig .tc := ⟨.hbm, 560, rfl⟩
abbrev main_call10_cst_0 : Ref sig .tc := ⟨.hbm, 561, rfl⟩
abbrev main_call10_v2 : Ref sig .tc := ⟨.hbm, 562, rfl⟩
abbrev main_call10_v3 : Ref sig .tc := ⟨.hbm, 563, rfl⟩
abbrev main_call10_v4 : Ref sig .tc := ⟨.hbm, 564, rfl⟩
abbrev main_call10_v5 : Ref sig .tc := ⟨.hbm, 565, rfl⟩
abbrev main_call10_v6 : Ref sig .tc := ⟨.hbm, 566, rfl⟩
abbrev main_call10_v7 : Ref sig .tc := ⟨.hbm, 567, rfl⟩
abbrev main_call10_cst_1 : Ref sig .tc := ⟨.hbm, 568, rfl⟩
abbrev main_call10_v8 : Ref sig .tc := ⟨.hbm, 569, rfl⟩
abbrev main_call10_cst_2 : Ref sig .tc := ⟨.hbm, 570, rfl⟩
abbrev main_call10_v9 : Ref sig .tc := ⟨.hbm, 571, rfl⟩
abbrev main_call10_v10 : Ref sig .tc := ⟨.hbm, 572, rfl⟩
abbrev main_call10_v11 : Ref sig .tc := ⟨.hbm, 573, rfl⟩
abbrev main_call10_cst_3 : Ref sig .tc := ⟨.hbm, 574, rfl⟩
abbrev main_call10_v12 : Ref sig .tc := ⟨.hbm, 575, rfl⟩
abbrev main_call10_cst_4 : Ref sig .tc := ⟨.hbm, 576, rfl⟩
abbrev main_call10_call0_v0 : Ref sig .tc := ⟨.hbm, 577, rfl⟩
abbrev main_call10_call0_v1 : Ref sig .tc := ⟨.hbm, 578, rfl⟩
abbrev main_v435 : Ref sig .tc := ⟨.hbm, 579, rfl⟩
abbrev main_v436 : Ref sig .tc := ⟨.hbm, 580, rfl⟩
abbrev main_v437 : Ref sig .tc := ⟨.hbm, 581, rfl⟩
abbrev main_v438 : Ref sig .tc := ⟨.hbm, 582, rfl⟩
abbrev main_cst_89 : Ref sig .tc := ⟨.hbm, 583, rfl⟩
abbrev main_v439 : Ref sig .tc := ⟨.hbm, 584, rfl⟩
abbrev main_v440 : Ref sig .tc := ⟨.hbm, 585, rfl⟩
abbrev main_v441 : Ref sig .tc := ⟨.hbm, 586, rfl⟩
abbrev main_v442 : Ref sig .tc := ⟨.hbm, 587, rfl⟩
abbrev main_v443 : Ref sig .tc := ⟨.hbm, 588, rfl⟩
abbrev main_v444 : Ref sig .tc := ⟨.hbm, 589, rfl⟩
abbrev main_v445 : Ref sig .tc := ⟨.hbm, 590, rfl⟩
abbrev main_v446 : Ref sig .tc := ⟨.hbm, 591, rfl⟩
abbrev main_v447 : Ref sig .tc := ⟨.hbm, 592, rfl⟩
abbrev main_v448 : Ref sig .tc := ⟨.hbm, 593, rfl⟩
abbrev main_v449 : Ref sig .tc := ⟨.hbm, 594, rfl⟩
abbrev main_v450 : Ref sig .tc := ⟨.hbm, 595, rfl⟩
abbrev main_v451 : Ref sig .tc := ⟨.hbm, 596, rfl⟩
abbrev main_v452 : Ref sig .tc := ⟨.hbm, 597, rfl⟩
abbrev main_v453 : Ref sig .tc := ⟨.hbm, 598, rfl⟩
abbrev main_v454 : Ref sig .tc := ⟨.hbm, 599, rfl⟩
abbrev main_call11_cst : Ref sig .tc := ⟨.hbm, 600, rfl⟩
abbrev main_call11_v0 : Ref sig .tc := ⟨.hbm, 601, rfl⟩
abbrev main_v455 : Ref sig .tc := ⟨.hbm, 602, rfl⟩
abbrev main_v456 : Ref sig .tc := ⟨.hbm, 603, rfl⟩
abbrev main_v457 : Ref sig .tc := ⟨.hbm, 604, rfl⟩
abbrev main_v458 : Ref sig .tc := ⟨.hbm, 605, rfl⟩
abbrev main_v459 : Ref sig .tc := ⟨.hbm, 606, rfl⟩

abbrev nD : Nat := 1
abbrev τ : Topo := Topo.v7x

variable {F : FTy → Type} [FloatOps F]

class Facts₀ : Prop where
  slices_S4x2x500000_S1x2x500000_0_0_0 : S4x2x500000.Slices ![0, 0, 0] S1x2x500000
  shapeCasts_S1x2x500000_S2x500000 : S1x2x500000.ShapeCasts S2x500000
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  slices_S2x500000_S1x500000_0_0 : S2x500000.Slices ![0, 0] S1x500000
  shapeCasts_S1x500000_S500000 : S1x500000.ShapeCasts S500000
  concatenates_S500000_S50000_S550000_d0 : Shape.Concatenates [S500000, S50000] S550000 0
  slices_S2x500000_S1x500000_1_0 : S2x500000.Slices ![1, 0] S1x500000
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x2x500000_S1x2x500000_1_0_0 : S4x2x500000.Slices ![1, 0, 0] S1x2x500000
  slices_S4x128x128_S1x128x128_1_0_0 : S4x128x128.Slices ![1, 0, 0] S1x128x128
  slices_S4x128_S1x128_1_0 : S4x128.Slices ![1, 0] S1x128
  slices_S4x2x500000_S1x2x500000_2_0_0 : S4x2x500000.Slices ![2, 0, 0] S1x2x500000
  slices_S4x128x128_S1x128x128_2_0_0 : S4x128x128.Slices ![2, 0, 0] S1x128x128
  slices_S4x128_S1x128_2_0 : S4x128.Slices ![2, 0] S1x128
  slices_S4x2x500000_S1x2x500000_3_0_0 : S4x2x500000.Slices ![3, 0, 0] S1x2x500000
  slices_S4x128x128_S1x128x128_3_0_0 : S4x128x128.Slices ![3, 0, 0] S1x128x128
  slices_S4x128_S1x128_3_0 : S4x128.Slices ![3, 0] S1x128
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x128_S128x128_S50000x128_1_0_0_1_n_n_wf : DotDims.WF S50000x128 S128x128 S50000x128 [1] [0] [0] [1] [] []
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  dot_S50000x128_S128x2_S50000x2_1_0_0_1_n_n_wf : DotDims.WF S50000x128 S128x2 S50000x2 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.KbReg0.lean ====
/-
  The first layer's projection: a 2000-row block of x against the 128×512 table holding every relation's weight side by side (25 row blocks).
  What the region's body leaves in its result buffer, its triple, and the pipeline's proof data, for any float
  instance and any contents `V` of the buffers at the region's entry.
-/
import proofs.«115534_j8151847928363_1_alg».proof.Proof.Gen.Kernel.Launch
import proofs.«115534_j8151847928363_1_alg».proof.Proof.Gen.Kernel.Skeleton
import proofs.«115534_j8151847928363_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffers as the region finds them on entry
variable (V : (c : Dev nD) → (b : Ref sig .tc) → Buf (Elt F) ((c : Thread nD τ).loc b))

/-- Operand `w`'s block at row block `t`, cut out of the array the region finds. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Operand 0 holds its block at every row block, fetched there or not: an unfetched operand's block index did not move. -/
theorem held0_0 {c : Dev nD} (dat : Dat τ (Elt F) Unit ℕ (UR sig nD τ) ℕ cfg0 c)
    (hA : dat.A 0 = V c (Pipeline.arrRef spec0 0)) (hafter : ∀ t, dat.after 0 t = blk0 V c 0 t) (t : Fin cfg0.N) (d) :
    dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- Operand 1 holds its block at every row block, fetched there or not: an unfetched operand's block index did not move. -/
theorem held0_1 {c : Dev nD} (dat : Dat τ (Elt F) Unit ℕ (UR sig nD τ) ℕ cfg0 c)
    (hA : dat.A 1 = V c (Pipeline.arrRef spec0 1)) (hafter : ∀ t, dat.after 1 t = blk0 V c 1 t) (t : Fin cfg0.N) (d) :
    dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The one rectangle the body stores through: the whole result block. -/
abbrev whole0 : Rect S2000x512 := Rect.unit (s := S2000x512) ![0, 0] S2000x512.size inb_S2000x512_S2000x512_0_0

/-- The result buffer after the body: the body's one value of the operand blocks, stored whole. -/
def res0 (x0 : Vec F S2000x128 .f32) (x1 : Vec F S128x512 .f32) : Vec F S2000x512 .f32 :=
  View.canon [⟨whole0, k0_pay1 (View.ld x0 (Rect.unit (s := S2000x128) ![0, 0] S2000x128.size inb_S2000x128_S2000x128_0_0)) (View.ld x1 (Rect.unit (s := S128x512) ![0, 0] S128x512.size inb_S128x512_S128x512_0_0))⟩]

theorem covers0 (p : Vec F S2000x512 .f32) (y : S2000x512.Idx) :
    ∃ pc ∈ ([⟨whole0, p⟩] : List (View.Piece (Elt F) S2000x512 .f32)), y ∈ pc.1.set :=
  View.cover_of_tiled [⟨whole0, p⟩] S2000x512.size (by rfl) y

set_option maxHeartbeats 1000000 in
/-- The body on whole staging memrefs: the operands at given contents, the result buffer at anything; it ends with the
    operands as they were and the result buffer at `res0` of them. -/
theorem body0 (c : Dev nD) (E : Set ℕ) (i : grid0.Coords) (a0 : Memref sig .tc .vmem S2000x128 .f32) (h0 : a0.IsWhole) (a1 : Memref sig .tc .vmem S128x512 .f32) (h1 : a1.IsWhole) (a2 : Memref sig .tc .vmem S2000x512 .f32) (h2 : a2.IsWhole)
    (x0 : Vec F S2000x128 .f32) (x1 : Vec F S128x512 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (res0 x0 x1)) -∗ K ⟨⟩))
      ⊢ wp frame (wpE (defs₀ (F := F)) Variants.none c none) E (cc0__matmul_kernel i a0 h0 a1 h1 a2 h2) K := by
  simp only [cc0__matmul_kernel_eq_skeleton]; unfold cc0__matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (covers0 _)

/-- The pipeline's proof data on core `c`: the arrays as the region finds them; after the body at row block `t` each
    operand's buffer at its block and the result's at the body's value of them; the scoped rest and the generator
    register untouched; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => res0 (blk0 V c 0 t) (blk0 V c 1 t)
  Φ _ := Pipeline.ΦA spec0 c
  q _ := fullShare
  owed _ := 0

theorem A0 (c : Dev nD) (w : Fin cfg0.W) : (dat0 V c).A w = V c (Pipeline.arrRef spec0 w) := by dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = res0 (blk0 V c 0 t) (blk0 V c 1 t) := by dsimp only [dat0]
theorem before0_0 (c : Dev nD) (t : Fin cfg0.N) (d) : (dat0 V c).before 0 t d = blk0 V c 0 t :=
  held0_0 V (dat0 V c) (A0 V c 0) (after0_0 V c) t d
theorem before0_1 (c : Dev nD) (t : Fin cfg0.N) (d) : (dat0 V c).before 1 t d = blk0 V c 1 t :=
  held0_1 V (dat0 V c) (A0 V c 1) (after0_1 V c) t d

/-- What the body is called with at row block `t`, window by window, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem atPoint0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (body0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every row block. -/
theorem obligation0 (c : Dev nD) : BodyObligation (dat0 (F := F) V c) (defs₀ (F := F)) Variants.none () Set.univ := fun t => by
  rw [bigSep_W0, bigSep_W0]
  exact atPoint0 V c t

end Cert.Kernel.Frm

end
-- ==== Proof.KbReg1.lean ====
/-
  The first layer's combination: the four relations' aggregated messages (column groups of one 2000×512 block) summed, the summed bias row added, and the negative part cut off.
  What the region's body leaves in its result buffer, its triple, and the pipeline's proof data, for any float
  instance and any contents `V` of the buffers at the region's entry.
-/
import proofs.«115534_j8151847928363_1_alg».proof.Proof.Gen.Kernel.Launch
import proofs.«115534_j8151847928363_1_alg».proof.Proof.Gen.Kernel.Skeleton
import proofs.«115534_j8151847928363_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffers as the region finds them on entry
variable (V : (c : Dev nD) → (b : Ref sig .tc) → Buf (Elt F) ((c : Thread nD τ).loc b))

/-- Operand `w`'s block at row block `t`, cut out of the array the region finds. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Operand 0 holds its block at every row block, fetched there or not: an unfetched operand's block index did not move. -/
theorem held1_0 {c : Dev nD} (dat : Dat τ (Elt F) Unit ℕ (UR sig nD τ) ℕ cfg1 c)
    (hA : dat.A 0 = V c (Pipeline.arrRef spec1 0)) (hafter : ∀ t, dat.after 0 t = blk1 V c 0 t) (t : Fin cfg1.N) (d) :
    dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- Operand 1 holds its block at every row block, fetched there or not: an unfetched operand's block index did not move. -/
theorem held1_1 {c : Dev nD} (dat : Dat τ (Elt F) Unit ℕ (UR sig nD τ) ℕ cfg1 c)
    (hA : dat.A 1 = V c (Pipeline.arrRef spec1 1)) (hafter : ∀ t, dat.after 1 t = blk1 V c 1 t) (t : Fin cfg1.N) (d) :
    dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The one rectangle the body stores through: the whole result block. -/
abbrev whole1 : Rect S2000x128 := Rect.unit (s := S2000x128) ![0, 0] S2000x128.size inb_S2000x128_S2000x128_0_0

/-- The result buffer after the body: the body's one value of the operand blocks, stored whole. -/
def res1 (x0 : Vec F S2000x512 .f32) (x1 : Vec F S1x128 .f32) : Vec F S2000x128 .f32 :=
  View.canon [⟨whole1, k1_pay1 (View.ld x0 (Rect.unit (s := S2000x512) ![0, 0] S2000x128.size inb_S2000x512_S2000x128_0_0)) (View.ld x0 (Rect.unit (s := S2000x512) ![0, 128] S2000x128.size inb_S2000x512_S2000x128_0_128)) (View.ld x0 (Rect.unit (s := S2000x512) ![0, 256] S2000x128.size inb_S2000x512_S2000x128_0_256)) (View.ld x0 (Rect.unit (s := S2000x512) ![0, 384] S2000x128.size inb_S2000x512_S2000x128_0_384)) (View.ld x1 (Rect.unit (s := S1x128) ![0, 0] S1x128.size inb_S1x128_S1x128_0_0))⟩]

theorem covers1 (p : Vec F S2000x128 .f32) (y : S2000x128.Idx) :
    ∃ pc ∈ ([⟨whole1, p⟩] : List (View.Piece (Elt F) S2000x128 .f32)), y ∈ pc.1.set :=
  View.cover_of_tiled [⟨whole1, p⟩] S2000x128.size (by rfl) y

set_option maxHeartbeats 1000000 in
/-- The body on whole staging memrefs: the operands at given contents, the result buffer at anything; it ends with the
    operands as they were and the result buffer at `res1` of them. -/
theorem body1 (c : Dev nD) (E : Set ℕ) (i : grid1.Coords) (a0 : Memref sig .tc .vmem S2000x512 .f32) (h0 : a0.IsWhole) (a1 : Memref sig .tc .vmem S1x128 .f32) (h1 : a1.IsWhole) (a2 : Memref sig .tc .vmem S2000x128 .f32) (h2 : a2.IsWhole)
    (x0 : Vec F S2000x512 .f32) (x1 : Vec F S1x128 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (res1 x0 x1)) -∗ K ⟨⟩))
      ⊢ wp frame (wpE (defs₀ (F := F)) Variants.none c none) E (cc1__biassum_relu_kernel i a0 h0 a1 h1 a2 h2) K := by
  simp only [cc1__biassum_relu_kernel_eq_skeleton]; unfold cc1__biassum_relu_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (covers1 _)

/-- The pipeline's proof data on core `c`: the arrays as the region finds them; after the body at row block `t` each
    operand's buffer at its block and the result's at the body's value of them; the scoped rest and the generator
    register untouched; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => res1 (blk1 V c 0 t) (blk1 V c 1 t)
  Φ _ := Pipeline.ΦA spec1 c
  q _ := fullShare
  owed _ := 0

theorem A1 (c : Dev nD) (w : Fin cfg1.W) : (dat1 V c).A w = V c (Pipeline.arrRef spec1 w) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = res1 (blk1 V c 0 t) (blk1 V c 1 t) := by dsimp only [dat1]
theorem before1_0 (c : Dev nD) (t : Fin cfg1.N) (d) : (dat1 V c).before 0 t d = blk1 V c 0 t :=
  held1_0 V (dat1 V c) (A1 V c 0) (after1_0 V c) t d
theorem before1_1 (c : Dev nD) (t : Fin cfg1.N) (d) : (dat1 V c).before 1 t d = blk1 V c 1 t :=
  held1_1 V (dat1 V c) (A1 V c 1) (after1_1 V c) t d

/-- What the body is called with at row block `t`, window by window, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem atPoint1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (body1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every row block. -/
theorem obligation1 (c : Dev nD) : BodyObligation (dat1 (F := F) V c) (defs₀ (F := F)) Variants.none () Set.univ := fun t => by
  rw [bigSep_W1, bigSep_W1]
  exact atPoint1 V c t

end Cert.Kernel.Frm

end
-- ==== Proof.KbReg2.lean ====
/-
  The second layer's projection: a 2000-row block of the first layer's output against the 128×512 table of the second layer's weights.
  What the region's body leaves in its result buffer, its triple, and the pipeline's proof data, for any float
  instance and any contents `V` of the buffers at the region's entry.
-/
import proofs.«115534_j8151847928363_1_alg».proof.Proof.Gen.Kernel.Launch
import proofs.«115534_j8151847928363_1_alg».proof.Proof.Gen.Kernel.Skeleton
import proofs.«115534_j8151847928363_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffers as the region finds them on entry
variable (V : (c : Dev nD) → (b : Ref sig .tc) → Buf (Elt F) ((c : Thread nD τ).loc b))

/-- Operand `w`'s block at row block `t`, cut out of the array the region finds. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Operand 0 holds its block at every row block, fetched there or not: an unfetched operand's block index did not move. -/
theorem held2_0 {c : Dev nD} (dat : Dat τ (Elt F) Unit ℕ (UR sig nD τ) ℕ cfg2 c)
    (hA : dat.A 0 = V c (Pipeline.arrRef spec2 0)) (hafter : ∀ t, dat.after 0 t = blk2 V c 0 t) (t : Fin cfg2.N) (d) :
    dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
/-- Operand 1 holds its block at every row block, fetched there or not: an unfetched operand's block index did not move. -/
theorem held2_1 {c : Dev nD} (dat : Dat τ (Elt F) Unit ℕ (UR sig nD τ) ℕ cfg2 c)
    (hA : dat.A 1 = V c (Pipeline.arrRef spec2 1)) (hafter : ∀ t, dat.after 1 t = blk2 V c 1 t) (t : Fin cfg2.N) (d) :
    dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The one rectangle the body stores through: the whole result block. -/
abbrev whole2 : Rect S2000x512 := Rect.unit (s := S2000x512) ![0, 0] S2000x512.size inb_S2000x512_S2000x512_0_0

/-- The result buffer after the body: the body's one value of the operand blocks, stored whole. -/
def res2 (x0 : Vec F S2000x128 .f32) (x1 : Vec F S128x512 .f32) : Vec F S2000x512 .f32 :=
  View.canon [⟨whole2, k2_pay1 (View.ld x0 (Rect.unit (s := S2000x128) ![0, 0] S2000x128.size inb_S2000x128_S2000x128_0_0)) (View.ld x1 (Rect.unit (s := S128x512) ![0, 0] S128x512.size inb_S128x512_S128x512_0_0))⟩]

theorem covers2 (p : Vec F S2000x512 .f32) (y : S2000x512.Idx) :
    ∃ pc ∈ ([⟨whole2, p⟩] : List (View.Piece (Elt F) S2000x512 .f32)), y ∈ pc.1.set :=
  View.cover_of_tiled [⟨whole2, p⟩] S2000x512.size (by rfl) y

set_option maxHeartbeats 1000000 in
/-- The body on whole staging memrefs: the operands at given contents, the result buffer at anything; it ends with the
    operands as they were and the result buffer at `res2` of them. -/
theorem body2 (c : Dev nD) (E : Set ℕ) (i : grid2.Coords) (a0 : Memref sig .tc .vmem S2000x128 .f32) (h0 : a0.IsWhole) (a1 : Memref sig .tc .vmem S128x512 .f32) (h1 : a1.IsWhole) (a2 : Memref sig .tc .vmem S2000x512 .f32) (h2 : a2.IsWhole)
    (x0 : Vec F S2000x128 .f32) (x1 : Vec F S128x512 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (res2 x0 x1)) -∗ K ⟨⟩))
      ⊢ wp frame (wpE (defs₀ (F := F)) Variants.none c none) E (cc2__matmul_kernel i a0 h0 a1 h1 a2 h2) K := by
  simp only [cc2__matmul_kernel_eq_skeleton]; unfold cc2__matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (covers2 _)

/-- The pipeline's proof data on core `c`: the arrays as the region finds them; after the body at row block `t` each
    operand's buffer at its block and the result's at the body's value of them; the scoped rest and the generator
    register untouched; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => res2 (blk2 V c 0 t) (blk2 V c 1 t)
  Φ _ := Pipeline.ΦA spec2 c
  q _ := fullShare
  owed _ := 0

theorem A2 (c : Dev nD) (w : Fin cfg2.W) : (dat2 V c).A w = V c (Pipeline.arrRef spec2 w) := by dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = res2 (blk2 V c 0 t) (blk2 V c 1 t) := by dsimp only [dat2]
theorem before2_0 (c : Dev nD) (t : Fin cfg2.N) (d) : (dat2 V c).before 0 t d = blk2 V c 0 t :=
  held2_0 V (dat2 V c) (A2 V c 0) (after2_0 V c) t d
theorem before2_1 (c : Dev nD) (t : Fin cfg2.N) (d) : (dat2 V c).before 1 t d = blk2 V c 1 t :=
  held2_1 V (dat2 V c) (A2 V c 1) (after2_1 V c) t d

/-- What the body is called with at row block `t`, window by window, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem atPoint2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (body2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every row block. -/
theorem obligation2 (c : Dev nD) : BodyObligation (dat2 (F := F) V c) (defs₀ (F := F)) Variants.none () Set.univ := fun t => by
  rw [bigSep_W2, bigSep_W2]
  exact atPoint2 V c t

end Cert.Kernel.Frm

end
-- ==== Proof.KbReg3.lean ====
/-
  The second layer's combination: the four relations' aggregated messages summed, the summed bias row added, and the negative part cut off.
  What the region's body leaves in its result buffer, its triple, and the pipeline's proof data, for any float
  instance and any contents `V` of the buffers at the region's entry.
-/
import proofs.«115534_j8151847928363_1_alg».proof.Proof.Gen.Kernel.Launch
import proofs.«115534_j8151847928363_1_alg».proof.Proof.Gen.Kernel.Skeleton
import proofs.«115534_j8151847928363_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffers as the region finds them on entry
variable (V : (c : Dev nD) → (b : Ref sig .tc) → Buf (Elt F) ((c : Thread nD τ).loc b))

/-- Operand `w`'s block at row block `t`, cut out of the array the region finds. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Operand 0 holds its block at every row block, fetched there or not: an unfetched operand's block index did not move. -/
theorem held3_0 {c : Dev nD} (dat : Dat τ (Elt F) Unit ℕ (UR sig nD τ) ℕ cfg3 c)
    (hA : dat.A 0 = V c (Pipeline.arrRef spec3 0)) (hafter : ∀ t, dat.after 0 t = blk3 V c 0 t) (t : Fin cfg3.N) (d) :
    dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
/-- Operand 1 holds its block at every row block, fetched there or not: an unfetched operand's block index did not move. -/
theorem held3_1 {c : Dev nD} (dat : Dat τ (Elt F) Unit ℕ (UR sig nD τ) ℕ cfg3 c)
    (hA : dat.A 1 = V c (Pipeline.arrRef spec3 1)) (hafter : ∀ t, dat.after 1 t = blk3 V c 1 t) (t : Fin cfg3.N) (d) :
    dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- The one rectangle the body stores through: the whole result block. -/
abbrev whole3 : Rect S2000x128 := Rect.unit (s := S2000x128) ![0, 0] S2000x128.size inb_S2000x128_S2000x128_0_0

/-- The result buffer after the body: the body's one value of the operand blocks, stored whole. -/
def res3 (x0 : Vec F S2000x512 .f32) (x1 : Vec F S1x128 .f32) : Vec F S2000x128 .f32 :=
  View.canon [⟨whole3, k3_pay1 (View.ld x0 (Rect.unit (s := S2000x512) ![0, 0] S2000x128.size inb_S2000x512_S2000x128_0_0)) (View.ld x0 (Rect.unit (s := S2000x512) ![0, 128] S2000x128.size inb_S2000x512_S2000x128_0_128)) (View.ld x0 (Rect.unit (s := S2000x512) ![0, 256] S2000x128.size inb_S2000x512_S2000x128_0_256)) (View.ld x0 (Rect.unit (s := S2000x512) ![0, 384] S2000x128.size inb_S2000x512_S2000x128_0_384)) (View.ld x1 (Rect.unit (s := S1x128) ![0, 0] S1x128.size inb_S1x128_S1x128_0_0))⟩]

theorem covers3 (p : Vec F S2000x128 .f32) (y : S2000x128.Idx) :
    ∃ pc ∈ ([⟨whole3, p⟩] : List (View.Piece (Elt F) S2000x128 .f32)), y ∈ pc.1.set :=
  View.cover_of_tiled [⟨whole3, p⟩] S2000x128.size (by rfl) y

set_option maxHeartbeats 1000000 in
/-- The body on whole staging memrefs: the operands at given contents, the result buffer at anything; it ends with the
    operands as they were and the result buffer at `res3` of them. -/
theorem body3 (c : Dev nD) (E : Set ℕ) (i : grid3.Coords) (a0 : Memref sig .tc .vmem S2000x512 .f32) (h0 : a0.IsWhole) (a1 : Memref sig .tc .vmem S1x128 .f32) (h1 : a1.IsWhole) (a2 : Memref sig .tc .vmem S2000x128 .f32) (h2 : a2.IsWhole)
    (x0 : Vec F S2000x512 .f32) (x1 : Vec F S1x128 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (res3 x0 x1)) -∗ K ⟨⟩))
      ⊢ wp frame (wpE (defs₀ (F := F)) Variants.none c none) E (cc3__biassum_relu_kernel i a0 h0 a1 h1 a2 h2) K := by
  simp only [cc3__biassum_relu_kernel_eq_skeleton]; unfold cc3__biassum_relu_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (covers3 _)

/-- The pipeline's proof data on core `c`: the arrays as the region finds them; after the body at row block `t` each
    operand's buffer at its block and the result's at the body's value of them; the scoped rest and the generator
    register untouched; nothing owed. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => res3 (blk3 V c 0 t) (blk3 V c 1 t)
  Φ _ := Pipeline.ΦA spec3 c
  q _ := fullShare
  owed _ := 0

theorem A3 (c : Dev nD) (w : Fin cfg3.W) : (dat3 V c).A w = V c (Pipeline.arrRef spec3 w) := by dsimp only [dat3]
theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = res3 (blk3 V c 0 t) (blk3 V c 1 t) := by dsimp only [dat3]
theorem before3_0 (c : Dev nD) (t : Fin cfg3.N) (d) : (dat3 V c).before 0 t d = blk3 V c 0 t :=
  held3_0 V (dat3 V c) (A3 V c 0) (after3_0 V c) t d
theorem before3_1 (c : Dev nD) (t : Fin cfg3.N) (d) : (dat3 V c).before 1 t d = blk3 V c 1 t :=
  held3_1 V (dat3 V c) (A3 V c 1) (after3_1 V c) t d

/-- What the body is called with at row block `t`, window by window, -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem atPoint3 (c : Dev nD) (t : Fin cfg3.N) :
    pre3 V c t ⊢ wp frame (wpE (defs₀ (F := F)) Variants.none c none) Set.univ (bodyAt3 t) (fun _ => post3 V c t) := by
  unfold pre3 post3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (body3 c Set.univ _ _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every row block. -/
theorem obligation3 (c : Dev nD) : BodyObligation (dat3 (F := F) V c) (defs₀ (F := F)) Variants.none () Set.univ := fun t => by
  rw [bigSep_W3, bigSep_W3]
  exact atPoint3 V c t

end Cert.Kernel.Frm

end
-- ==== Proof.KbReg4.lean ====
/-
  The head: the normalisation's scale and shift applied to a 2000-row block, a 128×128 linear layer with bias, the negative part cut off, and the (zero-padded) 128×128 output layer with bias.
  What the region's body leaves in its result buffer, its triple, and the pipeline's proof data, for any float
  instance and any contents `V` of the buffers at the region's entry.
-/
import proofs.«115534_j8151847928363_1_alg».proof.Proof.Gen.Kernel.Launch
import proofs.«115534_j8151847928363_1_alg».proof.Proof.Gen.Kernel.Skeleton
import proofs.«115534_j8151847928363_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffers as the region finds them on entry
variable (V : (c : Dev nD) → (b : Ref sig .tc) → Buf (Elt F) ((c : Thread nD τ).loc b))

/-- Operand `w`'s block at row block `t`, cut out of the array the region finds. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Operand 0 holds its block at every row block, fetched there or not: an unfetched operand's block index did not move. -/
theorem held4_0 {c : Dev nD} (dat : Dat τ (Elt F) Unit ℕ (UR sig nD τ) ℕ cfg4 c)
    (hA : dat.A 0 = V c (Pipeline.arrRef spec4 0)) (hafter : ∀ t, dat.after 0 t = blk4 V c 0 t) (t : Fin cfg4.N) (d) :
    dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)
/-- Operand 1 holds its block at every row block, fetched there or not: an unfetched operand's block index did not move. -/
theorem held4_1 {c : Dev nD} (dat : Dat τ (Elt F) Unit ℕ (UR sig nD τ) ℕ cfg4 c)
    (hA : dat.A 1 = V c (Pipeline.arrRef spec4 1)) (hafter : ∀ t, dat.after 1 t = blk4 V c 1 t) (t : Fin cfg4.N) (d) :
    dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)
/-- Operand 2 holds its block at every row block, fetched there or not: an unfetched operand's block index did not move. -/
theorem held4_2 {c : Dev nD} (dat : Dat τ (Elt F) Unit ℕ (UR sig nD τ) ℕ cfg4 c)
    (hA : dat.A 2 = V c (Pipeline.arrRef spec4 2)) (hafter : ∀ t, dat.after 2 t = blk4 V c 2 t) (t : Fin cfg4.N) (d) :
    dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)
/-- Operand 3 holds its block at every row block, fetched there or not: an unfetched operand's block index did not move. -/
theorem held4_3 {c : Dev nD} (dat : Dat τ (Elt F) Unit ℕ (UR sig nD τ) ℕ cfg4 c)
    (hA : dat.A 3 = V c (Pipeline.arrRef spec4 3)) (hafter : ∀ t, dat.after 3 t = blk4 V c 3 t) (t : Fin cfg4.N) (d) :
    dat.before 3 t d = blk4 V c 3 t :=
  (dat.before_in_eq_fetched 3 rfl (fun _ => rfl) (fun _ _ _ => rfl) (fun t => by rw [hafter]; unfold Dat.blockOf blk4; rw [hA]; try rfl) t d).trans
    (by unfold Dat.fetched Dat.blockOf blk4; rw [hA]; try rfl)
/-- Operand 4 holds its block at every row block, fetched there or not: an unfetched operand's block index did not move. -/
theorem held4_4 {c : Dev nD} (dat : Dat τ (Elt F) Unit ℕ (UR sig nD τ) ℕ cfg4 c)
    (hA : dat.A 4 = V c (Pipeline.arrRef spec4 4)) (hafter : ∀ t, dat.after 4 t = blk4 V c 4 t) (t : Fin cfg4.N) (d) :
    dat.before 4 t d = blk4 V c 4 t :=
  (dat.before_in_eq_fetched 4 rfl (fun _ => rfl) (fun _ _ _ => rfl) (fun t => by rw [hafter]; unfold Dat.blockOf blk4; rw [hA]; try rfl) t d).trans
    (by unfold Dat.fetched Dat.blockOf blk4; rw [hA]; try rfl)
/-- Operand 5 holds its block at every row block, fetched there or not: an unfetched operand's block index did not move. -/
theorem held4_5 {c : Dev nD} (dat : Dat τ (Elt F) Unit ℕ (UR sig nD τ) ℕ cfg4 c)
    (hA : dat.A 5 = V c (Pipeline.arrRef spec4 5)) (hafter : ∀ t, dat.after 5 t = blk4 V c 5 t) (t : Fin cfg4.N) (d) :
    dat.before 5 t d = blk4 V c 5 t :=
  (dat.before_in_eq_fetched 5 rfl (fun _ => rfl) (fun _ _ _ => rfl) (fun t => by rw [hafter]; unfold Dat.blockOf blk4; rw [hA]; try rfl) t d).trans
    (by unfold Dat.fetched Dat.blockOf blk4; rw [hA]; try rfl)
/-- Operand 6 holds its block at every row block, fetched there or not: an unfetched operand's block index did not move. -/
theorem held4_6 {c : Dev nD} (dat : Dat τ (Elt F) Unit ℕ (UR sig nD τ) ℕ cfg4 c)
    (hA : dat.A 6 = V c (Pipeline.arrRef spec4 6)) (hafter : ∀ t, dat.after 6 t = blk4 V c 6 t) (t : Fin cfg4.N) (d) :
    dat.before 6 t d = blk4 V c 6 t :=
  (dat.before_in_eq_fetched 6 rfl (fun _ => rfl) (fun _ _ _ => rfl) (fun t => by rw [hafter]; unfold Dat.blockOf blk4; rw [hA]; try rfl) t d).trans
    (by unfold Dat.fetched Dat.blockOf blk4; rw [hA]; try rfl)

/-- The one rectangle the body stores through: the whole result block. -/
abbrev whole4 : Rect S2000x128 := Rect.unit (s := S2000x128) ![0, 0] S2000x128.size inb_S2000x128_S2000x128_0_0

/-- The result buffer after the body: the body's one value of the operand blocks, stored whole. -/
def res4 (x0 : Vec F S2000x128 .f32) (x1 : Vec F S1x128 .f32) (x2 : Vec F S1x128 .f32) (x3 : Vec F S128x128 .f32) (x4 : Vec F S1x128 .f32) (x5 : Vec F S128x128 .f32) (x6 : Vec F S1x128 .f32) : Vec F S2000x128 .f32 :=
  View.canon [⟨whole4, k4_pay1 (View.ld x0 (Rect.unit (s := S2000x128) ![0, 0] S2000x128.size inb_S2000x128_S2000x128_0_0)) (View.ld x1 (Rect.unit (s := S1x128) ![0, 0] S1x128.size inb_S1x128_S1x128_0_0)) (View.ld x2 (Rect.unit (s := S1x128) ![0, 0] S1x128.size inb_S1x128_S1x128_0_0)) (View.ld x3 (Rect.unit (s := S128x128) ![0, 0] S128x128.size inb_S128x128_S128x128_0_0)) (View.ld x4 (Rect.unit (s := S1x128) ![0, 0] S1x128.size inb_S1x128_S1x128_0_0)) (View.ld x5 (Rect.unit (s := S128x128) ![0, 0] S128x128.size inb_S128x128_S128x128_0_0)) (View.ld x6 (Rect.unit (s := S1x128) ![0, 0] S1x128.size inb_S1x128_S1x128_0_0))⟩]

theorem covers4 (p : Vec F S2000x128 .f32) (y : S2000x128.Idx) :
    ∃ pc ∈ ([⟨whole4, p⟩] : List (View.Piece (Elt F) S2000x128 .f32)), y ∈ pc.1.set :=
  View.cover_of_tiled [⟨whole4, p⟩] S2000x128.size (by rfl) y

set_option maxHeartbeats 1000000 in
/-- The body on whole staging memrefs: the operands at given contents, the result buffer at anything; it ends with the
    operands as they were and the result buffer at `res4` of them. -/
theorem body4 (c : Dev nD) (E : Set ℕ) (i : grid4.Coords) (a0 : Memref sig .tc .vmem S2000x128 .f32) (h0 : a0.IsWhole) (a1 : Memref sig .tc .vmem S1x128 .f32) (h1 : a1.IsWhole) (a2 : Memref sig .tc .vmem S1x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole)
    (x0 : Vec F S2000x128 .f32) (x1 : Vec F S1x128 .f32) (x2 : Vec F S1x128 .f32) (x3 : Vec F S128x128 .f32) (x4 : Vec F S1x128 .f32) (x5 : Vec F S128x128 .f32) (x6 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (res4 x0 x1 x2 x3 x4 x5 x6)) -∗ K ⟨⟩))
      ⊢ wp frame (wpE (defs₀ (F := F)) Variants.none c none) E (cc4__final_kernel i a0 h0 a1 h1 a2 h2 a3 h3 a4 h4 a5 h5 a6 h6 a7 h7) K := by
  simp only [cc4__final_kernel_eq_skeleton]; unfold cc4__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fO, -, HO⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact HO
  ipureintro
  exact View.read_writes_eq_canon _ _ _ (covers4 _)

/-- The pipeline's proof data on core `c`: the arrays as the region finds them; after the body at row block `t` each
    operand's buffer at its block and the result's at the body's value of them; the scoped rest and the generator
    register untouched; nothing owed. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => blk4 V c 4 t
    | ⟨5, _⟩ => blk4 V c 5 t
    | ⟨6, _⟩ => blk4 V c 6 t
    | ⟨7, _⟩ => res4 (blk4 V c 0 t) (blk4 V c 1 t) (blk4 V c 2 t) (blk4 V c 3 t) (blk4 V c 4 t) (blk4 V c 5 t) (blk4 V c 6 t)
  Φ _ := Pipeline.ΦA spec4 c
  q _ := fullShare
  owed _ := 0

theorem A4 (c : Dev nD) (w : Fin cfg4.W) : (dat4 V c).A w = V c (Pipeline.arrRef spec4 w) := by dsimp only [dat4]
theorem after4_0 (c : Dev nD) (t : Fin cfg4.N) : (dat4 V c).after 0 t = blk4 V c 0 t := by dsimp only [dat4]
theorem after4_1 (c : Dev nD) (t : Fin cfg4.N) : (dat4 V c).after 1 t = blk4 V c 1 t := by dsimp only [dat4]
theorem after4_2 (c : Dev nD) (t : Fin cfg4.N) : (dat4 V c).after 2 t = blk4 V c 2 t := by dsimp only [dat4]
theorem after4_3 (c : Dev nD) (t : Fin cfg4.N) : (dat4 V c).after 3 t = blk4 V c 3 t := by dsimp only [dat4]
theorem after4_4 (c : Dev nD) (t : Fin cfg4.N) : (dat4 V c).after 4 t = blk4 V c 4 t := by dsimp only [dat4]
theorem after4_5 (c : Dev nD) (t : Fin cfg4.N) : (dat4 V c).after 5 t = blk4 V c 5 t := by dsimp only [dat4]
theorem after4_6 (c : Dev nD) (t : Fin cfg4.N) : (dat4 V c).after 6 t = blk4 V c 6 t := by dsimp only [dat4]
theorem after4_7 (c : Dev nD) (t : Fin cfg4.N) : (dat4 V c).after 7 t = res4 (blk4 V c 0 t) (blk4 V c 1 t) (blk4 V c 2 t) (blk4 V c 3 t) (blk4 V c 4 t) (blk4 V c 5 t) (blk4 V c 6 t) := by dsimp only [dat4]
theorem before4_0 (c : Dev nD) (t : Fin cfg4.N) (d) : (dat4 V c).before 0 t d = blk4 V c 0 t :=
  held4_0 V (dat4 V c) (A4 V c 0) (after4_0 V c) t d
theorem before4_1 (c : Dev nD) (t : Fin cfg4.N) (d) : (dat4 V c).before 1 t d = blk4 V c 1 t :=
  held4_1 V (dat4 V c) (A4 V c 1) (after4_1 V c) t d
theorem before4_2 (c : Dev nD) (t : Fin cfg4.N) (d) : (dat4 V c).before 2 t d = blk4 V c 2 t :=
  held4_2 V (dat4 V c) (A4 V c 2) (after4_2 V c) t d
theorem before4_3 (c : Dev nD) (t : Fin cfg4.N) (d) : (dat4 V c).before 3 t d = blk4 V c 3 t :=
  held4_3 V (dat4 V c) (A4 V c 3) (after4_3 V c) t d
theorem before4_4 (c : Dev nD) (t : Fin cfg4.N) (d) : (dat4 V c).before 4 t d = blk4 V c 4 t :=
  held4_4 V (dat4 V c) (A4 V c 4) (after4_4 V c) t d
theorem before4_5 (c : Dev nD) (t : Fin cfg4.N) (d) : (dat4 V c).before 5 t d = blk4 V c 5 t :=
  held4_5 V (dat4 V c) (A4 V c 5) (after4_5 V c) t d
theorem before4_6 (c : Dev nD) (t : Fin cfg4.N) (d) : (dat4 V c).before 6 t d = blk4 V c 6 t :=
  held4_6 V (dat4 V c) (A4 V c 6) (after4_6 V c) t d

/-- What the body is called with at row block `t`, window by window, -/
def pre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def post4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

theorem atPoint4 (c : Dev nD) (t : Fin cfg4.N) :
    pre4 V c t ⊢ wp frame (wpE (defs₀ (F := F)) Variants.none c none) Set.univ (bodyAt4 t) (fun _ => post4 V c t) := by
  unfold pre4 post4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body4 c Set.univ _ _ _ _ _ _ _ _ _ _ _ _ _ _ _ _ _ (blk4 V c 0 t) (blk4 V c 1 t) (blk4 V c 2 t) (blk4 V c 3 t) (blk4 V c 4 t) (blk4 V c 5 t) (blk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline library, at every row block. -/
theorem obligation4 (c : Dev nD) : BodyObligation (dat4 (F := F) V c) (defs₀ (F := F)) Variants.none () Set.univ := fun t => by
  rw [bigSep_W4, bigSep_W4]
  exact atPoint4 V c t

end Cert.Kernel.Frm

end
-- ==== Proof.KbVals.lean ====
/-
  The buffers' contents at every boundary of the program: the launch memory, then each stretch of host operations
  folded over it, then each region's arrays at what its write-backs leave (every other buffer as it was). A buffer that is
  not a region's result array crosses the region unchanged.
-/
import proofs.«115534_j8151847928363_1_alg».proof.Proof.KbReg0
import proofs.«115534_j8151847928363_1_alg».proof.Proof.KbReg1
import proofs.«115534_j8151847928363_1_alg».proof.Proof.KbReg2
import proofs.«115534_j8151847928363_1_alg».proof.Proof.KbReg3
import proofs.«115534_j8151847928363_1_alg».proof.Proof.KbReg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- After the host stretch `hostOps0_1`. -/
abbrev W2 : Dev nD → Valuation τ sig (Elt F) := fun c => StableHlo.after hostOps0_1 (W1 m ρ c)
/-- After the host stretch `hostOps0_2`. -/
abbrev W3 : Dev nD → Valuation τ sig (Elt F) := fun c => StableHlo.after hostOps0_2 (W2 m ρ c)
/-- After the host stretch `hostOps0_3`. -/
abbrev W4 : Dev nD → Valuation τ sig (Elt F) := fun c => StableHlo.after hostOps0_3 (W3 m ρ c)
/-- After the host stretch `hostOps0_4`. -/
abbrev W5 : Dev nD → Valuation τ sig (Elt F) := fun c => StableHlo.after hostOps0_4 (W4 m ρ c)
/-- After the host stretch `hostOps0_5`. -/
abbrev W6 : Dev nD → Valuation τ sig (Elt F) := fun c => StableHlo.after hostOps0_5 (W5 m ρ c)
/-- After the host stretch `hostOps0_6`. -/
abbrev W7 : Dev nD → Valuation τ sig (Elt F) := fun c => StableHlo.after hostOps0_6 (W6 m ρ c)
/-- After the host stretch `hostOps0_7`. -/
abbrev W8 : Dev nD → Valuation τ sig (Elt F) := fun c => StableHlo.after hostOps0_7 (W7 m ρ c)
/-- After the host stretch `hostOps0_8`. -/
abbrev W9 : Dev nD → Valuation τ sig (Elt F) := fun c => StableHlo.after hostOps0_8 (W8 m ρ c)
/-- The contents region 0 is entered at, read at the TensorCore's references. -/
abbrev V9 : (c : Dev nD) → (b : Ref sig .tc) → Buf (Elt F) ((c : Thread nD τ).loc b) := fun c b => W9 m ρ c b
/-- At region 0's exit: its arrays at what the pipeline leaves (operands as entered, the result's write-backs folded), every
    other buffer as entered. -/
def W10 (c : Dev nD) : Valuation τ sig (Elt F) :=
  Pipeline.withArrays spec0 c (W9 m ρ c) fun w => (dat0 (V9 m ρ) c).arrAt w cfg0.N
theorem W10_arr (c : Dev nD) (w : Fin cfg0.W) :
    W10 m ρ c (Proc.devRef .tc (Pipeline.arrRef spec0 w)) = (dat0 (V9 m ρ) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m ρ c (Proc.devRef .tc b) = W9 m ρ c (Proc.devRef .tc b) := by
  unfold W10; exact Pipeline.withArrays_of_ne spec0 c _ _ b hb
abbrev V10 : (c : Dev nD) → (b : Ref sig .tc) → Buf (Elt F) ((c : Thread nD τ).loc b) := fun c b => W10 m ρ c b
theorem exitArr0 (c : Dev nD) (w : Fin cfg0.W) : (dat0 (V9 m ρ) c).arrAt w cfg0.N = V10 m ρ c (Pipeline.arrRef spec0 w) :=
  (W10_arr m ρ c w).symm
theorem exitRest0 (c : Dev nD) : ∀ b, b ∉ Finset.univ.image (Pipeline.arrRef spec0) → V10 m ρ c b = V9 m ρ c b :=
  fun b hb => W10_of_ne m ρ c b fun w e => hb (Finset.mem_image.mpr ⟨w, Finset.mem_univ _, e⟩)
/-- A buffer that is not region 0's result array leaves the region as it entered: an operand's array is only read. -/
theorem W10_keep (c : Dev nD) (b : Ref sig .tc) (hb : Pipeline.arrRef spec0 2 ≠ b) :
    W10 m ρ c (Proc.devRef .tc b) = W9 m ρ c (Proc.devRef .tc b) := by
  by_cases h : ∃ w, Pipeline.arrRef spec0 w = b
  · obtain ⟨w, rfl⟩ := h
    have hw : (cfg0.win w).isOut = false := by
      revert hb; revert w; decide
    exact (W10_arr m ρ c w).trans (((dat0 (V9 m ρ) c).arrAt_in w hw _).trans (A0 (V9 m ρ) c w))
  · exact W10_of_ne m ρ c b fun w e => h ⟨w, e⟩
/-- After the host stretch `hostOps1`. -/
abbrev W11 : Dev nD → Valuation τ sig (Elt F) := fun c => StableHlo.after hostOps1 (W10 m ρ c)
/-- The contents region 1 is entered at, read at the TensorCore's references. -/
abbrev V11 : (c : Dev nD) → (b : Ref sig .tc) → Buf (Elt F) ((c : Thread nD τ).loc b) := fun c b => W11 m ρ c b
/-- At region 1's exit: its arrays at what the pipeline leaves (operands as entered, the result's write-backs folded), every
    other buffer as entered. -/
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev V12 : (c : Dev nD) → (b : Ref sig .tc) → Buf (Elt F) ((c : Thread nD τ).loc b) := fun c b => W12 m ρ c b
theorem exitArr1 (c : Dev nD) (w : Fin cfg1.W) : (dat1 (V11 m ρ) c).arrAt w cfg1.N = V12 m ρ c (Pipeline.arrRef spec1 w) :=
  (W12_arr m ρ c w).symm
theorem exitRest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)
/-- A buffer that is not region 1's result array leaves the region as it entered: an operand's array is only read. -/
theorem W12_keep (c : Dev nD) (b : Ref sig .tc) (hb : Pipeline.arrRef spec1 2 ≠ b) :
    W12 m ρ c (Proc.devRef .tc b) = W11 m ρ c (Proc.devRef .tc b) := by
  by_cases h : ∃ w, Pipeline.arrRef spec1 w = b
  · obtain ⟨w, rfl⟩ := h
    have hw : (cfg1.win w).isOut = false := by
      revert hb; revert w; decide
    exact (W12_arr m ρ c w).trans (((dat1 (V11 m ρ) c).arrAt_in w hw _).trans (A1 (V11 m ρ) c w))
  · exact W12_of_ne m ρ c b fun w e => h ⟨w, e⟩
/-- After the host stretch `hostOps2`. -/
abbrev W13 : Dev nD → Valuation τ sig (Elt F) := fun c => StableHlo.after hostOps2 (W12 m ρ c)
/-- The contents region 2 is entered at, read at the TensorCore's references. -/
abbrev V13 : (c : Dev nD) → (b : Ref sig .tc) → Buf (Elt F) ((c : Thread nD τ).loc b) := fun c b => W13 m ρ c b
/-- At region 2's exit: its arrays at what the pipeline leaves (operands as entered, the result's write-backs folded), every
    other buffer as entered. -/
def W14 (c : Dev nD) : Valuation τ sig (Elt F) :=
  Pipeline.withArrays spec2 c (W13 m ρ c) fun w => (dat2 (V13 m ρ) c).arrAt w cfg2.N
theorem W14_arr (c : Dev nD) (w : Fin cfg2.W) :
    W14 m ρ c (Proc.devRef .tc (Pipeline.arrRef spec2 w)) = (dat2 (V13 m ρ) c).arrAt w cfg2.N := by
  unfold W14; exact Pipeline.withArrays_arr spec2 launch2.win.arr_inj c _ _ w
theorem W14_of_ne (c : Dev nD) (b : Ref sig .tc) (hb : ∀ w, Pipeline.arrRef spec2 w ≠ b) :
    W14 m ρ c (Proc.devRef .tc b) = W13 m ρ c (Proc.devRef .tc b) := by
  unfold W14; exact Pipeline.withArrays_of_ne spec2 c _ _ b hb
abbrev V14 : (c : Dev nD) → (b : Ref sig .tc) → Buf (Elt F) ((c : Thread nD τ).loc b) := fun c b => W14 m ρ c b
theorem exitArr2 (c : Dev nD) (w : Fin cfg2.W) : (dat2 (V13 m ρ) c).arrAt w cfg2.N = V14 m ρ c (Pipeline.arrRef spec2 w) :=
  (W14_arr m ρ c w).symm
theorem exitRest2 (c : Dev nD) : ∀ b, b ∉ Finset.univ.image (Pipeline.arrRef spec2) → V14 m ρ c b = V13 m ρ c b :=
  fun b hb => W14_of_ne m ρ c b fun w e => hb (Finset.mem_image.mpr ⟨w, Finset.mem_univ _, e⟩)
/-- A buffer that is not region 2's result array leaves the region as it entered: an operand's array is only read. -/
theorem W14_keep (c : Dev nD) (b : Ref sig .tc) (hb : Pipeline.arrRef spec2 2 ≠ b) :
    W14 m ρ c (Proc.devRef .tc b) = W13 m ρ c (Proc.devRef .tc b) := by
  by_cases h : ∃ w, Pipeline.arrRef spec2 w = b
  · obtain ⟨w, rfl⟩ := h
    have hw : (cfg2.win w).isOut = false := by
      revert hb; revert w; decide
    exact (W14_arr m ρ c w).trans (((dat2 (V13 m ρ) c).arrAt_in w hw _).trans (A2 (V13 m ρ) c w))
  · exact W14_of_ne m ρ c b fun w e => h ⟨w, e⟩
/-- After the host stretch `hostOps3`. -/
abbrev W15 : Dev nD → Valuation τ sig (Elt F) := fun c => StableHlo.after hostOps3 (W14 m ρ c)
/-- The contents region 3 is entered at, read at the TensorCore's references. -/
abbrev V15 : (c : Dev nD) → (b : Ref sig .tc) → Buf (Elt F) ((c : Thread nD τ).loc b) := fun c b => W15 m ρ c b
/-- At region 3's exit: its arrays at what the pipeline leaves (operands as entered, the result's write-backs folded), every
    other buffer as entered. -/
def W16 (c : Dev nD) : Valuation τ sig (Elt F) :=
  Pipeline.withArrays spec3 c (W15 m ρ c) fun w => (dat3 (V15 m ρ) c).arrAt w cfg3.N
theorem W16_arr (c : Dev nD) (w : Fin cfg3.W) :
    W16 m ρ c (Proc.devRef .tc (Pipeline.arrRef spec3 w)) = (dat3 (V15 m ρ) c).arrAt w cfg3.N := by
  unfold W16; exact Pipeline.withArrays_arr spec3 launch3.win.arr_inj c _ _ w
theorem W16_of_ne (c : Dev nD) (b : Ref sig .tc) (hb : ∀ w, Pipeline.arrRef spec3 w ≠ b) :
    W16 m ρ c (Proc.devRef .tc b) = W15 m ρ c (Proc.devRef .tc b) := by
  unfold W16; exact Pipeline.withArrays_of_ne spec3 c _ _ b hb
abbrev V16 : (c : Dev nD) → (b : Ref sig .tc) → Buf (Elt F) ((c : Thread nD τ).loc b) := fun c b => W16 m ρ c b
theorem exitArr3 (c : Dev nD) (w : Fin cfg3.W) : (dat3 (V15 m ρ) c).arrAt w cfg3.N = V16 m ρ c (Pipeline.arrRef spec3 w) :=
  (W16_arr m ρ c w).symm
theorem exitRest3 (c : Dev nD) : ∀ b, b ∉ Finset.univ.image (Pipeline.arrRef spec3) → V16 m ρ c b = V15 m ρ c b :=
  fun b hb => W16_of_ne m ρ c b fun w e => hb (Finset.mem_image.mpr ⟨w, Finset.mem_univ _, e⟩)
/-- A buffer that is not region 3's result array leaves the region as it entered: an operand's array is only read. -/
theorem W16_keep (c : Dev nD) (b : Ref sig .tc) (hb : Pipeline.arrRef spec3 2 ≠ b) :
    W16 m ρ c (Proc.devRef .tc b) = W15 m ρ c (Proc.devRef .tc b) := by
  by_cases h : ∃ w, Pipeline.arrRef spec3 w = b
  · obtain ⟨w, rfl⟩ := h
    have hw : (cfg3.win w).isOut = false := by
      revert hb; revert w; decide
    exact (W16_arr m ρ c w).trans (((dat3 (V15 m ρ) c).arrAt_in w hw _).trans (A3 (V15 m ρ) c w))
  · exact W16_of_ne m ρ c b fun w e => h ⟨w, e⟩
/-- After the host stretch `hostOps4`. -/
abbrev W17 : Dev nD → Valuation τ sig (Elt F) := fun c => StableHlo.after hostOps4 (W16 m ρ c)
/-- After the host stretch `hostOps4_1`. -/
abbrev W18 : Dev nD → Valuation τ sig (Elt F) := fun c => StableHlo.after hostOps4_1 (W17 m ρ c)
/-- After the host stretch `hostOps4_2`. -/
abbrev W19 : Dev nD → Valuation τ sig (Elt F) := fun c => StableHlo.after hostOps4_2 (W18 m ρ c)
/-- The contents region 4 is entered at, read at the TensorCore's references. -/
abbrev V19 : (c : Dev nD) → (b : Ref sig .tc) → Buf (Elt F) ((c : Thread nD τ).loc b) := fun c b => W19 m ρ c b
/-- At region 4's exit: its arrays at what the pipeline leaves (operands as entered, the result's write-backs folded), every
    other buffer as entered. -/
def W20 (c : Dev nD) : Valuation τ sig (Elt F) :=
  Pipeline.withArrays spec4 c (W19 m ρ c) fun w => (dat4 (V19 m ρ) c).arrAt w cfg4.N
theorem W20_arr (c : Dev nD) (w : Fin cfg4.W) :
    W20 m ρ c (Proc.devRef .tc (Pipeline.arrRef spec4 w)) = (dat4 (V19 m ρ) c).arrAt w cfg4.N := by
  unfold W20; exact Pipeline.withArrays_arr spec4 launch4.win.arr_inj c _ _ w
theorem W20_of_ne (c : Dev nD) (b : Ref sig .tc) (hb : ∀ w, Pipeline.arrRef spec4 w ≠ b) :
    W20 m ρ c (Proc.devRef .tc b) = W19 m ρ c (Proc.devRef .tc b) := by
  unfold W20; exact Pipeline.withArrays_of_ne spec4 c _ _ b hb
abbrev V20 : (c : Dev nD) → (b : Ref sig .tc) → Buf (Elt F) ((c : Thread nD τ).loc b) := fun c b => W20 m ρ c b
theorem exitArr4 (c : Dev nD) (w : Fin cfg4.W) : (dat4 (V19 m ρ) c).arrAt w cfg4.N = V20 m ρ c (Pipeline.arrRef spec4 w) :=
  (W20_arr m ρ c w).symm
theorem exitRest4 (c : Dev nD) : ∀ b, b ∉ Finset.univ.image (Pipeline.arrRef spec4) → V20 m ρ c b = V19 m ρ c b :=
  fun b hb => W20_of_ne m ρ c b fun w e => hb (Finset.mem_image.mpr ⟨w, Finset.mem_univ _, e⟩)
/-- A buffer that is not region 4's result array leaves the region as it entered: an operand's array is only read. -/
theorem W20_keep (c : Dev nD) (b : Ref sig .tc) (hb : Pipeline.arrRef spec4 7 ≠ b) :
    W20 m ρ c (Proc.devRef .tc b) = W19 m ρ c (Proc.devRef .tc b) := by
  by_cases h : ∃ w, Pipeline.arrRef spec4 w = b
  · obtain ⟨w, rfl⟩ := h
    have hw : (cfg4.win w).isOut = false := by
      revert hb; revert w; decide
    exact (W20_arr m ρ c w).trans (((dat4 (V19 m ρ) c).arrAt_in w hw _).trans (A4 (V19 m ρ) c w))
  · exact W20_of_ne m ρ c b fun w e => h ⟨w, e⟩
/-- After the host stretch `hostOps5`. -/
abbrev W21 : Dev nD → Valuation τ sig (Elt F) := fun c => StableHlo.after hostOps5 (W20 m ρ c)

end Cert.Kernel.Frm

end
-- ==== Proof.KbSegs.lean ====
/-
  The program as a list of segments: a host segment per stretch of host operations, entered at its boundary's contents, and a
  region per kernel launch carrying the launch layout, the body obligation and the four entailments around the thread state
  "every unscoped buffer at the boundary's contents, the generator register at some state, nothing owed".
-/
import proofs.«115534_j8151847928363_1_alg».proof.Proof.KbVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No launch has a prefetched table. -/
abbrev adm : (p : Fin 5) → (pcfgs (F := F) p).Adm := fun p => (cfgs p).toPCfg_adm
/-- Every launch's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V9 m ρ) c
  | ⟨1, _⟩ => fun c => dat1 (V11 m ρ) c
  | ⟨2, _⟩ => fun c => dat2 (V13 m ρ) c
  | ⟨3, _⟩ => fun c => dat3 (V15 m ρ) c
  | ⟨4, _⟩ => fun c => dat4 (V19 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps4_1_fresh : (hostOps4_1 : List (HloOp τ sig (Elt F))).Forall fun op => op.fresh = ∅ := by
  simp only [List.Forall]; repeat' constructor
theorem hostOps4_2_fresh : (hostOps4_2 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator register at some state. -/
abbrev Tₙ (c : Dev nD) : sProp 𝕄 := iprop(StableHlo.held (c : Thread nD τ) (Pipeline.ucRefs τ sig) (W21 m ρ c) ∗ ∃ r, prngReg c r)

set_option backward.isDefEq.respectTransparency.types false in
/-- Region 0 over the thread state: entered with every unscoped buffer at `W9`, left with them at `W10`. Its arrays are
    split out of the unscoped buffers on entry and put back at the exit contents; the generator register goes into the
    region's invariant and comes back; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V9 m ρ) c).loose
  hwaits := Pipeline.hwaits_of_owed_zero _ _ _ _ L lv 0 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec0 c (V9 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V9 m ρ c) (V10 m ρ c) ((pdats m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W11`, left with them at `W12`. Its arrays are
    split out of the unscoped buffers on entry and put back at the exit contents; the generator register goes into the
    region's invariant and comes back; nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (exitArr1 m ρ c) (exitRest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W13`, left with them at `W14`. Its arrays are
    split out of the unscoped buffers on entry and put back at the exit contents; the generator register goes into the
    region's invariant and comes back; nothing is owed and the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (V13 m ρ) c).loose
  hwaits := Pipeline.hwaits_of_owed_zero _ _ _ _ L lv 2 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec2 c (V13 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V13 m ρ c) (V14 m ρ c) ((pdats m ρ 2 c).arrAt · cfg2.N) (exitArr2 m ρ c) (exitRest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W15`, left with them at `W16`. Its arrays are
    split out of the unscoped buffers on entry and put back at the exit contents; the generator register goes into the
    region's invariant and comes back; nothing is owed and the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (obligation3 (V15 m ρ) c).loose
  hwaits := Pipeline.hwaits_of_owed_zero _ _ _ _ L lv 3 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec3 c (V15 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V15 m ρ c) (V16 m ρ c) ((pdats m ρ 3 c).arrAt · cfg3.N) (exitArr3 m ρ c) (exitRest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W19`, left with them at `W20`. Its arrays are
    split out of the unscoped buffers on entry and put back at the exit contents; the generator register goes into the
    region's invariant and comes back; nothing is owed and the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (obligation4 (V19 m ρ) c).loose
  hwaits := Pipeline.hwaits_of_owed_zero _ _ _ _ L lv 4 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec4 c (V19 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V19 m ρ c) (V20 m ρ c) ((pdats m ρ 4 c).arrAt · cfg4.N) (exitArr4 m ρ c) (exitRest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's 21 segments in order. -/
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .region (reg0 m ρ),
    .host (hseg hostOps1 hostOps1_sub hostOps1_fresh (W10 m ρ)),
    .region (reg1 m ρ),
    .host (hseg hostOps2 hostOps2_sub hostOps2_fresh (W12 m ρ)),
    .region (reg2 m ρ),
    .host (hseg hostOps3 hostOps3_sub hostOps3_fresh (W14 m ρ)),
    .region (reg3 m ρ),
    .host (hseg hostOps4 hostOps4_sub hostOps4_fresh (W16 m ρ)),
    .host (hseg hostOps4_1 hostOps4_1_sub hostOps4_1_fresh (W17 m ρ)),
    .host (hseg hostOps4_2 hostOps4_2_sub hostOps4_2_fresh (W18 m ρ)),
    .region (reg4 m ρ),
    .host (hseg hostOps5 hostOps5_sub hostOps5_fresh (W20 m ρ)) ]
/-- The program is the run of its segments. -/
theorem main_run (c : Dev nD) : main (F := F) c = Pipeline.Seg.run (segs m ρ) := (main_chain c).trans (by chain_rfl)

end Cert.Kernel.Frm

end
-- ==== Proof.KbArgs.lean ====
/-
  No host operation and no region writes an argument buffer, so the last boundary's contents at an argument walk back
  to the launch memory.
-/
import proofs.«115534_j8151847928363_1_alg».proof.Proof.KbVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The twelve argument buffers. -/
abbrev argRefs : List (Ref sig .tc) := [main_arg0, main_arg1, main_arg2, main_arg3, main_arg4, main_arg5, main_arg6, main_arg7, main_arg8, main_arg9, main_arg10, main_arg11]
set_option maxHeartbeats 4000000 in
theorem W1_arg (c : Dev nD) (b : Ref sig .tc) (hb : b ∈ argRefs) : W1 m ρ c (Proc.devRef .tc b) = W0 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W2_arg (c : Dev nD) (b : Ref sig .tc) (hb : b ∈ argRefs) : W2 m ρ c (Proc.devRef .tc b) = W1 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps0_1, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W3_arg (c : Dev nD) (b : Ref sig .tc) (hb : b ∈ argRefs) : W3 m ρ c (Proc.devRef .tc b) = W2 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps0_2, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W4_arg (c : Dev nD) (b : Ref sig .tc) (hb : b ∈ argRefs) : W4 m ρ c (Proc.devRef .tc b) = W3 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps0_3, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W5_arg (c : Dev nD) (b : Ref sig .tc) (hb : b ∈ argRefs) : W5 m ρ c (Proc.devRef .tc b) = W4 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps0_4, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W6_arg (c : Dev nD) (b : Ref sig .tc) (hb : b ∈ argRefs) : W6 m ρ c (Proc.devRef .tc b) = W5 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps0_5, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W7_arg (c : Dev nD) (b : Ref sig .tc) (hb : b ∈ argRefs) : W7 m ρ c (Proc.devRef .tc b) = W6 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps0_6, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W8_arg (c : Dev nD) (b : Ref sig .tc) (hb : b ∈ argRefs) : W8 m ρ c (Proc.devRef .tc b) = W7 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps0_7, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W9_arg (c : Dev nD) (b : Ref sig .tc) (hb : b ∈ argRefs) : W9 m ρ c (Proc.devRef .tc b) = W8 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps0_8, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W11_arg (c : Dev nD) (b : Ref sig .tc) (hb : b ∈ argRefs) : W11 m ρ c (Proc.devRef .tc b) = W10 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps1, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W13_arg (c : Dev nD) (b : Ref sig .tc) (hb : b ∈ argRefs) : W13 m ρ c (Proc.devRef .tc b) = W12 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps2, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W15_arg (c : Dev nD) (b : Ref sig .tc) (hb : b ∈ argRefs) : W15 m ρ c (Proc.devRef .tc b) = W14 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps3, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W17_arg (c : Dev nD) (b : Ref sig .tc) (hb : b ∈ argRefs) : W17 m ρ c (Proc.devRef .tc b) = W16 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps4, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W18_arg (c : Dev nD) (b : Ref sig .tc) (hb : b ∈ argRefs) : W18 m ρ c (Proc.devRef .tc b) = W17 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps4_1, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W19_arg (c : Dev nD) (b : Ref sig .tc) (hb : b ∈ argRefs) : W19 m ρ c (Proc.devRef .tc b) = W18 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps4_2, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W21_arg (c : Dev nD) (b : Ref sig .tc) (hb : b ∈ argRefs) : W21 m ρ c (Proc.devRef .tc b) = W20 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps5, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W10_arg (c : Dev nD) (b : Ref sig .tc) (hb : b ∈ argRefs) : W10 m ρ c (Proc.devRef .tc b) = W9 m ρ c (Proc.devRef .tc b) := by
  refine W10_keep m ρ c b ?_
  simp only [argRefs, List.mem_cons, List.mem_nil_iff, or_false] at hb
  rcases hb with rfl | rfl | rfl | rfl | rfl | rfl | rfl | rfl | rfl | rfl | rfl | rfl <;> decide
set_option maxHeartbeats 4000000 in
theorem W12_arg (c : Dev nD) (b : Ref sig .tc) (hb : b ∈ argRefs) : W12 m ρ c (Proc.devRef .tc b) = W11 m ρ c (Proc.devRef .tc b) := by
  refine W12_keep m ρ c b ?_
  simp only [argRefs, List.mem_cons, List.mem_nil_iff, or_false] at hb
  rcases hb with rfl | rfl | rfl | rfl | rfl | rfl | rfl | rfl | rfl | rfl | rfl | rfl <;> decide
set_option maxHeartbeats 4000000 in
theorem W14_arg (c : Dev nD) (b : Ref sig .tc) (hb : b ∈ argRefs) : W14 m ρ c (Proc.devRef .tc b) = W13 m ρ c (Proc.devRef .tc b) := by
  refine W14_keep m ρ c b ?_
  simp only [argRefs, List.mem_cons, List.mem_nil_iff, or_false] at hb
  rcases hb with rfl | rfl | rfl | rfl | rfl | rfl | rfl | rfl | rfl | rfl | rfl | rfl <;> decide
set_option maxHeartbeats 4000000 in
theorem W16_arg (c : Dev nD) (b : Ref sig .tc) (hb : b ∈ argRefs) : W16 m ρ c (Proc.devRef .tc b) = W15 m ρ c (Proc.devRef .tc b) := by
  refine W16_keep m ρ c b ?_
  simp only [argRefs, List.mem_cons, List.mem_nil_iff, or_false] at hb
  rcases hb with rfl | rfl | rfl | rfl | rfl | rfl | rfl | rfl | rfl | rfl | rfl | rfl <;> decide
set_option maxHeartbeats 4000000 in
theorem W20_arg (c : Dev nD) (b : Ref sig .tc) (hb : b ∈ argRefs) : W20 m ρ c (Proc.devRef .tc b) = W19 m ρ c (Proc.devRef .tc b) := by
  refine W20_keep m ρ c b ?_
  simp only [argRefs, List.mem_cons, List.mem_nil_iff, or_false] at hb
  rcases hb with rfl | rfl | rfl | rfl | rfl | rfl | rfl | rfl | rfl | rfl | rfl | rfl <;> decide
/-- At the end every argument buffer holds its launch contents. -/
theorem W21_args (c : Dev nD) (b : Ref sig .tc) (hb : b ∈ argRefs) : W21 m ρ c (Proc.devRef .tc b) = m ((c : Thread nD τ).loc b) :=
  ((W21_arg m ρ c b hb).trans <| (W20_arg m ρ c b hb).trans <| (W19_arg m ρ c b hb).trans <| (W18_arg m ρ c b hb).trans <| (W17_arg m ρ c b hb).trans <| (W16_arg m ρ c b hb).trans <| (W15_arg m ρ c b hb).trans <| (W14_arg m ρ c b hb).trans <| (W13_arg m ρ c b hb).trans <| (W12_arg m ρ c b hb).trans <| (W11_arg m ρ c b hb).trans <| (W10_arg m ρ c b hb).trans <| (W9_arg m ρ c b hb).trans <| (W8_arg m ρ c b hb).trans <| (W7_arg m ρ c b hb).trans <| (W6_arg m ρ c b hb).trans <| (W5_arg m ρ c b hb).trans <| (W4_arg m ρ c b hb).trans <| (W3_arg m ρ c b hb).trans <| (W2_arg m ρ c b hb).trans <| (W1_arg m ρ c b hb)).trans rfl

end Cert.Kernel.Frm

end
-- ==== Proof.KbRun.lean ====
/-
  The run: from any memory with zero counters every weakly fair execution of the program on the TensorCores terminates,
  nothing faulting, with the result buffer at the last boundary's contents and every argument buffer as launched.
-/
import proofs.«115534_j8151847928363_1_alg».proof.Proof.KbSegs
import proofs.«115534_j8151847928363_1_alg».proof.Proof.KbArgs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v275) = W21 m ρ c (Proc.devRef .tc main_v275)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W21 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v275 (by decide)),
        (h c _ (mem_uc main_arg0 (by decide))).trans (W21_args m ρ c main_arg0 (by simp [argRefs])),
        (h c _ (mem_uc main_arg1 (by decide))).trans (W21_args m ρ c main_arg1 (by simp [argRefs])),
        (h c _ (mem_uc main_arg2 (by decide))).trans (W21_args m ρ c main_arg2 (by simp [argRefs])),
        (h c _ (mem_uc main_arg3 (by decide))).trans (W21_args m ρ c main_arg3 (by simp [argRefs])),
        (h c _ (mem_uc main_arg4 (by decide))).trans (W21_args m ρ c main_arg4 (by simp [argRefs])),
        (h c _ (mem_uc main_arg5 (by decide))).trans (W21_args m ρ c main_arg5 (by simp [argRefs])),
        (h c _ (mem_uc main_arg6 (by decide))).trans (W21_args m ρ c main_arg6 (by simp [argRefs])),
        (h c _ (mem_uc main_arg7 (by decide))).trans (W21_args m ρ c main_arg7 (by simp [argRefs])),
        (h c _ (mem_uc main_arg8 (by decide))).trans (W21_args m ρ c main_arg8 (by simp [argRefs])),
        (h c _ (mem_uc main_arg9 (by decide))).trans (W21_args m ρ c main_arg9 (by simp [argRefs])),
        (h c _ (mem_uc main_arg10 (by decide))).trans (W21_args m ρ c main_arg10 (by simp [argRefs])),
        (h c _ (mem_uc main_arg11 (by decide))).trans (W21_args m ρ c main_arg11 (by simp [argRefs]))⟩)

end Cert.Kernel.Frm

end
-- ==== Proof.KiReg0.lean ====
/-
  The first layer's projection: a 2000-row block of x against the 128×512 table holding every relation's weight side by side (25 row blocks).
  What the region's body leaves in its result buffer, its triple, and the pipeline's proof data, for any float
  instance and any contents `V` of the buffers at the region's entry.
-/
import proofs.«115534_j8151847928363_1_alg».proof.Proof.Gen.KernelIdeal.Launch
import proofs.«115534_j8151847928363_1_alg».proof.Proof.Gen.KernelIdeal.Skeleton
import proofs.«115534_j8151847928363_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffers as the region finds them on entry
variable (V : (c : Dev nD) → (b : Ref sig .tc) → Buf (Elt F) ((c : Thread nD τ).loc b))

/-- Operand `w`'s block at row block `t`, cut out of the array the region finds. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Operand 0 holds its block at every row block, fetched there or not: an unfetched operand's block index did not move. -/
theorem held0_0 {c : Dev nD} (dat : Dat τ (Elt F) Unit ℕ (UR sig nD τ) ℕ cfg0 c)
    (hA : dat.A 0 = V c (Pipeline.arrRef spec0 0)) (hafter : ∀ t, dat.after 0 t = blk0 V c 0 t) (t : Fin cfg0.N) (d) :
    dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- Operand 1 holds its block at every row block, fetched there or not: an unfetched operand's block index did not move. -/
theorem held0_1 {c : Dev nD} (dat : Dat τ (Elt F) Unit ℕ (UR sig nD τ) ℕ cfg0 c)
    (hA : dat.A 1 = V c (Pipeline.arrRef spec0 1)) (hafter : ∀ t, dat.after 1 t = blk0 V c 1 t) (t : Fin cfg0.N) (d) :
    dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The one rectangle the body stores through: the whole result block. -/
abbrev whole0 : Rect S2000x512 := Rect.unit (s := S2000x512) ![0, 0] S2000x512.size inb_S2000x512_S2000x512_0_0

/-- The result buffer after the body: the body's one value of the operand blocks, stored whole. -/
def res0 (x0 : Vec F S2000x128 .f32) (x1 : Vec F S128x512 .f32) : Vec F S2000x512 .f32 :=
  View.canon [⟨whole0, k0_pay1 (View.ld x0 (Rect.unit (s := S2000x128) ![0, 0] S2000x128.size inb_S2000x128_S2000x128_0_0)) (View.ld x1 (Rect.unit (s := S128x512) ![0, 0] S128x512.size inb_S128x512_S128x512_0_0))⟩]

theorem covers0 (p : Vec F S2000x512 .f32) (y : S2000x512.Idx) :
    ∃ pc ∈ ([⟨whole0, p⟩] : List (View.Piece (Elt F) S2000x512 .f32)), y ∈ pc.1.set :=
  View.cover_of_tiled [⟨whole0, p⟩] S2000x512.size (by rfl) y

set_option maxHeartbeats 1000000 in
/-- The body on whole staging memrefs: the operands at given contents, the result buffer at anything; it ends with the
    operands as they were and the result buffer at `res0` of them. -/
theorem body0 (c : Dev nD) (E : Set ℕ) (i : grid0.Coords) (a0 : Memref sig .tc .vmem S2000x128 .f32) (h0 : a0.IsWhole) (a1 : Memref sig .tc .vmem S128x512 .f32) (h1 : a1.IsWhole) (a2 : Memref sig .tc .vmem S2000x512 .f32) (h2 : a2.IsWhole)
    (x0 : Vec F S2000x128 .f32) (x1 : Vec F S128x512 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (res0 x0 x1)) -∗ K ⟨⟩))
      ⊢ wp frame (wpE (defs₀ (F := F)) Variants.none c none) E (cc0__matmul_kernel i a0 h0 a1 h1 a2 h2) K := by
  simp only [cc0__matmul_kernel_eq_skeleton]; unfold cc0__matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (covers0 _)

/-- The pipeline's proof data on core `c`: the arrays as the region finds them; after the body at row block `t` each
    operand's buffer at its block and the result's at the body's value of them; the scoped rest and the generator
    register untouched; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => res0 (blk0 V c 0 t) (blk0 V c 1 t)
  Φ _ := Pipeline.ΦA spec0 c
  q _ := fullShare
  owed _ := 0

theorem A0 (c : Dev nD) (w : Fin cfg0.W) : (dat0 V c).A w = V c (Pipeline.arrRef spec0 w) := by dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = res0 (blk0 V c 0 t) (blk0 V c 1 t) := by dsimp only [dat0]
theorem before0_0 (c : Dev nD) (t : Fin cfg0.N) (d) : (dat0 V c).before 0 t d = blk0 V c 0 t :=
  held0_0 V (dat0 V c) (A0 V c 0) (after0_0 V c) t d
theorem before0_1 (c : Dev nD) (t : Fin cfg0.N) (d) : (dat0 V c).before 1 t d = blk0 V c 1 t :=
  held0_1 V (dat0 V c) (A0 V c 1) (after0_1 V c) t d

/-- What the body is called with at row block `t`, window by window, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem atPoint0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (body0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every row block. -/
theorem obligation0 (c : Dev nD) : BodyObligation (dat0 (F := F) V c) (defs₀ (F := F)) Variants.none () Set.univ := fun t => by
  rw [bigSep_W0, bigSep_W0]
  exact atPoint0 V c t

end Cert.KernelIdeal.Frm

end
-- ==== Proof.KiReg1.lean ====
/-
  The first layer's combination: the four relations' aggregated messages (column groups of one 2000×512 block) summed, the summed bias row added, and the negative part cut off.
  What the region's body leaves in its result buffer, its triple, and the pipeline's proof data, for any float
  instance and any contents `V` of the buffers at the region's entry.
-/
import proofs.«115534_j8151847928363_1_alg».proof.Proof.Gen.KernelIdeal.Launch
import proofs.«115534_j8151847928363_1_alg».proof.Proof.Gen.KernelIdeal.Skeleton
import proofs.«115534_j8151847928363_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffers as the region finds them on entry
variable (V : (c : Dev nD) → (b : Ref sig .tc) → Buf (Elt F) ((c : Thread nD τ).loc b))

/-- Operand `w`'s block at row block `t`, cut out of the array the region finds. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Operand 0 holds its block at every row block, fetched there or not: an unfetched operand's block index did not move. -/
theorem held1_0 {c : Dev nD} (dat : Dat τ (Elt F) Unit ℕ (UR sig nD τ) ℕ cfg1 c)
    (hA : dat.A 0 = V c (Pipeline.arrRef spec1 0)) (hafter : ∀ t, dat.after 0 t = blk1 V c 0 t) (t : Fin cfg1.N) (d) :
    dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- Operand 1 holds its block at every row block, fetched there or not: an unfetched operand's block index did not move. -/
theorem held1_1 {c : Dev nD} (dat : Dat τ (Elt F) Unit ℕ (UR sig nD τ) ℕ cfg1 c)
    (hA : dat.A 1 = V c (Pipeline.arrRef spec1 1)) (hafter : ∀ t, dat.after 1 t = blk1 V c 1 t) (t : Fin cfg1.N) (d) :
    dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The one rectangle the body stores through: the whole result block. -/
abbrev whole1 : Rect S2000x128 := Rect.unit (s := S2000x128) ![0, 0] S2000x128.size inb_S2000x128_S2000x128_0_0

/-- The result buffer after the body: the body's one value of the operand blocks, stored whole. -/
def res1 (x0 : Vec F S2000x512 .f32) (x1 : Vec F S1x128 .f32) : Vec F S2000x128 .f32 :=
  View.canon [⟨whole1, k1_pay1 (View.ld x0 (Rect.unit (s := S2000x512) ![0, 0] S2000x128.size inb_S2000x512_S2000x128_0_0)) (View.ld x0 (Rect.unit (s := S2000x512) ![0, 128] S2000x128.size inb_S2000x512_S2000x128_0_128)) (View.ld x0 (Rect.unit (s := S2000x512) ![0, 256] S2000x128.size inb_S2000x512_S2000x128_0_256)) (View.ld x0 (Rect.unit (s := S2000x512) ![0, 384] S2000x128.size inb_S2000x512_S2000x128_0_384)) (View.ld x1 (Rect.unit (s := S1x128) ![0, 0] S1x128.size inb_S1x128_S1x128_0_0))⟩]

theorem covers1 (p : Vec F S2000x128 .f32) (y : S2000x128.Idx) :
    ∃ pc ∈ ([⟨whole1, p⟩] : List (View.Piece (Elt F) S2000x128 .f32)), y ∈ pc.1.set :=
  View.cover_of_tiled [⟨whole1, p⟩] S2000x128.size (by rfl) y

set_option maxHeartbeats 1000000 in
/-- The body on whole staging memrefs: the operands at given contents, the result buffer at anything; it ends with the
    operands as they were and the result buffer at `res1` of them. -/
theorem body1 (c : Dev nD) (E : Set ℕ) (i : grid1.Coords) (a0 : Memref sig .tc .vmem S2000x512 .f32) (h0 : a0.IsWhole) (a1 : Memref sig .tc .vmem S1x128 .f32) (h1 : a1.IsWhole) (a2 : Memref sig .tc .vmem S2000x128 .f32) (h2 : a2.IsWhole)
    (x0 : Vec F S2000x512 .f32) (x1 : Vec F S1x128 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (res1 x0 x1)) -∗ K ⟨⟩))
      ⊢ wp frame (wpE (defs₀ (F := F)) Variants.none c none) E (cc1__biassum_relu_kernel i a0 h0 a1 h1 a2 h2) K := by
  simp only [cc1__biassum_relu_kernel_eq_skeleton]; unfold cc1__biassum_relu_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (covers1 _)

/-- The pipeline's proof data on core `c`: the arrays as the region finds them; after the body at row block `t` each
    operand's buffer at its block and the result's at the body's value of them; the scoped rest and the generator
    register untouched; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => res1 (blk1 V c 0 t) (blk1 V c 1 t)
  Φ _ := Pipeline.ΦA spec1 c
  q _ := fullShare
  owed _ := 0

theorem A1 (c : Dev nD) (w : Fin cfg1.W) : (dat1 V c).A w = V c (Pipeline.arrRef spec1 w) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = res1 (blk1 V c 0 t) (blk1 V c 1 t) := by dsimp only [dat1]
theorem before1_0 (c : Dev nD) (t : Fin cfg1.N) (d) : (dat1 V c).before 0 t d = blk1 V c 0 t :=
  held1_0 V (dat1 V c) (A1 V c 0) (after1_0 V c) t d
theorem before1_1 (c : Dev nD) (t : Fin cfg1.N) (d) : (dat1 V c).before 1 t d = blk1 V c 1 t :=
  held1_1 V (dat1 V c) (A1 V c 1) (after1_1 V c) t d

/-- What the body is called with at row block `t`, window by window, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem atPoint1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (body1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every row block. -/
theorem obligation1 (c : Dev nD) : BodyObligation (dat1 (F := F) V c) (defs₀ (F := F)) Variants.none () Set.univ := fun t => by
  rw [bigSep_W1, bigSep_W1]
  exact atPoint1 V c t

end Cert.KernelIdeal.Frm

end
-- ==== Proof.KiReg2.lean ====
/-
  The second layer's projection: a 2000-row block of the first layer's output against the 128×512 table of the second layer's weights.
  What the region's body leaves in its result buffer, its triple, and the pipeline's proof data, for any float
  instance and any contents `V` of the buffers at the region's entry.
-/
import proofs.«115534_j8151847928363_1_alg».proof.Proof.Gen.KernelIdeal.Launch
import proofs.«115534_j8151847928363_1_alg».proof.Proof.Gen.KernelIdeal.Skeleton
import proofs.«115534_j8151847928363_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffers as the region finds them on entry
variable (V : (c : Dev nD) → (b : Ref sig .tc) → Buf (Elt F) ((c : Thread nD τ).loc b))

/-- Operand `w`'s block at row block `t`, cut out of the array the region finds. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Operand 0 holds its block at every row block, fetched there or not: an unfetched operand's block index did not move. -/
theorem held2_0 {c : Dev nD} (dat : Dat τ (Elt F) Unit ℕ (UR sig nD τ) ℕ cfg2 c)
    (hA : dat.A 0 = V c (Pipeline.arrRef spec2 0)) (hafter : ∀ t, dat.after 0 t = blk2 V c 0 t) (t : Fin cfg2.N) (d) :
    dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
/-- Operand 1 holds its block at every row block, fetched there or not: an unfetched operand's block index did not move. -/
theorem held2_1 {c : Dev nD} (dat : Dat τ (Elt F) Unit ℕ (UR sig nD τ) ℕ cfg2 c)
    (hA : dat.A 1 = V c (Pipeline.arrRef spec2 1)) (hafter : ∀ t, dat.after 1 t = blk2 V c 1 t) (t : Fin cfg2.N) (d) :
    dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The one rectangle the body stores through: the whole result block. -/
abbrev whole2 : Rect S2000x512 := Rect.unit (s := S2000x512) ![0, 0] S2000x512.size inb_S2000x512_S2000x512_0_0

/-- The result buffer after the body: the body's one value of the operand blocks, stored whole. -/
def res2 (x0 : Vec F S2000x128 .f32) (x1 : Vec F S128x512 .f32) : Vec F S2000x512 .f32 :=
  View.canon [⟨whole2, k2_pay1 (View.ld x0 (Rect.unit (s := S2000x128) ![0, 0] S2000x128.size inb_S2000x128_S2000x128_0_0)) (View.ld x1 (Rect.unit (s := S128x512) ![0, 0] S128x512.size inb_S128x512_S128x512_0_0))⟩]

theorem covers2 (p : Vec F S2000x512 .f32) (y : S2000x512.Idx) :
    ∃ pc ∈ ([⟨whole2, p⟩] : List (View.Piece (Elt F) S2000x512 .f32)), y ∈ pc.1.set :=
  View.cover_of_tiled [⟨whole2, p⟩] S2000x512.size (by rfl) y

set_option maxHeartbeats 1000000 in
/-- The body on whole staging memrefs: the operands at given contents, the result buffer at anything; it ends with the
    operands as they were and the result buffer at `res2` of them. -/
theorem body2 (c : Dev nD) (E : Set ℕ) (i : grid2.Coords) (a0 : Memref sig .tc .vmem S2000x128 .f32) (h0 : a0.IsWhole) (a1 : Memref sig .tc .vmem S128x512 .f32) (h1 : a1.IsWhole) (a2 : Memref sig .tc .vmem S2000x512 .f32) (h2 : a2.IsWhole)
    (x0 : Vec F S2000x128 .f32) (x1 : Vec F S128x512 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (res2 x0 x1)) -∗ K ⟨⟩))
      ⊢ wp frame (wpE (defs₀ (F := F)) Variants.none c none) E (cc2__matmul_kernel i a0 h0 a1 h1 a2 h2) K := by
  simp only [cc2__matmul_kernel_eq_skeleton]; unfold cc2__matmul_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (covers2 _)

/-- The pipeline's proof data on core `c`: the arrays as the region finds them; after the body at row block `t` each
    operand's buffer at its block and the result's at the body's value of them; the scoped rest and the generator
    register untouched; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => res2 (blk2 V c 0 t) (blk2 V c 1 t)
  Φ _ := Pipeline.ΦA spec2 c
  q _ := fullShare
  owed _ := 0

theorem A2 (c : Dev nD) (w : Fin cfg2.W) : (dat2 V c).A w = V c (Pipeline.arrRef spec2 w) := by dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = res2 (blk2 V c 0 t) (blk2 V c 1 t) := by dsimp only [dat2]
theorem before2_0 (c : Dev nD) (t : Fin cfg2.N) (d) : (dat2 V c).before 0 t d = blk2 V c 0 t :=
  held2_0 V (dat2 V c) (A2 V c 0) (after2_0 V c) t d
theorem before2_1 (c : Dev nD) (t : Fin cfg2.N) (d) : (dat2 V c).before 1 t d = blk2 V c 1 t :=
  held2_1 V (dat2 V c) (A2 V c 1) (after2_1 V c) t d

/-- What the body is called with at row block `t`, window by window, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem atPoint2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (body2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every row block. -/
theorem obligation2 (c : Dev nD) : BodyObligation (dat2 (F := F) V c) (defs₀ (F := F)) Variants.none () Set.univ := fun t => by
  rw [bigSep_W2, bigSep_W2]
  exact atPoint2 V c t

end Cert.KernelIdeal.Frm

end
-- ==== Proof.KiReg3.lean ====
/-
  The second layer's combination: the four relations' aggregated messages summed, the summed bias row added, and the negative part cut off.
  What the region's body leaves in its result buffer, its triple, and the pipeline's proof data, for any float
  instance and any contents `V` of the buffers at the region's entry.
-/
import proofs.«115534_j8151847928363_1_alg».proof.Proof.Gen.KernelIdeal.Launch
import proofs.«115534_j8151847928363_1_alg».proof.Proof.Gen.KernelIdeal.Skeleton
import proofs.«115534_j8151847928363_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffers as the region finds them on entry
variable (V : (c : Dev nD) → (b : Ref sig .tc) → Buf (Elt F) ((c : Thread nD τ).loc b))

/-- Operand `w`'s block at row block `t`, cut out of the array the region finds. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Operand 0 holds its block at every row block, fetched there or not: an unfetched operand's block index did not move. -/
theorem held3_0 {c : Dev nD} (dat : Dat τ (Elt F) Unit ℕ (UR sig nD τ) ℕ cfg3 c)
    (hA : dat.A 0 = V c (Pipeline.arrRef spec3 0)) (hafter : ∀ t, dat.after 0 t = blk3 V c 0 t) (t : Fin cfg3.N) (d) :
    dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
/-- Operand 1 holds its block at every row block, fetched there or not: an unfetched operand's block index did not move. -/
theorem held3_1 {c : Dev nD} (dat : Dat τ (Elt F) Unit ℕ (UR sig nD τ) ℕ cfg3 c)
    (hA : dat.A 1 = V c (Pipeline.arrRef spec3 1)) (hafter : ∀ t, dat.after 1 t = blk3 V c 1 t) (t : Fin cfg3.N) (d) :
    dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- The one rectangle the body stores through: the whole result block. -/
abbrev whole3 : Rect S2000x128 := Rect.unit (s := S2000x128) ![0, 0] S2000x128.size inb_S2000x128_S2000x128_0_0

/-- The result buffer after the body: the body's one value of the operand blocks, stored whole. -/
def res3 (x0 : Vec F S2000x512 .f32) (x1 : Vec F S1x128 .f32) : Vec F S2000x128 .f32 :=
  View.canon [⟨whole3, k3_pay1 (View.ld x0 (Rect.unit (s := S2000x512) ![0, 0] S2000x128.size inb_S2000x512_S2000x128_0_0)) (View.ld x0 (Rect.unit (s := S2000x512) ![0, 128] S2000x128.size inb_S2000x512_S2000x128_0_128)) (View.ld x0 (Rect.unit (s := S2000x512) ![0, 256] S2000x128.size inb_S2000x512_S2000x128_0_256)) (View.ld x0 (Rect.unit (s := S2000x512) ![0, 384] S2000x128.size inb_S2000x512_S2000x128_0_384)) (View.ld x1 (Rect.unit (s := S1x128) ![0, 0] S1x128.size inb_S1x128_S1x128_0_0))⟩]

theorem covers3 (p : Vec F S2000x128 .f32) (y : S2000x128.Idx) :
    ∃ pc ∈ ([⟨whole3, p⟩] : List (View.Piece (Elt F) S2000x128 .f32)), y ∈ pc.1.set :=
  View.cover_of_tiled [⟨whole3, p⟩] S2000x128.size (by rfl) y

set_option maxHeartbeats 1000000 in
/-- The body on whole staging memrefs: the operands at given contents, the result buffer at anything; it ends with the
    operands as they were and the result buffer at `res3` of them. -/
theorem body3 (c : Dev nD) (E : Set ℕ) (i : grid3.Coords) (a0 : Memref sig .tc .vmem S2000x512 .f32) (h0 : a0.IsWhole) (a1 : Memref sig .tc .vmem S1x128 .f32) (h1 : a1.IsWhole) (a2 : Memref sig .tc .vmem S2000x128 .f32) (h2 : a2.IsWhole)
    (x0 : Vec F S2000x512 .f32) (x1 : Vec F S1x128 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (res3 x0 x1)) -∗ K ⟨⟩))
      ⊢ wp frame (wpE (defs₀ (F := F)) Variants.none c none) E (cc3__biassum_relu_kernel i a0 h0 a1 h1 a2 h2) K := by
  simp only [cc3__biassum_relu_kernel_eq_skeleton]; unfold cc3__biassum_relu_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (covers3 _)

/-- The pipeline's proof data on core `c`: the arrays as the region finds them; after the body at row block `t` each
    operand's buffer at its block and the result's at the body's value of them; the scoped rest and the generator
    register untouched; nothing owed. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => res3 (blk3 V c 0 t) (blk3 V c 1 t)
  Φ _ := Pipeline.ΦA spec3 c
  q _ := fullShare
  owed _ := 0

theorem A3 (c : Dev nD) (w : Fin cfg3.W) : (dat3 V c).A w = V c (Pipeline.arrRef spec3 w) := by dsimp only [dat3]
theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = res3 (blk3 V c 0 t) (blk3 V c 1 t) := by dsimp only [dat3]
theorem before3_0 (c : Dev nD) (t : Fin cfg3.N) (d) : (dat3 V c).before 0 t d = blk3 V c 0 t :=
  held3_0 V (dat3 V c) (A3 V c 0) (after3_0 V c) t d
theorem before3_1 (c : Dev nD) (t : Fin cfg3.N) (d) : (dat3 V c).before 1 t d = blk3 V c 1 t :=
  held3_1 V (dat3 V c) (A3 V c 1) (after3_1 V c) t d

/-- What the body is called with at row block `t`, window by window, -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem atPoint3 (c : Dev nD) (t : Fin cfg3.N) :
    pre3 V c t ⊢ wp frame (wpE (defs₀ (F := F)) Variants.none c none) Set.univ (bodyAt3 t) (fun _ => post3 V c t) := by
  unfold pre3 post3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (body3 c Set.univ _ _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every row block. -/
theorem obligation3 (c : Dev nD) : BodyObligation (dat3 (F := F) V c) (defs₀ (F := F)) Variants.none () Set.univ := fun t => by
  rw [bigSep_W3, bigSep_W3]
  exact atPoint3 V c t

end Cert.KernelIdeal.Frm

end
-- ==== Proof.KiReg4.lean ====
/-
  The head: the normalisation's scale and shift applied to a 2000-row block, a 128×128 linear layer with bias, the negative part cut off, and the (zero-padded) 128×128 output layer with bias.
  What the region's body leaves in its result buffer, its triple, and the pipeline's proof data, for any float
  instance and any contents `V` of the buffers at the region's entry.
-/
import proofs.«115534_j8151847928363_1_alg».proof.Proof.Gen.KernelIdeal.Launch
import proofs.«115534_j8151847928363_1_alg».proof.Proof.Gen.KernelIdeal.Skeleton
import proofs.«115534_j8151847928363_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffers as the region finds them on entry
variable (V : (c : Dev nD) → (b : Ref sig .tc) → Buf (Elt F) ((c : Thread nD τ).loc b))

/-- Operand `w`'s block at row block `t`, cut out of the array the region finds. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Operand 0 holds its block at every row block, fetched there or not: an unfetched operand's block index did not move. -/
theorem held4_0 {c : Dev nD} (dat : Dat τ (Elt F) Unit ℕ (UR sig nD τ) ℕ cfg4 c)
    (hA : dat.A 0 = V c (Pipeline.arrRef spec4 0)) (hafter : ∀ t, dat.after 0 t = blk4 V c 0 t) (t : Fin cfg4.N) (d) :
    dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)
/-- Operand 1 holds its block at every row block, fetched there or not: an unfetched operand's block index did not move. -/
theorem held4_1 {c : Dev nD} (dat : Dat τ (Elt F) Unit ℕ (UR sig nD τ) ℕ cfg4 c)
    (hA : dat.A 1 = V c (Pipeline.arrRef spec4 1)) (hafter : ∀ t, dat.after 1 t = blk4 V c 1 t) (t : Fin cfg4.N) (d) :
    dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)
/-- Operand 2 holds its block at every row block, fetched there or not: an unfetched operand's block index did not move. -/
theorem held4_2 {c : Dev nD} (dat : Dat τ (Elt F) Unit ℕ (UR sig nD τ) ℕ cfg4 c)
    (hA : dat.A 2 = V c (Pipeline.arrRef spec4 2)) (hafter : ∀ t, dat.after 2 t = blk4 V c 2 t) (t : Fin cfg4.N) (d) :
    dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)
/-- Operand 3 holds its block at every row block, fetched there or not: an unfetched operand's block index did not move. -/
theorem held4_3 {c : Dev nD} (dat : Dat τ (Elt F) Unit ℕ (UR sig nD τ) ℕ cfg4 c)
    (hA : dat.A 3 = V c (Pipeline.arrRef spec4 3)) (hafter : ∀ t, dat.after 3 t = blk4 V c 3 t) (t : Fin cfg4.N) (d) :
    dat.before 3 t d = blk4 V c 3 t :=
  (dat.before_in_eq_fetched 3 rfl (fun _ => rfl) (fun _ _ _ => rfl) (fun t => by rw [hafter]; unfold Dat.blockOf blk4; rw [hA]; try rfl) t d).trans
    (by unfold Dat.fetched Dat.blockOf blk4; rw [hA]; try rfl)
/-- Operand 4 holds its block at every row block, fetched there or not: an unfetched operand's block index did not move. -/
theorem held4_4 {c : Dev nD} (dat : Dat τ (Elt F) Unit ℕ (UR sig nD τ) ℕ cfg4 c)
    (hA : dat.A 4 = V c (Pipeline.arrRef spec4 4)) (hafter : ∀ t, dat.after 4 t = blk4 V c 4 t) (t : Fin cfg4.N) (d) :
    dat.before 4 t d = blk4 V c 4 t :=
  (dat.before_in_eq_fetched 4 rfl (fun _ => rfl) (fun _ _ _ => rfl) (fun t => by rw [hafter]; unfold Dat.blockOf blk4; rw [hA]; try rfl) t d).trans
    (by unfold Dat.fetched Dat.blockOf blk4; rw [hA]; try rfl)
/-- Operand 5 holds its block at every row block, fetched there or not: an unfetched operand's block index did not move. -/
theorem held4_5 {c : Dev nD} (dat : Dat τ (Elt F) Unit ℕ (UR sig nD τ) ℕ cfg4 c)
    (hA : dat.A 5 = V c (Pipeline.arrRef spec4 5)) (hafter : ∀ t, dat.after 5 t = blk4 V c 5 t) (t : Fin cfg4.N) (d) :
    dat.before 5 t d = blk4 V c 5 t :=
  (dat.before_in_eq_fetched 5 rfl (fun _ => rfl) (fun _ _ _ => rfl) (fun t => by rw [hafter]; unfold Dat.blockOf blk4; rw [hA]; try rfl) t d).trans
    (by unfold Dat.fetched Dat.blockOf blk4; rw [hA]; try rfl)
/-- Operand 6 holds its block at every row block, fetched there or not: an unfetched operand's block index did not move. -/
theorem held4_6 {c : Dev nD} (dat : Dat τ (Elt F) Unit ℕ (UR sig nD τ) ℕ cfg4 c)
    (hA : dat.A 6 = V c (Pipeline.arrRef spec4 6)) (hafter : ∀ t, dat.after 6 t = blk4 V c 6 t) (t : Fin cfg4.N) (d) :
    dat.before 6 t d = blk4 V c 6 t :=
  (dat.before_in_eq_fetched 6 rfl (fun _ => rfl) (fun _ _ _ => rfl) (fun t => by rw [hafter]; unfold Dat.blockOf blk4; rw [hA]; try rfl) t d).trans
    (by unfold Dat.fetched Dat.blockOf blk4; rw [hA]; try rfl)

/-- The one rectangle the body stores through: the whole result block. -/
abbrev whole4 : Rect S2000x128 := Rect.unit (s := S2000x128) ![0, 0] S2000x128.size inb_S2000x128_S2000x128_0_0

/-- The result buffer after the body: the body's one value of the operand blocks, stored whole. -/
def res4 (x0 : Vec F S2000x128 .f32) (x1 : Vec F S1x128 .f32) (x2 : Vec F S1x128 .f32) (x3 : Vec F S128x128 .f32) (x4 : Vec F S1x128 .f32) (x5 : Vec F S128x128 .f32) (x6 : Vec F S1x128 .f32) : Vec F S2000x128 .f32 :=
  View.canon [⟨whole4, k4_pay1 (View.ld x0 (Rect.unit (s := S2000x128) ![0, 0] S2000x128.size inb_S2000x128_S2000x128_0_0)) (View.ld x1 (Rect.unit (s := S1x128) ![0, 0] S1x128.size inb_S1x128_S1x128_0_0)) (View.ld x2 (Rect.unit (s := S1x128) ![0, 0] S1x128.size inb_S1x128_S1x128_0_0)) (View.ld x3 (Rect.unit (s := S128x128) ![0, 0] S128x128.size inb_S128x128_S128x128_0_0)) (View.ld x4 (Rect.unit (s := S1x128) ![0, 0] S1x128.size inb_S1x128_S1x128_0_0)) (View.ld x5 (Rect.unit (s := S128x128) ![0, 0] S128x128.size inb_S128x128_S128x128_0_0)) (View.ld x6 (Rect.unit (s := S1x128) ![0, 0] S1x128.size inb_S1x128_S1x128_0_0))⟩]

theorem covers4 (p : Vec F S2000x128 .f32) (y : S2000x128.Idx) :
    ∃ pc ∈ ([⟨whole4, p⟩] : List (View.Piece (Elt F) S2000x128 .f32)), y ∈ pc.1.set :=
  View.cover_of_tiled [⟨whole4, p⟩] S2000x128.size (by rfl) y

set_option maxHeartbeats 1000000 in
/-- The body on whole staging memrefs: the operands at given contents, the result buffer at anything; it ends with the
    operands as they were and the result buffer at `res4` of them. -/
theorem body4 (c : Dev nD) (E : Set ℕ) (i : grid4.Coords) (a0 : Memref sig .tc .vmem S2000x128 .f32) (h0 : a0.IsWhole) (a1 : Memref sig .tc .vmem S1x128 .f32) (h1 : a1.IsWhole) (a2 : Memref sig .tc .vmem S1x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole)
    (x0 : Vec F S2000x128 .f32) (x1 : Vec F S1x128 .f32) (x2 : Vec F S1x128 .f32) (x3 : Vec F S128x128 .f32) (x4 : Vec F S1x128 .f32) (x5 : Vec F S128x128 .f32) (x6 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (res4 x0 x1 x2 x3 x4 x5 x6)) -∗ K ⟨⟩))
      ⊢ wp frame (wpE (defs₀ (F := F)) Variants.none c none) E (cc4__final_kernel i a0 h0 a1 h1 a2 h2 a3 h3 a4 h4 a5 h5 a6 h6 a7 h7) K := by
  simp only [cc4__final_kernel_eq_skeleton]; unfold cc4__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fO, -, HO⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact HO
  ipureintro
  exact View.read_writes_eq_canon _ _ _ (covers4 _)

/-- The pipeline's proof data on core `c`: the arrays as the region finds them; after the body at row block `t` each
    operand's buffer at its block and the result's at the body's value of them; the scoped rest and the generator
    register untouched; nothing owed. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => blk4 V c 4 t
    | ⟨5, _⟩ => blk4 V c 5 t
    | ⟨6, _⟩ => blk4 V c 6 t
    | ⟨7, _⟩ => res4 (blk4 V c 0 t) (blk4 V c 1 t) (blk4 V c 2 t) (blk4 V c 3 t) (blk4 V c 4 t) (blk4 V c 5 t) (blk4 V c 6 t)
  Φ _ := Pipeline.ΦA spec4 c
  q _ := fullShare
  owed _ := 0

theorem A4 (c : Dev nD) (w : Fin cfg4.W) : (dat4 V c).A w = V c (Pipeline.arrRef spec4 w) := by dsimp only [dat4]
theorem after4_0 (c : Dev nD) (t : Fin cfg4.N) : (dat4 V c).after 0 t = blk4 V c 0 t := by dsimp only [dat4]
theorem after4_1 (c : Dev nD) (t : Fin cfg4.N) : (dat4 V c).after 1 t = blk4 V c 1 t := by dsimp only [dat4]
theorem after4_2 (c : Dev nD) (t : Fin cfg4.N) : (dat4 V c).after 2 t = blk4 V c 2 t := by dsimp only [dat4]
theorem after4_3 (c : Dev nD) (t : Fin cfg4.N) : (dat4 V c).after 3 t = blk4 V c 3 t := by dsimp only [dat4]
theorem after4_4 (c : Dev nD) (t : Fin cfg4.N) : (dat4 V c).after 4 t = blk4 V c 4 t := by dsimp only [dat4]
theorem after4_5 (c : Dev nD) (t : Fin cfg4.N) : (dat4 V c).after 5 t = blk4 V c 5 t := by dsimp only [dat4]
theorem after4_6 (c : Dev nD) (t : Fin cfg4.N) : (dat4 V c).after 6 t = blk4 V c 6 t := by dsimp only [dat4]
theorem after4_7 (c : Dev nD) (t : Fin cfg4.N) : (dat4 V c).after 7 t = res4 (blk4 V c 0 t) (blk4 V c 1 t) (blk4 V c 2 t) (blk4 V c 3 t) (blk4 V c 4 t) (blk4 V c 5 t) (blk4 V c 6 t) := by dsimp only [dat4]
theorem before4_0 (c : Dev nD) (t : Fin cfg4.N) (d) : (dat4 V c).before 0 t d = blk4 V c 0 t :=
  held4_0 V (dat4 V c) (A4 V c 0) (after4_0 V c) t d
theorem before4_1 (c : Dev nD) (t : Fin cfg4.N) (d) : (dat4 V c).before 1 t d = blk4 V c 1 t :=
  held4_1 V (dat4 V c) (A4 V c 1) (after4_1 V c) t d
theorem before4_2 (c : Dev nD) (t : Fin cfg4.N) (d) : (dat4 V c).before 2 t d = blk4 V c 2 t :=
  held4_2 V (dat4 V c) (A4 V c 2) (after4_2 V c) t d
theorem before4_3 (c : Dev nD) (t : Fin cfg4.N) (d) : (dat4 V c).before 3 t d = blk4 V c 3 t :=
  held4_3 V (dat4 V c) (A4 V c 3) (after4_3 V c) t d
theorem before4_4 (c : Dev nD) (t : Fin cfg4.N) (d) : (dat4 V c).before 4 t d = blk4 V c 4 t :=
  held4_4 V (dat4 V c) (A4 V c 4) (after4_4 V c) t d
theorem before4_5 (c : Dev nD) (t : Fin cfg4.N) (d) : (dat4 V c).before 5 t d = blk4 V c 5 t :=
  held4_5 V (dat4 V c) (A4 V c 5) (after4_5 V c) t d
theorem before4_6 (c : Dev nD) (t : Fin cfg4.N) (d) : (dat4 V c).before 6 t d = blk4 V c 6 t :=
  held4_6 V (dat4 V c) (A4 V c 6) (after4_6 V c) t d

/-- What the body is called with at row block `t`, window by window, -/
def pre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def post4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

theorem atPoint4 (c : Dev nD) (t : Fin cfg4.N) :
    pre4 V c t ⊢ wp frame (wpE (defs₀ (F := F)) Variants.none c none) Set.univ (bodyAt4 t) (fun _ => post4 V c t) := by
  unfold pre4 post4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body4 c Set.univ _ _ _ _ _ _ _ _ _ _ _ _ _ _ _ _ _ (blk4 V c 0 t) (blk4 V c 1 t) (blk4 V c 2 t) (blk4 V c 3 t) (blk4 V c 4 t) (blk4 V c 5 t) (blk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline library, at every row block. -/
theorem obligation4 (c : Dev nD) : BodyObligation (dat4 (F := F) V c) (defs₀ (F := F)) Variants.none () Set.univ := fun t => by
  rw [bigSep_W4, bigSep_W4]
  exact atPoint4 V c t

end Cert.KernelIdeal.Frm

end
-- ==== Proof.KiVals.lean ====
/-
  The buffers' contents at every boundary of the program: the launch memory, then each stretch of host operations
  folded over it, then each region's arrays at what its write-backs leave (every other buffer as it was). A buffer that is
  not a region's result array crosses the region unchanged.
-/
import proofs.«115534_j8151847928363_1_alg».proof.Proof.KiReg0
import proofs.«115534_j8151847928363_1_alg».proof.Proof.KiReg1
import proofs.«115534_j8151847928363_1_alg».proof.Proof.KiReg2
import proofs.«115534_j8151847928363_1_alg».proof.Proof.KiReg3
import proofs.«115534_j8151847928363_1_alg».proof.Proof.KiReg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- After the host stretch `hostOps0_1`. -/
abbrev W2 : Dev nD → Valuation τ sig (Elt F) := fun c => StableHlo.after hostOps0_1 (W1 m ρ c)
/-- After the host stretch `hostOps0_2`. -/
abbrev W3 : Dev nD → Valuation τ sig (Elt F) := fun c => StableHlo.after hostOps0_2 (W2 m ρ c)
/-- After the host stretch `hostOps0_3`. -/
abbrev W4 : Dev nD → Valuation τ sig (Elt F) := fun c => StableHlo.after hostOps0_3 (W3 m ρ c)
/-- After the host stretch `hostOps0_4`. -/
abbrev W5 : Dev nD → Valuation τ sig (Elt F) := fun c => StableHlo.after hostOps0_4 (W4 m ρ c)
/-- After the host stretch `hostOps0_5`. -/
abbrev W6 : Dev nD → Valuation τ sig (Elt F) := fun c => StableHlo.after hostOps0_5 (W5 m ρ c)
/-- After the host stretch `hostOps0_6`. -/
abbrev W7 : Dev nD → Valuation τ sig (Elt F) := fun c => StableHlo.after hostOps0_6 (W6 m ρ c)
/-- After the host stretch `hostOps0_7`. -/
abbrev W8 : Dev nD → Valuation τ sig (Elt F) := fun c => StableHlo.after hostOps0_7 (W7 m ρ c)
/-- After the host stretch `hostOps0_8`. -/
abbrev W9 : Dev nD → Valuation τ sig (Elt F) := fun c => StableHlo.after hostOps0_8 (W8 m ρ c)
/-- The contents region 0 is entered at, read at the TensorCore's references. -/
abbrev V9 : (c : Dev nD) → (b : Ref sig .tc) → Buf (Elt F) ((c : Thread nD τ).loc b) := fun c b => W9 m ρ c b
/-- At region 0's exit: its arrays at what the pipeline leaves (operands as entered, the result's write-backs folded), every
    other buffer as entered. -/
def W10 (c : Dev nD) : Valuation τ sig (Elt F) :=
  Pipeline.withArrays spec0 c (W9 m ρ c) fun w => (dat0 (V9 m ρ) c).arrAt w cfg0.N
theorem W10_arr (c : Dev nD) (w : Fin cfg0.W) :
    W10 m ρ c (Proc.devRef .tc (Pipeline.arrRef spec0 w)) = (dat0 (V9 m ρ) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m ρ c (Proc.devRef .tc b) = W9 m ρ c (Proc.devRef .tc b) := by
  unfold W10; exact Pipeline.withArrays_of_ne spec0 c _ _ b hb
abbrev V10 : (c : Dev nD) → (b : Ref sig .tc) → Buf (Elt F) ((c : Thread nD τ).loc b) := fun c b => W10 m ρ c b
theorem exitArr0 (c : Dev nD) (w : Fin cfg0.W) : (dat0 (V9 m ρ) c).arrAt w cfg0.N = V10 m ρ c (Pipeline.arrRef spec0 w) :=
  (W10_arr m ρ c w).symm
theorem exitRest0 (c : Dev nD) : ∀ b, b ∉ Finset.univ.image (Pipeline.arrRef spec0) → V10 m ρ c b = V9 m ρ c b :=
  fun b hb => W10_of_ne m ρ c b fun w e => hb (Finset.mem_image.mpr ⟨w, Finset.mem_univ _, e⟩)
/-- A buffer that is not region 0's result array leaves the region as it entered: an operand's array is only read. -/
theorem W10_keep (c : Dev nD) (b : Ref sig .tc) (hb : Pipeline.arrRef spec0 2 ≠ b) :
    W10 m ρ c (Proc.devRef .tc b) = W9 m ρ c (Proc.devRef .tc b) := by
  by_cases h : ∃ w, Pipeline.arrRef spec0 w = b
  · obtain ⟨w, rfl⟩ := h
    have hw : (cfg0.win w).isOut = false := by
      revert hb; revert w; decide
    exact (W10_arr m ρ c w).trans (((dat0 (V9 m ρ) c).arrAt_in w hw _).trans (A0 (V9 m ρ) c w))
  · exact W10_of_ne m ρ c b fun w e => h ⟨w, e⟩
/-- After the host stretch `hostOps1`. -/
abbrev W11 : Dev nD → Valuation τ sig (Elt F) := fun c => StableHlo.after hostOps1 (W10 m ρ c)
/-- The contents region 1 is entered at, read at the TensorCore's references. -/
abbrev V11 : (c : Dev nD) → (b : Ref sig .tc) → Buf (Elt F) ((c : Thread nD τ).loc b) := fun c b => W11 m ρ c b
/-- At region 1's exit: its arrays at what the pipeline leaves (operands as entered, the result's write-backs folded), every
    other buffer as entered. -/
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev V12 : (c : Dev nD) → (b : Ref sig .tc) → Buf (Elt F) ((c : Thread nD τ).loc b) := fun c b => W12 m ρ c b
theorem exitArr1 (c : Dev nD) (w : Fin cfg1.W) : (dat1 (V11 m ρ) c).arrAt w cfg1.N = V12 m ρ c (Pipeline.arrRef spec1 w) :=
  (W12_arr m ρ c w).symm
theorem exitRest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)
/-- A buffer that is not region 1's result array leaves the region as it entered: an operand's array is only read. -/
theorem W12_keep (c : Dev nD) (b : Ref sig .tc) (hb : Pipeline.arrRef spec1 2 ≠ b) :
    W12 m ρ c (Proc.devRef .tc b) = W11 m ρ c (Proc.devRef .tc b) := by
  by_cases h : ∃ w, Pipeline.arrRef spec1 w = b
  · obtain ⟨w, rfl⟩ := h
    have hw : (cfg1.win w).isOut = false := by
      revert hb; revert w; decide
    exact (W12_arr m ρ c w).trans (((dat1 (V11 m ρ) c).arrAt_in w hw _).trans (A1 (V11 m ρ) c w))
  · exact W12_of_ne m ρ c b fun w e => h ⟨w, e⟩
/-- After the host stretch `hostOps2`. -/
abbrev W13 : Dev nD → Valuation τ sig (Elt F) := fun c => StableHlo.after hostOps2 (W12 m ρ c)
/-- The contents region 2 is entered at, read at the TensorCore's references. -/
abbrev V13 : (c : Dev nD) → (b : Ref sig .tc) → Buf (Elt F) ((c : Thread nD τ).loc b) := fun c b => W13 m ρ c b
/-- At region 2's exit: its arrays at what the pipeline leaves (operands as entered, the result's write-backs folded), every
    other buffer as entered. -/
def W14 (c : Dev nD) : Valuation τ sig (Elt F) :=
  Pipeline.withArrays spec2 c (W13 m ρ c) fun w => (dat2 (V13 m ρ) c).arrAt w cfg2.N
theorem W14_arr (c : Dev nD) (w : Fin cfg2.W) :
    W14 m ρ c (Proc.devRef .tc (Pipeline.arrRef spec2 w)) = (dat2 (V13 m ρ) c).arrAt w cfg2.N := by
  unfold W14; exact Pipeline.withArrays_arr spec2 launch2.win.arr_inj c _ _ w
theorem W14_of_ne (c : Dev nD) (b : Ref sig .tc) (hb : ∀ w, Pipeline.arrRef spec2 w ≠ b) :
    W14 m ρ c (Proc.devRef .tc b) = W13 m ρ c (Proc.devRef .tc b) := by
  unfold W14; exact Pipeline.withArrays_of_ne spec2 c _ _ b hb
abbrev V14 : (c : Dev nD) → (b : Ref sig .tc) → Buf (Elt F) ((c : Thread nD τ).loc b) := fun c b => W14 m ρ c b
theorem exitArr2 (c : Dev nD) (w : Fin cfg2.W) : (dat2 (V13 m ρ) c).arrAt w cfg2.N = V14 m ρ c (Pipeline.arrRef spec2 w) :=
  (W14_arr m ρ c w).symm
theorem exitRest2 (c : Dev nD) : ∀ b, b ∉ Finset.univ.image (Pipeline.arrRef spec2) → V14 m ρ c b = V13 m ρ c b :=
  fun b hb => W14_of_ne m ρ c b fun w e => hb (Finset.mem_image.mpr ⟨w, Finset.mem_univ _, e⟩)
/-- A buffer that is not region 2's result array leaves the region as it entered: an operand's array is only read. -/
theorem W14_keep (c : Dev nD) (b : Ref sig .tc) (hb : Pipeline.arrRef spec2 2 ≠ b) :
    W14 m ρ c (Proc.devRef .tc b) = W13 m ρ c (Proc.devRef .tc b) := by
  by_cases h : ∃ w, Pipeline.arrRef spec2 w = b
  · obtain ⟨w, rfl⟩ := h
    have hw : (cfg2.win w).isOut = false := by
      revert hb; revert w; decide
    exact (W14_arr m ρ c w).trans (((dat2 (V13 m ρ) c).arrAt_in w hw _).trans (A2 (V13 m ρ) c w))
  · exact W14_of_ne m ρ c b fun w e => h ⟨w, e⟩
/-- After the host stretch `hostOps3`. -/
abbrev W15 : Dev nD → Valuation τ sig (Elt F) := fun c => StableHlo.after hostOps3 (W14 m ρ c)
/-- The contents region 3 is entered at, read at the TensorCore's references. -/
abbrev V15 : (c : Dev nD) → (b : Ref sig .tc) → Buf (Elt F) ((c : Thread nD τ).loc b) := fun c b => W15 m ρ c b
/-- At region 3's exit: its arrays at what the pipeline leaves (operands as entered, the result's write-backs folded), every
    other buffer as entered. -/
def W16 (c : Dev nD) : Valuation τ sig (Elt F) :=
  Pipeline.withArrays spec3 c (W15 m ρ c) fun w => (dat3 (V15 m ρ) c).arrAt w cfg3.N
theorem W16_arr (c : Dev nD) (w : Fin cfg3.W) :
    W16 m ρ c (Proc.devRef .tc (Pipeline.arrRef spec3 w)) = (dat3 (V15 m ρ) c).arrAt w cfg3.N := by
  unfold W16; exact Pipeline.withArrays_arr spec3 launch3.win.arr_inj c _ _ w
theorem W16_of_ne (c : Dev nD) (b : Ref sig .tc) (hb : ∀ w, Pipeline.arrRef spec3 w ≠ b) :
    W16 m ρ c (Proc.devRef .tc b) = W15 m ρ c (Proc.devRef .tc b) := by
  unfold W16; exact Pipeline.withArrays_of_ne spec3 c _ _ b hb
abbrev V16 : (c : Dev nD) → (b : Ref sig .tc) → Buf (Elt F) ((c : Thread nD τ).loc b) := fun c b => W16 m ρ c b
theorem exitArr3 (c : Dev nD) (w : Fin cfg3.W) : (dat3 (V15 m ρ) c).arrAt w cfg3.N = V16 m ρ c (Pipeline.arrRef spec3 w) :=
  (W16_arr m ρ c w).symm
theorem exitRest3 (c : Dev nD) : ∀ b, b ∉ Finset.univ.image (Pipeline.arrRef spec3) → V16 m ρ c b = V15 m ρ c b :=
  fun b hb => W16_of_ne m ρ c b fun w e => hb (Finset.mem_image.mpr ⟨w, Finset.mem_univ _, e⟩)
/-- A buffer that is not region 3's result array leaves the region as it entered: an operand's array is only read. -/
theorem W16_keep (c : Dev nD) (b : Ref sig .tc) (hb : Pipeline.arrRef spec3 2 ≠ b) :
    W16 m ρ c (Proc.devRef .tc b) = W15 m ρ c (Proc.devRef .tc b) := by
  by_cases h : ∃ w, Pipeline.arrRef spec3 w = b
  · obtain ⟨w, rfl⟩ := h
    have hw : (cfg3.win w).isOut = false := by
      revert hb; revert w; decide
    exact (W16_arr m ρ c w).trans (((dat3 (V15 m ρ) c).arrAt_in w hw _).trans (A3 (V15 m ρ) c w))
  · exact W16_of_ne m ρ c b fun w e => h ⟨w, e⟩
/-- After the host stretch `hostOps4`. -/
abbrev W17 : Dev nD → Valuation τ sig (Elt F) := fun c => StableHlo.after hostOps4 (W16 m ρ c)
/-- After the host stretch `hostOps4_1`. -/
abbrev W18 : Dev nD → Valuation τ sig (Elt F) := fun c => StableHlo.after hostOps4_1 (W17 m ρ c)
/-- After the host stretch `hostOps4_2`. -/
abbrev W19 : Dev nD → Valuation τ sig (Elt F) := fun c => StableHlo.after hostOps4_2 (W18 m ρ c)
/-- The contents region 4 is entered at, read at the TensorCore's references. -/
abbrev V19 : (c : Dev nD) → (b : Ref sig .tc) → Buf (Elt F) ((c : Thread nD τ).loc b) := fun c b => W19 m ρ c b
/-- At region 4's exit: its arrays at what the pipeline leaves (operands as entered, the result's write-backs folded), every
    other buffer as entered. -/
def W20 (c : Dev nD) : Valuation τ sig (Elt F) :=
  Pipeline.withArrays spec4 c (W19 m ρ c) fun w => (dat4 (V19 m ρ) c).arrAt w cfg4.N
theorem W20_arr (c : Dev nD) (w : Fin cfg4.W) :
    W20 m ρ c (Proc.devRef .tc (Pipeline.arrRef spec4 w)) = (dat4 (V19 m ρ) c).arrAt w cfg4.N := by
  unfold W20; exact Pipeline.withArrays_arr spec4 launch4.win.arr_inj c _ _ w
theorem W20_of_ne (c : Dev nD) (b : Ref sig .tc) (hb : ∀ w, Pipeline.arrRef spec4 w ≠ b) :
    W20 m ρ c (Proc.devRef .tc b) = W19 m ρ c (Proc.devRef .tc b) := by
  unfold W20; exact Pipeline.withArrays_of_ne spec4 c _ _ b hb
abbrev V20 : (c : Dev nD) → (b : Ref sig .tc) → Buf (Elt F) ((c : Thread nD τ).loc b) := fun c b => W20 m ρ c b
theorem exitArr4 (c : Dev nD) (w : Fin cfg4.W) : (dat4 (V19 m ρ) c).arrAt w cfg4.N = V20 m ρ c (Pipeline.arrRef spec4 w) :=
  (W20_arr m ρ c w).symm
theorem exitRest4 (c : Dev nD) : ∀ b, b ∉ Finset.univ.image (Pipeline.arrRef spec4) → V20 m ρ c b = V19 m ρ c b :=
  fun b hb => W20_of_ne m ρ c b fun w e => hb (Finset.mem_image.mpr ⟨w, Finset.mem_univ _, e⟩)
/-- A buffer that is not region 4's result array leaves the region as it entered: an operand's array is only read. -/
theorem W20_keep (c : Dev nD) (b : Ref sig .tc) (hb : Pipeline.arrRef spec4 7 ≠ b) :
    W20 m ρ c (Proc.devRef .tc b) = W19 m ρ c (Proc.devRef .tc b) := by
  by_cases h : ∃ w, Pipeline.arrRef spec4 w = b
  · obtain ⟨w, rfl⟩ := h
    have hw : (cfg4.win w).isOut = false := by
      revert hb; revert w; decide
    exact (W20_arr m ρ c w).trans (((dat4 (V19 m ρ) c).arrAt_in w hw _).trans (A4 (V19 m ρ) c w))
  · exact W20_of_ne m ρ c b fun w e => h ⟨w, e⟩
/-- After the host stretch `hostOps5`. -/
abbrev W21 : Dev nD → Valuation τ sig (Elt F) := fun c => StableHlo.after hostOps5 (W20 m ρ c)

end Cert.KernelIdeal.Frm

end
-- ==== Proof.KiSegs.lean ====
/-
  The program as a list of segments: a host segment per stretch of host operations, entered at its boundary's contents, and a
  region per kernel launch carrying the launch layout, the body obligation and the four entailments around the thread state
  "every unscoped buffer at the boundary's contents, the generator register at some state, nothing owed".
-/
import proofs.«115534_j8151847928363_1_alg».proof.Proof.KiVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No launch has a prefetched table. -/
abbrev adm : (p : Fin 5) → (pcfgs (F := F) p).Adm := fun p => (cfgs p).toPCfg_adm
/-- Every launch's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V9 m ρ) c
  | ⟨1, _⟩ => fun c => dat1 (V11 m ρ) c
  | ⟨2, _⟩ => fun c => dat2 (V13 m ρ) c
  | ⟨3, _⟩ => fun c => dat3 (V15 m ρ) c
  | ⟨4, _⟩ => fun c => dat4 (V19 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps4_1_fresh : (hostOps4_1 : List (HloOp τ sig (Elt F))).Forall fun op => op.fresh = ∅ := by
  simp only [List.Forall]; repeat' constructor
theorem hostOps4_2_fresh : (hostOps4_2 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator register at some state. -/
abbrev Tₙ (c : Dev nD) : sProp 𝕄 := iprop(StableHlo.held (c : Thread nD τ) (Pipeline.ucRefs τ sig) (W21 m ρ c) ∗ ∃ r, prngReg c r)

set_option backward.isDefEq.respectTransparency.types false in
/-- Region 0 over the thread state: entered with every unscoped buffer at `W9`, left with them at `W10`. Its arrays are
    split out of the unscoped buffers on entry and put back at the exit contents; the generator register goes into the
    region's invariant and comes back; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V9 m ρ) c).loose
  hwaits := Pipeline.hwaits_of_owed_zero _ _ _ _ L lv 0 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec0 c (V9 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V9 m ρ c) (V10 m ρ c) ((pdats m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W11`, left with them at `W12`. Its arrays are
    split out of the unscoped buffers on entry and put back at the exit contents; the generator register goes into the
    region's invariant and comes back; nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (exitArr1 m ρ c) (exitRest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W13`, left with them at `W14`. Its arrays are
    split out of the unscoped buffers on entry and put back at the exit contents; the generator register goes into the
    region's invariant and comes back; nothing is owed and the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (V13 m ρ) c).loose
  hwaits := Pipeline.hwaits_of_owed_zero _ _ _ _ L lv 2 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec2 c (V13 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V13 m ρ c) (V14 m ρ c) ((pdats m ρ 2 c).arrAt · cfg2.N) (exitArr2 m ρ c) (exitRest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W15`, left with them at `W16`. Its arrays are
    split out of the unscoped buffers on entry and put back at the exit contents; the generator register goes into the
    region's invariant and comes back; nothing is owed and the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (obligation3 (V15 m ρ) c).loose
  hwaits := Pipeline.hwaits_of_owed_zero _ _ _ _ L lv 3 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec3 c (V15 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V15 m ρ c) (V16 m ρ c) ((pdats m ρ 3 c).arrAt · cfg3.N) (exitArr3 m ρ c) (exitRest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W19`, left with them at `W20`. Its arrays are
    split out of the unscoped buffers on entry and put back at the exit contents; the generator register goes into the
    region's invariant and comes back; nothing is owed and the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (obligation4 (V19 m ρ) c).loose
  hwaits := Pipeline.hwaits_of_owed_zero _ _ _ _ L lv 4 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec4 c (V19 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V19 m ρ c) (V20 m ρ c) ((pdats m ρ 4 c).arrAt · cfg4.N) (exitArr4 m ρ c) (exitRest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's 21 segments in order. -/
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .region (reg0 m ρ),
    .host (hseg hostOps1 hostOps1_sub hostOps1_fresh (W10 m ρ)),
    .region (reg1 m ρ),
    .host (hseg hostOps2 hostOps2_sub hostOps2_fresh (W12 m ρ)),
    .region (reg2 m ρ),
    .host (hseg hostOps3 hostOps3_sub hostOps3_fresh (W14 m ρ)),
    .region (reg3 m ρ),
    .host (hseg hostOps4 hostOps4_sub hostOps4_fresh (W16 m ρ)),
    .host (hseg hostOps4_1 hostOps4_1_sub hostOps4_1_fresh (W17 m ρ)),
    .host (hseg hostOps4_2 hostOps4_2_sub hostOps4_2_fresh (W18 m ρ)),
    .region (reg4 m ρ),
    .host (hseg hostOps5 hostOps5_sub hostOps5_fresh (W20 m ρ)) ]
/-- The program is the run of its segments. -/
theorem main_run (c : Dev nD) : main (F := F) c = Pipeline.Seg.run (segs m ρ) := (main_chain c).trans (by chain_rfl)

end Cert.KernelIdeal.Frm

end
-- ==== Proof.KiArgs.lean ====
/-
  No host operation and no region writes an argument buffer, so the last boundary's contents at an argument walk back
  to the launch memory.
-/
import proofs.«115534_j8151847928363_1_alg».proof.Proof.KiVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The twelve argument buffers. -/
abbrev argRefs : List (Ref sig .tc) := [main_arg0, main_arg1, main_arg2, main_arg3, main_arg4, main_arg5, main_arg6, main_arg7, main_arg8, main_arg9, main_arg10, main_arg11]
set_option maxHeartbeats 4000000 in
theorem W1_arg (c : Dev nD) (b : Ref sig .tc) (hb : b ∈ argRefs) : W1 m ρ c (Proc.devRef .tc b) = W0 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W2_arg (c : Dev nD) (b : Ref sig .tc) (hb : b ∈ argRefs) : W2 m ρ c (Proc.devRef .tc b) = W1 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps0_1, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W3_arg (c : Dev nD) (b : Ref sig .tc) (hb : b ∈ argRefs) : W3 m ρ c (Proc.devRef .tc b) = W2 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps0_2, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W4_arg (c : Dev nD) (b : Ref sig .tc) (hb : b ∈ argRefs) : W4 m ρ c (Proc.devRef .tc b) = W3 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps0_3, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W5_arg (c : Dev nD) (b : Ref sig .tc) (hb : b ∈ argRefs) : W5 m ρ c (Proc.devRef .tc b) = W4 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps0_4, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W6_arg (c : Dev nD) (b : Ref sig .tc) (hb : b ∈ argRefs) : W6 m ρ c (Proc.devRef .tc b) = W5 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps0_5, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W7_arg (c : Dev nD) (b : Ref sig .tc) (hb : b ∈ argRefs) : W7 m ρ c (Proc.devRef .tc b) = W6 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps0_6, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W8_arg (c : Dev nD) (b : Ref sig .tc) (hb : b ∈ argRefs) : W8 m ρ c (Proc.devRef .tc b) = W7 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps0_7, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W9_arg (c : Dev nD) (b : Ref sig .tc) (hb : b ∈ argRefs) : W9 m ρ c (Proc.devRef .tc b) = W8 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps0_8, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W11_arg (c : Dev nD) (b : Ref sig .tc) (hb : b ∈ argRefs) : W11 m ρ c (Proc.devRef .tc b) = W10 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps1, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W13_arg (c : Dev nD) (b : Ref sig .tc) (hb : b ∈ argRefs) : W13 m ρ c (Proc.devRef .tc b) = W12 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps2, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W15_arg (c : Dev nD) (b : Ref sig .tc) (hb : b ∈ argRefs) : W15 m ρ c (Proc.devRef .tc b) = W14 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps3, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W17_arg (c : Dev nD) (b : Ref sig .tc) (hb : b ∈ argRefs) : W17 m ρ c (Proc.devRef .tc b) = W16 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps4, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W18_arg (c : Dev nD) (b : Ref sig .tc) (hb : b ∈ argRefs) : W18 m ρ c (Proc.devRef .tc b) = W17 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps4_1, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W19_arg (c : Dev nD) (b : Ref sig .tc) (hb : b ∈ argRefs) : W19 m ρ c (Proc.devRef .tc b) = W18 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps4_2, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W21_arg (c : Dev nD) (b : Ref sig .tc) (hb : b ∈ argRefs) : W21 m ρ c (Proc.devRef .tc b) = W20 m ρ c (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl | rfl <;>
  · simp only [hostOps5, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
set_option maxHeartbeats 4000000 in
theorem W10_arg (c : Dev nD) (b : Ref sig .tc) (hb : b ∈ argRefs) : W10 m ρ c (Proc.devRef .tc b) = W9 m ρ c (Proc.devRef .tc b) := by
  refine W10_keep m ρ c b ?_
  simp only [argRefs, List.mem_cons, List.mem_nil_iff, or_false] at hb
  rcases hb with rfl | rfl | rfl | rfl | rfl | rfl | rfl | rfl | rfl | rfl | rfl | rfl <;> decide
set_option maxHeartbeats 4000000 in
theorem W12_arg (c : Dev nD) (b : Ref sig .tc) (hb : b ∈ argRefs) : W12 m ρ c (Proc.devRef .tc b) = W11 m ρ c (Proc.devRef .tc b) := by
  refine W12_keep m ρ c b ?_
  simp only [argRefs, List.mem_cons, List.mem_nil_iff, or_false] at hb
  rcases hb with rfl | rfl | rfl | rfl | rfl | rfl | rfl | rfl | rfl | rfl | rfl | rfl <;> decide
set_option maxHeartbeats 4000000 in
theorem W14_arg (c : Dev nD) (b : Ref sig .tc) (hb : b ∈ argRefs) : W14 m ρ c (Proc.devRef .tc b) = W13 m ρ c (Proc.devRef .tc b) := by
  refine W14_keep m ρ c b ?_
  simp only [argRefs, List.mem_cons, List.mem_nil_iff, or_false] at hb
  rcases hb with rfl | rfl | rfl | rfl | rfl | rfl | rfl | rfl | rfl | rfl | rfl | rfl <;> decide
set_option maxHeartbeats 4000000 in
theorem W16_arg (c : Dev nD) (b : Ref sig .tc) (hb : b ∈ argRefs) : W16 m ρ c (Proc.devRef .tc b) = W15 m ρ c (Proc.devRef .tc b) := by
  refine W16_keep m ρ c b ?_
  simp only [argRefs, List.mem_cons, List.mem_nil_iff, or_false] at hb
  rcases hb with rfl | rfl | rfl | rfl | rfl | rfl | rfl | rfl | rfl | rfl | rfl | rfl <;> decide
set_option maxHeartbeats 4000000 in
theorem W20_arg (c : Dev nD) (b : Ref sig .tc) (hb : b ∈ argRefs) : W20 m ρ c (Proc.devRef .tc b) = W19 m ρ c (Proc.devRef .tc b) := by
  refine W20_keep m ρ c b ?_
  simp only [argRefs, List.mem_cons, List.mem_nil_iff, or_false] at hb
  rcases hb with rfl | rfl | rfl | rfl | rfl | rfl | rfl | rfl | rfl | rfl | rfl | rfl <;> decide
/-- At the end every argument buffer holds its launch contents. -/
theorem W21_args (c : Dev nD) (b : Ref sig .tc) (hb : b ∈ argRefs) : W21 m ρ c (Proc.devRef .tc b) = m ((c : Thread nD τ).loc b) :=
  ((W21_arg m ρ c b hb).trans <| (W20_arg m ρ c b hb).trans <| (W19_arg m ρ c b hb).trans <| (W18_arg m ρ c b hb).trans <| (W17_arg m ρ c b hb).trans <| (W16_arg m ρ c b hb).trans <| (W15_arg m ρ c b hb).trans <| (W14_arg m ρ c b hb).trans <| (W13_arg m ρ c b hb).trans <| (W12_arg m ρ c b hb).trans <| (W11_arg m ρ c b hb).trans <| (W10_arg m ρ c b hb).trans <| (W9_arg m ρ c b hb).trans <| (W8_arg m ρ c b hb).trans <| (W7_arg m ρ c b hb).trans <| (W6_arg m ρ c b hb).trans <| (W5_arg m ρ c b hb).trans <| (W4_arg m ρ c b hb).trans <| (W3_arg m ρ c b hb).trans <| (W2_arg m ρ c b hb).trans <| (W1_arg m ρ c b hb)).trans rfl

end Cert.KernelIdeal.Frm

end
-- ==== Proof.KiRun.lean ====
/-
  The run: from any memory with zero counters every weakly fair execution of the program on the TensorCores terminates,
  nothing faulting, with the result buffer at the last boundary's contents and every argument buffer as launched.
-/
import proofs.«115534_j8151847928363_1_alg».proof.Proof.KiSegs
import proofs.«115534_j8151847928363_1_alg».proof.Proof.KiArgs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v275) = W21 m ρ c (Proc.devRef .tc main_v275)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W21 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v275 (by decide)),
        (h c _ (mem_uc main_arg0 (by decide))).trans (W21_args m ρ c main_arg0 (by simp [argRefs])),
        (h c _ (mem_uc main_arg1 (by decide))).trans (W21_args m ρ c main_arg1 (by simp [argRefs])),
        (h c _ (mem_uc main_arg2 (by decide))).trans (W21_args m ρ c main_arg2 (by simp [argRefs])),
        (h c _ (mem_uc main_arg3 (by decide))).trans (W21_args m ρ c main_arg3 (by simp [argRefs])),
        (h c _ (mem_uc main_arg4 (by decide))).trans (W21_args m ρ c main_arg4 (by simp [argRefs])),
        (h c _ (mem_uc main_arg5 (by decide))).trans (W21_args m ρ c main_arg5 (by simp [argRefs])),
        (h c _ (mem_uc main_arg6 (by decide))).trans (W21_args m ρ c main_arg6 (by simp [argRefs])),
        (h c _ (mem_uc main_arg7 (by decide))).trans (W21_args m ρ c main_arg7 (by simp [argRefs])),
        (h c _ (mem_uc main_arg8 (by decide))).trans (W21_args m ρ c main_arg8 (by simp [argRefs])),
        (h c _ (mem_uc main_arg9 (by decide))).trans (W21_args m ρ c main_arg9 (by simp [argRefs])),
        (h c _ (mem_uc main_arg10 (by decide))).trans (W21_args m ρ c main_arg10 (by simp [argRefs])),
        (h c _ (mem_uc main_arg11 (by decide))).trans (W21_args m ρ c main_arg11 (by simp [argRefs]))⟩)

end Cert.KernelIdeal.Frm

end
-- ==== Proof.RefOps0.lean ====
import proofs.«115534_j8151847928363_1_alg».proof.Proof.Gen.ReferenceIdeal
import Idealize.ShloMosaic.Lib.StableHlo.Run
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 0 of the program as a list: its 62 operations in execution order, a call's operations inline
    at the call over the call's own buffers. -/
abbrev ops0 : List (HloOp τ sig (Elt F)) :=
  [ StableHlo.unary main_arg1 main_v0 ((extractStridedSlice S1x2x500000 ![0, 0, 0] · slices_S4x2x500000_S1x2x500000_0_0_0) : (⟨S4x2x500000, .i32⟩ : BufTy).Contents (Elt F) → (⟨S1x2x500000, .i32⟩ : BufTy).Contents (Elt F)),
    StableHlo.reshape main_v0 main_v1 rfl shapeCasts_S1x2x500000_S2x500000,
    StableHlo.unary main_arg2 main_v2 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v2 main_v3 rfl shapeCasts_S1x128x128_S128x128,
    StableHlo.unary main_arg3 main_v4 ((extractStridedSlice S1x128 ![0, 0] · slices_S4x128_S1x128_0_0) : (⟨S4x128, .f32⟩ : BufTy).Contents (Elt F) → (⟨S1x128, .f32⟩ : BufTy).Contents (Elt F)),
    StableHlo.reshape main_v4 main_v5 rfl shapeCasts_S1x128_S128,
    StableHlo.binary main_arg0 main_v3 main_v6 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_v7 (iotaInDim S50000 32 0),
    StableHlo.unary main_v1 main_v8 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v8 main_v9 rfl shapeCasts_S1x500000_S500000,
    StableHlo.binary main_v9 main_v7 main_v10 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.unary main_v1 main_v11 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v11 main_v12 rfl shapeCasts_S1x500000_S500000,
    StableHlo.binary main_v12 main_v7 main_v13 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.nullary main_cst (constant S_ .f32 0x3F800000#32),
    StableHlo.unary main_cst main_v14 (broadcastInDim S550000 ![] bcast_S_S550000 : (⟨S_, .f32⟩ : BufTy).Contents (Elt F) → (⟨S550000, .f32⟩ : BufTy).Contents (Elt F)),
    StableHlo.nullary main_cst_0 (constant S_ .f32 0x00000000#32),
    StableHlo.unary main_cst_0 main_v15 (broadcastInDim S50000 ![] bcast_S_S50000 : (⟨S_, .f32⟩ : BufTy).Contents (Elt F) → (⟨S50000, .f32⟩ : BufTy).Contents (Elt F)),
    StableHlo.unary main_v13 main_v16 (broadcastInDim S550000x1 ![0] bcast_S550000_S550000x1_0 : (⟨S550000, .i32⟩ : BufTy).Contents (Elt F) → (⟨S550000x1, .i32⟩ : BufTy).Contents (Elt F)),
    StableHlo.ternary main_v15 main_v16 main_v14 main_v17 ((fun x i u => Host.scatterAdd scatter_S50000_S550000x1_S550000_n_0_0_1 x i u) : (⟨S50000, .f32⟩ : BufTy).Contents (Elt F) → (⟨S550000x1, .i32⟩ : BufTy).Contents (Elt F) → (⟨S550000, .f32⟩ : BufTy).Contents (Elt F) → (⟨S50000, .f32⟩ : BufTy).Contents (Elt F)),
    StableHlo.nullary main_cst_1 (constant S_ .f32 0x00000000#32),
    StableHlo.unary main_cst_1 main_v18 (broadcastInDim S50000 ![] bcast_S_S50000 : (⟨S_, .f32⟩ : BufTy).Contents (Elt F) → (⟨S50000, .f32⟩ : BufTy).Contents (Elt F)),
    StableHlo.binary main_v17 main_v18 main_v19 (cmpf .ogt : (⟨S50000, .f32⟩ : BufTy).Contents (Elt F) → (⟨S50000, .f32⟩ : BufTy).Contents (Elt F) → (⟨S50000, .i1⟩ : BufTy).Contents (Elt F)),
    StableHlo.unary main_v17 main_v20 (Host.rsqrt : (⟨S50000, .f32⟩ : BufTy).Contents (Elt F) → (⟨S50000, .f32⟩ : BufTy).Contents (Elt F)),
    StableHlo.nullary main_cst_2 (constant S_ .f32 0x00000000#32),
    StableHlo.TRef.unary (TRef.of main_cst_2 : TRef sig ⟨S_, .f32⟩) main_call0.v0 id,
    StableHlo.TRef.unary main_call0.v0 main_call0.v1 (broadcastInDim S50000 ![] bcast_S_S50000),
    StableHlo.TRef.ternary (TRef.of main_v19 : TRef sig ⟨S50000, .i1⟩) (TRef.of main_v20 : TRef sig ⟨S50000, .f32⟩) main_call0.v1 main_call0.v2 select,
    StableHlo.nullary main_c (constantI S_ 32 0#32),
    StableHlo.unary main_c main_v22 (broadcastInDim S550000 ![] bcast_S_S550000 : (⟨S_, .i32⟩ : BufTy).Contents (Elt F) → (⟨S550000, .i32⟩ : BufTy).Contents (Elt F)),
    StableHlo.binary main_v10 main_v22 main_v23 (cmpi .slt : (⟨S550000, .i32⟩ : BufTy).Contents (Elt F) → (⟨S550000, .i32⟩ : BufTy).Contents (Elt F) → (⟨S550000, .i1⟩ : BufTy).Contents (Elt F)),
    StableHlo.nullary main_c_3 (constantI S_ 32 50000#32),
    StableHlo.unary main_c_3 main_v24 (broadcastInDim S550000 ![] bcast_S_S550000 : (⟨S_, .i32⟩ : BufTy).Contents (Elt F) → (⟨S550000, .i32⟩ : BufTy).Contents (Elt F)),
    StableHlo.binary main_v10 main_v24 main_v25 (addi : (⟨S550000, .i32⟩ : BufTy).Contents (Elt F) → (⟨S550000, .i32⟩ : BufTy).Contents (Elt F) → (⟨S550000, .i32⟩ : BufTy).Contents (Elt F)),
    StableHlo.ternary main_v23 main_v25 main_v10 main_v26 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v26 main_v27 (broadcastInDim S550000x1 ![0] bcast_S550000_S550000x1_0 : (⟨S550000, .i32⟩ : BufTy).Contents (Elt F) → (⟨S550000x1, .i32⟩ : BufTy).Contents (Elt F)),
    StableHlo.binary main_v21 main_v27 main_v28 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.nullary main_c_4 (constantI S_ 32 0#32),
    StableHlo.unary main_c_4 main_v29 (broadcastInDim S550000 ![] bcast_S_S550000 : (⟨S_, .i32⟩ : BufTy).Contents (Elt F) → (⟨S550000, .i32⟩ : BufTy).Contents (Elt F)),
    StableHlo.binary main_v13 main_v29 main_v30 (cmpi .slt : (⟨S550000, .i32⟩ : BufTy).Contents (Elt F) → (⟨S550000, .i32⟩ : BufTy).Contents (Elt F) → (⟨S550000, .i1⟩ : BufTy).Contents (Elt F)),
    StableHlo.nullary main_c_5 (constantI S_ 32 50000#32),
    StableHlo.unary main_c_5 main_v31 (broadcastInDim S550000 ![] bcast_S_S550000 : (⟨S_, .i32⟩ : BufTy).Contents (Elt F) → (⟨S550000, .i32⟩ : BufTy).Contents (Elt F)),
    StableHlo.binary main_v13 main_v31 main_v32 (addi : (⟨S550000, .i32⟩ : BufTy).Contents (Elt F) → (⟨S550000, .i32⟩ : BufTy).Contents (Elt F) → (⟨S550000, .i32⟩ : BufTy).Contents (Elt F)),
    StableHlo.ternary main_v30 main_v32 main_v13 main_v33 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v33 main_v34 (broadcastInDim S550000x1 ![0] bcast_S550000_S550000x1_0 : (⟨S550000, .i32⟩ : BufTy).Contents (Elt F) → (⟨S550000x1, .i32⟩ : BufTy).Contents (Elt F)),
    StableHlo.binary main_v21 main_v34 main_v35 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.binary main_v28 main_v35 main_v36 (mulf : (⟨S550000, .f32⟩ : BufTy).Contents (Elt F) → (⟨S550000, .f32⟩ : BufTy).Contents (Elt F) → (⟨S550000, .f32⟩ : BufTy).Contents (Elt F)),
    StableHlo.nullary main_c_6 (constantI S_ 32 0#32),
    StableHlo.unary main_c_6 main_v37 (broadcastInDim S550000 ![] bcast_S_S550000 : (⟨S_, .i32⟩ : BufTy).Contents (Elt F) → (⟨S550000, .i32⟩ : BufTy).Contents (Elt F)),
    StableHlo.binary main_v10 main_v37 main_v38 (cmpi .slt : (⟨S550000, .i32⟩ : BufTy).Contents (Elt F) → (⟨S550000, .i32⟩ : BufTy).Contents (Elt F) → (⟨S550000, .i1⟩ : BufTy).Contents (Elt F)),
    StableHlo.nullary main_c_7 (constantI S_ 32 50000#32),
    StableHlo.unary main_c_7 main_v39 (broadcastInDim S550000 ![] bcast_S_S550000 : (⟨S_, .i32⟩ : BufTy).Contents (Elt F) → (⟨S550000, .i32⟩ : BufTy).Contents (Elt F)),
    StableHlo.binary main_v10 main_v39 main_v40 (addi : (⟨S550000, .i32⟩ : BufTy).Contents (Elt F) → (⟨S550000, .i32⟩ : BufTy).Contents (Elt F) → (⟨S550000, .i32⟩ : BufTy).Contents (Elt F)),
    StableHlo.ternary main_v38 main_v40 main_v10 main_v41 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v41 main_v42 (broadcastInDim S550000x1 ![0] bcast_S550000_S550000x1_0 : (⟨S550000, .i32⟩ : BufTy).Contents (Elt F) → (⟨S550000x1, .i32⟩ : BufTy).Contents (Elt F)),
    StableHlo.binary main_v6 main_v42 main_v43 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    StableHlo.unary main_v36 main_v44 (broadcastInDim S550000x1 ![0] bcast_S550000_S550000x1_0 : (⟨S550000, .f32⟩ : BufTy).Contents (Elt F) → (⟨S550000x1, .f32⟩ : BufTy).Contents (Elt F)),
    StableHlo.unary main_v44 main_v45 (broadcastInDim S550000x128 ![0, 1] bcast_S550000x1_S550000x128_0_1 : (⟨S550000x1, .f32⟩ : BufTy).Contents (Elt F) → (⟨S550000x128, .f32⟩ : BufTy).Contents (Elt F)),
    StableHlo.binary main_v43 main_v45 main_v46 (mulf : (⟨S550000x128, .f32⟩ : BufTy).Contents (Elt F) → (⟨S550000x128, .f32⟩ : BufTy).Contents (Elt F) → (⟨S550000x128, .f32⟩ : BufTy).Contents (Elt F)),
    StableHlo.nullary main_cst_8 (constant S_ .f32 0x00000000#32),
    StableHlo.unary main_cst_8 main_v47 (broadcastInDim S50000x128 ![] bcast_S_S50000x128 : (⟨S_, .f32⟩ : BufTy).Contents (Elt F) → (⟨S50000x128, .f32⟩ : BufTy).Contents (Elt F)),
    StableHlo.unary main_v13 main_v48 (broadcastInDim S550000x1 ![0] bcast_S550000_S550000x1_0 : (⟨S550000, .i32⟩ : BufTy).Contents (Elt F) → (⟨S550000x1, .i32⟩ : BufTy).Contents (Elt F)) ]

set_option maxHeartbeats 4000000 in
/-- The window is the straight line over its list: both sides unfold to the same chain of steps. -/
theorem main_part0_eq (c : Dev nD) : main_part0 (F := F) c = seq ops0 := by
  chain_rfl

/-- Every operation of the window touches TensorCore references only. -/
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    binary_bufs_sub .., nullary_bufs_sub .., unary_bufs_sub .., reshape_bufs_sub .., binary_bufs_sub .., unary_bufs_sub ..,
    reshape_bufs_sub .., binary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub ..⟩

/-- Every operation of the window determines its results. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

/-! No operation of the window writes an argument of the program: after the window each argument holds what it held. -/

theorem ops0_arg0 (V : Valuation τ sig (Elt F)) : after ops0 V (main_arg0 : DevRef τ sig) = V (main_arg0 : DevRef τ sig) := by
  after_results_simp

theorem ops0_arg1 (V : Valuation τ sig (Elt F)) : after ops0 V (main_arg1 : DevRef τ sig) = V (main_arg1 : DevRef τ sig) := by
  after_results_simp

theorem ops0_arg2 (V : Valuation τ sig (Elt F)) : after ops0 V (main_arg2 : DevRef τ sig) = V (main_arg2 : DevRef τ sig) := by
  after_results_simp

theorem ops0_arg3 (V : Valuation τ sig (Elt F)) : after ops0 V (main_arg3 : DevRef τ sig) = V (main_arg3 : DevRef τ sig) := by
  after_results_simp

theorem ops0_arg4 (V : Valuation τ sig (Elt F)) : after ops0 V (main_arg4 : DevRef τ sig) = V (main_arg4 : DevRef τ sig) := by
  after_results_simp

theorem ops0_arg5 (V : Valuation τ sig (Elt F)) : after ops0 V (main_arg5 : DevRef τ sig) = V (main_arg5 : DevRef τ sig) := by
  after_results_simp

theorem ops0_arg6 (V : Valuation τ sig (Elt F)) : after ops0 V (main_arg6 : DevRef τ sig) = V (main_arg6 : DevRef τ sig) := by
  after_results_simp

theorem ops0_arg7 (V : Valuation τ sig (Elt F)) : after ops0 V (main_arg7 : DevRef τ sig) = V (main_arg7 : DevRef τ sig) := by
  after_results_simp

theorem ops0_arg8 (V : Valuation τ sig (Elt F)) : after ops0 V (main_arg8 : DevRef τ sig) = V (main_arg8 : DevRef τ sig) := by
  after_results_simp

theorem ops0_arg9 (V : Valuation τ sig (Elt F)) : after ops0 V (main_arg9 : DevRef τ sig) = V (main_arg9 : DevRef τ sig) := by
  after_results_simp

theorem ops0_arg10 (V : Valuation τ sig (Elt F)) : after ops0 V (main_arg10 : DevRef τ sig) = V (main_arg10 : DevRef τ sig) := by
  after_results_simp

theorem ops0_arg11 (V : Valuation τ sig (Elt F)) : after ops0 V (main_arg11 : DevRef τ sig) = V (main_arg11 : DevRef τ sig) := by
  after_results_simp

end Cert.ReferenceIdeal.RefRun

end
-- ==== Proof.RefOps1.lean ====
import proofs.«115534_j8151847928363_1_alg».proof.Proof.Gen.ReferenceIdeal
import Idealize.ShloMosaic.Lib.StableHlo.Run
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 1 of the program as a list: its 62 operations in execution order, a call's operations inline
    at the call over the call's own buffers. -/
abbrev ops1 : List (HloOp τ sig (Elt F)) :=
  [ StableHlo.ternary main_v47 main_v48 main_v46 main_v49 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)),
    StableHlo.unary main_v5 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S50000x128 ![0, 1] bcast_S1x128_S50000x128_0_1 : (⟨S1x128, .f32⟩ : BufTy).Contents (Elt F) → (⟨S50000x128, .f32⟩ : BufTy).Contents (Elt F)),
    StableHlo.binary main_v49 main_v51 main_v52 (addf : (⟨S50000x128, .f32⟩ : BufTy).Contents (Elt F) → (⟨S50000x128, .f32⟩ : BufTy).Contents (Elt F) → (⟨S50000x128, .f32⟩ : BufTy).Contents (Elt F)),
    StableHlo.unary main_arg1 main_v53 ((extractStridedSlice S1x2x500000 ![1, 0, 0] · slices_S4x2x500000_S1x2x500000_1_0_0) : (⟨S4x2x500000, .i32⟩ : BufTy).Contents (Elt F) → (⟨S1x2x500000, .i32⟩ : BufTy).Contents (Elt F)),
    StableHlo.reshape main_v53 main_v54 rfl shapeCasts_S1x2x500000_S2x500000,
    StableHlo.unary main_arg2 main_v55 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v55 main_v56 rfl shapeCasts_S1x128x128_S128x128,
    StableHlo.unary main_arg3 main_v57 ((extractStridedSlice S1x128 ![1, 0] · slices_S4x128_S1x128_1_0) : (⟨S4x128, .f32⟩ : BufTy).Contents (Elt F) → (⟨S1x128, .f32⟩ : BufTy).Contents (Elt F)),
    StableHlo.reshape main_v57 main_v58 rfl shapeCasts_S1x128_S128,
    StableHlo.binary main_arg0 main_v56 main_v59 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_v60 (iotaInDim S50000 32 0),
    StableHlo.unary main_v54 main_v61 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v61 main_v62 rfl shapeCasts_S1x500000_S500000,
    StableHlo.binary main_v62 main_v60 main_v63 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.unary main_v54 main_v64 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v64 main_v65 rfl shapeCasts_S1x500000_S500000,
    StableHlo.binary main_v65 main_v60 main_v66 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.nullary main_cst_9 (constant S_ .f32 0x3F800000#32),
    StableHlo.unary main_cst_9 main_v67 (broadcastInDim S550000 ![] bcast_S_S550000 : (⟨S_, .f32⟩ : BufTy).Contents (Elt F) → (⟨S550000, .f32⟩ : BufTy).Contents (Elt F)),
    StableHlo.nullary main_cst_10 (constant S_ .f32 0x00000000#32),
    StableHlo.unary main_cst_10 main_v68 (broadcastInDim S50000 ![] bcast_S_S50000 : (⟨S_, .f32⟩ : BufTy).Contents (Elt F) → (⟨S50000, .f32⟩ : BufTy).Contents (Elt F)),
    StableHlo.unary main_v66 main_v69 (broadcastInDim S550000x1 ![0] bcast_S550000_S550000x1_0 : (⟨S550000, .i32⟩ : BufTy).Contents (Elt F) → (⟨S550000x1, .i32⟩ : BufTy).Contents (Elt F)),
    StableHlo.ternary main_v68 main_v69 main_v67 main_v70 ((fun x i u => Host.scatterAdd scatter_S50000_S550000x1_S550000_n_0_0_1 x i u) : (⟨S50000, .f32⟩ : BufTy).Contents (Elt F) → (⟨S550000x1, .i32⟩ : BufTy).Contents (Elt F) → (⟨S550000, .f32⟩ : BufTy).Contents (Elt F) → (⟨S50000, .f32⟩ : BufTy).Contents (Elt F)),
    StableHlo.nullary main_cst_11 (constant S_ .f32 0x00000000#32),
    StableHlo.unary main_cst_11 main_v71 (broadcastInDim S50000 ![] bcast_S_S50000 : (⟨S_, .f32⟩ : BufTy).Contents (Elt F) → (⟨S50000, .f32⟩ : BufTy).Contents (Elt F)),
    StableHlo.binary main_v70 main_v71 main_v72 (cmpf .ogt : (⟨S50000, .f32⟩ : BufTy).Contents (Elt F) → (⟨S50000, .f32⟩ : BufTy).Contents (Elt F) → (⟨S50000, .i1⟩ : BufTy).Contents (Elt F)),
    StableHlo.unary main_v70 main_v73 (Host.rsqrt : (⟨S50000, .f32⟩ : BufTy).Contents (Elt F) → (⟨S50000, .f32⟩ : BufTy).Contents (Elt F)),
    StableHlo.nullary main_cst_12 (constant S_ .f32 0x00000000#32),
    StableHlo.TRef.unary (TRef.of main_cst_12 : TRef sig ⟨S_, .f32⟩) main_call1.v0 id,
    StableHlo.TRef.unary main_call1.v0 main_call1.v1 (broadcastInDim S50000 ![] bcast_S_S50000),
    StableHlo.TRef.ternary (TRef.of main_v72 : TRef sig ⟨S50000, .i1⟩) (TRef.of main_v73 : TRef sig ⟨S50000, .f32⟩) main_call1.v1 main_call1.v2 select,
    StableHlo.nullary main_c_13 (constantI S_ 32 0#32),
    StableHlo.unary main_c_13 main_v75 (broadcastInDim S550000 ![] bcast_S_S550000 : (⟨S_, .i32⟩ : BufTy).Contents (Elt F) → (⟨S550000, .i32⟩ : BufTy).Contents (Elt F)),
    StableHlo.binary main_v63 main_v75 main_v76 (cmpi .slt : (⟨S550000, .i32⟩ : BufTy).Contents (Elt F) → (⟨S550000, .i32⟩ : BufTy).Contents (Elt F) → (⟨S550000, .i1⟩ : BufTy).Contents (Elt F)),
    StableHlo.nullary main_c_14 (constantI S_ 32 50000#32),
    StableHlo.unary main_c_14 main_v77 (broadcastInDim S550000 ![] bcast_S_S550000 : (⟨S_, .i32⟩ : BufTy).Contents (Elt F) → (⟨S550000, .i32⟩ : BufTy).Contents (Elt F)),
    StableHlo.binary main_v63 main_v77 main_v78 (addi : (⟨S550000, .i32⟩ : BufTy).Contents (Elt F) → (⟨S550000, .i32⟩ : BufTy).Contents (Elt F) → (⟨S550000, .i32⟩ : BufTy).Contents (Elt F)),
    StableHlo.ternary main_v76 main_v78 main_v63 main_v79 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v79 main_v80 (broadcastInDim S550000x1 ![0] bcast_S550000_S550000x1_0 : (⟨S550000, .i32⟩ : BufTy).Contents (Elt F) → (⟨S550000x1, .i32⟩ : BufTy).Contents (Elt F)),
    StableHlo.binary main_v74 main_v80 main_v81 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.nullary main_c_15 (constantI S_ 32 0#32),
    StableHlo.unary main_c_15 main_v82 (broadcastInDim S550000 ![] bcast_S_S550000 : (⟨S_, .i32⟩ : BufTy).Contents (Elt F) → (⟨S550000, .i32⟩ : BufTy).Contents (Elt F)),
    StableHlo.binary main_v66 main_v82 main_v83 (cmpi .slt : (⟨S550000, .i32⟩ : BufTy).Contents (Elt F) → (⟨S550000, .i32⟩ : BufTy).Contents (Elt F) → (⟨S550000, .i1⟩ : BufTy).Contents (Elt F)),
    StableHlo.nullary main_c_16 (constantI S_ 32 50000#32),
    StableHlo.unary main_c_16 main_v84 (broadcastInDim S550000 ![] bcast_S_S550000 : (⟨S_, .i32⟩ : BufTy).Contents (Elt F) → (⟨S550000, .i32⟩ : BufTy).Contents (Elt F)),
    StableHlo.binary main_v66 main_v84 main_v85 (addi : (⟨S550000, .i32⟩ : BufTy).Contents (Elt F) → (⟨S550000, .i32⟩ : BufTy).Contents (Elt F) → (⟨S550000, .i32⟩ : BufTy).Contents (Elt F)),
    StableHlo.ternary main_v83 main_v85 main_v66 main_v86 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v86 main_v87 (broadcastInDim S550000x1 ![0] bcast_S550000_S550000x1_0 : (⟨S550000, .i32⟩ : BufTy).Contents (Elt F) → (⟨S550000x1, .i32⟩ : BufTy).Contents (Elt F)),
    StableHlo.binary main_v74 main_v87 main_v88 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.binary main_v81 main_v88 main_v89 (mulf : (⟨S550000, .f32⟩ : BufTy).Contents (Elt F) → (⟨S550000, .f32⟩ : BufTy).Contents (Elt F) → (⟨S550000, .f32⟩ : BufTy).Contents (Elt F)),
    StableHlo.nullary main_c_17 (constantI S_ 32 0#32),
    StableHlo.unary main_c_17 main_v90 (broadcastInDim S550000 ![] bcast_S_S550000 : (⟨S_, .i32⟩ : BufTy).Contents (Elt F) → (⟨S550000, .i32⟩ : BufTy).Contents (Elt F)),
    StableHlo.binary main_v63 main_v90 main_v91 (cmpi .slt : (⟨S550000, .i32⟩ : BufTy).Contents (Elt F) → (⟨S550000, .i32⟩ : BufTy).Contents (Elt F) → (⟨S550000, .i1⟩ : BufTy).Contents (Elt F)),
    StableHlo.nullary main_c_18 (constantI S_ 32 50000#32),
    StableHlo.unary main_c_18 main_v92 (broadcastInDim S550000 ![] bcast_S_S550000 : (⟨S_, .i32⟩ : BufTy).Contents (Elt F) → (⟨S550000, .i32⟩ : BufTy).Contents (Elt F)),
    StableHlo.binary main_v63 main_v92 main_v93 (addi : (⟨S550000, .i32⟩ : BufTy).Contents (Elt F) → (⟨S550000, .i32⟩ : BufTy).Contents (Elt F) → (⟨S550000, .i32⟩ : BufTy).Contents (Elt F)),
    StableHlo.ternary main_v91 main_v93 main_v63 main_v94 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v94 main_v95 (broadcastInDim S550000x1 ![0] bcast_S550000_S550000x1_0 : (⟨S550000, .i32⟩ : BufTy).Contents (Elt F) → (⟨S550000x1, .i32⟩ : BufTy).Contents (Elt F)),
    StableHlo.binary main_v59 main_v95 main_v96 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    StableHlo.unary main_v89 main_v97 (broadcastInDim S550000x1 ![0] bcast_S550000_S550000x1_0 : (⟨S550000, .f32⟩ : BufTy).Contents (Elt F) → (⟨S550000x1, .f32⟩ : BufTy).Contents (Elt F)),
    StableHlo.unary main_v97 main_v98 (broadcastInDim S550000x128 ![0, 1] bcast_S550000x1_S550000x128_0_1 : (⟨S550000x1, .f32⟩ : BufTy).Contents (Elt F) → (⟨S550000x128, .f32⟩ : BufTy).Contents (Elt F)) ]

set_option maxHeartbeats 4000000 in
/-- The window is the straight line over its list: both sides unfold to the same chain of steps. -/
theorem main_part1_eq (c : Dev nD) : main_part1 (F := F) c = seq ops1 := by
  chain_rfl

/-- Every operation of the window touches TensorCore references only. -/
theorem ops1_sub : (ops1 : List (HloOp τ sig (Elt F))).Forall fun op => op.bufs ⊆ tcRefs τ sig :=
  ⟨ternary_bufs_sub .., unary_bufs_sub .., unary_bufs_sub .., binary_bufs_sub .., unary_bufs_sub .., reshape_bufs_sub ..,
    unary_bufs_sub .., reshape_bufs_sub .., unary_bufs_sub .., reshape_bufs_sub .., binary_bufs_sub .., nullary_bufs_sub ..,
    unary_bufs_sub .., reshape_bufs_sub .., binary_bufs_sub .., unary_bufs_sub .., reshape_bufs_sub .., binary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub ..⟩

/-- Every operation of the window determines its results. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

/-! No operation of the window writes an argument of the program: after the window each argument holds what it held. -/

theorem ops1_arg0 (V : Valuation τ sig (Elt F)) : after ops1 V (main_arg0 : DevRef τ sig) = V (main_arg0 : DevRef τ sig) := by
  after_results_simp

theorem ops1_arg1 (V : Valuation τ sig (Elt F)) : after ops1 V (main_arg1 : DevRef τ sig) = V (main_arg1 : DevRef τ sig) := by
  after_results_simp

theorem ops1_arg2 (V : Valuation τ sig (Elt F)) : after ops1 V (main_arg2 : DevRef τ sig) = V (main_arg2 : DevRef τ sig) := by
  after_results_simp

theorem ops1_arg3 (V : Valuation τ sig (Elt F)) : after ops1 V (main_arg3 : DevRef τ sig) = V (main_arg3 : DevRef τ sig) := by
  after_results_simp

theorem ops1_arg4 (V : Valuation τ sig (Elt F)) : after ops1 V (main_arg4 : DevRef τ sig) = V (main_arg4 : DevRef τ sig) := by
  after_results_simp

theorem ops1_arg5 (V : Valuation τ sig (Elt F)) : after ops1 V (main_arg5 : DevRef τ sig) = V (main_arg5 : DevRef τ sig) := by
  after_results_simp

theorem ops1_arg6 (V : Valuation τ sig (Elt F)) : after ops1 V (main_arg6 : DevRef τ sig) = V (main_arg6 : DevRef τ sig) := by
  after_results_simp

theorem ops1_arg7 (V : Valuation τ sig (Elt F)) : after ops1 V (main_arg7 : DevRef τ sig) = V (main_arg7 : DevRef τ sig) := by
  after_results_simp

theorem ops1_arg8 (V : Valuation τ sig (Elt F)) : after ops1 V (main_arg8 : DevRef τ sig) = V (main_arg8 : DevRef τ sig) := by
  after_results_simp

theorem ops1_arg9 (V : Valuation τ sig (Elt F)) : after ops1 V (main_arg9 : DevRef τ sig) = V (main_arg9 : DevRef τ sig) := by
  after_results_simp

theorem ops1_arg10 (V : Valuation τ sig (Elt F)) : after ops1 V (main_arg10 : DevRef τ sig) = V (main_arg10 : DevRef τ sig) := by
  after_results_simp

theorem ops1_arg11 (V : Valuation τ sig (Elt F)) : after ops1 V (main_arg11 : DevRef τ sig) = V (main_arg11 : DevRef τ sig) := by
  after_results_simp

end Cert.ReferenceIdeal.RefRun

end
-- ==== Proof.RefOps2.lean ====
import proofs.«115534_j8151847928363_1_alg».proof.Proof.Gen.ReferenceIdeal
import Idealize.ShloMosaic.Lib.StableHlo.Run
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 2 of the program as a list: its 62 operations in execution order, a call's operations inline
    at the call over the call's own buffers. -/
abbrev ops2 : List (HloOp τ sig (Elt F)) :=
  [ StableHlo.binary main_v96 main_v98 main_v99 (mulf : (⟨S550000x128, .f32⟩ : BufTy).Contents (Elt F) → (⟨S550000x128, .f32⟩ : BufTy).Contents (Elt F) → (⟨S550000x128, .f32⟩ : BufTy).Contents (Elt F)),
    StableHlo.nullary main_cst_19 (constant S_ .f32 0x00000000#32),
    StableHlo.unary main_cst_19 main_v100 (broadcastInDim S50000x128 ![] bcast_S_S50000x128 : (⟨S_, .f32⟩ : BufTy).Contents (Elt F) → (⟨S50000x128, .f32⟩ : BufTy).Contents (Elt F)),
    StableHlo.unary main_v66 main_v101 (broadcastInDim S550000x1 ![0] bcast_S550000_S550000x1_0 : (⟨S550000, .i32⟩ : BufTy).Contents (Elt F) → (⟨S550000x1, .i32⟩ : BufTy).Contents (Elt F)),
    StableHlo.ternary main_v100 main_v101 main_v99 main_v102 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)),
    StableHlo.unary main_v58 main_v103 (broadcastInDim S1x128 ![1] bcast_S128_S1x128_1 : (⟨S128, .f32⟩ : BufTy).Contents (Elt F) → (⟨S1x128, .f32⟩ : BufTy).Contents (Elt F)),
    StableHlo.unary main_v103 main_v104 (broadcastInDim S50000x128 ![0, 1] bcast_S1x128_S50000x128_0_1 : (⟨S1x128, .f32⟩ : BufTy).Contents (Elt F) → (⟨S50000x128, .f32⟩ : BufTy).Contents (Elt F)),
    StableHlo.binary main_v102 main_v104 main_v105 (addf : (⟨S50000x128, .f32⟩ : BufTy).Contents (Elt F) → (⟨S50000x128, .f32⟩ : BufTy).Contents (Elt F) → (⟨S50000x128, .f32⟩ : BufTy).Contents (Elt F)),
    StableHlo.binary main_v52 main_v105 main_v106 (addf : (⟨S50000x128, .f32⟩ : BufTy).Contents (Elt F) → (⟨S50000x128, .f32⟩ : BufTy).Contents (Elt F) → (⟨S50000x128, .f32⟩ : BufTy).Contents (Elt F)),
    StableHlo.unary main_arg1 main_v107 ((extractStridedSlice S1x2x500000 ![2, 0, 0] · slices_S4x2x500000_S1x2x500000_2_0_0) : (⟨S4x2x500000, .i32⟩ : BufTy).Contents (Elt F) → (⟨S1x2x500000, .i32⟩ : BufTy).Contents (Elt F)),
    StableHlo.reshape main_v107 main_v108 rfl shapeCasts_S1x2x500000_S2x500000,
    StableHlo.unary main_arg2 main_v109 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v109 main_v110 rfl shapeCasts_S1x128x128_S128x128,
    StableHlo.unary main_arg3 main_v111 ((extractStridedSlice S1x128 ![2, 0] · slices_S4x128_S1x128_2_0) : (⟨S4x128, .f32⟩ : BufTy).Contents (Elt F) → (⟨S1x128, .f32⟩ : BufTy).Contents (Elt F)),
    StableHlo.reshape main_v111 main_v112 rfl shapeCasts_S1x128_S128,
    StableHlo.binary main_arg0 main_v110 main_v113 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_v114 (iotaInDim S50000 32 0),
    StableHlo.unary main_v108 main_v115 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v115 main_v116 rfl shapeCasts_S1x500000_S500000,
    StableHlo.binary main_v116 main_v114 main_v117 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.unary main_v108 main_v118 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v118 main_v119 rfl shapeCasts_S1x500000_S500000,
    StableHlo.binary main_v119 main_v114 main_v120 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.nullary main_cst_20 (constant S_ .f32 0x3F800000#32),
    StableHlo.unary main_cst_20 main_v121 (broadcastInDim S550000 ![] bcast_S_S550000 : (⟨S_, .f32⟩ : BufTy).Contents (Elt F) → (⟨S550000, .f32⟩ : BufTy).Contents (Elt F)),
    StableHlo.nullary main_cst_21 (constant S_ .f32 0x00000000#32),
    StableHlo.unary main_cst_21 main_v122 (broadcastInDim S50000 ![] bcast_S_S50000 : (⟨S_, .f32⟩ : BufTy).Contents (Elt F) → (⟨S50000, .f32⟩ : BufTy).Contents (Elt F)),
    StableHlo.unary main_v120 main_v123 (broadcastInDim S550000x1 ![0] bcast_S550000_S550000x1_0 : (⟨S550000, .i32⟩ : BufTy).Contents (Elt F) → (⟨S550000x1, .i32⟩ : BufTy).Contents (Elt F)),
    StableHlo.ternary main_v122 main_v123 main_v121 main_v124 ((fun x i u => Host.scatterAdd scatter_S50000_S550000x1_S550000_n_0_0_1 x i u) : (⟨S50000, .f32⟩ : BufTy).Contents (Elt F) → (⟨S550000x1, .i32⟩ : BufTy).Contents (Elt F) → (⟨S550000, .f32⟩ : BufTy).Contents (Elt F) → (⟨S50000, .f32⟩ : BufTy).Contents (Elt F)),
    StableHlo.nullary main_cst_22 (constant S_ .f32 0x00000000#32),
    StableHlo.unary main_cst_22 main_v125 (broadcastInDim S50000 ![] bcast_S_S50000 : (⟨S_, .f32⟩ : BufTy).Contents (Elt F) → (⟨S50000, .f32⟩ : BufTy).Contents (Elt F)),
    StableHlo.binary main_v124 main_v125 main_v126 (cmpf .ogt : (⟨S50000, .f32⟩ : BufTy).Contents (Elt F) → (⟨S50000, .f32⟩ : BufTy).Contents (Elt F) → (⟨S50000, .i1⟩ : BufTy).Contents (Elt F)),
    StableHlo.unary main_v124 main_v127 (Host.rsqrt : (⟨S50000, .f32⟩ : BufTy).Contents (Elt F) → (⟨S50000, .f32⟩ : BufTy).Contents (Elt F)),
    StableHlo.nullary main_cst_23 (constant S_ .f32 0x00000000#32),
    StableHlo.TRef.unary (TRef.of main_cst_23 : TRef sig ⟨S_, .f32⟩) main_call2.v0 id,
    StableHlo.TRef.unary main_call2.v0 main_call2.v1 (broadcastInDim S50000 ![] bcast_S_S50000),
    StableHlo.TRef.ternary (TRef.of main_v126 : TRef sig ⟨S50000, .i1⟩) (TRef.of main_v127 : TRef sig ⟨S50000, .f32⟩) main_call2.v1 main_call2.v2 select,
    StableHlo.nullary main_c_24 (constantI S_ 32 0#32),
    StableHlo.unary main_c_24 main_v129 (broadcastInDim S550000 ![] bcast_S_S550000 : (⟨S_, .i32⟩ : BufTy).Contents (Elt F) → (⟨S550000, .i32⟩ : BufTy).Contents (Elt F)),
    StableHlo.binary main_v117 main_v129 main_v130 (cmpi .slt : (⟨S550000, .i32⟩ : BufTy).Contents (Elt F) → (⟨S550000, .i32⟩ : BufTy).Contents (Elt F) → (⟨S550000, .i1⟩ : BufTy).Contents (Elt F)),
    StableHlo.nullary main_c_25 (constantI S_ 32 50000#32),
    StableHlo.unary main_c_25 main_v131 (broadcastInDim S550000 ![] bcast_S_S550000 : (⟨S_, .i32⟩ : BufTy).Contents (Elt F) → (⟨S550000, .i32⟩ : BufTy).Contents (Elt F)),
    StableHlo.binary main_v117 main_v131 main_v132 (addi : (⟨S550000, .i32⟩ : BufTy).Contents (Elt F) → (⟨S550000, .i32⟩ : BufTy).Contents (Elt F) → (⟨S550000, .i32⟩ : BufTy).Contents (Elt F)),
    StableHlo.ternary main_v130 main_v132 main_v117 main_v133 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v133 main_v134 (broadcastInDim S550000x1 ![0] bcast_S550000_S550000x1_0 : (⟨S550000, .i32⟩ : BufTy).Contents (Elt F) → (⟨S550000x1, .i32⟩ : BufTy).Contents (Elt F)),
    StableHlo.binary main_v128 main_v134 main_v135 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.nullary main_c_26 (constantI S_ 32 0#32),
    StableHlo.unary main_c_26 main_v136 (broadcastInDim S550000 ![] bcast_S_S550000 : (⟨S_, .i32⟩ : BufTy).Contents (Elt F) → (⟨S550000, .i32⟩ : BufTy).Contents (Elt F)),
    StableHlo.binary main_v120 main_v136 main_v137 (cmpi .slt : (⟨S550000, .i32⟩ : BufTy).Contents (Elt F) → (⟨S550000, .i32⟩ : BufTy).Contents (Elt F) → (⟨S550000, .i1⟩ : BufTy).Contents (Elt F)),
    StableHlo.nullary main_c_27 (constantI S_ 32 50000#32),
    StableHlo.unary main_c_27 main_v138 (broadcastInDim S550000 ![] bcast_S_S550000 : (⟨S_, .i32⟩ : BufTy).Contents (Elt F) → (⟨S550000, .i32⟩ : BufTy).Contents (Elt F)),
    StableHlo.binary main_v120 main_v138 main_v139 (addi : (⟨S550000, .i32⟩ : BufTy).Contents (Elt F) → (⟨S550000, .i32⟩ : BufTy).Contents (Elt F) → (⟨S550000, .i32⟩ : BufTy).Contents (Elt F)),
    StableHlo.ternary main_v137 main_v139 main_v120 main_v140 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v140 main_v141 (broadcastInDim S550000x1 ![0] bcast_S550000_S550000x1_0 : (⟨S550000, .i32⟩ : BufTy).Contents (Elt F) → (⟨S550000x1, .i32⟩ : BufTy).Contents (Elt F)),
    StableHlo.binary main_v128 main_v141 main_v142 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.binary main_v135 main_v142 main_v143 (mulf : (⟨S550000, .f32⟩ : BufTy).Contents (Elt F) → (⟨S550000, .f32⟩ : BufTy).Contents (Elt F) → (⟨S550000, .f32⟩ : BufTy).Contents (Elt F)),
    StableHlo.nullary main_c_28 (constantI S_ 32 0#32),
    StableHlo.unary main_c_28 main_v144 (broadcastInDim S550000 ![] bcast_S_S550000 : (⟨S_, .i32⟩ : BufTy).Contents (Elt F) → (⟨S550000, .i32⟩ : BufTy).Contents (Elt F)),
    StableHlo.binary main_v117 main_v144 main_v145 (cmpi .slt : (⟨S550000, .i32⟩ : BufTy).Contents (Elt F) → (⟨S550000, .i32⟩ : BufTy).Contents (Elt F) → (⟨S550000, .i1⟩ : BufTy).Contents (Elt F)),
    StableHlo.nullary main_c_29 (constantI S_ 32 50000#32),
    StableHlo.unary main_c_29 main_v146 (broadcastInDim S550000 ![] bcast_S_S550000 : (⟨S_, .i32⟩ : BufTy).Contents (Elt F) → (⟨S550000, .i32⟩ : BufTy).Contents (Elt F)),
    StableHlo.binary main_v117 main_v146 main_v147 (addi : (⟨S550000, .i32⟩ : BufTy).Contents (Elt F) → (⟨S550000, .i32⟩ : BufTy).Contents (Elt F) → (⟨S550000, .i32⟩ : BufTy).Contents (Elt F)) ]

set_option maxHeartbeats 4000000 in
/-- The window is the straight line over its list: both sides unfold to the same chain of steps. -/
theorem main_part2_eq (c : Dev nD) : main_part2 (F := F) c = seq ops2 := by
  chain_rfl

/-- Every operation of the window touches TensorCore references only. -/
theorem ops2_sub : (ops2 : List (HloOp τ sig (Elt F))).Forall fun op => op.bufs ⊆ tcRefs τ sig :=
  ⟨binary_bufs_sub .., nullary_bufs_sub .., unary_bufs_sub .., unary_bufs_sub .., ternary_bufs_sub .., unary_bufs_sub ..,
    unary_bufs_sub .., binary_bufs_sub .., binary_bufs_sub .., unary_bufs_sub .., reshape_bufs_sub .., unary_bufs_sub ..,
    reshape_bufs_sub .., unary_bufs_sub .., reshape_bufs_sub .., binary_bufs_sub .., nullary_bufs_sub .., unary_bufs_sub ..,
    reshape_bufs_sub .., binary_bufs_sub .., unary_bufs_sub .., reshape_bufs_sub .., binary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., binary_bufs_sub ..⟩

/-- Every operation of the window determines its results. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

/-! No operation of the window writes an argument of the program: after the window each argument holds what it held. -/

theorem ops2_arg0 (V : Valuation τ sig (Elt F)) : after ops2 V (main_arg0 : DevRef τ sig) = V (main_arg0 : DevRef τ sig) := by
  after_results_simp

theorem ops2_arg1 (V : Valuation τ sig (Elt F)) : after ops2 V (main_arg1 : DevRef τ sig) = V (main_arg1 : DevRef τ sig) := by
  after_results_simp

theorem ops2_arg2 (V : Valuation τ sig (Elt F)) : after ops2 V (main_arg2 : DevRef τ sig) = V (main_arg2 : DevRef τ sig) := by
  after_results_simp

theorem ops2_arg3 (V : Valuation τ sig (Elt F)) : after ops2 V (main_arg3 : DevRef τ sig) = V (main_arg3 : DevRef τ sig) := by
  after_results_simp

theorem ops2_arg4 (V : Valuation τ sig (Elt F)) : after ops2 V (main_arg4 : DevRef τ sig) = V (main_arg4 : DevRef τ sig) := by
  after_results_simp

theorem ops2_arg5 (V : Valuation τ sig (Elt F)) : after ops2 V (main_arg5 : DevRef τ sig) = V (main_arg5 : DevRef τ sig) := by
  after_results_simp

theorem ops2_arg6 (V : Valuation τ sig (Elt F)) : after ops2 V (main_arg6 : DevRef τ sig) = V (main_arg6 : DevRef τ sig) := by
  after_results_simp

theorem ops2_arg7 (V : Valuation τ sig (Elt F)) : after ops2 V (main_arg7 : DevRef τ sig) = V (main_arg7 : DevRef τ sig) := by
  after_results_simp

theorem ops2_arg8 (V : Valuation τ sig (Elt F)) : after ops2 V (main_arg8 : DevRef τ sig) = V (main_arg8 : DevRef τ sig) := by
  after_results_simp

theorem ops2_arg9 (V : Valuation τ sig (Elt F)) : after ops2 V (main_arg9 : DevRef τ sig) = V (main_arg9 : DevRef τ sig) := by
  after_results_simp

theorem ops2_arg10 (V : Valuation τ sig (Elt F)) : after ops2 V (main_arg10 : DevRef τ sig) = V (main_arg10 : DevRef τ sig) := by
  after_results_simp

theorem ops2_arg11 (V : Valuation τ sig (Elt F)) : after ops2 V (main_arg11 : DevRef τ sig) = V (main_arg11 : DevRef τ sig) := by
  after_results_simp

end Cert.ReferenceIdeal.RefRun

end
-- ==== Proof.RefOps3.lean ====
import proofs.«115534_j8151847928363_1_alg».proof.Proof.Gen.ReferenceIdeal
import Idealize.ShloMosaic.Lib.StableHlo.Run
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 3 of the program as a list: its 62 operations in execution order, a call's operations inline
    at the call over the call's own buffers. -/
abbrev ops3 : List (HloOp τ sig (Elt F)) :=
  [ StableHlo.ternary main_v145 main_v147 main_v117 main_v148 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v148 main_v149 (broadcastInDim S550000x1 ![0] bcast_S550000_S550000x1_0 : (⟨S550000, .i32⟩ : BufTy).Contents (Elt F) → (⟨S550000x1, .i32⟩ : BufTy).Contents (Elt F)),
    StableHlo.binary main_v113 main_v149 main_v150 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    StableHlo.unary main_v143 main_v151 (broadcastInDim S550000x1 ![0] bcast_S550000_S550000x1_0 : (⟨S550000, .f32⟩ : BufTy).Contents (Elt F) → (⟨S550000x1, .f32⟩ : BufTy).Contents (Elt F)),
    StableHlo.unary main_v151 main_v152 (broadcastInDim S550000x128 ![0, 1] bcast_S550000x1_S550000x128_0_1 : (⟨S550000x1, .f32⟩ : BufTy).Contents (Elt F) → (⟨S550000x128, .f32⟩ : BufTy).Contents (Elt F)),
    StableHlo.binary main_v150 main_v152 main_v153 (mulf : (⟨S550000x128, .f32⟩ : BufTy).Contents (Elt F) → (⟨S550000x128, .f32⟩ : BufTy).Contents (Elt F) → (⟨S550000x128, .f32⟩ : BufTy).Contents (Elt F)),
    StableHlo.nullary main_cst_30 (constant S_ .f32 0x00000000#32),
    StableHlo.unary main_cst_30 main_v154 (broadcastInDim S50000x128 ![] bcast_S_S50000x128 : (⟨S_, .f32⟩ : BufTy).Contents (Elt F) → (⟨S50000x128, .f32⟩ : BufTy).Contents (Elt F)),
    StableHlo.unary main_v120 main_v155 (broadcastInDim S550000x1 ![0] bcast_S550000_S550000x1_0 : (⟨S550000, .i32⟩ : BufTy).Contents (Elt F) → (⟨S550000x1, .i32⟩ : BufTy).Contents (Elt F)),
    StableHlo.ternary main_v154 main_v155 main_v153 main_v156 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)),
    StableHlo.unary main_v112 main_v157 (broadcastInDim S1x128 ![1] bcast_S128_S1x128_1 : (⟨S128, .f32⟩ : BufTy).Contents (Elt F) → (⟨S1x128, .f32⟩ : BufTy).Contents (Elt F)),
    StableHlo.unary main_v157 main_v158 (broadcastInDim S50000x128 ![0, 1] bcast_S1x128_S50000x128_0_1 : (⟨S1x128, .f32⟩ : BufTy).Contents (Elt F) → (⟨S50000x128, .f32⟩ : BufTy).Contents (Elt F)),
    StableHlo.binary main_v156 main_v158 main_v159 (addf : (⟨S50000x128, .f32⟩ : BufTy).Contents (Elt F) → (⟨S50000x128, .f32⟩ : BufTy).Contents (Elt F) → (⟨S50000x128, .f32⟩ : BufTy).Contents (Elt F)),
    StableHlo.binary main_v106 main_v159 main_v160 (addf : (⟨S50000x128, .f32⟩ : BufTy).Contents (Elt F) → (⟨S50000x128, .f32⟩ : BufTy).Contents (Elt F) → (⟨S50000x128, .f32⟩ : BufTy).Contents (Elt F)),
    StableHlo.unary main_arg1 main_v161 ((extractStridedSlice S1x2x500000 ![3, 0, 0] · slices_S4x2x500000_S1x2x500000_3_0_0) : (⟨S4x2x500000, .i32⟩ : BufTy).Contents (Elt F) → (⟨S1x2x500000, .i32⟩ : BufTy).Contents (Elt F)),
    StableHlo.reshape main_v161 main_v162 rfl shapeCasts_S1x2x500000_S2x500000,
    StableHlo.unary main_arg2 main_v163 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v163 main_v164 rfl shapeCasts_S1x128x128_S128x128,
    StableHlo.unary main_arg3 main_v165 ((extractStridedSlice S1x128 ![3, 0] · slices_S4x128_S1x128_3_0) : (⟨S4x128, .f32⟩ : BufTy).Contents (Elt F) → (⟨S1x128, .f32⟩ : BufTy).Contents (Elt F)),
    StableHlo.reshape main_v165 main_v166 rfl shapeCasts_S1x128_S128,
    StableHlo.binary main_arg0 main_v164 main_v167 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_v168 (iotaInDim S50000 32 0),
    StableHlo.unary main_v162 main_v169 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v169 main_v170 rfl shapeCasts_S1x500000_S500000,
    StableHlo.binary main_v170 main_v168 main_v171 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.unary main_v162 main_v172 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v172 main_v173 rfl shapeCasts_S1x500000_S500000,
    StableHlo.binary main_v173 main_v168 main_v174 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.nullary main_cst_31 (constant S_ .f32 0x3F800000#32),
    StableHlo.unary main_cst_31 main_v175 (broadcastInDim S550000 ![] bcast_S_S550000 : (⟨S_, .f32⟩ : BufTy).Contents (Elt F) → (⟨S550000, .f32⟩ : BufTy).Contents (Elt F)),
    StableHlo.nullary main_cst_32 (constant S_ .f32 0x00000000#32),
    StableHlo.unary main_cst_32 main_v176 (broadcastInDim S50000 ![] bcast_S_S50000 : (⟨S_, .f32⟩ : BufTy).Contents (Elt F) → (⟨S50000, .f32⟩ : BufTy).Contents (Elt F)),
    StableHlo.unary main_v174 main_v177 (broadcastInDim S550000x1 ![0] bcast_S550000_S550000x1_0 : (⟨S550000, .i32⟩ : BufTy).Contents (Elt F) → (⟨S550000x1, .i32⟩ : BufTy).Contents (Elt F)),
    StableHlo.ternary main_v176 main_v177 main_v175 main_v178 ((fun x i u => Host.scatterAdd scatter_S50000_S550000x1_S550000_n_0_0_1 x i u) : (⟨S50000, .f32⟩ : BufTy).Contents (Elt F) → (⟨S550000x1, .i32⟩ : BufTy).Contents (Elt F) → (⟨S550000, .f32⟩ : BufTy).Contents (Elt F) → (⟨S50000, .f32⟩ : BufTy).Contents (Elt F)),
    StableHlo.nullary main_cst_33 (constant S_ .f32 0x00000000#32),
    StableHlo.unary main_cst_33 main_v179 (broadcastInDim S50000 ![] bcast_S_S50000 : (⟨S_, .f32⟩ : BufTy).Contents (Elt F) → (⟨S50000, .f32⟩ : BufTy).Contents (Elt F)),
    StableHlo.binary main_v178 main_v179 main_v180 (cmpf .ogt : (⟨S50000, .f32⟩ : BufTy).Contents (Elt F) → (⟨S50000, .f32⟩ : BufTy).Contents (Elt F) → (⟨S50000, .i1⟩ : BufTy).Contents (Elt F)),
    StableHlo.unary main_v178 main_v181 (Host.rsqrt : (⟨S50000, .f32⟩ : BufTy).Contents (Elt F) → (⟨S50000, .f32⟩ : BufTy).Contents (Elt F)),
    StableHlo.nullary main_cst_34 (constant S_ .f32 0x00000000#32),
    StableHlo.TRef.unary (TRef.of main_cst_34 : TRef sig ⟨S_, .f32⟩) main_call3.v0 id,
    StableHlo.TRef.unary main_call3.v0 main_call3.v1 (broadcastInDim S50000 ![] bcast_S_S50000),
    StableHlo.TRef.ternary (TRef.of main_v180 : TRef sig ⟨S50000, .i1⟩) (TRef.of main_v181 : TRef sig ⟨S50000, .f32⟩) main_call3.v1 main_call3.v2 select,
    StableHlo.nullary main_c_35 (constantI S_ 32 0#32),
    StableHlo.unary main_c_35 main_v183 (broadcastInDim S550000 ![] bcast_S_S550000 : (⟨S_, .i32⟩ : BufTy).Contents (Elt F) → (⟨S550000, .i32⟩ : BufTy).Contents (Elt F)),
    StableHlo.binary main_v171 main_v183 main_v184 (cmpi .slt : (⟨S550000, .i32⟩ : BufTy).Contents (Elt F) → (⟨S550000, .i32⟩ : BufTy).Contents (Elt F) → (⟨S550000, .i1⟩ : BufTy).Contents (Elt F)),
    StableHlo.nullary main_c_36 (constantI S_ 32 50000#32),
    StableHlo.unary main_c_36 main_v185 (broadcastInDim S550000 ![] bcast_S_S550000 : (⟨S_, .i32⟩ : BufTy).Contents (Elt F) → (⟨S550000, .i32⟩ : BufTy).Contents (Elt F)),
    StableHlo.binary main_v171 main_v185 main_v186 (addi : (⟨S550000, .i32⟩ : BufTy).Contents (Elt F) → (⟨S550000, .i32⟩ : BufTy).Contents (Elt F) → (⟨S550000, .i32⟩ : BufTy).Contents (Elt F)),
    StableHlo.ternary main_v184 main_v186 main_v171 main_v187 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v187 main_v188 (broadcastInDim S550000x1 ![0] bcast_S550000_S550000x1_0 : (⟨S550000, .i32⟩ : BufTy).Contents (Elt F) → (⟨S550000x1, .i32⟩ : BufTy).Contents (Elt F)),
    StableHlo.binary main_v182 main_v188 main_v189 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.nullary main_c_37 (constantI S_ 32 0#32),
    StableHlo.unary main_c_37 main_v190 (broadcastInDim S550000 ![] bcast_S_S550000 : (⟨S_, .i32⟩ : BufTy).Contents (Elt F) → (⟨S550000, .i32⟩ : BufTy).Contents (Elt F)),
    StableHlo.binary main_v174 main_v190 main_v191 (cmpi .slt : (⟨S550000, .i32⟩ : BufTy).Contents (Elt F) → (⟨S550000, .i32⟩ : BufTy).Contents (Elt F) → (⟨S550000, .i1⟩ : BufTy).Contents (Elt F)),
    StableHlo.nullary main_c_38 (constantI S_ 32 50000#32),
    StableHlo.unary main_c_38 main_v192 (broadcastInDim S550000 ![] bcast_S_S550000 : (⟨S_, .i32⟩ : BufTy).Contents (Elt F) → (⟨S550000, .i32⟩ : BufTy).Contents (Elt F)),
    StableHlo.binary main_v174 main_v192 main_v193 (addi : (⟨S550000, .i32⟩ : BufTy).Contents (Elt F) → (⟨S550000, .i32⟩ : BufTy).Contents (Elt F) → (⟨S550000, .i32⟩ : BufTy).Contents (Elt F)),
    StableHlo.ternary main_v191 main_v193 main_v174 main_v194 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v194 main_v195 (broadcastInDim S550000x1 ![0] bcast_S550000_S550000x1_0 : (⟨S550000, .i32⟩ : BufTy).Contents (Elt F) → (⟨S550000x1, .i32⟩ : BufTy).Contents (Elt F)),
    StableHlo.binary main_v182 main_v195 main_v196 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.binary main_v189 main_v196 main_v197 (mulf : (⟨S550000, .f32⟩ : BufTy).Contents (Elt F) → (⟨S550000, .f32⟩ : BufTy).Contents (Elt F) → (⟨S550000, .f32⟩ : BufTy).Contents (Elt F)),
    StableHlo.nullary main_c_39 (constantI S_ 32 0#32) ]

set_option maxHeartbeats 4000000 in
/-- The window is the straight line over its list: both sides unfold to the same chain of steps. -/
theorem main_part3_eq (c : Dev nD) : main_part3 (F := F) c = seq ops3 := by
  chain_rfl

/-- Every operation of the window touches TensorCore references only. -/
theorem ops3_sub : (ops3 : List (HloOp τ sig (Elt F))).Forall fun op => op.bufs ⊆ tcRefs τ sig :=
  ⟨ternary_bufs_sub .., unary_bufs_sub .., binary_bufs_sub .., unary_bufs_sub .., unary_bufs_sub .., binary_bufs_sub ..,
    nullary_bufs_sub .., unary_bufs_sub .., unary_bufs_sub .., ternary_bufs_sub .., unary_bufs_sub .., unary_bufs_sub ..,
    binary_bufs_sub .., binary_bufs_sub .., unary_bufs_sub .., reshape_bufs_sub .., unary_bufs_sub .., reshape_bufs_sub ..,
    unary_bufs_sub .., reshape_bufs_sub .., binary_bufs_sub .., nullary_bufs_sub .., unary_bufs_sub .., reshape_bufs_sub ..,
    binary_bufs_sub .., unary_bufs_sub .., reshape_bufs_sub .., binary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub ..⟩

/-- Every operation of the window determines its results. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

/-! No operation of the window writes an argument of the program: after the window each argument holds what it held. -/

theorem ops3_arg0 (V : Valuation τ sig (Elt F)) : after ops3 V (main_arg0 : DevRef τ sig) = V (main_arg0 : DevRef τ sig) := by
  after_results_simp

theorem ops3_arg1 (V : Valuation τ sig (Elt F)) : after ops3 V (main_arg1 : DevRef τ sig) = V (main_arg1 : DevRef τ sig) := by
  after_results_simp

theorem ops3_arg2 (V : Valuation τ sig (Elt F)) : after ops3 V (main_arg2 : DevRef τ sig) = V (main_arg2 : DevRef τ sig) := by
  after_results_simp

theorem ops3_arg3 (V : Valuation τ sig (Elt F)) : after ops3 V (main_arg3 : DevRef τ sig) = V (main_arg3 : DevRef τ sig) := by
  after_results_simp

theorem ops3_arg4 (V : Valuation τ sig (Elt F)) : after ops3 V (main_arg4 : DevRef τ sig) = V (main_arg4 : DevRef τ sig) := by
  after_results_simp

theorem ops3_arg5 (V : Valuation τ sig (Elt F)) : after ops3 V (main_arg5 : DevRef τ sig) = V (main_arg5 : DevRef τ sig) := by
  after_results_simp

theorem ops3_arg6 (V : Valuation τ sig (Elt F)) : after ops3 V (main_arg6 : DevRef τ sig) = V (main_arg6 : DevRef τ sig) := by
  after_results_simp

theorem ops3_arg7 (V : Valuation τ sig (Elt F)) : after ops3 V (main_arg7 : DevRef τ sig) = V (main_arg7 : DevRef τ sig) := by
  after_results_simp

theorem ops3_arg8 (V : Valuation τ sig (Elt F)) : after ops3 V (main_arg8 : DevRef τ sig) = V (main_arg8 : DevRef τ sig) := by
  after_results_simp

theorem ops3_arg9 (V : Valuation τ sig (Elt F)) : after ops3 V (main_arg9 : DevRef τ sig) = V (main_arg9 : DevRef τ sig) := by
  after_results_simp

theorem ops3_arg10 (V : Valuation τ sig (Elt F)) : after ops3 V (main_arg10 : DevRef τ sig) = V (main_arg10 : DevRef τ sig) := by
  after_results_simp

theorem ops3_arg11 (V : Valuation τ sig (Elt F)) : after ops3 V (main_arg11 : DevRef τ sig) = V (main_arg11 : DevRef τ sig) := by
  after_results_simp

end Cert.ReferenceIdeal.RefRun

end
-- ==== Proof.RefOps4.lean ====
import proofs.«115534_j8151847928363_1_alg».proof.Proof.Gen.ReferenceIdeal
import Idealize.ShloMosaic.Lib.StableHlo.Run
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 4 of the program as a list: its 64 operations in execution order, a call's operations inline
    at the call over the call's own buffers. -/
abbrev ops4 : List (HloOp τ sig (Elt F)) :=
  [ StableHlo.unary main_c_39 main_v198 (broadcastInDim S550000 ![] bcast_S_S550000 : (⟨S_, .i32⟩ : BufTy).Contents (Elt F) → (⟨S550000, .i32⟩ : BufTy).Contents (Elt F)),
    StableHlo.binary main_v171 main_v198 main_v199 (cmpi .slt : (⟨S550000, .i32⟩ : BufTy).Contents (Elt F) → (⟨S550000, .i32⟩ : BufTy).Contents (Elt F) → (⟨S550000, .i1⟩ : BufTy).Contents (Elt F)),
    StableHlo.nullary main_c_40 (constantI S_ 32 50000#32),
    StableHlo.unary main_c_40 main_v200 (broadcastInDim S550000 ![] bcast_S_S550000 : (⟨S_, .i32⟩ : BufTy).Contents (Elt F) → (⟨S550000, .i32⟩ : BufTy).Contents (Elt F)),
    StableHlo.binary main_v171 main_v200 main_v201 (addi : (⟨S550000, .i32⟩ : BufTy).Contents (Elt F) → (⟨S550000, .i32⟩ : BufTy).Contents (Elt F) → (⟨S550000, .i32⟩ : BufTy).Contents (Elt F)),
    StableHlo.ternary main_v199 main_v201 main_v171 main_v202 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v202 main_v203 (broadcastInDim S550000x1 ![0] bcast_S550000_S550000x1_0 : (⟨S550000, .i32⟩ : BufTy).Contents (Elt F) → (⟨S550000x1, .i32⟩ : BufTy).Contents (Elt F)),
    StableHlo.binary main_v167 main_v203 main_v204 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    StableHlo.unary main_v197 main_v205 (broadcastInDim S550000x1 ![0] bcast_S550000_S550000x1_0 : (⟨S550000, .f32⟩ : BufTy).Contents (Elt F) → (⟨S550000x1, .f32⟩ : BufTy).Contents (Elt F)),
    StableHlo.unary main_v205 main_v206 (broadcastInDim S550000x128 ![0, 1] bcast_S550000x1_S550000x128_0_1 : (⟨S550000x1, .f32⟩ : BufTy).Contents (Elt F) → (⟨S550000x128, .f32⟩ : BufTy).Contents (Elt F)),
    StableHlo.binary main_v204 main_v206 main_v207 (mulf : (⟨S550000x128, .f32⟩ : BufTy).Contents (Elt F) → (⟨S550000x128, .f32⟩ : BufTy).Contents (Elt F) → (⟨S550000x128, .f32⟩ : BufTy).Contents (Elt F)),
    StableHlo.nullary main_cst_41 (constant S_ .f32 0x00000000#32),
    StableHlo.unary main_cst_41 main_v208 (broadcastInDim S50000x128 ![] bcast_S_S50000x128 : (⟨S_, .f32⟩ : BufTy).Contents (Elt F) → (⟨S50000x128, .f32⟩ : BufTy).Contents (Elt F)),
    StableHlo.unary main_v174 main_v209 (broadcastInDim S550000x1 ![0] bcast_S550000_S550000x1_0 : (⟨S550000, .i32⟩ : BufTy).Contents (Elt F) → (⟨S550000x1, .i32⟩ : BufTy).Contents (Elt F)),
    StableHlo.ternary main_v208 main_v209 main_v207 main_v210 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)),
    StableHlo.unary main_v166 main_v211 (broadcastInDim S1x128 ![1] bcast_S128_S1x128_1 : (⟨S128, .f32⟩ : BufTy).Contents (Elt F) → (⟨S1x128, .f32⟩ : BufTy).Contents (Elt F)),
    StableHlo.unary main_v211 main_v212 (broadcastInDim S50000x128 ![0, 1] bcast_S1x128_S50000x128_0_1 : (⟨S1x128, .f32⟩ : BufTy).Contents (Elt F) → (⟨S50000x128, .f32⟩ : BufTy).Contents (Elt F)),
    StableHlo.binary main_v210 main_v212 main_v213 (addf : (⟨S50000x128, .f32⟩ : BufTy).Contents (Elt F) → (⟨S50000x128, .f32⟩ : BufTy).Contents (Elt F) → (⟨S50000x128, .f32⟩ : BufTy).Contents (Elt F)),
    StableHlo.binary main_v160 main_v213 main_v214 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (TRef.of main_v214 : TRef sig ⟨S50000x128, .f32⟩) main_call4.v0 main_call4.v1 maximumf,
    StableHlo.unary main_arg1 main_v216 ((extractStridedSlice S1x2x500000 ![0, 0, 0] · slices_S4x2x500000_S1x2x500000_0_0_0) : (⟨S4x2x500000, .i32⟩ : BufTy).Contents (Elt F) → (⟨S1x2x500000, .i32⟩ : BufTy).Contents (Elt F)),
    StableHlo.reshape main_v216 main_v217 rfl shapeCasts_S1x2x500000_S2x500000,
    StableHlo.unary main_arg4 main_v218 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v218 main_v219 rfl shapeCasts_S1x128x128_S128x128,
    StableHlo.unary main_arg5 main_v220 ((extractStridedSlice S1x128 ![0, 0] · slices_S4x128_S1x128_0_0) : (⟨S4x128, .f32⟩ : BufTy).Contents (Elt F) → (⟨S1x128, .f32⟩ : BufTy).Contents (Elt F)),
    StableHlo.reshape main_v220 main_v221 rfl shapeCasts_S1x128_S128,
    StableHlo.binary main_v215 main_v219 main_v222 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_v223 (iotaInDim S50000 32 0),
    StableHlo.unary main_v217 main_v224 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v224 main_v225 rfl shapeCasts_S1x500000_S500000,
    StableHlo.binary main_v225 main_v223 main_v226 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.unary main_v217 main_v227 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v227 main_v228 rfl shapeCasts_S1x500000_S500000,
    StableHlo.binary main_v228 main_v223 main_v229 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.nullary main_cst_42 (constant S_ .f32 0x3F800000#32),
    StableHlo.unary main_cst_42 main_v230 (broadcastInDim S550000 ![] bcast_S_S550000 : (⟨S_, .f32⟩ : BufTy).Contents (Elt F) → (⟨S550000, .f32⟩ : BufTy).Contents (Elt F)),
    StableHlo.nullary main_cst_43 (constant S_ .f32 0x00000000#32),
    StableHlo.unary main_cst_43 main_v231 (broadcastInDim S50000 ![] bcast_S_S50000 : (⟨S_, .f32⟩ : BufTy).Contents (Elt F) → (⟨S50000, .f32⟩ : BufTy).Contents (Elt F)),
    StableHlo.unary main_v229 main_v232 (broadcastInDim S550000x1 ![0] bcast_S550000_S550000x1_0 : (⟨S550000, .i32⟩ : BufTy).Contents (Elt F) → (⟨S550000x1, .i32⟩ : BufTy).Contents (Elt F)),
    StableHlo.ternary main_v231 main_v232 main_v230 main_v233 ((fun x i u => Host.scatterAdd scatter_S50000_S550000x1_S550000_n_0_0_1 x i u) : (⟨S50000, .f32⟩ : BufTy).Contents (Elt F) → (⟨S550000x1, .i32⟩ : BufTy).Contents (Elt F) → (⟨S550000, .f32⟩ : BufTy).Contents (Elt F) → (⟨S50000, .f32⟩ : BufTy).Contents (Elt F)),
    StableHlo.nullary main_cst_44 (constant S_ .f32 0x00000000#32),
    StableHlo.unary main_cst_44 main_v234 (broadcastInDim S50000 ![] bcast_S_S50000 : (⟨S_, .f32⟩ : BufTy).Contents (Elt F) → (⟨S50000, .f32⟩ : BufTy).Contents (Elt F)),
    StableHlo.binary main_v233 main_v234 main_v235 (cmpf .ogt : (⟨S50000, .f32⟩ : BufTy).Contents (Elt F) → (⟨S50000, .f32⟩ : BufTy).Contents (Elt F) → (⟨S50000, .i1⟩ : BufTy).Contents (Elt F)),
    StableHlo.unary main_v233 main_v236 (Host.rsqrt : (⟨S50000, .f32⟩ : BufTy).Contents (Elt F) → (⟨S50000, .f32⟩ : BufTy).Contents (Elt F)),
    StableHlo.nullary main_cst_45 (constant S_ .f32 0x00000000#32),
    StableHlo.TRef.unary (TRef.of main_cst_45 : TRef sig ⟨S_, .f32⟩) main_call5.v0 id,
    StableHlo.TRef.unary main_call5.v0 main_call5.v1 (broadcastInDim S50000 ![] bcast_S_S50000),
    StableHlo.TRef.ternary (TRef.of main_v235 : TRef sig ⟨S50000, .i1⟩) (TRef.of main_v236 : TRef sig ⟨S50000, .f32⟩) main_call5.v1 main_call5.v2 select,
    StableHlo.nullary main_c_46 (constantI S_ 32 0#32),
    StableHlo.unary main_c_46 main_v238 (broadcastInDim S550000 ![] bcast_S_S550000 : (⟨S_, .i32⟩ : BufTy).Contents (Elt F) → (⟨S550000, .i32⟩ : BufTy).Contents (Elt F)),
    StableHlo.binary main_v226 main_v238 main_v239 (cmpi .slt : (⟨S550000, .i32⟩ : BufTy).Contents (Elt F) → (⟨S550000, .i32⟩ : BufTy).Contents (Elt F) → (⟨S550000, .i1⟩ : BufTy).Contents (Elt F)),
    StableHlo.nullary main_c_47 (constantI S_ 32 50000#32),
    StableHlo.unary main_c_47 main_v240 (broadcastInDim S550000 ![] bcast_S_S550000 : (⟨S_, .i32⟩ : BufTy).Contents (Elt F) → (⟨S550000, .i32⟩ : BufTy).Contents (Elt F)),
    StableHlo.binary main_v226 main_v240 main_v241 (addi : (⟨S550000, .i32⟩ : BufTy).Contents (Elt F) → (⟨S550000, .i32⟩ : BufTy).Contents (Elt F) → (⟨S550000, .i32⟩ : BufTy).Contents (Elt F)),
    StableHlo.ternary main_v239 main_v241 main_v226 main_v242 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v242 main_v243 (broadcastInDim S550000x1 ![0] bcast_S550000_S550000x1_0 : (⟨S550000, .i32⟩ : BufTy).Contents (Elt F) → (⟨S550000x1, .i32⟩ : BufTy).Contents (Elt F)),
    StableHlo.binary main_v237 main_v243 main_v244 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.nullary main_c_48 (constantI S_ 32 0#32),
    StableHlo.unary main_c_48 main_v245 (broadcastInDim S550000 ![] bcast_S_S550000 : (⟨S_, .i32⟩ : BufTy).Contents (Elt F) → (⟨S550000, .i32⟩ : BufTy).Contents (Elt F)),
    StableHlo.binary main_v229 main_v245 main_v246 (cmpi .slt : (⟨S550000, .i32⟩ : BufTy).Contents (Elt F) → (⟨S550000, .i32⟩ : BufTy).Contents (Elt F) → (⟨S550000, .i1⟩ : BufTy).Contents (Elt F)),
    StableHlo.nullary main_c_49 (constantI S_ 32 50000#32),
    StableHlo.unary main_c_49 main_v247 (broadcastInDim S550000 ![] bcast_S_S550000 : (⟨S_, .i32⟩ : BufTy).Contents (Elt F) → (⟨S550000, .i32⟩ : BufTy).Contents (Elt F)) ]

set_option maxHeartbeats 4000000 in
/-- The window is the straight line over its list: both sides unfold to the same chain of steps. -/
theorem main_part4_eq (c : Dev nD) : main_part4 (F := F) c = seq ops4 := by
  chain_rfl

/-- Every operation of the window touches TensorCore references only. -/
theorem ops4_sub : (ops4 : List (HloOp τ sig (Elt F))).Forall fun op => op.bufs ⊆ tcRefs τ sig :=
  ⟨unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., unary_bufs_sub .., binary_bufs_sub ..,
    binary_bufs_sub .., nullary_bufs_sub .., unary_bufs_sub .., binary_bufs_sub .., unary_bufs_sub .., reshape_bufs_sub ..,
    unary_bufs_sub .., reshape_bufs_sub .., unary_bufs_sub .., reshape_bufs_sub .., binary_bufs_sub .., nullary_bufs_sub ..,
    unary_bufs_sub .., reshape_bufs_sub .., binary_bufs_sub .., unary_bufs_sub .., reshape_bufs_sub .., binary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub ..⟩

/-- Every operation of the window determines its results. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

/-! No operation of the window writes an argument of the program: after the window each argument holds what it held. -/

theorem ops4_arg0 (V : Valuation τ sig (Elt F)) : after ops4 V (main_arg0 : DevRef τ sig) = V (main_arg0 : DevRef τ sig) := by
  after_results_simp

theorem ops4_arg1 (V : Valuation τ sig (Elt F)) : after ops4 V (main_arg1 : DevRef τ sig) = V (main_arg1 : DevRef τ sig) := by
  after_results_simp

theorem ops4_arg2 (V : Valuation τ sig (Elt F)) : after ops4 V (main_arg2 : DevRef τ sig) = V (main_arg2 : DevRef τ sig) := by
  after_results_simp

theorem ops4_arg3 (V : Valuation τ sig (Elt F)) : after ops4 V (main_arg3 : DevRef τ sig) = V (main_arg3 : DevRef τ sig) := by
  after_results_simp

theorem ops4_arg4 (V : Valuation τ sig (Elt F)) : after ops4 V (main_arg4 : DevRef τ sig) = V (main_arg4 : DevRef τ sig) := by
  after_results_simp

theorem ops4_arg5 (V : Valuation τ sig (Elt F)) : after ops4 V (main_arg5 : DevRef τ sig) = V (main_arg5 : DevRef τ sig) := by
  after_results_simp

theorem ops4_arg6 (V : Valuation τ sig (Elt F)) : after ops4 V (main_arg6 : DevRef τ sig) = V (main_arg6 : DevRef τ sig) := by
  after_results_simp

theorem ops4_arg7 (V : Valuation τ sig (Elt F)) : after ops4 V (main_arg7 : DevRef τ sig) = V (main_arg7 : DevRef τ sig) := by
  after_results_simp

theorem ops4_arg8 (V : Valuation τ sig (Elt F)) : after ops4 V (main_arg8 : DevRef τ sig) = V (main_arg8 : DevRef τ sig) := by
  after_results_simp

theorem ops4_arg9 (V : Valuation τ sig (Elt F)) : after ops4 V (main_arg9 : DevRef τ sig) = V (main_arg9 : DevRef τ sig) := by
  after_results_simp

theorem ops4_arg10 (V : Valuation τ sig (Elt F)) : after ops4 V (main_arg10 : DevRef τ sig) = V (main_arg10 : DevRef τ sig) := by
  after_results_simp

theorem ops4_arg11 (V : Valuation τ sig (Elt F)) : after ops4 V (main_arg11 : DevRef τ sig) = V (main_arg11 : DevRef τ sig) := by
  after_results_simp

end Cert.ReferenceIdeal.RefRun

end
-- ==== Proof.RefOps5.lean ====
import proofs.«115534_j8151847928363_1_alg».proof.Proof.Gen.ReferenceIdeal
import Idealize.ShloMosaic.Lib.StableHlo.Run
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 5 of the program as a list: its 62 operations in execution order, a call's operations inline
    at the call over the call's own buffers. -/
abbrev ops5 : List (HloOp τ sig (Elt F)) :=
  [ StableHlo.binary main_v229 main_v247 main_v248 (addi : (⟨S550000, .i32⟩ : BufTy).Contents (Elt F) → (⟨S550000, .i32⟩ : BufTy).Contents (Elt F) → (⟨S550000, .i32⟩ : BufTy).Contents (Elt F)),
    StableHlo.ternary main_v246 main_v248 main_v229 main_v249 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v249 main_v250 (broadcastInDim S550000x1 ![0] bcast_S550000_S550000x1_0 : (⟨S550000, .i32⟩ : BufTy).Contents (Elt F) → (⟨S550000x1, .i32⟩ : BufTy).Contents (Elt F)),
    StableHlo.binary main_v237 main_v250 main_v251 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.binary main_v244 main_v251 main_v252 (mulf : (⟨S550000, .f32⟩ : BufTy).Contents (Elt F) → (⟨S550000, .f32⟩ : BufTy).Contents (Elt F) → (⟨S550000, .f32⟩ : BufTy).Contents (Elt F)),
    StableHlo.nullary main_c_50 (constantI S_ 32 0#32),
    StableHlo.unary main_c_50 main_v253 (broadcastInDim S550000 ![] bcast_S_S550000 : (⟨S_, .i32⟩ : BufTy).Contents (Elt F) → (⟨S550000, .i32⟩ : BufTy).Contents (Elt F)),
    StableHlo.binary main_v226 main_v253 main_v254 (cmpi .slt : (⟨S550000, .i32⟩ : BufTy).Contents (Elt F) → (⟨S550000, .i32⟩ : BufTy).Contents (Elt F) → (⟨S550000, .i1⟩ : BufTy).Contents (Elt F)),
    StableHlo.nullary main_c_51 (constantI S_ 32 50000#32),
    StableHlo.unary main_c_51 main_v255 (broadcastInDim S550000 ![] bcast_S_S550000 : (⟨S_, .i32⟩ : BufTy).Contents (Elt F) → (⟨S550000, .i32⟩ : BufTy).Contents (Elt F)),
    StableHlo.binary main_v226 main_v255 main_v256 (addi : (⟨S550000, .i32⟩ : BufTy).Contents (Elt F) → (⟨S550000, .i32⟩ : BufTy).Contents (Elt F) → (⟨S550000, .i32⟩ : BufTy).Contents (Elt F)),
    StableHlo.ternary main_v254 main_v256 main_v226 main_v257 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v257 main_v258 (broadcastInDim S550000x1 ![0] bcast_S550000_S550000x1_0 : (⟨S550000, .i32⟩ : BufTy).Contents (Elt F) → (⟨S550000x1, .i32⟩ : BufTy).Contents (Elt F)),
    StableHlo.binary main_v222 main_v258 main_v259 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    StableHlo.unary main_v252 main_v260 (broadcastInDim S550000x1 ![0] bcast_S550000_S550000x1_0 : (⟨S550000, .f32⟩ : BufTy).Contents (Elt F) → (⟨S550000x1, .f32⟩ : BufTy).Contents (Elt F)),
    StableHlo.unary main_v260 main_v261 (broadcastInDim S550000x128 ![0, 1] bcast_S550000x1_S550000x128_0_1 : (⟨S550000x1, .f32⟩ : BufTy).Contents (Elt F) → (⟨S550000x128, .f32⟩ : BufTy).Contents (Elt F)),
    StableHlo.binary main_v259 main_v261 main_v262 (mulf : (⟨S550000x128, .f32⟩ : BufTy).Contents (Elt F) → (⟨S550000x128, .f32⟩ : BufTy).Contents (Elt F) → (⟨S550000x128, .f32⟩ : BufTy).Contents (Elt F)),
    StableHlo.nullary main_cst_52 (constant S_ .f32 0x00000000#32),
    StableHlo.unary main_cst_52 main_v263 (broadcastInDim S50000x128 ![] bcast_S_S50000x128 : (⟨S_, .f32⟩ : BufTy).Contents (Elt F) → (⟨S50000x128, .f32⟩ : BufTy).Contents (Elt F)),
    StableHlo.unary main_v229 main_v264 (broadcastInDim S550000x1 ![0] bcast_S550000_S550000x1_0 : (⟨S550000, .i32⟩ : BufTy).Contents (Elt F) → (⟨S550000x1, .i32⟩ : BufTy).Contents (Elt F)),
    StableHlo.ternary main_v263 main_v264 main_v262 main_v265 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)),
    StableHlo.unary main_v221 main_v266 (broadcastInDim S1x128 ![1] bcast_S128_S1x128_1 : (⟨S128, .f32⟩ : BufTy).Contents (Elt F) → (⟨S1x128, .f32⟩ : BufTy).Contents (Elt F)),
    StableHlo.unary main_v266 main_v267 (broadcastInDim S50000x128 ![0, 1] bcast_S1x128_S50000x128_0_1 : (⟨S1x128, .f32⟩ : BufTy).Contents (Elt F) → (⟨S50000x128, .f32⟩ : BufTy).Contents (Elt F)),
    StableHlo.binary main_v265 main_v267 main_v268 (addf : (⟨S50000x128, .f32⟩ : BufTy).Contents (Elt F) → (⟨S50000x128, .f32⟩ : BufTy).Contents (Elt F) → (⟨S50000x128, .f32⟩ : BufTy).Contents (Elt F)),
    StableHlo.unary main_arg1 main_v269 ((extractStridedSlice S1x2x500000 ![1, 0, 0] · slices_S4x2x500000_S1x2x500000_1_0_0) : (⟨S4x2x500000, .i32⟩ : BufTy).Contents (Elt F) → (⟨S1x2x500000, .i32⟩ : BufTy).Contents (Elt F)),
    StableHlo.reshape main_v269 main_v270 rfl shapeCasts_S1x2x500000_S2x500000,
    StableHlo.unary main_arg4 main_v271 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v271 main_v272 rfl shapeCasts_S1x128x128_S128x128,
    StableHlo.unary main_arg5 main_v273 ((extractStridedSlice S1x128 ![1, 0] · slices_S4x128_S1x128_1_0) : (⟨S4x128, .f32⟩ : BufTy).Contents (Elt F) → (⟨S1x128, .f32⟩ : BufTy).Contents (Elt F)),
    StableHlo.reshape main_v273 main_v274 rfl shapeCasts_S1x128_S128,
    StableHlo.binary main_v215 main_v272 main_v275 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_v276 (iotaInDim S50000 32 0),
    StableHlo.unary main_v270 main_v277 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v277 main_v278 rfl shapeCasts_S1x500000_S500000,
    StableHlo.binary main_v278 main_v276 main_v279 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.unary main_v270 main_v280 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v280 main_v281 rfl shapeCasts_S1x500000_S500000,
    StableHlo.binary main_v281 main_v276 main_v282 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.nullary main_cst_53 (constant S_ .f32 0x3F800000#32),
    StableHlo.unary main_cst_53 main_v283 (broadcastInDim S550000 ![] bcast_S_S550000 : (⟨S_, .f32⟩ : BufTy).Contents (Elt F) → (⟨S550000, .f32⟩ : BufTy).Contents (Elt F)),
    StableHlo.nullary main_cst_54 (constant S_ .f32 0x00000000#32),
    StableHlo.unary main_cst_54 main_v284 (broadcastInDim S50000 ![] bcast_S_S50000 : (⟨S_, .f32⟩ : BufTy).Contents (Elt F) → (⟨S50000, .f32⟩ : BufTy).Contents (Elt F)),
    StableHlo.unary main_v282 main_v285 (broadcastInDim S550000x1 ![0] bcast_S550000_S550000x1_0 : (⟨S550000, .i32⟩ : BufTy).Contents (Elt F) → (⟨S550000x1, .i32⟩ : BufTy).Contents (Elt F)),
    StableHlo.ternary main_v284 main_v285 main_v283 main_v286 ((fun x i u => Host.scatterAdd scatter_S50000_S550000x1_S550000_n_0_0_1 x i u) : (⟨S50000, .f32⟩ : BufTy).Contents (Elt F) → (⟨S550000x1, .i32⟩ : BufTy).Contents (Elt F) → (⟨S550000, .f32⟩ : BufTy).Contents (Elt F) → (⟨S50000, .f32⟩ : BufTy).Contents (Elt F)),
    StableHlo.nullary main_cst_55 (constant S_ .f32 0x00000000#32),
    StableHlo.unary main_cst_55 main_v287 (broadcastInDim S50000 ![] bcast_S_S50000 : (⟨S_, .f32⟩ : BufTy).Contents (Elt F) → (⟨S50000, .f32⟩ : BufTy).Contents (Elt F)),
    StableHlo.binary main_v286 main_v287 main_v288 (cmpf .ogt : (⟨S50000, .f32⟩ : BufTy).Contents (Elt F) → (⟨S50000, .f32⟩ : BufTy).Contents (Elt F) → (⟨S50000, .i1⟩ : BufTy).Contents (Elt F)),
    StableHlo.unary main_v286 main_v289 (Host.rsqrt : (⟨S50000, .f32⟩ : BufTy).Contents (Elt F) → (⟨S50000, .f32⟩ : BufTy).Contents (Elt F)),
    StableHlo.nullary main_cst_56 (constant S_ .f32 0x00000000#32),
    StableHlo.TRef.unary (TRef.of main_cst_56 : TRef sig ⟨S_, .f32⟩) main_call6.v0 id,
    StableHlo.TRef.unary main_call6.v0 main_call6.v1 (broadcastInDim S50000 ![] bcast_S_S50000),
    StableHlo.TRef.ternary (TRef.of main_v288 : TRef sig ⟨S50000, .i1⟩) (TRef.of main_v289 : TRef sig ⟨S50000, .f32⟩) main_call6.v1 main_call6.v2 select,
    StableHlo.nullary main_c_57 (constantI S_ 32 0#32),
    StableHlo.unary main_c_57 main_v291 (broadcastInDim S550000 ![] bcast_S_S550000 : (⟨S_, .i32⟩ : BufTy).Contents (Elt F) → (⟨S550000, .i32⟩ : BufTy).Contents (Elt F)),
    StableHlo.binary main_v279 main_v291 main_v292 (cmpi .slt : (⟨S550000, .i32⟩ : BufTy).Contents (Elt F) → (⟨S550000, .i32⟩ : BufTy).Contents (Elt F) → (⟨S550000, .i1⟩ : BufTy).Contents (Elt F)),
    StableHlo.nullary main_c_58 (constantI S_ 32 50000#32),
    StableHlo.unary main_c_58 main_v293 (broadcastInDim S550000 ![] bcast_S_S550000 : (⟨S_, .i32⟩ : BufTy).Contents (Elt F) → (⟨S550000, .i32⟩ : BufTy).Contents (Elt F)),
    StableHlo.binary main_v279 main_v293 main_v294 (addi : (⟨S550000, .i32⟩ : BufTy).Contents (Elt F) → (⟨S550000, .i32⟩ : BufTy).Contents (Elt F) → (⟨S550000, .i32⟩ : BufTy).Contents (Elt F)),
    StableHlo.ternary main_v292 main_v294 main_v279 main_v295 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v295 main_v296 (broadcastInDim S550000x1 ![0] bcast_S550000_S550000x1_0 : (⟨S550000, .i32⟩ : BufTy).Contents (Elt F) → (⟨S550000x1, .i32⟩ : BufTy).Contents (Elt F)),
    StableHlo.binary main_v290 main_v296 main_v297 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.nullary main_c_59 (constantI S_ 32 0#32) ]

set_option maxHeartbeats 4000000 in
/-- The window is the straight line over its list: both sides unfold to the same chain of steps. -/
theorem main_part5_eq (c : Dev nD) : main_part5 (F := F) c = seq ops5 := by
  chain_rfl

/-- Every operation of the window touches TensorCore references only. -/
theorem ops5_sub : (ops5 : List (HloOp τ sig (Elt F))).Forall fun op => op.bufs ⊆ tcRefs τ sig :=
  ⟨binary_bufs_sub .., ternary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., unary_bufs_sub .., binary_bufs_sub ..,
    unary_bufs_sub .., reshape_bufs_sub .., unary_bufs_sub .., reshape_bufs_sub .., unary_bufs_sub .., reshape_bufs_sub ..,
    binary_bufs_sub .., nullary_bufs_sub .., unary_bufs_sub .., reshape_bufs_sub .., binary_bufs_sub .., unary_bufs_sub ..,
    reshape_bufs_sub .., binary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub ..⟩

/-- Every operation of the window determines its results. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

/-! No operation of the window writes an argument of the program: after the window each argument holds what it held. -/

theorem ops5_arg0 (V : Valuation τ sig (Elt F)) : after ops5 V (main_arg0 : DevRef τ sig) = V (main_arg0 : DevRef τ sig) := by
  after_results_simp

theorem ops5_arg1 (V : Valuation τ sig (Elt F)) : after ops5 V (main_arg1 : DevRef τ sig) = V (main_arg1 : DevRef τ sig) := by
  after_results_simp

theorem ops5_arg2 (V : Valuation τ sig (Elt F)) : after ops5 V (main_arg2 : DevRef τ sig) = V (main_arg2 : DevRef τ sig) := by
  after_results_simp

theorem ops5_arg3 (V : Valuation τ sig (Elt F)) : after ops5 V (main_arg3 : DevRef τ sig) = V (main_arg3 : DevRef τ sig) := by
  after_results_simp

theorem ops5_arg4 (V : Valuation τ sig (Elt F)) : after ops5 V (main_arg4 : DevRef τ sig) = V (main_arg4 : DevRef τ sig) := by
  after_results_simp

theorem ops5_arg5 (V : Valuation τ sig (Elt F)) : after ops5 V (main_arg5 : DevRef τ sig) = V (main_arg5 : DevRef τ sig) := by
  after_results_simp

theorem ops5_arg6 (V : Valuation τ sig (Elt F)) : after ops5 V (main_arg6 : DevRef τ sig) = V (main_arg6 : DevRef τ sig) := by
  after_results_simp

theorem ops5_arg7 (V : Valuation τ sig (Elt F)) : after ops5 V (main_arg7 : DevRef τ sig) = V (main_arg7 : DevRef τ sig) := by
  after_results_simp

theorem ops5_arg8 (V : Valuation τ sig (Elt F)) : after ops5 V (main_arg8 : DevRef τ sig) = V (main_arg8 : DevRef τ sig) := by
  after_results_simp

theorem ops5_arg9 (V : Valuation τ sig (Elt F)) : after ops5 V (main_arg9 : DevRef τ sig) = V (main_arg9 : DevRef τ sig) := by
  after_results_simp

theorem ops5_arg10 (V : Valuation τ sig (Elt F)) : after ops5 V (main_arg10 : DevRef τ sig) = V (main_arg10 : DevRef τ sig) := by
  after_results_simp

theorem ops5_arg11 (V : Valuation τ sig (Elt F)) : after ops5 V (main_arg11 : DevRef τ sig) = V (main_arg11 : DevRef τ sig) := by
  after_results_simp

end Cert.ReferenceIdeal.RefRun

end
-- ==== Proof.RefOps6.lean ====
import proofs.«115534_j8151847928363_1_alg».proof.Proof.Gen.ReferenceIdeal
import Idealize.ShloMosaic.Lib.StableHlo.Run
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 6 of the program as a list: its 62 operations in execution order, a call's operations inline
    at the call over the call's own buffers. -/
abbrev ops6 : List (HloOp τ sig (Elt F)) :=
  [ StableHlo.unary main_c_59 main_v298 (broadcastInDim S550000 ![] bcast_S_S550000 : (⟨S_, .i32⟩ : BufTy).Contents (Elt F) → (⟨S550000, .i32⟩ : BufTy).Contents (Elt F)),
    StableHlo.binary main_v282 main_v298 main_v299 (cmpi .slt : (⟨S550000, .i32⟩ : BufTy).Contents (Elt F) → (⟨S550000, .i32⟩ : BufTy).Contents (Elt F) → (⟨S550000, .i1⟩ : BufTy).Contents (Elt F)),
    StableHlo.nullary main_c_60 (constantI S_ 32 50000#32),
    StableHlo.unary main_c_60 main_v300 (broadcastInDim S550000 ![] bcast_S_S550000 : (⟨S_, .i32⟩ : BufTy).Contents (Elt F) → (⟨S550000, .i32⟩ : BufTy).Contents (Elt F)),
    StableHlo.binary main_v282 main_v300 main_v301 (addi : (⟨S550000, .i32⟩ : BufTy).Contents (Elt F) → (⟨S550000, .i32⟩ : BufTy).Contents (Elt F) → (⟨S550000, .i32⟩ : BufTy).Contents (Elt F)),
    StableHlo.ternary main_v299 main_v301 main_v282 main_v302 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v302 main_v303 (broadcastInDim S550000x1 ![0] bcast_S550000_S550000x1_0 : (⟨S550000, .i32⟩ : BufTy).Contents (Elt F) → (⟨S550000x1, .i32⟩ : BufTy).Contents (Elt F)),
    StableHlo.binary main_v290 main_v303 main_v304 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.binary main_v297 main_v304 main_v305 (mulf : (⟨S550000, .f32⟩ : BufTy).Contents (Elt F) → (⟨S550000, .f32⟩ : BufTy).Contents (Elt F) → (⟨S550000, .f32⟩ : BufTy).Contents (Elt F)),
    StableHlo.nullary main_c_61 (constantI S_ 32 0#32),
    StableHlo.unary main_c_61 main_v306 (broadcastInDim S550000 ![] bcast_S_S550000 : (⟨S_, .i32⟩ : BufTy).Contents (Elt F) → (⟨S550000, .i32⟩ : BufTy).Contents (Elt F)),
    StableHlo.binary main_v279 main_v306 main_v307 (cmpi .slt : (⟨S550000, .i32⟩ : BufTy).Contents (Elt F) → (⟨S550000, .i32⟩ : BufTy).Contents (Elt F) → (⟨S550000, .i1⟩ : BufTy).Contents (Elt F)),
    StableHlo.nullary main_c_62 (constantI S_ 32 50000#32),
    StableHlo.unary main_c_62 main_v308 (broadcastInDim S550000 ![] bcast_S_S550000 : (⟨S_, .i32⟩ : BufTy).Contents (Elt F) → (⟨S550000, .i32⟩ : BufTy).Contents (Elt F)),
    StableHlo.binary main_v279 main_v308 main_v309 (addi : (⟨S550000, .i32⟩ : BufTy).Contents (Elt F) → (⟨S550000, .i32⟩ : BufTy).Contents (Elt F) → (⟨S550000, .i32⟩ : BufTy).Contents (Elt F)),
    StableHlo.ternary main_v307 main_v309 main_v279 main_v310 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v310 main_v311 (broadcastInDim S550000x1 ![0] bcast_S550000_S550000x1_0 : (⟨S550000, .i32⟩ : BufTy).Contents (Elt F) → (⟨S550000x1, .i32⟩ : BufTy).Contents (Elt F)),
    StableHlo.binary main_v275 main_v311 main_v312 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    StableHlo.unary main_v305 main_v313 (broadcastInDim S550000x1 ![0] bcast_S550000_S550000x1_0 : (⟨S550000, .f32⟩ : BufTy).Contents (Elt F) → (⟨S550000x1, .f32⟩ : BufTy).Contents (Elt F)),
    StableHlo.unary main_v313 main_v314 (broadcastInDim S550000x128 ![0, 1] bcast_S550000x1_S550000x128_0_1 : (⟨S550000x1, .f32⟩ : BufTy).Contents (Elt F) → (⟨S550000x128, .f32⟩ : BufTy).Contents (Elt F)),
    StableHlo.binary main_v312 main_v314 main_v315 (mulf : (⟨S550000x128, .f32⟩ : BufTy).Contents (Elt F) → (⟨S550000x128, .f32⟩ : BufTy).Contents (Elt F) → (⟨S550000x128, .f32⟩ : BufTy).Contents (Elt F)),
    StableHlo.nullary main_cst_63 (constant S_ .f32 0x00000000#32),
    StableHlo.unary main_cst_63 main_v316 (broadcastInDim S50000x128 ![] bcast_S_S50000x128 : (⟨S_, .f32⟩ : BufTy).Contents (Elt F) → (⟨S50000x128, .f32⟩ : BufTy).Contents (Elt F)),
    StableHlo.unary main_v282 main_v317 (broadcastInDim S550000x1 ![0] bcast_S550000_S550000x1_0 : (⟨S550000, .i32⟩ : BufTy).Contents (Elt F) → (⟨S550000x1, .i32⟩ : BufTy).Contents (Elt F)),
    StableHlo.ternary main_v316 main_v317 main_v315 main_v318 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)),
    StableHlo.unary main_v274 main_v319 (broadcastInDim S1x128 ![1] bcast_S128_S1x128_1 : (⟨S128, .f32⟩ : BufTy).Contents (Elt F) → (⟨S1x128, .f32⟩ : BufTy).Contents (Elt F)),
    StableHlo.unary main_v319 main_v320 (broadcastInDim S50000x128 ![0, 1] bcast_S1x128_S50000x128_0_1 : (⟨S1x128, .f32⟩ : BufTy).Contents (Elt F) → (⟨S50000x128, .f32⟩ : BufTy).Contents (Elt F)),
    StableHlo.binary main_v318 main_v320 main_v321 (addf : (⟨S50000x128, .f32⟩ : BufTy).Contents (Elt F) → (⟨S50000x128, .f32⟩ : BufTy).Contents (Elt F) → (⟨S50000x128, .f32⟩ : BufTy).Contents (Elt F)),
    StableHlo.binary main_v268 main_v321 main_v322 (addf : (⟨S50000x128, .f32⟩ : BufTy).Contents (Elt F) → (⟨S50000x128, .f32⟩ : BufTy).Contents (Elt F) → (⟨S50000x128, .f32⟩ : BufTy).Contents (Elt F)),
    StableHlo.unary main_arg1 main_v323 ((extractStridedSlice S1x2x500000 ![2, 0, 0] · slices_S4x2x500000_S1x2x500000_2_0_0) : (⟨S4x2x500000, .i32⟩ : BufTy).Contents (Elt F) → (⟨S1x2x500000, .i32⟩ : BufTy).Contents (Elt F)),
    StableHlo.reshape main_v323 main_v324 rfl shapeCasts_S1x2x500000_S2x500000,
    StableHlo.unary main_arg4 main_v325 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v325 main_v326 rfl shapeCasts_S1x128x128_S128x128,
    StableHlo.unary main_arg5 main_v327 ((extractStridedSlice S1x128 ![2, 0] · slices_S4x128_S1x128_2_0) : (⟨S4x128, .f32⟩ : BufTy).Contents (Elt F) → (⟨S1x128, .f32⟩ : BufTy).Contents (Elt F)),
    StableHlo.reshape main_v327 main_v328 rfl shapeCasts_S1x128_S128,
    StableHlo.binary main_v215 main_v326 main_v329 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_v330 (iotaInDim S50000 32 0),
    StableHlo.unary main_v324 main_v331 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v331 main_v332 rfl shapeCasts_S1x500000_S500000,
    StableHlo.binary main_v332 main_v330 main_v333 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.unary main_v324 main_v334 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v334 main_v335 rfl shapeCasts_S1x500000_S500000,
    StableHlo.binary main_v335 main_v330 main_v336 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.nullary main_cst_64 (constant S_ .f32 0x3F800000#32),
    StableHlo.unary main_cst_64 main_v337 (broadcastInDim S550000 ![] bcast_S_S550000 : (⟨S_, .f32⟩ : BufTy).Contents (Elt F) → (⟨S550000, .f32⟩ : BufTy).Contents (Elt F)),
    StableHlo.nullary main_cst_65 (constant S_ .f32 0x00000000#32),
    StableHlo.unary main_cst_65 main_v338 (broadcastInDim S50000 ![] bcast_S_S50000 : (⟨S_, .f32⟩ : BufTy).Contents (Elt F) → (⟨S50000, .f32⟩ : BufTy).Contents (Elt F)),
    StableHlo.unary main_v336 main_v339 (broadcastInDim S550000x1 ![0] bcast_S550000_S550000x1_0 : (⟨S550000, .i32⟩ : BufTy).Contents (Elt F) → (⟨S550000x1, .i32⟩ : BufTy).Contents (Elt F)),
    StableHlo.ternary main_v338 main_v339 main_v337 main_v340 ((fun x i u => Host.scatterAdd scatter_S50000_S550000x1_S550000_n_0_0_1 x i u) : (⟨S50000, .f32⟩ : BufTy).Contents (Elt F) → (⟨S550000x1, .i32⟩ : BufTy).Contents (Elt F) → (⟨S550000, .f32⟩ : BufTy).Contents (Elt F) → (⟨S50000, .f32⟩ : BufTy).Contents (Elt F)),
    StableHlo.nullary main_cst_66 (constant S_ .f32 0x00000000#32),
    StableHlo.unary main_cst_66 main_v341 (broadcastInDim S50000 ![] bcast_S_S50000 : (⟨S_, .f32⟩ : BufTy).Contents (Elt F) → (⟨S50000, .f32⟩ : BufTy).Contents (Elt F)),
    StableHlo.binary main_v340 main_v341 main_v342 (cmpf .ogt : (⟨S50000, .f32⟩ : BufTy).Contents (Elt F) → (⟨S50000, .f32⟩ : BufTy).Contents (Elt F) → (⟨S50000, .i1⟩ : BufTy).Contents (Elt F)),
    StableHlo.unary main_v340 main_v343 (Host.rsqrt : (⟨S50000, .f32⟩ : BufTy).Contents (Elt F) → (⟨S50000, .f32⟩ : BufTy).Contents (Elt F)),
    StableHlo.nullary main_cst_67 (constant S_ .f32 0x00000000#32),
    StableHlo.TRef.unary (TRef.of main_cst_67 : TRef sig ⟨S_, .f32⟩) main_call7.v0 id,
    StableHlo.TRef.unary main_call7.v0 main_call7.v1 (broadcastInDim S50000 ![] bcast_S_S50000),
    StableHlo.TRef.ternary (TRef.of main_v342 : TRef sig ⟨S50000, .i1⟩) (TRef.of main_v343 : TRef sig ⟨S50000, .f32⟩) main_call7.v1 main_call7.v2 select,
    StableHlo.nullary main_c_68 (constantI S_ 32 0#32),
    StableHlo.unary main_c_68 main_v345 (broadcastInDim S550000 ![] bcast_S_S550000 : (⟨S_, .i32⟩ : BufTy).Contents (Elt F) → (⟨S550000, .i32⟩ : BufTy).Contents (Elt F)),
    StableHlo.binary main_v333 main_v345 main_v346 (cmpi .slt : (⟨S550000, .i32⟩ : BufTy).Contents (Elt F) → (⟨S550000, .i32⟩ : BufTy).Contents (Elt F) → (⟨S550000, .i1⟩ : BufTy).Contents (Elt F)),
    StableHlo.nullary main_c_69 (constantI S_ 32 50000#32),
    StableHlo.unary main_c_69 main_v347 (broadcastInDim S550000 ![] bcast_S_S550000 : (⟨S_, .i32⟩ : BufTy).Contents (Elt F) → (⟨S550000, .i32⟩ : BufTy).Contents (Elt F)) ]

set_option maxHeartbeats 4000000 in
/-- The window is the straight line over its list: both sides unfold to the same chain of steps. -/
theorem main_part6_eq (c : Dev nD) : main_part6 (F := F) c = seq ops6 := by
  chain_rfl

/-- Every operation of the window touches TensorCore references only. -/
theorem ops6_sub : (ops6 : List (HloOp τ sig (Elt F))).Forall fun op => op.bufs ⊆ tcRefs τ sig :=
  ⟨unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., unary_bufs_sub .., unary_bufs_sub .., binary_bufs_sub .., binary_bufs_sub .., unary_bufs_sub ..,
    reshape_bufs_sub .., unary_bufs_sub .., reshape_bufs_sub .., unary_bufs_sub .., reshape_bufs_sub .., binary_bufs_sub ..,
    nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub ..⟩

/-- Every operation of the window determines its results. -/
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

/-! No operation of the window writes an argument of the program: after the window each argument holds what it held. -/

theorem ops6_arg0 (V : Valuation τ sig (Elt F)) : after ops6 V (main_arg0 : DevRef τ sig) = V (main_arg0 : DevRef τ sig) := by
  after_results_simp

theorem ops6_arg1 (V : Valuation τ sig (Elt F)) : after ops6 V (main_arg1 : DevRef τ sig) = V (main_arg1 : DevRef τ sig) := by
  after_results_simp

theorem ops6_arg2 (V : Valuation τ sig (Elt F)) : after ops6 V (main_arg2 : DevRef τ sig) = V (main_arg2 : DevRef τ sig) := by
  after_results_simp

theorem ops6_arg3 (V : Valuation τ sig (Elt F)) : after ops6 V (main_arg3 : DevRef τ sig) = V (main_arg3 : DevRef τ sig) := by
  after_results_simp

theorem ops6_arg4 (V : Valuation τ sig (Elt F)) : after ops6 V (main_arg4 : DevRef τ sig) = V (main_arg4 : DevRef τ sig) := by
  after_results_simp

theorem ops6_arg5 (V : Valuation τ sig (Elt F)) : after ops6 V (main_arg5 : DevRef τ sig) = V (main_arg5 : DevRef τ sig) := by
  after_results_simp

theorem ops6_arg6 (V : Valuation τ sig (Elt F)) : after ops6 V (main_arg6 : DevRef τ sig) = V (main_arg6 : DevRef τ sig) := by
  after_results_simp

theorem ops6_arg7 (V : Valuation τ sig (Elt F)) : after ops6 V (main_arg7 : DevRef τ sig) = V (main_arg7 : DevRef τ sig) := by
  after_results_simp

theorem ops6_arg8 (V : Valuation τ sig (Elt F)) : after ops6 V (main_arg8 : DevRef τ sig) = V (main_arg8 : DevRef τ sig) := by
  after_results_simp

theorem ops6_arg9 (V : Valuation τ sig (Elt F)) : after ops6 V (main_arg9 : DevRef τ sig) = V (main_arg9 : DevRef τ sig) := by
  after_results_simp

theorem ops6_arg10 (V : Valuation τ sig (Elt F)) : after ops6 V (main_arg10 : DevRef τ sig) = V (main_arg10 : DevRef τ sig) := by
  after_results_simp

theorem ops6_arg11 (V : Valuation τ sig (Elt F)) : after ops6 V (main_arg11 : DevRef τ sig) = V (main_arg11 : DevRef τ sig) := by
  after_results_simp

end Cert.ReferenceIdeal.RefRun

end
-- ==== Proof.RefOps7.lean ====
import proofs.«115534_j8151847928363_1_alg».proof.Proof.Gen.ReferenceIdeal
import Idealize.ShloMosaic.Lib.StableHlo.Run
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 7 of the program as a list: its 62 operations in execution order, a call's operations inline
    at the call over the call's own buffers. -/
abbrev ops7 : List (HloOp τ sig (Elt F)) :=
  [ StableHlo.binary main_v333 main_v347 main_v348 (addi : (⟨S550000, .i32⟩ : BufTy).Contents (Elt F) → (⟨S550000, .i32⟩ : BufTy).Contents (Elt F) → (⟨S550000, .i32⟩ : BufTy).Contents (Elt F)),
    StableHlo.ternary main_v346 main_v348 main_v333 main_v349 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v349 main_v350 (broadcastInDim S550000x1 ![0] bcast_S550000_S550000x1_0 : (⟨S550000, .i32⟩ : BufTy).Contents (Elt F) → (⟨S550000x1, .i32⟩ : BufTy).Contents (Elt F)),
    StableHlo.binary main_v344 main_v350 main_v351 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.nullary main_c_70 (constantI S_ 32 0#32),
    StableHlo.unary main_c_70 main_v352 (broadcastInDim S550000 ![] bcast_S_S550000 : (⟨S_, .i32⟩ : BufTy).Contents (Elt F) → (⟨S550000, .i32⟩ : BufTy).Contents (Elt F)),
    StableHlo.binary main_v336 main_v352 main_v353 (cmpi .slt : (⟨S550000, .i32⟩ : BufTy).Contents (Elt F) → (⟨S550000, .i32⟩ : BufTy).Contents (Elt F) → (⟨S550000, .i1⟩ : BufTy).Contents (Elt F)),
    StableHlo.nullary main_c_71 (constantI S_ 32 50000#32),
    StableHlo.unary main_c_71 main_v354 (broadcastInDim S550000 ![] bcast_S_S550000 : (⟨S_, .i32⟩ : BufTy).Contents (Elt F) → (⟨S550000, .i32⟩ : BufTy).Contents (Elt F)),
    StableHlo.binary main_v336 main_v354 main_v355 (addi : (⟨S550000, .i32⟩ : BufTy).Contents (Elt F) → (⟨S550000, .i32⟩ : BufTy).Contents (Elt F) → (⟨S550000, .i32⟩ : BufTy).Contents (Elt F)),
    StableHlo.ternary main_v353 main_v355 main_v336 main_v356 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v356 main_v357 (broadcastInDim S550000x1 ![0] bcast_S550000_S550000x1_0 : (⟨S550000, .i32⟩ : BufTy).Contents (Elt F) → (⟨S550000x1, .i32⟩ : BufTy).Contents (Elt F)),
    StableHlo.binary main_v344 main_v357 main_v358 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.binary main_v351 main_v358 main_v359 (mulf : (⟨S550000, .f32⟩ : BufTy).Contents (Elt F) → (⟨S550000, .f32⟩ : BufTy).Contents (Elt F) → (⟨S550000, .f32⟩ : BufTy).Contents (Elt F)),
    StableHlo.nullary main_c_72 (constantI S_ 32 0#32),
    StableHlo.unary main_c_72 main_v360 (broadcastInDim S550000 ![] bcast_S_S550000 : (⟨S_, .i32⟩ : BufTy).Contents (Elt F) → (⟨S550000, .i32⟩ : BufTy).Contents (Elt F)),
    StableHlo.binary main_v333 main_v360 main_v361 (cmpi .slt : (⟨S550000, .i32⟩ : BufTy).Contents (Elt F) → (⟨S550000, .i32⟩ : BufTy).Contents (Elt F) → (⟨S550000, .i1⟩ : BufTy).Contents (Elt F)),
    StableHlo.nullary main_c_73 (constantI S_ 32 50000#32),
    StableHlo.unary main_c_73 main_v362 (broadcastInDim S550000 ![] bcast_S_S550000 : (⟨S_, .i32⟩ : BufTy).Contents (Elt F) → (⟨S550000, .i32⟩ : BufTy).Contents (Elt F)),
    StableHlo.binary main_v333 main_v362 main_v363 (addi : (⟨S550000, .i32⟩ : BufTy).Contents (Elt F) → (⟨S550000, .i32⟩ : BufTy).Contents (Elt F) → (⟨S550000, .i32⟩ : BufTy).Contents (Elt F)),
    StableHlo.ternary main_v361 main_v363 main_v333 main_v364 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v364 main_v365 (broadcastInDim S550000x1 ![0] bcast_S550000_S550000x1_0 : (⟨S550000, .i32⟩ : BufTy).Contents (Elt F) → (⟨S550000x1, .i32⟩ : BufTy).Contents (Elt F)),
    StableHlo.binary main_v329 main_v365 main_v366 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    StableHlo.unary main_v359 main_v367 (broadcastInDim S550000x1 ![0] bcast_S550000_S550000x1_0 : (⟨S550000, .f32⟩ : BufTy).Contents (Elt F) → (⟨S550000x1, .f32⟩ : BufTy).Contents (Elt F)),
    StableHlo.unary main_v367 main_v368 (broadcastInDim S550000x128 ![0, 1] bcast_S550000x1_S550000x128_0_1 : (⟨S550000x1, .f32⟩ : BufTy).Contents (Elt F) → (⟨S550000x128, .f32⟩ : BufTy).Contents (Elt F)),
    StableHlo.binary main_v366 main_v368 main_v369 (mulf : (⟨S550000x128, .f32⟩ : BufTy).Contents (Elt F) → (⟨S550000x128, .f32⟩ : BufTy).Contents (Elt F) → (⟨S550000x128, .f32⟩ : BufTy).Contents (Elt F)),
    StableHlo.nullary main_cst_74 (constant S_ .f32 0x00000000#32),
    StableHlo.unary main_cst_74 main_v370 (broadcastInDim S50000x128 ![] bcast_S_S50000x128 : (⟨S_, .f32⟩ : BufTy).Contents (Elt F) → (⟨S50000x128, .f32⟩ : BufTy).Contents (Elt F)),
    StableHlo.unary main_v336 main_v371 (broadcastInDim S550000x1 ![0] bcast_S550000_S550000x1_0 : (⟨S550000, .i32⟩ : BufTy).Contents (Elt F) → (⟨S550000x1, .i32⟩ : BufTy).Contents (Elt F)),
    StableHlo.ternary main_v370 main_v371 main_v369 main_v372 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)),
    StableHlo.unary main_v328 main_v373 (broadcastInDim S1x128 ![1] bcast_S128_S1x128_1 : (⟨S128, .f32⟩ : BufTy).Contents (Elt F) → (⟨S1x128, .f32⟩ : BufTy).Contents (Elt F)),
    StableHlo.unary main_v373 main_v374 (broadcastInDim S50000x128 ![0, 1] bcast_S1x128_S50000x128_0_1 : (⟨S1x128, .f32⟩ : BufTy).Contents (Elt F) → (⟨S50000x128, .f32⟩ : BufTy).Contents (Elt F)),
    StableHlo.binary main_v372 main_v374 main_v375 (addf : (⟨S50000x128, .f32⟩ : BufTy).Contents (Elt F) → (⟨S50000x128, .f32⟩ : BufTy).Contents (Elt F) → (⟨S50000x128, .f32⟩ : BufTy).Contents (Elt F)),
    StableHlo.binary main_v322 main_v375 main_v376 (addf : (⟨S50000x128, .f32⟩ : BufTy).Contents (Elt F) → (⟨S50000x128, .f32⟩ : BufTy).Contents (Elt F) → (⟨S50000x128, .f32⟩ : BufTy).Contents (Elt F)),
    StableHlo.unary main_arg1 main_v377 ((extractStridedSlice S1x2x500000 ![3, 0, 0] · slices_S4x2x500000_S1x2x500000_3_0_0) : (⟨S4x2x500000, .i32⟩ : BufTy).Contents (Elt F) → (⟨S1x2x500000, .i32⟩ : BufTy).Contents (Elt F)),
    StableHlo.reshape main_v377 main_v378 rfl shapeCasts_S1x2x500000_S2x500000,
    StableHlo.unary main_arg4 main_v379 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v379 main_v380 rfl shapeCasts_S1x128x128_S128x128,
    StableHlo.unary main_arg5 main_v381 ((extractStridedSlice S1x128 ![3, 0] · slices_S4x128_S1x128_3_0) : (⟨S4x128, .f32⟩ : BufTy).Contents (Elt F) → (⟨S1x128, .f32⟩ : BufTy).Contents (Elt F)),
    StableHlo.reshape main_v381 main_v382 rfl shapeCasts_S1x128_S128,
    StableHlo.binary main_v215 main_v380 main_v383 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_v384 (iotaInDim S50000 32 0),
    StableHlo.unary main_v378 main_v385 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v385 main_v386 rfl shapeCasts_S1x500000_S500000,
    StableHlo.binary main_v386 main_v384 main_v387 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.unary main_v378 main_v388 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v388 main_v389 rfl shapeCasts_S1x500000_S500000,
    StableHlo.binary main_v389 main_v384 main_v390 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.nullary main_cst_75 (constant S_ .f32 0x3F800000#32),
    StableHlo.unary main_cst_75 main_v391 (broadcastInDim S550000 ![] bcast_S_S550000 : (⟨S_, .f32⟩ : BufTy).Contents (Elt F) → (⟨S550000, .f32⟩ : BufTy).Contents (Elt F)),
    StableHlo.nullary main_cst_76 (constant S_ .f32 0x00000000#32),
    StableHlo.unary main_cst_76 main_v392 (broadcastInDim S50000 ![] bcast_S_S50000 : (⟨S_, .f32⟩ : BufTy).Contents (Elt F) → (⟨S50000, .f32⟩ : BufTy).Contents (Elt F)),
    StableHlo.unary main_v390 main_v393 (broadcastInDim S550000x1 ![0] bcast_S550000_S550000x1_0 : (⟨S550000, .i32⟩ : BufTy).Contents (Elt F) → (⟨S550000x1, .i32⟩ : BufTy).Contents (Elt F)),
    StableHlo.ternary main_v392 main_v393 main_v391 main_v394 ((fun x i u => Host.scatterAdd scatter_S50000_S550000x1_S550000_n_0_0_1 x i u) : (⟨S50000, .f32⟩ : BufTy).Contents (Elt F) → (⟨S550000x1, .i32⟩ : BufTy).Contents (Elt F) → (⟨S550000, .f32⟩ : BufTy).Contents (Elt F) → (⟨S50000, .f32⟩ : BufTy).Contents (Elt F)),
    StableHlo.nullary main_cst_77 (constant S_ .f32 0x00000000#32),
    StableHlo.unary main_cst_77 main_v395 (broadcastInDim S50000 ![] bcast_S_S50000 : (⟨S_, .f32⟩ : BufTy).Contents (Elt F) → (⟨S50000, .f32⟩ : BufTy).Contents (Elt F)),
    StableHlo.binary main_v394 main_v395 main_v396 (cmpf .ogt : (⟨S50000, .f32⟩ : BufTy).Contents (Elt F) → (⟨S50000, .f32⟩ : BufTy).Contents (Elt F) → (⟨S50000, .i1⟩ : BufTy).Contents (Elt F)),
    StableHlo.unary main_v394 main_v397 (Host.rsqrt : (⟨S50000, .f32⟩ : BufTy).Contents (Elt F) → (⟨S50000, .f32⟩ : BufTy).Contents (Elt F)),
    StableHlo.nullary main_cst_78 (constant S_ .f32 0x00000000#32),
    StableHlo.TRef.unary (TRef.of main_cst_78 : TRef sig ⟨S_, .f32⟩) main_call8.v0 id,
    StableHlo.TRef.unary main_call8.v0 main_call8.v1 (broadcastInDim S50000 ![] bcast_S_S50000),
    StableHlo.TRef.ternary (TRef.of main_v396 : TRef sig ⟨S50000, .i1⟩) (TRef.of main_v397 : TRef sig ⟨S50000, .f32⟩) main_call8.v1 main_call8.v2 select ]

set_option maxHeartbeats 4000000 in
/-- The window is the straight line over its list: both sides unfold to the same chain of steps. -/
theorem main_part7_eq (c : Dev nD) : main_part7 (F := F) c = seq ops7 := by
  chain_rfl

/-- Every operation of the window touches TensorCore references only. -/
theorem ops7_sub : (ops7 : List (HloOp τ sig (Elt F))).Forall fun op => op.bufs ⊆ tcRefs τ sig :=
  ⟨binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub .., binary_bufs_sub .., unary_bufs_sub .., reshape_bufs_sub ..,
    unary_bufs_sub .., reshape_bufs_sub .., unary_bufs_sub .., reshape_bufs_sub .., binary_bufs_sub .., nullary_bufs_sub ..,
    unary_bufs_sub .., reshape_bufs_sub .., binary_bufs_sub .., unary_bufs_sub .., reshape_bufs_sub .., binary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., nullary_bufs_sub .., unary_bufs_sub ..,
    unary_bufs_sub .., ternary_bufs_sub ..⟩

/-- Every operation of the window determines its results. -/
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

/-! No operation of the window writes an argument of the program: after the window each argument holds what it held. -/

theorem ops7_arg0 (V : Valuation τ sig (Elt F)) : after ops7 V (main_arg0 : DevRef τ sig) = V (main_arg0 : DevRef τ sig) := by
  after_results_simp

theorem ops7_arg1 (V : Valuation τ sig (Elt F)) : after ops7 V (main_arg1 : DevRef τ sig) = V (main_arg1 : DevRef τ sig) := by
  after_results_simp

theorem ops7_arg2 (V : Valuation τ sig (Elt F)) : after ops7 V (main_arg2 : DevRef τ sig) = V (main_arg2 : DevRef τ sig) := by
  after_results_simp

theorem ops7_arg3 (V : Valuation τ sig (Elt F)) : after ops7 V (main_arg3 : DevRef τ sig) = V (main_arg3 : DevRef τ sig) := by
  after_results_simp

theorem ops7_arg4 (V : Valuation τ sig (Elt F)) : after ops7 V (main_arg4 : DevRef τ sig) = V (main_arg4 : DevRef τ sig) := by
  after_results_simp

theorem ops7_arg5 (V : Valuation τ sig (Elt F)) : after ops7 V (main_arg5 : DevRef τ sig) = V (main_arg5 : DevRef τ sig) := by
  after_results_simp

theorem ops7_arg6 (V : Valuation τ sig (Elt F)) : after ops7 V (main_arg6 : DevRef τ sig) = V (main_arg6 : DevRef τ sig) := by
  after_results_simp

theorem ops7_arg7 (V : Valuation τ sig (Elt F)) : after ops7 V (main_arg7 : DevRef τ sig) = V (main_arg7 : DevRef τ sig) := by
  after_results_simp

theorem ops7_arg8 (V : Valuation τ sig (Elt F)) : after ops7 V (main_arg8 : DevRef τ sig) = V (main_arg8 : DevRef τ sig) := by
  after_results_simp

theorem ops7_arg9 (V : Valuation τ sig (Elt F)) : after ops7 V (main_arg9 : DevRef τ sig) = V (main_arg9 : DevRef τ sig) := by
  after_results_simp

theorem ops7_arg10 (V : Valuation τ sig (Elt F)) : after ops7 V (main_arg10 : DevRef τ sig) = V (main_arg10 : DevRef τ sig) := by
  after_results_simp

theorem ops7_arg11 (V : Valuation τ sig (Elt F)) : after ops7 V (main_arg11 : DevRef τ sig) = V (main_arg11 : DevRef τ sig) := by
  after_results_simp

end Cert.ReferenceIdeal.RefRun

end
-- ==== Proof.RefOps8.lean ====
import proofs.«115534_j8151847928363_1_alg».proof.Proof.Gen.ReferenceIdeal
import Idealize.ShloMosaic.Lib.StableHlo.Run
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 8 of the program as a list: its 83 operations in execution order, a call's operations inline
    at the call over the call's own buffers. -/
abbrev ops8 : List (HloOp τ sig (Elt F)) :=
  [ StableHlo.nullary main_c_79 (constantI S_ 32 0#32),
    StableHlo.unary main_c_79 main_v399 (broadcastInDim S550000 ![] bcast_S_S550000 : (⟨S_, .i32⟩ : BufTy).Contents (Elt F) → (⟨S550000, .i32⟩ : BufTy).Contents (Elt F)),
    StableHlo.binary main_v387 main_v399 main_v400 (cmpi .slt : (⟨S550000, .i32⟩ : BufTy).Contents (Elt F) → (⟨S550000, .i32⟩ : BufTy).Contents (Elt F) → (⟨S550000, .i1⟩ : BufTy).Contents (Elt F)),
    StableHlo.nullary main_c_80 (constantI S_ 32 50000#32),
    StableHlo.unary main_c_80 main_v401 (broadcastInDim S550000 ![] bcast_S_S550000 : (⟨S_, .i32⟩ : BufTy).Contents (Elt F) → (⟨S550000, .i32⟩ : BufTy).Contents (Elt F)),
    StableHlo.binary main_v387 main_v401 main_v402 (addi : (⟨S550000, .i32⟩ : BufTy).Contents (Elt F) → (⟨S550000, .i32⟩ : BufTy).Contents (Elt F) → (⟨S550000, .i32⟩ : BufTy).Contents (Elt F)),
    StableHlo.ternary main_v400 main_v402 main_v387 main_v403 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v403 main_v404 (broadcastInDim S550000x1 ![0] bcast_S550000_S550000x1_0 : (⟨S550000, .i32⟩ : BufTy).Contents (Elt F) → (⟨S550000x1, .i32⟩ : BufTy).Contents (Elt F)),
    StableHlo.binary main_v398 main_v404 main_v405 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.nullary main_c_81 (constantI S_ 32 0#32),
    StableHlo.unary main_c_81 main_v406 (broadcastInDim S550000 ![] bcast_S_S550000 : (⟨S_, .i32⟩ : BufTy).Contents (Elt F) → (⟨S550000, .i32⟩ : BufTy).Contents (Elt F)),
    StableHlo.binary main_v390 main_v406 main_v407 (cmpi .slt : (⟨S550000, .i32⟩ : BufTy).Contents (Elt F) → (⟨S550000, .i32⟩ : BufTy).Contents (Elt F) → (⟨S550000, .i1⟩ : BufTy).Contents (Elt F)),
    StableHlo.nullary main_c_82 (constantI S_ 32 50000#32),
    StableHlo.unary main_c_82 main_v408 (broadcastInDim S550000 ![] bcast_S_S550000 : (⟨S_, .i32⟩ : BufTy).Contents (Elt F) → (⟨S550000, .i32⟩ : BufTy).Contents (Elt F)),
    StableHlo.binary main_v390 main_v408 main_v409 (addi : (⟨S550000, .i32⟩ : BufTy).Contents (Elt F) → (⟨S550000, .i32⟩ : BufTy).Contents (Elt F) → (⟨S550000, .i32⟩ : BufTy).Contents (Elt F)),
    StableHlo.ternary main_v407 main_v409 main_v390 main_v410 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v410 main_v411 (broadcastInDim S550000x1 ![0] bcast_S550000_S550000x1_0 : (⟨S550000, .i32⟩ : BufTy).Contents (Elt F) → (⟨S550000x1, .i32⟩ : BufTy).Contents (Elt F)),
    StableHlo.binary main_v398 main_v411 main_v412 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.binary main_v405 main_v412 main_v413 (mulf : (⟨S550000, .f32⟩ : BufTy).Contents (Elt F) → (⟨S550000, .f32⟩ : BufTy).Contents (Elt F) → (⟨S550000, .f32⟩ : BufTy).Contents (Elt F)),
    StableHlo.nullary main_c_83 (constantI S_ 32 0#32),
    StableHlo.unary main_c_83 main_v414 (broadcastInDim S550000 ![] bcast_S_S550000 : (⟨S_, .i32⟩ : BufTy).Contents (Elt F) → (⟨S550000, .i32⟩ : BufTy).Contents (Elt F)),
    StableHlo.binary main_v387 main_v414 main_v415 (cmpi .slt : (⟨S550000, .i32⟩ : BufTy).Contents (Elt F) → (⟨S550000, .i32⟩ : BufTy).Contents (Elt F) → (⟨S550000, .i1⟩ : BufTy).Contents (Elt F)),
    StableHlo.nullary main_c_84 (constantI S_ 32 50000#32),
    StableHlo.unary main_c_84 main_v416 (broadcastInDim S550000 ![] bcast_S_S550000 : (⟨S_, .i32⟩ : BufTy).Contents (Elt F) → (⟨S550000, .i32⟩ : BufTy).Contents (Elt F)),
    StableHlo.binary main_v387 main_v416 main_v417 (addi : (⟨S550000, .i32⟩ : BufTy).Contents (Elt F) → (⟨S550000, .i32⟩ : BufTy).Contents (Elt F) → (⟨S550000, .i32⟩ : BufTy).Contents (Elt F)),
    StableHlo.ternary main_v415 main_v417 main_v387 main_v418 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v418 main_v419 (broadcastInDim S550000x1 ![0] bcast_S550000_S550000x1_0 : (⟨S550000, .i32⟩ : BufTy).Contents (Elt F) → (⟨S550000x1, .i32⟩ : BufTy).Contents (Elt F)),
    StableHlo.binary main_v383 main_v419 main_v420 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    StableHlo.unary main_v413 main_v421 (broadcastInDim S550000x1 ![0] bcast_S550000_S550000x1_0 : (⟨S550000, .f32⟩ : BufTy).Contents (Elt F) → (⟨S550000x1, .f32⟩ : BufTy).Contents (Elt F)),
    StableHlo.unary main_v421 main_v422 (broadcastInDim S550000x128 ![0, 1] bcast_S550000x1_S550000x128_0_1 : (⟨S550000x1, .f32⟩ : BufTy).Contents (Elt F) → (⟨S550000x128, .f32⟩ : BufTy).Contents (Elt F)),
    StableHlo.binary main_v420 main_v422 main_v423 (mulf : (⟨S550000x128, .f32⟩ : BufTy).Contents (Elt F) → (⟨S550000x128, .f32⟩ : BufTy).Contents (Elt F) → (⟨S550000x128, .f32⟩ : BufTy).Contents (Elt F)),
    StableHlo.nullary main_cst_85 (constant S_ .f32 0x00000000#32),
    StableHlo.unary main_cst_85 main_v424 (broadcastInDim S50000x128 ![] bcast_S_S50000x128 : (⟨S_, .f32⟩ : BufTy).Contents (Elt F) → (⟨S50000x128, .f32⟩ : BufTy).Contents (Elt F)),
    StableHlo.unary main_v390 main_v425 (broadcastInDim S550000x1 ![0] bcast_S550000_S550000x1_0 : (⟨S550000, .i32⟩ : BufTy).Contents (Elt F) → (⟨S550000x1, .i32⟩ : BufTy).Contents (Elt F)),
    StableHlo.ternary main_v424 main_v425 main_v423 main_v426 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)),
    StableHlo.unary main_v382 main_v427 (broadcastInDim S1x128 ![1] bcast_S128_S1x128_1 : (⟨S128, .f32⟩ : BufTy).Contents (Elt F) → (⟨S1x128, .f32⟩ : BufTy).Contents (Elt F)),
    StableHlo.unary main_v427 main_v428 (broadcastInDim S50000x128 ![0, 1] bcast_S1x128_S50000x128_0_1 : (⟨S1x128, .f32⟩ : BufTy).Contents (Elt F) → (⟨S50000x128, .f32⟩ : BufTy).Contents (Elt F)),
    StableHlo.binary main_v426 main_v428 main_v429 (addf : (⟨S50000x128, .f32⟩ : BufTy).Contents (Elt F) → (⟨S50000x128, .f32⟩ : BufTy).Contents (Elt F) → (⟨S50000x128, .f32⟩ : BufTy).Contents (Elt F)),
    StableHlo.binary main_v376 main_v429 main_v430 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (TRef.of main_v430 : TRef sig ⟨S50000x128, .f32⟩) main_call9.v0 main_call9.v1 maximumf,
    StableHlo.nullary main_cst_86 (constant S_ .f32 0x00000000#32),
    StableHlo.binary main_v431 main_cst_86 main_v432 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_87 (constant S_ .f32 0x47435000#32),
    StableHlo.unary main_cst_87 main_v433 (broadcastInDim S128 ![] bcast_S_S128 : (⟨S_, .f32⟩ : BufTy).Contents (Elt F) → (⟨S128, .f32⟩ : BufTy).Contents (Elt F)),
    StableHlo.binary main_v432 main_v433 main_v434 (Host.divf : (⟨S128, .f32⟩ : BufTy).Contents (Elt F) → (⟨S128, .f32⟩ : BufTy).Contents (Elt F) → (⟨S128, .f32⟩ : BufTy).Contents (Elt F)),
    StableHlo.nullary main_c_88 (constantI S_ 32 0#32),
    StableHlo.TRef.nullary main_call10.cst (constant S_ .f32 0x00000000#32),
    StableHlo.TRef.binary (TRef.of main_v431 : TRef sig ⟨S50000x128, .f32⟩) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (TRef.of main_v431 : TRef sig ⟨S50000x128, .f32⟩) main_call10.v4 main_call10.v5 subf,
    StableHlo.TRef.binary main_call10.v5 main_call10.v5 main_call10.v6 mulf,
    StableHlo.TRef.unary (TRef.of main_c_88 : TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v434 main_v436 (broadcastInDim S1x128 ![1] bcast_S128_S1x128_1 : (⟨S128, .f32⟩ : BufTy).Contents (Elt F) → (⟨S1x128, .f32⟩ : BufTy).Contents (Elt F)),
    StableHlo.unary main_v436 main_v437 (broadcastInDim S50000x128 ![0, 1] bcast_S1x128_S50000x128_0_1 : (⟨S1x128, .f32⟩ : BufTy).Contents (Elt F) → (⟨S50000x128, .f32⟩ : BufTy).Contents (Elt F)),
    StableHlo.binary main_v431 main_v437 main_v438 (subf : (⟨S50000x128, .f32⟩ : BufTy).Contents (Elt F) → (⟨S50000x128, .f32⟩ : BufTy).Contents (Elt F) → (⟨S50000x128, .f32⟩ : BufTy).Contents (Elt F)),
    StableHlo.nullary main_cst_89 (constant S_ .f32 0x3727C5AC#32),
    StableHlo.unary main_cst_89 main_v439 (broadcastInDim S128 ![] bcast_S_S128 : (⟨S_, .f32⟩ : BufTy).Contents (Elt F) → (⟨S128, .f32⟩ : BufTy).Contents (Elt F)),
    StableHlo.binary main_v435 main_v439 main_v440 (addf : (⟨S128, .f32⟩ : BufTy).Contents (Elt F) → (⟨S128, .f32⟩ : BufTy).Contents (Elt F) → (⟨S128, .f32⟩ : BufTy).Contents (Elt F)),
    StableHlo.unary main_v440 main_v441 (Host.rsqrt : (⟨S128, .f32⟩ : BufTy).Contents (Elt F) → (⟨S128, .f32⟩ : BufTy).Contents (Elt F)),
    StableHlo.unary main_v441 main_v442 (broadcastInDim S1x128 ![1] bcast_S128_S1x128_1 : (⟨S128, .f32⟩ : BufTy).Contents (Elt F) → (⟨S1x128, .f32⟩ : BufTy).Contents (Elt F)),
    StableHlo.unary main_v442 main_v443 (broadcastInDim S50000x128 ![0, 1] bcast_S1x128_S50000x128_0_1 : (⟨S1x128, .f32⟩ : BufTy).Contents (Elt F) → (⟨S50000x128, .f32⟩ : BufTy).Contents (Elt F)),
    StableHlo.binary main_v438 main_v443 main_v444 (mulf : (⟨S50000x128, .f32⟩ : BufTy).Contents (Elt F) → (⟨S50000x128, .f32⟩ : BufTy).Contents (Elt F) → (⟨S50000x128, .f32⟩ : BufTy).Contents (Elt F)),
    StableHlo.unary main_arg6 main_v445 (broadcastInDim S1x128 ![1] bcast_S128_S1x128_1 : (⟨S128, .f32⟩ : BufTy).Contents (Elt F) → (⟨S1x128, .f32⟩ : BufTy).Contents (Elt F)),
    StableHlo.unary main_v445 main_v446 (broadcastInDim S50000x128 ![0, 1] bcast_S1x128_S50000x128_0_1 : (⟨S1x128, .f32⟩ : BufTy).Contents (Elt F) → (⟨S50000x128, .f32⟩ : BufTy).Contents (Elt F)),
    StableHlo.binary main_v444 main_v446 main_v447 (mulf : (⟨S50000x128, .f32⟩ : BufTy).Contents (Elt F) → (⟨S50000x128, .f32⟩ : BufTy).Contents (Elt F) → (⟨S50000x128, .f32⟩ : BufTy).Contents (Elt F)) ]

set_option maxHeartbeats 4000000 in
/-- The window is the straight line over its list: both sides unfold to the same chain of steps. -/
theorem main_part8_eq (c : Dev nD) : main_part8 (F := F) c = seq ops8 := by
  chain_rfl

/-- Every operation of the window touches TensorCore references only. -/
theorem ops8_sub : (ops8 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., binary_bufs_sub .., nullary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub ..⟩

/-- Every operation of the window determines its results. -/
theorem ops8_fresh : (ops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

/-! No operation of the window writes an argument of the program: after the window each argument holds what it held. -/

theorem ops8_arg0 (V : Valuation τ sig (Elt F)) : after ops8 V (main_arg0 : DevRef τ sig) = V (main_arg0 : DevRef τ sig) := by
  after_results_simp

theorem ops8_arg1 (V : Valuation τ sig (Elt F)) : after ops8 V (main_arg1 : DevRef τ sig) = V (main_arg1 : DevRef τ sig) := by
  after_results_simp

theorem ops8_arg2 (V : Valuation τ sig (Elt F)) : after ops8 V (main_arg2 : DevRef τ sig) = V (main_arg2 : DevRef τ sig) := by
  after_results_simp

theorem ops8_arg3 (V : Valuation τ sig (Elt F)) : after ops8 V (main_arg3 : DevRef τ sig) = V (main_arg3 : DevRef τ sig) := by
  after_results_simp

theorem ops8_arg4 (V : Valuation τ sig (Elt F)) : after ops8 V (main_arg4 : DevRef τ sig) = V (main_arg4 : DevRef τ sig) := by
  after_results_simp

theorem ops8_arg5 (V : Valuation τ sig (Elt F)) : after ops8 V (main_arg5 : DevRef τ sig) = V (main_arg5 : DevRef τ sig) := by
  after_results_simp

theorem ops8_arg6 (V : Valuation τ sig (Elt F)) : after ops8 V (main_arg6 : DevRef τ sig) = V (main_arg6 : DevRef τ sig) := by
  after_results_simp

theorem ops8_arg7 (V : Valuation τ sig (Elt F)) : after ops8 V (main_arg7 : DevRef τ sig) = V (main_arg7 : DevRef τ sig) := by
  after_results_simp

theorem ops8_arg8 (V : Valuation τ sig (Elt F)) : after ops8 V (main_arg8 : DevRef τ sig) = V (main_arg8 : DevRef τ sig) := by
  after_results_simp

theorem ops8_arg9 (V : Valuation τ sig (Elt F)) : after ops8 V (main_arg9 : DevRef τ sig) = V (main_arg9 : DevRef τ sig) := by
  after_results_simp

theorem ops8_arg10 (V : Valuation τ sig (Elt F)) : after ops8 V (main_arg10 : DevRef τ sig) = V (main_arg10 : DevRef τ sig) := by
  after_results_simp

theorem ops8_arg11 (V : Valuation τ sig (Elt F)) : after ops8 V (main_arg11 : DevRef τ sig) = V (main_arg11 : DevRef τ sig) := by
  after_results_simp

end Cert.ReferenceIdeal.RefRun

end
-- ==== Proof.RefOps9.lean ====
import proofs.«115534_j8151847928363_1_alg».proof.Proof.Gen.ReferenceIdeal
import Idealize.ShloMosaic.Lib.StableHlo.Run
import Idealize.ShloMosaic.Lib.Pipeline.Regions

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 9 of the program as a list: its 14 operations in execution order, a call's operations inline
    at the call over the call's own buffers. -/
abbrev ops9 : List (HloOp τ sig (Elt F)) :=
  [ StableHlo.unary main_arg7 main_v448 (broadcastInDim S1x128 ![1] bcast_S128_S1x128_1 : (⟨S128, .f32⟩ : BufTy).Contents (Elt F) → (⟨S1x128, .f32⟩ : BufTy).Contents (Elt F)),
    StableHlo.unary main_v448 main_v449 (broadcastInDim S50000x128 ![0, 1] bcast_S1x128_S50000x128_0_1 : (⟨S1x128, .f32⟩ : BufTy).Contents (Elt F) → (⟨S50000x128, .f32⟩ : BufTy).Contents (Elt F)),
    StableHlo.binary main_v447 main_v449 main_v450 (addf : (⟨S50000x128, .f32⟩ : BufTy).Contents (Elt F) → (⟨S50000x128, .f32⟩ : BufTy).Contents (Elt F) → (⟨S50000x128, .f32⟩ : BufTy).Contents (Elt F)),
    StableHlo.binary main_v450 main_arg8 main_v451 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v452 (broadcastInDim S1x128 ![1] bcast_S128_S1x128_1 : (⟨S128, .f32⟩ : BufTy).Contents (Elt F) → (⟨S1x128, .f32⟩ : BufTy).Contents (Elt F)),
    StableHlo.unary main_v452 main_v453 (broadcastInDim S50000x128 ![0, 1] bcast_S1x128_S50000x128_0_1 : (⟨S1x128, .f32⟩ : BufTy).Contents (Elt F) → (⟨S50000x128, .f32⟩ : BufTy).Contents (Elt F)),
    StableHlo.binary main_v451 main_v453 main_v454 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (TRef.of main_v454 : TRef sig ⟨S50000x128, .f32⟩) main_call11.v0 main_call11.v1 maximumf,
    StableHlo.binary main_v455 main_arg10 main_v456 ((fun l r => Host.dotGeneral dot_S50000x128_S128x2_S50000x2_1_0_0_1_n_n none l r) : (⟨S50000x128, .f32⟩ : BufTy).Contents (Elt F) → (⟨S128x2, .f32⟩ : BufTy).Contents (Elt F) → (⟨S50000x2, .f32⟩ : BufTy).Contents (Elt F)),
    StableHlo.unary main_arg11 main_v457 (broadcastInDim S1x2 ![1] bcast_S2_S1x2_1 : (⟨S2, .f32⟩ : BufTy).Contents (Elt F) → (⟨S1x2, .f32⟩ : BufTy).Contents (Elt F)),
    StableHlo.unary main_v457 main_v458 (broadcastInDim S50000x2 ![0, 1] bcast_S1x2_S50000x2_0_1 : (⟨S1x2, .f32⟩ : BufTy).Contents (Elt F) → (⟨S50000x2, .f32⟩ : BufTy).Contents (Elt F)),
    StableHlo.binary main_v456 main_v458 main_v459 (addf : (⟨S50000x2, .f32⟩ : BufTy).Contents (Elt F) → (⟨S50000x2, .f32⟩ : BufTy).Contents (Elt F) → (⟨S50000x2, .f32⟩ : BufTy).Contents (Elt F)) ]

set_option maxHeartbeats 4000000 in
/-- The window is the straight line over its list: both sides unfold to the same chain of steps. -/
theorem main_part9_eq (c : Dev nD) : main_part9 (F := F) c = seq ops9 := by
  chain_rfl

/-- Every operation of the window touches TensorCore references only. -/
theorem ops9_sub : (ops9 : List (HloOp τ sig (Elt F))).Forall fun op => op.bufs ⊆ tcRefs τ sig :=
  ⟨unary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub ..⟩

/-- Every operation of the window determines its results. -/
theorem ops9_fresh : (ops9 : List (HloOp τ sig (Elt F))).Forall fun op => op.fresh = ∅ :=
  ⟨rfl, rfl, rfl, rfl, rfl, rfl, rfl, rfl, rfl, rfl, rfl, rfl, rfl, rfl⟩

/-! No operation of the window writes an argument of the program: after the window each argument holds what it held. -/

theorem ops9_arg0 (V : Valuation τ sig (Elt F)) : after ops9 V (main_arg0 : DevRef τ sig) = V (main_arg0 : DevRef τ sig) := by
  after_results_simp

theorem ops9_arg1 (V : Valuation τ sig (Elt F)) : after ops9 V (main_arg1 : DevRef τ sig) = V (main_arg1 : DevRef τ sig) := by
  after_results_simp

theorem ops9_arg2 (V : Valuation τ sig (Elt F)) : after ops9 V (main_arg2 : DevRef τ sig) = V (main_arg2 : DevRef τ sig) := by
  after_results_simp

theorem ops9_arg3 (V : Valuation τ sig (Elt F)) : after ops9 V (main_arg3 : DevRef τ sig) = V (main_arg3 : DevRef τ sig) := by
  after_results_simp

theorem ops9_arg4 (V : Valuation τ sig (Elt F)) : after ops9 V (main_arg4 : DevRef τ sig) = V (main_arg4 : DevRef τ sig) := by
  after_results_simp

theorem ops9_arg5 (V : Valuation τ sig (Elt F)) : after ops9 V (main_arg5 : DevRef τ sig) = V (main_arg5 : DevRef τ sig) := by
  after_results_simp

theorem ops9_arg6 (V : Valuation τ sig (Elt F)) : after ops9 V (main_arg6 : DevRef τ sig) = V (main_arg6 : DevRef τ sig) := by
  after_results_simp

theorem ops9_arg7 (V : Valuation τ sig (Elt F)) : after ops9 V (main_arg7 : DevRef τ sig) = V (main_arg7 : DevRef τ sig) := by
  after_results_simp

theorem ops9_arg8 (V : Valuation τ sig (Elt F)) : after ops9 V (main_arg8 : DevRef τ sig) = V (main_arg8 : DevRef τ sig) := by
  after_results_simp

theorem ops9_arg9 (V : Valuation τ sig (Elt F)) : after ops9 V (main_arg9 : DevRef τ sig) = V (main_arg9 : DevRef τ sig) := by
  after_results_simp

theorem ops9_arg10 (V : Valuation τ sig (Elt F)) : after ops9 V (main_arg10 : DevRef τ sig) = V (main_arg10 : DevRef τ sig) := by
  after_results_simp

theorem ops9_arg11 (V : Valuation τ sig (Elt F)) : after ops9 V (main_arg11 : DevRef τ sig) = V (main_arg11 : DevRef τ sig) := by
  after_results_simp

end Cert.ReferenceIdeal.RefRun

end
-- ==== Proof.RefRun.lean ====
/- The reference program's run. @main runs its ten windows in order and each window is the straight line over its list of
   operations, so @main is the straight line over the concatenation `ops`; every weakly fair execution then terminates with
   each buffer holding the fold `after ops` of the operations over the launch contents. No operation writes an argument
   of the program, so the arguments end as they began. -/
import proofs.«115534_j8151847928363_1_alg».proof.Defs
import proofs.«115534_j8151847928363_1_alg».proof.Proof.RefOps0
import proofs.«115534_j8151847928363_1_alg».proof.Proof.RefOps1
import proofs.«115534_j8151847928363_1_alg».proof.Proof.RefOps2
import proofs.«115534_j8151847928363_1_alg».proof.Proof.RefOps3
import proofs.«115534_j8151847928363_1_alg».proof.Proof.RefOps4
import proofs.«115534_j8151847928363_1_alg».proof.Proof.RefOps5
import proofs.«115534_j8151847928363_1_alg».proof.Proof.RefOps6
import proofs.«115534_j8151847928363_1_alg».proof.Proof.RefOps7
import proofs.«115534_j8151847928363_1_alg».proof.Proof.RefOps8
import proofs.«115534_j8151847928363_1_alg».proof.Proof.RefOps9

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Every operation of @main in execution order, a call's operations inline: the ten windows' lists, concatenated. -/
abbrev ops : List (HloOp τ sig (Elt F)) :=
  ops0 ++ (ops1 ++ (ops2 ++ (ops3 ++ (ops4 ++ (ops5 ++ (ops6 ++ (ops7 ++ (ops8 ++ (ops9)))))))))

/-- @main is the straight line over `ops`: it runs the windows in order, each the line over its own list, and lines run
    one after the other are the line over the concatenation. -/
theorem main_eq (c : Dev nD) : main (F := F) c = seq ops := by
  simp only [main, ops, seq_append, main_part0_eq, main_part1_eq, main_part2_eq, main_part3_eq, main_part4_eq, main_part5_eq, main_part6_eq, main_part7_eq, main_part8_eq, main_part9_eq]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: window by window. -/
theorem ops_sub : (ops : List (HloOp τ sig (Elt F))).Forall fun op => op.bufs ⊆ tcRefs τ sig :=
  List.forall_append.mpr ⟨ops0_sub, List.forall_append.mpr ⟨ops1_sub, List.forall_append.mpr ⟨ops2_sub, List.forall_append.mpr ⟨ops3_sub, List.forall_append.mpr ⟨ops4_sub, List.forall_append.mpr ⟨ops5_sub, List.forall_append.mpr ⟨ops6_sub, List.forall_append.mpr ⟨ops7_sub, List.forall_append.mpr ⟨ops8_sub, ops9_sub⟩⟩⟩⟩⟩⟩⟩⟩⟩

/-- Every operation determines its results: window by window. -/
theorem ops_fresh : (ops : List (HloOp τ sig (Elt F))).Forall fun op => op.fresh = ∅ :=
  List.forall_append.mpr ⟨ops0_fresh, List.forall_append.mpr ⟨ops1_fresh, List.forall_append.mpr ⟨ops2_fresh, List.forall_append.mpr ⟨ops3_fresh, List.forall_append.mpr ⟨ops4_fresh, List.forall_append.mpr ⟨ops5_fresh, List.forall_append.mpr ⟨ops6_fresh, List.forall_append.mpr ⟨ops7_fresh, List.forall_append.mpr ⟨ops8_fresh, ops9_fresh⟩⟩⟩⟩⟩⟩⟩⟩⟩

/-- On every device, for any float values, from any memory with zero counters: every weakly fair execution of @main
    terminates, and every buffer `b` of core `c` ends at the operations' fold over the launch contents of core `c`. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

/-- The fold over a concatenation is the fold over the second list from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! Each argument of the program holds after all the operations what it held before: window by window. -/

theorem ops_arg0 (V : Valuation τ sig (Elt F)) : after ops V (main_arg0 : DevRef τ sig) = V (main_arg0 : DevRef τ sig) := by
  simp only [ops, after_app]
  rw [ops9_arg0, ops8_arg0, ops7_arg0, ops6_arg0, ops5_arg0, ops4_arg0, ops3_arg0, ops2_arg0, ops1_arg0, ops0_arg0]
theorem ops_arg1 (V : Valuation τ sig (Elt F)) : after ops V (main_arg1 : DevRef τ sig) = V (main_arg1 : DevRef τ sig) := by
  simp only [ops, after_app]
  rw [ops9_arg1, ops8_arg1, ops7_arg1, ops6_arg1, ops5_arg1, ops4_arg1, ops3_arg1, ops2_arg1, ops1_arg1, ops0_arg1]
theorem ops_arg2 (V : Valuation τ sig (Elt F)) : after ops V (main_arg2 : DevRef τ sig) = V (main_arg2 : DevRef τ sig) := by
  simp only [ops, after_app]
  rw [ops9_arg2, ops8_arg2, ops7_arg2, ops6_arg2, ops5_arg2, ops4_arg2, ops3_arg2, ops2_arg2, ops1_arg2, ops0_arg2]
theorem ops_arg3 (V : Valuation τ sig (Elt F)) : after ops V (main_arg3 : DevRef τ sig) = V (main_arg3 : DevRef τ sig) := by
  simp only [ops, after_app]
  rw [ops9_arg3, ops8_arg3, ops7_arg3, ops6_arg3, ops5_arg3, ops4_arg3, ops3_arg3, ops2_arg3, ops1_arg3, ops0_arg3]
theorem ops_arg4 (V : Valuation τ sig (Elt F)) : after ops V (main_arg4 : DevRef τ sig) = V (main_arg4 : DevRef τ sig) := by
  simp only [ops, after_app]
  rw [ops9_arg4, ops8_arg4, ops7_arg4, ops6_arg4, ops5_arg4, ops4_arg4, ops3_arg4, ops2_arg4, ops1_arg4, ops0_arg4]
theorem ops_arg5 (V : Valuation τ sig (Elt F)) : after ops V (main_arg5 : DevRef τ sig) = V (main_arg5 : DevRef τ sig) := by
  simp only [ops, after_app]
  rw [ops9_arg5, ops8_arg5, ops7_arg5, ops6_arg5, ops5_arg5, ops4_arg5, ops3_arg5, ops2_arg5, ops1_arg5, ops0_arg5]
theorem ops_arg6 (V : Valuation τ sig (Elt F)) : after ops V (main_arg6 : DevRef τ sig) = V (main_arg6 : DevRef τ sig) := by
  simp only [ops, after_app]
  rw [ops9_arg6, ops8_arg6, ops7_arg6, ops6_arg6, ops5_arg6, ops4_arg6, ops3_arg6, ops2_arg6, ops1_arg6, ops0_arg6]
theorem ops_arg7 (V : Valuation τ sig (Elt F)) : after ops V (main_arg7 : DevRef τ sig) = V (main_arg7 : DevRef τ sig) := by
  simp only [ops, after_app]
  rw [ops9_arg7, ops8_arg7, ops7_arg7, ops6_arg7, ops5_arg7, ops4_arg7, ops3_arg7, ops2_arg7, ops1_arg7, ops0_arg7]
theorem ops_arg8 (V : Valuation τ sig (Elt F)) : after ops V (main_arg8 : DevRef τ sig) = V (main_arg8 : DevRef τ sig) := by
  simp only [ops, after_app]
  rw [ops9_arg8, ops8_arg8, ops7_arg8, ops6_arg8, ops5_arg8, ops4_arg8, ops3_arg8, ops2_arg8, ops1_arg8, ops0_arg8]
theorem ops_arg9 (V : Valuation τ sig (Elt F)) : after ops V (main_arg9 : DevRef τ sig) = V (main_arg9 : DevRef τ sig) := by
  simp only [ops, after_app]
  rw [ops9_arg9, ops8_arg9, ops7_arg9, ops6_arg9, ops5_arg9, ops4_arg9, ops3_arg9, ops2_arg9, ops1_arg9, ops0_arg9]
theorem ops_arg10 (V : Valuation τ sig (Elt F)) : after ops V (main_arg10 : DevRef τ sig) = V (main_arg10 : DevRef τ sig) := by
  simp only [ops, after_app]
  rw [ops9_arg10, ops8_arg10, ops7_arg10, ops6_arg10, ops5_arg10, ops4_arg10, ops3_arg10, ops2_arg10, ops1_arg10, ops0_arg10]
theorem ops_arg11 (V : Valuation τ sig (Elt F)) : after ops V (main_arg11 : DevRef τ sig) = V (main_arg11 : DevRef τ sig) := by
  simp only [ops, after_app]
  rw [ops9_arg11, ops8_arg11, ops7_arg11, ops6_arg11, ops5_arg11, ops4_arg11, ops3_arg11, ops2_arg11, ops1_arg11, ops0_arg11]

/-- The reference program runs and leaves its twelve arguments unchanged. -/
theorem frame [hPre_finite_inputs : Cert.Pre_finite_inputs.Facts] : Cert.frame_ReferenceIdeal := by
  intro m g _
  exact (θ_run defs _ _).mono (fun _ h c =>
    ⟨(h c main_arg0).trans (ops_arg0 _),
     (h c main_arg1).trans (ops_arg1 _),
     (h c main_arg2).trans (ops_arg2 _),
     (h c main_arg3).trans (ops_arg3 _),
     (h c main_arg4).trans (ops_arg4 _),
     (h c main_arg5).trans (ops_arg5 _),
     (h c main_arg6).trans (ops_arg6 _),
     (h c main_arg7).trans (ops_arg7 _),
     (h c main_arg8).trans (ops_arg8 _),
     (h c main_arg9).trans (ops_arg9 _),
     (h c main_arg10).trans (ops_arg10 _),
     (h c main_arg11).trans (ops_arg11 _)⟩)
    (run m g)

/-- The run read at the result and the arguments: the result buffer ends at the operations' fold over the launch contents
    (kept folded), the twelve arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v459) = after ops (launchContents m c) (main_v459 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨h c main_v459,
     (h c main_arg0).trans (ops_arg0 _),
     (h c main_arg1).trans (ops_arg1 _),
     (h c main_arg2).trans (ops_arg2 _),
     (h c main_arg3).trans (ops_arg3 _),
     (h c main_arg4).trans (ops_arg4 _),
     (h c main_arg5).trans (ops_arg5 _),
     (h c main_arg6).trans (ops_arg6 _),
     (h c main_arg7).trans (ops_arg7 _),
     (h c main_arg8).trans (ops_arg8 _),
     (h c main_arg9).trans (ops_arg9 _),
     (h c main_arg10).trans (ops_arg10 _),
     (h c main_arg11).trans (ops_arg11 _)⟩)
    (run m ρ)

end Cert.ReferenceIdeal.RefRun

end
-- ==== Proof.RefReadDefs.lean ====
/- The stages of the reference computation as functions of the argument arrays: a two-layer graph convolution summed over
   four relations, batch normalisation with batch statistics, and a two-layer head. Each stage is the composition of the
   program's own host operations, in the program's order. -/
import proofs.«115534_j8151847928363_1_alg».proof.Proof.Gen.ReferenceIdeal

noncomputable section

namespace Cert.ReferenceIdeal.RefRead

open Cert.ReferenceIdeal Cert.ReferenceIdeal.Gen Idealize.ShloMosaic

variable {F : FTy → Type} [FloatOps F]

/-! ## One relation's edges -/

/-- Relation `r`'s edge list: its 2 × 500000 block of the edge array (row 0 the sources, row 1 the destinations). -/
def eiRel (ei : IVec S4x2x500000 32) (r : Fin 4) : IVec S2x500000 32 :=
  match r with
  | ⟨0, _⟩ => shapeCast S2x500000 (extractStridedSlice S1x2x500000 ![0, 0, 0] ei slices_S4x2x500000_S1x2x500000_0_0_0) shapeCasts_S1x2x500000_S2x500000
  | ⟨1, _⟩ => shapeCast S2x500000 (extractStridedSlice S1x2x500000 ![1, 0, 0] ei slices_S4x2x500000_S1x2x500000_1_0_0) shapeCasts_S1x2x500000_S2x500000
  | ⟨2, _⟩ => shapeCast S2x500000 (extractStridedSlice S1x2x500000 ![2, 0, 0] ei slices_S4x2x500000_S1x2x500000_2_0_0) shapeCasts_S1x2x500000_S2x500000
  | ⟨3, _⟩ => shapeCast S2x500000 (extractStridedSlice S1x2x500000 ![3, 0, 0] ei slices_S4x2x500000_S1x2x500000_3_0_0) shapeCasts_S1x2x500000_S2x500000
  | ⟨n + 4, h⟩ => absurd h (by omega)

/-- The source ids with the self loops appended: row 0 of the edge list, then 0 … 49999. -/
def srcRaw (e : IVec S2x500000 32) : IVec S550000 32 :=
  concatenate S550000 0
    [⟨S500000, shapeCast S500000 (extractStridedSlice S1x500000 ![0, 0] e slices_S2x500000_S1x500000_0_0) shapeCasts_S1x500000_S500000⟩,
     ⟨S50000, iotaInDim S50000 32 0⟩] concatenates_S500000_S50000_S550000_d0

/-- The destination ids with the self loops appended: row 1 of the edge list, then 0 … 49999. -/
def dstRaw (e : IVec S2x500000 32) : IVec S550000 32 :=
  concatenate S550000 0
    [⟨S500000, shapeCast S500000 (extractStridedSlice S1x500000 ![1, 0] e slices_S2x500000_S1x500000_1_0) shapeCasts_S1x500000_S500000⟩,
     ⟨S50000, iotaInDim S50000 32 0⟩] concatenates_S500000_S50000_S550000_d0

/-- A gather's index wrap: a negative id counts from the end (`i < 0 ? i + 50000 : i`). -/
def wrapIdx (i : IVec S550000 32) : IVec S550000 32 :=
  select (cmpi .slt i (broadcastInDim S550000 ![] bcast_S_S550000 (constantI S_ 32 0#32)))
    (addi i (broadcastInDim S550000 ![] bcast_S_S550000 (constantI S_ 32 50000#32))) i

/-- Ids as a column: the index table a gather or scatter takes. -/
def idCol (i : IVec S550000 32) : IVec S550000x1 32 := broadcastInDim S550000x1 ![0] bcast_S550000_S550000x1_0 i

/-- The in-degrees with self loops: ones scatter-added at the raw destination ids into zeros. -/
def degOf (e : IVec S2x500000 32) : FVec F S50000 .f32 :=
  Host.scatterAdd scatter_S50000_S550000x1_S550000_n_0_0_1
    (broadcastInDim S50000 ![] bcast_S_S50000 (constant (F := F) S_ .f32 0x00000000#32))
    (idCol (dstRaw e))
    (broadcastInDim S550000 ![] bcast_S_S550000 (constant (F := F) S_ .f32 0x3F800000#32))

/-- `deg > 0 ? rsqrt deg : 0`. -/
def dinvOf (e : IVec S2x500000 32) : FVec F S50000 .f32 :=
  select (cmpf .ogt (degOf e) (broadcastInDim S50000 ![] bcast_S_S50000 (constant (F := F) S_ .f32 0x00000000#32)))
    (Host.rsqrt (degOf e))
    (broadcastInDim S50000 ![] bcast_S_S50000 (constant (F := F) S_ .f32 0x00000000#32))

/-- Relation `r`'s wrapped source ids as a column: the index table of the gathers of `dinv` and of the features by source. -/
def relSrc (ei : IVec S4x2x500000 32) (r : Fin 4) : IVec S550000x1 32 := idCol (wrapIdx (srcRaw (eiRel ei r)))

/-- Relation `r`'s wrapped destination ids as a column: the index table of the gather of `dinv` by destination. -/
def relDstWrapped (ei : IVec S4x2x500000 32) (r : Fin 4) : IVec S550000x1 32 := idCol (wrapIdx (dstRaw (eiRel ei r)))

/-- Relation `r`'s raw destination ids as a column: the index table of the two scatter-adds. -/
def relDst (ei : IVec S4x2x500000 32) (r : Fin 4) : IVec S550000x1 32 := idCol (dstRaw (eiRel ei r))

/-- Relation `r`'s edge weights `dinv[src] * dinv[dst]`. -/
def relNorm (ei : IVec S4x2x500000 32) (r : Fin 4) : FVec F S550000 .f32 :=
  mulf (Host.gather gather_S50000_S550000x1_S550000_n_0_n_n_0_1_1 (dinvOf (eiRel ei r)) (relSrc ei r))
    (Host.gather gather_S50000_S550000x1_S550000_n_0_n_n_0_1_1 (dinvOf (eiRel ei r)) (relDstWrapped ei r))

/-- Relation `r`'s aggregation of node features `h`: the rows of `h` gathered by source, each scaled by its edge's weight,
    scatter-added by destination into zeros. -/
def agg (ei : IVec S4x2x500000 32) (r : Fin 4) (h : FVec F S50000x128 .f32) : FVec F S50000x128 .f32 :=
  Host.scatterAdd scatter_S50000x128_S550000x1_S550000x128_1_0_0_1
    (broadcastInDim S50000x128 ![] bcast_S_S50000x128 (constant (F := F) S_ .f32 0x00000000#32))
    (relDst ei r)
    (mulf (Host.gather gather_S50000x128_S550000x1_S550000x128_1_0_n_n_0_1_1128 h (relSrc ei r))
      (broadcastInDim S550000x128 ![0, 1] bcast_S550000x1_S550000x128_0_1
        (broadcastInDim S550000x1 ![0] bcast_S550000_S550000x1_0 (relNorm ei r))))

/-! ## A layer -/

/-- Relation `r`'s 128 × 128 weight matrix. -/
def wRel (W : FVec F S4x128x128 .f32) (r : Fin 4) : FVec F S128x128 .f32 :=
  match r with
  | ⟨0, _⟩ => shapeCast S128x128 (extractStridedSlice S1x128x128 ![0, 0, 0] W slices_S4x128x128_S1x128x128_0_0_0) shapeCasts_S1x128x128_S128x128
  | ⟨1, _⟩ => shapeCast S128x128 (extractStridedSlice S1x128x128 ![1, 0, 0] W slices_S4x128x128_S1x128x128_1_0_0) shapeCasts_S1x128x128_S128x128
  | ⟨2, _⟩ => shapeCast S128x128 (extractStridedSlice S1x128x128 ![2, 0, 0] W slices_S4x128x128_S1x128x128_2_0_0) shapeCasts_S1x128x128_S128x128
  | ⟨3, _⟩ => shapeCast S128x128 (extractStridedSlice S1x128x128 ![3, 0, 0] W slices_S4x128x128_S1x128x128_3_0_0) shapeCasts_S1x128x128_S128x128
  | ⟨n + 4, h⟩ => absurd h (by omega)

/-- Relation `r`'s bias row. -/
def bRel (b : FVec F S4x128 .f32) (r : Fin 4) : FVec F S128 .f32 :=
  match r with
  | ⟨0, _⟩ => shapeCast S128 (extractStridedSlice S1x128 ![0, 0] b slices_S4x128_S1x128_0_0) shapeCasts_S1x128_S128
  | ⟨1, _⟩ => shapeCast S128 (extractStridedSlice S1x128 ![1, 0] b slices_S4x128_S1x128_1_0) shapeCasts_S1x128_S128
  | ⟨2, _⟩ => shapeCast S128 (extractStridedSlice S1x128 ![2, 0] b slices_S4x128_S1x128_2_0) shapeCasts_S1x128_S128
  | ⟨3, _⟩ => shapeCast S128 (extractStridedSlice S1x128 ![3, 0] b slices_S4x128_S1x128_3_0) shapeCasts_S1x128_S128
  | ⟨n + 4, h⟩ => absurd h (by omega)

/-- A 128-vector as a row repeated down the 50000 nodes. -/
def rowBcast (v : FVec F S128 .f32) : FVec F S50000x128 .f32 :=
  broadcastInDim S50000x128 ![0, 1] bcast_S1x128_S50000x128_0_1 (broadcastInDim S1x128 ![1] bcast_S128_S1x128_1 v)

/-- Relation `r`'s graph convolution: the aggregation of `x · W_r`, plus the bias row. -/
def gcn (ei : IVec S4x2x500000 32) (r : Fin 4) (x : FVec F S50000x128 .f32) (W : FVec F S4x128x128 .f32) (b : FVec F S4x128 .f32) :
    FVec F S50000x128 .f32 :=
  addf (agg ei r (Host.dotGeneral dot_S50000x128_S128x128_S50000x128_1_0_0_1_n_n none x (wRel W r))) (rowBcast (bRel b r))

/-- The four relations' convolutions summed, associated to the left. -/
def hetero (ei : IVec S4x2x500000 32) (x : FVec F S50000x128 .f32) (W : FVec F S4x128x128 .f32) (b : FVec F S4x128 .f32) :
    FVec F S50000x128 .f32 :=
  addf (addf (addf (gcn ei 0 x W b) (gcn ei 1 x W b)) (gcn ei 2 x W b)) (gcn ei 3 x W b)

/-- `max h 0`. -/
def relu (h : FVec F S50000x128 .f32) : FVec F S50000x128 .f32 :=
  maximumf h (broadcastInDim S50000x128 ![] bcast_S_S50000x128 (constant (F := F) S_ .f32 0x00000000#32))

/-- The first layer's output. -/
def h1 (ei : IVec S4x2x500000 32) (x : FVec F S50000x128 .f32) (W1 : FVec F S4x128x128 .f32) (b1 : FVec F S4x128 .f32) :
    FVec F S50000x128 .f32 :=
  relu (hetero ei x W1 b1)

/-- The second layer's output. -/
def h2 (ei : IVec S4x2x500000 32) (x : FVec F S50000x128 .f32) (W1 : FVec F S4x128x128 .f32) (b1 : FVec F S4x128 .f32)
    (W2 : FVec F S4x128x128 .f32) (b2 : FVec F S4x128 .f32) : FVec F S50000x128 .f32 :=
  relu (hetero ei (h1 ei x W1 b1) W2 b2)

/-! ## Batch normalisation -/

/-- The column sums from zero. -/
def colSum (h : FVec F S50000x128 .f32) : FVec F S128 .f32 :=
  Host.reduceAdd h (constant (F := F) S_ .f32 0x00000000#32) reducesTo_S50000x128_S128_d0 h_S_

/-- The column means: the column sums over 50000. -/
def bnMean (h : FVec F S50000x128 .f32) : FVec F S128 .f32 :=
  Host.divf (colSum h) (broadcastInDim S128 ![] bcast_S_S128 (constant (F := F) S_ .f32 0x47435000#32))

/-- The centred squares the variance sums: `(h - mean)²`, the mean taken as a 1 × 128 row. -/
def bnSq (h : FVec F S50000x128 .f32) : FVec F S50000x128 .f32 :=
  mulf
    (subf h (broadcastInDim S50000x128 ![0, 1] bcast_S1x128_S50000x128_0_1
      (Host.divf (broadcastInDim S1x128 ![1] bcast_S128_S1x128_1 (colSum h))
        (broadcastInDim S1x128 ![] bcast_S_S1x128 (constant (F := F) S_ .f32 0x47435000#32)))))
    (subf h (broadcastInDim S50000x128 ![0, 1] bcast_S1x128_S50000x128_0_1
      (Host.divf (broadcastInDim S1x128 ![1] bcast_S128_S1x128_1 (colSum h))
        (broadcastInDim S1x128 ![] bcast_S_S1x128 (constant (F := F) S_ .f32 0x47435000#32)))))

/-- The variance's divisor `50000 - ddof`, `ddof = 0` converted from the integer. -/
def bnCount : FVec F S_ .f32 :=
  subf (constant (F := F) S_ .f32 0x47435000#32) (sitofp (F := F) .f32 (constantI S_ 32 0#32))

/-- The biased column variances: the sum of the centred squares over the count where the count is positive, else NaN. -/
def bnVar (h : FVec F S50000x128 .f32) : FVec F S128 .f32 :=
  select (broadcastInDim S128 ![] bcast_S_S128 (cmpf .ogt (bnCount (F := F)) (constant (F := F) S_ .f32 0x00000000#32)))
    (Host.divf (colSum (bnSq h)) (broadcastInDim S128 ![] bcast_S_S128 (bnCount (F := F))))
    (broadcastInDim S128 ![] bcast_S_S128 (constant (F := F) S_ .f32 0x7FC00000#32))

/-- `rsqrt (var + eps)`. -/
def bnInv (h : FVec F S50000x128 .f32) : FVec F S128 .f32 :=
  Host.rsqrt (addf (bnVar h) (broadcastInDim S128 ![] bcast_S_S128 (constant (F := F) S_ .f32 0x3727C5AC#32)))

/-- `(h - mean) * rsqrt (var + eps) * gamma + beta`, in that order. -/
def bn (h : FVec F S50000x128 .f32) (gamma beta : FVec F S128 .f32) : FVec F S50000x128 .f32 :=
  addf (mulf (mulf (subf h (rowBcast (bnMean h))) (rowBcast (bnInv h))) (rowBcast gamma)) (rowBcast beta)

/-! ## The head -/

/-- `relu (z · W₁ + b₁) · W₂ + b₂`. -/
def head (z : FVec F S50000x128 .f32) (l1W : FVec F S128x128 .f32) (l1b : FVec F S128 .f32) (l2W : FVec F S128x2 .f32)
    (l2b : FVec F S2 .f32) : FVec F S50000x2 .f32 :=
  addf
    (Host.dotGeneral dot_S50000x128_S128x2_S50000x2_1_0_0_1_n_n none
      (relu (addf (Host.dotGeneral dot_S50000x128_S128x128_S50000x128_1_0_0_1_n_n none z l1W) (rowBcast l1b))) l2W)
    (broadcastInDim S50000x2 ![0, 1] bcast_S1x2_S50000x2_0_1 (broadcastInDim S1x2 ![1] bcast_S2_S1x2_1 l2b))

/-- The reference computation as a function of the twelve argument arrays. -/
def refOut (x : FVec F S50000x128 .f32) (ei : IVec S4x2x500000 32) (W1 : FVec F S4x128x128 .f32) (b1 : FVec F S4x128 .f32)
    (W2 : FVec F S4x128x128 .f32) (b2 : FVec F S4x128 .f32) (gamma beta : FVec F S128 .f32) (l1W : FVec F S128x128 .f32)
    (l1b : FVec F S128 .f32) (l2W : FVec F S128x2 .f32) (l2b : FVec F S2 .f32) : FVec F S50000x2 .f32 :=
  head (bn (h2 ei x W1 b1 W2 b2) gamma beta) l1W l1b l2W l2b

end Cert.ReferenceIdeal.RefRead

end
-- ==== Proof.RefSt_L1R0.lean ====
import proofs.«115534_j8151847928363_1_alg».proof.Proof.Gen.ReferenceIdeal
import Idealize.ShloMosaic.Lib.StableHlo.Run

set_option maxRecDepth 8192

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

/-- Operations 0 ≤ k < 66 of the program, in execution order. -/
abbrev stL1R0 : List (HloOp τ sig (Elt F)) :=
  [ StableHlo.unary main_arg1 main_v0 ((extractStridedSlice S1x2x500000 ![0, 0, 0] · slices_S4x2x500000_S1x2x500000_0_0_0) : (⟨S4x2x500000, .i32⟩ : BufTy).Contents (Elt F) → (⟨S1x2x500000, .i32⟩ : BufTy).Contents (Elt F)),
    StableHlo.reshape main_v0 main_v1 rfl shapeCasts_S1x2x500000_S2x500000,
    StableHlo.unary main_arg2 main_v2 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v2 main_v3 rfl shapeCasts_S1x128x128_S128x128,
    StableHlo.unary main_arg3 main_v4 ((extractStridedSlice S1x128 ![0, 0] · slices_S4x128_S1x128_0_0) : (⟨S4x128, .f32⟩ : BufTy).Contents (Elt F) → (⟨S1x128, .f32⟩ : BufTy).Contents (Elt F)),
    StableHlo.reshape main_v4 main_v5 rfl shapeCasts_S1x128_S128,
    StableHlo.binary main_arg0 main_v3 main_v6 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_v7 (iotaInDim S50000 32 0),
    StableHlo.unary main_v1 main_v8 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v8 main_v9 rfl shapeCasts_S1x500000_S500000,
    StableHlo.binary main_v9 main_v7 main_v10 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.unary main_v1 main_v11 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v11 main_v12 rfl shapeCasts_S1x500000_S500000,
    StableHlo.binary main_v12 main_v7 main_v13 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.nullary main_cst (constant S_ .f32 0x3F800000#32),
    StableHlo.unary main_cst main_v14 (broadcastInDim S550000 ![] bcast_S_S550000 : (⟨S_, .f32⟩ : BufTy).Contents (Elt F) → (⟨S550000, .f32⟩ : BufTy).Contents (Elt F)),
    StableHlo.nullary main_cst_0 (constant S_ .f32 0x00000000#32),
    StableHlo.unary main_cst_0 main_v15 (broadcastInDim S50000 ![] bcast_S_S50000 : (⟨S_, .f32⟩ : BufTy).Contents (Elt F) → (⟨S50000, .f32⟩ : BufTy).Contents (Elt F)),
    StableHlo.unary main_v13 main_v16 (broadcastInDim S550000x1 ![0] bcast_S550000_S550000x1_0 : (⟨S550000, .i32⟩ : BufTy).Contents (Elt F) → (⟨S550000x1, .i32⟩ : BufTy).Contents (Elt F)),
    StableHlo.ternary main_v15 main_v16 main_v14 main_v17 ((fun x i u => Host.scatterAdd scatter_S50000_S550000x1_S550000_n_0_0_1 x i u) : (⟨S50000, .f32⟩ : BufTy).Contents (Elt F) → (⟨S550000x1, .i32⟩ : BufTy).Contents (Elt F) → (⟨S550000, .f32⟩ : BufTy).Contents (Elt F) → (⟨S50000, .f32⟩ : BufTy).Contents (Elt F)),
    StableHlo.nullary main_cst_1 (constant S_ .f32 0x00000000#32),
    StableHlo.unary main_cst_1 main_v18 (broadcastInDim S50000 ![] bcast_S_S50000 : (⟨S_, .f32⟩ : BufTy).Contents (Elt F) → (⟨S50000, .f32⟩ : BufTy).Contents (Elt F)),
    StableHlo.binary main_v17 main_v18 main_v19 (cmpf .ogt : (⟨S50000, .f32⟩ : BufTy).Contents (Elt F) → (⟨S50000, .f32⟩ : BufTy).Contents (Elt F) → (⟨S50000, .i1⟩ : BufTy).Contents (Elt F)),
    StableHlo.unary main_v17 main_v20 (Host.rsqrt : (⟨S50000, .f32⟩ : BufTy).Contents (Elt F) → (⟨S50000, .f32⟩ : BufTy).Contents (Elt F)),
    StableHlo.nullary main_cst_2 (constant S_ .f32 0x00000000#32),
    StableHlo.TRef.unary (TRef.of main_cst_2 : TRef sig ⟨S_, .f32⟩) main_call0.v0 id,
    StableHlo.TRef.unary main_call0.v0 main_call0.v1 (broadcastInDim S50000 ![] bcast_S_S50000),
    StableHlo.TRef.ternary (TRef.of main_v19 : TRef sig ⟨S50000, .i1⟩) (TRef.of main_v20 : TRef sig ⟨S50000, .f32⟩) main_call0.v1 main_call0.v2 select,
    StableHlo.nullary main_c (constantI S_ 32 0#32),
    StableHlo.unary main_c main_v22 (broadcastInDim S550000 ![] bcast_S_S550000 : (⟨S_, .i32⟩ : BufTy).Contents (Elt F) → (⟨S550000, .i32⟩ : BufTy).Contents (Elt F)),
    StableHlo.binary main_v10 main_v22 main_v23 (cmpi .slt : (⟨S550000, .i32⟩ : BufTy).Contents (Elt F) → (⟨S550000, .i32⟩ : BufTy).Contents (Elt F) → (⟨S550000, .i1⟩ : BufTy).Contents (Elt F)),
    StableHlo.nullary main_c_3 (constantI S_ 32 50000#32),
    StableHlo.unary main_c_3 main_v24 (broadcastInDim S550000 ![] bcast_S_S550000 : (⟨S_, .i32⟩ : BufTy).Contents (Elt F) → (⟨S550000, .i32⟩ : BufTy).Contents (Elt F)),
    StableHlo.binary main_v10 main_v24 main_v25 (addi : (⟨S550000, .i32⟩ : BufTy).Contents (Elt F) → (⟨S550000, .i32⟩ : BufTy).Contents (Elt F) → (⟨S550000, .i32⟩ : BufTy).Contents (Elt F)),
    StableHlo.ternary main_v23 main_v25 main_v10 main_v26 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v26 main_v27 (broadcastInDim S550000x1 ![0] bcast_S550000_S550000x1_0 : (⟨S550000, .i32⟩ : BufTy).Contents (Elt F) → (⟨S550000x1, .i32⟩ : BufTy).Contents (Elt F)),
    StableHlo.binary main_v21 main_v27 main_v28 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.nullary main_c_4 (constantI S_ 32 0#32),
    StableHlo.unary main_c_4 main_v29 (broadcastInDim S550000 ![] bcast_S_S550000 : (⟨S_, .i32⟩ : BufTy).Contents (Elt F) → (⟨S550000, .i32⟩ : BufTy).Contents (Elt F)),
    StableHlo.binary main_v13 main_v29 main_v30 (cmpi .slt : (⟨S550000, .i32⟩ : BufTy).Contents (Elt F) → (⟨S550000, .i32⟩ : BufTy).Contents (Elt F) → (⟨S550000, .i1⟩ : BufTy).Contents (Elt F)),
    StableHlo.nullary main_c_5 (constantI S_ 32 50000#32),
    StableHlo.unary main_c_5 main_v31 (broadcastInDim S550000 ![] bcast_S_S550000 : (⟨S_, .i32⟩ : BufTy).Contents (Elt F) → (⟨S550000, .i32⟩ : BufTy).Contents (Elt F)),
    StableHlo.binary main_v13 main_v31 main_v32 (addi : (⟨S550000, .i32⟩ : BufTy).Contents (Elt F) → (⟨S550000, .i32⟩ : BufTy).Contents (Elt F) → (⟨S550000, .i32⟩ : BufTy).Contents (Elt F)),
    StableHlo.ternary main_v30 main_v32 main_v13 main_v33 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v33 main_v34 (broadcastInDim S550000x1 ![0] bcast_S550000_S550000x1_0 : (⟨S550000, .i32⟩ : BufTy).Contents (Elt F) → (⟨S550000x1, .i32⟩ : BufTy).Contents (Elt F)),
    StableHlo.binary main_v21 main_v34 main_v35 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.binary main_v28 main_v35 main_v36 (mulf : (⟨S550000, .f32⟩ : BufTy).Contents (Elt F) → (⟨S550000, .f32⟩ : BufTy).Contents (Elt F) → (⟨S550000, .f32⟩ : BufTy).Contents (Elt F)),
    StableHlo.nullary main_c_6 (constantI S_ 32 0#32),
    StableHlo.unary main_c_6 main_v37 (broadcastInDim S550000 ![] bcast_S_S550000 : (⟨S_, .i32⟩ : BufTy).Contents (Elt F) → (⟨S550000, .i32⟩ : BufTy).Contents (Elt F)),
    StableHlo.binary main_v10 main_v37 main_v38 (cmpi .slt : (⟨S550000, .i32⟩ : BufTy).Contents (Elt F) → (⟨S550000, .i32⟩ : BufTy).Contents (Elt F) → (⟨S550000, .i1⟩ : BufTy).Contents (Elt F)),
    StableHlo.nullary main_c_7 (constantI S_ 32 50000#32),
    StableHlo.unary main_c_7 main_v39 (broadcastInDim S550000 ![] bcast_S_S550000 : (⟨S_, .i32⟩ : BufTy).Contents (Elt F) → (⟨S550000, .i32⟩ : BufTy).Contents (Elt F)),
    StableHlo.binary main_v10 main_v39 main_v40 (addi : (⟨S550000, .i32⟩ : BufTy).Contents (Elt F) → (⟨S550000, .i32⟩ : BufTy).Contents (Elt F) → (⟨S550000, .i32⟩ : BufTy).Contents (Elt F)),
    StableHlo.ternary main_v38 main_v40 main_v10 main_v41 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v41 main_v42 (broadcastInDim S550000x1 ![0] bcast_S550000_S550000x1_0 : (⟨S550000, .i32⟩ : BufTy).Contents (Elt F) → (⟨S550000x1, .i32⟩ : BufTy).Contents (Elt F)),
    StableHlo.binary main_v6 main_v42 main_v43 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    StableHlo.unary main_v36 main_v44 (broadcastInDim S550000x1 ![0] bcast_S550000_S550000x1_0 : (⟨S550000, .f32⟩ : BufTy).Contents (Elt F) → (⟨S550000x1, .f32⟩ : BufTy).Contents (Elt F)),
    StableHlo.unary main_v44 main_v45 (broadcastInDim S550000x128 ![0, 1] bcast_S550000x1_S550000x128_0_1 : (⟨S550000x1, .f32⟩ : BufTy).Contents (Elt F) → (⟨S550000x128, .f32⟩ : BufTy).Contents (Elt F)),
    StableHlo.binary main_v43 main_v45 main_v46 (mulf : (⟨S550000x128, .f32⟩ : BufTy).Contents (Elt F) → (⟨S550000x128, .f32⟩ : BufTy).Contents (Elt F) → (⟨S550000x128, .f32⟩ : BufTy).Contents (Elt F)),
    StableHlo.nullary main_cst_8 (constant S_ .f32 0x00000000#32),
    StableHlo.unary main_cst_8 main_v47 (broadcastInDim S50000x128 ![] bcast_S_S50000x128 : (⟨S_, .f32⟩ : BufTy).Contents (Elt F) → (⟨S50000x128, .f32⟩ : BufTy).Contents (Elt F)),
    StableHlo.unary main_v13 main_v48 (broadcastInDim S550000x1 ![0] bcast_S550000_S550000x1_0 : (⟨S550000, .i32⟩ : BufTy).Contents (Elt F) → (⟨S550000x1, .i32⟩ : BufTy).Contents (Elt F)),
    StableHlo.ternary main_v47 main_v48 main_v46 main_v49 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)),
    StableHlo.unary main_v5 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S50000x128 ![0, 1] bcast_S1x128_S50000x128_0_1 : (⟨S1x128, .f32⟩ : BufTy).Contents (Elt F) → (⟨S50000x128, .f32⟩ : BufTy).Contents (Elt F)),
    StableHlo.binary main_v49 main_v51 main_v52 (addf : (⟨S50000x128, .f32⟩ : BufTy).Contents (Elt F) → (⟨S50000x128, .f32⟩ : BufTy).Contents (Elt F) → (⟨S50000x128, .f32⟩ : BufTy).Contents (Elt F)) ]

/-- The buffers those operations write, in order. -/
abbrev wrL1R0 : List (Ref sig .tc) :=
  [ main_v0, main_v1, main_v2, main_v3, main_v4, main_v5, main_v6, main_v7,
    main_v8, main_v9, main_v10, main_v11, main_v12, main_v13, main_cst, main_v14,
    main_cst_0, main_v15, main_v16, main_v17, main_cst_1, main_v18, main_v19, main_v20,
    main_cst_2, main_call0_v0, main_call0_v1, main_v21, main_c, main_v22, main_v23, main_c_3,
    main_v24, main_v25, main_v26, main_v27, main_v28, main_c_4, main_v29, main_v30,
    main_c_5, main_v31, main_v32, main_v33, main_v34, main_v35, main_v36, main_c_6,
    main_v37, main_v38, main_c_7, main_v39, main_v40, main_v41, main_v42, main_v43,
    main_v44, main_v45, main_v46, main_cst_8, main_v47, main_v48, main_v49, main_v50,
    main_v51, main_v52 ]

/-- An operation that writes one buffer of a list writes within the list. -/
private theorem sub_of_mem {op : HloOp τ sig (Elt F)} (y : Ref sig .tc) {L : List (Ref sig .tc)}
    (hw : op.writes = {Proc.devRef (τ := τ) .tc y}) (hy : y ∈ L) : op.writes ⊆ (L.map (Proc.devRef (τ := τ) .tc)).toFinset := by
  rw [hw, Finset.singleton_subset_iff, List.mem_toFinset]; exact List.mem_map_of_mem hy

/-- Each operation writes only a buffer of the list. -/
theorem stL1R0_writes : (stL1R0 : List (HloOp τ sig (Elt F))).Forall fun op => op.writes ⊆ (wrL1R0.map (Proc.devRef (τ := τ) .tc)).toFinset :=
  ⟨sub_of_mem main_v0 rfl (by decide), sub_of_mem main_v1 rfl (by decide), sub_of_mem main_v2 rfl (by decide),
    sub_of_mem main_v3 rfl (by decide), sub_of_mem main_v4 rfl (by decide), sub_of_mem main_v5 rfl (by decide),
    sub_of_mem main_v6 rfl (by decide), sub_of_mem main_v7 rfl (by decide), sub_of_mem main_v8 rfl (by decide),
    sub_of_mem main_v9 rfl (by decide), sub_of_mem main_v10 rfl (by decide), sub_of_mem main_v11 rfl (by decide),
    sub_of_mem main_v12 rfl (by decide), sub_of_mem main_v13 rfl (by decide), sub_of_mem main_cst rfl (by decide),
    sub_of_mem main_v14 rfl (by decide), sub_of_mem main_cst_0 rfl (by decide), sub_of_mem main_v15 rfl (by decide),
    sub_of_mem main_v16 rfl (by decide), sub_of_mem main_v17 rfl (by decide), sub_of_mem main_cst_1 rfl (by decide),
    sub_of_mem main_v18 rfl (by decide), sub_of_mem main_v19 rfl (by decide), sub_of_mem main_v20 rfl (by decide),
    sub_of_mem main_cst_2 rfl (by decide), sub_of_mem main_call0_v0 rfl (by decide), sub_of_mem main_call0_v1 rfl (by decide),
    sub_of_mem main_v21 rfl (by decide), sub_of_mem main_c rfl (by decide), sub_of_mem main_v22 rfl (by decide),
    sub_of_mem main_v23 rfl (by decide), sub_of_mem main_c_3 rfl (by decide), sub_of_mem main_v24 rfl (by decide),
    sub_of_mem main_v25 rfl (by decide), sub_of_mem main_v26 rfl (by decide), sub_of_mem main_v27 rfl (by decide),
    sub_of_mem main_v28 rfl (by decide), sub_of_mem main_c_4 rfl (by decide), sub_of_mem main_v29 rfl (by decide),
    sub_of_mem main_v30 rfl (by decide), sub_of_mem main_c_5 rfl (by decide), sub_of_mem main_v31 rfl (by decide),
    sub_of_mem main_v32 rfl (by decide), sub_of_mem main_v33 rfl (by decide), sub_of_mem main_v34 rfl (by decide),
    sub_of_mem main_v35 rfl (by decide), sub_of_mem main_v36 rfl (by decide), sub_of_mem main_c_6 rfl (by decide),
    sub_of_mem main_v37 rfl (by decide), sub_of_mem main_v38 rfl (by decide), sub_of_mem main_c_7 rfl (by decide),
    sub_of_mem main_v39 rfl (by decide), sub_of_mem main_v40 rfl (by decide), sub_of_mem main_v41 rfl (by decide),
    sub_of_mem main_v42 rfl (by decide), sub_of_mem main_v43 rfl (by decide), sub_of_mem main_v44 rfl (by decide),
    sub_of_mem main_v45 rfl (by decide), sub_of_mem main_v46 rfl (by decide), sub_of_mem main_cst_8 rfl (by decide),
    sub_of_mem main_v47 rfl (by decide), sub_of_mem main_v48 rfl (by decide), sub_of_mem main_v49 rfl (by decide),
    sub_of_mem main_v50 rfl (by decide), sub_of_mem main_v51 rfl (by decide), sub_of_mem main_v52 rfl (by decide)⟩

/-- A buffer not in the list holds after the operations what it held before. -/
theorem stL1R0_frame {r : Ref sig .tc} (hr : r ∉ wrL1R0) (W : Valuation τ sig (Elt F)) :
    after stL1R0 W (no_index (Proc.devRef .tc r)) = W (Proc.devRef .tc r) :=
  after_of_writes_sub stL1R0 W stL1R0_writes hr

end Cert.ReferenceIdeal.RefRead

end
-- ==== Proof.RefSt_L1R1.lean ====
import proofs.«115534_j8151847928363_1_alg».proof.Proof.Gen.ReferenceIdeal
import Idealize.ShloMosaic.Lib.StableHlo.Run

set_option maxRecDepth 8192

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

/-- Operations 66 ≤ k < 133 of the program, in execution order. -/
abbrev stL1R1 : List (HloOp τ sig (Elt F)) :=
  [ StableHlo.unary main_arg1 main_v53 ((extractStridedSlice S1x2x500000 ![1, 0, 0] · slices_S4x2x500000_S1x2x500000_1_0_0) : (⟨S4x2x500000, .i32⟩ : BufTy).Contents (Elt F) → (⟨S1x2x500000, .i32⟩ : BufTy).Contents (Elt F)),
    StableHlo.reshape main_v53 main_v54 rfl shapeCasts_S1x2x500000_S2x500000,
    StableHlo.unary main_arg2 main_v55 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v55 main_v56 rfl shapeCasts_S1x128x128_S128x128,
    StableHlo.unary main_arg3 main_v57 ((extractStridedSlice S1x128 ![1, 0] · slices_S4x128_S1x128_1_0) : (⟨S4x128, .f32⟩ : BufTy).Contents (Elt F) → (⟨S1x128, .f32⟩ : BufTy).Contents (Elt F)),
    StableHlo.reshape main_v57 main_v58 rfl shapeCasts_S1x128_S128,
    StableHlo.binary main_arg0 main_v56 main_v59 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_v60 (iotaInDim S50000 32 0),
    StableHlo.unary main_v54 main_v61 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v61 main_v62 rfl shapeCasts_S1x500000_S500000,
    StableHlo.binary main_v62 main_v60 main_v63 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.unary main_v54 main_v64 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v64 main_v65 rfl shapeCasts_S1x500000_S500000,
    StableHlo.binary main_v65 main_v60 main_v66 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.nullary main_cst_9 (constant S_ .f32 0x3F800000#32),
    StableHlo.unary main_cst_9 main_v67 (broadcastInDim S550000 ![] bcast_S_S550000 : (⟨S_, .f32⟩ : BufTy).Contents (Elt F) → (⟨S550000, .f32⟩ : BufTy).Contents (Elt F)),
    StableHlo.nullary main_cst_10 (constant S_ .f32 0x00000000#32),
    StableHlo.unary main_cst_10 main_v68 (broadcastInDim S50000 ![] bcast_S_S50000 : (⟨S_, .f32⟩ : BufTy).Contents (Elt F) → (⟨S50000, .f32⟩ : BufTy).Contents (Elt F)),
    StableHlo.unary main_v66 main_v69 (broadcastInDim S550000x1 ![0] bcast_S550000_S550000x1_0 : (⟨S550000, .i32⟩ : BufTy).Contents (Elt F) → (⟨S550000x1, .i32⟩ : BufTy).Contents (Elt F)),
    StableHlo.ternary main_v68 main_v69 main_v67 main_v70 ((fun x i u => Host.scatterAdd scatter_S50000_S550000x1_S550000_n_0_0_1 x i u) : (⟨S50000, .f32⟩ : BufTy).Contents (Elt F) → (⟨S550000x1, .i32⟩ : BufTy).Contents (Elt F) → (⟨S550000, .f32⟩ : BufTy).Contents (Elt F) → (⟨S50000, .f32⟩ : BufTy).Contents (Elt F)),
    StableHlo.nullary main_cst_11 (constant S_ .f32 0x00000000#32),
    StableHlo.unary main_cst_11 main_v71 (broadcastInDim S50000 ![] bcast_S_S50000 : (⟨S_, .f32⟩ : BufTy).Contents (Elt F) → (⟨S50000, .f32⟩ : BufTy).Contents (Elt F)),
    StableHlo.binary main_v70 main_v71 main_v72 (cmpf .ogt : (⟨S50000, .f32⟩ : BufTy).Contents (Elt F) → (⟨S50000, .f32⟩ : BufTy).Contents (Elt F) → (⟨S50000, .i1⟩ : BufTy).Contents (Elt F)),
    StableHlo.unary main_v70 main_v73 (Host.rsqrt : (⟨S50000, .f32⟩ : BufTy).Contents (Elt F) → (⟨S50000, .f32⟩ : BufTy).Contents (Elt F)),
    StableHlo.nullary main_cst_12 (constant S_ .f32 0x00000000#32),
    StableHlo.TRef.unary (TRef.of main_cst_12 : TRef sig ⟨S_, .f32⟩) main_call1.v0 id,
    StableHlo.TRef.unary main_call1.v0 main_call1.v1 (broadcastInDim S50000 ![] bcast_S_S50000),
    StableHlo.TRef.ternary (TRef.of main_v72 : TRef sig ⟨S50000, .i1⟩) (TRef.of main_v73 : TRef sig ⟨S50000, .f32⟩) main_call1.v1 main_call1.v2 select,
    StableHlo.nullary main_c_13 (constantI S_ 32 0#32),
    StableHlo.unary main_c_13 main_v75 (broadcastInDim S550000 ![] bcast_S_S550000 : (⟨S_, .i32⟩ : BufTy).Contents (Elt F) → (⟨S550000, .i32⟩ : BufTy).Contents (Elt F)),
    StableHlo.binary main_v63 main_v75 main_v76 (cmpi .slt : (⟨S550000, .i32⟩ : BufTy).Contents (Elt F) → (⟨S550000, .i32⟩ : BufTy).Contents (Elt F) → (⟨S550000, .i1⟩ : BufTy).Contents (Elt F)),
    StableHlo.nullary main_c_14 (constantI S_ 32 50000#32),
    StableHlo.unary main_c_14 main_v77 (broadcastInDim S550000 ![] bcast_S_S550000 : (⟨S_, .i32⟩ : BufTy).Contents (Elt F) → (⟨S550000, .i32⟩ : BufTy).Contents (Elt F)),
    StableHlo.binary main_v63 main_v77 main_v78 (addi : (⟨S550000, .i32⟩ : BufTy).Contents (Elt F) → (⟨S550000, .i32⟩ : BufTy).Contents (Elt F) → (⟨S550000, .i32⟩ : BufTy).Contents (Elt F)),
    StableHlo.ternary main_v76 main_v78 main_v63 main_v79 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v79 main_v80 (broadcastInDim S550000x1 ![0] bcast_S550000_S550000x1_0 : (⟨S550000, .i32⟩ : BufTy).Contents (Elt F) → (⟨S550000x1, .i32⟩ : BufTy).Contents (Elt F)),
    StableHlo.binary main_v74 main_v80 main_v81 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.nullary main_c_15 (constantI S_ 32 0#32),
    StableHlo.unary main_c_15 main_v82 (broadcastInDim S550000 ![] bcast_S_S550000 : (⟨S_, .i32⟩ : BufTy).Contents (Elt F) → (⟨S550000, .i32⟩ : BufTy).Contents (Elt F)),
    StableHlo.binary main_v66 main_v82 main_v83 (cmpi .slt : (⟨S550000, .i32⟩ : BufTy).Contents (Elt F) → (⟨S550000, .i32⟩ : BufTy).Contents (Elt F) → (⟨S550000, .i1⟩ : BufTy).Contents (Elt F)),
    StableHlo.nullary main_c_16 (constantI S_ 32 50000#32),
    StableHlo.unary main_c_16 main_v84 (broadcastInDim S550000 ![] bcast_S_S550000 : (⟨S_, .i32⟩ : BufTy).Contents (Elt F) → (⟨S550000, .i32⟩ : BufTy).Contents (Elt F)),
    StableHlo.binary main_v66 main_v84 main_v85 (addi : (⟨S550000, .i32⟩ : BufTy).Contents (Elt F) → (⟨S550000, .i32⟩ : BufTy).Contents (Elt F) → (⟨S550000, .i32⟩ : BufTy).Contents (Elt F)),
    StableHlo.ternary main_v83 main_v85 main_v66 main_v86 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v86 main_v87 (broadcastInDim S550000x1 ![0] bcast_S550000_S550000x1_0 : (⟨S550000, .i32⟩ : BufTy).Contents (Elt F) → (⟨S550000x1, .i32⟩ : BufTy).Contents (Elt F)),
    StableHlo.binary main_v74 main_v87 main_v88 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.binary main_v81 main_v88 main_v89 (mulf : (⟨S550000, .f32⟩ : BufTy).Contents (Elt F) → (⟨S550000, .f32⟩ : BufTy).Contents (Elt F) → (⟨S550000, .f32⟩ : BufTy).Contents (Elt F)),
    StableHlo.nullary main_c_17 (constantI S_ 32 0#32),
    StableHlo.unary main_c_17 main_v90 (broadcastInDim S550000 ![] bcast_S_S550000 : (⟨S_, .i32⟩ : BufTy).Contents (Elt F) → (⟨S550000, .i32⟩ : BufTy).Contents (Elt F)),
    StableHlo.binary main_v63 main_v90 main_v91 (cmpi .slt : (⟨S550000, .i32⟩ : BufTy).Contents (Elt F) → (⟨S550000, .i32⟩ : BufTy).Contents (Elt F) → (⟨S550000, .i1⟩ : BufTy).Contents (Elt F)),
    StableHlo.nullary main_c_18 (constantI S_ 32 50000#32),
    StableHlo.unary main_c_18 main_v92 (broadcastInDim S550000 ![] bcast_S_S550000 : (⟨S_, .i32⟩ : BufTy).Contents (Elt F) → (⟨S550000, .i32⟩ : BufTy).Contents (Elt F)),
    StableHlo.binary main_v63 main_v92 main_v93 (addi : (⟨S550000, .i32⟩ : BufTy).Contents (Elt F) → (⟨S550000, .i32⟩ : BufTy).Contents (Elt F) → (⟨S550000, .i32⟩ : BufTy).Contents (Elt F)),
    StableHlo.ternary main_v91 main_v93 main_v63 main_v94 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v94 main_v95 (broadcastInDim S550000x1 ![0] bcast_S550000_S550000x1_0 : (⟨S550000, .i32⟩ : BufTy).Contents (Elt F) → (⟨S550000x1, .i32⟩ : BufTy).Contents (Elt F)),
    StableHlo.binary main_v59 main_v95 main_v96 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    StableHlo.unary main_v89 main_v97 (broadcastInDim S550000x1 ![0] bcast_S550000_S550000x1_0 : (⟨S550000, .f32⟩ : BufTy).Contents (Elt F) → (⟨S550000x1, .f32⟩ : BufTy).Contents (Elt F)),
    StableHlo.unary main_v97 main_v98 (broadcastInDim S550000x128 ![0, 1] bcast_S550000x1_S550000x128_0_1 : (⟨S550000x1, .f32⟩ : BufTy).Contents (Elt F) → (⟨S550000x128, .f32⟩ : BufTy).Contents (Elt F)),
    StableHlo.binary main_v96 main_v98 main_v99 (mulf : (⟨S550000x128, .f32⟩ : BufTy).Contents (Elt F) → (⟨S550000x128, .f32⟩ : BufTy).Contents (Elt F) → (⟨S550000x128, .f32⟩ : BufTy).Contents (Elt F)),
    StableHlo.nullary main_cst_19 (constant S_ .f32 0x00000000#32),
    StableHlo.unary main_cst_19 main_v100 (broadcastInDim S50000x128 ![] bcast_S_S50000x128 : (⟨S_, .f32⟩ : BufTy).Contents (Elt F) → (⟨S50000x128, .f32⟩ : BufTy).Contents (Elt F)),
    StableHlo.unary main_v66 main_v101 (broadcastInDim S550000x1 ![0] bcast_S550000_S550000x1_0 : (⟨S550000, .i32⟩ : BufTy).Contents (Elt F) → (⟨S550000x1, .i32⟩ : BufTy).Contents (Elt F)),
    StableHlo.ternary main_v100 main_v101 main_v99 main_v102 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)),
    StableHlo.unary main_v58 main_v103 (broadcastInDim S1x128 ![1] bcast_S128_S1x128_1 : (⟨S128, .f32⟩ : BufTy).Contents (Elt F) → (⟨S1x128, .f32⟩ : BufTy).Contents (Elt F)),
    StableHlo.unary main_v103 main_v104 (broadcastInDim S50000x128 ![0, 1] bcast_S1x128_S50000x128_0_1 : (⟨S1x128, .f32⟩ : BufTy).Contents (Elt F) → (⟨S50000x128, .f32⟩ : BufTy).Contents (Elt F)),
    StableHlo.binary main_v102 main_v104 main_v105 (addf : (⟨S50000x128, .f32⟩ : BufTy).Contents (Elt F) → (⟨S50000x128, .f32⟩ : BufTy).Contents (Elt F) → (⟨S50000x128, .f32⟩ : BufTy).Contents (Elt F)),
    StableHlo.binary main_v52 main_v105 main_v106 (addf : (⟨S50000x128, .f32⟩ : BufTy).Contents (Elt F) → (⟨S50000x128, .f32⟩ : BufTy).Contents (Elt F) → (⟨S50000x128, .f32⟩ : BufTy).Contents (Elt F)) ]

/-- The buffers those operations write, in order. -/
abbrev wrL1R1 : List (Ref sig .tc) :=
  [ main_v53, main_v54, main_v55, main_v56, main_v57, main_v58, main_v59, main_v60,
    main_v61, main_v62, main_v63, main_v64, main_v65, main_v66, main_cst_9, main_v67,
    main_cst_10, main_v68, main_v69, main_v70, main_cst_11, main_v71, main_v72, main_v73,
    main_cst_12, main_call1_v0, main_call1_v1, main_v74, main_c_13, main_v75, main_v76, main_c_14,
    main_v77, main_v78, main_v79, main_v80, main_v81, main_c_15, main_v82, main_v83,
    main_c_16, main_v84, main_v85, main_v86, main_v87, main_v88, main_v89, main_c_17,
    main_v90, main_v91, main_c_18, main_v92, main_v93, main_v94, main_v95, main_v96,
    main_v97, main_v98, main_v99, main_cst_19, main_v100, main_v101, main_v102, main_v103,
    main_v104, main_v105, main_v106 ]

/-- An operation that writes one buffer of a list writes within the list. -/
private theorem sub_of_mem {op : HloOp τ sig (Elt F)} (y : Ref sig .tc) {L : List (Ref sig .tc)}
    (hw : op.writes = {Proc.devRef (τ := τ) .tc y}) (hy : y ∈ L) : op.writes ⊆ (L.map (Proc.devRef (τ := τ) .tc)).toFinset := by
  rw [hw, Finset.singleton_subset_iff, List.mem_toFinset]; exact List.mem_map_of_mem hy

/-- Each operation writes only a buffer of the list. -/
theorem stL1R1_writes : (stL1R1 : List (HloOp τ sig (Elt F))).Forall fun op => op.writes ⊆ (wrL1R1.map (Proc.devRef (τ := τ) .tc)).toFinset :=
  ⟨sub_of_mem main_v53 rfl (by decide), sub_of_mem main_v54 rfl (by decide), sub_of_mem main_v55 rfl (by decide),
    sub_of_mem main_v56 rfl (by decide), sub_of_mem main_v57 rfl (by decide), sub_of_mem main_v58 rfl (by decide),
    sub_of_mem main_v59 rfl (by decide), sub_of_mem main_v60 rfl (by decide), sub_of_mem main_v61 rfl (by decide),
    sub_of_mem main_v62 rfl (by decide), sub_of_mem main_v63 rfl (by decide), sub_of_mem main_v64 rfl (by decide),
    sub_of_mem main_v65 rfl (by decide), sub_of_mem main_v66 rfl (by decide), sub_of_mem main_cst_9 rfl (by decide),
    sub_of_mem main_v67 rfl (by decide), sub_of_mem main_cst_10 rfl (by decide), sub_of_mem main_v68 rfl (by decide),
    sub_of_mem main_v69 rfl (by decide), sub_of_mem main_v70 rfl (by decide), sub_of_mem main_cst_11 rfl (by decide),
    sub_of_mem main_v71 rfl (by decide), sub_of_mem main_v72 rfl (by decide), sub_of_mem main_v73 rfl (by decide),
    sub_of_mem main_cst_12 rfl (by decide), sub_of_mem main_call1_v0 rfl (by decide), sub_of_mem main_call1_v1 rfl (by decide),
    sub_of_mem main_v74 rfl (by decide), sub_of_mem main_c_13 rfl (by decide), sub_of_mem main_v75 rfl (by decide),
    sub_of_mem main_v76 rfl (by decide), sub_of_mem main_c_14 rfl (by decide), sub_of_mem main_v77 rfl (by decide),
    sub_of_mem main_v78 rfl (by decide), sub_of_mem main_v79 rfl (by decide), sub_of_mem main_v80 rfl (by decide),
    sub_of_mem main_v81 rfl (by decide), sub_of_mem main_c_15 rfl (by decide), sub_of_mem main_v82 rfl (by decide),
    sub_of_mem main_v83 rfl (by decide), sub_of_mem main_c_16 rfl (by decide), sub_of_mem main_v84 rfl (by decide),
    sub_of_mem main_v85 rfl (by decide), sub_of_mem main_v86 rfl (by decide), sub_of_mem main_v87 rfl (by decide),
    sub_of_mem main_v88 rfl (by decide), sub_of_mem main_v89 rfl (by decide), sub_of_mem main_c_17 rfl (by decide),
    sub_of_mem main_v90 rfl (by decide), sub_of_mem main_v91 rfl (by decide), sub_of_mem main_c_18 rfl (by decide),
    sub_of_mem main_v92 rfl (by decide), sub_of_mem main_v93 rfl (by decide), sub_of_mem main_v94 rfl (by decide),
    sub_of_mem main_v95 rfl (by decide), sub_of_mem main_v96 rfl (by decide), sub_of_mem main_v97 rfl (by decide),
    sub_of_mem main_v98 rfl (by decide), sub_of_mem main_v99 rfl (by decide), sub_of_mem main_cst_19 rfl (by decide),
    sub_of_mem main_v100 rfl (by decide), sub_of_mem main_v101 rfl (by decide), sub_of_mem main_v102 rfl (by decide),
    sub_of_mem main_v103 rfl (by decide), sub_of_mem main_v104 rfl (by decide), sub_of_mem main_v105 rfl (by decide),
    sub_of_mem main_v106 rfl (by decide)⟩

/-- A buffer not in the list holds after the operations what it held before. -/
theorem stL1R1_frame {r : Ref sig .tc} (hr : r ∉ wrL1R1) (W : Valuation τ sig (Elt F)) :
    after stL1R1 W (no_index (Proc.devRef .tc r)) = W (Proc.devRef .tc r) :=
  after_of_writes_sub stL1R1 W stL1R1_writes hr

end Cert.ReferenceIdeal.RefRead

end
-- ==== Proof.RefSt_L1R2.lean ====
import proofs.«115534_j8151847928363_1_alg».proof.Proof.Gen.ReferenceIdeal
import Idealize.ShloMosaic.Lib.StableHlo.Run

set_option maxRecDepth 8192

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

/-- Operations 133 ≤ k < 200 of the program, in execution order. -/
abbrev stL1R2 : List (HloOp τ sig (Elt F)) :=
  [ StableHlo.unary main_arg1 main_v107 ((extractStridedSlice S1x2x500000 ![2, 0, 0] · slices_S4x2x500000_S1x2x500000_2_0_0) : (⟨S4x2x500000, .i32⟩ : BufTy).Contents (Elt F) → (⟨S1x2x500000, .i32⟩ : BufTy).Contents (Elt F)),
    StableHlo.reshape main_v107 main_v108 rfl shapeCasts_S1x2x500000_S2x500000,
    StableHlo.unary main_arg2 main_v109 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v109 main_v110 rfl shapeCasts_S1x128x128_S128x128,
    StableHlo.unary main_arg3 main_v111 ((extractStridedSlice S1x128 ![2, 0] · slices_S4x128_S1x128_2_0) : (⟨S4x128, .f32⟩ : BufTy).Contents (Elt F) → (⟨S1x128, .f32⟩ : BufTy).Contents (Elt F)),
    StableHlo.reshape main_v111 main_v112 rfl shapeCasts_S1x128_S128,
    StableHlo.binary main_arg0 main_v110 main_v113 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_v114 (iotaInDim S50000 32 0),
    StableHlo.unary main_v108 main_v115 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v115 main_v116 rfl shapeCasts_S1x500000_S500000,
    StableHlo.binary main_v116 main_v114 main_v117 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.unary main_v108 main_v118 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v118 main_v119 rfl shapeCasts_S1x500000_S500000,
    StableHlo.binary main_v119 main_v114 main_v120 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.nullary main_cst_20 (constant S_ .f32 0x3F800000#32),
    StableHlo.unary main_cst_20 main_v121 (broadcastInDim S550000 ![] bcast_S_S550000 : (⟨S_, .f32⟩ : BufTy).Contents (Elt F) → (⟨S550000, .f32⟩ : BufTy).Contents (Elt F)),
    StableHlo.nullary main_cst_21 (constant S_ .f32 0x00000000#32),
    StableHlo.unary main_cst_21 main_v122 (broadcastInDim S50000 ![] bcast_S_S50000 : (⟨S_, .f32⟩ : BufTy).Contents (Elt F) → (⟨S50000, .f32⟩ : BufTy).Contents (Elt F)),
    StableHlo.unary main_v120 main_v123 (broadcastInDim S550000x1 ![0] bcast_S550000_S550000x1_0 : (⟨S550000, .i32⟩ : BufTy).Contents (Elt F) → (⟨S550000x1, .i32⟩ : BufTy).Contents (Elt F)),
    StableHlo.ternary main_v122 main_v123 main_v121 main_v124 ((fun x i u => Host.scatterAdd scatter_S50000_S550000x1_S550000_n_0_0_1 x i u) : (⟨S50000, .f32⟩ : BufTy).Contents (Elt F) → (⟨S550000x1, .i32⟩ : BufTy).Contents (Elt F) → (⟨S550000, .f32⟩ : BufTy).Contents (Elt F) → (⟨S50000, .f32⟩ : BufTy).Contents (Elt F)),
    StableHlo.nullary main_cst_22 (constant S_ .f32 0x00000000#32),
    StableHlo.unary main_cst_22 main_v125 (broadcastInDim S50000 ![] bcast_S_S50000 : (⟨S_, .f32⟩ : BufTy).Contents (Elt F) → (⟨S50000, .f32⟩ : BufTy).Contents (Elt F)),
    StableHlo.binary main_v124 main_v125 main_v126 (cmpf .ogt : (⟨S50000, .f32⟩ : BufTy).Contents (Elt F) → (⟨S50000, .f32⟩ : BufTy).Contents (Elt F) → (⟨S50000, .i1⟩ : BufTy).Contents (Elt F)),
    StableHlo.unary main_v124 main_v127 (Host.rsqrt : (⟨S50000, .f32⟩ : BufTy).Contents (Elt F) → (⟨S50000, .f32⟩ : BufTy).Contents (Elt F)),
    StableHlo.nullary main_cst_23 (constant S_ .f32 0x00000000#32),
    StableHlo.TRef.unary (TRef.of main_cst_23 : TRef sig ⟨S_, .f32⟩) main_call2.v0 id,
    StableHlo.TRef.unary main_call2.v0 main_call2.v1 (broadcastInDim S50000 ![] bcast_S_S50000),
    StableHlo.TRef.ternary (TRef.of main_v126 : TRef sig ⟨S50000, .i1⟩) (TRef.of main_v127 : TRef sig ⟨S50000, .f32⟩) main_call2.v1 main_call2.v2 select,
    StableHlo.nullary main_c_24 (constantI S_ 32 0#32),
    StableHlo.unary main_c_24 main_v129 (broadcastInDim S550000 ![] bcast_S_S550000 : (⟨S_, .i32⟩ : BufTy).Contents (Elt F) → (⟨S550000, .i32⟩ : BufTy).Contents (Elt F)),
    StableHlo.binary main_v117 main_v129 main_v130 (cmpi .slt : (⟨S550000, .i32⟩ : BufTy).Contents (Elt F) → (⟨S550000, .i32⟩ : BufTy).Contents (Elt F) → (⟨S550000, .i1⟩ : BufTy).Contents (Elt F)),
    StableHlo.nullary main_c_25 (constantI S_ 32 50000#32),
    StableHlo.unary main_c_25 main_v131 (broadcastInDim S550000 ![] bcast_S_S550000 : (⟨S_, .i32⟩ : BufTy).Contents (Elt F) → (⟨S550000, .i32⟩ : BufTy).Contents (Elt F)),
    StableHlo.binary main_v117 main_v131 main_v132 (addi : (⟨S550000, .i32⟩ : BufTy).Contents (Elt F) → (⟨S550000, .i32⟩ : BufTy).Contents (Elt F) → (⟨S550000, .i32⟩ : BufTy).Contents (Elt F)),
    StableHlo.ternary main_v130 main_v132 main_v117 main_v133 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v133 main_v134 (broadcastInDim S550000x1 ![0] bcast_S550000_S550000x1_0 : (⟨S550000, .i32⟩ : BufTy).Contents (Elt F) → (⟨S550000x1, .i32⟩ : BufTy).Contents (Elt F)),
    StableHlo.binary main_v128 main_v134 main_v135 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.nullary main_c_26 (constantI S_ 32 0#32),
    StableHlo.unary main_c_26 main_v136 (broadcastInDim S550000 ![] bcast_S_S550000 : (⟨S_, .i32⟩ : BufTy).Contents (Elt F) → (⟨S550000, .i32⟩ : BufTy).Contents (Elt F)),
    StableHlo.binary main_v120 main_v136 main_v137 (cmpi .slt : (⟨S550000, .i32⟩ : BufTy).Contents (Elt F) → (⟨S550000, .i32⟩ : BufTy).Contents (Elt F) → (⟨S550000, .i1⟩ : BufTy).Contents (Elt F)),
    StableHlo.nullary main_c_27 (constantI S_ 32 50000#32),
    StableHlo.unary main_c_27 main_v138 (broadcastInDim S550000 ![] bcast_S_S550000 : (⟨S_, .i32⟩ : BufTy).Contents (Elt F) → (⟨S550000, .i32⟩ : BufTy).Contents (Elt F)),
    StableHlo.binary main_v120 main_v138 main_v139 (addi : (⟨S550000, .i32⟩ : BufTy).Contents (Elt F) → (⟨S550000, .i32⟩ : BufTy).Contents (Elt F) → (⟨S550000, .i32⟩ : BufTy).Contents (Elt F)),
    StableHlo.ternary main_v137 main_v139 main_v120 main_v140 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v140 main_v141 (broadcastInDim S550000x1 ![0] bcast_S550000_S550000x1_0 : (⟨S550000, .i32⟩ : BufTy).Contents (Elt F) → (⟨S550000x1, .i32⟩ : BufTy).Contents (Elt F)),
    StableHlo.binary main_v128 main_v141 main_v142 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.binary main_v135 main_v142 main_v143 (mulf : (⟨S550000, .f32⟩ : BufTy).Contents (Elt F) → (⟨S550000, .f32⟩ : BufTy).Contents (Elt F) → (⟨S550000, .f32⟩ : BufTy).Contents (Elt F)),
    StableHlo.nullary main_c_28 (constantI S_ 32 0#32),
    StableHlo.unary main_c_28 main_v144 (broadcastInDim S550000 ![] bcast_S_S550000 : (⟨S_, .i32⟩ : BufTy).Contents (Elt F) → (⟨S550000, .i32⟩ : BufTy).Contents (Elt F)),
    StableHlo.binary main_v117 main_v144 main_v145 (cmpi .slt : (⟨S550000, .i32⟩ : BufTy).Contents (Elt F) → (⟨S550000, .i32⟩ : BufTy).Contents (Elt F) → (⟨S550000, .i1⟩ : BufTy).Contents (Elt F)),
    StableHlo.nullary main_c_29 (constantI S_ 32 50000#32),
    StableHlo.unary main_c_29 main_v146 (broadcastInDim S550000 ![] bcast_S_S550000 : (⟨S_, .i32⟩ : BufTy).Contents (Elt F) → (⟨S550000, .i32⟩ : BufTy).Contents (Elt F)),
    StableHlo.binary main_v117 main_v146 main_v147 (addi : (⟨S550000, .i32⟩ : BufTy).Contents (Elt F) → (⟨S550000, .i32⟩ : BufTy).Contents (Elt F) → (⟨S550000, .i32⟩ : BufTy).Contents (Elt F)),
    StableHlo.ternary main_v145 main_v147 main_v117 main_v148 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v148 main_v149 (broadcastInDim S550000x1 ![0] bcast_S550000_S550000x1_0 : (⟨S550000, .i32⟩ : BufTy).Contents (Elt F) → (⟨S550000x1, .i32⟩ : BufTy).Contents (Elt F)),
    StableHlo.binary main_v113 main_v149 main_v150 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    StableHlo.unary main_v143 main_v151 (broadcastInDim S550000x1 ![0] bcast_S550000_S550000x1_0 : (⟨S550000, .f32⟩ : BufTy).Contents (Elt F) → (⟨S550000x1, .f32⟩ : BufTy).Contents (Elt F)),
    StableHlo.unary main_v151 main_v152 (broadcastInDim S550000x128 ![0, 1] bcast_S550000x1_S550000x128_0_1 : (⟨S550000x1, .f32⟩ : BufTy).Contents (Elt F) → (⟨S550000x128, .f32⟩ : BufTy).Contents (Elt F)),
    StableHlo.binary main_v150 main_v152 main_v153 (mulf : (⟨S550000x128, .f32⟩ : BufTy).Contents (Elt F) → (⟨S550000x128, .f32⟩ : BufTy).Contents (Elt F) → (⟨S550000x128, .f32⟩ : BufTy).Contents (Elt F)),
    StableHlo.nullary main_cst_30 (constant S_ .f32 0x00000000#32),
    StableHlo.unary main_cst_30 main_v154 (broadcastInDim S50000x128 ![] bcast_S_S50000x128 : (⟨S_, .f32⟩ : BufTy).Contents (Elt F) → (⟨S50000x128, .f32⟩ : BufTy).Contents (Elt F)),
    StableHlo.unary main_v120 main_v155 (broadcastInDim S550000x1 ![0] bcast_S550000_S550000x1_0 : (⟨S550000, .i32⟩ : BufTy).Contents (Elt F) → (⟨S550000x1, .i32⟩ : BufTy).Contents (Elt F)),
    StableHlo.ternary main_v154 main_v155 main_v153 main_v156 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)),
    StableHlo.unary main_v112 main_v157 (broadcastInDim S1x128 ![1] bcast_S128_S1x128_1 : (⟨S128, .f32⟩ : BufTy).Contents (Elt F) → (⟨S1x128, .f32⟩ : BufTy).Contents (Elt F)),
    StableHlo.unary main_v157 main_v158 (broadcastInDim S50000x128 ![0, 1] bcast_S1x128_S50000x128_0_1 : (⟨S1x128, .f32⟩ : BufTy).Contents (Elt F) → (⟨S50000x128, .f32⟩ : BufTy).Contents (Elt F)),
    StableHlo.binary main_v156 main_v158 main_v159 (addf : (⟨S50000x128, .f32⟩ : BufTy).Contents (Elt F) → (⟨S50000x128, .f32⟩ : BufTy).Contents (Elt F) → (⟨S50000x128, .f32⟩ : BufTy).Contents (Elt F)),
    StableHlo.binary main_v106 main_v159 main_v160 (addf : (⟨S50000x128, .f32⟩ : BufTy).Contents (Elt F) → (⟨S50000x128, .f32⟩ : BufTy).Contents (Elt F) → (⟨S50000x128, .f32⟩ : BufTy).Contents (Elt F)) ]

/-- The buffers those operations write, in order. -/
abbrev wrL1R2 : List (Ref sig .tc) :=
  [ main_v107, main_v108, main_v109, main_v110, main_v111, main_v112, main_v113, main_v114,
    main_v115, main_v116, main_v117, main_v118, main_v119, main_v120, main_cst_20, main_v121,
    main_cst_21, main_v122, main_v123, main_v124, main_cst_22, main_v125, main_v126, main_v127,
    main_cst_23, main_call2_v0, main_call2_v1, main_v128, main_c_24, main_v129, main_v130, main_c_25,
    main_v131, main_v132, main_v133, main_v134, main_v135, main_c_26, main_v136, main_v137,
    main_c_27, main_v138, main_v139, main_v140, main_v141, main_v142, main_v143, main_c_28,
    main_v144, main_v145, main_c_29, main_v146, main_v147, main_v148, main_v149, main_v150,
    main_v151, main_v152, main_v153, main_cst_30, main_v154, main_v155, main_v156, main_v157,
    main_v158, main_v159, main_v160 ]

/-- An operation that writes one buffer of a list writes within the list. -/
private theorem sub_of_mem {op : HloOp τ sig (Elt F)} (y : Ref sig .tc) {L : List (Ref sig .tc)}
    (hw : op.writes = {Proc.devRef (τ := τ) .tc y}) (hy : y ∈ L) : op.writes ⊆ (L.map (Proc.devRef (τ := τ) .tc)).toFinset := by
  rw [hw, Finset.singleton_subset_iff, List.mem_toFinset]; exact List.mem_map_of_mem hy

/-- Each operation writes only a buffer of the list. -/
theorem stL1R2_writes : (stL1R2 : List (HloOp τ sig (Elt F))).Forall fun op => op.writes ⊆ (wrL1R2.map (Proc.devRef (τ := τ) .tc)).toFinset :=
  ⟨sub_of_mem main_v107 rfl (by decide), sub_of_mem main_v108 rfl (by decide), sub_of_mem main_v109 rfl (by decide),
    sub_of_mem main_v110 rfl (by decide), sub_of_mem main_v111 rfl (by decide), sub_of_mem main_v112 rfl (by decide),
    sub_of_mem main_v113 rfl (by decide), sub_of_mem main_v114 rfl (by decide), sub_of_mem main_v115 rfl (by decide),
    sub_of_mem main_v116 rfl (by decide), sub_of_mem main_v117 rfl (by decide), sub_of_mem main_v118 rfl (by decide),
    sub_of_mem main_v119 rfl (by decide), sub_of_mem main_v120 rfl (by decide), sub_of_mem main_cst_20 rfl (by decide),
    sub_of_mem main_v121 rfl (by decide), sub_of_mem main_cst_21 rfl (by decide), sub_of_mem main_v122 rfl (by decide),
    sub_of_mem main_v123 rfl (by decide), sub_of_mem main_v124 rfl (by decide), sub_of_mem main_cst_22 rfl (by decide),
    sub_of_mem main_v125 rfl (by decide), sub_of_mem main_v126 rfl (by decide), sub_of_mem main_v127 rfl (by decide),
    sub_of_mem main_cst_23 rfl (by decide), sub_of_mem main_call2_v0 rfl (by decide), sub_of_mem main_call2_v1 rfl (by decide),
    sub_of_mem main_v128 rfl (by decide), sub_of_mem main_c_24 rfl (by decide), sub_of_mem main_v129 rfl (by decide),
    sub_of_mem main_v130 rfl (by decide), sub_of_mem main_c_25 rfl (by decide), sub_of_mem main_v131 rfl (by decide),
    sub_of_mem main_v132 rfl (by decide), sub_of_mem main_v133 rfl (by decide), sub_of_mem main_v134 rfl (by decide),
    sub_of_mem main_v135 rfl (by decide), sub_of_mem main_c_26 rfl (by decide), sub_of_mem main_v136 rfl (by decide),
    sub_of_mem main_v137 rfl (by decide), sub_of_mem main_c_27 rfl (by decide), sub_of_mem main_v138 rfl (by decide),
    sub_of_mem main_v139 rfl (by decide), sub_of_mem main_v140 rfl (by decide), sub_of_mem main_v141 rfl (by decide),
    sub_of_mem main_v142 rfl (by decide), sub_of_mem main_v143 rfl (by decide), sub_of_mem main_c_28 rfl (by decide),
    sub_of_mem main_v144 rfl (by decide), sub_of_mem main_v145 rfl (by decide), sub_of_mem main_c_29 rfl (by decide),
    sub_of_mem main_v146 rfl (by decide), sub_of_mem main_v147 rfl (by decide), sub_of_mem main_v148 rfl (by decide),
    sub_of_mem main_v149 rfl (by decide), sub_of_mem main_v150 rfl (by decide), sub_of_mem main_v151 rfl (by decide),
    sub_of_mem main_v152 rfl (by decide), sub_of_mem main_v153 rfl (by decide), sub_of_mem main_cst_30 rfl (by decide),
    sub_of_mem main_v154 rfl (by decide), sub_of_mem main_v155 rfl (by decide), sub_of_mem main_v156 rfl (by decide),
    sub_of_mem main_v157 rfl (by decide), sub_of_mem main_v158 rfl (by decide), sub_of_mem main_v159 rfl (by decide),
    sub_of_mem main_v160 rfl (by decide)⟩

/-- A buffer not in the list holds after the operations what it held before. -/
theorem stL1R2_frame {r : Ref sig .tc} (hr : r ∉ wrL1R2) (W : Valuation τ sig (Elt F)) :
    after stL1R2 W (no_index (Proc.devRef .tc r)) = W (Proc.devRef .tc r) :=
  after_of_writes_sub stL1R2 W stL1R2_writes hr

end Cert.ReferenceIdeal.RefRead

end
-- ==== Proof.RefSt_L1R3.lean ====
import proofs.«115534_j8151847928363_1_alg».proof.Proof.Gen.ReferenceIdeal
import Idealize.ShloMosaic.Lib.StableHlo.Run

set_option maxRecDepth 8192

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

/-- Operations 200 ≤ k < 267 of the program, in execution order. -/
abbrev stL1R3 : List (HloOp τ sig (Elt F)) :=
  [ StableHlo.unary main_arg1 main_v161 ((extractStridedSlice S1x2x500000 ![3, 0, 0] · slices_S4x2x500000_S1x2x500000_3_0_0) : (⟨S4x2x500000, .i32⟩ : BufTy).Contents (Elt F) → (⟨S1x2x500000, .i32⟩ : BufTy).Contents (Elt F)),
    StableHlo.reshape main_v161 main_v162 rfl shapeCasts_S1x2x500000_S2x500000,
    StableHlo.unary main_arg2 main_v163 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v163 main_v164 rfl shapeCasts_S1x128x128_S128x128,
    StableHlo.unary main_arg3 main_v165 ((extractStridedSlice S1x128 ![3, 0] · slices_S4x128_S1x128_3_0) : (⟨S4x128, .f32⟩ : BufTy).Contents (Elt F) → (⟨S1x128, .f32⟩ : BufTy).Contents (Elt F)),
    StableHlo.reshape main_v165 main_v166 rfl shapeCasts_S1x128_S128,
    StableHlo.binary main_arg0 main_v164 main_v167 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_v168 (iotaInDim S50000 32 0),
    StableHlo.unary main_v162 main_v169 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v169 main_v170 rfl shapeCasts_S1x500000_S500000,
    StableHlo.binary main_v170 main_v168 main_v171 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.unary main_v162 main_v172 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v172 main_v173 rfl shapeCasts_S1x500000_S500000,
    StableHlo.binary main_v173 main_v168 main_v174 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.nullary main_cst_31 (constant S_ .f32 0x3F800000#32),
    StableHlo.unary main_cst_31 main_v175 (broadcastInDim S550000 ![] bcast_S_S550000 : (⟨S_, .f32⟩ : BufTy).Contents (Elt F) → (⟨S550000, .f32⟩ : BufTy).Contents (Elt F)),
    StableHlo.nullary main_cst_32 (constant S_ .f32 0x00000000#32),
    StableHlo.unary main_cst_32 main_v176 (broadcastInDim S50000 ![] bcast_S_S50000 : (⟨S_, .f32⟩ : BufTy).Contents (Elt F) → (⟨S50000, .f32⟩ : BufTy).Contents (Elt F)),
    StableHlo.unary main_v174 main_v177 (broadcastInDim S550000x1 ![0] bcast_S550000_S550000x1_0 : (⟨S550000, .i32⟩ : BufTy).Contents (Elt F) → (⟨S550000x1, .i32⟩ : BufTy).Contents (Elt F)),
    StableHlo.ternary main_v176 main_v177 main_v175 main_v178 ((fun x i u => Host.scatterAdd scatter_S50000_S550000x1_S550000_n_0_0_1 x i u) : (⟨S50000, .f32⟩ : BufTy).Contents (Elt F) → (⟨S550000x1, .i32⟩ : BufTy).Contents (Elt F) → (⟨S550000, .f32⟩ : BufTy).Contents (Elt F) → (⟨S50000, .f32⟩ : BufTy).Contents (Elt F)),
    StableHlo.nullary main_cst_33 (constant S_ .f32 0x00000000#32),
    StableHlo.unary main_cst_33 main_v179 (broadcastInDim S50000 ![] bcast_S_S50000 : (⟨S_, .f32⟩ : BufTy).Contents (Elt F) → (⟨S50000, .f32⟩ : BufTy).Contents (Elt F)),
    StableHlo.binary main_v178 main_v179 main_v180 (cmpf .ogt : (⟨S50000, .f32⟩ : BufTy).Contents (Elt F) → (⟨S50000, .f32⟩ : BufTy).Contents (Elt F) → (⟨S50000, .i1⟩ : BufTy).Contents (Elt F)),
    StableHlo.unary main_v178 main_v181 (Host.rsqrt : (⟨S50000, .f32⟩ : BufTy).Contents (Elt F) → (⟨S50000, .f32⟩ : BufTy).Contents (Elt F)),
    StableHlo.nullary main_cst_34 (constant S_ .f32 0x00000000#32),
    StableHlo.TRef.unary (TRef.of main_cst_34 : TRef sig ⟨S_, .f32⟩) main_call3.v0 id,
    StableHlo.TRef.unary main_call3.v0 main_call3.v1 (broadcastInDim S50000 ![] bcast_S_S50000),
    StableHlo.TRef.ternary (TRef.of main_v180 : TRef sig ⟨S50000, .i1⟩) (TRef.of main_v181 : TRef sig ⟨S50000, .f32⟩) main_call3.v1 main_call3.v2 select,
    StableHlo.nullary main_c_35 (constantI S_ 32 0#32),
    StableHlo.unary main_c_35 main_v183 (broadcastInDim S550000 ![] bcast_S_S550000 : (⟨S_, .i32⟩ : BufTy).Contents (Elt F) → (⟨S550000, .i32⟩ : BufTy).Contents (Elt F)),
    StableHlo.binary main_v171 main_v183 main_v184 (cmpi .slt : (⟨S550000, .i32⟩ : BufTy).Contents (Elt F) → (⟨S550000, .i32⟩ : BufTy).Contents (Elt F) → (⟨S550000, .i1⟩ : BufTy).Contents (Elt F)),
    StableHlo.nullary main_c_36 (constantI S_ 32 50000#32),
    StableHlo.unary main_c_36 main_v185 (broadcastInDim S550000 ![] bcast_S_S550000 : (⟨S_, .i32⟩ : BufTy).Contents (Elt F) → (⟨S550000, .i32⟩ : BufTy).Contents (Elt F)),
    StableHlo.binary main_v171 main_v185 main_v186 (addi : (⟨S550000, .i32⟩ : BufTy).Contents (Elt F) → (⟨S550000, .i32⟩ : BufTy).Contents (Elt F) → (⟨S550000, .i32⟩ : BufTy).Contents (Elt F)),
    StableHlo.ternary main_v184 main_v186 main_v171 main_v187 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v187 main_v188 (broadcastInDim S550000x1 ![0] bcast_S550000_S550000x1_0 : (⟨S550000, .i32⟩ : BufTy).Contents (Elt F) → (⟨S550000x1, .i32⟩ : BufTy).Contents (Elt F)),
    StableHlo.binary main_v182 main_v188 main_v189 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.nullary main_c_37 (constantI S_ 32 0#32),
    StableHlo.unary main_c_37 main_v190 (broadcastInDim S550000 ![] bcast_S_S550000 : (⟨S_, .i32⟩ : BufTy).Contents (Elt F) → (⟨S550000, .i32⟩ : BufTy).Contents (Elt F)),
    StableHlo.binary main_v174 main_v190 main_v191 (cmpi .slt : (⟨S550000, .i32⟩ : BufTy).Contents (Elt F) → (⟨S550000, .i32⟩ : BufTy).Contents (Elt F) → (⟨S550000, .i1⟩ : BufTy).Contents (Elt F)),
    StableHlo.nullary main_c_38 (constantI S_ 32 50000#32),
    StableHlo.unary main_c_38 main_v192 (broadcastInDim S550000 ![] bcast_S_S550000 : (⟨S_, .i32⟩ : BufTy).Contents (Elt F) → (⟨S550000, .i32⟩ : BufTy).Contents (Elt F)),
    StableHlo.binary main_v174 main_v192 main_v193 (addi : (⟨S550000, .i32⟩ : BufTy).Contents (Elt F) → (⟨S550000, .i32⟩ : BufTy).Contents (Elt F) → (⟨S550000, .i32⟩ : BufTy).Contents (Elt F)),
    StableHlo.ternary main_v191 main_v193 main_v174 main_v194 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v194 main_v195 (broadcastInDim S550000x1 ![0] bcast_S550000_S550000x1_0 : (⟨S550000, .i32⟩ : BufTy).Contents (Elt F) → (⟨S550000x1, .i32⟩ : BufTy).Contents (Elt F)),
    StableHlo.binary main_v182 main_v195 main_v196 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.binary main_v189 main_v196 main_v197 (mulf : (⟨S550000, .f32⟩ : BufTy).Contents (Elt F) → (⟨S550000, .f32⟩ : BufTy).Contents (Elt F) → (⟨S550000, .f32⟩ : BufTy).Contents (Elt F)),
    StableHlo.nullary main_c_39 (constantI S_ 32 0#32),
    StableHlo.unary main_c_39 main_v198 (broadcastInDim S550000 ![] bcast_S_S550000 : (⟨S_, .i32⟩ : BufTy).Contents (Elt F) → (⟨S550000, .i32⟩ : BufTy).Contents (Elt F)),
    StableHlo.binary main_v171 main_v198 main_v199 (cmpi .slt : (⟨S550000, .i32⟩ : BufTy).Contents (Elt F) → (⟨S550000, .i32⟩ : BufTy).Contents (Elt F) → (⟨S550000, .i1⟩ : BufTy).Contents (Elt F)),
    StableHlo.nullary main_c_40 (constantI S_ 32 50000#32),
    StableHlo.unary main_c_40 main_v200 (broadcastInDim S550000 ![] bcast_S_S550000 : (⟨S_, .i32⟩ : BufTy).Contents (Elt F) → (⟨S550000, .i32⟩ : BufTy).Contents (Elt F)),
    StableHlo.binary main_v171 main_v200 main_v201 (addi : (⟨S550000, .i32⟩ : BufTy).Contents (Elt F) → (⟨S550000, .i32⟩ : BufTy).Contents (Elt F) → (⟨S550000, .i32⟩ : BufTy).Contents (Elt F)),
    StableHlo.ternary main_v199 main_v201 main_v171 main_v202 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v202 main_v203 (broadcastInDim S550000x1 ![0] bcast_S550000_S550000x1_0 : (⟨S550000, .i32⟩ : BufTy).Contents (Elt F) → (⟨S550000x1, .i32⟩ : BufTy).Contents (Elt F)),
    StableHlo.binary main_v167 main_v203 main_v204 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    StableHlo.unary main_v197 main_v205 (broadcastInDim S550000x1 ![0] bcast_S550000_S550000x1_0 : (⟨S550000, .f32⟩ : BufTy).Contents (Elt F) → (⟨S550000x1, .f32⟩ : BufTy).Contents (Elt F)),
    StableHlo.unary main_v205 main_v206 (broadcastInDim S550000x128 ![0, 1] bcast_S550000x1_S550000x128_0_1 : (⟨S550000x1, .f32⟩ : BufTy).Contents (Elt F) → (⟨S550000x128, .f32⟩ : BufTy).Contents (Elt F)),
    StableHlo.binary main_v204 main_v206 main_v207 (mulf : (⟨S550000x128, .f32⟩ : BufTy).Contents (Elt F) → (⟨S550000x128, .f32⟩ : BufTy).Contents (Elt F) → (⟨S550000x128, .f32⟩ : BufTy).Contents (Elt F)),
    StableHlo.nullary main_cst_41 (constant S_ .f32 0x00000000#32),
    StableHlo.unary main_cst_41 main_v208 (broadcastInDim S50000x128 ![] bcast_S_S50000x128 : (⟨S_, .f32⟩ : BufTy).Contents (Elt F) → (⟨S50000x128, .f32⟩ : BufTy).Contents (Elt F)),
    StableHlo.unary main_v174 main_v209 (broadcastInDim S550000x1 ![0] bcast_S550000_S550000x1_0 : (⟨S550000, .i32⟩ : BufTy).Contents (Elt F) → (⟨S550000x1, .i32⟩ : BufTy).Contents (Elt F)),
    StableHlo.ternary main_v208 main_v209 main_v207 main_v210 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)),
    StableHlo.unary main_v166 main_v211 (broadcastInDim S1x128 ![1] bcast_S128_S1x128_1 : (⟨S128, .f32⟩ : BufTy).Contents (Elt F) → (⟨S1x128, .f32⟩ : BufTy).Contents (Elt F)),
    StableHlo.unary main_v211 main_v212 (broadcastInDim S50000x128 ![0, 1] bcast_S1x128_S50000x128_0_1 : (⟨S1x128, .f32⟩ : BufTy).Contents (Elt F) → (⟨S50000x128, .f32⟩ : BufTy).Contents (Elt F)),
    StableHlo.binary main_v210 main_v212 main_v213 (addf : (⟨S50000x128, .f32⟩ : BufTy).Contents (Elt F) → (⟨S50000x128, .f32⟩ : BufTy).Contents (Elt F) → (⟨S50000x128, .f32⟩ : BufTy).Contents (Elt F)),
    StableHlo.binary main_v160 main_v213 main_v214 (addf : (⟨S50000x128, .f32⟩ : BufTy).Contents (Elt F) → (⟨S50000x128, .f32⟩ : BufTy).Contents (Elt F) → (⟨S50000x128, .f32⟩ : BufTy).Contents (Elt F)) ]

/-- The buffers those operations write, in order. -/
abbrev wrL1R3 : List (Ref sig .tc) :=
  [ main_v161, main_v162, main_v163, main_v164, main_v165, main_v166, main_v167, main_v168,
    main_v169, main_v170, main_v171, main_v172, main_v173, main_v174, main_cst_31, main_v175,
    main_cst_32, main_v176, main_v177, main_v178, main_cst_33, main_v179, main_v180, main_v181,
    main_cst_34, main_call3_v0, main_call3_v1, main_v182, main_c_35, main_v183, main_v184, main_c_36,
    main_v185, main_v186, main_v187, main_v188, main_v189, main_c_37, main_v190, main_v191,
    main_c_38, main_v192, main_v193, main_v194, main_v195, main_v196, main_v197, main_c_39,
    main_v198, main_v199, main_c_40, main_v200, main_v201, main_v202, main_v203, main_v204,
    main_v205, main_v206, main_v207, main_cst_41, main_v208, main_v209, main_v210, main_v211,
    main_v212, main_v213, main_v214 ]

/-- An operation that writes one buffer of a list writes within the list. -/
private theorem sub_of_mem {op : HloOp τ sig (Elt F)} (y : Ref sig .tc) {L : List (Ref sig .tc)}
    (hw : op.writes = {Proc.devRef (τ := τ) .tc y}) (hy : y ∈ L) : op.writes ⊆ (L.map (Proc.devRef (τ := τ) .tc)).toFinset := by
  rw [hw, Finset.singleton_subset_iff, List.mem_toFinset]; exact List.mem_map_of_mem hy

/-- Each operation writes only a buffer of the list. -/
theorem stL1R3_writes : (stL1R3 : List (HloOp τ sig (Elt F))).Forall fun op => op.writes ⊆ (wrL1R3.map (Proc.devRef (τ := τ) .tc)).toFinset :=
  ⟨sub_of_mem main_v161 rfl (by decide), sub_of_mem main_v162 rfl (by decide), sub_of_mem main_v163 rfl (by decide),
    sub_of_mem main_v164 rfl (by decide), sub_of_mem main_v165 rfl (by decide), sub_of_mem main_v166 rfl (by decide),
    sub_of_mem main_v167 rfl (by decide), sub_of_mem main_v168 rfl (by decide), sub_of_mem main_v169 rfl (by decide),
    sub_of_mem main_v170 rfl (by decide), sub_of_mem main_v171 rfl (by decide), sub_of_mem main_v172 rfl (by decide),
    sub_of_mem main_v173 rfl (by decide), sub_of_mem main_v174 rfl (by decide), sub_of_mem main_cst_31 rfl (by decide),
    sub_of_mem main_v175 rfl (by decide), sub_of_mem main_cst_32 rfl (by decide), sub_of_mem main_v176 rfl (by decide),
    sub_of_mem main_v177 rfl (by decide), sub_of_mem main_v178 rfl (by decide), sub_of_mem main_cst_33 rfl (by decide),
    sub_of_mem main_v179 rfl (by decide), sub_of_mem main_v180 rfl (by decide), sub_of_mem main_v181 rfl (by decide),
    sub_of_mem main_cst_34 rfl (by decide), sub_of_mem main_call3_v0 rfl (by decide), sub_of_mem main_call3_v1 rfl (by decide),
    sub_of_mem main_v182 rfl (by decide), sub_of_mem main_c_35 rfl (by decide), sub_of_mem main_v183 rfl (by decide),
    sub_of_mem main_v184 rfl (by decide), sub_of_mem main_c_36 rfl (by decide), sub_of_mem main_v185 rfl (by decide),
    sub_of_mem main_v186 rfl (by decide), sub_of_mem main_v187 rfl (by decide), sub_of_mem main_v188 rfl (by decide),
    sub_of_mem main_v189 rfl (by decide), sub_of_mem main_c_37 rfl (by decide), sub_of_mem main_v190 rfl (by decide),
    sub_of_mem main_v191 rfl (by decide), sub_of_mem main_c_38 rfl (by decide), sub_of_mem main_v192 rfl (by decide),
    sub_of_mem main_v193 rfl (by decide), sub_of_mem main_v194 rfl (by decide), sub_of_mem main_v195 rfl (by decide),
    sub_of_mem main_v196 rfl (by decide), sub_of_mem main_v197 rfl (by decide), sub_of_mem main_c_39 rfl (by decide),
    sub_of_mem main_v198 rfl (by decide), sub_of_mem main_v199 rfl (by decide), sub_of_mem main_c_40 rfl (by decide),
    sub_of_mem main_v200 rfl (by decide), sub_of_mem main_v201 rfl (by decide), sub_of_mem main_v202 rfl (by decide),
    sub_of_mem main_v203 rfl (by decide), sub_of_mem main_v204 rfl (by decide), sub_of_mem main_v205 rfl (by decide),
    sub_of_mem main_v206 rfl (by decide), sub_of_mem main_v207 rfl (by decide), sub_of_mem main_cst_41 rfl (by decide),
    sub_of_mem main_v208 rfl (by decide), sub_of_mem main_v209 rfl (by decide), sub_of_mem main_v210 rfl (by decide),
    sub_of_mem main_v211 rfl (by decide), sub_of_mem main_v212 rfl (by decide), sub_of_mem main_v213 rfl (by decide),
    sub_of_mem main_v214 rfl (by decide)⟩

/-- A buffer not in the list holds after the operations what it held before. -/
theorem stL1R3_frame {r : Ref sig .tc} (hr : r ∉ wrL1R3) (W : Valuation τ sig (Elt F)) :
    after stL1R3 W (no_index (Proc.devRef .tc r)) = W (Proc.devRef .tc r) :=
  after_of_writes_sub stL1R3 W stL1R3_writes hr

end Cert.ReferenceIdeal.RefRead

end
-- ==== Proof.RefSt_RELU1.lean ====
import proofs.«115534_j8151847928363_1_alg».proof.Proof.Gen.ReferenceIdeal
import Idealize.ShloMosaic.Lib.StableHlo.Run

set_option maxRecDepth 8192

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

/-- Operations 267 ≤ k < 270 of the program, in execution order. -/
abbrev stRELU1 : List (HloOp τ sig (Elt F)) :=
  [ StableHlo.TRef.nullary main_call4.cst (constant S_ .f32 0x00000000#32),
    StableHlo.TRef.unary main_call4.cst main_call4.v0 (broadcastInDim S50000x128 ![] bcast_S_S50000x128),
    StableHlo.TRef.binary (TRef.of main_v214 : TRef sig ⟨S50000x128, .f32⟩) main_call4.v0 main_call4.v1 maximumf ]

/-- The buffers those operations write, in order. -/
abbrev wrRELU1 : List (Ref sig .tc) :=
  [ main_call4_cst, main_call4_v0, main_v215 ]

/-- An operation that writes one buffer of a list writes within the list. -/
private theorem sub_of_mem {op : HloOp τ sig (Elt F)} (y : Ref sig .tc) {L : List (Ref sig .tc)}
    (hw : op.writes = {Proc.devRef (τ := τ) .tc y}) (hy : y ∈ L) : op.writes ⊆ (L.map (Proc.devRef (τ := τ) .tc)).toFinset := by
  rw [hw, Finset.singleton_subset_iff, List.mem_toFinset]; exact List.mem_map_of_mem hy

/-- Each operation writes only a buffer of the list. -/
theorem stRELU1_writes : (stRELU1 : List (HloOp τ sig (Elt F))).Forall fun op => op.writes ⊆ (wrRELU1.map (Proc.devRef (τ := τ) .tc)).toFinset :=
  ⟨sub_of_mem main_call4_cst rfl (by decide), sub_of_mem main_call4_v0 rfl (by decide), sub_of_mem main_v215 rfl (by decide)⟩

/-- A buffer not in the list holds after the operations what it held before. -/
theorem stRELU1_frame {r : Ref sig .tc} (hr : r ∉ wrRELU1) (W : Valuation τ sig (Elt F)) :
    after stRELU1 W (no_index (Proc.devRef .tc r)) = W (Proc.devRef .tc r) :=
  after_of_writes_sub stRELU1 W stRELU1_writes hr

end Cert.ReferenceIdeal.RefRead

end
-- ==== Proof.RefReadL1.lean ====
/- The first layer read stage by stage: each relation's operations compute that relation's convolution of the
   layer's input (added, from the second relation on, to the running sum), and the closing three take the maximum with zero.
   Each equation is the fold over the stage's own operations, rewritten operation by operation. -/
import proofs.«115534_j8151847928363_1_alg».proof.Proof.RefReadDefs
import proofs.«115534_j8151847928363_1_alg».proof.Proof.RefSt_L1R0
import proofs.«115534_j8151847928363_1_alg».proof.Proof.RefSt_L1R1
import proofs.«115534_j8151847928363_1_alg».proof.Proof.RefSt_L1R2
import proofs.«115534_j8151847928363_1_alg».proof.Proof.RefSt_L1R3
import proofs.«115534_j8151847928363_1_alg».proof.Proof.RefSt_RELU1

set_option maxRecDepth 8192

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Relation 0's stage of layer 1: its convolution of the layer's input. -/
theorem L1R0_read (W : Valuation τ sig (Elt F)) :
    after stL1R0 W (no_index (main_v52 : DevRef τ sig)) = gcn (W (main_arg1 : DevRef τ sig)) 0 (W (main_arg0 : DevRef τ sig)) (W (main_arg2 : DevRef τ sig)) (W (main_arg3 : DevRef τ sig)) := by
  after_results_simp
  rfl

set_option maxHeartbeats 4000000 in
/-- Relation 1's stage of layer 1: its convolution of the layer's input, added to the sum so far. -/
theorem L1R1_read (W : Valuation τ sig (Elt F)) :
    after stL1R1 W (no_index (main_v106 : DevRef τ sig)) = addf (W (main_v52 : DevRef τ sig)) (gcn (W (main_arg1 : DevRef τ sig)) 1 (W (main_arg0 : DevRef τ sig)) (W (main_arg2 : DevRef τ sig)) (W (main_arg3 : DevRef τ sig))) := by
  after_results_simp
  rfl

set_option maxHeartbeats 4000000 in
/-- Relation 2's stage of layer 1: its convolution of the layer's input, added to the sum so far. -/
theorem L1R2_read (W : Valuation τ sig (Elt F)) :
    after stL1R2 W (no_index (main_v160 : DevRef τ sig)) = addf (W (main_v106 : DevRef τ sig)) (gcn (W (main_arg1 : DevRef τ sig)) 2 (W (main_arg0 : DevRef τ sig)) (W (main_arg2 : DevRef τ sig)) (W (main_arg3 : DevRef τ sig))) := by
  after_results_simp
  rfl

set_option maxHeartbeats 4000000 in
/-- Relation 3's stage of layer 1: its convolution of the layer's input, added to the sum so far. -/
theorem L1R3_read (W : Valuation τ sig (Elt F)) :
    after stL1R3 W (no_index (main_v214 : DevRef τ sig)) = addf (W (main_v160 : DevRef τ sig)) (gcn (W (main_arg1 : DevRef τ sig)) 3 (W (main_arg0 : DevRef τ sig)) (W (main_arg2 : DevRef τ sig)) (W (main_arg3 : DevRef τ sig))) := by
  after_results_simp
  rfl

/-- The layer's closing stage: the maximum with zero. -/
theorem RELU1_read (W : Valuation τ sig (Elt F)) :
    after stRELU1 W (no_index (main_v215 : DevRef τ sig)) = relu (W (main_v214 : DevRef τ sig)) := by
  after_results_simp
  rfl

end Cert.ReferenceIdeal.RefRead

end
-- ==== Proof.RefSt_L2R0.lean ====
import proofs.«115534_j8151847928363_1_alg».proof.Proof.Gen.ReferenceIdeal
import Idealize.ShloMosaic.Lib.StableHlo.Run

set_option maxRecDepth 8192

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

/-- Operations 270 ≤ k < 336 of the program, in execution order. -/
abbrev stL2R0 : List (HloOp τ sig (Elt F)) :=
  [ StableHlo.unary main_arg1 main_v216 ((extractStridedSlice S1x2x500000 ![0, 0, 0] · slices_S4x2x500000_S1x2x500000_0_0_0) : (⟨S4x2x500000, .i32⟩ : BufTy).Contents (Elt F) → (⟨S1x2x500000, .i32⟩ : BufTy).Contents (Elt F)),
    StableHlo.reshape main_v216 main_v217 rfl shapeCasts_S1x2x500000_S2x500000,
    StableHlo.unary main_arg4 main_v218 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v218 main_v219 rfl shapeCasts_S1x128x128_S128x128,
    StableHlo.unary main_arg5 main_v220 ((extractStridedSlice S1x128 ![0, 0] · slices_S4x128_S1x128_0_0) : (⟨S4x128, .f32⟩ : BufTy).Contents (Elt F) → (⟨S1x128, .f32⟩ : BufTy).Contents (Elt F)),
    StableHlo.reshape main_v220 main_v221 rfl shapeCasts_S1x128_S128,
    StableHlo.binary main_v215 main_v219 main_v222 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_v223 (iotaInDim S50000 32 0),
    StableHlo.unary main_v217 main_v224 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v224 main_v225 rfl shapeCasts_S1x500000_S500000,
    StableHlo.binary main_v225 main_v223 main_v226 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.unary main_v217 main_v227 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v227 main_v228 rfl shapeCasts_S1x500000_S500000,
    StableHlo.binary main_v228 main_v223 main_v229 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.nullary main_cst_42 (constant S_ .f32 0x3F800000#32),
    StableHlo.unary main_cst_42 main_v230 (broadcastInDim S550000 ![] bcast_S_S550000 : (⟨S_, .f32⟩ : BufTy).Contents (Elt F) → (⟨S550000, .f32⟩ : BufTy).Contents (Elt F)),
    StableHlo.nullary main_cst_43 (constant S_ .f32 0x00000000#32),
    StableHlo.unary main_cst_43 main_v231 (broadcastInDim S50000 ![] bcast_S_S50000 : (⟨S_, .f32⟩ : BufTy).Contents (Elt F) → (⟨S50000, .f32⟩ : BufTy).Contents (Elt F)),
    StableHlo.unary main_v229 main_v232 (broadcastInDim S550000x1 ![0] bcast_S550000_S550000x1_0 : (⟨S550000, .i32⟩ : BufTy).Contents (Elt F) → (⟨S550000x1, .i32⟩ : BufTy).Contents (Elt F)),
    StableHlo.ternary main_v231 main_v232 main_v230 main_v233 ((fun x i u => Host.scatterAdd scatter_S50000_S550000x1_S550000_n_0_0_1 x i u) : (⟨S50000, .f32⟩ : BufTy).Contents (Elt F) → (⟨S550000x1, .i32⟩ : BufTy).Contents (Elt F) → (⟨S550000, .f32⟩ : BufTy).Contents (Elt F) → (⟨S50000, .f32⟩ : BufTy).Contents (Elt F)),
    StableHlo.nullary main_cst_44 (constant S_ .f32 0x00000000#32),
    StableHlo.unary main_cst_44 main_v234 (broadcastInDim S50000 ![] bcast_S_S50000 : (⟨S_, .f32⟩ : BufTy).Contents (Elt F) → (⟨S50000, .f32⟩ : BufTy).Contents (Elt F)),
    StableHlo.binary main_v233 main_v234 main_v235 (cmpf .ogt : (⟨S50000, .f32⟩ : BufTy).Contents (Elt F) → (⟨S50000, .f32⟩ : BufTy).Contents (Elt F) → (⟨S50000, .i1⟩ : BufTy).Contents (Elt F)),
    StableHlo.unary main_v233 main_v236 (Host.rsqrt : (⟨S50000, .f32⟩ : BufTy).Contents (Elt F) → (⟨S50000, .f32⟩ : BufTy).Contents (Elt F)),
    StableHlo.nullary main_cst_45 (constant S_ .f32 0x00000000#32),
    StableHlo.TRef.unary (TRef.of main_cst_45 : TRef sig ⟨S_, .f32⟩) main_call5.v0 id,
    StableHlo.TRef.unary main_call5.v0 main_call5.v1 (broadcastInDim S50000 ![] bcast_S_S50000),
    StableHlo.TRef.ternary (TRef.of main_v235 : TRef sig ⟨S50000, .i1⟩) (TRef.of main_v236 : TRef sig ⟨S50000, .f32⟩) main_call5.v1 main_call5.v2 select,
    StableHlo.nullary main_c_46 (constantI S_ 32 0#32),
    StableHlo.unary main_c_46 main_v238 (broadcastInDim S550000 ![] bcast_S_S550000 : (⟨S_, .i32⟩ : BufTy).Contents (Elt F) → (⟨S550000, .i32⟩ : BufTy).Contents (Elt F)),
    StableHlo.binary main_v226 main_v238 main_v239 (cmpi .slt : (⟨S550000, .i32⟩ : BufTy).Contents (Elt F) → (⟨S550000, .i32⟩ : BufTy).Contents (Elt F) → (⟨S550000, .i1⟩ : BufTy).Contents (Elt F)),
    StableHlo.nullary main_c_47 (constantI S_ 32 50000#32),
    StableHlo.unary main_c_47 main_v240 (broadcastInDim S550000 ![] bcast_S_S550000 : (⟨S_, .i32⟩ : BufTy).Contents (Elt F) → (⟨S550000, .i32⟩ : BufTy).Contents (Elt F)),
    StableHlo.binary main_v226 main_v240 main_v241 (addi : (⟨S550000, .i32⟩ : BufTy).Contents (Elt F) → (⟨S550000, .i32⟩ : BufTy).Contents (Elt F) → (⟨S550000, .i32⟩ : BufTy).Contents (Elt F)),
    StableHlo.ternary main_v239 main_v241 main_v226 main_v242 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v242 main_v243 (broadcastInDim S550000x1 ![0] bcast_S550000_S550000x1_0 : (⟨S550000, .i32⟩ : BufTy).Contents (Elt F) → (⟨S550000x1, .i32⟩ : BufTy).Contents (Elt F)),
    StableHlo.binary main_v237 main_v243 main_v244 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.nullary main_c_48 (constantI S_ 32 0#32),
    StableHlo.unary main_c_48 main_v245 (broadcastInDim S550000 ![] bcast_S_S550000 : (⟨S_, .i32⟩ : BufTy).Contents (Elt F) → (⟨S550000, .i32⟩ : BufTy).Contents (Elt F)),
    StableHlo.binary main_v229 main_v245 main_v246 (cmpi .slt : (⟨S550000, .i32⟩ : BufTy).Contents (Elt F) → (⟨S550000, .i32⟩ : BufTy).Contents (Elt F) → (⟨S550000, .i1⟩ : BufTy).Contents (Elt F)),
    StableHlo.nullary main_c_49 (constantI S_ 32 50000#32),
    StableHlo.unary main_c_49 main_v247 (broadcastInDim S550000 ![] bcast_S_S550000 : (⟨S_, .i32⟩ : BufTy).Contents (Elt F) → (⟨S550000, .i32⟩ : BufTy).Contents (Elt F)),
    StableHlo.binary main_v229 main_v247 main_v248 (addi : (⟨S550000, .i32⟩ : BufTy).Contents (Elt F) → (⟨S550000, .i32⟩ : BufTy).Contents (Elt F) → (⟨S550000, .i32⟩ : BufTy).Contents (Elt F)),
    StableHlo.ternary main_v246 main_v248 main_v229 main_v249 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v249 main_v250 (broadcastInDim S550000x1 ![0] bcast_S550000_S550000x1_0 : (⟨S550000, .i32⟩ : BufTy).Contents (Elt F) → (⟨S550000x1, .i32⟩ : BufTy).Contents (Elt F)),
    StableHlo.binary main_v237 main_v250 main_v251 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.binary main_v244 main_v251 main_v252 (mulf : (⟨S550000, .f32⟩ : BufTy).Contents (Elt F) → (⟨S550000, .f32⟩ : BufTy).Contents (Elt F) → (⟨S550000, .f32⟩ : BufTy).Contents (Elt F)),
    StableHlo.nullary main_c_50 (constantI S_ 32 0#32),
    StableHlo.unary main_c_50 main_v253 (broadcastInDim S550000 ![] bcast_S_S550000 : (⟨S_, .i32⟩ : BufTy).Contents (Elt F) → (⟨S550000, .i32⟩ : BufTy).Contents (Elt F)),
    StableHlo.binary main_v226 main_v253 main_v254 (cmpi .slt : (⟨S550000, .i32⟩ : BufTy).Contents (Elt F) → (⟨S550000, .i32⟩ : BufTy).Contents (Elt F) → (⟨S550000, .i1⟩ : BufTy).Contents (Elt F)),
    StableHlo.nullary main_c_51 (constantI S_ 32 50000#32),
    StableHlo.unary main_c_51 main_v255 (broadcastInDim S550000 ![] bcast_S_S550000 : (⟨S_, .i32⟩ : BufTy).Contents (Elt F) → (⟨S550000, .i32⟩ : BufTy).Contents (Elt F)),
    StableHlo.binary main_v226 main_v255 main_v256 (addi : (⟨S550000, .i32⟩ : BufTy).Contents (Elt F) → (⟨S550000, .i32⟩ : BufTy).Contents (Elt F) → (⟨S550000, .i32⟩ : BufTy).Contents (Elt F)),
    StableHlo.ternary main_v254 main_v256 main_v226 main_v257 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v257 main_v258 (broadcastInDim S550000x1 ![0] bcast_S550000_S550000x1_0 : (⟨S550000, .i32⟩ : BufTy).Contents (Elt F) → (⟨S550000x1, .i32⟩ : BufTy).Contents (Elt F)),
    StableHlo.binary main_v222 main_v258 main_v259 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    StableHlo.unary main_v252 main_v260 (broadcastInDim S550000x1 ![0] bcast_S550000_S550000x1_0 : (⟨S550000, .f32⟩ : BufTy).Contents (Elt F) → (⟨S550000x1, .f32⟩ : BufTy).Contents (Elt F)),
    StableHlo.unary main_v260 main_v261 (broadcastInDim S550000x128 ![0, 1] bcast_S550000x1_S550000x128_0_1 : (⟨S550000x1, .f32⟩ : BufTy).Contents (Elt F) → (⟨S550000x128, .f32⟩ : BufTy).Contents (Elt F)),
    StableHlo.binary main_v259 main_v261 main_v262 (mulf : (⟨S550000x128, .f32⟩ : BufTy).Contents (Elt F) → (⟨S550000x128, .f32⟩ : BufTy).Contents (Elt F) → (⟨S550000x128, .f32⟩ : BufTy).Contents (Elt F)),
    StableHlo.nullary main_cst_52 (constant S_ .f32 0x00000000#32),
    StableHlo.unary main_cst_52 main_v263 (broadcastInDim S50000x128 ![] bcast_S_S50000x128 : (⟨S_, .f32⟩ : BufTy).Contents (Elt F) → (⟨S50000x128, .f32⟩ : BufTy).Contents (Elt F)),
    StableHlo.unary main_v229 main_v264 (broadcastInDim S550000x1 ![0] bcast_S550000_S550000x1_0 : (⟨S550000, .i32⟩ : BufTy).Contents (Elt F) → (⟨S550000x1, .i32⟩ : BufTy).Contents (Elt F)),
    StableHlo.ternary main_v263 main_v264 main_v262 main_v265 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)),
    StableHlo.unary main_v221 main_v266 (broadcastInDim S1x128 ![1] bcast_S128_S1x128_1 : (⟨S128, .f32⟩ : BufTy).Contents (Elt F) → (⟨S1x128, .f32⟩ : BufTy).Contents (Elt F)),
    StableHlo.unary main_v266 main_v267 (broadcastInDim S50000x128 ![0, 1] bcast_S1x128_S50000x128_0_1 : (⟨S1x128, .f32⟩ : BufTy).Contents (Elt F) → (⟨S50000x128, .f32⟩ : BufTy).Contents (Elt F)),
    StableHlo.binary main_v265 main_v267 main_v268 (addf : (⟨S50000x128, .f32⟩ : BufTy).Contents (Elt F) → (⟨S50000x128, .f32⟩ : BufTy).Contents (Elt F) → (⟨S50000x128, .f32⟩ : BufTy).Contents (Elt F)) ]

/-- The buffers those operations write, in order. -/
abbrev wrL2R0 : List (Ref sig .tc) :=
  [ main_v216, main_v217, main_v218, main_v219, main_v220, main_v221, main_v222, main_v223,
    main_v224, main_v225, main_v226, main_v227, main_v228, main_v229, main_cst_42, main_v230,
    main_cst_43, main_v231, main_v232, main_v233, main_cst_44, main_v234, main_v235, main_v236,
    main_cst_45, main_call5_v0, main_call5_v1, main_v237, main_c_46, main_v238, main_v239, main_c_47,
    main_v240, main_v241, main_v242, main_v243, main_v244, main_c_48, main_v245, main_v246,
    main_c_49, main_v247, main_v248, main_v249, main_v250, main_v251, main_v252, main_c_50,
    main_v253, main_v254, main_c_51, main_v255, main_v256, main_v257, main_v258, main_v259,
    main_v260, main_v261, main_v262, main_cst_52, main_v263, main_v264, main_v265, main_v266,
    main_v267, main_v268 ]

/-- An operation that writes one buffer of a list writes within the list. -/
private theorem sub_of_mem {op : HloOp τ sig (Elt F)} (y : Ref sig .tc) {L : List (Ref sig .tc)}
    (hw : op.writes = {Proc.devRef (τ := τ) .tc y}) (hy : y ∈ L) : op.writes ⊆ (L.map (Proc.devRef (τ := τ) .tc)).toFinset := by
  rw [hw, Finset.singleton_subset_iff, List.mem_toFinset]; exact List.mem_map_of_mem hy

/-- Each operation writes only a buffer of the list. -/
theorem stL2R0_writes : (stL2R0 : List (HloOp τ sig (Elt F))).Forall fun op => op.writes ⊆ (wrL2R0.map (Proc.devRef (τ := τ) .tc)).toFinset :=
  ⟨sub_of_mem main_v216 rfl (by decide), sub_of_mem main_v217 rfl (by decide), sub_of_mem main_v218 rfl (by decide),
    sub_of_mem main_v219 rfl (by decide), sub_of_mem main_v220 rfl (by decide), sub_of_mem main_v221 rfl (by decide),
    sub_of_mem main_v222 rfl (by decide), sub_of_mem main_v223 rfl (by decide), sub_of_mem main_v224 rfl (by decide),
    sub_of_mem main_v225 rfl (by decide), sub_of_mem main_v226 rfl (by decide), sub_of_mem main_v227 rfl (by decide),
    sub_of_mem main_v228 rfl (by decide), sub_of_mem main_v229 rfl (by decide), sub_of_mem main_cst_42 rfl (by decide),
    sub_of_mem main_v230 rfl (by decide), sub_of_mem main_cst_43 rfl (by decide), sub_of_mem main_v231 rfl (by decide),
    sub_of_mem main_v232 rfl (by decide), sub_of_mem main_v233 rfl (by decide), sub_of_mem main_cst_44 rfl (by decide),
    sub_of_mem main_v234 rfl (by decide), sub_of_mem main_v235 rfl (by decide), sub_of_mem main_v236 rfl (by decide),
    sub_of_mem main_cst_45 rfl (by decide), sub_of_mem main_call5_v0 rfl (by decide), sub_of_mem main_call5_v1 rfl (by decide),
    sub_of_mem main_v237 rfl (by decide), sub_of_mem main_c_46 rfl (by decide), sub_of_mem main_v238 rfl (by decide),
    sub_of_mem main_v239 rfl (by decide), sub_of_mem main_c_47 rfl (by decide), sub_of_mem main_v240 rfl (by decide),
    sub_of_mem main_v241 rfl (by decide), sub_of_mem main_v242 rfl (by decide), sub_of_mem main_v243 rfl (by decide),
    sub_of_mem main_v244 rfl (by decide), sub_of_mem main_c_48 rfl (by decide), sub_of_mem main_v245 rfl (by decide),
    sub_of_mem main_v246 rfl (by decide), sub_of_mem main_c_49 rfl (by decide), sub_of_mem main_v247 rfl (by decide),
    sub_of_mem main_v248 rfl (by decide), sub_of_mem main_v249 rfl (by decide), sub_of_mem main_v250 rfl (by decide),
    sub_of_mem main_v251 rfl (by decide), sub_of_mem main_v252 rfl (by decide), sub_of_mem main_c_50 rfl (by decide),
    sub_of_mem main_v253 rfl (by decide), sub_of_mem main_v254 rfl (by decide), sub_of_mem main_c_51 rfl (by decide),
    sub_of_mem main_v255 rfl (by decide), sub_of_mem main_v256 rfl (by decide), sub_of_mem main_v257 rfl (by decide),
    sub_of_mem main_v258 rfl (by decide), sub_of_mem main_v259 rfl (by decide), sub_of_mem main_v260 rfl (by decide),
    sub_of_mem main_v261 rfl (by decide), sub_of_mem main_v262 rfl (by decide), sub_of_mem main_cst_52 rfl (by decide),
    sub_of_mem main_v263 rfl (by decide), sub_of_mem main_v264 rfl (by decide), sub_of_mem main_v265 rfl (by decide),
    sub_of_mem main_v266 rfl (by decide), sub_of_mem main_v267 rfl (by decide), sub_of_mem main_v268 rfl (by decide)⟩

/-- A buffer not in the list holds after the operations what it held before. -/
theorem stL2R0_frame {r : Ref sig .tc} (hr : r ∉ wrL2R0) (W : Valuation τ sig (Elt F)) :
    after stL2R0 W (no_index (Proc.devRef .tc r)) = W (Proc.devRef .tc r) :=
  after_of_writes_sub stL2R0 W stL2R0_writes hr

end Cert.ReferenceIdeal.RefRead

end
-- ==== Proof.RefSt_L2R1.lean ====
import proofs.«115534_j8151847928363_1_alg».proof.Proof.Gen.ReferenceIdeal
import Idealize.ShloMosaic.Lib.StableHlo.Run

set_option maxRecDepth 8192

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

/-- Operations 336 ≤ k < 403 of the program, in execution order. -/
abbrev stL2R1 : List (HloOp τ sig (Elt F)) :=
  [ StableHlo.unary main_arg1 main_v269 ((extractStridedSlice S1x2x500000 ![1, 0, 0] · slices_S4x2x500000_S1x2x500000_1_0_0) : (⟨S4x2x500000, .i32⟩ : BufTy).Contents (Elt F) → (⟨S1x2x500000, .i32⟩ : BufTy).Contents (Elt F)),
    StableHlo.reshape main_v269 main_v270 rfl shapeCasts_S1x2x500000_S2x500000,
    StableHlo.unary main_arg4 main_v271 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v271 main_v272 rfl shapeCasts_S1x128x128_S128x128,
    StableHlo.unary main_arg5 main_v273 ((extractStridedSlice S1x128 ![1, 0] · slices_S4x128_S1x128_1_0) : (⟨S4x128, .f32⟩ : BufTy).Contents (Elt F) → (⟨S1x128, .f32⟩ : BufTy).Contents (Elt F)),
    StableHlo.reshape main_v273 main_v274 rfl shapeCasts_S1x128_S128,
    StableHlo.binary main_v215 main_v272 main_v275 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_v276 (iotaInDim S50000 32 0),
    StableHlo.unary main_v270 main_v277 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v277 main_v278 rfl shapeCasts_S1x500000_S500000,
    StableHlo.binary main_v278 main_v276 main_v279 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.unary main_v270 main_v280 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v280 main_v281 rfl shapeCasts_S1x500000_S500000,
    StableHlo.binary main_v281 main_v276 main_v282 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.nullary main_cst_53 (constant S_ .f32 0x3F800000#32),
    StableHlo.unary main_cst_53 main_v283 (broadcastInDim S550000 ![] bcast_S_S550000 : (⟨S_, .f32⟩ : BufTy).Contents (Elt F) → (⟨S550000, .f32⟩ : BufTy).Contents (Elt F)),
    StableHlo.nullary main_cst_54 (constant S_ .f32 0x00000000#32),
    StableHlo.unary main_cst_54 main_v284 (broadcastInDim S50000 ![] bcast_S_S50000 : (⟨S_, .f32⟩ : BufTy).Contents (Elt F) → (⟨S50000, .f32⟩ : BufTy).Contents (Elt F)),
    StableHlo.unary main_v282 main_v285 (broadcastInDim S550000x1 ![0] bcast_S550000_S550000x1_0 : (⟨S550000, .i32⟩ : BufTy).Contents (Elt F) → (⟨S550000x1, .i32⟩ : BufTy).Contents (Elt F)),
    StableHlo.ternary main_v284 main_v285 main_v283 main_v286 ((fun x i u => Host.scatterAdd scatter_S50000_S550000x1_S550000_n_0_0_1 x i u) : (⟨S50000, .f32⟩ : BufTy).Contents (Elt F) → (⟨S550000x1, .i32⟩ : BufTy).Contents (Elt F) → (⟨S550000, .f32⟩ : BufTy).Contents (Elt F) → (⟨S50000, .f32⟩ : BufTy).Contents (Elt F)),
    StableHlo.nullary main_cst_55 (constant S_ .f32 0x00000000#32),
    StableHlo.unary main_cst_55 main_v287 (broadcastInDim S50000 ![] bcast_S_S50000 : (⟨S_, .f32⟩ : BufTy).Contents (Elt F) → (⟨S50000, .f32⟩ : BufTy).Contents (Elt F)),
    StableHlo.binary main_v286 main_v287 main_v288 (cmpf .ogt : (⟨S50000, .f32⟩ : BufTy).Contents (Elt F) → (⟨S50000, .f32⟩ : BufTy).Contents (Elt F) → (⟨S50000, .i1⟩ : BufTy).Contents (Elt F)),
    StableHlo.unary main_v286 main_v289 (Host.rsqrt : (⟨S50000, .f32⟩ : BufTy).Contents (Elt F) → (⟨S50000, .f32⟩ : BufTy).Contents (Elt F)),
    StableHlo.nullary main_cst_56 (constant S_ .f32 0x00000000#32),
    StableHlo.TRef.unary (TRef.of main_cst_56 : TRef sig ⟨S_, .f32⟩) main_call6.v0 id,
    StableHlo.TRef.unary main_call6.v0 main_call6.v1 (broadcastInDim S50000 ![] bcast_S_S50000),
    StableHlo.TRef.ternary (TRef.of main_v288 : TRef sig ⟨S50000, .i1⟩) (TRef.of main_v289 : TRef sig ⟨S50000, .f32⟩) main_call6.v1 main_call6.v2 select,
    StableHlo.nullary main_c_57 (constantI S_ 32 0#32),
    StableHlo.unary main_c_57 main_v291 (broadcastInDim S550000 ![] bcast_S_S550000 : (⟨S_, .i32⟩ : BufTy).Contents (Elt F) → (⟨S550000, .i32⟩ : BufTy).Contents (Elt F)),
    StableHlo.binary main_v279 main_v291 main_v292 (cmpi .slt : (⟨S550000, .i32⟩ : BufTy).Contents (Elt F) → (⟨S550000, .i32⟩ : BufTy).Contents (Elt F) → (⟨S550000, .i1⟩ : BufTy).Contents (Elt F)),
    StableHlo.nullary main_c_58 (constantI S_ 32 50000#32),
    StableHlo.unary main_c_58 main_v293 (broadcastInDim S550000 ![] bcast_S_S550000 : (⟨S_, .i32⟩ : BufTy).Contents (Elt F) → (⟨S550000, .i32⟩ : BufTy).Contents (Elt F)),
    StableHlo.binary main_v279 main_v293 main_v294 (addi : (⟨S550000, .i32⟩ : BufTy).Contents (Elt F) → (⟨S550000, .i32⟩ : BufTy).Contents (Elt F) → (⟨S550000, .i32⟩ : BufTy).Contents (Elt F)),
    StableHlo.ternary main_v292 main_v294 main_v279 main_v295 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v295 main_v296 (broadcastInDim S550000x1 ![0] bcast_S550000_S550000x1_0 : (⟨S550000, .i32⟩ : BufTy).Contents (Elt F) → (⟨S550000x1, .i32⟩ : BufTy).Contents (Elt F)),
    StableHlo.binary main_v290 main_v296 main_v297 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.nullary main_c_59 (constantI S_ 32 0#32),
    StableHlo.unary main_c_59 main_v298 (broadcastInDim S550000 ![] bcast_S_S550000 : (⟨S_, .i32⟩ : BufTy).Contents (Elt F) → (⟨S550000, .i32⟩ : BufTy).Contents (Elt F)),
    StableHlo.binary main_v282 main_v298 main_v299 (cmpi .slt : (⟨S550000, .i32⟩ : BufTy).Contents (Elt F) → (⟨S550000, .i32⟩ : BufTy).Contents (Elt F) → (⟨S550000, .i1⟩ : BufTy).Contents (Elt F)),
    StableHlo.nullary main_c_60 (constantI S_ 32 50000#32),
    StableHlo.unary main_c_60 main_v300 (broadcastInDim S550000 ![] bcast_S_S550000 : (⟨S_, .i32⟩ : BufTy).Contents (Elt F) → (⟨S550000, .i32⟩ : BufTy).Contents (Elt F)),
    StableHlo.binary main_v282 main_v300 main_v301 (addi : (⟨S550000, .i32⟩ : BufTy).Contents (Elt F) → (⟨S550000, .i32⟩ : BufTy).Contents (Elt F) → (⟨S550000, .i32⟩ : BufTy).Contents (Elt F)),
    StableHlo.ternary main_v299 main_v301 main_v282 main_v302 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v302 main_v303 (broadcastInDim S550000x1 ![0] bcast_S550000_S550000x1_0 : (⟨S550000, .i32⟩ : BufTy).Contents (Elt F) → (⟨S550000x1, .i32⟩ : BufTy).Contents (Elt F)),
    StableHlo.binary main_v290 main_v303 main_v304 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.binary main_v297 main_v304 main_v305 (mulf : (⟨S550000, .f32⟩ : BufTy).Contents (Elt F) → (⟨S550000, .f32⟩ : BufTy).Contents (Elt F) → (⟨S550000, .f32⟩ : BufTy).Contents (Elt F)),
    StableHlo.nullary main_c_61 (constantI S_ 32 0#32),
    StableHlo.unary main_c_61 main_v306 (broadcastInDim S550000 ![] bcast_S_S550000 : (⟨S_, .i32⟩ : BufTy).Contents (Elt F) → (⟨S550000, .i32⟩ : BufTy).Contents (Elt F)),
    StableHlo.binary main_v279 main_v306 main_v307 (cmpi .slt : (⟨S550000, .i32⟩ : BufTy).Contents (Elt F) → (⟨S550000, .i32⟩ : BufTy).Contents (Elt F) → (⟨S550000, .i1⟩ : BufTy).Contents (Elt F)),
    StableHlo.nullary main_c_62 (constantI S_ 32 50000#32),
    StableHlo.unary main_c_62 main_v308 (broadcastInDim S550000 ![] bcast_S_S550000 : (⟨S_, .i32⟩ : BufTy).Contents (Elt F) → (⟨S550000, .i32⟩ : BufTy).Contents (Elt F)),
    StableHlo.binary main_v279 main_v308 main_v309 (addi : (⟨S550000, .i32⟩ : BufTy).Contents (Elt F) → (⟨S550000, .i32⟩ : BufTy).Contents (Elt F) → (⟨S550000, .i32⟩ : BufTy).Contents (Elt F)),
    StableHlo.ternary main_v307 main_v309 main_v279 main_v310 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v310 main_v311 (broadcastInDim S550000x1 ![0] bcast_S550000_S550000x1_0 : (⟨S550000, .i32⟩ : BufTy).Contents (Elt F) → (⟨S550000x1, .i32⟩ : BufTy).Contents (Elt F)),
    StableHlo.binary main_v275 main_v311 main_v312 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    StableHlo.unary main_v305 main_v313 (broadcastInDim S550000x1 ![0] bcast_S550000_S550000x1_0 : (⟨S550000, .f32⟩ : BufTy).Contents (Elt F) → (⟨S550000x1, .f32⟩ : BufTy).Contents (Elt F)),
    StableHlo.unary main_v313 main_v314 (broadcastInDim S550000x128 ![0, 1] bcast_S550000x1_S550000x128_0_1 : (⟨S550000x1, .f32⟩ : BufTy).Contents (Elt F) → (⟨S550000x128, .f32⟩ : BufTy).Contents (Elt F)),
    StableHlo.binary main_v312 main_v314 main_v315 (mulf : (⟨S550000x128, .f32⟩ : BufTy).Contents (Elt F) → (⟨S550000x128, .f32⟩ : BufTy).Contents (Elt F) → (⟨S550000x128, .f32⟩ : BufTy).Contents (Elt F)),
    StableHlo.nullary main_cst_63 (constant S_ .f32 0x00000000#32),
    StableHlo.unary main_cst_63 main_v316 (broadcastInDim S50000x128 ![] bcast_S_S50000x128 : (⟨S_, .f32⟩ : BufTy).Contents (Elt F) → (⟨S50000x128, .f32⟩ : BufTy).Contents (Elt F)),
    StableHlo.unary main_v282 main_v317 (broadcastInDim S550000x1 ![0] bcast_S550000_S550000x1_0 : (⟨S550000, .i32⟩ : BufTy).Contents (Elt F) → (⟨S550000x1, .i32⟩ : BufTy).Contents (Elt F)),
    StableHlo.ternary main_v316 main_v317 main_v315 main_v318 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)),
    StableHlo.unary main_v274 main_v319 (broadcastInDim S1x128 ![1] bcast_S128_S1x128_1 : (⟨S128, .f32⟩ : BufTy).Contents (Elt F) → (⟨S1x128, .f32⟩ : BufTy).Contents (Elt F)),
    StableHlo.unary main_v319 main_v320 (broadcastInDim S50000x128 ![0, 1] bcast_S1x128_S50000x128_0_1 : (⟨S1x128, .f32⟩ : BufTy).Contents (Elt F) → (⟨S50000x128, .f32⟩ : BufTy).Contents (Elt F)),
    StableHlo.binary main_v318 main_v320 main_v321 (addf : (⟨S50000x128, .f32⟩ : BufTy).Contents (Elt F) → (⟨S50000x128, .f32⟩ : BufTy).Contents (Elt F) → (⟨S50000x128, .f32⟩ : BufTy).Contents (Elt F)),
    StableHlo.binary main_v268 main_v321 main_v322 (addf : (⟨S50000x128, .f32⟩ : BufTy).Contents (Elt F) → (⟨S50000x128, .f32⟩ : BufTy).Contents (Elt F) → (⟨S50000x128, .f32⟩ : BufTy).Contents (Elt F)) ]

/-- The buffers those operations write, in order. -/
abbrev wrL2R1 : List (Ref sig .tc) :=
  [ main_v269, main_v270, main_v271, main_v272, main_v273, main_v274, main_v275, main_v276,
    main_v277, main_v278, main_v279, main_v280, main_v281, main_v282, main_cst_53, main_v283,
    main_cst_54, main_v284, main_v285, main_v286, main_cst_55, main_v287, main_v288, main_v289,
    main_cst_56, main_call6_v0, main_call6_v1, main_v290, main_c_57, main_v291, main_v292, main_c_58,
    main_v293, main_v294, main_v295, main_v296, main_v297, main_c_59, main_v298, main_v299,
    main_c_60, main_v300, main_v301, main_v302, main_v303, main_v304, main_v305, main_c_61,
    main_v306, main_v307, main_c_62, main_v308, main_v309, main_v310, main_v311, main_v312,
    main_v313, main_v314, main_v315, main_cst_63, main_v316, main_v317, main_v318, main_v319,
    main_v320, main_v321, main_v322 ]

/-- An operation that writes one buffer of a list writes within the list. -/
private theorem sub_of_mem {op : HloOp τ sig (Elt F)} (y : Ref sig .tc) {L : List (Ref sig .tc)}
    (hw : op.writes = {Proc.devRef (τ := τ) .tc y}) (hy : y ∈ L) : op.writes ⊆ (L.map (Proc.devRef (τ := τ) .tc)).toFinset := by
  rw [hw, Finset.singleton_subset_iff, List.mem_toFinset]; exact List.mem_map_of_mem hy

/-- Each operation writes only a buffer of the list. -/
theorem stL2R1_writes : (stL2R1 : List (HloOp τ sig (Elt F))).Forall fun op => op.writes ⊆ (wrL2R1.map (Proc.devRef (τ := τ) .tc)).toFinset :=
  ⟨sub_of_mem main_v269 rfl (by decide), sub_of_mem main_v270 rfl (by decide), sub_of_mem main_v271 rfl (by decide),
    sub_of_mem main_v272 rfl (by decide), sub_of_mem main_v273 rfl (by decide), sub_of_mem main_v274 rfl (by decide),
    sub_of_mem main_v275 rfl (by decide), sub_of_mem main_v276 rfl (by decide), sub_of_mem main_v277 rfl (by decide),
    sub_of_mem main_v278 rfl (by decide), sub_of_mem main_v279 rfl (by decide), sub_of_mem main_v280 rfl (by decide),
    sub_of_mem main_v281 rfl (by decide), sub_of_mem main_v282 rfl (by decide), sub_of_mem main_cst_53 rfl (by decide),
    sub_of_mem main_v283 rfl (by decide), sub_of_mem main_cst_54 rfl (by decide), sub_of_mem main_v284 rfl (by decide),
    sub_of_mem main_v285 rfl (by decide), sub_of_mem main_v286 rfl (by decide), sub_of_mem main_cst_55 rfl (by decide),
    sub_of_mem main_v287 rfl (by decide), sub_of_mem main_v288 rfl (by decide), sub_of_mem main_v289 rfl (by decide),
    sub_of_mem main_cst_56 rfl (by decide), sub_of_mem main_call6_v0 rfl (by decide), sub_of_mem main_call6_v1 rfl (by decide),
    sub_of_mem main_v290 rfl (by decide), sub_of_mem main_c_57 rfl (by decide), sub_of_mem main_v291 rfl (by decide),
    sub_of_mem main_v292 rfl (by decide), sub_of_mem main_c_58 rfl (by decide), sub_of_mem main_v293 rfl (by decide),
    sub_of_mem main_v294 rfl (by decide), sub_of_mem main_v295 rfl (by decide), sub_of_mem main_v296 rfl (by decide),
    sub_of_mem main_v297 rfl (by decide), sub_of_mem main_c_59 rfl (by decide), sub_of_mem main_v298 rfl (by decide),
    sub_of_mem main_v299 rfl (by decide), sub_of_mem main_c_60 rfl (by decide), sub_of_mem main_v300 rfl (by decide),
    sub_of_mem main_v301 rfl (by decide), sub_of_mem main_v302 rfl (by decide), sub_of_mem main_v303 rfl (by decide),
    sub_of_mem main_v304 rfl (by decide), sub_of_mem main_v305 rfl (by decide), sub_of_mem main_c_61 rfl (by decide),
    sub_of_mem main_v306 rfl (by decide), sub_of_mem main_v307 rfl (by decide), sub_of_mem main_c_62 rfl (by decide),
    sub_of_mem main_v308 rfl (by decide), sub_of_mem main_v309 rfl (by decide), sub_of_mem main_v310 rfl (by decide),
    sub_of_mem main_v311 rfl (by decide), sub_of_mem main_v312 rfl (by decide), sub_of_mem main_v313 rfl (by decide),
    sub_of_mem main_v314 rfl (by decide), sub_of_mem main_v315 rfl (by decide), sub_of_mem main_cst_63 rfl (by decide),
    sub_of_mem main_v316 rfl (by decide), sub_of_mem main_v317 rfl (by decide), sub_of_mem main_v318 rfl (by decide),
    sub_of_mem main_v319 rfl (by decide), sub_of_mem main_v320 rfl (by decide), sub_of_mem main_v321 rfl (by decide),
    sub_of_mem main_v322 rfl (by decide)⟩

/-- A buffer not in the list holds after the operations what it held before. -/
theorem stL2R1_frame {r : Ref sig .tc} (hr : r ∉ wrL2R1) (W : Valuation τ sig (Elt F)) :
    after stL2R1 W (no_index (Proc.devRef .tc r)) = W (Proc.devRef .tc r) :=
  after_of_writes_sub stL2R1 W stL2R1_writes hr

end Cert.ReferenceIdeal.RefRead

end
-- ==== Proof.RefSt_L2R2.lean ====
import proofs.«115534_j8151847928363_1_alg».proof.Proof.Gen.ReferenceIdeal
import Idealize.ShloMosaic.Lib.StableHlo.Run

set_option maxRecDepth 8192

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

/-- Operations 403 ≤ k < 470 of the program, in execution order. -/
abbrev stL2R2 : List (HloOp τ sig (Elt F)) :=
  [ StableHlo.unary main_arg1 main_v323 ((extractStridedSlice S1x2x500000 ![2, 0, 0] · slices_S4x2x500000_S1x2x500000_2_0_0) : (⟨S4x2x500000, .i32⟩ : BufTy).Contents (Elt F) → (⟨S1x2x500000, .i32⟩ : BufTy).Contents (Elt F)),
    StableHlo.reshape main_v323 main_v324 rfl shapeCasts_S1x2x500000_S2x500000,
    StableHlo.unary main_arg4 main_v325 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v325 main_v326 rfl shapeCasts_S1x128x128_S128x128,
    StableHlo.unary main_arg5 main_v327 ((extractStridedSlice S1x128 ![2, 0] · slices_S4x128_S1x128_2_0) : (⟨S4x128, .f32⟩ : BufTy).Contents (Elt F) → (⟨S1x128, .f32⟩ : BufTy).Contents (Elt F)),
    StableHlo.reshape main_v327 main_v328 rfl shapeCasts_S1x128_S128,
    StableHlo.binary main_v215 main_v326 main_v329 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_v330 (iotaInDim S50000 32 0),
    StableHlo.unary main_v324 main_v331 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v331 main_v332 rfl shapeCasts_S1x500000_S500000,
    StableHlo.binary main_v332 main_v330 main_v333 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.unary main_v324 main_v334 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v334 main_v335 rfl shapeCasts_S1x500000_S500000,
    StableHlo.binary main_v335 main_v330 main_v336 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.nullary main_cst_64 (constant S_ .f32 0x3F800000#32),
    StableHlo.unary main_cst_64 main_v337 (broadcastInDim S550000 ![] bcast_S_S550000 : (⟨S_, .f32⟩ : BufTy).Contents (Elt F) → (⟨S550000, .f32⟩ : BufTy).Contents (Elt F)),
    StableHlo.nullary main_cst_65 (constant S_ .f32 0x00000000#32),
    StableHlo.unary main_cst_65 main_v338 (broadcastInDim S50000 ![] bcast_S_S50000 : (⟨S_, .f32⟩ : BufTy).Contents (Elt F) → (⟨S50000, .f32⟩ : BufTy).Contents (Elt F)),
    StableHlo.unary main_v336 main_v339 (broadcastInDim S550000x1 ![0] bcast_S550000_S550000x1_0 : (⟨S550000, .i32⟩ : BufTy).Contents (Elt F) → (⟨S550000x1, .i32⟩ : BufTy).Contents (Elt F)),
    StableHlo.ternary main_v338 main_v339 main_v337 main_v340 ((fun x i u => Host.scatterAdd scatter_S50000_S550000x1_S550000_n_0_0_1 x i u) : (⟨S50000, .f32⟩ : BufTy).Contents (Elt F) → (⟨S550000x1, .i32⟩ : BufTy).Contents (Elt F) → (⟨S550000, .f32⟩ : BufTy).Contents (Elt F) → (⟨S50000, .f32⟩ : BufTy).Contents (Elt F)),
    StableHlo.nullary main_cst_66 (constant S_ .f32 0x00000000#32),
    StableHlo.unary main_cst_66 main_v341 (broadcastInDim S50000 ![] bcast_S_S50000 : (⟨S_, .f32⟩ : BufTy).Contents (Elt F) → (⟨S50000, .f32⟩ : BufTy).Contents (Elt F)),
    StableHlo.binary main_v340 main_v341 main_v342 (cmpf .ogt : (⟨S50000, .f32⟩ : BufTy).Contents (Elt F) → (⟨S50000, .f32⟩ : BufTy).Contents (Elt F) → (⟨S50000, .i1⟩ : BufTy).Contents (Elt F)),
    StableHlo.unary main_v340 main_v343 (Host.rsqrt : (⟨S50000, .f32⟩ : BufTy).Contents (Elt F) → (⟨S50000, .f32⟩ : BufTy).Contents (Elt F)),
    StableHlo.nullary main_cst_67 (constant S_ .f32 0x00000000#32),
    StableHlo.TRef.unary (TRef.of main_cst_67 : TRef sig ⟨S_, .f32⟩) main_call7.v0 id,
    StableHlo.TRef.unary main_call7.v0 main_call7.v1 (broadcastInDim S50000 ![] bcast_S_S50000),
    StableHlo.TRef.ternary (TRef.of main_v342 : TRef sig ⟨S50000, .i1⟩) (TRef.of main_v343 : TRef sig ⟨S50000, .f32⟩) main_call7.v1 main_call7.v2 select,
    StableHlo.nullary main_c_68 (constantI S_ 32 0#32),
    StableHlo.unary main_c_68 main_v345 (broadcastInDim S550000 ![] bcast_S_S550000 : (⟨S_, .i32⟩ : BufTy).Contents (Elt F) → (⟨S550000, .i32⟩ : BufTy).Contents (Elt F)),
    StableHlo.binary main_v333 main_v345 main_v346 (cmpi .slt : (⟨S550000, .i32⟩ : BufTy).Contents (Elt F) → (⟨S550000, .i32⟩ : BufTy).Contents (Elt F) → (⟨S550000, .i1⟩ : BufTy).Contents (Elt F)),
    StableHlo.nullary main_c_69 (constantI S_ 32 50000#32),
    StableHlo.unary main_c_69 main_v347 (broadcastInDim S550000 ![] bcast_S_S550000 : (⟨S_, .i32⟩ : BufTy).Contents (Elt F) → (⟨S550000, .i32⟩ : BufTy).Contents (Elt F)),
    StableHlo.binary main_v333 main_v347 main_v348 (addi : (⟨S550000, .i32⟩ : BufTy).Contents (Elt F) → (⟨S550000, .i32⟩ : BufTy).Contents (Elt F) → (⟨S550000, .i32⟩ : BufTy).Contents (Elt F)),
    StableHlo.ternary main_v346 main_v348 main_v333 main_v349 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v349 main_v350 (broadcastInDim S550000x1 ![0] bcast_S550000_S550000x1_0 : (⟨S550000, .i32⟩ : BufTy).Contents (Elt F) → (⟨S550000x1, .i32⟩ : BufTy).Contents (Elt F)),
    StableHlo.binary main_v344 main_v350 main_v351 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.nullary main_c_70 (constantI S_ 32 0#32),
    StableHlo.unary main_c_70 main_v352 (broadcastInDim S550000 ![] bcast_S_S550000 : (⟨S_, .i32⟩ : BufTy).Contents (Elt F) → (⟨S550000, .i32⟩ : BufTy).Contents (Elt F)),
    StableHlo.binary main_v336 main_v352 main_v353 (cmpi .slt : (⟨S550000, .i32⟩ : BufTy).Contents (Elt F) → (⟨S550000, .i32⟩ : BufTy).Contents (Elt F) → (⟨S550000, .i1⟩ : BufTy).Contents (Elt F)),
    StableHlo.nullary main_c_71 (constantI S_ 32 50000#32),
    StableHlo.unary main_c_71 main_v354 (broadcastInDim S550000 ![] bcast_S_S550000 : (⟨S_, .i32⟩ : BufTy).Contents (Elt F) → (⟨S550000, .i32⟩ : BufTy).Contents (Elt F)),
    StableHlo.binary main_v336 main_v354 main_v355 (addi : (⟨S550000, .i32⟩ : BufTy).Contents (Elt F) → (⟨S550000, .i32⟩ : BufTy).Contents (Elt F) → (⟨S550000, .i32⟩ : BufTy).Contents (Elt F)),
    StableHlo.ternary main_v353 main_v355 main_v336 main_v356 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v356 main_v357 (broadcastInDim S550000x1 ![0] bcast_S550000_S550000x1_0 : (⟨S550000, .i32⟩ : BufTy).Contents (Elt F) → (⟨S550000x1, .i32⟩ : BufTy).Contents (Elt F)),
    StableHlo.binary main_v344 main_v357 main_v358 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.binary main_v351 main_v358 main_v359 (mulf : (⟨S550000, .f32⟩ : BufTy).Contents (Elt F) → (⟨S550000, .f32⟩ : BufTy).Contents (Elt F) → (⟨S550000, .f32⟩ : BufTy).Contents (Elt F)),
    StableHlo.nullary main_c_72 (constantI S_ 32 0#32),
    StableHlo.unary main_c_72 main_v360 (broadcastInDim S550000 ![] bcast_S_S550000 : (⟨S_, .i32⟩ : BufTy).Contents (Elt F) → (⟨S550000, .i32⟩ : BufTy).Contents (Elt F)),
    StableHlo.binary main_v333 main_v360 main_v361 (cmpi .slt : (⟨S550000, .i32⟩ : BufTy).Contents (Elt F) → (⟨S550000, .i32⟩ : BufTy).Contents (Elt F) → (⟨S550000, .i1⟩ : BufTy).Contents (Elt F)),
    StableHlo.nullary main_c_73 (constantI S_ 32 50000#32),
    StableHlo.unary main_c_73 main_v362 (broadcastInDim S550000 ![] bcast_S_S550000 : (⟨S_, .i32⟩ : BufTy).Contents (Elt F) → (⟨S550000, .i32⟩ : BufTy).Contents (Elt F)),
    StableHlo.binary main_v333 main_v362 main_v363 (addi : (⟨S550000, .i32⟩ : BufTy).Contents (Elt F) → (⟨S550000, .i32⟩ : BufTy).Contents (Elt F) → (⟨S550000, .i32⟩ : BufTy).Contents (Elt F)),
    StableHlo.ternary main_v361 main_v363 main_v333 main_v364 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v364 main_v365 (broadcastInDim S550000x1 ![0] bcast_S550000_S550000x1_0 : (⟨S550000, .i32⟩ : BufTy).Contents (Elt F) → (⟨S550000x1, .i32⟩ : BufTy).Contents (Elt F)),
    StableHlo.binary main_v329 main_v365 main_v366 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    StableHlo.unary main_v359 main_v367 (broadcastInDim S550000x1 ![0] bcast_S550000_S550000x1_0 : (⟨S550000, .f32⟩ : BufTy).Contents (Elt F) → (⟨S550000x1, .f32⟩ : BufTy).Contents (Elt F)),
    StableHlo.unary main_v367 main_v368 (broadcastInDim S550000x128 ![0, 1] bcast_S550000x1_S550000x128_0_1 : (⟨S550000x1, .f32⟩ : BufTy).Contents (Elt F) → (⟨S550000x128, .f32⟩ : BufTy).Contents (Elt F)),
    StableHlo.binary main_v366 main_v368 main_v369 (mulf : (⟨S550000x128, .f32⟩ : BufTy).Contents (Elt F) → (⟨S550000x128, .f32⟩ : BufTy).Contents (Elt F) → (⟨S550000x128, .f32⟩ : BufTy).Contents (Elt F)),
    StableHlo.nullary main_cst_74 (constant S_ .f32 0x00000000#32),
    StableHlo.unary main_cst_74 main_v370 (broadcastInDim S50000x128 ![] bcast_S_S50000x128 : (⟨S_, .f32⟩ : BufTy).Contents (Elt F) → (⟨S50000x128, .f32⟩ : BufTy).Contents (Elt F)),
    StableHlo.unary main_v336 main_v371 (broadcastInDim S550000x1 ![0] bcast_S550000_S550000x1_0 : (⟨S550000, .i32⟩ : BufTy).Contents (Elt F) → (⟨S550000x1, .i32⟩ : BufTy).Contents (Elt F)),
    StableHlo.ternary main_v370 main_v371 main_v369 main_v372 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)),
    StableHlo.unary main_v328 main_v373 (broadcastInDim S1x128 ![1] bcast_S128_S1x128_1 : (⟨S128, .f32⟩ : BufTy).Contents (Elt F) → (⟨S1x128, .f32⟩ : BufTy).Contents (Elt F)),
    StableHlo.unary main_v373 main_v374 (broadcastInDim S50000x128 ![0, 1] bcast_S1x128_S50000x128_0_1 : (⟨S1x128, .f32⟩ : BufTy).Contents (Elt F) → (⟨S50000x128, .f32⟩ : BufTy).Contents (Elt F)),
    StableHlo.binary main_v372 main_v374 main_v375 (addf : (⟨S50000x128, .f32⟩ : BufTy).Contents (Elt F) → (⟨S50000x128, .f32⟩ : BufTy).Contents (Elt F) → (⟨S50000x128, .f32⟩ : BufTy).Contents (Elt F)),
    StableHlo.binary main_v322 main_v375 main_v376 (addf : (⟨S50000x128, .f32⟩ : BufTy).Contents (Elt F) → (⟨S50000x128, .f32⟩ : BufTy).Contents (Elt F) → (⟨S50000x128, .f32⟩ : BufTy).Contents (Elt F)) ]

/-- The buffers those operations write, in order. -/
abbrev wrL2R2 : List (Ref sig .tc) :=
  [ main_v323, main_v324, main_v325, main_v326, main_v327, main_v328, main_v329, main_v330,
    main_v331, main_v332, main_v333, main_v334, main_v335, main_v336, main_cst_64, main_v337,
    main_cst_65, main_v338, main_v339, main_v340, main_cst_66, main_v341, main_v342, main_v343,
    main_cst_67, main_call7_v0, main_call7_v1, main_v344, main_c_68, main_v345, main_v346, main_c_69,
    main_v347, main_v348, main_v349, main_v350, main_v351, main_c_70, main_v352, main_v353,
    main_c_71, main_v354, main_v355, main_v356, main_v357, main_v358, main_v359, main_c_72,
    main_v360, main_v361, main_c_73, main_v362, main_v363, main_v364, main_v365, main_v366,
    main_v367, main_v368, main_v369, main_cst_74, main_v370, main_v371, main_v372, main_v373,
    main_v374, main_v375, main_v376 ]

/-- An operation that writes one buffer of a list writes within the list. -/
private theorem sub_of_mem {op : HloOp τ sig (Elt F)} (y : Ref sig .tc) {L : List (Ref sig .tc)}
    (hw : op.writes = {Proc.devRef (τ := τ) .tc y}) (hy : y ∈ L) : op.writes ⊆ (L.map (Proc.devRef (τ := τ) .tc)).toFinset := by
  rw [hw, Finset.singleton_subset_iff, List.mem_toFinset]; exact List.mem_map_of_mem hy

/-- Each operation writes only a buffer of the list. -/
theorem stL2R2_writes : (stL2R2 : List (HloOp τ sig (Elt F))).Forall fun op => op.writes ⊆ (wrL2R2.map (Proc.devRef (τ := τ) .tc)).toFinset :=
  ⟨sub_of_mem main_v323 rfl (by decide), sub_of_mem main_v324 rfl (by decide), sub_of_mem main_v325 rfl (by decide),
    sub_of_mem main_v326 rfl (by decide), sub_of_mem main_v327 rfl (by decide), sub_of_mem main_v328 rfl (by decide),
    sub_of_mem main_v329 rfl (by decide), sub_of_mem main_v330 rfl (by decide), sub_of_mem main_v331 rfl (by decide),
    sub_of_mem main_v332 rfl (by decide), sub_of_mem main_v333 rfl (by decide), sub_of_mem main_v334 rfl (by decide),
    sub_of_mem main_v335 rfl (by decide), sub_of_mem main_v336 rfl (by decide), sub_of_mem main_cst_64 rfl (by decide),
    sub_of_mem main_v337 rfl (by decide), sub_of_mem main_cst_65 rfl (by decide), sub_of_mem main_v338 rfl (by decide),
    sub_of_mem main_v339 rfl (by decide), sub_of_mem main_v340 rfl (by decide), sub_of_mem main_cst_66 rfl (by decide),
    sub_of_mem main_v341 rfl (by decide), sub_of_mem main_v342 rfl (by decide), sub_of_mem main_v343 rfl (by decide),
    sub_of_mem main_cst_67 rfl (by decide), sub_of_mem main_call7_v0 rfl (by decide), sub_of_mem main_call7_v1 rfl (by decide),
    sub_of_mem main_v344 rfl (by decide), sub_of_mem main_c_68 rfl (by decide), sub_of_mem main_v345 rfl (by decide),
    sub_of_mem main_v346 rfl (by decide), sub_of_mem main_c_69 rfl (by decide), sub_of_mem main_v347 rfl (by decide),
    sub_of_mem main_v348 rfl (by decide), sub_of_mem main_v349 rfl (by decide), sub_of_mem main_v350 rfl (by decide),
    sub_of_mem main_v351 rfl (by decide), sub_of_mem main_c_70 rfl (by decide), sub_of_mem main_v352 rfl (by decide),
    sub_of_mem main_v353 rfl (by decide), sub_of_mem main_c_71 rfl (by decide), sub_of_mem main_v354 rfl (by decide),
    sub_of_mem main_v355 rfl (by decide), sub_of_mem main_v356 rfl (by decide), sub_of_mem main_v357 rfl (by decide),
    sub_of_mem main_v358 rfl (by decide), sub_of_mem main_v359 rfl (by decide), sub_of_mem main_c_72 rfl (by decide),
    sub_of_mem main_v360 rfl (by decide), sub_of_mem main_v361 rfl (by decide), sub_of_mem main_c_73 rfl (by decide),
    sub_of_mem main_v362 rfl (by decide), sub_of_mem main_v363 rfl (by decide), sub_of_mem main_v364 rfl (by decide),
    sub_of_mem main_v365 rfl (by decide), sub_of_mem main_v366 rfl (by decide), sub_of_mem main_v367 rfl (by decide),
    sub_of_mem main_v368 rfl (by decide), sub_of_mem main_v369 rfl (by decide), sub_of_mem main_cst_74 rfl (by decide),
    sub_of_mem main_v370 rfl (by decide), sub_of_mem main_v371 rfl (by decide), sub_of_mem main_v372 rfl (by decide),
    sub_of_mem main_v373 rfl (by decide), sub_of_mem main_v374 rfl (by decide), sub_of_mem main_v375 rfl (by decide),
    sub_of_mem main_v376 rfl (by decide)⟩

/-- A buffer not in the list holds after the operations what it held before. -/
theorem stL2R2_frame {r : Ref sig .tc} (hr : r ∉ wrL2R2) (W : Valuation τ sig (Elt F)) :
    after stL2R2 W (no_index (Proc.devRef .tc r)) = W (Proc.devRef .tc r) :=
  after_of_writes_sub stL2R2 W stL2R2_writes hr

end Cert.ReferenceIdeal.RefRead

end
-- ==== Proof.RefSt_L2R3.lean ====
import proofs.«115534_j8151847928363_1_alg».proof.Proof.Gen.ReferenceIdeal
import Idealize.ShloMosaic.Lib.StableHlo.Run

set_option maxRecDepth 8192

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

/-- Operations 470 ≤ k < 537 of the program, in execution order. -/
abbrev stL2R3 : List (HloOp τ sig (Elt F)) :=
  [ StableHlo.unary main_arg1 main_v377 ((extractStridedSlice S1x2x500000 ![3, 0, 0] · slices_S4x2x500000_S1x2x500000_3_0_0) : (⟨S4x2x500000, .i32⟩ : BufTy).Contents (Elt F) → (⟨S1x2x500000, .i32⟩ : BufTy).Contents (Elt F)),
    StableHlo.reshape main_v377 main_v378 rfl shapeCasts_S1x2x500000_S2x500000,
    StableHlo.unary main_arg4 main_v379 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v379 main_v380 rfl shapeCasts_S1x128x128_S128x128,
    StableHlo.unary main_arg5 main_v381 ((extractStridedSlice S1x128 ![3, 0] · slices_S4x128_S1x128_3_0) : (⟨S4x128, .f32⟩ : BufTy).Contents (Elt F) → (⟨S1x128, .f32⟩ : BufTy).Contents (Elt F)),
    StableHlo.reshape main_v381 main_v382 rfl shapeCasts_S1x128_S128,
    StableHlo.binary main_v215 main_v380 main_v383 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_v384 (iotaInDim S50000 32 0),
    StableHlo.unary main_v378 main_v385 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v385 main_v386 rfl shapeCasts_S1x500000_S500000,
    StableHlo.binary main_v386 main_v384 main_v387 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.unary main_v378 main_v388 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v388 main_v389 rfl shapeCasts_S1x500000_S500000,
    StableHlo.binary main_v389 main_v384 main_v390 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.nullary main_cst_75 (constant S_ .f32 0x3F800000#32),
    StableHlo.unary main_cst_75 main_v391 (broadcastInDim S550000 ![] bcast_S_S550000 : (⟨S_, .f32⟩ : BufTy).Contents (Elt F) → (⟨S550000, .f32⟩ : BufTy).Contents (Elt F)),
    StableHlo.nullary main_cst_76 (constant S_ .f32 0x00000000#32),
    StableHlo.unary main_cst_76 main_v392 (broadcastInDim S50000 ![] bcast_S_S50000 : (⟨S_, .f32⟩ : BufTy).Contents (Elt F) → (⟨S50000, .f32⟩ : BufTy).Contents (Elt F)),
    StableHlo.unary main_v390 main_v393 (broadcastInDim S550000x1 ![0] bcast_S550000_S550000x1_0 : (⟨S550000, .i32⟩ : BufTy).Contents (Elt F) → (⟨S550000x1, .i32⟩ : BufTy).Contents (Elt F)),
    StableHlo.ternary main_v392 main_v393 main_v391 main_v394 ((fun x i u => Host.scatterAdd scatter_S50000_S550000x1_S550000_n_0_0_1 x i u) : (⟨S50000, .f32⟩ : BufTy).Contents (Elt F) → (⟨S550000x1, .i32⟩ : BufTy).Contents (Elt F) → (⟨S550000, .f32⟩ : BufTy).Contents (Elt F) → (⟨S50000, .f32⟩ : BufTy).Contents (Elt F)),
    StableHlo.nullary main_cst_77 (constant S_ .f32 0x00000000#32),
    StableHlo.unary main_cst_77 main_v395 (broadcastInDim S50000 ![] bcast_S_S50000 : (⟨S_, .f32⟩ : BufTy).Contents (Elt F) → (⟨S50000, .f32⟩ : BufTy).Contents (Elt F)),
    StableHlo.binary main_v394 main_v395 main_v396 (cmpf .ogt : (⟨S50000, .f32⟩ : BufTy).Contents (Elt F) → (⟨S50000, .f32⟩ : BufTy).Contents (Elt F) → (⟨S50000, .i1⟩ : BufTy).Contents (Elt F)),
    StableHlo.unary main_v394 main_v397 (Host.rsqrt : (⟨S50000, .f32⟩ : BufTy).Contents (Elt F) → (⟨S50000, .f32⟩ : BufTy).Contents (Elt F)),
    StableHlo.nullary main_cst_78 (constant S_ .f32 0x00000000#32),
    StableHlo.TRef.unary (TRef.of main_cst_78 : TRef sig ⟨S_, .f32⟩) main_call8.v0 id,
    StableHlo.TRef.unary main_call8.v0 main_call8.v1 (broadcastInDim S50000 ![] bcast_S_S50000),
    StableHlo.TRef.ternary (TRef.of main_v396 : TRef sig ⟨S50000, .i1⟩) (TRef.of main_v397 : TRef sig ⟨S50000, .f32⟩) main_call8.v1 main_call8.v2 select,
    StableHlo.nullary main_c_79 (constantI S_ 32 0#32),
    StableHlo.unary main_c_79 main_v399 (broadcastInDim S550000 ![] bcast_S_S550000 : (⟨S_, .i32⟩ : BufTy).Contents (Elt F) → (⟨S550000, .i32⟩ : BufTy).Contents (Elt F)),
    StableHlo.binary main_v387 main_v399 main_v400 (cmpi .slt : (⟨S550000, .i32⟩ : BufTy).Contents (Elt F) → (⟨S550000, .i32⟩ : BufTy).Contents (Elt F) → (⟨S550000, .i1⟩ : BufTy).Contents (Elt F)),
    StableHlo.nullary main_c_80 (constantI S_ 32 50000#32),
    StableHlo.unary main_c_80 main_v401 (broadcastInDim S550000 ![] bcast_S_S550000 : (⟨S_, .i32⟩ : BufTy).Contents (Elt F) → (⟨S550000, .i32⟩ : BufTy).Contents (Elt F)),
    StableHlo.binary main_v387 main_v401 main_v402 (addi : (⟨S550000, .i32⟩ : BufTy).Contents (Elt F) → (⟨S550000, .i32⟩ : BufTy).Contents (Elt F) → (⟨S550000, .i32⟩ : BufTy).Contents (Elt F)),
    StableHlo.ternary main_v400 main_v402 main_v387 main_v403 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v403 main_v404 (broadcastInDim S550000x1 ![0] bcast_S550000_S550000x1_0 : (⟨S550000, .i32⟩ : BufTy).Contents (Elt F) → (⟨S550000x1, .i32⟩ : BufTy).Contents (Elt F)),
    StableHlo.binary main_v398 main_v404 main_v405 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.nullary main_c_81 (constantI S_ 32 0#32),
    StableHlo.unary main_c_81 main_v406 (broadcastInDim S550000 ![] bcast_S_S550000 : (⟨S_, .i32⟩ : BufTy).Contents (Elt F) → (⟨S550000, .i32⟩ : BufTy).Contents (Elt F)),
    StableHlo.binary main_v390 main_v406 main_v407 (cmpi .slt : (⟨S550000, .i32⟩ : BufTy).Contents (Elt F) → (⟨S550000, .i32⟩ : BufTy).Contents (Elt F) → (⟨S550000, .i1⟩ : BufTy).Contents (Elt F)),
    StableHlo.nullary main_c_82 (constantI S_ 32 50000#32),
    StableHlo.unary main_c_82 main_v408 (broadcastInDim S550000 ![] bcast_S_S550000 : (⟨S_, .i32⟩ : BufTy).Contents (Elt F) → (⟨S550000, .i32⟩ : BufTy).Contents (Elt F)),
    StableHlo.binary main_v390 main_v408 main_v409 (addi : (⟨S550000, .i32⟩ : BufTy).Contents (Elt F) → (⟨S550000, .i32⟩ : BufTy).Contents (Elt F) → (⟨S550000, .i32⟩ : BufTy).Contents (Elt F)),
    StableHlo.ternary main_v407 main_v409 main_v390 main_v410 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v410 main_v411 (broadcastInDim S550000x1 ![0] bcast_S550000_S550000x1_0 : (⟨S550000, .i32⟩ : BufTy).Contents (Elt F) → (⟨S550000x1, .i32⟩ : BufTy).Contents (Elt F)),
    StableHlo.binary main_v398 main_v411 main_v412 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.binary main_v405 main_v412 main_v413 (mulf : (⟨S550000, .f32⟩ : BufTy).Contents (Elt F) → (⟨S550000, .f32⟩ : BufTy).Contents (Elt F) → (⟨S550000, .f32⟩ : BufTy).Contents (Elt F)),
    StableHlo.nullary main_c_83 (constantI S_ 32 0#32),
    StableHlo.unary main_c_83 main_v414 (broadcastInDim S550000 ![] bcast_S_S550000 : (⟨S_, .i32⟩ : BufTy).Contents (Elt F) → (⟨S550000, .i32⟩ : BufTy).Contents (Elt F)),
    StableHlo.binary main_v387 main_v414 main_v415 (cmpi .slt : (⟨S550000, .i32⟩ : BufTy).Contents (Elt F) → (⟨S550000, .i32⟩ : BufTy).Contents (Elt F) → (⟨S550000, .i1⟩ : BufTy).Contents (Elt F)),
    StableHlo.nullary main_c_84 (constantI S_ 32 50000#32),
    StableHlo.unary main_c_84 main_v416 (broadcastInDim S550000 ![] bcast_S_S550000 : (⟨S_, .i32⟩ : BufTy).Contents (Elt F) → (⟨S550000, .i32⟩ : BufTy).Contents (Elt F)),
    StableHlo.binary main_v387 main_v416 main_v417 (addi : (⟨S550000, .i32⟩ : BufTy).Contents (Elt F) → (⟨S550000, .i32⟩ : BufTy).Contents (Elt F) → (⟨S550000, .i32⟩ : BufTy).Contents (Elt F)),
    StableHlo.ternary main_v415 main_v417 main_v387 main_v418 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v418 main_v419 (broadcastInDim S550000x1 ![0] bcast_S550000_S550000x1_0 : (⟨S550000, .i32⟩ : BufTy).Contents (Elt F) → (⟨S550000x1, .i32⟩ : BufTy).Contents (Elt F)),
    StableHlo.binary main_v383 main_v419 main_v420 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    StableHlo.unary main_v413 main_v421 (broadcastInDim S550000x1 ![0] bcast_S550000_S550000x1_0 : (⟨S550000, .f32⟩ : BufTy).Contents (Elt F) → (⟨S550000x1, .f32⟩ : BufTy).Contents (Elt F)),
    StableHlo.unary main_v421 main_v422 (broadcastInDim S550000x128 ![0, 1] bcast_S550000x1_S550000x128_0_1 : (⟨S550000x1, .f32⟩ : BufTy).Contents (Elt F) → (⟨S550000x128, .f32⟩ : BufTy).Contents (Elt F)),
    StableHlo.binary main_v420 main_v422 main_v423 (mulf : (⟨S550000x128, .f32⟩ : BufTy).Contents (Elt F) → (⟨S550000x128, .f32⟩ : BufTy).Contents (Elt F) → (⟨S550000x128, .f32⟩ : BufTy).Contents (Elt F)),
    StableHlo.nullary main_cst_85 (constant S_ .f32 0x00000000#32),
    StableHlo.unary main_cst_85 main_v424 (broadcastInDim S50000x128 ![] bcast_S_S50000x128 : (⟨S_, .f32⟩ : BufTy).Contents (Elt F) → (⟨S50000x128, .f32⟩ : BufTy).Contents (Elt F)),
    StableHlo.unary main_v390 main_v425 (broadcastInDim S550000x1 ![0] bcast_S550000_S550000x1_0 : (⟨S550000, .i32⟩ : BufTy).Contents (Elt F) → (⟨S550000x1, .i32⟩ : BufTy).Contents (Elt F)),
    StableHlo.ternary main_v424 main_v425 main_v423 main_v426 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)),
    StableHlo.unary main_v382 main_v427 (broadcastInDim S1x128 ![1] bcast_S128_S1x128_1 : (⟨S128, .f32⟩ : BufTy).Contents (Elt F) → (⟨S1x128, .f32⟩ : BufTy).Contents (Elt F)),
    StableHlo.unary main_v427 main_v428 (broadcastInDim S50000x128 ![0, 1] bcast_S1x128_S50000x128_0_1 : (⟨S1x128, .f32⟩ : BufTy).Contents (Elt F) → (⟨S50000x128, .f32⟩ : BufTy).Contents (Elt F)),
    StableHlo.binary main_v426 main_v428 main_v429 (addf : (⟨S50000x128, .f32⟩ : BufTy).Contents (Elt F) → (⟨S50000x128, .f32⟩ : BufTy).Contents (Elt F) → (⟨S50000x128, .f32⟩ : BufTy).Contents (Elt F)),
    StableHlo.binary main_v376 main_v429 main_v430 (addf : (⟨S50000x128, .f32⟩ : BufTy).Contents (Elt F) → (⟨S50000x128, .f32⟩ : BufTy).Contents (Elt F) → (⟨S50000x128, .f32⟩ : BufTy).Contents (Elt F)) ]

/-- The buffers those operations write, in order. -/
abbrev wrL2R3 : List (Ref sig .tc) :=
  [ main_v377, main_v378, main_v379, main_v380, main_v381, main_v382, main_v383, main_v384,
    main_v385, main_v386, main_v387, main_v388, main_v389, main_v390, main_cst_75, main_v391,
    main_cst_76, main_v392, main_v393, main_v394, main_cst_77, main_v395, main_v396, main_v397,
    main_cst_78, main_call8_v0, main_call8_v1, main_v398, main_c_79, main_v399, main_v400, main_c_80,
    main_v401, main_v402, main_v403, main_v404, main_v405, main_c_81, main_v406, main_v407,
    main_c_82, main_v408, main_v409, main_v410, main_v411, main_v412, main_v413, main_c_83,
    main_v414, main_v415, main_c_84, main_v416, main_v417, main_v418, main_v419, main_v420,
    main_v421, main_v422, main_v423, main_cst_85, main_v424, main_v425, main_v426, main_v427,
    main_v428, main_v429, main_v430 ]

/-- An operation that writes one buffer of a list writes within the list. -/
private theorem sub_of_mem {op : HloOp τ sig (Elt F)} (y : Ref sig .tc) {L : List (Ref sig .tc)}
    (hw : op.writes = {Proc.devRef (τ := τ) .tc y}) (hy : y ∈ L) : op.writes ⊆ (L.map (Proc.devRef (τ := τ) .tc)).toFinset := by
  rw [hw, Finset.singleton_subset_iff, List.mem_toFinset]; exact List.mem_map_of_mem hy

/-- Each operation writes only a buffer of the list. -/
theorem stL2R3_writes : (stL2R3 : List (HloOp τ sig (Elt F))).Forall fun op => op.writes ⊆ (wrL2R3.map (Proc.devRef (τ := τ) .tc)).toFinset :=
  ⟨sub_of_mem main_v377 rfl (by decide), sub_of_mem main_v378 rfl (by decide), sub_of_mem main_v379 rfl (by decide),
    sub_of_mem main_v380 rfl (by decide), sub_of_mem main_v381 rfl (by decide), sub_of_mem main_v382 rfl (by decide),
    sub_of_mem main_v383 rfl (by decide), sub_of_mem main_v384 rfl (by decide), sub_of_mem main_v385 rfl (by decide),
    sub_of_mem main_v386 rfl (by decide), sub_of_mem main_v387 rfl (by decide), sub_of_mem main_v388 rfl (by decide),
    sub_of_mem main_v389 rfl (by decide), sub_of_mem main_v390 rfl (by decide), sub_of_mem main_cst_75 rfl (by decide),
    sub_of_mem main_v391 rfl (by decide), sub_of_mem main_cst_76 rfl (by decide), sub_of_mem main_v392 rfl (by decide),
    sub_of_mem main_v393 rfl (by decide), sub_of_mem main_v394 rfl (by decide), sub_of_mem main_cst_77 rfl (by decide),
    sub_of_mem main_v395 rfl (by decide), sub_of_mem main_v396 rfl (by decide), sub_of_mem main_v397 rfl (by decide),
    sub_of_mem main_cst_78 rfl (by decide), sub_of_mem main_call8_v0 rfl (by decide), sub_of_mem main_call8_v1 rfl (by decide),
    sub_of_mem main_v398 rfl (by decide), sub_of_mem main_c_79 rfl (by decide), sub_of_mem main_v399 rfl (by decide),
    sub_of_mem main_v400 rfl (by decide), sub_of_mem main_c_80 rfl (by decide), sub_of_mem main_v401 rfl (by decide),
    sub_of_mem main_v402 rfl (by decide), sub_of_mem main_v403 rfl (by decide), sub_of_mem main_v404 rfl (by decide),
    sub_of_mem main_v405 rfl (by decide), sub_of_mem main_c_81 rfl (by decide), sub_of_mem main_v406 rfl (by decide),
    sub_of_mem main_v407 rfl (by decide), sub_of_mem main_c_82 rfl (by decide), sub_of_mem main_v408 rfl (by decide),
    sub_of_mem main_v409 rfl (by decide), sub_of_mem main_v410 rfl (by decide), sub_of_mem main_v411 rfl (by decide),
    sub_of_mem main_v412 rfl (by decide), sub_of_mem main_v413 rfl (by decide), sub_of_mem main_c_83 rfl (by decide),
    sub_of_mem main_v414 rfl (by decide), sub_of_mem main_v415 rfl (by decide), sub_of_mem main_c_84 rfl (by decide),
    sub_of_mem main_v416 rfl (by decide), sub_of_mem main_v417 rfl (by decide), sub_of_mem main_v418 rfl (by decide),
    sub_of_mem main_v419 rfl (by decide), sub_of_mem main_v420 rfl (by decide), sub_of_mem main_v421 rfl (by decide),
    sub_of_mem main_v422 rfl (by decide), sub_of_mem main_v423 rfl (by decide), sub_of_mem main_cst_85 rfl (by decide),
    sub_of_mem main_v424 rfl (by decide), sub_of_mem main_v425 rfl (by decide), sub_of_mem main_v426 rfl (by decide),
    sub_of_mem main_v427 rfl (by decide), sub_of_mem main_v428 rfl (by decide), sub_of_mem main_v429 rfl (by decide),
    sub_of_mem main_v430 rfl (by decide)⟩

/-- A buffer not in the list holds after the operations what it held before. -/
theorem stL2R3_frame {r : Ref sig .tc} (hr : r ∉ wrL2R3) (W : Valuation τ sig (Elt F)) :
    after stL2R3 W (no_index (Proc.devRef .tc r)) = W (Proc.devRef .tc r) :=
  after_of_writes_sub stL2R3 W stL2R3_writes hr

end Cert.ReferenceIdeal.RefRead

end
-- ==== Proof.RefSt_RELU2.lean ====
import proofs.«115534_j8151847928363_1_alg».proof.Proof.Gen.ReferenceIdeal
import Idealize.ShloMosaic.Lib.StableHlo.Run

set_option maxRecDepth 8192

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

/-- Operations 537 ≤ k < 540 of the program, in execution order. -/
abbrev stRELU2 : List (HloOp τ sig (Elt F)) :=
  [ StableHlo.TRef.nullary main_call9.cst (constant S_ .f32 0x00000000#32),
    StableHlo.TRef.unary main_call9.cst main_call9.v0 (broadcastInDim S50000x128 ![] bcast_S_S50000x128),
    StableHlo.TRef.binary (TRef.of main_v430 : TRef sig ⟨S50000x128, .f32⟩) main_call9.v0 main_call9.v1 maximumf ]

/-- The buffers those operations write, in order. -/
abbrev wrRELU2 : List (Ref sig .tc) :=
  [ main_call9_cst, main_call9_v0, main_v431 ]

/-- An operation that writes one buffer of a list writes within the list. -/
private theorem sub_of_mem {op : HloOp τ sig (Elt F)} (y : Ref sig .tc) {L : List (Ref sig .tc)}
    (hw : op.writes = {Proc.devRef (τ := τ) .tc y}) (hy : y ∈ L) : op.writes ⊆ (L.map (Proc.devRef (τ := τ) .tc)).toFinset := by
  rw [hw, Finset.singleton_subset_iff, List.mem_toFinset]; exact List.mem_map_of_mem hy

/-- Each operation writes only a buffer of the list. -/
theorem stRELU2_writes : (stRELU2 : List (HloOp τ sig (Elt F))).Forall fun op => op.writes ⊆ (wrRELU2.map (Proc.devRef (τ := τ) .tc)).toFinset :=
  ⟨sub_of_mem main_call9_cst rfl (by decide), sub_of_mem main_call9_v0 rfl (by decide), sub_of_mem main_v431 rfl (by decide)⟩

/-- A buffer not in the list holds after the operations what it held before. -/
theorem stRELU2_frame {r : Ref sig .tc} (hr : r ∉ wrRELU2) (W : Valuation τ sig (Elt F)) :
    after stRELU2 W (no_index (Proc.devRef .tc r)) = W (Proc.devRef .tc r) :=
  after_of_writes_sub stRELU2 W stRELU2_writes hr

end Cert.ReferenceIdeal.RefRead

end
-- ==== Proof.RefReadL2.lean ====
/- The second layer read stage by stage: each relation's operations compute that relation's convolution of the
   layer's input (added, from the second relation on, to the running sum), and the closing three take the maximum with zero.
   Each equation is the fold over the stage's own operations, rewritten operation by operation. -/
import proofs.«115534_j8151847928363_1_alg».proof.Proof.RefReadDefs
import proofs.«115534_j8151847928363_1_alg».proof.Proof.RefSt_L2R0
import proofs.«115534_j8151847928363_1_alg».proof.Proof.RefSt_L2R1
import proofs.«115534_j8151847928363_1_alg».proof.Proof.RefSt_L2R2
import proofs.«115534_j8151847928363_1_alg».proof.Proof.RefSt_L2R3
import proofs.«115534_j8151847928363_1_alg».proof.Proof.RefSt_RELU2

set_option maxRecDepth 8192

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Relation 0's stage of layer 2: its convolution of the layer's input. -/
theorem L2R0_read (W : Valuation τ sig (Elt F)) :
    after stL2R0 W (no_index (main_v268 : DevRef τ sig)) = gcn (W (main_arg1 : DevRef τ sig)) 0 (W (main_v215 : DevRef τ sig)) (W (main_arg4 : DevRef τ sig)) (W (main_arg5 : DevRef τ sig)) := by
  after_results_simp
  rfl

set_option maxHeartbeats 4000000 in
/-- Relation 1's stage of layer 2: its convolution of the layer's input, added to the sum so far. -/
theorem L2R1_read (W : Valuation τ sig (Elt F)) :
    after stL2R1 W (no_index (main_v322 : DevRef τ sig)) = addf (W (main_v268 : DevRef τ sig)) (gcn (W (main_arg1 : DevRef τ sig)) 1 (W (main_v215 : DevRef τ sig)) (W (main_arg4 : DevRef τ sig)) (W (main_arg5 : DevRef τ sig))) := by
  after_results_simp
  rfl

set_option maxHeartbeats 4000000 in
/-- Relation 2's stage of layer 2: its convolution of the layer's input, added to the sum so far. -/
theorem L2R2_read (W : Valuation τ sig (Elt F)) :
    after stL2R2 W (no_index (main_v376 : DevRef τ sig)) = addf (W (main_v322 : DevRef τ sig)) (gcn (W (main_arg1 : DevRef τ sig)) 2 (W (main_v215 : DevRef τ sig)) (W (main_arg4 : DevRef τ sig)) (W (main_arg5 : DevRef τ sig))) := by
  after_results_simp
  rfl

set_option maxHeartbeats 4000000 in
/-- Relation 3's stage of layer 2: its convolution of the layer's input, added to the sum so far. -/
theorem L2R3_read (W : Valuation τ sig (Elt F)) :
    after stL2R3 W (no_index (main_v430 : DevRef τ sig)) = addf (W (main_v376 : DevRef τ sig)) (gcn (W (main_arg1 : DevRef τ sig)) 3 (W (main_v215 : DevRef τ sig)) (W (main_arg4 : DevRef τ sig)) (W (main_arg5 : DevRef τ sig))) := by
  after_results_simp
  rfl

/-- The layer's closing stage: the maximum with zero. -/
theorem RELU2_read (W : Valuation τ sig (Elt F)) :
    after stRELU2 W (no_index (main_v431 : DevRef τ sig)) = relu (W (main_v430 : DevRef τ sig)) := by
  after_results_simp
  rfl

end Cert.ReferenceIdeal.RefRead

end
-- ==== Proof.RefSt_BN.lean ====
import proofs.«115534_j8151847928363_1_alg».proof.Proof.Gen.ReferenceIdeal
import Idealize.ShloMosaic.Lib.StableHlo.Run

set_option maxRecDepth 8192

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

/-- Operations 540 ≤ k < 584 of the program, in execution order. -/
abbrev stBN : List (HloOp τ sig (Elt F)) :=
  [ StableHlo.nullary main_cst_86 (constant S_ .f32 0x00000000#32),
    StableHlo.binary main_v431 main_cst_86 main_v432 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_87 (constant S_ .f32 0x47435000#32),
    StableHlo.unary main_cst_87 main_v433 (broadcastInDim S128 ![] bcast_S_S128 : (⟨S_, .f32⟩ : BufTy).Contents (Elt F) → (⟨S128, .f32⟩ : BufTy).Contents (Elt F)),
    StableHlo.binary main_v432 main_v433 main_v434 (Host.divf : (⟨S128, .f32⟩ : BufTy).Contents (Elt F) → (⟨S128, .f32⟩ : BufTy).Contents (Elt F) → (⟨S128, .f32⟩ : BufTy).Contents (Elt F)),
    StableHlo.nullary main_c_88 (constantI S_ 32 0#32),
    StableHlo.TRef.nullary main_call10.cst (constant S_ .f32 0x00000000#32),
    StableHlo.TRef.binary (TRef.of main_v431 : TRef sig ⟨S50000x128, .f32⟩) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (TRef.of main_v431 : TRef sig ⟨S50000x128, .f32⟩) main_call10.v4 main_call10.v5 subf,
    StableHlo.TRef.binary main_call10.v5 main_call10.v5 main_call10.v6 mulf,
    StableHlo.TRef.unary (TRef.of main_c_88 : TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v434 main_v436 (broadcastInDim S1x128 ![1] bcast_S128_S1x128_1 : (⟨S128, .f32⟩ : BufTy).Contents (Elt F) → (⟨S1x128, .f32⟩ : BufTy).Contents (Elt F)),
    StableHlo.unary main_v436 main_v437 (broadcastInDim S50000x128 ![0, 1] bcast_S1x128_S50000x128_0_1 : (⟨S1x128, .f32⟩ : BufTy).Contents (Elt F) → (⟨S50000x128, .f32⟩ : BufTy).Contents (Elt F)),
    StableHlo.binary main_v431 main_v437 main_v438 (subf : (⟨S50000x128, .f32⟩ : BufTy).Contents (Elt F) → (⟨S50000x128, .f32⟩ : BufTy).Contents (Elt F) → (⟨S50000x128, .f32⟩ : BufTy).Contents (Elt F)),
    StableHlo.nullary main_cst_89 (constant S_ .f32 0x3727C5AC#32),
    StableHlo.unary main_cst_89 main_v439 (broadcastInDim S128 ![] bcast_S_S128 : (⟨S_, .f32⟩ : BufTy).Contents (Elt F) → (⟨S128, .f32⟩ : BufTy).Contents (Elt F)),
    StableHlo.binary main_v435 main_v439 main_v440 (addf : (⟨S128, .f32⟩ : BufTy).Contents (Elt F) → (⟨S128, .f32⟩ : BufTy).Contents (Elt F) → (⟨S128, .f32⟩ : BufTy).Contents (Elt F)),
    StableHlo.unary main_v440 main_v441 (Host.rsqrt : (⟨S128, .f32⟩ : BufTy).Contents (Elt F) → (⟨S128, .f32⟩ : BufTy).Contents (Elt F)),
    StableHlo.unary main_v441 main_v442 (broadcastInDim S1x128 ![1] bcast_S128_S1x128_1 : (⟨S128, .f32⟩ : BufTy).Contents (Elt F) → (⟨S1x128, .f32⟩ : BufTy).Contents (Elt F)),
    StableHlo.unary main_v442 main_v443 (broadcastInDim S50000x128 ![0, 1] bcast_S1x128_S50000x128_0_1 : (⟨S1x128, .f32⟩ : BufTy).Contents (Elt F) → (⟨S50000x128, .f32⟩ : BufTy).Contents (Elt F)),
    StableHlo.binary main_v438 main_v443 main_v444 (mulf : (⟨S50000x128, .f32⟩ : BufTy).Contents (Elt F) → (⟨S50000x128, .f32⟩ : BufTy).Contents (Elt F) → (⟨S50000x128, .f32⟩ : BufTy).Contents (Elt F)),
    StableHlo.unary main_arg6 main_v445 (broadcastInDim S1x128 ![1] bcast_S128_S1x128_1 : (⟨S128, .f32⟩ : BufTy).Contents (Elt F) → (⟨S1x128, .f32⟩ : BufTy).Contents (Elt F)),
    StableHlo.unary main_v445 main_v446 (broadcastInDim S50000x128 ![0, 1] bcast_S1x128_S50000x128_0_1 : (⟨S1x128, .f32⟩ : BufTy).Contents (Elt F) → (⟨S50000x128, .f32⟩ : BufTy).Contents (Elt F)),
    StableHlo.binary main_v444 main_v446 main_v447 (mulf : (⟨S50000x128, .f32⟩ : BufTy).Contents (Elt F) → (⟨S50000x128, .f32⟩ : BufTy).Contents (Elt F) → (⟨S50000x128, .f32⟩ : BufTy).Contents (Elt F)),
    StableHlo.unary main_arg7 main_v448 (broadcastInDim S1x128 ![1] bcast_S128_S1x128_1 : (⟨S128, .f32⟩ : BufTy).Contents (Elt F) → (⟨S1x128, .f32⟩ : BufTy).Contents (Elt F)),
    StableHlo.unary main_v448 main_v449 (broadcastInDim S50000x128 ![0, 1] bcast_S1x128_S50000x128_0_1 : (⟨S1x128, .f32⟩ : BufTy).Contents (Elt F) → (⟨S50000x128, .f32⟩ : BufTy).Contents (Elt F)),
    StableHlo.binary main_v447 main_v449 main_v450 (addf : (⟨S50000x128, .f32⟩ : BufTy).Contents (Elt F) → (⟨S50000x128, .f32⟩ : BufTy).Contents (Elt F) → (⟨S50000x128, .f32⟩ : BufTy).Contents (Elt F)) ]

/-- The buffers those operations write, in order. -/
abbrev wrBN : List (Ref sig .tc) :=
  [ main_cst_86, main_v432, main_cst_87, main_v433, main_v434, main_c_88, main_call10_cst, main_call10_v0,
    main_call10_v1, main_call10_cst_0, main_call10_v2, main_call10_v3, main_call10_v4, main_call10_v5, main_call10_v6, main_call10_v7,
    main_call10_cst_1, main_call10_v8, main_call10_cst_2, main_call10_v9, main_call10_v10, main_call10_v11, main_call10_cst_3, main_call10_v12,
    main_call10_cst_4, main_call10_call0_v0, main_call10_call0_v1, main_v435, main_v436, main_v437, main_v438, main_cst_89,
    main_v439, main_v440, main_v441, main_v442, main_v443, main_v444, main_v445, main_v446,
    main_v447, main_v448, main_v449, main_v450 ]

/-- An operation that writes one buffer of a list writes within the list. -/
private theorem sub_of_mem {op : HloOp τ sig (Elt F)} (y : Ref sig .tc) {L : List (Ref sig .tc)}
    (hw : op.writes = {Proc.devRef (τ := τ) .tc y}) (hy : y ∈ L) : op.writes ⊆ (L.map (Proc.devRef (τ := τ) .tc)).toFinset := by
  rw [hw, Finset.singleton_subset_iff, List.mem_toFinset]; exact List.mem_map_of_mem hy

/-- Each operation writes only a buffer of the list. -/
theorem stBN_writes : (stBN : List (HloOp τ sig (Elt F))).Forall fun op => op.writes ⊆ (wrBN.map (Proc.devRef (τ := τ) .tc)).toFinset :=
  ⟨sub_of_mem main_cst_86 rfl (by decide), sub_of_mem main_v432 rfl (by decide), sub_of_mem main_cst_87 rfl (by decide),
    sub_of_mem main_v433 rfl (by decide), sub_of_mem main_v434 rfl (by decide), sub_of_mem main_c_88 rfl (by decide),
    sub_of_mem main_call10_cst rfl (by decide), sub_of_mem main_call10_v0 rfl (by decide), sub_of_mem main_call10_v1 rfl (by decide),
    sub_of_mem main_call10_cst_0 rfl (by decide), sub_of_mem main_call10_v2 rfl (by decide), sub_of_mem main_call10_v3 rfl (by decide),
    sub_of_mem main_call10_v4 rfl (by decide), sub_of_mem main_call10_v5 rfl (by decide), sub_of_mem main_call10_v6 rfl (by decide),
    sub_of_mem main_call10_v7 rfl (by decide), sub_of_mem main_call10_cst_1 rfl (by decide), sub_of_mem main_call10_v8 rfl (by decide),
    sub_of_mem main_call10_cst_2 rfl (by decide), sub_of_mem main_call10_v9 rfl (by decide), sub_of_mem main_call10_v10 rfl (by decide),
    sub_of_mem main_call10_v11 rfl (by decide), sub_of_mem main_call10_cst_3 rfl (by decide), sub_of_mem main_call10_v12 rfl (by decide),
    sub_of_mem main_call10_cst_4 rfl (by decide), sub_of_mem main_call10_call0_v0 rfl (by decide), sub_of_mem main_call10_call0_v1 rfl (by decide),
    sub_of_mem main_v435 rfl (by decide), sub_of_mem main_v436 rfl (by decide), sub_of_mem main_v437 rfl (by decide),
    sub_of_mem main_v438 rfl (by decide), sub_of_mem main_cst_89 rfl (by decide), sub_of_mem main_v439 rfl (by decide),
    sub_of_mem main_v440 rfl (by decide), sub_of_mem main_v441 rfl (by decide), sub_of_mem main_v442 rfl (by decide),
    sub_of_mem main_v443 rfl (by decide), sub_of_mem main_v444 rfl (by decide), sub_of_mem main_v445 rfl (by decide),
    sub_of_mem main_v446 rfl (by decide), sub_of_mem main_v447 rfl (by decide), sub_of_mem main_v448 rfl (by decide),
    sub_of_mem main_v449 rfl (by decide), sub_of_mem main_v450 rfl (by decide)⟩

/-- A buffer not in the list holds after the operations what it held before. -/
theorem stBN_frame {r : Ref sig .tc} (hr : r ∉ wrBN) (W : Valuation τ sig (Elt F)) :
    after stBN W (no_index (Proc.devRef .tc r)) = W (Proc.devRef .tc r) :=
  after_of_writes_sub stBN W stBN_writes hr

end Cert.ReferenceIdeal.RefRead

end
-- ==== Proof.RefSt_HEAD.lean ====
import proofs.«115534_j8151847928363_1_alg».proof.Proof.Gen.ReferenceIdeal
import Idealize.ShloMosaic.Lib.StableHlo.Run

set_option maxRecDepth 8192

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

/-- Operations 584 ≤ k < 595 of the program, in execution order. -/
abbrev stHEAD : List (HloOp τ sig (Elt F)) :=
  [ StableHlo.binary main_v450 main_arg8 main_v451 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v452 (broadcastInDim S1x128 ![1] bcast_S128_S1x128_1 : (⟨S128, .f32⟩ : BufTy).Contents (Elt F) → (⟨S1x128, .f32⟩ : BufTy).Contents (Elt F)),
    StableHlo.unary main_v452 main_v453 (broadcastInDim S50000x128 ![0, 1] bcast_S1x128_S50000x128_0_1 : (⟨S1x128, .f32⟩ : BufTy).Contents (Elt F) → (⟨S50000x128, .f32⟩ : BufTy).Contents (Elt F)),
    StableHlo.binary main_v451 main_v453 main_v454 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (TRef.of main_v454 : TRef sig ⟨S50000x128, .f32⟩) main_call11.v0 main_call11.v1 maximumf,
    StableHlo.binary main_v455 main_arg10 main_v456 ((fun l r => Host.dotGeneral dot_S50000x128_S128x2_S50000x2_1_0_0_1_n_n none l r) : (⟨S50000x128, .f32⟩ : BufTy).Contents (Elt F) → (⟨S128x2, .f32⟩ : BufTy).Contents (Elt F) → (⟨S50000x2, .f32⟩ : BufTy).Contents (Elt F)),
    StableHlo.unary main_arg11 main_v457 (broadcastInDim S1x2 ![1] bcast_S2_S1x2_1 : (⟨S2, .f32⟩ : BufTy).Contents (Elt F) → (⟨S1x2, .f32⟩ : BufTy).Contents (Elt F)),
    StableHlo.unary main_v457 main_v458 (broadcastInDim S50000x2 ![0, 1] bcast_S1x2_S50000x2_0_1 : (⟨S1x2, .f32⟩ : BufTy).Contents (Elt F) → (⟨S50000x2, .f32⟩ : BufTy).Contents (Elt F)),
    StableHlo.binary main_v456 main_v458 main_v459 (addf : (⟨S50000x2, .f32⟩ : BufTy).Contents (Elt F) → (⟨S50000x2, .f32⟩ : BufTy).Contents (Elt F) → (⟨S50000x2, .f32⟩ : BufTy).Contents (Elt F)) ]

/-- The buffers those operations write, in order. -/
abbrev wrHEAD : List (Ref sig .tc) :=
  [ main_v451, main_v452, main_v453, main_v454, main_call11_cst, main_call11_v0, main_v455, main_v456,
    main_v457, main_v458, main_v459 ]

/-- An operation that writes one buffer of a list writes within the list. -/
private theorem sub_of_mem {op : HloOp τ sig (Elt F)} (y : Ref sig .tc) {L : List (Ref sig .tc)}
    (hw : op.writes = {Proc.devRef (τ := τ) .tc y}) (hy : y ∈ L) : op.writes ⊆ (L.map (Proc.devRef (τ := τ) .tc)).toFinset := by
  rw [hw, Finset.singleton_subset_iff, List.mem_toFinset]; exact List.mem_map_of_mem hy

/-- Each operation writes only a buffer of the list. -/
theorem stHEAD_writes : (stHEAD : List (HloOp τ sig (Elt F))).Forall fun op => op.writes ⊆ (wrHEAD.map (Proc.devRef (τ := τ) .tc)).toFinset :=
  ⟨sub_of_mem main_v451 rfl (by decide), sub_of_mem main_v452 rfl (by decide), sub_of_mem main_v453 rfl (by decide),
    sub_of_mem main_v454 rfl (by decide), sub_of_mem main_call11_cst rfl (by decide), sub_of_mem main_call11_v0 rfl (by decide),
    sub_of_mem main_v455 rfl (by decide), sub_of_mem main_v456 rfl (by decide), sub_of_mem main_v457 rfl (by decide),
    sub_of_mem main_v458 rfl (by decide), sub_of_mem main_v459 rfl (by decide)⟩

/-- A buffer not in the list holds after the operations what it held before. -/
theorem stHEAD_frame {r : Ref sig .tc} (hr : r ∉ wrHEAD) (W : Valuation τ sig (Elt F)) :
    after stHEAD W (no_index (Proc.devRef .tc r)) = W (Proc.devRef .tc r) :=
  after_of_writes_sub stHEAD W stHEAD_writes hr

end Cert.ReferenceIdeal.RefRead

end
-- ==== Proof.RefReadTail.lean ====
/- The last two stages read: batch normalisation of the second layer's output, and the two-layer head. Each equation is
   the fold over the stage's own operations, rewritten operation by operation. -/
import proofs.«115534_j8151847928363_1_alg».proof.Proof.RefReadDefs
import proofs.«115534_j8151847928363_1_alg».proof.Proof.RefSt_BN
import proofs.«115534_j8151847928363_1_alg».proof.Proof.RefSt_HEAD

set_option maxRecDepth 8192

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The normalisation stage: column means and biased variances of its input, then `(h - mean) * rsqrt (var + eps) * gamma + beta`. -/
theorem BN_read (W : Valuation τ sig (Elt F)) :
    after stBN W (no_index (main_v450 : DevRef τ sig)) = bn (W (main_v431 : DevRef τ sig)) (W (main_arg6 : DevRef τ sig)) (W (main_arg7 : DevRef τ sig)) := by
  after_results_simp
  rfl

set_option maxHeartbeats 4000000 in
/-- The head: a linear layer, the maximum with zero, a linear layer. -/
theorem HEAD_read (W : Valuation τ sig (Elt F)) :
    after stHEAD W (no_index (main_v459 : DevRef τ sig))
      = head (W (main_v450 : DevRef τ sig)) (W (main_arg8 : DevRef τ sig)) (W (main_arg9 : DevRef τ sig)) (W (main_arg10 : DevRef τ sig)) (W (main_arg11 : DevRef τ sig)) := by
  after_results_simp
  rfl

end Cert.ReferenceIdeal.RefRead

end
-- ==== Proof.RefRead.lean ====
/- The reference program's result as a function of its arguments. The operations of @main, regrouped into the twelve
   stages of the computation (four relations and a closing maximum per layer, the normalisation, the head), run stage
   after stage; each stage's output buffer holds the stage's function of the buffers it reads, and no later stage writes a
   buffer an earlier one wrote, so the result buffer ends at the composition `refOut` of the stages over the arguments. -/
import proofs.«115534_j8151847928363_1_alg».proof.Proof.RefRun
import proofs.«115534_j8151847928363_1_alg».proof.Proof.RefReadL1
import proofs.«115534_j8151847928363_1_alg».proof.Proof.RefReadL2
import proofs.«115534_j8151847928363_1_alg».proof.Proof.RefReadTail

set_option maxRecDepth 8192

noncomputable section

namespace Cert.ReferenceIdeal.RefRead

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

/-- The windows' lists and the stages' lists concatenate to the same list: the same operations in the same order. -/
theorem ops_eq : (ops : List (HloOp τ sig (Elt F))) =
    stL1R0 ++ (stL1R1 ++ (stL1R2 ++ (stL1R3 ++ (stRELU1 ++ (stL2R0 ++ (stL2R1 ++ (stL2R2 ++ (stL2R3 ++ (stRELU2 ++ (stBN ++ (stHEAD))))))))))) := by
  chain_rfl

/-! Each stage as a map of buffer contents. -/

/-- Stage L1R0 run from contents `W`. -/
def tL1R0 (W : Valuation τ sig (Elt F)) : Valuation τ sig (Elt F) := after stL1R0 W
/-- Stage L1R1 run from contents `W`. -/
def tL1R1 (W : Valuation τ sig (Elt F)) : Valuation τ sig (Elt F) := after stL1R1 W
/-- Stage L1R2 run from contents `W`. -/
def tL1R2 (W : Valuation τ sig (Elt F)) : Valuation τ sig (Elt F) := after stL1R2 W
/-- Stage L1R3 run from contents `W`. -/
def tL1R3 (W : Valuation τ sig (Elt F)) : Valuation τ sig (Elt F) := after stL1R3 W
/-- Stage RELU1 run from contents `W`. -/
def tRELU1 (W : Valuation τ sig (Elt F)) : Valuation τ sig (Elt F) := after stRELU1 W
/-- Stage L2R0 run from contents `W`. -/
def tL2R0 (W : Valuation τ sig (Elt F)) : Valuation τ sig (Elt F) := after stL2R0 W
/-- Stage L2R1 run from contents `W`. -/
def tL2R1 (W : Valuation τ sig (Elt F)) : Valuation τ sig (Elt F) := after stL2R1 W
/-- Stage L2R2 run from contents `W`. -/
def tL2R2 (W : Valuation τ sig (Elt F)) : Valuation τ sig (Elt F) := after stL2R2 W
/-- Stage L2R3 run from contents `W`. -/
def tL2R3 (W : Valuation τ sig (Elt F)) : Valuation τ sig (Elt F) := after stL2R3 W
/-- Stage RELU2 run from contents `W`. -/
def tRELU2 (W : Valuation τ sig (Elt F)) : Valuation τ sig (Elt F) := after stRELU2 W
/-- Stage BN run from contents `W`. -/
def tBN (W : Valuation τ sig (Elt F)) : Valuation τ sig (Elt F) := after stBN W
/-- Stage HEAD run from contents `W`. -/
def tHEAD (W : Valuation τ sig (Elt F)) : Valuation τ sig (Elt F) := after stHEAD W

/-- All the operations run from `M` are the stages run in order. -/
theorem after_ops (M : Valuation τ sig (Elt F)) :
    after ops M = tHEAD (tBN (tRELU2 (tL2R3 (tL2R2 (tL2R1 (tL2R0 (tRELU1 (tL1R3 (tL1R2 (tL1R1 (tL1R0 (M)))))))))))) := by
  rw [ops_eq]
  simp only [after_app]
  rfl

/-! A stage leaves a buffer it does not write as it was. -/

theorem tL1R0_frame {r : Ref sig .tc} (hr : r ∉ wrL1R0) (W : Valuation τ sig (Elt F)) :
    tL1R0 W (no_index (Proc.devRef .tc r)) = W (Proc.devRef .tc r) := stL1R0_frame hr W
theorem tL1R1_frame {r : Ref sig .tc} (hr : r ∉ wrL1R1) (W : Valuation τ sig (Elt F)) :
    tL1R1 W (no_index (Proc.devRef .tc r)) = W (Proc.devRef .tc r) := stL1R1_frame hr W
theorem tL1R2_frame {r : Ref sig .tc} (hr : r ∉ wrL1R2) (W : Valuation τ sig (Elt F)) :
    tL1R2 W (no_index (Proc.devRef .tc r)) = W (Proc.devRef .tc r) := stL1R2_frame hr W
theorem tL1R3_frame {r : Ref sig .tc} (hr : r ∉ wrL1R3) (W : Valuation τ sig (Elt F)) :
    tL1R3 W (no_index (Proc.devRef .tc r)) = W (Proc.devRef .tc r) := stL1R3_frame hr W
theorem tRELU1_frame {r : Ref sig .tc} (hr : r ∉ wrRELU1) (W : Valuation τ sig (Elt F)) :
    tRELU1 W (no_index (Proc.devRef .tc r)) = W (Proc.devRef .tc r) := stRELU1_frame hr W
theorem tL2R0_frame {r : Ref sig .tc} (hr : r ∉ wrL2R0) (W : Valuation τ sig (Elt F)) :
    tL2R0 W (no_index (Proc.devRef .tc r)) = W (Proc.devRef .tc r) := stL2R0_frame hr W
theorem tL2R1_frame {r : Ref sig .tc} (hr : r ∉ wrL2R1) (W : Valuation τ sig (Elt F)) :
    tL2R1 W (no_index (Proc.devRef .tc r)) = W (Proc.devRef .tc r) := stL2R1_frame hr W
theorem tL2R2_frame {r : Ref sig .tc} (hr : r ∉ wrL2R2) (W : Valuation τ sig (Elt F)) :
    tL2R2 W (no_index (Proc.devRef .tc r)) = W (Proc.devRef .tc r) := stL2R2_frame hr W
theorem tL2R3_frame {r : Ref sig .tc} (hr : r ∉ wrL2R3) (W : Valuation τ sig (Elt F)) :
    tL2R3 W (no_index (Proc.devRef .tc r)) = W (Proc.devRef .tc r) := stL2R3_frame hr W
theorem tRELU2_frame {r : Ref sig .tc} (hr : r ∉ wrRELU2) (W : Valuation τ sig (Elt F)) :
    tRELU2 W (no_index (Proc.devRef .tc r)) = W (Proc.devRef .tc r) := stRELU2_frame hr W
theorem tBN_frame {r : Ref sig .tc} (hr : r ∉ wrBN) (W : Valuation τ sig (Elt F)) :
    tBN W (no_index (Proc.devRef .tc r)) = W (Proc.devRef .tc r) := stBN_frame hr W
theorem tHEAD_frame {r : Ref sig .tc} (hr : r ∉ wrHEAD) (W : Valuation τ sig (Elt F)) :
    tHEAD W (no_index (Proc.devRef .tc r)) = W (Proc.devRef .tc r) := stHEAD_frame hr W

/-! A stage's output buffer holds the stage's function of the buffers it reads. -/

theorem tL1R0_read (W : Valuation τ sig (Elt F)) :
    tL1R0 W (no_index (main_v52 : DevRef τ sig)) = gcn (W (main_arg1 : DevRef τ sig)) 0 (W (main_arg0 : DevRef τ sig)) (W (main_arg2 : DevRef τ sig)) (W (main_arg3 : DevRef τ sig)) := L1R0_read W
theorem tL1R1_read (W : Valuation τ sig (Elt F)) :
    tL1R1 W (no_index (main_v106 : DevRef τ sig)) = addf (W (main_v52 : DevRef τ sig)) (gcn (W (main_arg1 : DevRef τ sig)) 1 (W (main_arg0 : DevRef τ sig)) (W (main_arg2 : DevRef τ sig)) (W (main_arg3 : DevRef τ sig))) := L1R1_read W
theorem tL1R2_read (W : Valuation τ sig (Elt F)) :
    tL1R2 W (no_index (main_v160 : DevRef τ sig)) = addf (W (main_v106 : DevRef τ sig)) (gcn (W (main_arg1 : DevRef τ sig)) 2 (W (main_arg0 : DevRef τ sig)) (W (main_arg2 : DevRef τ sig)) (W (main_arg3 : DevRef τ sig))) := L1R2_read W
theorem tL1R3_read (W : Valuation τ sig (Elt F)) :
    tL1R3 W (no_index (main_v214 : DevRef τ sig)) = addf (W (main_v160 : DevRef τ sig)) (gcn (W (main_arg1 : DevRef τ sig)) 3 (W (main_arg0 : DevRef τ sig)) (W (main_arg2 : DevRef τ sig)) (W (main_arg3 : DevRef τ sig))) := L1R3_read W
theorem tRELU1_read (W : Valuation τ sig (Elt F)) :
    tRELU1 W (no_index (main_v215 : DevRef τ sig)) = relu (W (main_v214 : DevRef τ sig)) := RELU1_read W
theorem tL2R0_read (W : Valuation τ sig (Elt F)) :
    tL2R0 W (no_index (main_v268 : DevRef τ sig)) = gcn (W (main_arg1 : DevRef τ sig)) 0 (W (main_v215 : DevRef τ sig)) (W (main_arg4 : DevRef τ sig)) (W (main_arg5 : DevRef τ sig)) := L2R0_read W
theorem tL2R1_read (W : Valuation τ sig (Elt F)) :
    tL2R1 W (no_index (main_v322 : DevRef τ sig)) = addf (W (main_v268 : DevRef τ sig)) (gcn (W (main_arg1 : DevRef τ sig)) 1 (W (main_v215 : DevRef τ sig)) (W (main_arg4 : DevRef τ sig)) (W (main_arg5 : DevRef τ sig))) := L2R1_read W
theorem tL2R2_read (W : Valuation τ sig (Elt F)) :
    tL2R2 W (no_index (main_v376 : DevRef τ sig)) = addf (W (main_v322 : DevRef τ sig)) (gcn (W (main_arg1 : DevRef τ sig)) 2 (W (main_v215 : DevRef τ sig)) (W (main_arg4 : DevRef τ sig)) (W (main_arg5 : DevRef τ sig))) := L2R2_read W
theorem tL2R3_read (W : Valuation τ sig (Elt F)) :
    tL2R3 W (no_index (main_v430 : DevRef τ sig)) = addf (W (main_v376 : DevRef τ sig)) (gcn (W (main_arg1 : DevRef τ sig)) 3 (W (main_v215 : DevRef τ sig)) (W (main_arg4 : DevRef τ sig)) (W (main_arg5 : DevRef τ sig))) := L2R3_read W
theorem tRELU2_read (W : Valuation τ sig (Elt F)) :
    tRELU2 W (no_index (main_v431 : DevRef τ sig)) = relu (W (main_v430 : DevRef τ sig)) := RELU2_read W
theorem tBN_read (W : Valuation τ sig (Elt F)) :
    tBN W (no_index (main_v450 : DevRef τ sig)) = bn (W (main_v431 : DevRef τ sig)) (W (main_arg6 : DevRef τ sig)) (W (main_arg7 : DevRef τ sig)) := BN_read W
theorem tHEAD_read (W : Valuation τ sig (Elt F)) :
    tHEAD W (no_index (main_v459 : DevRef τ sig))
      = head (W (main_v450 : DevRef τ sig)) (W (main_arg8 : DevRef τ sig)) (W (main_arg9 : DevRef τ sig)) (W (main_arg10 : DevRef τ sig)) (W (main_arg11 : DevRef τ sig)) := HEAD_read W

set_option maxHeartbeats 4000000 in
/-- After all the operations, from contents `M`, the result buffer holds `refOut` of the twelve arguments' contents. -/
theorem res_eq (M : Valuation τ sig (Elt F)) :
    after ops M (main_v459 : DevRef τ sig)
      = refOut (M (main_arg0 : DevRef τ sig)) (M (main_arg1 : DevRef τ sig)) (M (main_arg2 : DevRef τ sig)) (M (main_arg3 : DevRef τ sig)) (M (main_arg4 : DevRef τ sig)) (M (main_arg5 : DevRef τ sig)) (M (main_arg6 : DevRef τ sig)) (M (main_arg7 : DevRef τ sig)) (M (main_arg8 : DevRef τ sig)) (M (main_arg9 : DevRef τ sig)) (M (main_arg10 : DevRef τ sig)) (M (main_arg11 : DevRef τ sig)) := by
  rw [after_ops]
  simp (disch := decide) only [tL1R0_read, tL1R1_read, tL1R2_read, tL1R3_read, tRELU1_read, tL2R0_read, tL2R1_read, tL2R2_read, tL2R3_read, tRELU2_read, tBN_read, tHEAD_read,
    tL1R0_frame, tL1R1_frame, tL1R2_frame, tL1R3_frame, tRELU1_frame, tL2R0_frame, tL2R1_frame, tL2R2_frame, tL2R3_frame, tRELU2_frame, tBN_frame, tHEAD_frame]
  rfl

end Cert.ReferenceIdeal.RefRead

end
-- ==== Proof.LibFiniteOps.lean ====
/-
  Realness of every intermediate value at the extended-real reading of floats.

  At the instance `Ideal` a float is an extended real (`EReal`), and every float operation is the
  exact operation of the extended reals. This module proves, operation by operation, that the
  result of an operation has only REAL entries (none is `+∞` or `-∞`) whenever its float operands
  have only real entries. Integer and mask operands are arbitrary throughout.

  `IsReal x` says that the extended real `x` is (the image of) a real number; `AllReal v` says
  that every entry of the vector `v` is. The lemmas cover:

  * arithmetic on extended reals: sum, difference, product, maximum, finite sums, quotient by a
    non-zero real, reciprocal square root of a positive real;
  * constants whose bit pattern denotes a real (any binary32 word whose exponent field is not
    all ones; in particular the words of 0, 1, 50000 and 1e-5);
  * the pointwise vector operations `addf`, `subf`, `mulf`, `maximumf`, `select`, `truncf`, `extf`;
  * the re-indexing operations, whose every result entry is an operand entry: `broadcast`,
    `broadcastTo`, `broadcastInDim`, `shapeCast`, `extractStridedSlice`, `transpose`,
    `concatenate`, `Host.gather`;
  * the accumulating operations, whose every result entry is a finite sum of (products of) operand
    entries: `Host.scatterAdd`, `Host.reduceAdd`, `Host.dotGeneral`, `matmul`; and `Host.scatter`
    with a body that keeps realness (in particular the body that returns the update);
  * `Host.divf` by a vector with no zero entry, `Host.rsqrt` / `rsqrt` of positive entries, and the
    guarded reciprocal square root `select (x > 0) (rsqrt x) z`.

  Every statement is generic in the shapes and in the dimension records.
-/
import Idealize.ShloMosaic.PureOps.Ideal
import Idealize.ShloMosaic.PureOps.Ideal.Laws

namespace Cert.FiniteOps

open Idealize.ShloMosaic
open scoped BigOperators

/-! ### Real extended reals -/

/-- The extended real `x` is a real number. -/
def IsReal (x : EReal) : Prop := ∃ r : ℝ, x = (r : EReal)

/-- Every entry of `v` is a real number. -/
def AllReal {ι : Type} (v : ι → EReal) : Prop := ∀ i, IsReal (v i)

theorem isReal_coe (r : ℝ) : IsReal (r : EReal) := ⟨r, rfl⟩

theorem isReal_zero : IsReal 0 := ⟨0, rfl⟩

theorem isReal_one : IsReal 1 := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem isReal_of_ne {x : EReal} (ht : x ≠ ⊤) (hb : x ≠ ⊥) : IsReal x :=
  ⟨x.toReal, (EReal.coe_toReal ht hb).symm⟩

theorem isReal_iff {x : EReal} : IsReal x ↔ x ≠ ⊤ ∧ x ≠ ⊥ :=
  ⟨fun h => ⟨h.ne_top, h.ne_bot⟩, fun h => isReal_of_ne h.1 h.2⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.max {x y : EReal} (hx : IsReal x) (hy : IsReal y) : IsReal (max x y) := by
  rcases max_choice x y with h | h <;> rw [h] <;> assumption

theorem IsReal.min {x y : EReal} (hx : IsReal x) (hy : IsReal y) : IsReal (min x y) := by
  rcases min_choice x y with h | h <;> rw [h] <;> assumption

/-- A finite sum of real numbers is a real number. -/
theorem IsReal.sum {κ : Type} (s : Finset κ) (f : κ → EReal) (h : ∀ k ∈ s, IsReal (f k)) :
    IsReal (∑ k ∈ s, f k) := by
  classical
  induction s using Finset.induction_on with
  | empty => rw [Finset.sum_empty]; exact isReal_zero
  | insert a s ha ih =>
    rw [Finset.sum_insert ha]
    exact IsReal.add (h a (Finset.mem_insert_self a s))
      (ih fun k hk => h k (Finset.mem_insert_of_mem hk))

/-- The quotient of a real number by a non-zero real number is a real number. -/
theorem IsReal.div {x y : EReal} (hx : IsReal x) (hy : IsReal y) (h0 : y ≠ 0) : IsReal (Ideal.div x y) := by
  obtain ⟨a, rfl⟩ := hx; obtain ⟨b, rfl⟩ := hy
  refine ⟨a * b⁻¹, ?_⟩
  rw [Ideal.div, if_neg h0, EReal.coe_mul, EReal.coe_inv]

/-- The reciprocal square root of a positive real number is a real number. -/
theorem IsReal.rsqrt {x : EReal} (hx : IsReal x) (hpos : 0 < x) : IsReal (Ideal.rsqrt x) := by
  obtain ⟨a, rfl⟩ := hx
  have ha : 0 < a := EReal.coe_pos.1 hpos
  rw [Ideal.rsqrt_coe, if_neg (not_lt.2 ha.le), if_neg ha.ne']
  exact ⟨_, rfl⟩

/-! ### Constants -/

/-- A pattern whose exponent field is not all ones denotes a real number. -/
theorem isReal_ieee (e m : Nat) {w : Nat} (b : BitVec w) (h : (b.extractLsb' m e).toNat ≠ 2 ^ e - 1) :
    IsReal (Ideal.ieee e m b) := by
  unfold Ideal.ieee
  simp only [if_neg h]
  split_ifs <;> exact ⟨_, rfl⟩

/-- A binary32 word whose exponent field is not all ones denotes a real number. -/
theorem isReal_ofBits_f32 (b : BitVec 32) (h : (b.extractLsb' 23 8).toNat ≠ 255 := by decide) :
    IsReal (Ideal.ofBits .f32 b) :=
  isReal_ieee 8 23 b h

/-- A bfloat16 word whose exponent field is not all ones denotes a real number. -/
theorem isReal_ofBits_bf16 (b : BitVec 16) (h : (b.extractLsb' 7 8).toNat ≠ 255 := by decide) :
    IsReal (Ideal.ofBits .bf16 b) :=
  isReal_ieee 8 7 b h

/-- The scalar constant of a pattern that denotes a real number. -/
theorem scalar_ofBits {φ : FTy} (b : BitVec φ.bits) (h : IsReal (Ideal.ofBits φ b)) :
    IsReal (Scalar.ofBits (F := Ideal) φ b) := h

theorem scalar_ofBits_f32 (b : BitVec 32) (h : (b.extractLsb' 23 8).toNat ≠ 255 := by decide) :
    IsReal (Scalar.ofBits (F := Ideal) .f32 b) := isReal_ofBits_f32 b h

/-- The splat of a pattern that denotes a real number. -/
theorem constant (S : Shape) (φ : FTy) (b : BitVec φ.bits) (h : IsReal (Ideal.ofBits φ b)) :
    AllReal (Idealize.ShloMosaic.constant (F := Ideal) S φ b) := fun _ => h

theorem constant_f32 (S : Shape) (b : BitVec 32) (h : (b.extractLsb' 23 8).toNat ≠ 255 := by decide) :
    AllReal (Idealize.ShloMosaic.constant (F := Ideal) S .f32 b) := fun _ => isReal_ofBits_f32 b h

/-- The words of `0.0`, `1.0`, `50000.0` and `1e-5` at binary32. -/
theorem isReal_f32_zero : IsReal (Ideal.ofBits .f32 0x00000000#32) := isReal_ofBits_f32 _
theorem isReal_f32_one : IsReal (Ideal.ofBits .f32 0x3F800000#32) := isReal_ofBits_f32 _
theorem isReal_f32_50000 : IsReal (Ideal.ofBits .f32 0x47435000#32) := isReal_ofBits_f32 _
theorem isReal_f32_1em5 : IsReal (Ideal.ofBits .f32 0x3727C5AC#32) := isReal_ofBits_f32 _

theorem constant_zero (S : Shape) : AllReal (Idealize.ShloMosaic.constant (F := Ideal) S .f32 0x00000000#32) :=
  constant_f32 S _
theorem constant_one (S : Shape) : AllReal (Idealize.ShloMosaic.constant (F := Ideal) S .f32 0x3F800000#32) :=
  constant_f32 S _
theorem constant_50000 (S : Shape) : AllReal (Idealize.ShloMosaic.constant (F := Ideal) S .f32 0x47435000#32) :=
  constant_f32 S _
theorem constant_1em5 (S : Shape) : AllReal (Idealize.ShloMosaic.constant (F := Ideal) S .f32 0x3727C5AC#32) :=
  constant_f32 S _

/-- The word of `0.0` denotes zero. -/
theorem ofBits_f32_zero : Ideal.ofBits .f32 0x00000000#32 = 0 := by simp [Ideal.ofBits, Ideal.ieee]

/-! ### Pointwise operations -/

section Pointwise
variable {S : Shape} {φ : FTy}

theorem addf {x y : FVec Ideal S φ} (hx : AllReal x) (hy : AllReal y) :
    AllReal (Idealize.ShloMosaic.addf x y) := fun i => IsReal.add (hx i) (hy i)

theorem subf {x y : FVec Ideal S φ} (hx : AllReal x) (hy : AllReal y) :
    AllReal (Idealize.ShloMosaic.subf x y) := fun i => IsReal.sub (hx i) (hy i)

theorem mulf {x y : FVec Ideal S φ} (hx : AllReal x) (hy : AllReal y) :
    AllReal (Idealize.ShloMosaic.mulf x y) := fun i => IsReal.mul (hx i) (hy i)

theorem maximumf {x y : FVec Ideal S φ} (hx : AllReal x) (hy : AllReal y) :
    AllReal (Idealize.ShloMosaic.maximumf x y) := fun i => IsReal.max (hx i) (hy i)

theorem minimumf {x y : FVec Ideal S φ} (hx : AllReal x) (hy : AllReal y) :
    AllReal (Idealize.ShloMosaic.minimumf x y) := fun i => IsReal.min (hx i) (hy i)

theorem negf {x : FVec Ideal S φ} (hx : AllReal x) :
    AllReal (Idealize.ShloMosaic.negf x) := fun i => IsReal.neg (hx i)

/-- A change of format is the identity. -/
theorem truncf (ψ : FTy) {x : FVec Ideal S φ} (h : ψ.bits < φ.bits) (hx : AllReal x) :
    AllReal (Idealize.ShloMosaic.truncf ψ x h) := fun i => hx i

theorem extf (ψ : FTy) {x : FVec Ideal S φ} (h : φ.bits < ψ.bits) (hx : AllReal x) :
    AllReal (Idealize.ShloMosaic.extf ψ x h) := fun i => hx i

/-- A choice between two real entries is real, whatever the mask. -/
theorem select (c : IVec S 1) {a b : S.Idx → EReal} (ha : AllReal a) (hb : AllReal b) :
    AllReal (Idealize.ShloMosaic.select c a b) := by
  intro i
  show IsReal (Scalar.select (c i) (a i) (b i))
  unfold Scalar.select
  split_ifs
  · exact ha i
  · exact hb i

theorem scalar_select (c : BitVec 1) {a b : EReal} (ha : IsReal a) (hb : IsReal b) :
    IsReal (Scalar.select c a b) := by
  unfold Scalar.select
  split_ifs
  · exact ha
  · exact hb

end Pointwise

/-! ### Re-indexing operations: every result entry is an operand entry -/

section Layout
variable {s t : Shape}

theorem broadcast (t : Shape) {x : EReal} (hx : IsReal x) :
    AllReal (Idealize.ShloMosaic.broadcast t x) := fun _ => hx

theorem broadcastTo (t : Shape) {x : s.Idx → EReal} (h : s.Broadcasts t) (hx : AllReal x) :
    AllReal (Idealize.ShloMosaic.broadcastTo t x h) := fun _ => hx _

theorem broadcastInDim (t : Shape) (dims : Fin s.rank → Fin t.rank) (h : s.BroadcastsInDim t dims)
    {x : s.Idx → EReal} (hx : AllReal x) :
    AllReal (Idealize.ShloMosaic.broadcastInDim t dims h x) := fun _ => hx _

theorem shapeCast (t : Shape) {x : s.Idx → EReal} (h : s.ShapeCasts t) (hx : AllReal x) :
    AllReal (Idealize.ShloMosaic.shapeCast t x h) := fun _ => hx _

theorem extractStridedSlice (t : Shape) (off : Fin s.rank → Nat) {x : s.Idx → EReal} (h : s.Slices off t)
    (hx : AllReal x) :
    AllReal (Idealize.ShloMosaic.extractStridedSlice t off x h) := fun _ => hx _

theorem transpose (t : Shape) (perm : List (Fin s.rank)) {x : s.Idx → EReal} (h : s.Transposes perm t)
    (hx : AllReal x) :
    AllReal (Idealize.ShloMosaic.transpose t perm x h) := fun _ => hx _

/-- A gather reads an operand entry at every result index, whatever the start indices. -/
theorem gather {si : Shape} {w : Nat} (d : GatherDims s si t) {x : s.Idx → EReal} (idx : IVec si w)
    (hx : AllReal x) :
    AllReal (Host.gather d x idx) := fun _ => hx _

/-- A concatenation reads an entry of one of its operands at every result index. -/
theorem concatenate (t : Shape) (a : Fin t.rank) (xs : List ((s : Shape) × (s.Idx → EReal)))
    (h : Shape.Concatenates (xs.map (·.1)) t a) (hxs : ∀ p ∈ xs, AllReal p.2) :
    AllReal (Idealize.ShloMosaic.concatenate t a xs h) := by
  intro j
  unfold Idealize.ShloMosaic.concatenate
  exact hxs _ (List.getElem_mem _) _

theorem concatenate2 (t : Shape) (a : Fin t.rank) {s₁ s₂ : Shape} {x₁ : s₁.Idx → EReal} {x₂ : s₂.Idx → EReal}
    (h : Shape.Concatenates (([⟨s₁, x₁⟩, ⟨s₂, x₂⟩] : List ((s : Shape) × (s.Idx → EReal))).map (·.1)) t a)
    (h₁ : AllReal x₁) (h₂ : AllReal x₂) :
    AllReal (Idealize.ShloMosaic.concatenate t a [⟨s₁, x₁⟩, ⟨s₂, x₂⟩] h) := by
  refine concatenate t a _ h ?_
  intro p hp
  simp only [List.mem_cons, List.not_mem_nil, or_false] at hp
  rcases hp with rfl | rfl
  · exact h₁
  · exact h₂

theorem concatenate4 (t : Shape) (a : Fin t.rank) {s₁ s₂ s₃ s₄ : Shape} {x₁ : s₁.Idx → EReal}
    {x₂ : s₂.Idx → EReal} {x₃ : s₃.Idx → EReal} {x₄ : s₄.Idx → EReal}
    (h : Shape.Concatenates
      (([⟨s₁, x₁⟩, ⟨s₂, x₂⟩, ⟨s₃, x₃⟩, ⟨s₄, x₄⟩] : List ((s : Shape) × (s.Idx → EReal))).map (·.1)) t a)
    (h₁ : AllReal x₁) (h₂ : AllReal x₂) (h₃ : AllReal x₃) (h₄ : AllReal x₄) :
    AllReal (Idealize.ShloMosaic.concatenate t a [⟨s₁, x₁⟩, ⟨s₂, x₂⟩, ⟨s₃, x₃⟩, ⟨s₄, x₄⟩] h) := by
  refine concatenate t a _ h ?_
  intro p hp
  simp only [List.mem_cons, List.not_mem_nil, or_false] at hp
  rcases hp with rfl | rfl | rfl | rfl
  · exact h₁
  · exact h₂
  · exact h₃
  · exact h₄

end Layout

/-! ### Accumulating operations: every result entry is a finite sum of (products of) operand entries -/

section Accumulate
variable {s : Shape} {φ : FTy}

/-- A float scatter-add: each result entry is the operand entry plus a finite sum of update entries. -/
theorem scatterAdd {si u : Shape} {w : Nat} (d : ScatterDims s si u) {x : FVec Ideal s φ} (idx : IVec si w)
    {upd : FVec Ideal u φ} (hx : AllReal x) (hu : AllReal upd) :
    AllReal (Host.scatterAdd d x idx upd) := by
  intro i
  show IsReal (Ideal.hostScatterAdd d x idx upd i)
  unfold Ideal.hostScatterAdd
  exact IsReal.add (hx i) (IsReal.sum _ _ fun j _ => hu j)

/-- The same for the instance's field at any schedule key. -/
theorem hostScatterAdd {s si su : Shape} {w : Nat} (d : ScatterDims s si su) {x : s.Idx → EReal} (idx : IVec si w)
    {upd : su.Idx → EReal} (hx : AllReal x) (hu : AllReal upd) :
    AllReal (Ideal.hostScatterAdd d x idx upd) := by
  intro i
  unfold Ideal.hostScatterAdd
  exact IsReal.add (hx i) (IsReal.sum _ _ fun j _ => hu j)

/-- A scatter whose body keeps realness: each result entry is built from operand and update entries by
    the body. -/
theorem scatter {si u : Shape} {w : Nat} (d : ScatterDims s si u) (f : EReal → EReal → EReal)
    (hf : ∀ a b, IsReal a → IsReal b → IsReal (f a b)) {x : s.Idx → EReal} (idx : IVec si w)
    {upd : u.Idx → EReal} (hx : AllReal x) (hu : AllReal upd) :
    AllReal (Host.scatter d f x idx upd) := by
  unfold Host.scatter
  generalize List.finRange u.numel = l
  induction l generalizing x with
  | nil => exact hx
  | cons n l ih =>
    rw [List.foldl_cons]
    apply ih
    split
    · intro i'
      show IsReal (if i' = _ then f (x _) (upd _) else x i')
      split_ifs
      · exact hf _ _ (hx _) (hu _)
      · exact hx i'
    · exact hx

/-- A scatter whose body returns the update: each result entry is an operand entry or an update entry. -/
theorem scatterSet {si u : Shape} {w : Nat} (d : ScatterDims s si u) {x : s.Idx → EReal} (idx : IVec si w)
    {upd : u.Idx → EReal} (hx : AllReal x) (hu : AllReal upd) :
    AllReal (Host.scatter d (fun _ b => b) x idx upd) :=
  scatter d _ (fun _ _ _ hb => hb) idx hx hu

/-- A float sum over some axes: each result entry is the initial value plus a finite sum of operand
    entries. -/
theorem reduceAdd {axes : List (Fin s.rank)} {t u : Shape} {x : FVec Ideal s φ} {init : u.Idx → Ideal φ}
    (h : s.ReducesTo axes t) (hu : 0 < u.numel) (hx : AllReal x) (hinit : AllReal init) :
    AllReal (Host.reduceAdd x init h hu) := by
  intro j
  show IsReal (Ideal.hostReduceAdd h x (init (Shape.Idx.first hu)) j)
  unfold Ideal.hostReduceAdd
  exact IsReal.add (hinit _) (IsReal.sum _ _ fun i _ => hx i)

/-- A contraction: each result entry is a finite sum of products of operand entries. -/
theorem dotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := by
  intro j
  show IsReal (Ideal.matmul d l r (fun _ => 0) j)
  unfold Ideal.matmul
  exact IsReal.add isReal_zero (IsReal.sum _ _ fun k _ => IsReal.mul (hl _) (hr _))

/-- A contraction added to an accumulator: each result entry is the accumulator entry plus a finite sum
    of products of operand entries. -/
theorem matmul {sl sr so : Shape} {φ₁ φ₂ : FTy} (d : DotDims sl sr so) (prec : Option ContractPrecision)
    {l : FVec Ideal sl φ₁} {r : FVec Ideal sr φ₂} {acc : FVec Ideal so .f32}
    (hl : AllReal l) (hr : AllReal r) (hacc : AllReal acc) :
    AllReal (Idealize.ShloMosaic.matmul d prec l r acc) := by
  intro j
  show IsReal (Ideal.matmul d l r acc j)
  unfold Ideal.matmul
  exact IsReal.add (hacc j) (IsReal.sum _ _ fun k _ => IsReal.mul (hl _) (hr _))

end Accumulate

/-! ### Quotients and reciprocal square roots -/

section Quotient
variable {s : Shape} {φ : FTy}

/-- A quotient by a vector of non-zero real entries. -/
theorem hostDivf {x y : FVec Ideal s φ} (hx : AllReal x) (hy : AllReal y) (h0 : ∀ i, y i ≠ 0) :
    AllReal (Host.divf x y) := fun i => IsReal.div (hx i) (hy i) (h0 i)

theorem divf {x y : FVec Ideal s φ} (hx : AllReal x) (hy : AllReal y) (h0 : ∀ i, y i ≠ 0) :
    AllReal (Idealize.ShloMosaic.divf x y) := fun i => IsReal.div (hx i) (hy i) (h0 i)

/-- The reciprocal square root of positive real entries. -/
theorem hostRsqrt {x : FVec Ideal s φ} (hx : AllReal x) (hpos : ∀ i, 0 < x i) :
    AllReal (Host.rsqrt x) := fun i => IsReal.rsqrt (hx i) (hpos i)

theorem rsqrt {x : FVec Ideal s φ} (hx : AllReal x) (hpos : ∀ i, 0 < x i) :
    AllReal (Idealize.ShloMosaic.rsqrt x) := fun i => IsReal.rsqrt (hx i) (hpos i)

/-- The guarded reciprocal square root of one real entry: `1/√x` where `x > 0`, else the real `z`. -/
theorem isReal_guardedRsqrt {x z : EReal} (hx : IsReal x) (hz : IsReal z) :
    IsReal (Scalar.select (Ideal.cmp .ogt x 0) (Ideal.rsqrt x) z) := by
  unfold Scalar.select
  split_ifs with hc
  · refine IsReal.rsqrt hx ?_
    by_contra hneg
    have h0 : Ideal.cmp .ogt x 0 = 0 := by simp [Ideal.cmp, hneg]
    rw [h0] at hc
    exact absurd hc (by decide)
  · exact hz

/-- The guarded reciprocal square root `select (x > 0) (rsqrt x) z` has real entries whenever `x` and `z`
    have: where `x` is positive it is `1/√x`, elsewhere `z`. The compared vector `o` is zero. -/
theorem guardedHostRsqrt {x o z : FVec Ideal s φ} (hx : AllReal x) (ho : ∀ i, o i = 0) (hz : AllReal z) :
    AllReal (Idealize.ShloMosaic.select (cmpf .ogt x o) (Host.rsqrt x) z) := by
  intro i
  show IsReal (Scalar.select (Ideal.cmp .ogt (x i) (o i)) (Ideal.rsqrt (x i)) (z i))
  rw [ho i]
  exact isReal_guardedRsqrt (hx i) (hz i)

theorem guardedRsqrt {x o z : FVec Ideal s φ} (hx : AllReal x) (ho : ∀ i, o i = 0) (hz : AllReal z) :
    AllReal (Idealize.ShloMosaic.select (cmpf .ogt x o) (Idealize.ShloMosaic.rsqrt x) z) := by
  intro i
  show IsReal (Scalar.select (Ideal.cmp .ogt (x i) (o i)) (Ideal.rsqrt (x i)) (z i))
  rw [ho i]
  exact isReal_guardedRsqrt (hx i) (hz i)

end Quotient

/-! ### Integer conversions, selections with a known mask, values and signs

What the variance and the normalisation need beyond realness: an integer converted to a float is real;
a selection whose mask is known picks the known branch; the values of the words of `50000` and `1`;
sums and quotients of non-negative reals are non-negative; the word of `1e-5` is positive. -/

section Extras
variable {s : Shape} {φ : FTy}

/-- A signed integer converted to a float is (exactly) a real number. -/
theorem sitofp {w : Nat} (φ : FTy) (x : IVec s w) :
    AllReal (Idealize.ShloMosaic.sitofp (F := Ideal) φ x) := fun i => ⟨((x i).toInt : ℝ), rfl⟩

theorem sitofp_apply {w : Nat} (φ : FTy) (x : IVec s w) (i : s.Idx) :
    Idealize.ShloMosaic.sitofp (F := Ideal) φ x i = (((x i).toInt : ℝ) : EReal) := rfl

/-- A selection whose mask is one everywhere is its first branch. -/
theorem select_eq_left (c : IVec s 1) (a b : s.Idx → EReal) (hc : ∀ i, c i = 1#1) :
    Idealize.ShloMosaic.select c a b = a := by
  funext i
  show Scalar.select (c i) (a i) (b i) = a i
  rw [hc i]; rfl

/-- A selection whose mask is zero everywhere is its second branch. -/
theorem select_eq_right (c : IVec s 1) (a b : s.Idx → EReal) (hc : ∀ i, c i = 0#1) :
    Idealize.ShloMosaic.select c a b = b := by
  funext i
  show Scalar.select (c i) (a i) (b i) = b i
  rw [hc i]; rfl

theorem select_of_one (c : IVec s 1) {a : s.Idx → EReal} (b : s.Idx → EReal) (hc : ∀ i, c i = 1#1)
    (ha : AllReal a) : AllReal (Idealize.ShloMosaic.select c a b) := by
  rw [select_eq_left c a b hc]; exact ha

/-- The ordered "greater than" comparison of extended reals, read back. -/
theorem cmp_ogt_eq_one {x y : EReal} : Ideal.cmp .ogt x y = 1#1 ↔ y < x := by
  by_cases h : y < x <;> simp [Ideal.cmp, h]

theorem cmp_olt_eq_one {x y : EReal} : Ideal.cmp .olt x y = 1#1 ↔ x < y := by
  by_cases h : x < y <;> simp [Ideal.cmp, h]

theorem cmpf_ogt_apply (x y : FVec Ideal s φ) (i : s.Idx) :
    Idealize.ShloMosaic.cmpf .ogt x y i = 1#1 ↔ y i < x i := cmp_ogt_eq_one

/-- The words of `1.0` and `50000.0` denote those numbers. -/
theorem ofBits_f32_one : Ideal.ofBits .f32 0x3F800000#32 = 1 := by
  simp [Ideal.ofBits, Ideal.ieee, -EReal.coe_mul]; norm_num

theorem ofBits_f32_50000 : Ideal.ofBits .f32 0x47435000#32 = ((50000 : ℝ) : EReal) := by
  simp [Ideal.ofBits, Ideal.ieee, -EReal.coe_mul]; norm_num

/-- A binary32 word with a clear sign bit, whose exponent field is neither zero nor all ones, denotes
    a positive real number. -/
theorem ofBits_f32_pos (b : BitVec 32) (hs : (b.extractLsb' 31 1 == 1#1) = false := by decide)
    (he : (b.extractLsb' 23 8).toNat ≠ 255 := by decide) (h0 : (b.extractLsb' 23 8).toNat ≠ 0 := by decide) :
    0 < Ideal.ofBits .f32 b := by
  show 0 < Ideal.ieee 8 23 b
  have he' : (b.extractLsb' 23 8).toNat ≠ 2 ^ 8 - 1 := he
  unfold Ideal.ieee
  simp only [hs, if_neg he', if_neg h0, Bool.false_eq_true, if_false]
  rw [EReal.coe_pos]
  positivity

/-- The word of `1e-5` denotes a positive real number. -/
theorem ofBits_f32_1em5_pos : 0 < Ideal.ofBits .f32 0x3727C5AC#32 := ofBits_f32_pos _

theorem ofBits_f32_50000_pos : 0 < Ideal.ofBits .f32 0x47435000#32 := ofBits_f32_pos _

/-- The square of a real number is non-negative. -/
theorem IsReal.mul_self_nonneg {x : EReal} (hx : IsReal x) : 0 ≤ x * x := by
  obtain ⟨a, rfl⟩ := hx
  rw [← EReal.coe_mul, ← EReal.coe_zero, EReal.coe_le_coe_iff]
  exact _root_.mul_self_nonneg a

/-- The quotient of a non-negative extended real by a positive real is non-negative. -/
theorem div_nonneg {x y : EReal} (hx : 0 ≤ x) (hy : IsReal y) (hpos : 0 < y) : 0 ≤ Ideal.div x y := by
  obtain ⟨b, rfl⟩ := hy
  have hb : 0 < b := EReal.coe_pos.1 hpos
  rw [Ideal.div, if_neg hpos.ne', ← EReal.coe_inv]
  exact mul_nonneg hx (EReal.coe_nonneg.2 (inv_nonneg.2 hb.le))

/-- The sum of a non-negative and a positive extended real is positive. -/
theorem add_pos_of_nonneg_of_pos' {x y : EReal} (hx : 0 ≤ x) (hy : 0 < y) : 0 < x + y :=
  lt_of_lt_of_le hy (le_add_of_nonneg_left hx)

/-- A float sum of non-negative entries from a non-negative initial value is non-negative. -/
theorem reduceAdd_nonneg {axes : List (Fin s.rank)} {t u : Shape} {x : FVec Ideal s φ} {init : u.Idx → Ideal φ}
    (h : s.ReducesTo axes t) (hu : 0 < u.numel) (hx : ∀ i, 0 ≤ x i) (hinit : ∀ i, 0 ≤ init i) (j : t.Idx) :
    0 ≤ Host.reduceAdd x init h hu j := by
  show 0 ≤ Ideal.hostReduceAdd h x (init (Shape.Idx.first hu)) j
  unfold Ideal.hostReduceAdd
  exact add_nonneg (hinit _) (Finset.sum_nonneg fun i _ => hx i)

end Extras

end Cert.FiniteOps
-- ==== Proof.PreReal.lean ====
/-
  The precondition read back: every float argument array has only real entries.

  The precondition is the conjunction, over the eleven float argument arrays, of "every entry `x` of
  the array satisfies `|x| < +∞`". At the extended-real reading of floats `|x|` is `max x (-x)` and
  the bound is the top element, so the comparison holds exactly when `x` is neither `+∞` nor `-∞`,
  that is, when `x` is a real number. The integer argument is not constrained.
-/
import proofs.«115534_j8151847928363_1_alg».proof.Pre_finite_inputs
import proofs.«115534_j8151847928363_1_alg».proof.Proof.Gen.Pre_finite_inputs
import proofs.«115534_j8151847928363_1_alg».proof.Proof.LibFiniteOps
import Idealize.ShloMosaic.Lib.ReduceAll

namespace Cert.PreReal

open Idealize.ShloMosaic
open Cert.FiniteOps (IsReal AllReal)
open Cert.Pre_finite_inputs

/-- The shape of rank zero has exactly one index. -/
instance subsingleton_scalar_idx : Subsingleton S_.Idx := ⟨fun _ _ => funext fun d => d.elim0⟩

/-- The binary32 word of `+∞` denotes the top element. -/
theorem ofBits_inf : Ideal.ofBits .f32 0x7F800000#32 = ⊤ := by simp [Ideal.ofBits, Ideal.ieee]

/-- An extended real whose absolute value is below `+∞` is a real number. -/
theorem isReal_of_abs_lt_top {x : EReal} (h : max x (-x) < ⊤) : IsReal x := by
  induction x using EReal.rec with
  | bot => simp at h
  | coe r => exact ⟨r, rfl⟩
  | top => simp at h

/-- The same, stated through the comparison's bit. -/
theorem isReal_of_cmp {x b : EReal} (hb : b = Ideal.ofBits .f32 0x7F800000#32)
    (h : Ideal.cmp .olt (max x (-x)) b = 1#1) : IsReal x := by
  rw [hb, ofBits_inf] at h
  refine isReal_of_abs_lt_top ?_
  by_contra hn
  have h0 : Ideal.cmp .olt (max x (-x)) ⊤ = 0#1 := by simp [Ideal.cmp, hn]
  rw [h0] at h
  exact absurd h (by decide)

/-- One conjunct of the precondition: if "every entry has absolute value below the bound" reduces to
    one, and the bound is `+∞` everywhere, every entry of the array is a real number. -/
theorem allReal_of_all {S t u : Shape} {axes : List (Fin S.rank)} [Subsingleton t.Idx]
    (a bound : FVec Ideal S .f32) (hbound : ∀ i, bound i = Ideal.ofBits .f32 0x7F800000#32)
    (init : u.Idx → BitVec 1) (hred : S.ReducesTo axes t) (hu : 0 < u.numel) (j : t.Idx)
    (e : Host.reduce IntOp.andi (cmpf (F := Ideal) .olt (Host.absf a) bound) init hred hu j = 1#1) :
    AllReal a := by
  intro i
  have hi := Host.reduce_andi_all _ init hred hu j e i
  exact isReal_of_cmp (hbound i) hi

variable [Facts]

/-- The precondition gives: every float argument array has only real entries. -/
theorem real_of_fn (a0 : FVec Ideal S50000x128 .f32) (a1 : IVec S4x2x500000 32) (a2 : FVec Ideal S4x128x128 .f32)
    (a3 : FVec Ideal S4x128 .f32) (a4 : FVec Ideal S4x128x128 .f32) (a5 : FVec Ideal S4x128 .f32)
    (a6 : FVec Ideal S128 .f32) (a7 : FVec Ideal S128 .f32) (a8 : FVec Ideal S128x128 .f32)
    (a9 : FVec Ideal S128 .f32) (a10 : FVec Ideal S128x2 .f32) (a11 : FVec Ideal S2 .f32)
    (h : fn (F := Ideal) a0 a1 a2 a3 a4 a5 a6 a7 a8 a9 a10 a11 = fun _ => 1#1) :
    AllReal a0 ∧ AllReal a2 ∧ AllReal a3 ∧ AllReal a4 ∧ AllReal a5 ∧ AllReal a6 ∧ AllReal a7 ∧ AllReal a8
      ∧ AllReal a9 ∧ AllReal a10 ∧ AllReal a11 := by
  have h0 := congrFun h (fun d => d.elim0)
  dsimp only [fn, fn_part1, fn_part2, fn_part3] at h0
  simp only [Idealize.ShloMosaic.andi, IntOp.andi_eq_one] at h0
  obtain ⟨⟨⟨⟨⟨⟨⟨⟨⟨⟨e0, e2⟩, e3⟩, e4⟩, e5⟩, e6⟩, e7⟩, e8⟩, e9⟩, e10⟩, e11⟩ := h0
  exact ⟨allReal_of_all a0 _ (fun _ => rfl) _ _ _ _ e0, allReal_of_all a2 _ (fun _ => rfl) _ _ _ _ e2,
    allReal_of_all a3 _ (fun _ => rfl) _ _ _ _ e3, allReal_of_all a4 _ (fun _ => rfl) _ _ _ _ e4,
    allReal_of_all a5 _ (fun _ => rfl) _ _ _ _ e5, allReal_of_all a6 _ (fun _ => rfl) _ _ _ _ e6,
    allReal_of_all a7 _ (fun _ => rfl) _ _ _ _ e7, allReal_of_all a8 _ (fun _ => rfl) _ _ _ _ e8,
    allReal_of_all a9 _ (fun _ => rfl) _ _ _ _ e9, allReal_of_all a10 _ (fun _ => rfl) _ _ _ _ e10,
    allReal_of_all a11 _ (fun _ => rfl) _ _ _ _ e11⟩

end Cert.PreReal
-- ==== Proof.RefReal.lean ====
/-
  Every intermediate value of the reference computation is a real number.

  At the extended-real reading of floats, each stage of the reference computation — the degree
  normalisation, the edge weights, the aggregation over a relation, the graph convolutions and their sum,
  the two layers, the column means and variances of the batch normalisation, the reciprocal standard
  deviation, the normalised features and the head — has only real entries whenever the float argument
  arrays have. The facts beyond realness that the normalisation needs are also here: the count is 50000,
  the variance is a quotient of a sum of squares by a positive number, hence non-negative, so that
  `var + eps` is positive and its reciprocal square root is a positive real number.
-/
import proofs.«115534_j8151847928363_1_alg».proof.Proof.RefReadDefs
import proofs.«115534_j8151847928363_1_alg».proof.Proof.LibFiniteOps

namespace Cert.ReferenceIdeal.RefReal

open Cert.ReferenceIdeal Cert.ReferenceIdeal.Gen Cert.ReferenceIdeal.RefRead Idealize.ShloMosaic
open Cert.FiniteOps (IsReal AllReal)

/-! ### Splats of constants -/

/-- The splat of the zero word is zero at every index. -/
theorem zeros_apply {S : Shape} (hb : S_.BroadcastsInDim S (![] : Fin 0 → Fin S.rank)) (i : S.Idx) :
    broadcastInDim S ![] hb (constant (F := Ideal) S_ .f32 0x00000000#32) i = 0 :=
  FiniteOps.ofBits_f32_zero

theorem zeros_real {S : Shape} (hb : S_.BroadcastsInDim S (![] : Fin 0 → Fin S.rank)) :
    AllReal (broadcastInDim S ![] hb (constant (F := Ideal) S_ .f32 0x00000000#32)) :=
  FiniteOps.broadcastInDim _ _ _ (FiniteOps.constant_zero _)

/-! ### The degree normalisation and the edge weights -/

theorem degOf_real (e : IVec S2x500000 32) : AllReal (degOf (F := Ideal) e) := by
  unfold degOf
  exact FiniteOps.scatterAdd _ _ (zeros_real _) (FiniteOps.broadcastInDim _ _ _ (FiniteOps.constant_one _))

theorem dinvOf_real (e : IVec S2x500000 32) : AllReal (dinvOf (F := Ideal) e) := by
  unfold dinvOf
  exact FiniteOps.guardedHostRsqrt (degOf_real e) (fun _ => FiniteOps.ofBits_f32_zero) (zeros_real _)

theorem relNorm_real (ei : IVec S4x2x500000 32) (r : Fin 4) : AllReal (relNorm (F := Ideal) ei r) := by
  unfold relNorm
  exact FiniteOps.mulf (FiniteOps.gather _ _ (dinvOf_real _)) (FiniteOps.gather _ _ (dinvOf_real _))

/-! ### One relation's aggregation, the convolutions, the layers -/

theorem agg_real (ei : IVec S4x2x500000 32) (r : Fin 4) {h : FVec Ideal S50000x128 .f32} (hh : AllReal h) :
    AllReal (agg (F := Ideal) ei r h) := by
  unfold agg
  exact FiniteOps.scatterAdd _ _ (zeros_real _)
    (FiniteOps.mulf (FiniteOps.gather _ _ hh)
      (FiniteOps.broadcastInDim _ _ _ (FiniteOps.broadcastInDim _ _ _ (relNorm_real ei r))))

theorem wRel_real {W : FVec Ideal S4x128x128 .f32} (hW : AllReal W) : ∀ r : Fin 4, AllReal (wRel (F := Ideal) W r)
  | ⟨0, _⟩ => FiniteOps.shapeCast _ _ (FiniteOps.extractStridedSlice _ _ _ hW)
  | ⟨1, _⟩ => FiniteOps.shapeCast _ _ (FiniteOps.extractStridedSlice _ _ _ hW)
  | ⟨2, _⟩ => FiniteOps.shapeCast _ _ (FiniteOps.extractStridedSlice _ _ _ hW)
  | ⟨3, _⟩ => FiniteOps.shapeCast _ _ (FiniteOps.extractStridedSlice _ _ _ hW)
  | ⟨n + 4, h⟩ => absurd h (by omega)

theorem bRel_real {b : FVec Ideal S4x128 .f32} (hb : AllReal b) : ∀ r : Fin 4, AllReal (bRel (F := Ideal) b r)
  | ⟨0, _⟩ => FiniteOps.shapeCast _ _ (FiniteOps.extractStridedSlice _ _ _ hb)
  | ⟨1, _⟩ => FiniteOps.shapeCast _ _ (FiniteOps.extractStridedSlice _ _ _ hb)
  | ⟨2, _⟩ => FiniteOps.shapeCast _ _ (FiniteOps.extractStridedSlice _ _ _ hb)
  | ⟨3, _⟩ => FiniteOps.shapeCast _ _ (FiniteOps.extractStridedSlice _ _ _ hb)
  | ⟨n + 4, h⟩ => absurd h (by omega)

theorem rowBcast_real {v : FVec Ideal S128 .f32} (hv : AllReal v) : AllReal (rowBcast (F := Ideal) v) := by
  unfold rowBcast
  exact FiniteOps.broadcastInDim _ _ _ (FiniteOps.broadcastInDim _ _ _ hv)

theorem gcn_real (ei : IVec S4x2x500000 32) (r : Fin 4) {x : FVec Ideal S50000x128 .f32}
    {W : FVec Ideal S4x128x128 .f32} {b : FVec Ideal S4x128 .f32} (hx : AllReal x) (hW : AllReal W) (hb : AllReal b) :
    AllReal (gcn (F := Ideal) ei r x W b) := by
  unfold gcn
  exact FiniteOps.addf (agg_real ei r (FiniteOps.dotGeneral _ _ hx (wRel_real hW r))) (rowBcast_real (bRel_real hb r))

theorem hetero_real (ei : IVec S4x2x500000 32) {x : FVec Ideal S50000x128 .f32}
    {W : FVec Ideal S4x128x128 .f32} {b : FVec Ideal S4x128 .f32} (hx : AllReal x) (hW : AllReal W) (hb : AllReal b) :
    AllReal (hetero (F := Ideal) ei x W b) := by
  unfold hetero
  exact FiniteOps.addf (FiniteOps.addf (FiniteOps.addf (gcn_real ei 0 hx hW hb) (gcn_real ei 1 hx hW hb))
    (gcn_real ei 2 hx hW hb)) (gcn_real ei 3 hx hW hb)

theorem relu_real {h : FVec Ideal S50000x128 .f32} (hh : AllReal h) : AllReal (relu (F := Ideal) h) := by
  unfold relu
  exact FiniteOps.maximumf hh (zeros_real _)

theorem h1_real (ei : IVec S4x2x500000 32) {x : FVec Ideal S50000x128 .f32} {W1 : FVec Ideal S4x128x128 .f32}
    {b1 : FVec Ideal S4x128 .f32} (hx : AllReal x) (hW1 : AllReal W1) (hb1 : AllReal b1) :
    AllReal (h1 (F := Ideal) ei x W1 b1) := by
  unfold h1
  exact relu_real (hetero_real ei hx hW1 hb1)

theorem h2_real (ei : IVec S4x2x500000 32) {x : FVec Ideal S50000x128 .f32} {W1 : FVec Ideal S4x128x128 .f32}
    {b1 : FVec Ideal S4x128 .f32} {W2 : FVec Ideal S4x128x128 .f32} {b2 : FVec Ideal S4x128 .f32}
    (hx : AllReal x) (hW1 : AllReal W1) (hb1 : AllReal b1) (hW2 : AllReal W2) (hb2 : AllReal b2) :
    AllReal (h2 (F := Ideal) ei x W1 b1 W2 b2) := by
  unfold h2
  exact relu_real (hetero_real ei (h1_real ei hx hW1 hb1) hW2 hb2)

/-! ### Batch normalisation -/

section BatchNorm
variable {h : FVec Ideal S50000x128 .f32}

/-- The splat of the word of `50000` is `50000` at every index. -/
theorem n_apply {S : Shape} (hb : S_.BroadcastsInDim S (![] : Fin 0 → Fin S.rank)) (i : S.Idx) :
    broadcastInDim S ![] hb (constant (F := Ideal) S_ .f32 0x47435000#32) i = ((50000 : ℝ) : EReal) :=
  FiniteOps.ofBits_f32_50000

theorem n_real {S : Shape} (hb : S_.BroadcastsInDim S (![] : Fin 0 → Fin S.rank)) :
    AllReal (broadcastInDim S ![] hb (constant (F := Ideal) S_ .f32 0x47435000#32)) :=
  FiniteOps.broadcastInDim _ _ _ (FiniteOps.constant_50000 _)

theorem n_ne_zero {S : Shape} (hb : S_.BroadcastsInDim S (![] : Fin 0 → Fin S.rank)) (i : S.Idx) :
    broadcastInDim S ![] hb (constant (F := Ideal) S_ .f32 0x47435000#32) i ≠ 0 :=
  FiniteOps.ofBits_f32_50000_pos.ne'

theorem colSum_real (hh : AllReal h) : AllReal (colSum (F := Ideal) h) := by
  unfold colSum
  exact FiniteOps.reduceAdd _ _ hh (FiniteOps.constant_zero _)

theorem bnMean_real (hh : AllReal h) : AllReal (bnMean (F := Ideal) h) := by
  unfold bnMean
  exact FiniteOps.hostDivf (colSum_real hh) (n_real _) (n_ne_zero _)

theorem bnSq_real (hh : AllReal h) : AllReal (bnSq (F := Ideal) h) := by
  unfold bnSq
  have hm := FiniteOps.subf hh (FiniteOps.broadcastInDim S50000x128 ![0, 1] bcast_S1x128_S50000x128_0_1
    (FiniteOps.hostDivf (FiniteOps.broadcastInDim S1x128 ![1] bcast_S128_S1x128_1 (colSum_real hh))
      (n_real bcast_S_S1x128) (n_ne_zero bcast_S_S1x128)))
  exact FiniteOps.mulf hm hm

/-- The centred squares are non-negative. -/
theorem bnSq_nonneg (hh : AllReal h) (i : S50000x128.Idx) : 0 ≤ bnSq (F := Ideal) h i := by
  unfold bnSq
  have hm := FiniteOps.subf hh (FiniteOps.broadcastInDim S50000x128 ![0, 1] bcast_S1x128_S50000x128_0_1
    (FiniteOps.hostDivf (FiniteOps.broadcastInDim S1x128 ![1] bcast_S128_S1x128_1 (colSum_real hh))
      (n_real bcast_S_S1x128) (n_ne_zero bcast_S_S1x128)))
  exact FiniteOps.IsReal.mul_self_nonneg (hm i)

/-- The variance's divisor is `50000`. -/
theorem bnCount_apply (i : S_.Idx) : bnCount (F := Ideal) i = ((50000 : ℝ) : EReal) := by
  show Ideal.ofBits .f32 0x47435000#32 - ((((0#32 : BitVec 32).toInt : ℝ)) : EReal) = ((50000 : ℝ) : EReal)
  rw [FiniteOps.ofBits_f32_50000, ← EReal.coe_sub]
  norm_num

theorem bnCount_real : AllReal (bnCount (F := Ideal)) := fun i => ⟨50000, bnCount_apply i⟩

theorem bnCount_pos (i : S_.Idx) : 0 < bnCount (F := Ideal) i := by
  rw [bnCount_apply, EReal.coe_pos]; norm_num

/-- The count is positive, so the variance is the sum of the centred squares over the count. -/
theorem bnVar_eq (h : FVec Ideal S50000x128 .f32) :
    bnVar (F := Ideal) h
      = Host.divf (colSum (bnSq h)) (broadcastInDim S128 ![] bcast_S_S128 (bnCount (F := Ideal))) := by
  unfold bnVar
  refine FiniteOps.select_eq_left _ _ _ fun i => ?_
  show Ideal.cmp .ogt (bnCount (F := Ideal) _) (Ideal.ofBits .f32 0x00000000#32) = 1#1
  rw [FiniteOps.cmp_ogt_eq_one, FiniteOps.ofBits_f32_zero]
  exact bnCount_pos _

theorem bnVar_real (hh : AllReal h) : AllReal (bnVar (F := Ideal) h) := by
  rw [bnVar_eq]
  exact FiniteOps.hostDivf (colSum_real (bnSq_real hh)) (FiniteOps.broadcastInDim _ _ _ bnCount_real)
    fun i => (bnCount_pos _).ne'

/-- The variance is non-negative. -/
theorem bnVar_nonneg (hh : AllReal h) (i : S128.Idx) : 0 ≤ bnVar (F := Ideal) h i := by
  rw [bnVar_eq]
  refine FiniteOps.div_nonneg ?_ (bnCount_real _) (bnCount_pos _)
  unfold colSum
  exact FiniteOps.reduceAdd_nonneg _ _ (bnSq_nonneg hh) (fun _ => le_of_eq FiniteOps.ofBits_f32_zero.symm) i

/-- `var + eps` is a positive real number at every column. -/
theorem bnVarEps_real (hh : AllReal h) :
    AllReal (addf (bnVar (F := Ideal) h)
      (broadcastInDim S128 ![] bcast_S_S128 (constant (F := Ideal) S_ .f32 0x3727C5AC#32))) :=
  FiniteOps.addf (bnVar_real hh) (FiniteOps.broadcastInDim _ _ _ (FiniteOps.constant_1em5 _))

theorem bnVarEps_pos (hh : AllReal h) (i : S128.Idx) :
    0 < addf (bnVar (F := Ideal) h)
      (broadcastInDim S128 ![] bcast_S_S128 (constant (F := Ideal) S_ .f32 0x3727C5AC#32)) i :=
  FiniteOps.add_pos_of_nonneg_of_pos' (bnVar_nonneg hh i) FiniteOps.ofBits_f32_1em5_pos

/-- The reciprocal standard deviation `rsqrt (var + eps)` is a real number at every column. -/
theorem bnInv_real (hh : AllReal h) : AllReal (bnInv (F := Ideal) h) := by
  unfold bnInv
  exact FiniteOps.hostRsqrt (bnVarEps_real hh) (bnVarEps_pos hh)

/-- The scale `gamma * rsqrt (var + eps)` is a real number at every column. -/
theorem bnScale_real (hh : AllReal h) {gamma : FVec Ideal S128 .f32} (hg : AllReal gamma) :
    AllReal (mulf gamma (bnInv (F := Ideal) h)) :=
  FiniteOps.mulf hg (bnInv_real hh)

/-- The normalised features are real numbers. -/
theorem bn_real (hh : AllReal h) {gamma beta : FVec Ideal S128 .f32} (hg : AllReal gamma) (hbeta : AllReal beta) :
    AllReal (bn (F := Ideal) h gamma beta) := by
  unfold bn
  exact FiniteOps.addf
    (FiniteOps.mulf (FiniteOps.mulf (FiniteOps.subf hh (rowBcast_real (bnMean_real hh))) (rowBcast_real (bnInv_real hh)))
      (rowBcast_real hg))
    (rowBcast_real hbeta)

end BatchNorm

/-! ### The head and the whole computation -/

theorem head_real {z : FVec Ideal S50000x128 .f32} {l1W : FVec Ideal S128x128 .f32} {l1b : FVec Ideal S128 .f32}
    {l2W : FVec Ideal S128x2 .f32} {l2b : FVec Ideal S2 .f32} (hz : AllReal z) (h1W : AllReal l1W)
    (h1b : AllReal l1b) (h2W : AllReal l2W) (h2b : AllReal l2b) :
    AllReal (head (F := Ideal) z l1W l1b l2W l2b) := by
  unfold head
  exact FiniteOps.addf
    (FiniteOps.dotGeneral _ _ (relu_real (FiniteOps.addf (FiniteOps.dotGeneral _ _ hz h1W) (rowBcast_real h1b))) h2W)
    (FiniteOps.broadcastInDim _ _ _ (FiniteOps.broadcastInDim _ _ _ h2b))

end Cert.ReferenceIdeal.RefReal
-- ==== Proof.RefAggOf.lean ====
/-
  A relation's aggregation as a function of its raw source ids, raw destination ids and edge weights, so that a program which
  computes those three once can be read against the reference, which recomputes them in every layer.
-/
import proofs.«115534_j8151847928363_1_alg».proof.Proof.RefReadDefs

noncomputable section

namespace Cert.ReferenceIdeal.RefRead

open Cert.ReferenceIdeal Cert.ReferenceIdeal.Gen Idealize.ShloMosaic

variable {F : FTy → Type} [FloatOps F]

/-- The rows of `h` gathered by the wrapped source ids, each scaled by its edge's weight, scatter-added by the raw destination
    ids into zeros. -/
def aggOf (src dst : IVec S550000 32) (norm : FVec F S550000 .f32) (h : FVec F S50000x128 .f32) : FVec F S50000x128 .f32 :=
  Host.scatterAdd scatter_S50000x128_S550000x1_S550000x128_1_0_0_1
    (broadcastInDim S50000x128 ![] bcast_S_S50000x128 (constant (F := F) S_ .f32 0x00000000#32))
    (idCol dst)
    (mulf (Host.gather gather_S50000x128_S550000x1_S550000x128_1_0_n_n_0_1_1128 h (idCol (wrapIdx src)))
      (broadcastInDim S550000x128 ![0, 1] bcast_S550000x1_S550000x128_0_1
        (broadcastInDim S550000x1 ![0] bcast_S550000_S550000x1_0 norm)))

theorem agg_eq (ei : IVec S4x2x500000 32) (r : Fin 4) (h : FVec F S50000x128 .f32) :
    agg ei r h = aggOf (srcRaw (eiRel ei r)) (dstRaw (eiRel ei r)) (relNorm ei r) h := rfl

/-- A relation's edge weights from its raw ids: the inverse square roots of the in-degrees, gathered at both ends and
    multiplied. -/
def normOf (e : IVec S2x500000 32) : FVec F S550000 .f32 :=
  mulf (Host.gather gather_S50000_S550000x1_S550000_n_0_n_n_0_1_1 (dinvOf e) (idCol (wrapIdx (srcRaw e))))
    (Host.gather gather_S50000_S550000x1_S550000_n_0_n_n_0_1_1 (dinvOf e) (idCol (wrapIdx (dstRaw e))))

theorem relNorm_eq (ei : IVec S4x2x500000 32) (r : Fin 4) : relNorm (F := F) ei r = normOf (eiRel ei r) := rfl

end Cert.ReferenceIdeal.RefRead

end
-- ==== Proof.KiStages.lean ====
/-
  The kernel program's stages as functions of the argument arrays, for any float instance: the weight table re-laid with the
  four relations side by side, a layer's four aggregations side by side and its summed bias row, the normalisation's scale and
  shift, the zero-padded output layer, and the final two columns. The launches' own values (products, the four-way sum with
  bias and cut-off, the head) are stated where they are read off the launches.
-/
import proofs.«115534_j8151847928363_1_alg».proof.Proof.Gen.KernelIdeal
import proofs.«115534_j8151847928363_1_alg».proof.Proof.RefAggOf

noncomputable section

namespace Cert.KernelIdeal.Read

open Cert.KernelIdeal Cert.KernelIdeal.Gen Idealize.ShloMosaic
open Cert.ReferenceIdeal

variable {F : FTy → Type} [FloatOps F]

/-- The four relations' 128×128 weights side by side: entry (k, 128·r + j) is W (r, k, j). -/
def wresh (W : FVec F S4x128x128 .f32) : FVec F S128x512 .f32 :=
  shapeCast S128x512 (transpose S128x4x128 [1, 0, 2] W transposes_S4x128x128_S128x4x128_1_0_2) shapeCasts_S128x4x128_S128x512

/-- Relation r's column group of a 50000×512 table. -/
def colGroup0 (t : FVec F S50000x512 .f32) : FVec F S50000x128 .f32 := extractStridedSlice S50000x128 ![0, 0] t slices_S50000x512_S50000x128_0_0
def colGroup1 (t : FVec F S50000x512 .f32) : FVec F S50000x128 .f32 := extractStridedSlice S50000x128 ![0, 128] t slices_S50000x512_S50000x128_0_128
def colGroup2 (t : FVec F S50000x512 .f32) : FVec F S50000x128 .f32 := extractStridedSlice S50000x128 ![0, 256] t slices_S50000x512_S50000x128_0_256
def colGroup3 (t : FVec F S50000x512 .f32) : FVec F S50000x128 .f32 := extractStridedSlice S50000x128 ![0, 384] t slices_S50000x512_S50000x128_0_384

/-- Each relation's aggregation of its own column group of the projection, the four results side by side. -/
def aggAll (e0 e1 e2 e3 : IVec S2x500000 32) (t : FVec F S50000x512 .f32) : FVec F S50000x512 .f32 :=
  concatenate S50000x512 1
    [⟨S50000x128, RefRead.aggOf (RefRead.srcRaw e0) (RefRead.dstRaw e0) (RefRead.normOf e0) (colGroup0 t)⟩,
     ⟨S50000x128, RefRead.aggOf (RefRead.srcRaw e1) (RefRead.dstRaw e1) (RefRead.normOf e1) (colGroup1 t)⟩,
     ⟨S50000x128, RefRead.aggOf (RefRead.srcRaw e2) (RefRead.dstRaw e2) (RefRead.normOf e2) (colGroup2 t)⟩,
     ⟨S50000x128, RefRead.aggOf (RefRead.srcRaw e3) (RefRead.dstRaw e3) (RefRead.normOf e3) (colGroup3 t)⟩]
    concatenates_S50000x128_S50000x128_S50000x128_S50000x128_S50000x512_d1

/-- A 128-vector as a 1×128 row. -/
def rowOf (v : FVec F S128 .f32) : FVec F S1x128 .f32 := broadcastInDim S1x128 ![1] bcast_S128_S1x128_1 v

/-- The four relations' biases summed from zero, as a row. -/
def biasRow (b : FVec F S4x128 .f32) : FVec F S1x128 .f32 :=
  rowOf (Host.reduceAdd b (constant (F := F) S_ .f32 0x00000000#32) reducesTo_S4x128_S128_d0 h_S_)

/-- The normalisation's scale γ · rsqrt (var + ε) and shift β − mean · scale, from the batch statistics of `h`. -/
def scaleOf (h : FVec F S50000x128 .f32) (gamma : FVec F S128 .f32) : FVec F S128 .f32 := mulf gamma (RefRead.bnInv h)
def shiftOf (h : FVec F S50000x128 .f32) (gamma beta : FVec F S128 .f32) : FVec F S128 .f32 :=
  subf beta (mulf (RefRead.bnMean h) (scaleOf h gamma))

/-- The output layer's 128×2 weights set into the first two columns of a 128×128 table of zeros, and its 2 biases into the
    first two entries of 128 zeros. -/
def padW (l2W : FVec F S128x2 .f32) : FVec F S128x128 .f32 :=
  Host.scatter scatter_S128x128_S1_S128x2_01_n_1_0 (fun _ b => b)
    (broadcastInDim S128x128 ![] bcast_S_S128x128 (constant (F := F) S_ .f32 0x00000000#32))
    (broadcastInDim S1 ![] bcast_S_S1 (constantI S_ 32 0#32)) l2W
def padB (l2b : FVec F S2 .f32) : FVec F S128 .f32 :=
  Host.scatter scatter_S128_S1_S2_0_n_0_0 (fun _ b => b)
    (broadcastInDim S128 ![] bcast_S_S128 (constant (F := F) S_ .f32 0x00000000#32))
    (broadcastInDim S1 ![] bcast_S_S1 (constantI S_ 32 0#32)) l2b

/-- The first two columns of the head's 50000×128 result. -/
def outCols (o : FVec F S50000x128 .f32) : FVec F S50000x2 .f32 := extractStridedSlice S50000x2 ![0, 0] o slices_S50000x128_S50000x2_0_0

end Cert.KernelIdeal.Read

end
-- ==== Proof.KiOut0.lean ====
/-
  The product of the row-blocked operand with the weights, read as one function of the whole arrays: after the last row
  block the result array holds, at row n and column j, the sum over k of x(n, k) w(k, j).
-/
import proofs.«115534_j8151847928363_1_alg».proof.Proof.KiReg0
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Out

open Cert.KernelIdeal Cert.KernelIdeal.Gen Cert.KernelIdeal.Frm
open Idealize.ShloMosaic Idealize.ShloMosaic.TcCoe Idealize.SL.Sem
open Idealize.ShloMosaic.ValueIdx
open Idealize.ShloMosaic.Pipeline (Dat)
open scoped BigOperators

/-- Row n, column j of the product: the sum over k of x(n, k) w(k, j). -/
def row0 (x : S50000x128.Idx → EReal) (w : S128x512.Idx → EReal) (n : Fin 50000) (j : Fin 512) : EReal :=
  ∑ k : Fin 128, x (ix2 n k) * w (ix2 k j)

/-- The whole result array as a function of the two operand arrays. -/
def G0 (x : S50000x128.Idx → EReal) (w : S128x512.Idx → EReal) : S50000x512.Idx → EReal :=
  fun i => row0 x w (i 0) (i 1)

/-- A 2000 x 128 by 128 x 512 product accumulated into zero, at (p, q): the sum over k of l(p, k) r(k, q). -/
theorem matmul0_apply (l : FVec Ideal S2000x128 .bf16) (r : FVec Ideal S128x512 .bf16) (p : Fin 2000) (q : Fin 512) :
    matmul dot_S2000x128_S128x512_S2000x512_1_0_0_1_n_n none l r (constant (F := Ideal) S2000x512 .f32 0x00000000#32) (ix2 p q)
      = ∑ k : Fin 128, l (ix2 p k) * r (ix2 k q) := by
  have hr : dot_S2000x128_S128x512_S2000x512_1_0_0_1_n_n.contr.rank = 1 := rfl
  have hs : dot_S2000x128_S128x512_S2000x512_1_0_0_1_n_n.contr.size ⟨0, by omega⟩ = 128 := rfl
  refine (Ideal.matmul_constant_zero_apply dot_S2000x128_S128x512_S2000x512_1_0_0_1_n_n none l r (ix2 p q)).trans ?_
  rw [← Equiv.sum_comp (contrEquiv1 dot_S2000x128_S128x512_S2000x512_1_0_0_1_n_n 128 hr hs).symm]
  refine Finset.sum_congr rfl fun k _ => ?_
  have hk := contrEquiv1_symm_val dot_S2000x128_S128x512_S2000x512_1_0_0_1_n_n 128 hr hs k
  congr 1
  · congr 1; funext a; apply Fin.ext
    match a with
    | ⟨0, _⟩ => rfl
    | ⟨1, _⟩ => exact (DotDims.lhsIdx_val_of_single _ (cl := (1 : Fin 2)) rfl _ _).trans hk
  · congr 1; funext a; apply Fin.ext
    match a with
    | ⟨0, _⟩ => exact (DotDims.rhsIdx_val_of_single _ (cr := (0 : Fin 2)) rfl _ _).trans hk
    | ⟨1, _⟩ => rfl

/-- The body's value at row p, column q of a block. -/
theorem pay0_apply (v0 : Vec Ideal S2000x128 .f32) (v2 : Vec Ideal S128x512 .f32) (p : Fin 2000) (q : Fin 512) :
    k0_pay1 v0 v2 (ix2 p q) = ∑ k : Fin 128, v0 (ix2 p k) * v2 (ix2 k q) := by
  unfold k0_pay1
  simp only [shapeCast_self]
  exact matmul0_apply _ _ p q

theorem zero_offsets0 : (![0, 0] : Fin 2 → Nat) = fun _ => 0 := funext fun a => by fin_cases a <;> rfl

/-- The result block at row p and column q, from the operand blocks. -/
theorem res0_apply (x0 : Vec Ideal S2000x128 .f32) (x1 : Vec Ideal S128x512 .f32) (p : Fin 2000) (q : Fin 512) :
    res0 x0 x1 (ix2 p q) = ∑ k : Fin 128, x0 (ix2 p k) * x1 (ix2 k q) := by
  unfold res0
  rw [View.canon_unit_zero zero_offsets0, pay0_apply, View.ld_unit_zero (S := S2000x128) zero_offsets0,
    View.ld_unit_zero (S := S128x512) zero_offsets0]

variable (V : (c : Dev nD) → (b : Ref sig .tc) → Buf (Elt Ideal) ((c : Thread nD τ).loc b))

/-- The block indices at row block t: (t, 0) for the row-blocked operand and for the result, (0, 0) for the weights. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the first operand's block at row block t is row 2000 t + p of the array. -/
theorem blk0_0_apply (c : Dev nD) (t : Fin cfg0.N) (p : Fin 2000) (q : Fin 128) (n : Fin 50000) (hn : n.val = t.val * 2000 + p.val) :
    (blk0 V c 0 t : Vec Ideal S2000x128 .f32) (ix2 p q) = (V c (Pipeline.arrRef spec0 0) : S50000x128.Idx → EReal) (ix2 n q) := by
  obtain ⟨e0, e1, -⟩ := idx_facts0 t
  unfold blk0
  rw [View.read_apply]
  show V c (Pipeline.arrRef spec0 0) _ = V c (Pipeline.arrRef spec0 0) _
  congr 1
  funext a
  apply Fin.ext
  match a with
  | ⟨0, _⟩ => show win0_0.index t 0 * 2000 + 1 * p.val = n.val; rw [e0, hn]; omega
  | ⟨1, _⟩ => show win0_0.index t 1 * 128 + 1 * q.val = q.val; rw [e1]; omega

/-- The second operand's block is the whole weight array at every row block. -/
theorem blk0_1_apply (c : Dev nD) (t : Fin cfg0.N) (k : Fin 128) (q : Fin 512) :
    (blk0 V c 1 t : Vec Ideal S128x512 .f32) (ix2 k q) = (V c (Pipeline.arrRef spec0 1) : S128x512.Idx → EReal) (ix2 k q) := by
  obtain ⟨-, -, e2, e3, -⟩ := idx_facts0 t
  unfold blk0
  rw [View.read_apply]
  show V c (Pipeline.arrRef spec0 1) _ = V c (Pipeline.arrRef spec0 1) _
  congr 1
  funext a
  apply Fin.ext
  match a with
  | ⟨0, _⟩ => show win0_1.index t 0 * 128 + 1 * k.val = k.val; rw [e2]; omega
  | ⟨1, _⟩ => show win0_1.index t 1 * 512 + 1 * q.val = q.val; rw [e3]; omega

/-- What row block t writes back is block t of `G0` of the operand arrays at the region's entry. -/
theorem flushed0_eq (c : Dev nD) (t : Fin cfg0.N) :
    (dat0 (F := Ideal) V c).flushed 2 t
      = ((cfg0.win 2).blk t).view.read (Elt Ideal) (G0 (V c (Pipeline.arrRef spec0 0)) (V c (Pipeline.arrRef spec0 1))) := by
  show (cfg0.win 2).cut (grid0.coords t) ((dat0 V c).after 2 t) = _
  rw [after0_2]
  obtain ⟨-, -, -, -, e4, e5⟩ := idx_facts0 t
  have hN : cfg0.N = 25 := N_0
  have ht : t.val < 25 := hN ▸ t.isLt
  funext y
  obtain ⟨p, q, rfl⟩ : ∃ (p : Fin 2000) (q : Fin 512), y = ix2 p q := ⟨y 0, y 1, eq_ix2 y⟩
  have hn : t.val * 2000 + p.val < 50000 := by have := p.isLt; omega
  trans row0 (V c (Pipeline.arrRef spec0 0)) (V c (Pipeline.arrRef spec0 1)) ⟨t.val * 2000 + p.val, hn⟩ q
  · show res0 (blk0 V c 0 t) (blk0 V c 1 t) (ix2 p q) = _
    rw [res0_apply]
    unfold row0
    exact Finset.sum_congr rfl fun k _ => by rw [blk0_0_apply V c t p k ⟨_, hn⟩ rfl, blk0_1_apply V c t k q]
  · have he : ((cfg0.win 2).blk t).view.emb (ix2 p q) = (ix2 (⟨t.val * 2000 + p.val, hn⟩ : Fin 50000) q : S50000x512.Idx) := by
      funext a; apply Fin.ext
      match a with
      | ⟨0, _⟩ => show win0_2.index t 0 * 2000 + 1 * p.val = t.val * 2000 + p.val; rw [e4]; omega
      | ⟨1, _⟩ => show win0_2.index t 1 * 512 + 1 * q.val = q.val; rw [e5]; omega
    rw [View.read_apply]
    exact (congrArg (G0 (V c (Pipeline.arrRef spec0 0)) (V c (Pipeline.arrRef spec0 1))) he).symm

/-- Row n of the array lies in the block of row block n / 2000. -/
theorem cover0 (i : S50000x512.Idx) : ∃ t : Fin cfg0.N, (cfg0.win 2).flush t = true ∧ i ∈ ((cfg0.win 2).blk t).view.set := by
  have h0 : (i 0).val < 50000 := (i 0).isLt
  have h1 : (i 1).val < 512 := (i 1).isLt
  have hN : cfg0.N = 25 := N_0
  have hq : (i 0).val / 2000 < cfg0.N := by rw [hN]; omega
  obtain ⟨-, -, -, -, e4, e5⟩ := idx_facts0 ⟨(i 0).val / 2000, hq⟩
  refine ⟨⟨(i 0).val / 2000, hq⟩, flush0_2 _, ?_⟩
  show i ∈ ((View.whole main_v130).slice (win0_2.rect ⟨(i 0).val / 2000, hq⟩)).set
  rw [View.set_slice_whole, Rect.mem_set_unit]
  intro a
  match a with
  | ⟨0, _⟩ =>
    show win0_2.index ⟨(i 0).val / 2000, hq⟩ 0 * 2000 ≤ (i 0).val ∧ (i 0).val < win0_2.index ⟨(i 0).val / 2000, hq⟩ 0 * 2000 + 2000
    rw [e4]; show (i 0).val / 2000 * 2000 ≤ (i 0).val ∧ (i 0).val < (i 0).val / 2000 * 2000 + 2000; omega
  | ⟨1, _⟩ =>
    show win0_2.index ⟨(i 0).val / 2000, hq⟩ 1 * 512 ≤ (i 1).val ∧ (i 1).val < win0_2.index ⟨(i 0).val / 2000, hq⟩ 1 * 512 + 512
    rw [e5]; omega

/-- The result array after the last row block is `G0` of the operand arrays at the region's entry. -/
theorem out0 (c : Dev nD) :
    (dat0 (F := Ideal) V c).arrAt 2 cfg0.N = G0 (V c (Pipeline.arrRef spec0 0)) (V c (Pipeline.arrRef spec0 1)) :=
  (dat0 (F := Ideal) V c).arrAt_eq_of_cover 2 (G0 (V c (Pipeline.arrRef spec0 0)) (V c (Pipeline.arrRef spec0 1)))
    (fun t _ => flushed0_eq V c t) cover0

end Cert.KernelIdeal.Out

end
-- ==== Proof.KiOut1.lean ====
/-
  The layer's combination, read as one function of the whole arrays: after the last row block the result array holds, at
  row n and column j, the four column groups of row n of the first operand summed left to right, plus the bias row at
  column j, with the negative part cut off.
-/
import proofs.«115534_j8151847928363_1_alg».proof.Proof.KiReg1
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Out

open Cert.KernelIdeal Cert.KernelIdeal.Gen Cert.KernelIdeal.Frm
open Idealize.ShloMosaic Idealize.ShloMosaic.TcCoe Idealize.SL.Sem
open Idealize.ShloMosaic.ValueIdx
open Idealize.ShloMosaic.Pipeline (Dat)
open scoped BigOperators

/-- Row n, column j of the result: a(n, j) + a(n, 128 + j) + a(n, 256 + j) + a(n, 384 + j), added in that order, plus
    b(0, j), and the maximum of that with 0. -/
def row1 (a : S50000x512.Idx → EReal) (b : S1x128.Idx → EReal) (n : Fin 50000) (j : Fin 128) : EReal :=
  max ((((a (ix2 n (⟨j.val, by omega⟩ : Fin 512)) + a (ix2 n (⟨128 + j.val, by omega⟩ : Fin 512))) + a (ix2 n (⟨256 + j.val, by omega⟩ : Fin 512)))
    + a (ix2 n (⟨384 + j.val, by omega⟩ : Fin 512))) + b (ix2 (0 : Fin 1) j)) 0

/-- The whole result array as a function of the two operand arrays. -/
def G1 (a : S50000x512.Idx → EReal) (b : S1x128.Idx → EReal) : S50000x128.Idx → EReal :=
  fun i => row1 a b (i 0) (i 1)

/-- The body's value at row p, column j of a block: the four summands added left to right, the bias row's entry at
    column j added, the maximum with 0. -/
theorem pay1_apply (v0 v2 v5 v8 : Vec Ideal S2000x128 .f32) (v11 : Vec Ideal S1x128 .f32) (p : Fin 2000) (j : Fin 128) :
    k1_pay1 v0 v2 v5 v8 v11 (ix2 p j)
      = max ((((v0 (ix2 p j) + v2 (ix2 p j)) + v5 (ix2 p j)) + v8 (ix2 p j)) + v11 (ix2 (0 : Fin 1) j)) 0 := by
  unfold k1_pay1
  simp only [shapeCast_self]
  rw [maximumf_apply, addf_apply, addf_apply, addf_apply, addf_apply, broadcast_apply]
  rw [broadcastTo_apply v11 _ (ix2 p j) (ix2 (0 : Fin 1) j) (fun a => by
    match a with
    | ⟨0, _⟩ => rfl
    | ⟨1, _⟩ => rfl)]
  show max _ (Ideal.ofBits .f32 0x00000000#32) = _
  rw [Ideal.ofBits_zero_f32]

theorem zero_offsets1 : (![0, 0] : Fin 2 → Nat) = fun _ => 0 := funext fun a => by fin_cases a <;> rfl

/-- The 2000 x 128 column group at column offset o of a 2000 x 512 block, at (p, j), is the block at (p, o + j). -/
theorem ld_cols1 (x0 : Vec Ideal S2000x512 .f32) (o : Nat) (inb) (p : Fin 2000) (j : Fin 128) (h : o + j.val < 512) :
    View.ld x0 (Rect.unit (s := S2000x512) ![0, o] S2000x128.size inb) (ix2 p j) = x0 (ix2 p (⟨o + j.val, h⟩ : Fin 512)) := by
  show x0 _ = x0 _
  congr 1
  funext a
  apply Fin.ext
  rw [LoadRect.idx_apply]
  match a with
  | ⟨0, _⟩ => show 0 + 1 * p.val = p.val; omega
  | ⟨1, _⟩ => show o + 1 * j.val = o + j.val; omega

/-- The result block at row p and column j, from the operand blocks. -/
theorem res1_apply (x0 : Vec Ideal S2000x512 .f32) (x1 : Vec Ideal S1x128 .f32) (p : Fin 2000) (j : Fin 128) :
    res1 x0 x1 (ix2 p j)
      = max ((((x0 (ix2 p (⟨j.val, by omega⟩ : Fin 512)) + x0 (ix2 p (⟨128 + j.val, by omega⟩ : Fin 512))) + x0 (ix2 p (⟨256 + j.val, by omega⟩ : Fin 512)))
          + x0 (ix2 p (⟨384 + j.val, by omega⟩ : Fin 512))) + x1 (ix2 (0 : Fin 1) j)) 0 := by
  unfold res1
  rw [View.canon_unit_zero zero_offsets1, pay1_apply, ld_cols1 x0 0 _ p j (by omega), ld_cols1 x0 128 _ p j (by omega),
    ld_cols1 x0 256 _ p j (by omega), ld_cols1 x0 384 _ p j (by omega), View.ld_unit_zero (S := S1x128) zero_offsets1]
  simp only [Nat.zero_add]

variable (V : (c : Dev nD) → (b : Ref sig .tc) → Buf (Elt Ideal) ((c : Thread nD τ).loc b))

/-- The block indices at row block t: (t, 0) for the row-blocked operand and for the result, (0, 0) for the bias row. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the first operand's block at row block t is row 2000 t + p of the array. -/
theorem blk1_0_apply (c : Dev nD) (t : Fin cfg1.N) (p : Fin 2000) (q : Fin 512) (n : Fin 50000) (hn : n.val = t.val * 2000 + p.val) :
    (blk1 V c 0 t : Vec Ideal S2000x512 .f32) (ix2 p q) = (V c (Pipeline.arrRef spec1 0) : S50000x512.Idx → EReal) (ix2 n q) := by
  obtain ⟨e0, e1, -⟩ := idx_facts1 t
  unfold blk1
  rw [View.read_apply]
  show V c (Pipeline.arrRef spec1 0) _ = V c (Pipeline.arrRef spec1 0) _
  congr 1
  funext a
  apply Fin.ext
  match a with
  | ⟨0, _⟩ => show win1_0.index t 0 * 2000 + 1 * p.val = n.val; rw [e0, hn]; omega
  | ⟨1, _⟩ => show win1_0.index t 1 * 512 + 1 * q.val = q.val; rw [e1]; omega

/-- The second operand's block is the whole bias row at every row block. -/
theorem blk1_1_apply (c : Dev nD) (t : Fin cfg1.N) (q : Fin 128) :
    (blk1 V c 1 t : Vec Ideal S1x128 .f32) (ix2 (0 : Fin 1) q) = (V c (Pipeline.arrRef spec1 1) : S1x128.Idx → EReal) (ix2 (0 : Fin 1) q) := by
  obtain ⟨-, -, e2, e3, -⟩ := idx_facts1 t
  unfold blk1
  rw [View.read_apply]
  show V c (Pipeline.arrRef spec1 1) _ = V c (Pipeline.arrRef spec1 1) _
  congr 1
  funext a
  apply Fin.ext
  match a with
  | ⟨0, _⟩ => show win1_1.index t 0 * 1 + 1 * 0 = 0; rw [e2]
  | ⟨1, _⟩ => show win1_1.index t 1 * 128 + 1 * q.val = q.val; rw [e3]; omega

/-- What row block t writes back is block t of `G1` of the operand arrays at the region's entry. -/
theorem flushed1_eq (c : Dev nD) (t : Fin cfg1.N) :
    (dat1 (F := Ideal) V c).flushed 2 t
      = ((cfg1.win 2).blk t).view.read (Elt Ideal) (G1 (V c (Pipeline.arrRef spec1 0)) (V c (Pipeline.arrRef spec1 1))) := by
  show (cfg1.win 2).cut (grid1.coords t) ((dat1 V c).after 2 t) = _
  rw [after1_2]
  obtain ⟨-, -, -, -, e4, e5⟩ := idx_facts1 t
  have hN : cfg1.N = 25 := N_1
  have ht : t.val < 25 := hN ▸ t.isLt
  funext y
  obtain ⟨p, q, rfl⟩ : ∃ (p : Fin 2000) (q : Fin 128), y = ix2 p q := ⟨y 0, y 1, eq_ix2 y⟩
  have hn : t.val * 2000 + p.val < 50000 := by have := p.isLt; omega
  trans row1 (V c (Pipeline.arrRef spec1 0)) (V c (Pipeline.arrRef spec1 1)) ⟨t.val * 2000 + p.val, hn⟩ q
  · show res1 (blk1 V c 0 t) (blk1 V c 1 t) (ix2 p q) = _
    rw [res1_apply, blk1_0_apply V c t p _ ⟨_, hn⟩ rfl, blk1_0_apply V c t p _ ⟨_, hn⟩ rfl, blk1_0_apply V c t p _ ⟨_, hn⟩ rfl,
      blk1_0_apply V c t p _ ⟨_, hn⟩ rfl, blk1_1_apply V c t q]
    rfl
  · have he : ((cfg1.win 2).blk t).view.emb (ix2 p q) = (ix2 (⟨t.val * 2000 + p.val, hn⟩ : Fin 50000) q : S50000x128.Idx) := by
      funext a; apply Fin.ext
      match a with
      | ⟨0, _⟩ => show win1_2.index t 0 * 2000 + 1 * p.val = t.val * 2000 + p.val; rw [e4]; omega
      | ⟨1, _⟩ => show win1_2.index t 1 * 128 + 1 * q.val = q.val; rw [e5]; omega
    rw [View.read_apply]
    exact (congrArg (G1 (V c (Pipeline.arrRef spec1 0)) (V c (Pipeline.arrRef spec1 1))) he).symm

/-- Row n of the array lies in the block of row block n / 2000. -/
theorem cover1 (i : S50000x128.Idx) : ∃ t : Fin cfg1.N, (cfg1.win 2).flush t = true ∧ i ∈ ((cfg1.win 2).blk t).view.set := by
  have h0 : (i 0).val < 50000 := (i 0).isLt
  have h1 : (i 1).val < 128 := (i 1).isLt
  have hN : cfg1.N = 25 := N_1
  have hq : (i 0).val / 2000 < cfg1.N := by rw [hN]; omega
  obtain ⟨-, -, -, -, e4, e5⟩ := idx_facts1 ⟨(i 0).val / 2000, hq⟩
  refine ⟨⟨(i 0).val / 2000, hq⟩, flush1_2 _, ?_⟩
  show i ∈ ((View.whole main_v190).slice (win1_2.rect ⟨(i 0).val / 2000, hq⟩)).set
  rw [View.set_slice_whole, Rect.mem_set_unit]
  intro a
  match a with
  | ⟨0, _⟩ =>
    show win1_2.index ⟨(i 0).val / 2000, hq⟩ 0 * 2000 ≤ (i 0).val ∧ (i 0).val < win1_2.index ⟨(i 0).val / 2000, hq⟩ 0 * 2000 + 2000
    rw [e4]; show (i 0).val / 2000 * 2000 ≤ (i 0).val ∧ (i 0).val < (i 0).val / 2000 * 2000 + 2000; omega
  | ⟨1, _⟩ =>
    show win1_2.index ⟨(i 0).val / 2000, hq⟩ 1 * 128 ≤ (i 1).val ∧ (i 1).val < win1_2.index ⟨(i 0).val / 2000, hq⟩ 1 * 128 + 128
    rw [e5]; omega

/-- The result array after the last row block is `G1` of the operand arrays at the region's entry. -/
theorem out1 (c : Dev nD) :
    (dat1 (F := Ideal) V c).arrAt 2 cfg1.N = G1 (V c (Pipeline.arrRef spec1 0)) (V c (Pipeline.arrRef spec1 1)) :=
  (dat1 (F := Ideal) V c).arrAt_eq_of_cover 2 (G1 (V c (Pipeline.arrRef spec1 0)) (V c (Pipeline.arrRef spec1 1)))
    (fun t _ => flushed1_eq V c t) cover1

end Cert.KernelIdeal.Out

end
-- ==== Proof.BridgeLaws.lean ====
/-
  The two algebraic laws that join the kernel program's arithmetic to the reference's, over the extended reals.
  Regrouping sums needs nothing (addition is commutative and associative there); the normalisation's rearrangement needs
  every quantity to be a real number, since it distributes a product over a difference.
-/
import proofs.«115534_j8151847928363_1_alg».proof.Proof.LibFiniteOps
import Mathlib.Data.EReal.Operations
import Mathlib.Tactic.Ring
import Mathlib.Tactic.NormNum

namespace Cert.Laws

open Cert.FiniteOps

/-- Scaling by γ·r and shifting by β − μ·(γ·r) is centring at μ, scaling by r, then by γ, and shifting by β — for real
    numbers. -/
theorem normalise_eq {h μ r g β : EReal} (hh : IsReal h) (hμ : IsReal μ) (hr : IsReal r) (hg : IsReal g) (hβ : IsReal β) :
    h * (g * r) + (β - μ * (g * r)) = ((h - μ) * r) * g + β := by
  obtain ⟨a, rfl⟩ := hh; obtain ⟨b, rfl⟩ := hμ; obtain ⟨c, rfl⟩ := hr; obtain ⟨d, rfl⟩ := hg; obtain ⟨e, rfl⟩ := hβ
  rw [← EReal.coe_mul, ← EReal.coe_mul, ← EReal.coe_mul, ← EReal.coe_sub, ← EReal.coe_add, ← EReal.coe_sub, ← EReal.coe_mul,
    ← EReal.coe_mul, ← EReal.coe_add]
  exact congrArg _ (by ring)

/-- Four messages summed and then the four biases' sum added, against each message added to its own bias first. -/
theorem regroup (a0 a1 a2 a3 b0 b1 b2 b3 : EReal) :
    (((a0 + a1) + a2) + a3) + (b0 + b1 + b2 + b3) = (((a0 + b0) + (a1 + b1)) + (a2 + b2)) + (a3 + b3) := by
  ac_rfl

end Cert.Laws
-- ==== Proof.LayerEq.lean ====
/-
  One layer of the two programs computes the same array.

  The kernel program multiplies the node features by the four relations' weight matrices laid side by side,
  aggregates each column group over its relation's edges, and then adds the four aggregations and the summed
  biases and cuts off at zero. The reference multiplies by each relation's matrix, aggregates, adds that relation's
  bias, and sums the four results before the cut-off. The two agree entry by entry: the product against the
  side-by-side table restricted to a column group is the product against that relation's matrix, and the two
  orders of adding four aggregations and four biases give the same sum.
-/
import proofs.«115534_j8151847928363_1_alg».proof.Proof.KiStages
import proofs.«115534_j8151847928363_1_alg».proof.Proof.KiOut0
import proofs.«115534_j8151847928363_1_alg».proof.Proof.KiOut1
import proofs.«115534_j8151847928363_1_alg».proof.Proof.RefReadDefs
import proofs.«115534_j8151847928363_1_alg».proof.Proof.RefAggOf
import proofs.«115534_j8151847928363_1_alg».proof.Proof.LibFiniteOps
import proofs.«115534_j8151847928363_1_alg».proof.Proof.BridgeLaws
import Idealize.ShloMosaic.Lib.ValueIdx
import Idealize.ShloMosaic.Lib.ValueLayout
import Idealize.ShloMosaic.Lib.Pipeline.Value
import Idealize.ShloMosaic.PureOps.Ideal.Laws

namespace Cert.Bridge

open Idealize.ShloMosaic Idealize.ShloMosaic.ValueIdx
open Cert.ReferenceIdeal Cert.ReferenceIdeal.Gen Cert.ReferenceIdeal.RefRead
open Cert.KernelIdeal.Out Cert.KernelIdeal.Read
open scoped BigOperators

/-! ### The product read at an entry -/

/-- A 50000 x 128 by 128 x 128 product at (n, j): the sum over k of x(n, k) w(k, j). -/
theorem dot_apply (x : FVec Ideal S50000x128 .f32) (w : FVec Ideal S128x128 .f32) (n : Fin 50000) (j : Fin 128) :
    Host.dotGeneral dot_S50000x128_S128x128_S50000x128_1_0_0_1_n_n none x w (ix2 n j)
      = ∑ k : Fin 128, x (ix2 n k) * w (ix2 k j) := by
  have hr : dot_S50000x128_S128x128_S50000x128_1_0_0_1_n_n.contr.rank = 1 := rfl
  have hs : dot_S50000x128_S128x128_S50000x128_1_0_0_1_n_n.contr.size ⟨0, by omega⟩ = 128 := rfl
  refine (Ideal.dotGeneral_apply dot_S50000x128_S128x128_S50000x128_1_0_0_1_n_n none .single x w (ix2 n j)).trans ?_
  rw [← Equiv.sum_comp (contrEquiv1 dot_S50000x128_S128x128_S50000x128_1_0_0_1_n_n 128 hr hs).symm]
  refine Finset.sum_congr rfl fun k _ => ?_
  have hk := contrEquiv1_symm_val dot_S50000x128_S128x128_S50000x128_1_0_0_1_n_n 128 hr hs k
  congr 1
  · congr 1; funext a; apply Fin.ext
    match a with
    | ⟨0, _⟩ => rfl
    | ⟨1, _⟩ => exact (DotDims.lhsIdx_val_of_single _ (cl := (1 : Fin 2)) rfl _ _).trans hk
  · congr 1; funext a; apply Fin.ext
    match a with
    | ⟨0, _⟩ => exact (DotDims.rhsIdx_val_of_single _ (cr := (0 : Fin 2)) rfl _ _).trans hk
    | ⟨1, _⟩ => rfl

/-! ### The weight tables read at an entry -/

/-- One block of a stack of matrices, the unit axis dropped, at (k, j): the stack at (o, k, j). -/
theorem sliceCast3_apply {m a b : Nat} (o : Nat) (ho : o < m) (X : (⟨3, ![m, a, b]⟩ : Shape).Idx → EReal)
    (hs : (⟨3, ![m, a, b]⟩ : Shape).Slices ![o, 0, 0] ⟨3, ![1, a, b]⟩)
    (hc : (⟨3, ![1, a, b]⟩ : Shape).ShapeCasts ⟨2, ![a, b]⟩) (k : Fin a) (j : Fin b) :
    shapeCast ⟨2, ![a, b]⟩ (extractStridedSlice ⟨3, ![1, a, b]⟩ ![o, 0, 0] X hs) hc (ix2 k j)
      = X (ix3 (⟨o, ho⟩ : Fin m) k j) :=
  (shapeCast_1ab_ab_apply _ hc k j).trans
    (extractStridedSlice_apply _ X hs _ _ fun ax => by
      match ax with
      | ⟨0, _⟩ => rfl
      | ⟨1, _⟩ => exact (Nat.zero_add _).symm
      | ⟨2, _⟩ => exact (Nat.zero_add _).symm)

/-- One row of a matrix, the unit axis dropped, at j: the matrix at (o, j). -/
theorem sliceCast2_apply {m a : Nat} (o : Nat) (ho : o < m) (X : (⟨2, ![m, a]⟩ : Shape).Idx → EReal)
    (hs : (⟨2, ![m, a]⟩ : Shape).Slices ![o, 0] ⟨2, ![1, a]⟩)
    (hc : (⟨2, ![1, a]⟩ : Shape).ShapeCasts ⟨1, ![a]⟩) (j : Fin a) :
    shapeCast ⟨1, ![a]⟩ (extractStridedSlice ⟨2, ![1, a]⟩ ![o, 0] X hs) hc (ix1 j)
      = X (ix2 (⟨o, ho⟩ : Fin m) j) :=
  (shapeCast_1a_a_apply _ hc j).trans
    (extractStridedSlice_apply _ X hs _ _ fun ax => by
      match ax with
      | ⟨0, _⟩ => rfl
      | ⟨1, _⟩ => exact (Nat.zero_add _).symm)

/-- Relation r's weight matrix at (k, j) is the weight stack at (r, k, j). -/
theorem wRel_apply (W : FVec Ideal S4x128x128 .f32) (r : Fin 4) (k j : Fin 128) :
    wRel (F := Ideal) W r (ix2 k j) = W (ix3 r k j) := by
  match r with
  | ⟨0, _⟩ => exact sliceCast3_apply 0 (by omega) W _ _ k j
  | ⟨1, _⟩ => exact sliceCast3_apply 1 (by omega) W _ _ k j
  | ⟨2, _⟩ => exact sliceCast3_apply 2 (by omega) W _ _ k j
  | ⟨3, _⟩ => exact sliceCast3_apply 3 (by omega) W _ _ k j
  | ⟨n + 4, h⟩ => exact absurd h (by omega)

/-- Relation r's bias row at j is the bias table at (r, j). -/
theorem bRel_apply (b : FVec Ideal S4x128 .f32) (r : Fin 4) (j : Fin 128) :
    bRel (F := Ideal) b r (ix1 j) = b (ix2 r j) := by
  match r with
  | ⟨0, _⟩ => exact sliceCast2_apply 0 (by omega) b _ _ j
  | ⟨1, _⟩ => exact sliceCast2_apply 1 (by omega) b _ _ j
  | ⟨2, _⟩ => exact sliceCast2_apply 2 (by omega) b _ _ j
  | ⟨3, _⟩ => exact sliceCast2_apply 3 (by omega) b _ _ j
  | ⟨n + 4, h⟩ => exact absurd h (by omega)

/-- The side-by-side weight table at (k, 128 r + j) is the weight stack at (r, k, j). -/
theorem wresh_apply (W : FVec Ideal S4x128x128 .f32) (r : Fin 4) (k j : Fin 128) (q : Fin 512)
    (hq : q.val = 128 * r.val + j.val) :
    wresh (F := Ideal) W (ix2 k q) = W (ix3 r k j) := by
  unfold wresh
  refine (shapeCast_apply _ _ (ix2 k q) (ix3 k r j) ?_).trans ?_
  · rw [Shape.rowMajor_val_three, Shape.rowMajor_val_two]
    show (k.val * 4 + r.val) * 128 + j.val = k.val * 512 + q.val
    omega
  · refine transpose_apply _ W _ (ix3 k r j) (ix3 r k j) fun bx => ?_
    match bx with
    | ⟨0, _⟩ => rfl
    | ⟨1, _⟩ => rfl
    | ⟨2, _⟩ => rfl

/-! ### A column group of the product against the side-by-side table -/

/-- The columns 128 r … 128 r + 127 of the product against the side-by-side table are the product against
    relation r's matrix. -/
theorem group_eq (o : Nat) (r : Fin 4) (ho : o = 128 * r.val) (hs : Cert.KernelIdeal.S50000x512.Slices ![0, o] S50000x128)
    (x : FVec Ideal S50000x128 .f32) (W : FVec Ideal S4x128x128 .f32) :
    extractStridedSlice S50000x128 ![0, o] (G0 x (wresh (F := Ideal) W)) hs
      = Host.dotGeneral dot_S50000x128_S128x128_S50000x128_1_0_0_1_n_n none x (wRel (F := Ideal) W r) := by
  funext i
  obtain ⟨n, j, rfl⟩ : ∃ n j, i = ix2 n j := ⟨i 0, i 1, eq_ix2 i⟩
  refine (slice2_axis1_eq o _ hs n j).trans ?_
  rw [dot_apply]
  show ∑ k : Fin 128, x (ix2 n k) * wresh (F := Ideal) W (ix2 k _) = _
  refine Finset.sum_congr rfl fun k _ => ?_
  rw [wresh_apply W r k j _ (by show o + j.val = 128 * r.val + j.val; omega), wRel_apply]

theorem colGroup0_eq (x : FVec Ideal S50000x128 .f32) (W : FVec Ideal S4x128x128 .f32) :
    colGroup0 (G0 x (wresh (F := Ideal) W))
      = Host.dotGeneral dot_S50000x128_S128x128_S50000x128_1_0_0_1_n_n none x (wRel (F := Ideal) W 0) :=
  by unfold colGroup0; exact group_eq 0 0 rfl _ x W

theorem colGroup1_eq (x : FVec Ideal S50000x128 .f32) (W : FVec Ideal S4x128x128 .f32) :
    colGroup1 (G0 x (wresh (F := Ideal) W))
      = Host.dotGeneral dot_S50000x128_S128x128_S50000x128_1_0_0_1_n_n none x (wRel (F := Ideal) W 1) :=
  by unfold colGroup1; exact group_eq 128 1 rfl _ x W

theorem colGroup2_eq (x : FVec Ideal S50000x128 .f32) (W : FVec Ideal S4x128x128 .f32) :
    colGroup2 (G0 x (wresh (F := Ideal) W))
      = Host.dotGeneral dot_S50000x128_S128x128_S50000x128_1_0_0_1_n_n none x (wRel (F := Ideal) W 2) :=
  by unfold colGroup2; exact group_eq 256 2 rfl _ x W

theorem colGroup3_eq (x : FVec Ideal S50000x128 .f32) (W : FVec Ideal S4x128x128 .f32) :
    colGroup3 (G0 x (wresh (F := Ideal) W))
      = Host.dotGeneral dot_S50000x128_S128x128_S50000x128_1_0_0_1_n_n none x (wRel (F := Ideal) W 3) :=
  by unfold colGroup3; exact group_eq 384 3 rfl _ x W

/-! ### Four arrays side by side, read at an entry -/

/-- Four 50000 x 128 arrays side by side, at (n, 128 r + j): the r-th array at (n, j). -/
theorem concat4_apply (A : Fin 4 → (S50000x128.Idx → EReal))
    (h : Shape.Concatenates [S50000x128, S50000x128, S50000x128, S50000x128] Cert.KernelIdeal.S50000x512 1)
    (r : Fin 4) (n : Fin 50000) (j : Fin 128) (q : Fin 512) (hq : q.val = 128 * r.val + j.val) :
    concatenate Cert.KernelIdeal.S50000x512 1 [⟨S50000x128, A 0⟩, ⟨S50000x128, A 1⟩, ⟨S50000x128, A 2⟩, ⟨S50000x128, A 3⟩] h (ix2 n q)
      = A r (ix2 n j) := by
  have hr : S50000x128.rank = Cert.KernelIdeal.S50000x512.rank := rfl
  exact concatenate_ofFn_apply (t := Cert.KernelIdeal.S50000x512) (s₁ := S50000x128) 1 A h hr 128 rfl (ix2 n q) r
    (by show q.val / 128 = r.val; omega) (ix2 n j) (by show j.val = q.val % 128; omega)
    (fun bx hb => by
      match bx with
      | ⟨0, _⟩ => rfl
      | ⟨1, _⟩ => exact absurd rfl hb)

/-! ### Rows repeated down the nodes, and the summed biases -/

/-- A 128-vector as a 1 x 128 row, at (0, j). -/
theorem row_apply (hb : S128.BroadcastsInDim S1x128 (![1] : Fin 1 → Fin S1x128.rank)) (v : S128.Idx → EReal)
    (u : Fin 1) (j : Fin 128) :
    broadcastInDim S1x128 ![1] hb v (ix2 u j) = v (ix1 j) :=
  broadcastInDim_apply _ hb v _ _ fun ax => by
    match ax with
    | ⟨0, _⟩ => rfl

/-- A 1 x 128 row repeated down 50000 nodes, at (n, j). -/
theorem rows_apply (hb : S1x128.BroadcastsInDim S50000x128 (![0, 1] : Fin 2 → Fin S50000x128.rank))
    (v : S1x128.Idx → EReal) (n : Fin 50000) (j : Fin 128) :
    broadcastInDim S50000x128 ![0, 1] hb v (ix2 n j) = v (ix2 (0 : Fin 1) j) :=
  broadcastInDim_apply _ hb v _ _ fun ax => by
    match ax with
    | ⟨0, _⟩ => rfl
    | ⟨1, _⟩ => rfl

theorem rowBcast_apply (v : FVec Ideal S128 .f32) (n : Fin 50000) (j : Fin 128) :
    rowBcast (F := Ideal) v (ix2 n j) = v (ix1 j) := by
  unfold rowBcast
  rw [rows_apply, row_apply]

/-- The four relations' biases summed from zero, at column j. -/
theorem biasRow_apply (b : FVec Ideal S4x128 .f32) (j : Fin 128) :
    biasRow (F := Ideal) b (ix2 (0 : Fin 1) j)
      = b (ix2 (0 : Fin 4) j) + b (ix2 (1 : Fin 4) j) + b (ix2 (2 : Fin 4) j) + b (ix2 (3 : Fin 4) j) := by
  have hR : S4x128.Reduces [0] S128 := by decide
  unfold biasRow rowOf
  rw [row_apply]
  show Ideal.hostReduceAdd _ b (Ideal.ofBits .f32 0x00000000#32) (ix1 j) = _
  rw [Ideal.hostReduceAdd_single _ hR, Ideal.ofBits_zero_f32, zero_add]
  show ∑ k : Fin 4, b (hR.lift (ix1 j) k) = _
  rw [Fin.sum_univ_four]
  have hl : ∀ k : Fin 4, hR.lift (ix1 j) k = ix2 k j := fun k => by
    funext ax; apply Fin.ext
    match ax with
    | ⟨0, _⟩ => rfl
    | ⟨1, _⟩ => rfl
  rw [hl, hl, hl, hl]

/-! ### The layer -/

/-- The kernel program's layer (the side-by-side product, the four aggregations side by side, their sum with the
    summed biases, the cut-off at zero) is the reference's layer (each relation's product, aggregation and bias,
    the four summed, the cut-off at zero). -/
theorem layer_eq (ei : IVec S4x2x500000 32) (x : FVec Ideal S50000x128 .f32) (W : FVec Ideal S4x128x128 .f32)
    (b : FVec Ideal S4x128 .f32) :
    G1 (aggAll (F := Ideal) (eiRel ei 0) (eiRel ei 1) (eiRel ei 2) (eiRel ei 3) (G0 x (wresh (F := Ideal) W)))
        (biasRow (F := Ideal) b)
      = relu (F := Ideal) (hetero (F := Ideal) ei x W b) := by
  funext i
  obtain ⟨n, j, rfl⟩ : ∃ n j, i = ix2 n j := ⟨i 0, i 1, eq_ix2 i⟩
  -- the four aggregations, as the reference writes them
  set D : Fin 4 → FVec Ideal S50000x128 .f32 := fun r =>
    agg (F := Ideal) ei r (Host.dotGeneral dot_S50000x128_S128x128_S50000x128_1_0_0_1_n_n none x (wRel (F := Ideal) W r))
    with hD
  have hA : ∀ (r : Fin 4) (q : Fin 512), q.val = 128 * r.val + j.val →
      aggAll (F := Ideal) (eiRel ei 0) (eiRel ei 1) (eiRel ei 2) (eiRel ei 3) (G0 x (wresh (F := Ideal) W)) (ix2 n q)
        = D r (ix2 n j) := by
    intro r q hq
    unfold aggAll
    rw [colGroup0_eq, colGroup1_eq, colGroup2_eq, colGroup3_eq]
    exact concat4_apply D _ r n j q hq
  show max ((((aggAll (F := Ideal) _ _ _ _ _ (ix2 n _) + aggAll (F := Ideal) _ _ _ _ _ (ix2 n _))
      + aggAll (F := Ideal) _ _ _ _ _ (ix2 n _)) + aggAll (F := Ideal) _ _ _ _ _ (ix2 n _))
      + biasRow (F := Ideal) b (ix2 (0 : Fin 1) j)) 0
    = max ((((D 0 (ix2 n j) + rowBcast (F := Ideal) (bRel (F := Ideal) b 0) (ix2 n j))
        + (D 1 (ix2 n j) + rowBcast (F := Ideal) (bRel (F := Ideal) b 1) (ix2 n j)))
        + (D 2 (ix2 n j) + rowBcast (F := Ideal) (bRel (F := Ideal) b 2) (ix2 n j)))
        + (D 3 (ix2 n j) + rowBcast (F := Ideal) (bRel (F := Ideal) b 3) (ix2 n j)))
      (Ideal.ofBits .f32 0x00000000#32)
  rw [hA 0 _ (by show j.val = 128 * 0 + j.val; omega), hA 1 _ (by show 128 + j.val = 128 * 1 + j.val; omega),
    hA 2 _ (by show 256 + j.val = 128 * 2 + j.val; omega), hA 3 _ (by show 384 + j.val = 128 * 3 + j.val; omega),
    biasRow_apply, rowBcast_apply, rowBcast_apply, rowBcast_apply, rowBcast_apply, bRel_apply, bRel_apply, bRel_apply,
    bRel_apply, Ideal.ofBits_zero_f32]
  exact congrArg (fun s => max s 0) (Cert.Laws.regroup _ _ _ _ _ _ _ _)

end Cert.Bridge
-- ==== Proof.KiOut4.lean ====
/-
  The last stage, read as one function of the whole arrays: after the last row block the result array holds, at row n
  and column j, the sum over q of max(sum over k of (h(n, k) s(0, k) + t(0, k)) w1(k, q) + b1(0, q), 0) w2(q, j), plus
  b2(0, j).
-/
import proofs.«115534_j8151847928363_1_alg».proof.Proof.KiReg4
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Out

open Cert.KernelIdeal Cert.KernelIdeal.Gen Cert.KernelIdeal.Frm
open Idealize.ShloMosaic Idealize.ShloMosaic.TcCoe Idealize.SL.Sem
open Idealize.ShloMosaic.ValueIdx
open Idealize.ShloMosaic.Pipeline (Dat)
open scoped BigOperators

/-- The hidden unit q of row n: max(sum over k of (h(n, k) s(0, k) + t(0, k)) w1(k, q) + b1(0, q), 0). -/
def hid4 (h : S50000x128.Idx → EReal) (sc sh : S1x128.Idx → EReal) (w1 : S128x128.Idx → EReal) (b1 : S1x128.Idx → EReal)
    (n : Fin 50000) (q : Fin 128) : EReal :=
  max ((∑ k : Fin 128, (h (ix2 n k) * sc (ix2 (0 : Fin 1) k) + sh (ix2 (0 : Fin 1) k)) * w1 (ix2 k q)) + b1 (ix2 (0 : Fin 1) q)) 0

/-- Row n, column j of the result: the sum over q of the hidden unit q of row n times w2(q, j), plus b2(0, j). -/
def row4 (h : S50000x128.Idx → EReal) (sc sh : S1x128.Idx → EReal) (w1 : S128x128.Idx → EReal) (b1 : S1x128.Idx → EReal)
    (w2 : S128x128.Idx → EReal) (b2 : S1x128.Idx → EReal) (n : Fin 50000) (j : Fin 128) : EReal :=
  (∑ q : Fin 128, hid4 h sc sh w1 b1 n q * w2 (ix2 q j)) + b2 (ix2 (0 : Fin 1) j)

/-- The whole result array as a function of the seven operand arrays. -/
def G4 (h : S50000x128.Idx → EReal) (sc sh : S1x128.Idx → EReal) (w1 : S128x128.Idx → EReal) (b1 : S1x128.Idx → EReal)
    (w2 : S128x128.Idx → EReal) (b2 : S1x128.Idx → EReal) : S50000x128.Idx → EReal :=
  fun i => row4 h sc sh w1 b1 w2 b2 (i 0) (i 1)

/-- A 1 x 128 row spread down 2000 rows reads, at (p, j), the row at (0, j). -/
theorem bcast_row4 (v : Vec Ideal S1x128 .f32) (p : Fin 2000) (j : Fin 128) :
    broadcastTo S2000x128 v broadcasts_S1x128_S2000x128 (ix2 p j) = v (ix2 (0 : Fin 1) j) :=
  broadcastTo_apply v _ (ix2 p j) (ix2 (0 : Fin 1) j) (fun a => by
    match a with
    | ⟨0, _⟩ => rfl
    | ⟨1, _⟩ => rfl)

/-- A 2000 x 128 by 128 x 128 product accumulated into zero, at (p, q): the sum over k of l(p, k) r(k, q). -/
theorem matmul4_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  have hr : dot_S2000x128_S128x128_S2000x128_1_0_0_1_n_n.contr.rank = 1 := rfl
  have hs : dot_S2000x128_S128x128_S2000x128_1_0_0_1_n_n.contr.size ⟨0, by omega⟩ = 128 := rfl
  refine (Ideal.matmul_constant_zero_apply dot_S2000x128_S128x128_S2000x128_1_0_0_1_n_n none l r (ix2 p q)).trans ?_
  rw [← Equiv.sum_comp (contrEquiv1 dot_S2000x128_S128x128_S2000x128_1_0_0_1_n_n 128 hr hs).symm]
  refine Finset.sum_congr rfl fun k _ => ?_
  have hk := contrEquiv1_symm_val dot_S2000x128_S128x128_S2000x128_1_0_0_1_n_n 128 hr hs k
  congr 1
  · congr 1; funext a; apply Fin.ext
    match a with
    | ⟨0, _⟩ => rfl
    | ⟨1, _⟩ => exact (DotDims.lhsIdx_val_of_single _ (cl := (1 : Fin 2)) rfl _ _).trans hk
  · congr 1; funext a; apply Fin.ext
    match a with
    | ⟨0, _⟩ => exact (DotDims.rhsIdx_val_of_single _ (cr := (0 : Fin 2)) rfl _ _).trans hk
    | ⟨1, _⟩ => rfl

/-- The body's value at row p, column j of a block. -/
theorem pay4_apply (v0 : Vec Ideal S2000x128 .f32) (v2 v6 : Vec Ideal S1x128 .f32) (v11 : Vec Ideal S128x128 .f32) (v14 : Vec Ideal S1x128 .f32)
    (v21 : Vec Ideal S128x128 .f32) (v25 : Vec Ideal S1x128 .f32) (p : Fin 2000) (j : Fin 128) :
    k4_pay1 v0 v2 v6 v11 v14 v21 v25 (ix2 p j)
      = (∑ q : Fin 128, max ((∑ k : Fin 128, (v0 (ix2 p k) * v2 (ix2 (0 : Fin 1) k) + v6 (ix2 (0 : Fin 1) k)) * v11 (ix2 k q)) + v14 (ix2 (0 : Fin 1) q)) 0
          * v21 (ix2 q j)) + v25 (ix2 (0 : Fin 1) j) := by
  unfold k4_pay1
  simp only [shapeCast_self]
  rw [addf_apply, bcast_row4, matmul4_apply]
  congr 1
  refine Finset.sum_congr rfl fun q _ => ?_
  rw [truncf_apply, truncf_apply, maximumf_apply, addf_apply, bcast_row4, matmul4_apply, broadcast_apply]
  congr 1
  congr 1
  · congr 1
    refine Finset.sum_congr rfl fun k _ => ?_
    rw [truncf_apply, truncf_apply, addf_apply, mulf_apply, bcast_row4, bcast_row4]
  · show Ideal.ofBits .f32 0x00000000#32 = 0
    exact Ideal.ofBits_zero_f32

theorem zero_offsets4 : (![0, 0] : Fin 2 → Nat) = fun _ => 0 := funext fun a => by fin_cases a <;> rfl

/-- The result block at row p and column j, from the operand blocks. -/
theorem res4_apply (x0 : Vec Ideal S2000x128 .f32) (x1 x2 : Vec Ideal S1x128 .f32) (x3 : Vec Ideal S128x128 .f32) (x4 : Vec Ideal S1x128 .f32)
    (x5 : Vec Ideal S128x128 .f32) (x6 : Vec Ideal S1x128 .f32) (p : Fin 2000) (j : Fin 128) :
    res4 x0 x1 x2 x3 x4 x5 x6 (ix2 p j)
      = (∑ q : Fin 128, max ((∑ k : Fin 128, (x0 (ix2 p k) * x1 (ix2 (0 : Fin 1) k) + x2 (ix2 (0 : Fin 1) k)) * x3 (ix2 k q)) + x4 (ix2 (0 : Fin 1) q)) 0
          * x5 (ix2 q j)) + x6 (ix2 (0 : Fin 1) j) := by
  unfold res4
  rw [View.canon_unit_zero zero_offsets4, View.ld_unit_zero (S := S2000x128) zero_offsets4, View.ld_unit_zero (S := S1x128) zero_offsets4,
    View.ld_unit_zero (S := S1x128) zero_offsets4, View.ld_unit_zero (S := S128x128) zero_offsets4, View.ld_unit_zero (S := S1x128) zero_offsets4,
    View.ld_unit_zero (S := S128x128) zero_offsets4, View.ld_unit_zero (S := S1x128) zero_offsets4, pay4_apply]

/-- The result block at row p and column j when the operand blocks are rows of, or all of, given arrays: row n, column j of
    `G4` of those arrays, n the array row that row p of the first block is. -/
theorem res4_row (x0 : Vec Ideal S2000x128 .f32) (x1 x2 : Vec Ideal S1x128 .f32) (x3 : Vec Ideal S128x128 .f32) (x4 : Vec Ideal S1x128 .f32)
    (x5 : Vec Ideal S128x128 .f32) (x6 : Vec Ideal S1x128 .f32)
    (h : S50000x128.Idx → EReal) (sc sh : S1x128.Idx → EReal) (w1 : S128x128.Idx → EReal) (b1 : S1x128.Idx → EReal)
    (w2 : S128x128.Idx → EReal) (b2 : S1x128.Idx → EReal) (p : Fin 2000) (j : Fin 128) (n : Fin 50000)
    (h0 : ∀ k : Fin 128, x0 (ix2 p k) = h (ix2 n k)) (h1 : ∀ k : Fin 128, x1 (ix2 (0 : Fin 1) k) = sc (ix2 (0 : Fin 1) k))
    (h2 : ∀ k : Fin 128, x2 (ix2 (0 : Fin 1) k) = sh (ix2 (0 : Fin 1) k)) (h3 : ∀ k q : Fin 128, x3 (ix2 k q) = w1 (ix2 k q))
    (h4 : ∀ q : Fin 128, x4 (ix2 (0 : Fin 1) q) = b1 (ix2 (0 : Fin 1) q)) (h5 : ∀ q j : Fin 128, x5 (ix2 q j) = w2 (ix2 q j))
    (h6 : ∀ j : Fin 128, x6 (ix2 (0 : Fin 1) j) = b2 (ix2 (0 : Fin 1) j)) :
    res4 x0 x1 x2 x3 x4 x5 x6 (ix2 p j) = row4 h sc sh w1 b1 w2 b2 n j := by
  rw [res4_apply]
  unfold row4 hid4
  refine congrArg₂ (· + ·) (Finset.sum_congr rfl fun q _ => ?_) (h6 j)
  refine congrArg₂ (· * ·) (congrArg (max · 0) (congrArg₂ (· + ·) (Finset.sum_congr rfl fun k _ => ?_) (h4 q))) (h5 q j)
  rw [h0 k, h1 k, h2 k, h3 k q]

variable (V : (c : Dev nD) → (b : Ref sig .tc) → Buf (Elt Ideal) ((c : Thread nD τ).loc b))

/-- The block indices at row block t of the row-blocked operand and of the result: (t, 0). -/
theorem idx4_rows : ∀ t : Fin cfg4.N, win4_0.index t (0 : Fin 2) = t.val ∧ win4_0.index t (1 : Fin 2) = 0
    ∧ win4_7.index t (0 : Fin 2) = t.val ∧ win4_7.index t (1 : Fin 2) = 0 :=
  (by decide +kernel : ∀ t : Fin grid4.N, _)
/-- Operand 1's block index is (0, 0) at every row block. -/
theorem idx4_1 : ∀ t : Fin cfg4.N, win4_1.index t (0 : Fin 2) = 0 ∧ win4_1.index t (1 : Fin 2) = 0 :=
  (by decide +kernel : ∀ t : Fin grid4.N, _)
/-- Operand 2's block index is (0, 0) at every row block. -/
theorem idx4_2 : ∀ t : Fin cfg4.N, win4_2.index t (0 : Fin 2) = 0 ∧ win4_2.index t (1 : Fin 2) = 0 :=
  (by decide +kernel : ∀ t : Fin grid4.N, _)
/-- Operand 3's block index is (0, 0) at every row block. -/
theorem idx4_3 : ∀ t : Fin cfg4.N, win4_3.index t (0 : Fin 2) = 0 ∧ win4_3.index t (1 : Fin 2) = 0 :=
  (by decide +kernel : ∀ t : Fin grid4.N, _)
/-- Operand 4's block index is (0, 0) at every row block. -/
theorem idx4_4 : ∀ t : Fin cfg4.N, win4_4.index t (0 : Fin 2) = 0 ∧ win4_4.index t (1 : Fin 2) = 0 :=
  (by decide +kernel : ∀ t : Fin grid4.N, _)
/-- Operand 5's block index is (0, 0) at every row block. -/
theorem idx4_5 : ∀ t : Fin cfg4.N, win4_5.index t (0 : Fin 2) = 0 ∧ win4_5.index t (1 : Fin 2) = 0 :=
  (by decide +kernel : ∀ t : Fin grid4.N, _)
/-- Operand 6's block index is (0, 0) at every row block. -/
theorem idx4_6 : ∀ t : Fin cfg4.N, win4_6.index t (0 : Fin 2) = 0 ∧ win4_6.index t (1 : Fin 2) = 0 :=
  (by decide +kernel : ∀ t : Fin grid4.N, _)

/-- Row p of the first operand's block at row block t is row 2000 t + p of the array. -/
theorem blk4_0_apply (c : Dev nD) (t : Fin cfg4.N) (p : Fin 2000) (q : Fin 128) (n : Fin 50000) (hn : n.val = t.val * 2000 + p.val) :
    (blk4 V c 0 t : Vec Ideal S2000x128 .f32) (ix2 p q) = (V c (Pipeline.arrRef spec4 0) : S50000x128.Idx → EReal) (ix2 n q) := by
  obtain ⟨e0, e1, -⟩ := idx4_rows t
  unfold blk4
  rw [View.read_apply]
  show V c (Pipeline.arrRef spec4 0) _ = V c (Pipeline.arrRef spec4 0) _
  congr 1
  funext a
  apply Fin.ext
  match a with
  | ⟨0, _⟩ => show win4_0.index t 0 * 2000 + 1 * p.val = n.val; rw [e0, hn]; omega
  | ⟨1, _⟩ => show win4_0.index t 1 * 128 + 1 * q.val = q.val; rw [e1]; omega

/-- Operand 1's block is its whole 1 x 128 array at every row block. -/
theorem blk4_1_apply (c : Dev nD) (t : Fin cfg4.N) (q : Fin 128) :
    (blk4 V c 1 t : Vec Ideal S1x128 .f32) (ix2 (0 : Fin 1) q) = (V c (Pipeline.arrRef spec4 1) : S1x128.Idx → EReal) (ix2 (0 : Fin 1) q) := by
  obtain ⟨e0, e1⟩ := idx4_1 t
  unfold blk4
  rw [View.read_apply]
  show V c (Pipeline.arrRef spec4 1) _ = V c (Pipeline.arrRef spec4 1) _
  congr 1
  funext a
  apply Fin.ext
  match a with
  | ⟨0, _⟩ => show win4_1.index t 0 * 1 + 1 * 0 = 0; rw [e0]
  | ⟨1, _⟩ => show win4_1.index t 1 * 128 + 1 * q.val = q.val; rw [e1]; omega

/-- Operand 2's block is its whole 1 x 128 array at every row block. -/
theorem blk4_2_apply (c : Dev nD) (t : Fin cfg4.N) (q : Fin 128) :
    (blk4 V c 2 t : Vec Ideal S1x128 .f32) (ix2 (0 : Fin 1) q) = (V c (Pipeline.arrRef spec4 2) : S1x128.Idx → EReal) (ix2 (0 : Fin 1) q) := by
  obtain ⟨e0, e1⟩ := idx4_2 t
  unfold blk4
  rw [View.read_apply]
  show V c (Pipeline.arrRef spec4 2) _ = V c (Pipeline.arrRef spec4 2) _
  congr 1
  funext a
  apply Fin.ext
  match a with
  | ⟨0, _⟩ => show win4_2.index t 0 * 1 + 1 * 0 = 0; rw [e0]
  | ⟨1, _⟩ => show win4_2.index t 1 * 128 + 1 * q.val = q.val; rw [e1]; omega

/-- Operand 3's block is its whole 128 x 128 array at every row block. -/
theorem blk4_3_apply (c : Dev nD) (t : Fin cfg4.N) (k q : Fin 128) :
    (blk4 V c 3 t : Vec Ideal S128x128 .f32) (ix2 k q) = (V c (Pipeline.arrRef spec4 3) : S128x128.Idx → EReal) (ix2 k q) := by
  obtain ⟨e0, e1⟩ := idx4_3 t
  unfold blk4
  rw [View.read_apply]
  show V c (Pipeline.arrRef spec4 3) _ = V c (Pipeline.arrRef spec4 3) _
  congr 1
  funext a
  apply Fin.ext
  match a with
  | ⟨0, _⟩ => show win4_3.index t 0 * 128 + 1 * k.val = k.val; rw [e0]; omega
  | ⟨1, _⟩ => show win4_3.index t 1 * 128 + 1 * q.val = q.val; rw [e1]; omega

/-- Operand 4's block is its whole 1 x 128 array at every row block. -/
theorem blk4_4_apply (c : Dev nD) (t : Fin cfg4.N) (q : Fin 128) :
    (blk4 V c 4 t : Vec Ideal S1x128 .f32) (ix2 (0 : Fin 1) q) = (V c (Pipeline.arrRef spec4 4) : S1x128.Idx → EReal) (ix2 (0 : Fin 1) q) := by
  obtain ⟨e0, e1⟩ := idx4_4 t
  unfold blk4
  rw [View.read_apply]
  show V c (Pipeline.arrRef spec4 4) _ = V c (Pipeline.arrRef spec4 4) _
  congr 1
  funext a
  apply Fin.ext
  match a with
  | ⟨0, _⟩ => show win4_4.index t 0 * 1 + 1 * 0 = 0; rw [e0]
  | ⟨1, _⟩ => show win4_4.index t 1 * 128 + 1 * q.val = q.val; rw [e1]; omega

/-- Operand 5's block is its whole 128 x 128 array at every row block. -/
theorem blk4_5_apply (c : Dev nD) (t : Fin cfg4.N) (k q : Fin 128) :
    (blk4 V c 5 t : Vec Ideal S128x128 .f32) (ix2 k q) = (V c (Pipeline.arrRef spec4 5) : S128x128.Idx → EReal) (ix2 k q) := by
  obtain ⟨e0, e1⟩ := idx4_5 t
  unfold blk4
  rw [View.read_apply]
  show V c (Pipeline.arrRef spec4 5) _ = V c (Pipeline.arrRef spec4 5) _
  congr 1
  funext a
  apply Fin.ext
  match a with
  | ⟨0, _⟩ => show win4_5.index t 0 * 128 + 1 * k.val = k.val; rw [e0]; omega
  | ⟨1, _⟩ => show win4_5.index t 1 * 128 + 1 * q.val = q.val; rw [e1]; omega

/-- Operand 6's block is its whole 1 x 128 array at every row block. -/
theorem blk4_6_apply (c : Dev nD) (t : Fin cfg4.N) (q : Fin 128) :
    (blk4 V c 6 t : Vec Ideal S1x128 .f32) (ix2 (0 : Fin 1) q) = (V c (Pipeline.arrRef spec4 6) : S1x128.Idx → EReal) (ix2 (0 : Fin 1) q) := by
  obtain ⟨e0, e1⟩ := idx4_6 t
  unfold blk4
  rw [View.read_apply]
  show V c (Pipeline.arrRef spec4 6) _ = V c (Pipeline.arrRef spec4 6) _
  congr 1
  funext a
  apply Fin.ext
  match a with
  | ⟨0, _⟩ => show win4_6.index t 0 * 1 + 1 * 0 = 0; rw [e0]
  | ⟨1, _⟩ => show win4_6.index t 1 * 128 + 1 * q.val = q.val; rw [e1]; omega

/-- What row block t writes back, when the result buffer after the body is the body's value of blocks that are rows of, or all of,
    given arrays: block t of `G4` of those arrays. -/
theorem flushed4_core (c : Dev nD) (t : Fin cfg4.N)
    (x0 : Vec Ideal S2000x128 .f32) (x1 x2 : Vec Ideal S1x128 .f32) (x3 : Vec Ideal S128x128 .f32) (x4 : Vec Ideal S1x128 .f32)
    (x5 : Vec Ideal S128x128 .f32) (x6 : Vec Ideal S1x128 .f32)
    (h : S50000x128.Idx → EReal) (sc sh : S1x128.Idx → EReal) (w1 : S128x128.Idx → EReal) (b1 : S1x128.Idx → EReal)
    (w2 : S128x128.Idx → EReal) (b2 : S1x128.Idx → EReal)
    (hafter : (dat4 (F := Ideal) V c).after 7 t = res4 x0 x1 x2 x3 x4 x5 x6)
    (h0 : ∀ (p : Fin 2000) (k : Fin 128) (n : Fin 50000), n.val = t.val * 2000 + p.val → x0 (ix2 p k) = h (ix2 n k))
    (h1 : ∀ k : Fin 128, x1 (ix2 (0 : Fin 1) k) = sc (ix2 (0 : Fin 1) k))
    (h2 : ∀ k : Fin 128, x2 (ix2 (0 : Fin 1) k) = sh (ix2 (0 : Fin 1) k)) (h3 : ∀ k q : Fin 128, x3 (ix2 k q) = w1 (ix2 k q))
    (h4 : ∀ q : Fin 128, x4 (ix2 (0 : Fin 1) q) = b1 (ix2 (0 : Fin 1) q)) (h5 : ∀ q j : Fin 128, x5 (ix2 q j) = w2 (ix2 q j))
    (h6 : ∀ j : Fin 128, x6 (ix2 (0 : Fin 1) j) = b2 (ix2 (0 : Fin 1) j)) :
    (dat4 (F := Ideal) V c).flushed 7 t = ((cfg4.win 7).blk t).view.read (Elt Ideal) (G4 h sc sh w1 b1 w2 b2) := by
  show (cfg4.win 7).cut (grid4.coords t) ((dat4 V c).after 7 t) = _
  rw [hafter]
  obtain ⟨-, -, e4, e5⟩ := idx4_rows t
  have hN : cfg4.N = 25 := N_4
  have ht : t.val < 25 := hN ▸ t.isLt
  funext y
  obtain ⟨p, j, rfl⟩ : ∃ (p : Fin 2000) (j : Fin 128), y = ix2 p j := ⟨y 0, y 1, eq_ix2 y⟩
  have hn : t.val * 2000 + p.val < 50000 := by have := p.isLt; omega
  trans row4 h sc sh w1 b1 w2 b2 ⟨t.val * 2000 + p.val, hn⟩ j
  · show res4 x0 x1 x2 x3 x4 x5 x6 (ix2 p j) = _
    exact res4_row x0 x1 x2 x3 x4 x5 x6 h sc sh w1 b1 w2 b2 p j ⟨t.val * 2000 + p.val, hn⟩ (fun k => h0 p k ⟨_, hn⟩ rfl) h1 h2 h3 h4 h5 h6
  · have he : ((cfg4.win 7).blk t).view.emb (ix2 p j) = (ix2 (⟨t.val * 2000 + p.val, hn⟩ : Fin 50000) j : S50000x128.Idx) := by
      funext a; apply Fin.ext
      match a with
      | ⟨0, _⟩ => show win4_7.index t 0 * 2000 + 1 * p.val = t.val * 2000 + p.val; rw [e4]; omega
      | ⟨1, _⟩ => show win4_7.index t 1 * 128 + 1 * j.val = j.val; rw [e5]; omega
    rw [View.read_apply]
    exact (congrArg (G4 h sc sh w1 b1 w2 b2) he).symm

/-- What row block t writes back is block t of `G4` of the operand arrays at the region's entry. -/
theorem flushed4_eq (c : Dev nD) (t : Fin cfg4.N) :
    (dat4 (F := Ideal) V c).flushed 7 t
      = ((cfg4.win 7).blk t).view.read (Elt Ideal) (G4 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6))) :=
  flushed4_core V c t (blk4 V c 0 t) (blk4 V c 1 t) (blk4 V c 2 t) (blk4 V c 3 t) (blk4 V c 4 t) (blk4 V c 5 t) (blk4 V c 6 t)
    (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (after4_7 V c t)
    (blk4_0_apply V c t) (blk4_1_apply V c t) (blk4_2_apply V c t) (blk4_3_apply V c t) (blk4_4_apply V c t) (blk4_5_apply V c t)
    (blk4_6_apply V c t)

/-- Row n of the array lies in the block of row block n / 2000. -/
theorem cover4 (i : S50000x128.Idx) : ∃ t : Fin cfg4.N, (cfg4.win 7).flush t = true ∧ i ∈ ((cfg4.win 7).blk t).view.set := by
  have h0 : (i 0).val < 50000 := (i 0).isLt
  have h1 : (i 1).val < 128 := (i 1).isLt
  have hN : cfg4.N = 25 := N_4
  have hq : (i 0).val / 2000 < cfg4.N := by rw [hN]; omega
  obtain ⟨-, -, e4, e5⟩ := idx4_rows ⟨(i 0).val / 2000, hq⟩
  refine ⟨⟨(i 0).val / 2000, hq⟩, flush4_7 _, ?_⟩
  show i ∈ ((View.whole main_v274).slice (win4_7.rect ⟨(i 0).val / 2000, hq⟩)).set
  rw [View.set_slice_whole, Rect.mem_set_unit]
  intro a
  match a with
  | ⟨0, _⟩ =>
    show win4_7.index ⟨(i 0).val / 2000, hq⟩ 0 * 2000 ≤ (i 0).val ∧ (i 0).val < win4_7.index ⟨(i 0).val / 2000, hq⟩ 0 * 2000 + 2000
    rw [e4]; show (i 0).val / 2000 * 2000 ≤ (i 0).val ∧ (i 0).val < (i 0).val / 2000 * 2000 + 2000; omega
  | ⟨1, _⟩ =>
    show win4_7.index ⟨(i 0).val / 2000, hq⟩ 1 * 128 ≤ (i 1).val ∧ (i 1).val < win4_7.index ⟨(i 0).val / 2000, hq⟩ 1 * 128 + 128
    rw [e5]; omega

/-- The result array after the last row block is `G4` of the operand arrays at the region's entry. -/
theorem out4 (c : Dev nD) :
    (dat4 (F := Ideal) V c).arrAt 7 cfg4.N = G4 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) :=
  (dat4 (F := Ideal) V c).arrAt_eq_of_cover 7 (G4 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)))
    (fun t _ => flushed4_eq V c t) cover4

end Cert.KernelIdeal.Out

end
-- ==== Proof.PadRead.lean ====
/-
  The zero-padded operands of the output layer, read at an entry.

  A scatter whose body returns the update, with one index row whose single entry is zero, writes the whole
  update window at offset zero: the 128 x 2 weights land in the first two columns of a 128 x 128 table of zeros,
  and the 2 biases in the first two entries of 128 zeros. In general, where exactly one update index lands on an
  operand entry, a scatter with that body holds that update there.
-/
import proofs.«115534_j8151847928363_1_alg».proof.Proof.KiStages
import Idealize.ShloMosaic.Lib.ValueIdx
import Idealize.ShloMosaic.Lib.ValueLayout
import Idealize.ShloMosaic.Lib.Pipeline.Value

namespace Cert.Bridge

open Idealize.ShloMosaic Idealize.ShloMosaic.ValueIdx
open Cert.KernelIdeal Cert.KernelIdeal.Gen Cert.KernelIdeal.Read

/-! ### A scatter whose body returns the update -/

section SetScatter
variable {s si u : Shape} {w : Nat} {α : Type}

/-- One step of the scatter: the update at row-major position `n` replaces the entry it lands on. -/
def setStep (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

theorem scatter_set_eq_foldl (d : ScatterDims s si u) (x : s.Idx → α) (idx : IVec si w) (upd : u.Idx → α) :
    Host.scatter d (fun _ b => b) x idx upd = (List.finRange u.numel).foldl (setStep d idx upd) x := rfl

theorem setStep_some (d : ScatterDims s si u) (idx : IVec si w) (upd : u.Idx → α) (r : s.Idx → α) (n : Fin u.numel)
    (i : s.Idx) (h : d.resultIdx? (u.rowMajor.symm n) idx = some i) (i' : s.Idx) :
    setStep d idx upd r n i' = if i' = i then upd (u.rowMajor.symm n) else r i' := by
  unfold setStep; rw [h]

theorem setStep_none (d : ScatterDims s si u) (idx : IVec si w) (upd : u.Idx → α) (r : s.Idx → α) (n : Fin u.numel)
    (h : d.resultIdx? (u.rowMajor.symm n) idx = none) : setStep d idx upd r n = r := by
  unfold setStep; rw [h]

/-- Where exactly one update index lands on the entry `i`, the scatter holds that update at `i`. -/
theorem scatter_set_apply (d : ScatterDims s si u) (x : s.Idx → α) (idx : IVec si w) (upd : u.Idx → α) (i : s.Idx)
    (j0 : u.Idx) (h0 : d.resultIdx? j0 idx = some i) (huniq : ∀ j, d.resultIdx? j idx = some i → j = j0) :
    Host.scatter d (fun _ b => b) x idx upd i = upd j0 := by
  rw [scatter_set_eq_foldl]
  have key : ∀ (l : List (Fin u.numel)) (r : s.Idx → α), (u.rowMajor j0 ∈ l ∨ r i = upd j0) →
      l.foldl (setStep d idx upd) r i = upd j0 := by
    intro l
    induction l with
    | nil =>
      intro r h
      rcases h with h | h
      · exact absurd h (List.not_mem_nil)
      · exact h
    | cons n l ih =>
      intro r h
      rw [List.foldl_cons]
      apply ih
      by_cases hn : n = u.rowMajor j0
      · right
        have hs : d.resultIdx? (u.rowMajor.symm n) idx = some i := by rw [hn, Equiv.symm_apply_apply]; exact h0
        rw [setStep_some d idx upd r n i hs i, if_pos rfl, hn, Equiv.symm_apply_apply]
      · rcases h with h | h
        · left
          rcases List.mem_cons.1 h with e | e
          · exact absurd e.symm hn
          · exact e
        · right
          cases hres : d.resultIdx? (u.rowMajor.symm n) idx with
          | none => rw [setStep_none d idx upd r n hres]; exact h
          | some i' =>
            have hne : i ≠ i' := fun e => hn (by
              have := huniq _ (e ▸ hres)
              rw [← this, Equiv.apply_symm_apply])
            rw [setStep_some d idx upd r n i' hres i, if_neg hne]; exact h
  exact key _ _ (Or.inl (List.mem_finRange _))

end SetScatter

/-! ### The padded weights and biases -/

/-- The index row of the two paddings: one entry, the word zero. -/
abbrev zeroIdx : IVec S1 32 := broadcastInDim S1 ![] bcast_S_S1 (constantI S_ 32 0#32)

/-- Update entry (q, j) of the 128 x 2 weights lands on entry (q, j) of the table. -/
theorem padW_result (q : Fin 128) (j : Fin 2) :
    scatter_S128x128_S1_S128x2_01_n_1_0.resultIdx? (ix2 q j) zeroIdx = some (ix2 q (⟨j.val, by omega⟩ : Fin 128)) := by
  have h0 : scatter_S128x128_S1_S128x2_01_n_1_0.start (ix2 q j) zeroIdx (⟨0, by decide⟩ : Fin 2)
      + (scatter_S128x128_S1_S128x2_01_n_1_0.window (ix2 q j) (⟨0, by decide⟩ : Fin 2) : Int) = (q.val : Int) := by
    show (0 : Int) + ((q.val : Nat) : Int) = _
    exact Int.zero_add _
  have h1 : scatter_S128x128_S1_S128x2_01_n_1_0.start (ix2 q j) zeroIdx (⟨1, by decide⟩ : Fin 2)
      + (scatter_S128x128_S1_S128x2_01_n_1_0.window (ix2 q j) (⟨1, by decide⟩ : Fin 2) : Int) = (j.val : Int) := by
    show ((0#32 : BitVec 32).toInt) + ((j.val : Nat) : Int) = _
    simp
  have H : ∀ a : Fin S128x128.rank,
      0 ≤ scatter_S128x128_S1_S128x2_01_n_1_0.start (ix2 q j) zeroIdx a
          + (scatter_S128x128_S1_S128x2_01_n_1_0.window (ix2 q j) a : Int)
      ∧ scatter_S128x128_S1_S128x2_01_n_1_0.start (ix2 q j) zeroIdx a
          + (scatter_S128x128_S1_S128x2_01_n_1_0.window (ix2 q j) a : Int) < S128x128.size a := by
    intro a
    match a with
    | ⟨0, _⟩ => rw [h0]; exact ⟨by omega, by show (q.val : Int) < 128; omega⟩
    | ⟨1, _⟩ => rw [h1]; exact ⟨by omega, by show (j.val : Int) < 128; omega⟩
  unfold ScatterDims.resultIdx?
  rw [dif_pos H]
  congr 1
  funext a
  apply Fin.ext
  match a with
  | ⟨0, _⟩ => exact (congrArg Int.toNat h0).trans (Int.toNat_natCast _)
  | ⟨1, _⟩ => exact (congrArg Int.toNat h1).trans (Int.toNat_natCast _)

/-- The padded weights at (q, j) for a column j below 2: the weights at (q, j). -/
theorem padW_apply (l2W : FVec Ideal S128x2 .f32) (q : Fin 128) (j : Fin 2) (j' : Fin 128) (hj : j'.val = j.val) :
    padW (F := Ideal) l2W (ix2 q j') = l2W (ix2 q j) := by
  unfold padW
  refine scatter_set_apply _ _ zeroIdx l2W (ix2 q j') (ix2 q j) ?_ ?_
  · rw [padW_result]
    exact congrArg some (congrArg (ix2 q) (Fin.ext hj.symm))
  · intro jj hjj
    obtain ⟨a, c, rfl⟩ : ∃ (a : Fin 128) (c : Fin 2), jj = ix2 a c := ⟨jj 0, jj 1, eq_ix2 jj⟩
    rw [padW_result a c] at hjj
    have e := Option.some.inj hjj
    have e0 : a.val = q.val := congrArg Fin.val (congrFun e (0 : Fin 2))
    have e1 : c.val = j'.val := congrArg Fin.val (congrFun e (1 : Fin 2))
    exact congrArg₂ ix2 (Fin.ext e0) (Fin.ext (e1.trans hj))

/-- Update entry j of the 2 biases lands on entry j of the vector. -/
theorem padB_result (j : Fin 2) :
    scatter_S128_S1_S2_0_n_0_0.resultIdx? (ix1 j) zeroIdx = some (ix1 (⟨j.val, by omega⟩ : Fin 128)) := by
  have h0 : scatter_S128_S1_S2_0_n_0_0.start (ix1 j) zeroIdx (⟨0, by decide⟩ : Fin 1)
      + (scatter_S128_S1_S2_0_n_0_0.window (ix1 j) (⟨0, by decide⟩ : Fin 1) : Int) = (j.val : Int) := by
    show ((0#32 : BitVec 32).toInt) + ((j.val : Nat) : Int) = _
    simp
  have H : ∀ a : Fin S128.rank,
      0 ≤ scatter_S128_S1_S2_0_n_0_0.start (ix1 j) zeroIdx a + (scatter_S128_S1_S2_0_n_0_0.window (ix1 j) a : Int)
      ∧ scatter_S128_S1_S2_0_n_0_0.start (ix1 j) zeroIdx a + (scatter_S128_S1_S2_0_n_0_0.window (ix1 j) a : Int)
          < S128.size a := by
    intro a
    match a with
    | ⟨0, _⟩ => rw [h0]; exact ⟨by omega, by show (j.val : Int) < 128; omega⟩
  unfold ScatterDims.resultIdx?
  rw [dif_pos H]
  congr 1
  funext a
  apply Fin.ext
  match a with
  | ⟨0, _⟩ => exact (congrArg Int.toNat h0).trans (Int.toNat_natCast _)

/-- The padded biases at j below 2: the biases at j. -/
theorem padB_apply (l2b : FVec Ideal S2 .f32) (j : Fin 2) (j' : Fin 128) (hj : j'.val = j.val) :
    padB (F := Ideal) l2b (ix1 j') = l2b (ix1 j) := by
  unfold padB
  refine scatter_set_apply _ _ zeroIdx l2b (ix1 j') (ix1 j) ?_ ?_
  · rw [padB_result]
    exact congrArg some (congrArg ix1 (Fin.ext hj.symm))
  · intro jj hjj
    obtain ⟨c, rfl⟩ : ∃ c : Fin 2, jj = ix1 c := ⟨jj 0, eq_ix1 jj⟩
    rw [padB_result c] at hjj
    have e := Option.some.inj hjj
    have e0 : c.val = j'.val := congrArg Fin.val (congrFun e (0 : Fin 1))
    exact congrArg ix1 (Fin.ext (e0.trans hj))

/-- A 128-vector as a 1 x 128 row, at (0, k). -/
theorem rowOf_apply (v : FVec Ideal S128 .f32) (k : Fin 128) :
    rowOf (F := Ideal) v (ix2 (0 : Fin 1) k) = v (ix1 k) := by
  unfold rowOf
  exact broadcastInDim_apply _ _ v _ _ fun ax => by
    match ax with
    | ⟨0, _⟩ => rfl

end Cert.Bridge
-- ==== Proof.HeadEq.lean ====
/-
  The last stage of the two programs computes the same two columns.

  The kernel program scales the features by gamma times the reciprocal deviation, shifts them by beta minus the mean times
  that scale, and applies the two-layer head with the output layer padded by zero columns, keeping the first two columns.
  The reference centres at the mean, scales by the reciprocal deviation and by gamma, shifts by beta, and applies the head.
  For real entries the two normalisations are the same number, and the padded output layer agrees with the output layer
  on its first two columns.
-/
import proofs.«115534_j8151847928363_1_alg».proof.Proof.KiOut4
import proofs.«115534_j8151847928363_1_alg».proof.Proof.KiStages
import proofs.«115534_j8151847928363_1_alg».proof.Proof.RefReadDefs
import proofs.«115534_j8151847928363_1_alg».proof.Proof.RefReal
import proofs.«115534_j8151847928363_1_alg».proof.Proof.LibFiniteOps
import proofs.«115534_j8151847928363_1_alg».proof.Proof.BridgeLaws
import proofs.«115534_j8151847928363_1_alg».proof.Proof.LayerEq
import proofs.«115534_j8151847928363_1_alg».proof.Proof.PadRead
import Idealize.ShloMosaic.Lib.ValueIdx
import Idealize.ShloMosaic.Lib.ValueLayout
import Idealize.ShloMosaic.Lib.Pipeline.Value
import Idealize.ShloMosaic.PureOps.Ideal.Laws

namespace Cert.Bridge

open Idealize.ShloMosaic Idealize.ShloMosaic.ValueIdx
open Cert.ReferenceIdeal Cert.ReferenceIdeal.Gen Cert.ReferenceIdeal.RefRead
open Cert.KernelIdeal.Out Cert.KernelIdeal.Read
open Cert.FiniteOps (IsReal AllReal)
open scoped BigOperators

/-- A 50000 x 128 by 128 x 2 product at (n, j): the sum over q of x(n, q) w(q, j). -/
theorem dot2_apply (x : FVec Ideal S50000x128 .f32) (w : FVec Ideal S128x2 .f32) (n : Fin 50000) (j : Fin 2) :
    Host.dotGeneral dot_S50000x128_S128x2_S50000x2_1_0_0_1_n_n none x w (ix2 n j)
      = ∑ q : Fin 128, x (ix2 n q) * w (ix2 q j) := by
  have hr : dot_S50000x128_S128x2_S50000x2_1_0_0_1_n_n.contr.rank = 1 := rfl
  have hs : dot_S50000x128_S128x2_S50000x2_1_0_0_1_n_n.contr.size ⟨0, by omega⟩ = 128 := rfl
  refine (Ideal.dotGeneral_apply dot_S50000x128_S128x2_S50000x2_1_0_0_1_n_n none .single x w (ix2 n j)).trans ?_
  rw [← Equiv.sum_comp (contrEquiv1 dot_S50000x128_S128x2_S50000x2_1_0_0_1_n_n 128 hr hs).symm]
  refine Finset.sum_congr rfl fun k _ => ?_
  have hk := contrEquiv1_symm_val dot_S50000x128_S128x2_S50000x2_1_0_0_1_n_n 128 hr hs k
  congr 1
  · congr 1; funext a; apply Fin.ext
    match a with
    | ⟨0, _⟩ => rfl
    | ⟨1, _⟩ => exact (DotDims.lhsIdx_val_of_single _ (cl := (1 : Fin 2)) rfl _ _).trans hk
  · congr 1; funext a; apply Fin.ext
    match a with
    | ⟨0, _⟩ => exact (DotDims.rhsIdx_val_of_single _ (cr := (0 : Fin 2)) rfl _ _).trans hk
    | ⟨1, _⟩ => rfl

/-- The cut-off at an entry: the maximum with 0. -/
theorem relu_apply (x : FVec Ideal S50000x128 .f32) (n : Fin 50000) (q : Fin 128) :
    relu (F := Ideal) x (ix2 n q) = max (x (ix2 n q)) 0 := by
  unfold relu
  rw [maximumf_apply, RefReal.zeros_apply]

/-- A 2-vector as a row repeated down the 50000 nodes, at (n, j). -/
theorem row2_apply (hb : S2.BroadcastsInDim S1x2 (![1] : Fin 1 → Fin S1x2.rank))
    (hb' : S1x2.BroadcastsInDim S50000x2 (![0, 1] : Fin 2 → Fin S50000x2.rank)) (v : S2.Idx → EReal) (n : Fin 50000) (j : Fin 2) :
    broadcastInDim S50000x2 ![0, 1] hb' (broadcastInDim S1x2 ![1] hb v) (ix2 n j) = v (ix1 j) := by
  rw [broadcastInDim_apply _ hb' _ (ix2 n j) (ix2 (0 : Fin 1) j) fun ax => by
    match ax with
    | ⟨0, _⟩ => rfl
    | ⟨1, _⟩ => rfl]
  exact broadcastInDim_apply _ hb v _ _ fun ax => by
    match ax with
    | ⟨0, _⟩ => rfl

/-- The first two columns of a 50000 x 128 array, at (n, j). -/
theorem outCols_apply (o : FVec Ideal S50000x128 .f32) (n : Fin 50000) (j : Fin 2) (j' : Fin 128) (hj : j'.val = j.val) :
    outCols (F := Ideal) o (ix2 n j) = o (ix2 n j') := by
  unfold outCols
  exact extractStridedSlice_apply _ o _ (ix2 n j) (ix2 n j') fun a => by
    match a with
    | ⟨0, _⟩ => show n.val = 0 + n.val; omega
    | ⟨1, _⟩ => show j'.val = 0 + j.val; omega

/-- The normalised features at (n, k): centred at the mean, scaled by the reciprocal deviation and by gamma, shifted by beta. -/
theorem bn_apply (h : FVec Ideal S50000x128 .f32) (γ β : FVec Ideal S128 .f32) (n : Fin 50000) (k : Fin 128) :
    bn (F := Ideal) h γ β (ix2 n k)
      = ((h (ix2 n k) - bnMean (F := Ideal) h (ix1 k)) * bnInv (F := Ideal) h (ix1 k)) * γ (ix1 k) + β (ix1 k) := by
  unfold bn
  rw [addf_apply, mulf_apply, mulf_apply, subf_apply, rowBcast_apply, rowBcast_apply, rowBcast_apply, rowBcast_apply]

/-- The reference's head at (n, j). -/
theorem head_apply (z : FVec Ideal S50000x128 .f32) (l1W : FVec Ideal S128x128 .f32) (l1b : FVec Ideal S128 .f32)
    (l2W : FVec Ideal S128x2 .f32) (l2b : FVec Ideal S2 .f32) (n : Fin 50000) (j : Fin 2) :
    head (F := Ideal) z l1W l1b l2W l2b (ix2 n j)
      = (∑ q : Fin 128, max ((∑ k : Fin 128, z (ix2 n k) * l1W (ix2 k q)) + l1b (ix1 q)) 0 * l2W (ix2 q j)) + l2b (ix1 j) := by
  unfold head
  rw [addf_apply, row2_apply, dot2_apply]
  refine congrArg (· + l2b (ix1 j)) (Finset.sum_congr rfl fun q _ => ?_)
  rw [relu_apply, addf_apply, dot_apply, rowBcast_apply]

/-- The kernel program's last stage at (n, j'), over the padded output layer. -/
theorem stage_apply (h : FVec Ideal S50000x128 .f32) (γ β : FVec Ideal S128 .f32) (l1W : FVec Ideal S128x128 .f32)
    (l1b : FVec Ideal S128 .f32) (w2 : FVec Ideal S128x128 .f32) (b2 : FVec Ideal S128 .f32) (n : Fin 50000) (j' : Fin 128) :
    G4 h (rowOf (scaleOf h γ)) (rowOf (shiftOf h γ β)) l1W (rowOf l1b) w2 (rowOf b2) (ix2 n j')
      = (∑ q : Fin 128, max ((∑ k : Fin 128, (h (ix2 n k) * (γ (ix1 k) * bnInv (F := Ideal) h (ix1 k))
            + (β (ix1 k) - bnMean (F := Ideal) h (ix1 k) * (γ (ix1 k) * bnInv (F := Ideal) h (ix1 k)))) * l1W (ix2 k q)) + l1b (ix1 q)) 0
          * w2 (ix2 q j')) + b2 (ix1 j') := by
  show row4 h (rowOf (scaleOf h γ)) (rowOf (shiftOf h γ β)) l1W (rowOf l1b) w2 (rowOf b2) n j' = _
  unfold row4 hid4
  rw [rowOf_apply]
  refine congrArg (· + b2 (ix1 j')) (Finset.sum_congr rfl fun q _ => ?_)
  rw [rowOf_apply]
  refine congrArg (fun s => max (s + l1b (ix1 q)) 0 * w2 (ix2 q j')) (Finset.sum_congr rfl fun k _ => ?_)
  rw [rowOf_apply, rowOf_apply]
  rfl

/-- The two programs' last stages agree on the two output columns, for real features and real normalisation parameters. -/
theorem head_eq (h : FVec Ideal S50000x128 .f32) (γ β : FVec Ideal S128 .f32) (l1W : FVec Ideal S128x128 .f32)
    (l1b : FVec Ideal S128 .f32) (l2W : FVec Ideal S128x2 .f32) (l2b : FVec Ideal S2 .f32)
    (hh : AllReal h) (hγ : AllReal γ) (hβ : AllReal β) :
    outCols (G4 h (rowOf (scaleOf h γ)) (rowOf (shiftOf h γ β)) l1W (rowOf l1b) (padW l2W) (rowOf (padB l2b)))
      = head (bn h γ β) l1W l1b l2W l2b := by
  funext i
  obtain ⟨n, j, rfl⟩ : ∃ (n : Fin 50000) (j : Fin 2), i = ix2 n j := ⟨i 0, i 1, eq_ix2 i⟩
  have hj : j.val < 128 := by have := j.isLt; omega
  rw [outCols_apply _ n j ⟨j.val, hj⟩ rfl, stage_apply, head_apply, padB_apply l2b j ⟨j.val, hj⟩ rfl]
  refine congrArg (· + l2b (ix1 j)) (Finset.sum_congr rfl fun q _ => ?_)
  rw [padW_apply l2W q j ⟨j.val, hj⟩ rfl]
  refine congrArg (fun s => max (s + l1b (ix1 q)) 0 * l2W (ix2 q j)) (Finset.sum_congr rfl fun k _ => ?_)
  rw [bn_apply, Cert.Laws.normalise_eq (hh (ix2 n k)) (RefReal.bnMean_real hh (ix1 k)) (RefReal.bnInv_real hh (ix1 k)) (hγ (ix1 k)) (hβ (ix1 k))]

end Cert.Bridge
-- ==== Proof.KiWr.lean ====
import proofs.«115534_j8151847928363_1_alg».proof.Proof.Gen.KernelIdeal.Launch
import Idealize.ShloMosaic.Lib.StableHlo.Run

set_option maxRecDepth 8192

noncomputable section

namespace Cert.KernelIdeal.Read

open Cert.KernelIdeal Cert.KernelIdeal.Gen Idealize.ShloMosaic Idealize.ShloMosaic.TcCoe Idealize.SL.Sem Idealize.ShloMosaic.StableHlo

variable {F : FTy → Type} [FloatOps F]

/-- An operation that writes one buffer of a list writes within the list. -/
private theorem sub_of_mem {op : HloOp τ sig (Elt F)} (y : Ref sig .tc) {L : List (Ref sig .tc)}
    (hw : op.writes = {Proc.devRef (τ := τ) .tc y}) (hy : y ∈ L) : op.writes ⊆ (L.map (Proc.devRef (τ := τ) .tc)).toFinset := by
  rw [hw, Finset.singleton_subset_iff, List.mem_toFinset]; exact List.mem_map_of_mem hy

/-- The buffers the 20 operations of hostOps0 write, in order. -/
abbrev wr_hostOps0 : List (Ref sig .tc) :=
  [ main_v0, main_v1, main_v2, main_v3, main_v4, main_v5, main_v6, main_v7,
    main_v8, main_cst, main_v9, main_cst_0, main_v10, main_v11, main_v12, main_cst_1,
    main_v13, main_v14, main_v15, main_cst_2 ]

set_option maxHeartbeats 4000000 in
/-- Each operation of hostOps0 writes only a buffer of the list. -/
theorem hostOps0_writes : (hostOps0 : List (HloOp τ sig (Elt F))).Forall fun op => op.writes ⊆ (wr_hostOps0.map (Proc.devRef (τ := τ) .tc)).toFinset :=
  ⟨sub_of_mem main_v0 rfl (by decide), sub_of_mem main_v1 rfl (by decide), sub_of_mem main_v2 rfl (by decide),
    sub_of_mem main_v3 rfl (by decide), sub_of_mem main_v4 rfl (by decide), sub_of_mem main_v5 rfl (by decide),
    sub_of_mem main_v6 rfl (by decide), sub_of_mem main_v7 rfl (by decide), sub_of_mem main_v8 rfl (by decide),
    sub_of_mem main_cst rfl (by decide), sub_of_mem main_v9 rfl (by decide), sub_of_mem main_cst_0 rfl (by decide),
    sub_of_mem main_v10 rfl (by decide), sub_of_mem main_v11 rfl (by decide), sub_of_mem main_v12 rfl (by decide),
    sub_of_mem main_cst_1 rfl (by decide), sub_of_mem main_v13 rfl (by decide), sub_of_mem main_v14 rfl (by decide),
    sub_of_mem main_v15 rfl (by decide), sub_of_mem main_cst_2 rfl (by decide)⟩

/-- A buffer not in the list holds after hostOps0 what it held before. -/
theorem hostOps0_frame {r : Ref sig .tc} (hr : r ∉ wr_hostOps0) (V : Valuation τ sig (Elt F)) :
    after hostOps0 V (no_index (Proc.devRef .tc r)) = V (Proc.devRef .tc r) :=
  after_of_writes_sub hostOps0 V hostOps0_writes hr

/-- The buffers the 3 operations of hostOps0_1 write, in order. -/
abbrev wr_hostOps0_1 : List (Ref sig .tc) :=
  [ main_call0_v0, main_call0_v1, main_v16 ]

set_option maxHeartbeats 4000000 in
/-- Each operation of hostOps0_1 writes only a buffer of the list. -/
theorem hostOps0_1_writes : (hostOps0_1 : List (HloOp τ sig (Elt F))).Forall fun op => op.writes ⊆ (wr_hostOps0_1.map (Proc.devRef (τ := τ) .tc)).toFinset :=
  ⟨sub_of_mem main_call0_v0 rfl (by decide), sub_of_mem main_call0_v1 rfl (by decide), sub_of_mem main_v16 rfl (by decide)⟩

/-- A buffer not in the list holds after hostOps0_1 what it held before. -/
theorem hostOps0_1_frame {r : Ref sig .tc} (hr : r ∉ wr_hostOps0_1) (V : Valuation τ sig (Elt F)) :
    after hostOps0_1 V (no_index (Proc.devRef .tc r)) = V (Proc.devRef .tc r) :=
  after_of_writes_sub hostOps0_1 V hostOps0_1_writes hr

/-- The buffers the 39 operations of hostOps0_2 write, in order. -/
abbrev wr_hostOps0_2 : List (Ref sig .tc) :=
  [ main_c, main_v17, main_v18, main_c_3, main_v19, main_v20, main_v21, main_v22,
    main_v23, main_c_4, main_v24, main_v25, main_c_5, main_v26, main_v27, main_v28,
    main_v29, main_v30, main_v31, main_v32, main_v33, main_v34, main_v35, main_v36,
    main_v37, main_v38, main_v39, main_v40, main_cst_6, main_v41, main_cst_7, main_v42,
    main_v43, main_v44, main_cst_8, main_v45, main_v46, main_v47, main_cst_9 ]

set_option maxHeartbeats 4000000 in
/-- Each operation of hostOps0_2 writes only a buffer of the list. -/
theorem hostOps0_2_writes : (hostOps0_2 : List (HloOp τ sig (Elt F))).Forall fun op => op.writes ⊆ (wr_hostOps0_2.map (Proc.devRef (τ := τ) .tc)).toFinset :=
  ⟨sub_of_mem main_c rfl (by decide), sub_of_mem main_v17 rfl (by decide), sub_of_mem main_v18 rfl (by decide),
    sub_of_mem main_c_3 rfl (by decide), sub_of_mem main_v19 rfl (by decide), sub_of_mem main_v20 rfl (by decide),
    sub_of_mem main_v21 rfl (by decide), sub_of_mem main_v22 rfl (by decide), sub_of_mem main_v23 rfl (by decide),
    sub_of_mem main_c_4 rfl (by decide), sub_of_mem main_v24 rfl (by decide), sub_of_mem main_v25 rfl (by decide),
    sub_of_mem main_c_5 rfl (by decide), sub_of_mem main_v26 rfl (by decide), sub_of_mem main_v27 rfl (by decide),
    sub_of_mem main_v28 rfl (by decide), sub_of_mem main_v29 rfl (by decide), sub_of_mem main_v30 rfl (by decide),
    sub_of_mem main_v31 rfl (by decide), sub_of_mem main_v32 rfl (by decide), sub_of_mem main_v33 rfl (by decide),
    sub_of_mem main_v34 rfl (by decide), sub_of_mem main_v35 rfl (by decide), sub_of_mem main_v36 rfl (by decide),
    sub_of_mem main_v37 rfl (by decide), sub_of_mem main_v38 rfl (by decide), sub_of_mem main_v39 rfl (by decide),
    sub_of_mem main_v40 rfl (by decide), sub_of_mem main_cst_6 rfl (by decide), sub_of_mem main_v41 rfl (by decide),
    sub_of_mem main_cst_7 rfl (by decide), sub_of_mem main_v42 rfl (by decide), sub_of_mem main_v43 rfl (by decide),
    sub_of_mem main_v44 rfl (by decide), sub_of_mem main_cst_8 rfl (by decide), sub_of_mem main_v45 rfl (by decide),
    sub_of_mem main_v46 rfl (by decide), sub_of_mem main_v47 rfl (by decide), sub_of_mem main_cst_9 rfl (by decide)⟩

/-- A buffer not in the list holds after hostOps0_2 what it held before. -/
theorem hostOps0_2_frame {r : Ref sig .tc} (hr : r ∉ wr_hostOps0_2) (V : Valuation τ sig (Elt F)) :
    after hostOps0_2 V (no_index (Proc.devRef .tc r)) = V (Proc.devRef .tc r) :=
  after_of_writes_sub hostOps0_2 V hostOps0_2_writes hr

/-- The buffers the 3 operations of hostOps0_3 write, in order. -/
abbrev wr_hostOps0_3 : List (Ref sig .tc) :=
  [ main_call1_v0, main_call1_v1, main_v48 ]

set_option maxHeartbeats 4000000 in
/-- Each operation of hostOps0_3 writes only a buffer of the list. -/
theorem hostOps0_3_writes : (hostOps0_3 : List (HloOp τ sig (Elt F))).Forall fun op => op.writes ⊆ (wr_hostOps0_3.map (Proc.devRef (τ := τ) .tc)).toFinset :=
  ⟨sub_of_mem main_call1_v0 rfl (by decide), sub_of_mem main_call1_v1 rfl (by decide), sub_of_mem main_v48 rfl (by decide)⟩

/-- A buffer not in the list holds after hostOps0_3 what it held before. -/
theorem hostOps0_3_frame {r : Ref sig .tc} (hr : r ∉ wr_hostOps0_3) (V : Valuation τ sig (Elt F)) :
    after hostOps0_3 V (no_index (Proc.devRef .tc r)) = V (Proc.devRef .tc r) :=
  after_of_writes_sub hostOps0_3 V hostOps0_3_writes hr

/-- The buffers the 39 operations of hostOps0_4 write, in order. -/
abbrev wr_hostOps0_4 : List (Ref sig .tc) :=
  [ main_c_10, main_v49, main_v50, main_c_11, main_v51, main_v52, main_v53, main_v54,
    main_v55, main_c_12, main_v56, main_v57, main_c_13, main_v58, main_v59, main_v60,
    main_v61, main_v62, main_v63, main_v64, main_v65, main_v66, main_v67, main_v68,
    main_v69, main_v70, main_v71, main_v72, main_cst_14, main_v73, main_cst_15, main_v74,
    main_v75, main_v76, main_cst_16, main_v77, main_v78, main_v79, main_cst_17 ]

set_option maxHeartbeats 4000000 in
/-- Each operation of hostOps0_4 writes only a buffer of the list. -/
theorem hostOps0_4_writes : (hostOps0_4 : List (HloOp τ sig (Elt F))).Forall fun op => op.writes ⊆ (wr_hostOps0_4.map (Proc.devRef (τ := τ) .tc)).toFinset :=
  ⟨sub_of_mem main_c_10 rfl (by decide), sub_of_mem main_v49 rfl (by decide), sub_of_mem main_v50 rfl (by decide),
    sub_of_mem main_c_11 rfl (by decide), sub_of_mem main_v51 rfl (by decide), sub_of_mem main_v52 rfl (by decide),
    sub_of_mem main_v53 rfl (by decide), sub_of_mem main_v54 rfl (by decide), sub_of_mem main_v55 rfl (by decide),
    sub_of_mem main_c_12 rfl (by decide), sub_of_mem main_v56 rfl (by decide), sub_of_mem main_v57 rfl (by decide),
    sub_of_mem main_c_13 rfl (by decide), sub_of_mem main_v58 rfl (by decide), sub_of_mem main_v59 rfl (by decide),
    sub_of_mem main_v60 rfl (by decide), sub_of_mem main_v61 rfl (by decide), sub_of_mem main_v62 rfl (by decide),
    sub_of_mem main_v63 rfl (by decide), sub_of_mem main_v64 rfl (by decide), sub_of_mem main_v65 rfl (by decide),
    sub_of_mem main_v66 rfl (by decide), sub_of_mem main_v67 rfl (by decide), sub_of_mem main_v68 rfl (by decide),
    sub_of_mem main_v69 rfl (by decide), sub_of_mem main_v70 rfl (by decide), sub_of_mem main_v71 rfl (by decide),
    sub_of_mem main_v72 rfl (by decide), sub_of_mem main_cst_14 rfl (by decide), sub_of_mem main_v73 rfl (by decide),
    sub_of_mem main_cst_15 rfl (by decide), sub_of_mem main_v74 rfl (by decide), sub_of_mem main_v75 rfl (by decide),
    sub_of_mem main_v76 rfl (by decide), sub_of_mem main_cst_16 rfl (by decide), sub_of_mem main_v77 rfl (by decide),
    sub_of_mem main_v78 rfl (by decide), sub_of_mem main_v79 rfl (by decide), sub_of_mem main_cst_17 rfl (by decide)⟩

/-- A buffer not in the list holds after hostOps0_4 what it held before. -/
theorem hostOps0_4_frame {r : Ref sig .tc} (hr : r ∉ wr_hostOps0_4) (V : Valuation τ sig (Elt F)) :
    after hostOps0_4 V (no_index (Proc.devRef .tc r)) = V (Proc.devRef .tc r) :=
  after_of_writes_sub hostOps0_4 V hostOps0_4_writes hr

/-- The buffers the 3 operations of hostOps0_5 write, in order. -/
abbrev wr_hostOps0_5 : List (Ref sig .tc) :=
  [ main_call2_v0, main_call2_v1, main_v80 ]

set_option maxHeartbeats 4000000 in
/-- Each operation of hostOps0_5 writes only a buffer of the list. -/
theorem hostOps0_5_writes : (hostOps0_5 : List (HloOp τ sig (Elt F))).Forall fun op => op.writes ⊆ (wr_hostOps0_5.map (Proc.devRef (τ := τ) .tc)).toFinset :=
  ⟨sub_of_mem main_call2_v0 rfl (by decide), sub_of_mem main_call2_v1 rfl (by decide), sub_of_mem main_v80 rfl (by decide)⟩

/-- A buffer not in the list holds after hostOps0_5 what it held before. -/
theorem hostOps0_5_frame {r : Ref sig .tc} (hr : r ∉ wr_hostOps0_5) (V : Valuation τ sig (Elt F)) :
    after hostOps0_5 V (no_index (Proc.devRef .tc r)) = V (Proc.devRef .tc r) :=
  after_of_writes_sub hostOps0_5 V hostOps0_5_writes hr

/-- The buffers the 39 operations of hostOps0_6 write, in order. -/
abbrev wr_hostOps0_6 : List (Ref sig .tc) :=
  [ main_c_18, main_v81, main_v82, main_c_19, main_v83, main_v84, main_v85, main_v86,
    main_v87, main_c_20, main_v88, main_v89, main_c_21, main_v90, main_v91, main_v92,
    main_v93, main_v94, main_v95, main_v96, main_v97, main_v98, main_v99, main_v100,
    main_v101, main_v102, main_v103, main_v104, main_cst_22, main_v105, main_cst_23, main_v106,
    main_v107, main_v108, main_cst_24, main_v109, main_v110, main_v111, main_cst_25 ]

set_option maxHeartbeats 4000000 in
/-- Each operation of hostOps0_6 writes only a buffer of the list. -/
theorem hostOps0_6_writes : (hostOps0_6 : List (HloOp τ sig (Elt F))).Forall fun op => op.writes ⊆ (wr_hostOps0_6.map (Proc.devRef (τ := τ) .tc)).toFinset :=
  ⟨sub_of_mem main_c_18 rfl (by decide), sub_of_mem main_v81 rfl (by decide), sub_of_mem main_v82 rfl (by decide),
    sub_of_mem main_c_19 rfl (by decide), sub_of_mem main_v83 rfl (by decide), sub_of_mem main_v84 rfl (by decide),
    sub_of_mem main_v85 rfl (by decide), sub_of_mem main_v86 rfl (by decide), sub_of_mem main_v87 rfl (by decide),
    sub_of_mem main_c_20 rfl (by decide), sub_of_mem main_v88 rfl (by decide), sub_of_mem main_v89 rfl (by decide),
    sub_of_mem main_c_21 rfl (by decide), sub_of_mem main_v90 rfl (by decide), sub_of_mem main_v91 rfl (by decide),
    sub_of_mem main_v92 rfl (by decide), sub_of_mem main_v93 rfl (by decide), sub_of_mem main_v94 rfl (by decide),
    sub_of_mem main_v95 rfl (by decide), sub_of_mem main_v96 rfl (by decide), sub_of_mem main_v97 rfl (by decide),
    sub_of_mem main_v98 rfl (by decide), sub_of_mem main_v99 rfl (by decide), sub_of_mem main_v100 rfl (by decide),
    sub_of_mem main_v101 rfl (by decide), sub_of_mem main_v102 rfl (by decide), sub_of_mem main_v103 rfl (by decide),
    sub_of_mem main_v104 rfl (by decide), sub_of_mem main_cst_22 rfl (by decide), sub_of_mem main_v105 rfl (by decide),
    sub_of_mem main_cst_23 rfl (by decide), sub_of_mem main_v106 rfl (by decide), sub_of_mem main_v107 rfl (by decide),
    sub_of_mem main_v108 rfl (by decide), sub_of_mem main_cst_24 rfl (by decide), sub_of_mem main_v109 rfl (by decide),
    sub_of_mem main_v110 rfl (by decide), sub_of_mem main_v111 rfl (by decide), sub_of_mem main_cst_25 rfl (by decide)⟩

/-- A buffer not in the list holds after hostOps0_6 what it held before. -/
theorem hostOps0_6_frame {r : Ref sig .tc} (hr : r ∉ wr_hostOps0_6) (V : Valuation τ sig (Elt F)) :
    after hostOps0_6 V (no_index (Proc.devRef .tc r)) = V (Proc.devRef .tc r) :=
  after_of_writes_sub hostOps0_6 V hostOps0_6_writes hr

/-- The buffers the 3 operations of hostOps0_7 write, in order. -/
abbrev wr_hostOps0_7 : List (Ref sig .tc) :=
  [ main_call3_v0, main_call3_v1, main_v112 ]

set_option maxHeartbeats 4000000 in
/-- Each operation of hostOps0_7 writes only a buffer of the list. -/
theorem hostOps0_7_writes : (hostOps0_7 : List (HloOp τ sig (Elt F))).Forall fun op => op.writes ⊆ (wr_hostOps0_7.map (Proc.devRef (τ := τ) .tc)).toFinset :=
  ⟨sub_of_mem main_call3_v0 rfl (by decide), sub_of_mem main_call3_v1 rfl (by decide), sub_of_mem main_v112 rfl (by decide)⟩

/-- A buffer not in the list holds after hostOps0_7 what it held before. -/
theorem hostOps0_7_frame {r : Ref sig .tc} (hr : r ∉ wr_hostOps0_7) (V : Valuation τ sig (Elt F)) :
    after hostOps0_7 V (no_index (Proc.devRef .tc r)) = V (Proc.devRef .tc r) :=
  after_of_writes_sub hostOps0_7 V hostOps0_7_writes hr

/-- The buffers the 21 operations of hostOps0_8 write, in order. -/
abbrev wr_hostOps0_8 : List (Ref sig .tc) :=
  [ main_c_26, main_v113, main_v114, main_c_27, main_v115, main_v116, main_v117, main_v118,
    main_v119, main_c_28, main_v120, main_v121, main_c_29, main_v122, main_v123, main_v124,
    main_v125, main_v126, main_v127, main_v128, main_v129 ]

set_option maxHeartbeats 4000000 in
/-- Each operation of hostOps0_8 writes only a buffer of the list. -/
theorem hostOps0_8_writes : (hostOps0_8 : List (HloOp τ sig (Elt F))).Forall fun op => op.writes ⊆ (wr_hostOps0_8.map (Proc.devRef (τ := τ) .tc)).toFinset :=
  ⟨sub_of_mem main_c_26 rfl (by decide), sub_of_mem main_v113 rfl (by decide), sub_of_mem main_v114 rfl (by decide),
    sub_of_mem main_c_27 rfl (by decide), sub_of_mem main_v115 rfl (by decide), sub_of_mem main_v116 rfl (by decide),
    sub_of_mem main_v117 rfl (by decide), sub_of_mem main_v118 rfl (by decide), sub_of_mem main_v119 rfl (by decide),
    sub_of_mem main_c_28 rfl (by decide), sub_of_mem main_v120 rfl (by decide), sub_of_mem main_v121 rfl (by decide),
    sub_of_mem main_c_29 rfl (by decide), sub_of_mem main_v122 rfl (by decide), sub_of_mem main_v123 rfl (by decide),
    sub_of_mem main_v124 rfl (by decide), sub_of_mem main_v125 rfl (by decide), sub_of_mem main_v126 rfl (by decide),
    sub_of_mem main_v127 rfl (by decide), sub_of_mem main_v128 rfl (by decide), sub_of_mem main_v129 rfl (by decide)⟩

/-- A buffer not in the list holds after hostOps0_8 what it held before. -/
theorem hostOps0_8_frame {r : Ref sig .tc} (hr : r ∉ wr_hostOps0_8) (V : Valuation τ sig (Elt F)) :
    after hostOps0_8 V (no_index (Proc.devRef .tc r)) = V (Proc.devRef .tc r) :=
  after_of_writes_sub hostOps0_8 V hostOps0_8_writes hr

/-- The buffers the 72 operations of hostOps1 write, in order. -/
abbrev wr_hostOps1 : List (Ref sig .tc) :=
  [ main_v131, main_c_30, main_v132, main_v133, main_c_31, main_v134, main_v135, main_v136,
    main_v137, main_v138, main_v139, main_v140, main_v141, main_cst_32, main_v142, main_v143,
    main_v144, main_v145, main_c_33, main_v146, main_v147, main_c_34, main_v148, main_v149,
    main_v150, main_v151, main_v152, main_v153, main_v154, main_v155, main_cst_35, main_v156,
    main_v157, main_v158, main_v159, main_c_36, main_v160, main_v161, main_c_37, main_v162,
    main_v163, main_v164, main_v165, main_v166, main_v167, main_v168, main_v169, main_cst_38,
    main_v170, main_v171, main_v172, main_v173, main_c_39, main_v174, main_v175, main_c_40,
    main_v176, main_v177, main_v178, main_v179, main_v180, main_v181, main_v182, main_v183,
    main_cst_41, main_v184, main_v185, main_v186, main_v187, main_cst_42, main_v188, main_v189 ]

set_option maxHeartbeats 4000000 in
/-- Each operation of hostOps1 writes only a buffer of the list. -/
theorem hostOps1_writes : (hostOps1 : List (HloOp τ sig (Elt F))).Forall fun op => op.writes ⊆ (wr_hostOps1.map (Proc.devRef (τ := τ) .tc)).toFinset :=
  ⟨sub_of_mem main_v131 rfl (by decide), sub_of_mem main_c_30 rfl (by decide), sub_of_mem main_v132 rfl (by decide),
    sub_of_mem main_v133 rfl (by decide), sub_of_mem main_c_31 rfl (by decide), sub_of_mem main_v134 rfl (by decide),
    sub_of_mem main_v135 rfl (by decide), sub_of_mem main_v136 rfl (by decide), sub_of_mem main_v137 rfl (by decide),
    sub_of_mem main_v138 rfl (by decide), sub_of_mem main_v139 rfl (by decide), sub_of_mem main_v140 rfl (by decide),
    sub_of_mem main_v141 rfl (by decide), sub_of_mem main_cst_32 rfl (by decide), sub_of_mem main_v142 rfl (by decide),
    sub_of_mem main_v143 rfl (by decide), sub_of_mem main_v144 rfl (by decide), sub_of_mem main_v145 rfl (by decide),
    sub_of_mem main_c_33 rfl (by decide), sub_of_mem main_v146 rfl (by decide), sub_of_mem main_v147 rfl (by decide),
    sub_of_mem main_c_34 rfl (by decide), sub_of_mem main_v148 rfl (by decide), sub_of_mem main_v149 rfl (by decide),
    sub_of_mem main_v150 rfl (by decide), sub_of_mem main_v151 rfl (by decide), sub_of_mem main_v152 rfl (by decide),
    sub_of_mem main_v153 rfl (by decide), sub_of_mem main_v154 rfl (by decide), sub_of_mem main_v155 rfl (by decide),
    sub_of_mem main_cst_35 rfl (by decide), sub_of_mem main_v156 rfl (by decide), sub_of_mem main_v157 rfl (by decide),
    sub_of_mem main_v158 rfl (by decide), sub_of_mem main_v159 rfl (by decide), sub_of_mem main_c_36 rfl (by decide),
    sub_of_mem main_v160 rfl (by decide), sub_of_mem main_v161 rfl (by decide), sub_of_mem main_c_37 rfl (by decide),
    sub_of_mem main_v162 rfl (by decide), sub_of_mem main_v163 rfl (by decide), sub_of_mem main_v164 rfl (by decide),
    sub_of_mem main_v165 rfl (by decide), sub_of_mem main_v166 rfl (by decide), sub_of_mem main_v167 rfl (by decide),
    sub_of_mem main_v168 rfl (by decide), sub_of_mem main_v169 rfl (by decide), sub_of_mem main_cst_38 rfl (by decide),
    sub_of_mem main_v170 rfl (by decide), sub_of_mem main_v171 rfl (by decide), sub_of_mem main_v172 rfl (by decide),
    sub_of_mem main_v173 rfl (by decide), sub_of_mem main_c_39 rfl (by decide), sub_of_mem main_v174 rfl (by decide),
    sub_of_mem main_v175 rfl (by decide), sub_of_mem main_c_40 rfl (by decide), sub_of_mem main_v176 rfl (by decide),
    sub_of_mem main_v177 rfl (by decide), sub_of_mem main_v178 rfl (by decide), sub_of_mem main_v179 rfl (by decide),
    sub_of_mem main_v180 rfl (by decide), sub_of_mem main_v181 rfl (by decide), sub_of_mem main_v182 rfl (by decide),
    sub_of_mem main_v183 rfl (by decide), sub_of_mem main_cst_41 rfl (by decide), sub_of_mem main_v184 rfl (by decide),
    sub_of_mem main_v185 rfl (by decide), sub_of_mem main_v186 rfl (by decide), sub_of_mem main_v187 rfl (by decide),
    sub_of_mem main_cst_42 rfl (by decide), sub_of_mem main_v188 rfl (by decide), sub_of_mem main_v189 rfl (by decide)⟩

/-- A buffer not in the list holds after hostOps1 what it held before. -/
theorem hostOps1_frame {r : Ref sig .tc} (hr : r ∉ wr_hostOps1) (V : Valuation τ sig (Elt F)) :
    after hostOps1 V (no_index (Proc.devRef .tc r)) = V (Proc.devRef .tc r) :=
  after_of_writes_sub hostOps1 V hostOps1_writes hr

/-- The buffers the 2 operations of hostOps2 write, in order. -/
abbrev wr_hostOps2 : List (Ref sig .tc) :=
  [ main_v191, main_v192 ]

set_option maxHeartbeats 4000000 in
/-- Each operation of hostOps2 writes only a buffer of the list. -/
theorem hostOps2_writes : (hostOps2 : List (HloOp τ sig (Elt F))).Forall fun op => op.writes ⊆ (wr_hostOps2.map (Proc.devRef (τ := τ) .tc)).toFinset :=
  ⟨sub_of_mem main_v191 rfl (by decide), sub_of_mem main_v192 rfl (by decide)⟩

/-- A buffer not in the list holds after hostOps2 what it held before. -/
theorem hostOps2_frame {r : Ref sig .tc} (hr : r ∉ wr_hostOps2) (V : Valuation τ sig (Elt F)) :
    after hostOps2 V (no_index (Proc.devRef .tc r)) = V (Proc.devRef .tc r) :=
  after_of_writes_sub hostOps2 V hostOps2_writes hr

/-- The buffers the 72 operations of hostOps3 write, in order. -/
abbrev wr_hostOps3 : List (Ref sig .tc) :=
  [ main_v194, main_c_43, main_v195, main_v196, main_c_44, main_v197, main_v198, main_v199,
    main_v200, main_v201, main_v202, main_v203, main_v204, main_cst_45, main_v205, main_v206,
    main_v207, main_v208, main_c_46, main_v209, main_v210, main_c_47, main_v211, main_v212,
    main_v213, main_v214, main_v215, main_v216, main_v217, main_v218, main_cst_48, main_v219,
    main_v220, main_v221, main_v222, main_c_49, main_v223, main_v224, main_c_50, main_v225,
    main_v226, main_v227, main_v228, main_v229, main_v230, main_v231, main_v232, main_cst_51,
    main_v233, main_v234, main_v235, main_v236, main_c_52, main_v237, main_v238, main_c_53,
    main_v239, main_v240, main_v241, main_v242, main_v243, main_v244, main_v245, main_v246,
    main_cst_54, main_v247, main_v248, main_v249, main_v250, main_cst_55, main_v251, main_v252 ]

set_option maxHeartbeats 4000000 in
/-- Each operation of hostOps3 writes only a buffer of the list. -/
theorem hostOps3_writes : (hostOps3 : List (HloOp τ sig (Elt F))).Forall fun op => op.writes ⊆ (wr_hostOps3.map (Proc.devRef (τ := τ) .tc)).toFinset :=
  ⟨sub_of_mem main_v194 rfl (by decide), sub_of_mem main_c_43 rfl (by decide), sub_of_mem main_v195 rfl (by decide),
    sub_of_mem main_v196 rfl (by decide), sub_of_mem main_c_44 rfl (by decide), sub_of_mem main_v197 rfl (by decide),
    sub_of_mem main_v198 rfl (by decide), sub_of_mem main_v199 rfl (by decide), sub_of_mem main_v200 rfl (by decide),
    sub_of_mem main_v201 rfl (by decide), sub_of_mem main_v202 rfl (by decide), sub_of_mem main_v203 rfl (by decide),
    sub_of_mem main_v204 rfl (by decide), sub_of_mem main_cst_45 rfl (by decide), sub_of_mem main_v205 rfl (by decide),
    sub_of_mem main_v206 rfl (by decide), sub_of_mem main_v207 rfl (by decide), sub_of_mem main_v208 rfl (by decide),
    sub_of_mem main_c_46 rfl (by decide), sub_of_mem main_v209 rfl (by decide), sub_of_mem main_v210 rfl (by decide),
    sub_of_mem main_c_47 rfl (by decide), sub_of_mem main_v211 rfl (by decide), sub_of_mem main_v212 rfl (by decide),
    sub_of_mem main_v213 rfl (by decide), sub_of_mem main_v214 rfl (by decide), sub_of_mem main_v215 rfl (by decide),
    sub_of_mem main_v216 rfl (by decide), sub_of_mem main_v217 rfl (by decide), sub_of_mem main_v218 rfl (by decide),
    sub_of_mem main_cst_48 rfl (by decide), sub_of_mem main_v219 rfl (by decide), sub_of_mem main_v220 rfl (by decide),
    sub_of_mem main_v221 rfl (by decide), sub_of_mem main_v222 rfl (by decide), sub_of_mem main_c_49 rfl (by decide),
    sub_of_mem main_v223 rfl (by decide), sub_of_mem main_v224 rfl (by decide), sub_of_mem main_c_50 rfl (by decide),
    sub_of_mem main_v225 rfl (by decide), sub_of_mem main_v226 rfl (by decide), sub_of_mem main_v227 rfl (by decide),
    sub_of_mem main_v228 rfl (by decide), sub_of_mem main_v229 rfl (by decide), sub_of_mem main_v230 rfl (by decide),
    sub_of_mem main_v231 rfl (by decide), sub_of_mem main_v232 rfl (by decide), sub_of_mem main_cst_51 rfl (by decide),
    sub_of_mem main_v233 rfl (by decide), sub_of_mem main_v234 rfl (by decide), sub_of_mem main_v235 rfl (by decide),
    sub_of_mem main_v236 rfl (by decide), sub_of_mem main_c_52 rfl (by decide), sub_of_mem main_v237 rfl (by decide),
    sub_of_mem main_v238 rfl (by decide), sub_of_mem main_c_53 rfl (by decide), sub_of_mem main_v239 rfl (by decide),
    sub_of_mem main_v240 rfl (by decide), sub_of_mem main_v241 rfl (by decide), sub_of_mem main_v242 rfl (by decide),
    sub_of_mem main_v243 rfl (by decide), sub_of_mem main_v244 rfl (by decide), sub_of_mem main_v245 rfl (by decide),
    sub_of_mem main_v246 rfl (by decide), sub_of_mem main_cst_54 rfl (by decide), sub_of_mem main_v247 rfl (by decide),
    sub_of_mem main_v248 rfl (by decide), sub_of_mem main_v249 rfl (by decide), sub_of_mem main_v250 rfl (by decide),
    sub_of_mem main_cst_55 rfl (by decide), sub_of_mem main_v251 rfl (by decide), sub_of_mem main_v252 rfl (by decide)⟩

/-- A buffer not in the list holds after hostOps3 what it held before. -/
theorem hostOps3_frame {r : Ref sig .tc} (hr : r ∉ wr_hostOps3) (V : Valuation τ sig (Elt F)) :
    after hostOps3 V (no_index (Proc.devRef .tc r)) = V (Proc.devRef .tc r) :=
  after_of_writes_sub hostOps3 V hostOps3_writes hr

/-- The buffers the 6 operations of hostOps4 write, in order. -/
abbrev wr_hostOps4 : List (Ref sig .tc) :=
  [ main_cst_56, main_v254, main_cst_57, main_v255, main_v256, main_c_58 ]

set_option maxHeartbeats 4000000 in
/-- Each operation of hostOps4 writes only a buffer of the list. -/
theorem hostOps4_writes : (hostOps4 : List (HloOp τ sig (Elt F))).Forall fun op => op.writes ⊆ (wr_hostOps4.map (Proc.devRef (τ := τ) .tc)).toFinset :=
  ⟨sub_of_mem main_cst_56 rfl (by decide), sub_of_mem main_v254 rfl (by decide), sub_of_mem main_cst_57 rfl (by decide),
    sub_of_mem main_v255 rfl (by decide), sub_of_mem main_v256 rfl (by decide), sub_of_mem main_c_58 rfl (by decide)⟩

/-- A buffer not in the list holds after hostOps4 what it held before. -/
theorem hostOps4_frame {r : Ref sig .tc} (hr : r ∉ wr_hostOps4) (V : Valuation τ sig (Elt F)) :
    after hostOps4 V (no_index (Proc.devRef .tc r)) = V (Proc.devRef .tc r) :=
  after_of_writes_sub hostOps4 V hostOps4_writes hr

/-- The buffers the 22 operations of hostOps4_1 write, in order. -/
abbrev wr_hostOps4_1 : List (Ref sig .tc) :=
  [ main_call4_cst, main_call4_v0, main_call4_v1, main_call4_cst_0, main_call4_v2, main_call4_v3, main_call4_v4, main_call4_v5,
    main_call4_v6, main_call4_v7, main_call4_cst_1, main_call4_v8, main_call4_cst_2, main_call4_v9, main_call4_v10, main_call4_v11,
    main_call4_cst_3, main_call4_v12, main_call4_cst_4, main_call4_call0_v0, main_call4_call0_v1, main_v257 ]

set_option maxHeartbeats 4000000 in
/-- Each operation of hostOps4_1 writes only a buffer of the list. -/
theorem hostOps4_1_writes : (hostOps4_1 : List (HloOp τ sig (Elt F))).Forall fun op => op.writes ⊆ (wr_hostOps4_1.map (Proc.devRef (τ := τ) .tc)).toFinset :=
  ⟨sub_of_mem main_call4_cst rfl (by decide), sub_of_mem main_call4_v0 rfl (by decide), sub_of_mem main_call4_v1 rfl (by decide),
    sub_of_mem main_call4_cst_0 rfl (by decide), sub_of_mem main_call4_v2 rfl (by decide), sub_of_mem main_call4_v3 rfl (by decide),
    sub_of_mem main_call4_v4 rfl (by decide), sub_of_mem main_call4_v5 rfl (by decide), sub_of_mem main_call4_v6 rfl (by decide),
    sub_of_mem main_call4_v7 rfl (by decide), sub_of_mem main_call4_cst_1 rfl (by decide), sub_of_mem main_call4_v8 rfl (by decide),
    sub_of_mem main_call4_cst_2 rfl (by decide), sub_of_mem main_call4_v9 rfl (by decide), sub_of_mem main_call4_v10 rfl (by decide),
    sub_of_mem main_call4_v11 rfl (by decide), sub_of_mem main_call4_cst_3 rfl (by decide), sub_of_mem main_call4_v12 rfl (by decide),
    sub_of_mem main_call4_cst_4 rfl (by decide), sub_of_mem main_call4_call0_v0 rfl (by decide), sub_of_mem main_call4_call0_v1 rfl (by decide),
    sub_of_mem main_v257 rfl (by decide)⟩

/-- A buffer not in the list holds after hostOps4_1 what it held before. -/
theorem hostOps4_1_frame {r : Ref sig .tc} (hr : r ∉ wr_hostOps4_1) (V : Valuation τ sig (Elt F)) :
    after hostOps4_1 V (no_index (Proc.devRef .tc r)) = V (Proc.devRef .tc r) :=
  after_of_writes_sub hostOps4_1 V hostOps4_1_writes hr

/-- The buffers the 21 operations of hostOps4_2 write, in order. -/
abbrev wr_hostOps4_2 : List (Ref sig .tc) :=
  [ main_cst_59, main_v258, main_v259, main_v260, main_v261, main_v262, main_v263, main_cst_60,
    main_v264, main_c_61, main_v265, main_v266, main_cst_62, main_v267, main_c_63, main_v268,
    main_v269, main_v270, main_v271, main_v272, main_v273 ]

set_option maxHeartbeats 4000000 in
/-- Each operation of hostOps4_2 writes only a buffer of the list. -/
theorem hostOps4_2_writes : (hostOps4_2 : List (HloOp τ sig (Elt F))).Forall fun op => op.writes ⊆ (wr_hostOps4_2.map (Proc.devRef (τ := τ) .tc)).toFinset :=
  ⟨sub_of_mem main_cst_59 rfl (by decide), sub_of_mem main_v258 rfl (by decide), sub_of_mem main_v259 rfl (by decide),
    sub_of_mem main_v260 rfl (by decide), sub_of_mem main_v261 rfl (by decide), sub_of_mem main_v262 rfl (by decide),
    sub_of_mem main_v263 rfl (by decide), sub_of_mem main_cst_60 rfl (by decide), sub_of_mem main_v264 rfl (by decide),
    sub_of_mem main_c_61 rfl (by decide), sub_of_mem main_v265 rfl (by decide), sub_of_mem main_v266 rfl (by decide),
    sub_of_mem main_cst_62 rfl (by decide), sub_of_mem main_v267 rfl (by decide), sub_of_mem main_c_63 rfl (by decide),
    sub_of_mem main_v268 rfl (by decide), sub_of_mem main_v269 rfl (by decide), sub_of_mem main_v270 rfl (by decide),
    sub_of_mem main_v271 rfl (by decide), sub_of_mem main_v272 rfl (by decide), sub_of_mem main_v273 rfl (by decide)⟩

/-- A buffer not in the list holds after hostOps4_2 what it held before. -/
theorem hostOps4_2_frame {r : Ref sig .tc} (hr : r ∉ wr_hostOps4_2) (V : Valuation τ sig (Elt F)) :
    after hostOps4_2 V (no_index (Proc.devRef .tc r)) = V (Proc.devRef .tc r) :=
  after_of_writes_sub hostOps4_2 V hostOps4_2_writes hr

/-- The buffers the 1 operations of hostOps5 write, in order. -/
abbrev wr_hostOps5 : List (Ref sig .tc) :=
  [ main_v275 ]

set_option maxHeartbeats 4000000 in
/-- Each operation of hostOps5 writes only a buffer of the list. -/
theorem hostOps5_writes : (hostOps5 : List (HloOp τ sig (Elt F))).Forall fun op => op.writes ⊆ (wr_hostOps5.map (Proc.devRef (τ := τ) .tc)).toFinset :=
  sub_of_mem main_v275 rfl (by decide)

/-- A buffer not in the list holds after hostOps5 what it held before. -/
theorem hostOps5_frame {r : Ref sig .tc} (hr : r ∉ wr_hostOps5) (V : Valuation τ sig (Elt F)) :
    after hostOps5 V (no_index (Proc.devRef .tc r)) = V (Proc.devRef .tc r) :=
  after_of_writes_sub hostOps5 V hostOps5_writes hr

end Cert.KernelIdeal.Read

end
-- ==== Proof.KiReadPre.lean ====
/- The kernel program's host operations before its first launch, read stretch by stretch at arbitrary contents: per
   relation the source and destination ids with the self loops appended, the comparison and the inverse square root of the
   in-degrees, their selection, and the edge weights; last the weight table re-laid with the relations side by side. Then
   the nine stretches composed: what the first launch is entered at, as the reference's own stage functions of the edge
   array and the weights. -/
import proofs.«115534_j8151847928363_1_alg».proof.Proof.KiWr
import proofs.«115534_j8151847928363_1_alg».proof.Proof.KiStages

set_option maxRecDepth 8192

noncomputable section

namespace Cert.KernelIdeal.Read

open Cert.KernelIdeal Cert.KernelIdeal.Gen Idealize.ShloMosaic Idealize.ShloMosaic.TcCoe Idealize.SL.Sem Idealize.ShloMosaic.StableHlo
open Cert.ReferenceIdeal.RefRead (eiRel srcRaw dstRaw wrapIdx idCol degOf dinvOf normOf aggOf)

variable {F : FTy → Type} [FloatOps F]

/-! ### Relation 0 -/

set_option maxHeartbeats 4000000 in
theorem hostOps0_src (V : Valuation τ sig (Elt F)) : after hostOps0 V (no_index (main_v5 : DevRef τ sig)) = srcRaw (eiRel (V (main_arg1 : DevRef τ sig)) 0) := by
  after_results_simp
  rfl
set_option maxHeartbeats 4000000 in
theorem hostOps0_dst (V : Valuation τ sig (Elt F)) : after hostOps0 V (no_index (main_v8 : DevRef τ sig)) = dstRaw (eiRel (V (main_arg1 : DevRef τ sig)) 0) := by
  after_results_simp
  rfl
set_option maxHeartbeats 4000000 in
theorem hostOps0_cmp (V : Valuation τ sig (Elt F)) :
    after hostOps0 V (no_index (main_v14 : DevRef τ sig)) = cmpf .ogt (degOf (F := F) (eiRel (V (main_arg1 : DevRef τ sig)) 0)) (broadcastInDim S50000 ![] bcast_S_S50000 (constant (F := F) S_ .f32 0x00000000#32)) := by
  after_results_simp
  rfl
set_option maxHeartbeats 4000000 in
theorem hostOps0_rs (V : Valuation τ sig (Elt F)) : after hostOps0 V (no_index (main_v15 : DevRef τ sig)) = Host.rsqrt (degOf (F := F) (eiRel (V (main_arg1 : DevRef τ sig)) 0)) := by
  after_results_simp
  rfl
theorem hostOps0_cst (V : Valuation τ sig (Elt F)) : after hostOps0 V (no_index (main_cst_2 : DevRef τ sig)) = constant (F := F) S_ .f32 0x00000000#32 := by
  after_results_simp
theorem hostOps0_1_dinv (V : Valuation τ sig (Elt F)) :
    after hostOps0_1 V (no_index (main_v16 : DevRef τ sig)) = select (V (main_v14 : DevRef τ sig)) (V (main_v15 : DevRef τ sig)) (broadcastInDim S50000 ![] bcast_S_S50000 (V (main_cst_2 : DevRef τ sig))) := by
  after_results_simp
  rfl
set_option maxHeartbeats 4000000 in
theorem hostOps0_2_norm (V : Valuation τ sig (Elt F)) :
    after hostOps0_2 V (no_index (main_v31 : DevRef τ sig))
      = mulf (Host.gather gather_S50000_S550000x1_S550000_n_0_n_n_0_1_1 (V (main_v16 : DevRef τ sig)) (idCol (wrapIdx (V (main_v5 : DevRef τ sig)))))
          (Host.gather gather_S50000_S550000x1_S550000_n_0_n_n_0_1_1 (V (main_v16 : DevRef τ sig)) (idCol (wrapIdx (V (main_v8 : DevRef τ sig))))) := by
  after_results_simp
  rfl

/-! ### Relation 1 -/

set_option maxHeartbeats 4000000 in
theorem hostOps0_2_src (V : Valuation τ sig (Elt F)) : after hostOps0_2 V (no_index (main_v37 : DevRef τ sig)) = srcRaw (eiRel (V (main_arg1 : DevRef τ sig)) 1) := by
  after_results_simp
  rfl
set_option maxHeartbeats 4000000 in
theorem hostOps0_2_dst (V : Valuation τ sig (Elt F)) : after hostOps0_2 V (no_index (main_v40 : DevRef τ sig)) = dstRaw (eiRel (V (main_arg1 : DevRef τ sig)) 1) := by
  after_results_simp
  rfl
set_option maxHeartbeats 4000000 in
theorem hostOps0_2_cmp (V : Valuation τ sig (Elt F)) :
    after hostOps0_2 V (no_index (main_v46 : DevRef τ sig)) = cmpf .ogt (degOf (F := F) (eiRel (V (main_arg1 : DevRef τ sig)) 1)) (broadcastInDim S50000 ![] bcast_S_S50000 (constant (F := F) S_ .f32 0x00000000#32)) := by
  after_results_simp
  rfl
set_option maxHeartbeats 4000000 in
theorem hostOps0_2_rs (V : Valuation τ sig (Elt F)) : after hostOps0_2 V (no_index (main_v47 : DevRef τ sig)) = Host.rsqrt (degOf (F := F) (eiRel (V (main_arg1 : DevRef τ sig)) 1)) := by
  after_results_simp
  rfl
theorem hostOps0_2_cst (V : Valuation τ sig (Elt F)) : after hostOps0_2 V (no_index (main_cst_9 : DevRef τ sig)) = constant (F := F) S_ .f32 0x00000000#32 := by
  after_results_simp
theorem hostOps0_3_dinv (V : Valuation τ sig (Elt F)) :
    after hostOps0_3 V (no_index (main_v48 : DevRef τ sig)) = select (V (main_v46 : DevRef τ sig)) (V (main_v47 : DevRef τ sig)) (broadcastInDim S50000 ![] bcast_S_S50000 (V (main_cst_9 : DevRef τ sig))) := by
  after_results_simp
  rfl
set_option maxHeartbeats 4000000 in
theorem hostOps0_4_norm (V : Valuation τ sig (Elt F)) :
    after hostOps0_4 V (no_index (main_v63 : DevRef τ sig))
      = mulf (Host.gather gather_S50000_S550000x1_S550000_n_0_n_n_0_1_1 (V (main_v48 : DevRef τ sig)) (idCol (wrapIdx (V (main_v37 : DevRef τ sig)))))
          (Host.gather gather_S50000_S550000x1_S550000_n_0_n_n_0_1_1 (V (main_v48 : DevRef τ sig)) (idCol (wrapIdx (V (main_v40 : DevRef τ sig))))) := by
  after_results_simp
  rfl

/-! ### Relation 2 -/

set_option maxHeartbeats 4000000 in
theorem hostOps0_4_src (V : Valuation τ sig (Elt F)) : after hostOps0_4 V (no_index (main_v69 : DevRef τ sig)) = srcRaw (eiRel (V (main_arg1 : DevRef τ sig)) 2) := by
  after_results_simp
  rfl
set_option maxHeartbeats 4000000 in
theorem hostOps0_4_dst (V : Valuation τ sig (Elt F)) : after hostOps0_4 V (no_index (main_v72 : DevRef τ sig)) = dstRaw (eiRel (V (main_arg1 : DevRef τ sig)) 2) := by
  after_results_simp
  rfl
set_option maxHeartbeats 4000000 in
theorem hostOps0_4_cmp (V : Valuation τ sig (Elt F)) :
    after hostOps0_4 V (no_index (main_v78 : DevRef τ sig)) = cmpf .ogt (degOf (F := F) (eiRel (V (main_arg1 : DevRef τ sig)) 2)) (broadcastInDim S50000 ![] bcast_S_S50000 (constant (F := F) S_ .f32 0x00000000#32)) := by
  after_results_simp
  rfl
set_option maxHeartbeats 4000000 in
theorem hostOps0_4_rs (V : Valuation τ sig (Elt F)) : after hostOps0_4 V (no_index (main_v79 : DevRef τ sig)) = Host.rsqrt (degOf (F := F) (eiRel (V (main_arg1 : DevRef τ sig)) 2)) := by
  after_results_simp
  rfl
theorem hostOps0_4_cst (V : Valuation τ sig (Elt F)) : after hostOps0_4 V (no_index (main_cst_17 : DevRef τ sig)) = constant (F := F) S_ .f32 0x00000000#32 := by
  after_results_simp
theorem hostOps0_5_dinv (V : Valuation τ sig (Elt F)) :
    after hostOps0_5 V (no_index (main_v80 : DevRef τ sig)) = select (V (main_v78 : DevRef τ sig)) (V (main_v79 : DevRef τ sig)) (broadcastInDim S50000 ![] bcast_S_S50000 (V (main_cst_17 : DevRef τ sig))) := by
  after_results_simp
  rfl
set_option maxHeartbeats 4000000 in
theorem hostOps0_6_norm (V : Valuation τ sig (Elt F)) :
    after hostOps0_6 V (no_index (main_v95 : DevRef τ sig))
      = mulf (Host.gather gather_S50000_S550000x1_S550000_n_0_n_n_0_1_1 (V (main_v80 : DevRef τ sig)) (idCol (wrapIdx (V (main_v69 : DevRef τ sig)))))
          (Host.gather gather_S50000_S550000x1_S550000_n_0_n_n_0_1_1 (V (main_v80 : DevRef τ sig)) (idCol (wrapIdx (V (main_v72 : DevRef τ sig))))) := by
  after_results_simp
  rfl

/-! ### Relation 3 -/

set_option maxHeartbeats 4000000 in
theorem hostOps0_6_src (V : Valuation τ sig (Elt F)) : after hostOps0_6 V (no_index (main_v101 : DevRef τ sig)) = srcRaw (eiRel (V (main_arg1 : DevRef τ sig)) 3) := by
  after_results_simp
  rfl
set_option maxHeartbeats 4000000 in
theorem hostOps0_6_dst (V : Valuation τ sig (Elt F)) : after hostOps0_6 V (no_index (main_v104 : DevRef τ sig)) = dstRaw (eiRel (V (main_arg1 : DevRef τ sig)) 3) := by
  after_results_simp
  rfl
set_option maxHeartbeats 4000000 in
theorem hostOps0_6_cmp (V : Valuation τ sig (Elt F)) :
    after hostOps0_6 V (no_index (main_v110 : DevRef τ sig)) = cmpf .ogt (degOf (F := F) (eiRel (V (main_arg1 : DevRef τ sig)) 3)) (broadcastInDim S50000 ![] bcast_S_S50000 (constant (F := F) S_ .f32 0x00000000#32)) := by
  after_results_simp
  rfl
set_option maxHeartbeats 4000000 in
theorem hostOps0_6_rs (V : Valuation τ sig (Elt F)) : after hostOps0_6 V (no_index (main_v111 : DevRef τ sig)) = Host.rsqrt (degOf (F := F) (eiRel (V (main_arg1 : DevRef τ sig)) 3)) := by
  after_results_simp
  rfl
theorem hostOps0_6_cst (V : Valuation τ sig (Elt F)) : after hostOps0_6 V (no_index (main_cst_25 : DevRef τ sig)) = constant (F := F) S_ .f32 0x00000000#32 := by
  after_results_simp
theorem hostOps0_7_dinv (V : Valuation τ sig (Elt F)) :
    after hostOps0_7 V (no_index (main_v112 : DevRef τ sig)) = select (V (main_v110 : DevRef τ sig)) (V (main_v111 : DevRef τ sig)) (broadcastInDim S50000 ![] bcast_S_S50000 (V (main_cst_25 : DevRef τ sig))) := by
  after_results_simp
  rfl
set_option maxHeartbeats 4000000 in
theorem hostOps0_8_norm (V : Valuation τ sig (Elt F)) :
    after hostOps0_8 V (no_index (main_v127 : DevRef τ sig))
      = mulf (Host.gather gather_S50000_S550000x1_S550000_n_0_n_n_0_1_1 (V (main_v112 : DevRef τ sig)) (idCol (wrapIdx (V (main_v101 : DevRef τ sig)))))
          (Host.gather gather_S50000_S550000x1_S550000_n_0_n_n_0_1_1 (V (main_v112 : DevRef τ sig)) (idCol (wrapIdx (V (main_v104 : DevRef τ sig))))) := by
  after_results_simp
  rfl

/-! ### The weight table -/

theorem hostOps0_8_wresh (V : Valuation τ sig (Elt F)) : after hostOps0_8 V (no_index (main_v129 : DevRef τ sig)) = wresh (V (main_arg2 : DevRef τ sig)) := by
  after_results_simp
  rfl

/-! ### The nine stretches composed -/

/-- The contents the first launch is entered at, from launch contents `V`. -/
def pre (V : Valuation τ sig (Elt F)) : Valuation τ sig (Elt F) :=
  after hostOps0_8 (after hostOps0_7 (after hostOps0_6 (after hostOps0_5 (after hostOps0_4 (after hostOps0_3
    (after hostOps0_2 (after hostOps0_1 (after hostOps0 V))))))))

/-! What the composed stretches leave in the buffers the launches and the later stretches read. -/

set_option maxHeartbeats 4000000 in
theorem pre_src0 (V : Valuation τ sig (Elt F)) : pre V (no_index (main_v5 : DevRef τ sig)) = srcRaw (eiRel (V (main_arg1 : DevRef τ sig)) 0) := by
  simp (disch := decide) only [pre, hostOps0_frame, hostOps0_1_frame, hostOps0_2_frame, hostOps0_3_frame, hostOps0_4_frame, hostOps0_5_frame, hostOps0_6_frame, hostOps0_7_frame, hostOps0_8_frame,
    hostOps0_src, hostOps0_dst, hostOps0_cmp, hostOps0_rs, hostOps0_cst, hostOps0_1_dinv, hostOps0_2_norm, hostOps0_2_src, hostOps0_2_dst, hostOps0_2_cmp, hostOps0_2_rs, hostOps0_2_cst, hostOps0_3_dinv, hostOps0_4_norm, hostOps0_4_src, hostOps0_4_dst, hostOps0_4_cmp, hostOps0_4_rs, hostOps0_4_cst, hostOps0_5_dinv, hostOps0_6_norm, hostOps0_6_src, hostOps0_6_dst, hostOps0_6_cmp, hostOps0_6_rs, hostOps0_6_cst, hostOps0_7_dinv, hostOps0_8_norm, hostOps0_8_wresh]
set_option maxHeartbeats 4000000 in
theorem pre_dst0 (V : Valuation τ sig (Elt F)) : pre V (no_index (main_v8 : DevRef τ sig)) = dstRaw (eiRel (V (main_arg1 : DevRef τ sig)) 0) := by
  simp (disch := decide) only [pre, hostOps0_frame, hostOps0_1_frame, hostOps0_2_frame, hostOps0_3_frame, hostOps0_4_frame, hostOps0_5_frame, hostOps0_6_frame, hostOps0_7_frame, hostOps0_8_frame,
    hostOps0_src, hostOps0_dst, hostOps0_cmp, hostOps0_rs, hostOps0_cst, hostOps0_1_dinv, hostOps0_2_norm, hostOps0_2_src, hostOps0_2_dst, hostOps0_2_cmp, hostOps0_2_rs, hostOps0_2_cst, hostOps0_3_dinv, hostOps0_4_norm, hostOps0_4_src, hostOps0_4_dst, hostOps0_4_cmp, hostOps0_4_rs, hostOps0_4_cst, hostOps0_5_dinv, hostOps0_6_norm, hostOps0_6_src, hostOps0_6_dst, hostOps0_6_cmp, hostOps0_6_rs, hostOps0_6_cst, hostOps0_7_dinv, hostOps0_8_norm, hostOps0_8_wresh]
set_option maxHeartbeats 4000000 in
theorem pre_norm0 (V : Valuation τ sig (Elt F)) : pre V (no_index (main_v31 : DevRef τ sig)) = normOf (F := F) (eiRel (V (main_arg1 : DevRef τ sig)) 0) := by
  simp (disch := decide) only [pre, hostOps0_frame, hostOps0_1_frame, hostOps0_2_frame, hostOps0_3_frame, hostOps0_4_frame, hostOps0_5_frame, hostOps0_6_frame, hostOps0_7_frame, hostOps0_8_frame,
    hostOps0_src, hostOps0_dst, hostOps0_cmp, hostOps0_rs, hostOps0_cst, hostOps0_1_dinv, hostOps0_2_norm, hostOps0_2_src, hostOps0_2_dst, hostOps0_2_cmp, hostOps0_2_rs, hostOps0_2_cst, hostOps0_3_dinv, hostOps0_4_norm, hostOps0_4_src, hostOps0_4_dst, hostOps0_4_cmp, hostOps0_4_rs, hostOps0_4_cst, hostOps0_5_dinv, hostOps0_6_norm, hostOps0_6_src, hostOps0_6_dst, hostOps0_6_cmp, hostOps0_6_rs, hostOps0_6_cst, hostOps0_7_dinv, hostOps0_8_norm, hostOps0_8_wresh]
  rfl

set_option maxHeartbeats 4000000 in
theorem pre_src1 (V : Valuation τ sig (Elt F)) : pre V (no_index (main_v37 : DevRef τ sig)) = srcRaw (eiRel (V (main_arg1 : DevRef τ sig)) 1) := by
  simp (disch := decide) only [pre, hostOps0_frame, hostOps0_1_frame, hostOps0_2_frame, hostOps0_3_frame, hostOps0_4_frame, hostOps0_5_frame, hostOps0_6_frame, hostOps0_7_frame, hostOps0_8_frame,
    hostOps0_src, hostOps0_dst, hostOps0_cmp, hostOps0_rs, hostOps0_cst, hostOps0_1_dinv, hostOps0_2_norm, hostOps0_2_src, hostOps0_2_dst, hostOps0_2_cmp, hostOps0_2_rs, hostOps0_2_cst, hostOps0_3_dinv, hostOps0_4_norm, hostOps0_4_src, hostOps0_4_dst, hostOps0_4_cmp, hostOps0_4_rs, hostOps0_4_cst, hostOps0_5_dinv, hostOps0_6_norm, hostOps0_6_src, hostOps0_6_dst, hostOps0_6_cmp, hostOps0_6_rs, hostOps0_6_cst, hostOps0_7_dinv, hostOps0_8_norm, hostOps0_8_wresh]
set_option maxHeartbeats 4000000 in
theorem pre_dst1 (V : Valuation τ sig (Elt F)) : pre V (no_index (main_v40 : DevRef τ sig)) = dstRaw (eiRel (V (main_arg1 : DevRef τ sig)) 1) := by
  simp (disch := decide) only [pre, hostOps0_frame, hostOps0_1_frame, hostOps0_2_frame, hostOps0_3_frame, hostOps0_4_frame, hostOps0_5_frame, hostOps0_6_frame, hostOps0_7_frame, hostOps0_8_frame,
    hostOps0_src, hostOps0_dst, hostOps0_cmp, hostOps0_rs, hostOps0_cst, hostOps0_1_dinv, hostOps0_2_norm, hostOps0_2_src, hostOps0_2_dst, hostOps0_2_cmp, hostOps0_2_rs, hostOps0_2_cst, hostOps0_3_dinv, hostOps0_4_norm, hostOps0_4_src, hostOps0_4_dst, hostOps0_4_cmp, hostOps0_4_rs, hostOps0_4_cst, hostOps0_5_dinv, hostOps0_6_norm, hostOps0_6_src, hostOps0_6_dst, hostOps0_6_cmp, hostOps0_6_rs, hostOps0_6_cst, hostOps0_7_dinv, hostOps0_8_norm, hostOps0_8_wresh]
set_option maxHeartbeats 4000000 in
theorem pre_norm1 (V : Valuation τ sig (Elt F)) : pre V (no_index (main_v63 : DevRef τ sig)) = normOf (F := F) (eiRel (V (main_arg1 : DevRef τ sig)) 1) := by
  simp (disch := decide) only [pre, hostOps0_frame, hostOps0_1_frame, hostOps0_2_frame, hostOps0_3_frame, hostOps0_4_frame, hostOps0_5_frame, hostOps0_6_frame, hostOps0_7_frame, hostOps0_8_frame,
    hostOps0_src, hostOps0_dst, hostOps0_cmp, hostOps0_rs, hostOps0_cst, hostOps0_1_dinv, hostOps0_2_norm, hostOps0_2_src, hostOps0_2_dst, hostOps0_2_cmp, hostOps0_2_rs, hostOps0_2_cst, hostOps0_3_dinv, hostOps0_4_norm, hostOps0_4_src, hostOps0_4_dst, hostOps0_4_cmp, hostOps0_4_rs, hostOps0_4_cst, hostOps0_5_dinv, hostOps0_6_norm, hostOps0_6_src, hostOps0_6_dst, hostOps0_6_cmp, hostOps0_6_rs, hostOps0_6_cst, hostOps0_7_dinv, hostOps0_8_norm, hostOps0_8_wresh]
  rfl

set_option maxHeartbeats 4000000 in
theorem pre_src2 (V : Valuation τ sig (Elt F)) : pre V (no_index (main_v69 : DevRef τ sig)) = srcRaw (eiRel (V (main_arg1 : DevRef τ sig)) 2) := by
  simp (disch := decide) only [pre, hostOps0_frame, hostOps0_1_frame, hostOps0_2_frame, hostOps0_3_frame, hostOps0_4_frame, hostOps0_5_frame, hostOps0_6_frame, hostOps0_7_frame, hostOps0_8_frame,
    hostOps0_src, hostOps0_dst, hostOps0_cmp, hostOps0_rs, hostOps0_cst, hostOps0_1_dinv, hostOps0_2_norm, hostOps0_2_src, hostOps0_2_dst, hostOps0_2_cmp, hostOps0_2_rs, hostOps0_2_cst, hostOps0_3_dinv, hostOps0_4_norm, hostOps0_4_src, hostOps0_4_dst, hostOps0_4_cmp, hostOps0_4_rs, hostOps0_4_cst, hostOps0_5_dinv, hostOps0_6_norm, hostOps0_6_src, hostOps0_6_dst, hostOps0_6_cmp, hostOps0_6_rs, hostOps0_6_cst, hostOps0_7_dinv, hostOps0_8_norm, hostOps0_8_wresh]
set_option maxHeartbeats 4000000 in
theorem pre_dst2 (V : Valuation τ sig (Elt F)) : pre V (no_index (main_v72 : DevRef τ sig)) = dstRaw (eiRel (V (main_arg1 : DevRef τ sig)) 2) := by
  simp (disch := decide) only [pre, hostOps0_frame, hostOps0_1_frame, hostOps0_2_frame, hostOps0_3_frame, hostOps0_4_frame, hostOps0_5_frame, hostOps0_6_frame, hostOps0_7_frame, hostOps0_8_frame,
    hostOps0_src, hostOps0_dst, hostOps0_cmp, hostOps0_rs, hostOps0_cst, hostOps0_1_dinv, hostOps0_2_norm, hostOps0_2_src, hostOps0_2_dst, hostOps0_2_cmp, hostOps0_2_rs, hostOps0_2_cst, hostOps0_3_dinv, hostOps0_4_norm, hostOps0_4_src, hostOps0_4_dst, hostOps0_4_cmp, hostOps0_4_rs, hostOps0_4_cst, hostOps0_5_dinv, hostOps0_6_norm, hostOps0_6_src, hostOps0_6_dst, hostOps0_6_cmp, hostOps0_6_rs, hostOps0_6_cst, hostOps0_7_dinv, hostOps0_8_norm, hostOps0_8_wresh]
set_option maxHeartbeats 4000000 in
theorem pre_norm2 (V : Valuation τ sig (Elt F)) : pre V (no_index (main_v95 : DevRef τ sig)) = normOf (F := F) (eiRel (V (main_arg1 : DevRef τ sig)) 2) := by
  simp (disch := decide) only [pre, hostOps0_frame, hostOps0_1_frame, hostOps0_2_frame, hostOps0_3_frame, hostOps0_4_frame, hostOps0_5_frame, hostOps0_6_frame, hostOps0_7_frame, hostOps0_8_frame,
    hostOps0_src, hostOps0_dst, hostOps0_cmp, hostOps0_rs, hostOps0_cst, hostOps0_1_dinv, hostOps0_2_norm, hostOps0_2_src, hostOps0_2_dst, hostOps0_2_cmp, hostOps0_2_rs, hostOps0_2_cst, hostOps0_3_dinv, hostOps0_4_norm, hostOps0_4_src, hostOps0_4_dst, hostOps0_4_cmp, hostOps0_4_rs, hostOps0_4_cst, hostOps0_5_dinv, hostOps0_6_norm, hostOps0_6_src, hostOps0_6_dst, hostOps0_6_cmp, hostOps0_6_rs, hostOps0_6_cst, hostOps0_7_dinv, hostOps0_8_norm, hostOps0_8_wresh]
  rfl

set_option maxHeartbeats 4000000 in
theorem pre_src3 (V : Valuation τ sig (Elt F)) : pre V (no_index (main_v101 : DevRef τ sig)) = srcRaw (eiRel (V (main_arg1 : DevRef τ sig)) 3) := by
  simp (disch := decide) only [pre, hostOps0_frame, hostOps0_1_frame, hostOps0_2_frame, hostOps0_3_frame, hostOps0_4_frame, hostOps0_5_frame, hostOps0_6_frame, hostOps0_7_frame, hostOps0_8_frame,
    hostOps0_src, hostOps0_dst, hostOps0_cmp, hostOps0_rs, hostOps0_cst, hostOps0_1_dinv, hostOps0_2_norm, hostOps0_2_src, hostOps0_2_dst, hostOps0_2_cmp, hostOps0_2_rs, hostOps0_2_cst, hostOps0_3_dinv, hostOps0_4_norm, hostOps0_4_src, hostOps0_4_dst, hostOps0_4_cmp, hostOps0_4_rs, hostOps0_4_cst, hostOps0_5_dinv, hostOps0_6_norm, hostOps0_6_src, hostOps0_6_dst, hostOps0_6_cmp, hostOps0_6_rs, hostOps0_6_cst, hostOps0_7_dinv, hostOps0_8_norm, hostOps0_8_wresh]
set_option maxHeartbeats 4000000 in
theorem pre_dst3 (V : Valuation τ sig (Elt F)) : pre V (no_index (main_v104 : DevRef τ sig)) = dstRaw (eiRel (V (main_arg1 : DevRef τ sig)) 3) := by
  simp (disch := decide) only [pre, hostOps0_frame, hostOps0_1_frame, hostOps0_2_frame, hostOps0_3_frame, hostOps0_4_frame, hostOps0_5_frame, hostOps0_6_frame, hostOps0_7_frame, hostOps0_8_frame,
    hostOps0_src, hostOps0_dst, hostOps0_cmp, hostOps0_rs, hostOps0_cst, hostOps0_1_dinv, hostOps0_2_norm, hostOps0_2_src, hostOps0_2_dst, hostOps0_2_cmp, hostOps0_2_rs, hostOps0_2_cst, hostOps0_3_dinv, hostOps0_4_norm, hostOps0_4_src, hostOps0_4_dst, hostOps0_4_cmp, hostOps0_4_rs, hostOps0_4_cst, hostOps0_5_dinv, hostOps0_6_norm, hostOps0_6_src, hostOps0_6_dst, hostOps0_6_cmp, hostOps0_6_rs, hostOps0_6_cst, hostOps0_7_dinv, hostOps0_8_norm, hostOps0_8_wresh]
set_option maxHeartbeats 4000000 in
theorem pre_norm3 (V : Valuation τ sig (Elt F)) : pre V (no_index (main_v127 : DevRef τ sig)) = normOf (F := F) (eiRel (V (main_arg1 : DevRef τ sig)) 3) := by
  simp (disch := decide) only [pre, hostOps0_frame, hostOps0_1_frame, hostOps0_2_frame, hostOps0_3_frame, hostOps0_4_frame, hostOps0_5_frame, hostOps0_6_frame, hostOps0_7_frame, hostOps0_8_frame,
    hostOps0_src, hostOps0_dst, hostOps0_cmp, hostOps0_rs, hostOps0_cst, hostOps0_1_dinv, hostOps0_2_norm, hostOps0_2_src, hostOps0_2_dst, hostOps0_2_cmp, hostOps0_2_rs, hostOps0_2_cst, hostOps0_3_dinv, hostOps0_4_norm, hostOps0_4_src, hostOps0_4_dst, hostOps0_4_cmp, hostOps0_4_rs, hostOps0_4_cst, hostOps0_5_dinv, hostOps0_6_norm, hostOps0_6_src, hostOps0_6_dst, hostOps0_6_cmp, hostOps0_6_rs, hostOps0_6_cst, hostOps0_7_dinv, hostOps0_8_norm, hostOps0_8_wresh]
  rfl

set_option maxHeartbeats 4000000 in
theorem pre_wresh (V : Valuation τ sig (Elt F)) : pre V (no_index (main_v129 : DevRef τ sig)) = wresh (V (main_arg2 : DevRef τ sig)) := by
  simp (disch := decide) only [pre, hostOps0_frame, hostOps0_1_frame, hostOps0_2_frame, hostOps0_3_frame, hostOps0_4_frame, hostOps0_5_frame, hostOps0_6_frame, hostOps0_7_frame, hostOps0_8_frame,
    hostOps0_src, hostOps0_dst, hostOps0_cmp, hostOps0_rs, hostOps0_cst, hostOps0_1_dinv, hostOps0_2_norm, hostOps0_2_src, hostOps0_2_dst, hostOps0_2_cmp, hostOps0_2_rs, hostOps0_2_cst, hostOps0_3_dinv, hostOps0_4_norm, hostOps0_4_src, hostOps0_4_dst, hostOps0_4_cmp, hostOps0_4_rs, hostOps0_4_cst, hostOps0_5_dinv, hostOps0_6_norm, hostOps0_6_src, hostOps0_6_dst, hostOps0_6_cmp, hostOps0_6_rs, hostOps0_6_cst, hostOps0_7_dinv, hostOps0_8_norm, hostOps0_8_wresh]

theorem pre_arg0 (V : Valuation τ sig (Elt F)) : pre V (no_index (main_arg0 : DevRef τ sig)) = V (main_arg0 : DevRef τ sig) := by
  simp (disch := decide) only [pre, hostOps0_frame, hostOps0_1_frame, hostOps0_2_frame, hostOps0_3_frame, hostOps0_4_frame, hostOps0_5_frame, hostOps0_6_frame, hostOps0_7_frame, hostOps0_8_frame,
    hostOps0_src, hostOps0_dst, hostOps0_cmp, hostOps0_rs, hostOps0_cst, hostOps0_1_dinv, hostOps0_2_norm, hostOps0_2_src, hostOps0_2_dst, hostOps0_2_cmp, hostOps0_2_rs, hostOps0_2_cst, hostOps0_3_dinv, hostOps0_4_norm, hostOps0_4_src, hostOps0_4_dst, hostOps0_4_cmp, hostOps0_4_rs, hostOps0_4_cst, hostOps0_5_dinv, hostOps0_6_norm, hostOps0_6_src, hostOps0_6_dst, hostOps0_6_cmp, hostOps0_6_rs, hostOps0_6_cst, hostOps0_7_dinv, hostOps0_8_norm, hostOps0_8_wresh]

theorem pre_arg1 (V : Valuation τ sig (Elt F)) : pre V (no_index (main_arg1 : DevRef τ sig)) = V (main_arg1 : DevRef τ sig) := by
  simp (disch := decide) only [pre, hostOps0_frame, hostOps0_1_frame, hostOps0_2_frame, hostOps0_3_frame, hostOps0_4_frame, hostOps0_5_frame, hostOps0_6_frame, hostOps0_7_frame, hostOps0_8_frame,
    hostOps0_src, hostOps0_dst, hostOps0_cmp, hostOps0_rs, hostOps0_cst, hostOps0_1_dinv, hostOps0_2_norm, hostOps0_2_src, hostOps0_2_dst, hostOps0_2_cmp, hostOps0_2_rs, hostOps0_2_cst, hostOps0_3_dinv, hostOps0_4_norm, hostOps0_4_src, hostOps0_4_dst, hostOps0_4_cmp, hostOps0_4_rs, hostOps0_4_cst, hostOps0_5_dinv, hostOps0_6_norm, hostOps0_6_src, hostOps0_6_dst, hostOps0_6_cmp, hostOps0_6_rs, hostOps0_6_cst, hostOps0_7_dinv, hostOps0_8_norm, hostOps0_8_wresh]

theorem pre_arg2 (V : Valuation τ sig (Elt F)) : pre V (no_index (main_arg2 : DevRef τ sig)) = V (main_arg2 : DevRef τ sig) := by
  simp (disch := decide) only [pre, hostOps0_frame, hostOps0_1_frame, hostOps0_2_frame, hostOps0_3_frame, hostOps0_4_frame, hostOps0_5_frame, hostOps0_6_frame, hostOps0_7_frame, hostOps0_8_frame,
    hostOps0_src, hostOps0_dst, hostOps0_cmp, hostOps0_rs, hostOps0_cst, hostOps0_1_dinv, hostOps0_2_norm, hostOps0_2_src, hostOps0_2_dst, hostOps0_2_cmp, hostOps0_2_rs, hostOps0_2_cst, hostOps0_3_dinv, hostOps0_4_norm, hostOps0_4_src, hostOps0_4_dst, hostOps0_4_cmp, hostOps0_4_rs, hostOps0_4_cst, hostOps0_5_dinv, hostOps0_6_norm, hostOps0_6_src, hostOps0_6_dst, hostOps0_6_cmp, hostOps0_6_rs, hostOps0_6_cst, hostOps0_7_dinv, hostOps0_8_norm, hostOps0_8_wresh]

theorem pre_arg3 (V : Valuation τ sig (Elt F)) : pre V (no_index (main_arg3 : DevRef τ sig)) = V (main_arg3 : DevRef τ sig) := by
  simp (disch := decide) only [pre, hostOps0_frame, hostOps0_1_frame, hostOps0_2_frame, hostOps0_3_frame, hostOps0_4_frame, hostOps0_5_frame, hostOps0_6_frame, hostOps0_7_frame, hostOps0_8_frame,
    hostOps0_src, hostOps0_dst, hostOps0_cmp, hostOps0_rs, hostOps0_cst, hostOps0_1_dinv, hostOps0_2_norm, hostOps0_2_src, hostOps0_2_dst, hostOps0_2_cmp, hostOps0_2_rs, hostOps0_2_cst, hostOps0_3_dinv, hostOps0_4_norm, hostOps0_4_src, hostOps0_4_dst, hostOps0_4_cmp, hostOps0_4_rs, hostOps0_4_cst, hostOps0_5_dinv, hostOps0_6_norm, hostOps0_6_src, hostOps0_6_dst, hostOps0_6_cmp, hostOps0_6_rs, hostOps0_6_cst, hostOps0_7_dinv, hostOps0_8_norm, hostOps0_8_wresh]

theorem pre_arg4 (V : Valuation τ sig (Elt F)) : pre V (no_index (main_arg4 : DevRef τ sig)) = V (main_arg4 : DevRef τ sig) := by
  simp (disch := decide) only [pre, hostOps0_frame, hostOps0_1_frame, hostOps0_2_frame, hostOps0_3_frame, hostOps0_4_frame, hostOps0_5_frame, hostOps0_6_frame, hostOps0_7_frame, hostOps0_8_frame,
    hostOps0_src, hostOps0_dst, hostOps0_cmp, hostOps0_rs, hostOps0_cst, hostOps0_1_dinv, hostOps0_2_norm, hostOps0_2_src, hostOps0_2_dst, hostOps0_2_cmp, hostOps0_2_rs, hostOps0_2_cst, hostOps0_3_dinv, hostOps0_4_norm, hostOps0_4_src, hostOps0_4_dst, hostOps0_4_cmp, hostOps0_4_rs, hostOps0_4_cst, hostOps0_5_dinv, hostOps0_6_norm, hostOps0_6_src, hostOps0_6_dst, hostOps0_6_cmp, hostOps0_6_rs, hostOps0_6_cst, hostOps0_7_dinv, hostOps0_8_norm, hostOps0_8_wresh]

theorem pre_arg5 (V : Valuation τ sig (Elt F)) : pre V (no_index (main_arg5 : DevRef τ sig)) = V (main_arg5 : DevRef τ sig) := by
  simp (disch := decide) only [pre, hostOps0_frame, hostOps0_1_frame, hostOps0_2_frame, hostOps0_3_frame, hostOps0_4_frame, hostOps0_5_frame, hostOps0_6_frame, hostOps0_7_frame, hostOps0_8_frame,
    hostOps0_src, hostOps0_dst, hostOps0_cmp, hostOps0_rs, hostOps0_cst, hostOps0_1_dinv, hostOps0_2_norm, hostOps0_2_src, hostOps0_2_dst, hostOps0_2_cmp, hostOps0_2_rs, hostOps0_2_cst, hostOps0_3_dinv, hostOps0_4_norm, hostOps0_4_src, hostOps0_4_dst, hostOps0_4_cmp, hostOps0_4_rs, hostOps0_4_cst, hostOps0_5_dinv, hostOps0_6_norm, hostOps0_6_src, hostOps0_6_dst, hostOps0_6_cmp, hostOps0_6_rs, hostOps0_6_cst, hostOps0_7_dinv, hostOps0_8_norm, hostOps0_8_wresh]

theorem pre_arg6 (V : Valuation τ sig (Elt F)) : pre V (no_index (main_arg6 : DevRef τ sig)) = V (main_arg6 : DevRef τ sig) := by
  simp (disch := decide) only [pre, hostOps0_frame, hostOps0_1_frame, hostOps0_2_frame, hostOps0_3_frame, hostOps0_4_frame, hostOps0_5_frame, hostOps0_6_frame, hostOps0_7_frame, hostOps0_8_frame,
    hostOps0_src, hostOps0_dst, hostOps0_cmp, hostOps0_rs, hostOps0_cst, hostOps0_1_dinv, hostOps0_2_norm, hostOps0_2_src, hostOps0_2_dst, hostOps0_2_cmp, hostOps0_2_rs, hostOps0_2_cst, hostOps0_3_dinv, hostOps0_4_norm, hostOps0_4_src, hostOps0_4_dst, hostOps0_4_cmp, hostOps0_4_rs, hostOps0_4_cst, hostOps0_5_dinv, hostOps0_6_norm, hostOps0_6_src, hostOps0_6_dst, hostOps0_6_cmp, hostOps0_6_rs, hostOps0_6_cst, hostOps0_7_dinv, hostOps0_8_norm, hostOps0_8_wresh]

theorem pre_arg7 (V : Valuation τ sig (Elt F)) : pre V (no_index (main_arg7 : DevRef τ sig)) = V (main_arg7 : DevRef τ sig) := by
  simp (disch := decide) only [pre, hostOps0_frame, hostOps0_1_frame, hostOps0_2_frame, hostOps0_3_frame, hostOps0_4_frame, hostOps0_5_frame, hostOps0_6_frame, hostOps0_7_frame, hostOps0_8_frame,
    hostOps0_src, hostOps0_dst, hostOps0_cmp, hostOps0_rs, hostOps0_cst, hostOps0_1_dinv, hostOps0_2_norm, hostOps0_2_src, hostOps0_2_dst, hostOps0_2_cmp, hostOps0_2_rs, hostOps0_2_cst, hostOps0_3_dinv, hostOps0_4_norm, hostOps0_4_src, hostOps0_4_dst, hostOps0_4_cmp, hostOps0_4_rs, hostOps0_4_cst, hostOps0_5_dinv, hostOps0_6_norm, hostOps0_6_src, hostOps0_6_dst, hostOps0_6_cmp, hostOps0_6_rs, hostOps0_6_cst, hostOps0_7_dinv, hostOps0_8_norm, hostOps0_8_wresh]

theorem pre_arg8 (V : Valuation τ sig (Elt F)) : pre V (no_index (main_arg8 : DevRef τ sig)) = V (main_arg8 : DevRef τ sig) := by
  simp (disch := decide) only [pre, hostOps0_frame, hostOps0_1_frame, hostOps0_2_frame, hostOps0_3_frame, hostOps0_4_frame, hostOps0_5_frame, hostOps0_6_frame, hostOps0_7_frame, hostOps0_8_frame,
    hostOps0_src, hostOps0_dst, hostOps0_cmp, hostOps0_rs, hostOps0_cst, hostOps0_1_dinv, hostOps0_2_norm, hostOps0_2_src, hostOps0_2_dst, hostOps0_2_cmp, hostOps0_2_rs, hostOps0_2_cst, hostOps0_3_dinv, hostOps0_4_norm, hostOps0_4_src, hostOps0_4_dst, hostOps0_4_cmp, hostOps0_4_rs, hostOps0_4_cst, hostOps0_5_dinv, hostOps0_6_norm, hostOps0_6_src, hostOps0_6_dst, hostOps0_6_cmp, hostOps0_6_rs, hostOps0_6_cst, hostOps0_7_dinv, hostOps0_8_norm, hostOps0_8_wresh]

theorem pre_arg9 (V : Valuation τ sig (Elt F)) : pre V (no_index (main_arg9 : DevRef τ sig)) = V (main_arg9 : DevRef τ sig) := by
  simp (disch := decide) only [pre, hostOps0_frame, hostOps0_1_frame, hostOps0_2_frame, hostOps0_3_frame, hostOps0_4_frame, hostOps0_5_frame, hostOps0_6_frame, hostOps0_7_frame, hostOps0_8_frame,
    hostOps0_src, hostOps0_dst, hostOps0_cmp, hostOps0_rs, hostOps0_cst, hostOps0_1_dinv, hostOps0_2_norm, hostOps0_2_src, hostOps0_2_dst, hostOps0_2_cmp, hostOps0_2_rs, hostOps0_2_cst, hostOps0_3_dinv, hostOps0_4_norm, hostOps0_4_src, hostOps0_4_dst, hostOps0_4_cmp, hostOps0_4_rs, hostOps0_4_cst, hostOps0_5_dinv, hostOps0_6_norm, hostOps0_6_src, hostOps0_6_dst, hostOps0_6_cmp, hostOps0_6_rs, hostOps0_6_cst, hostOps0_7_dinv, hostOps0_8_norm, hostOps0_8_wresh]

theorem pre_arg10 (V : Valuation τ sig (Elt F)) : pre V (no_index (main_arg10 : DevRef τ sig)) = V (main_arg10 : DevRef τ sig) := by
  simp (disch := decide) only [pre, hostOps0_frame, hostOps0_1_frame, hostOps0_2_frame, hostOps0_3_frame, hostOps0_4_frame, hostOps0_5_frame, hostOps0_6_frame, hostOps0_7_frame, hostOps0_8_frame,
    hostOps0_src, hostOps0_dst, hostOps0_cmp, hostOps0_rs, hostOps0_cst, hostOps0_1_dinv, hostOps0_2_norm, hostOps0_2_src, hostOps0_2_dst, hostOps0_2_cmp, hostOps0_2_rs, hostOps0_2_cst, hostOps0_3_dinv, hostOps0_4_norm, hostOps0_4_src, hostOps0_4_dst, hostOps0_4_cmp, hostOps0_4_rs, hostOps0_4_cst, hostOps0_5_dinv, hostOps0_6_norm, hostOps0_6_src, hostOps0_6_dst, hostOps0_6_cmp, hostOps0_6_rs, hostOps0_6_cst, hostOps0_7_dinv, hostOps0_8_norm, hostOps0_8_wresh]

theorem pre_arg11 (V : Valuation τ sig (Elt F)) : pre V (no_index (main_arg11 : DevRef τ sig)) = V (main_arg11 : DevRef τ sig) := by
  simp (disch := decide) only [pre, hostOps0_frame, hostOps0_1_frame, hostOps0_2_frame, hostOps0_3_frame, hostOps0_4_frame, hostOps0_5_frame, hostOps0_6_frame, hostOps0_7_frame, hostOps0_8_frame,
    hostOps0_src, hostOps0_dst, hostOps0_cmp, hostOps0_rs, hostOps0_cst, hostOps0_1_dinv, hostOps0_2_norm, hostOps0_2_src, hostOps0_2_dst, hostOps0_2_cmp, hostOps0_2_rs, hostOps0_2_cst, hostOps0_3_dinv, hostOps0_4_norm, hostOps0_4_src, hostOps0_4_dst, hostOps0_4_cmp, hostOps0_4_rs, hostOps0_4_cst, hostOps0_5_dinv, hostOps0_6_norm, hostOps0_6_src, hostOps0_6_dst, hostOps0_6_cmp, hostOps0_6_rs, hostOps0_6_cst, hostOps0_7_dinv, hostOps0_8_norm, hostOps0_8_wresh]

end Cert.KernelIdeal.Read

end
-- ==== Proof.KiSpec.lean ====
/- The kernel program's computation as a function of the argument arrays, at the ideal values: a layer is the launched
   product of the features with the re-laid weight table, each relation's aggregation of its own column group, and the
   launched four-way sum with the summed bias row and the cut-off at zero. -/
import proofs.«115534_j8151847928363_1_alg».proof.Proof.KiStages
import proofs.«115534_j8151847928363_1_alg».proof.Proof.KiOut0
import proofs.«115534_j8151847928363_1_alg».proof.Proof.KiOut1

noncomputable section

namespace Cert.KernelIdeal.Read

open Cert.KernelIdeal Cert.KernelIdeal.Gen Idealize.ShloMosaic
open Cert.ReferenceIdeal.RefRead (eiRel)

/-- One layer of the kernel program over features `x`: the first launch's product with the four relations' weights side by
    side, the four aggregations side by side, and the second launch's sum of the four column groups plus the summed
    biases, cut off at zero. -/
def layerK (ei : IVec S4x2x500000 32) (x : FVec Ideal S50000x128 .f32) (W : FVec Ideal S4x128x128 .f32)
    (b : FVec Ideal S4x128 .f32) : FVec Ideal S50000x128 .f32 :=
  Out.G1 (aggAll (F := Ideal) (eiRel ei 0) (eiRel ei 1) (eiRel ei 2) (eiRel ei 3) (Out.G0 x (wresh (F := Ideal) W))) (biasRow (F := Ideal) b)

end Cert.KernelIdeal.Read

end
-- ==== Proof.KiOut2.lean ====
/-
  The product of the row-blocked operand with the weights, read as one function of the whole arrays: after the last row
  block the result array holds, at row n and column j, the sum over k of x(n, k) w(k, j).
-/
import proofs.«115534_j8151847928363_1_alg».proof.Proof.KiReg2
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Out

open Cert.KernelIdeal Cert.KernelIdeal.Gen Cert.KernelIdeal.Frm
open Idealize.ShloMosaic Idealize.ShloMosaic.TcCoe Idealize.SL.Sem
open Idealize.ShloMosaic.ValueIdx
open Idealize.ShloMosaic.Pipeline (Dat)
open scoped BigOperators

/-- Row n, column j of the product: the sum over k of x(n, k) w(k, j). -/
def row2 (x : S50000x128.Idx → EReal) (w : S128x512.Idx → EReal) (n : Fin 50000) (j : Fin 512) : EReal :=
  ∑ k : Fin 128, x (ix2 n k) * w (ix2 k j)

/-- The whole result array as a function of the two operand arrays. -/
def G2 (x : S50000x128.Idx → EReal) (w : S128x512.Idx → EReal) : S50000x512.Idx → EReal :=
  fun i => row2 x w (i 0) (i 1)

/-- A 2000 x 128 by 128 x 512 product accumulated into zero, at (p, q): the sum over k of l(p, k) r(k, q). -/
theorem matmul2_apply (l : FVec Ideal S2000x128 .bf16) (r : FVec Ideal S128x512 .bf16) (p : Fin 2000) (q : Fin 512) :
    matmul dot_S2000x128_S128x512_S2000x512_1_0_0_1_n_n none l r (constant (F := Ideal) S2000x512 .f32 0x00000000#32) (ix2 p q)
      = ∑ k : Fin 128, l (ix2 p k) * r (ix2 k q) := by
  have hr : dot_S2000x128_S128x512_S2000x512_1_0_0_1_n_n.contr.rank = 1 := rfl
  have hs : dot_S2000x128_S128x512_S2000x512_1_0_0_1_n_n.contr.size ⟨0, by omega⟩ = 128 := rfl
  refine (Ideal.matmul_constant_zero_apply dot_S2000x128_S128x512_S2000x512_1_0_0_1_n_n none l r (ix2 p q)).trans ?_
  rw [← Equiv.sum_comp (contrEquiv1 dot_S2000x128_S128x512_S2000x512_1_0_0_1_n_n 128 hr hs).symm]
  refine Finset.sum_congr rfl fun k _ => ?_
  have hk := contrEquiv1_symm_val dot_S2000x128_S128x512_S2000x512_1_0_0_1_n_n 128 hr hs k
  congr 1
  · congr 1; funext a; apply Fin.ext
    match a with
    | ⟨0, _⟩ => rfl
    | ⟨1, _⟩ => exact (DotDims.lhsIdx_val_of_single _ (cl := (1 : Fin 2)) rfl _ _).trans hk
  · congr 1; funext a; apply Fin.ext
    match a with
    | ⟨0, _⟩ => exact (DotDims.rhsIdx_val_of_single _ (cr := (0 : Fin 2)) rfl _ _).trans hk
    | ⟨1, _⟩ => rfl

/-- The body's value at row p, column q of a block. -/
theorem pay2_apply (v0 : Vec Ideal S2000x128 .f32) (v2 : Vec Ideal S128x512 .f32) (p : Fin 2000) (q : Fin 512) :
    k2_pay1 v0 v2 (ix2 p q) = ∑ k : Fin 128, v0 (ix2 p k) * v2 (ix2 k q) := by
  unfold k2_pay1
  simp only [shapeCast_self]
  exact matmul2_apply _ _ p q

theorem zero_offsets2 : (![0, 0] : Fin 2 → Nat) = fun _ => 0 := funext fun a => by fin_cases a <;> rfl

/-- The result block at row p and column q, from the operand blocks. -/
theorem res2_apply (x0 : Vec Ideal S2000x128 .f32) (x1 : Vec Ideal S128x512 .f32) (p : Fin 2000) (q : Fin 512) :
    res2 x0 x1 (ix2 p q) = ∑ k : Fin 128, x0 (ix2 p k) * x1 (ix2 k q) := by
  unfold res2
  rw [View.canon_unit_zero zero_offsets2, pay2_apply, View.ld_unit_zero (S := S2000x128) zero_offsets2,
    View.ld_unit_zero (S := S128x512) zero_offsets2]

variable (V : (c : Dev nD) → (b : Ref sig .tc) → Buf (Elt Ideal) ((c : Thread nD τ).loc b))

/-- The block indices at row block t: (t, 0) for the row-blocked operand and for the result, (0, 0) for the weights. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the first operand's block at row block t is row 2000 t + p of the array. -/
theorem blk2_0_apply (c : Dev nD) (t : Fin cfg2.N) (p : Fin 2000) (q : Fin 128) (n : Fin 50000) (hn : n.val = t.val * 2000 + p.val) :
    (blk2 V c 0 t : Vec Ideal S2000x128 .f32) (ix2 p q) = (V c (Pipeline.arrRef spec2 0) : S50000x128.Idx → EReal) (ix2 n q) := by
  obtain ⟨e0, e1, -⟩ := idx_facts2 t
  unfold blk2
  rw [View.read_apply]
  show V c (Pipeline.arrRef spec2 0) _ = V c (Pipeline.arrRef spec2 0) _
  congr 1
  funext a
  apply Fin.ext
  match a with
  | ⟨0, _⟩ => show win2_0.index t 0 * 2000 + 1 * p.val = n.val; rw [e0, hn]; omega
  | ⟨1, _⟩ => show win2_0.index t 1 * 128 + 1 * q.val = q.val; rw [e1]; omega

/-- The second operand's block is the whole weight array at every row block. -/
theorem blk2_1_apply (c : Dev nD) (t : Fin cfg2.N) (k : Fin 128) (q : Fin 512) :
    (blk2 V c 1 t : Vec Ideal S128x512 .f32) (ix2 k q) = (V c (Pipeline.arrRef spec2 1) : S128x512.Idx → EReal) (ix2 k q) := by
  obtain ⟨-, -, e2, e3, -⟩ := idx_facts2 t
  unfold blk2
  rw [View.read_apply]
  show V c (Pipeline.arrRef spec2 1) _ = V c (Pipeline.arrRef spec2 1) _
  congr 1
  funext a
  apply Fin.ext
  match a with
  | ⟨0, _⟩ => show win2_1.index t 0 * 128 + 1 * k.val = k.val; rw [e2]; omega
  | ⟨1, _⟩ => show win2_1.index t 1 * 512 + 1 * q.val = q.val; rw [e3]; omega

/-- What row block t writes back is block t of `G2` of the operand arrays at the region's entry. -/
theorem flushed2_eq (c : Dev nD) (t : Fin cfg2.N) :
    (dat2 (F := Ideal) V c).flushed 2 t
      = ((cfg2.win 2).blk t).view.read (Elt Ideal) (G2 (V c (Pipeline.arrRef spec2 0)) (V c (Pipeline.arrRef spec2 1))) := by
  show (cfg2.win 2).cut (grid2.coords t) ((dat2 V c).after 2 t) = _
  rw [after2_2]
  obtain ⟨-, -, -, -, e4, e5⟩ := idx_facts2 t
  have hN : cfg2.N = 25 := N_2
  have ht : t.val < 25 := hN ▸ t.isLt
  funext y
  obtain ⟨p, q, rfl⟩ : ∃ (p : Fin 2000) (q : Fin 512), y = ix2 p q := ⟨y 0, y 1, eq_ix2 y⟩
  have hn : t.val * 2000 + p.val < 50000 := by have := p.isLt; omega
  trans row2 (V c (Pipeline.arrRef spec2 0)) (V c (Pipeline.arrRef spec2 1)) ⟨t.val * 2000 + p.val, hn⟩ q
  · show res2 (blk2 V c 0 t) (blk2 V c 1 t) (ix2 p q) = _
    rw [res2_apply]
    unfold row2
    exact Finset.sum_congr rfl fun k _ => by rw [blk2_0_apply V c t p k ⟨_, hn⟩ rfl, blk2_1_apply V c t k q]
  · have he : ((cfg2.win 2).blk t).view.emb (ix2 p q) = (ix2 (⟨t.val * 2000 + p.val, hn⟩ : Fin 50000) q : S50000x512.Idx) := by
      funext a; apply Fin.ext
      match a with
      | ⟨0, _⟩ => show win2_2.index t 0 * 2000 + 1 * p.val = t.val * 2000 + p.val; rw [e4]; omega
      | ⟨1, _⟩ => show win2_2.index t 1 * 512 + 1 * q.val = q.val; rw [e5]; omega
    rw [View.read_apply]
    exact (congrArg (G2 (V c (Pipeline.arrRef spec2 0)) (V c (Pipeline.arrRef spec2 1))) he).symm

/-- Row n of the array lies in the block of row block n / 2000. -/
theorem cover2 (i : S50000x512.Idx) : ∃ t : Fin cfg2.N, (cfg2.win 2).flush t = true ∧ i ∈ ((cfg2.win 2).blk t).view.set := by
  have h0 : (i 0).val < 50000 := (i 0).isLt
  have h1 : (i 1).val < 512 := (i 1).isLt
  have hN : cfg2.N = 25 := N_2
  have hq : (i 0).val / 2000 < cfg2.N := by rw [hN]; omega
  obtain ⟨-, -, -, -, e4, e5⟩ := idx_facts2 ⟨(i 0).val / 2000, hq⟩
  refine ⟨⟨(i 0).val / 2000, hq⟩, flush2_2 _, ?_⟩
  show i ∈ ((View.whole main_v193).slice (win2_2.rect ⟨(i 0).val / 2000, hq⟩)).set
  rw [View.set_slice_whole, Rect.mem_set_unit]
  intro a
  match a with
  | ⟨0, _⟩ =>
    show win2_2.index ⟨(i 0).val / 2000, hq⟩ 0 * 2000 ≤ (i 0).val ∧ (i 0).val < win2_2.index ⟨(i 0).val / 2000, hq⟩ 0 * 2000 + 2000
    rw [e4]; show (i 0).val / 2000 * 2000 ≤ (i 0).val ∧ (i 0).val < (i 0).val / 2000 * 2000 + 2000; omega
  | ⟨1, _⟩ =>
    show win2_2.index ⟨(i 0).val / 2000, hq⟩ 1 * 512 ≤ (i 1).val ∧ (i 1).val < win2_2.index ⟨(i 0).val / 2000, hq⟩ 1 * 512 + 512
    rw [e5]; omega

/-- The result array after the last row block is `G2` of the operand arrays at the region's entry. -/
theorem out2 (c : Dev nD) :
    (dat2 (F := Ideal) V c).arrAt 2 cfg2.N = G2 (V c (Pipeline.arrRef spec2 0)) (V c (Pipeline.arrRef spec2 1)) :=
  (dat2 (F := Ideal) V c).arrAt_eq_of_cover 2 (G2 (V c (Pipeline.arrRef spec2 0)) (V c (Pipeline.arrRef spec2 1)))
    (fun t _ => flushed2_eq V c t) cover2

end Cert.KernelIdeal.Out

end
-- ==== Proof.KiOut3.lean ====
/-
  The layer's combination, read as one function of the whole arrays: after the last row block the result array holds, at
  row n and column j, the four column groups of row n of the first operand summed left to right, plus the bias row at
  column j, with the negative part cut off.
-/
import proofs.«115534_j8151847928363_1_alg».proof.Proof.KiReg3
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Out

open Cert.KernelIdeal Cert.KernelIdeal.Gen Cert.KernelIdeal.Frm
open Idealize.ShloMosaic Idealize.ShloMosaic.TcCoe Idealize.SL.Sem
open Idealize.ShloMosaic.ValueIdx
open Idealize.ShloMosaic.Pipeline (Dat)
open scoped BigOperators

/-- Row n, column j of the result: a(n, j) + a(n, 128 + j) + a(n, 256 + j) + a(n, 384 + j), added in that order, plus
    b(0, j), and the maximum of that with 0. -/
def row3 (a : S50000x512.Idx → EReal) (b : S1x128.Idx → EReal) (n : Fin 50000) (j : Fin 128) : EReal :=
  max ((((a (ix2 n (⟨j.val, by omega⟩ : Fin 512)) + a (ix2 n (⟨128 + j.val, by omega⟩ : Fin 512))) + a (ix2 n (⟨256 + j.val, by omega⟩ : Fin 512)))
    + a (ix2 n (⟨384 + j.val, by omega⟩ : Fin 512))) + b (ix2 (0 : Fin 1) j)) 0

/-- The whole result array as a function of the two operand arrays. -/
def G3 (a : S50000x512.Idx → EReal) (b : S1x128.Idx → EReal) : S50000x128.Idx → EReal :=
  fun i => row3 a b (i 0) (i 1)

/-- The body's value at row p, column j of a block: the four summands added left to right, the bias row's entry at
    column j added, the maximum with 0. -/
theorem pay3_apply (v0 v2 v5 v8 : Vec Ideal S2000x128 .f32) (v11 : Vec Ideal S1x128 .f32) (p : Fin 2000) (j : Fin 128) :
    k3_pay1 v0 v2 v5 v8 v11 (ix2 p j)
      = max ((((v0 (ix2 p j) + v2 (ix2 p j)) + v5 (ix2 p j)) + v8 (ix2 p j)) + v11 (ix2 (0 : Fin 1) j)) 0 := by
  unfold k3_pay1
  simp only [shapeCast_self]
  rw [maximumf_apply, addf_apply, addf_apply, addf_apply, addf_apply, broadcast_apply]
  rw [broadcastTo_apply v11 _ (ix2 p j) (ix2 (0 : Fin 1) j) (fun a => by
    match a with
    | ⟨0, _⟩ => rfl
    | ⟨1, _⟩ => rfl)]
  show max _ (Ideal.ofBits .f32 0x00000000#32) = _
  rw [Ideal.ofBits_zero_f32]

theorem zero_offsets3 : (![0, 0] : Fin 2 → Nat) = fun _ => 0 := funext fun a => by fin_cases a <;> rfl

/-- The 2000 x 128 column group at column offset o of a 2000 x 512 block, at (p, j), is the block at (p, o + j). -/
theorem ld_cols3 (x0 : Vec Ideal S2000x512 .f32) (o : Nat) (inb) (p : Fin 2000) (j : Fin 128) (h : o + j.val < 512) :
    View.ld x0 (Rect.unit (s := S2000x512) ![0, o] S2000x128.size inb) (ix2 p j) = x0 (ix2 p (⟨o + j.val, h⟩ : Fin 512)) := by
  show x0 _ = x0 _
  congr 1
  funext a
  apply Fin.ext
  rw [LoadRect.idx_apply]
  match a with
  | ⟨0, _⟩ => show 0 + 1 * p.val = p.val; omega
  | ⟨1, _⟩ => show o + 1 * j.val = o + j.val; omega

/-- The result block at row p and column j, from the operand blocks. -/
theorem res3_apply (x0 : Vec Ideal S2000x512 .f32) (x1 : Vec Ideal S1x128 .f32) (p : Fin 2000) (j : Fin 128) :
    res3 x0 x1 (ix2 p j)
      = max ((((x0 (ix2 p (⟨j.val, by omega⟩ : Fin 512)) + x0 (ix2 p (⟨128 + j.val, by omega⟩ : Fin 512))) + x0 (ix2 p (⟨256 + j.val, by omega⟩ : Fin 512)))
          + x0 (ix2 p (⟨384 + j.val, by omega⟩ : Fin 512))) + x1 (ix2 (0 : Fin 1) j)) 0 := by
  unfold res3
  rw [View.canon_unit_zero zero_offsets3, pay3_apply, ld_cols3 x0 0 _ p j (by omega), ld_cols3 x0 128 _ p j (by omega),
    ld_cols3 x0 256 _ p j (by omega), ld_cols3 x0 384 _ p j (by omega), View.ld_unit_zero (S := S1x128) zero_offsets3]
  simp only [Nat.zero_add]

variable (V : (c : Dev nD) → (b : Ref sig .tc) → Buf (Elt Ideal) ((c : Thread nD τ).loc b))

/-- The block indices at row block t: (t, 0) for the row-blocked operand and for the result, (0, 0) for the bias row. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of the first operand's block at row block t is row 2000 t + p of the array. -/
theorem blk3_0_apply (c : Dev nD) (t : Fin cfg3.N) (p : Fin 2000) (q : Fin 512) (n : Fin 50000) (hn : n.val = t.val * 2000 + p.val) :
    (blk3 V c 0 t : Vec Ideal S2000x512 .f32) (ix2 p q) = (V c (Pipeline.arrRef spec3 0) : S50000x512.Idx → EReal) (ix2 n q) := by
  obtain ⟨e0, e1, -⟩ := idx_facts3 t
  unfold blk3
  rw [View.read_apply]
  show V c (Pipeline.arrRef spec3 0) _ = V c (Pipeline.arrRef spec3 0) _
  congr 1
  funext a
  apply Fin.ext
  match a with
  | ⟨0, _⟩ => show win3_0.index t 0 * 2000 + 1 * p.val = n.val; rw [e0, hn]; omega
  | ⟨1, _⟩ => show win3_0.index t 1 * 512 + 1 * q.val = q.val; rw [e1]; omega

/-- The second operand's block is the whole bias row at every row block. -/
theorem blk3_1_apply (c : Dev nD) (t : Fin cfg3.N) (q : Fin 128) :
    (blk3 V c 1 t : Vec Ideal S1x128 .f32) (ix2 (0 : Fin 1) q) = (V c (Pipeline.arrRef spec3 1) : S1x128.Idx → EReal) (ix2 (0 : Fin 1) q) := by
  obtain ⟨-, -, e2, e3, -⟩ := idx_facts3 t
  unfold blk3
  rw [View.read_apply]
  show V c (Pipeline.arrRef spec3 1) _ = V c (Pipeline.arrRef spec3 1) _
  congr 1
  funext a
  apply Fin.ext
  match a with
  | ⟨0, _⟩ => show win3_1.index t 0 * 1 + 1 * 0 = 0; rw [e2]
  | ⟨1, _⟩ => show win3_1.index t 1 * 128 + 1 * q.val = q.val; rw [e3]; omega

/-- What row block t writes back is block t of `G3` of the operand arrays at the region's entry. -/
theorem flushed3_eq (c : Dev nD) (t : Fin cfg3.N) :
    (dat3 (F := Ideal) V c).flushed 2 t
      = ((cfg3.win 2).blk t).view.read (Elt Ideal) (G3 (V c (Pipeline.arrRef spec3 0)) (V c (Pipeline.arrRef spec3 1))) := by
  show (cfg3.win 2).cut (grid3.coords t) ((dat3 V c).after 2 t) = _
  rw [after3_2]
  obtain ⟨-, -, -, -, e4, e5⟩ := idx_facts3 t
  have hN : cfg3.N = 25 := N_3
  have ht : t.val < 25 := hN ▸ t.isLt
  funext y
  obtain ⟨p, q, rfl⟩ : ∃ (p : Fin 2000) (q : Fin 128), y = ix2 p q := ⟨y 0, y 1, eq_ix2 y⟩
  have hn : t.val * 2000 + p.val < 50000 := by have := p.isLt; omega
  trans row3 (V c (Pipeline.arrRef spec3 0)) (V c (Pipeline.arrRef spec3 1)) ⟨t.val * 2000 + p.val, hn⟩ q
  · show res3 (blk3 V c 0 t) (blk3 V c 1 t) (ix2 p q) = _
    rw [res3_apply, blk3_0_apply V c t p _ ⟨_, hn⟩ rfl, blk3_0_apply V c t p _ ⟨_, hn⟩ rfl, blk3_0_apply V c t p _ ⟨_, hn⟩ rfl,
      blk3_0_apply V c t p _ ⟨_, hn⟩ rfl, blk3_1_apply V c t q]
    rfl
  · have he : ((cfg3.win 2).blk t).view.emb (ix2 p q) = (ix2 (⟨t.val * 2000 + p.val, hn⟩ : Fin 50000) q : S50000x128.Idx) := by
      funext a; apply Fin.ext
      match a with
      | ⟨0, _⟩ => show win3_2.index t 0 * 2000 + 1 * p.val = t.val * 2000 + p.val; rw [e4]; omega
      | ⟨1, _⟩ => show win3_2.index t 1 * 128 + 1 * q.val = q.val; rw [e5]; omega
    rw [View.read_apply]
    exact (congrArg (G3 (V c (Pipeline.arrRef spec3 0)) (V c (Pipeline.arrRef spec3 1))) he).symm

/-- Row n of the array lies in the block of row block n / 2000. -/
theorem cover3 (i : S50000x128.Idx) : ∃ t : Fin cfg3.N, (cfg3.win 2).flush t = true ∧ i ∈ ((cfg3.win 2).blk t).view.set := by
  have h0 : (i 0).val < 50000 := (i 0).isLt
  have h1 : (i 1).val < 128 := (i 1).isLt
  have hN : cfg3.N = 25 := N_3
  have hq : (i 0).val / 2000 < cfg3.N := by rw [hN]; omega
  obtain ⟨-, -, -, -, e4, e5⟩ := idx_facts3 ⟨(i 0).val / 2000, hq⟩
  refine ⟨⟨(i 0).val / 2000, hq⟩, flush3_2 _, ?_⟩
  show i ∈ ((View.whole main_v253).slice (win3_2.rect ⟨(i 0).val / 2000, hq⟩)).set
  rw [View.set_slice_whole, Rect.mem_set_unit]
  intro a
  match a with
  | ⟨0, _⟩ =>
    show win3_2.index ⟨(i 0).val / 2000, hq⟩ 0 * 2000 ≤ (i 0).val ∧ (i 0).val < win3_2.index ⟨(i 0).val / 2000, hq⟩ 0 * 2000 + 2000
    rw [e4]; show (i 0).val / 2000 * 2000 ≤ (i 0).val ∧ (i 0).val < (i 0).val / 2000 * 2000 + 2000; omega
  | ⟨1, _⟩ =>
    show win3_2.index ⟨(i 0).val / 2000, hq⟩ 1 * 128 ≤ (i 1).val ∧ (i 1).val < win3_2.index ⟨(i 0).val / 2000, hq⟩ 1 * 128 + 128
    rw [e5]; omega

/-- The result array after the last row block is `G3` of the operand arrays at the region's entry. -/
theorem out3 (c : Dev nD) :
    (dat3 (F := Ideal) V c).arrAt 2 cfg3.N = G3 (V c (Pipeline.arrRef spec3 0)) (V c (Pipeline.arrRef spec3 1)) :=
  (dat3 (F := Ideal) V c).arrAt_eq_of_cover 2 (G3 (V c (Pipeline.arrRef spec3 0)) (V c (Pipeline.arrRef spec3 1)))
    (fun t _ => flushed3_eq V c t) cover3

end Cert.KernelIdeal.Out

end
-- ==== Proof.KiReadBody.lean ====
/- The kernel program read up to its fourth launch. The host stretches between the launches, read at arbitrary contents:
   each relation's aggregation of its column group of the launched product, the four side by side, and the summed bias row;
   the second layer's weight table. Each launch's result array is the launch's function of its operand arrays, every other
   buffer crossing the launch unchanged. Composed: the fourth launch leaves two layers of the kernel's computation over
   the argument arrays. -/
import proofs.«115534_j8151847928363_1_alg».proof.Proof.KiReadPre
import proofs.«115534_j8151847928363_1_alg».proof.Proof.KiSpec
import proofs.«115534_j8151847928363_1_alg».proof.Proof.KiVals
import proofs.«115534_j8151847928363_1_alg».proof.Proof.KiOut2
import proofs.«115534_j8151847928363_1_alg».proof.Proof.KiOut3

set_option maxRecDepth 8192

noncomputable section

namespace Cert.KernelIdeal.Read

open Cert.KernelIdeal Cert.KernelIdeal.Gen Cert.KernelIdeal.Frm
open Idealize.ShloMosaic Idealize.ShloMosaic.TcCoe Idealize.SL.Sem Idealize.ShloMosaic.StableHlo
open Cert.ReferenceIdeal.RefRead (eiRel srcRaw dstRaw wrapIdx idCol degOf dinvOf normOf aggOf)

section Host

variable {F : FTy → Type} [FloatOps F]

/-- The four aggregations side by side, over each relation's source ids, destination ids and edge weights as given. -/
def aggAllOf (s0 d0 : IVec S550000 32) (n0 : FVec F S550000 .f32) (s1 d1 : IVec S550000 32) (n1 : FVec F S550000 .f32)
    (s2 d2 : IVec S550000 32) (n2 : FVec F S550000 .f32) (s3 d3 : IVec S550000 32) (n3 : FVec F S550000 .f32)
    (t : FVec F S50000x512 .f32) : FVec F S50000x512 .f32 :=
  concatenate S50000x512 1
    [⟨S50000x128, aggOf s0 d0 n0 (colGroup0 t)⟩, ⟨S50000x128, aggOf s1 d1 n1 (colGroup1 t)⟩,
     ⟨S50000x128, aggOf s2 d2 n2 (colGroup2 t)⟩, ⟨S50000x128, aggOf s3 d3 n3 (colGroup3 t)⟩]
    concatenates_S50000x128_S50000x128_S50000x128_S50000x128_S50000x512_d1

set_option maxHeartbeats 8000000 in
theorem hostOps1_agg (V : Valuation τ sig (Elt F)) :
    after hostOps1 V (no_index (main_v187 : DevRef τ sig)) = aggAllOf (V (main_v5 : DevRef τ sig)) (V (main_v8 : DevRef τ sig)) (V (main_v31 : DevRef τ sig)) (V (main_v37 : DevRef τ sig)) (V (main_v40 : DevRef τ sig)) (V (main_v63 : DevRef τ sig)) (V (main_v69 : DevRef τ sig)) (V (main_v72 : DevRef τ sig)) (V (main_v95 : DevRef τ sig)) (V (main_v101 : DevRef τ sig)) (V (main_v104 : DevRef τ sig)) (V (main_v127 : DevRef τ sig)) (V (main_v130 : DevRef τ sig)) := by
  after_results_simp
  rfl
set_option maxHeartbeats 4000000 in
theorem hostOps1_bias (V : Valuation τ sig (Elt F)) : after hostOps1 V (no_index (main_v189 : DevRef τ sig)) = biasRow (V (main_arg3 : DevRef τ sig)) := by
  after_results_simp
  rfl
theorem hostOps2_wresh (V : Valuation τ sig (Elt F)) : after hostOps2 V (no_index (main_v192 : DevRef τ sig)) = wresh (V (main_arg4 : DevRef τ sig)) := by
  after_results_simp
  rfl
set_option maxHeartbeats 8000000 in
theorem hostOps3_agg (V : Valuation τ sig (Elt F)) :
    after hostOps3 V (no_index (main_v250 : DevRef τ sig)) = aggAllOf (V (main_v5 : DevRef τ sig)) (V (main_v8 : DevRef τ sig)) (V (main_v31 : DevRef τ sig)) (V (main_v37 : DevRef τ sig)) (V (main_v40 : DevRef τ sig)) (V (main_v63 : DevRef τ sig)) (V (main_v69 : DevRef τ sig)) (V (main_v72 : DevRef τ sig)) (V (main_v95 : DevRef τ sig)) (V (main_v101 : DevRef τ sig)) (V (main_v104 : DevRef τ sig)) (V (main_v127 : DevRef τ sig)) (V (main_v193 : DevRef τ sig)) := by
  after_results_simp
  rfl
set_option maxHeartbeats 4000000 in
theorem hostOps3_bias (V : Valuation τ sig (Elt F)) : after hostOps3 V (no_index (main_v252 : DevRef τ sig)) = biasRow (V (main_arg5 : DevRef τ sig)) := by
  after_results_simp
  rfl

end Host

variable (m : (ℓ : Loc nD τ sig) → Buf (Elt Ideal) ℓ) (ρ : Dev nD → PrngReg)

/-- The first launch is entered at the nine stretches composed over the launch contents. -/
theorem W9_pre (c : Dev nD) : W9 m ρ c = pre (W0 m ρ c) := rfl

/-! Each launch's result array, and every other buffer across the launch. -/

theorem W10_out (c : Dev nD) :
    W10 m ρ c (no_index (main_v130 : DevRef τ sig)) = Out.G0 (W9 m ρ c (main_arg0 : DevRef τ sig)) (W9 m ρ c (main_v129 : DevRef τ sig)) :=
  (W10_arr m ρ c 2).trans (Out.out0 (V9 m ρ) c)
theorem W10_keep' (c : Dev nD) {b : Ref sig .tc} (hb : main_v130 ≠ b) :
    W10 m ρ c (no_index (Proc.devRef .tc b)) = W9 m ρ c (Proc.devRef .tc b) := W10_keep m ρ c b hb
theorem W12_out (c : Dev nD) :
    W12 m ρ c (no_index (main_v190 : DevRef τ sig)) = Out.G1 (W11 m ρ c (main_v187 : DevRef τ sig)) (W11 m ρ c (main_v189 : DevRef τ sig)) :=
  (W12_arr m ρ c 2).trans (Out.out1 (V11 m ρ) c)
theorem W12_keep' (c : Dev nD) {b : Ref sig .tc} (hb : main_v190 ≠ b) :
    W12 m ρ c (no_index (Proc.devRef .tc b)) = W11 m ρ c (Proc.devRef .tc b) := W12_keep m ρ c b hb
theorem W14_out (c : Dev nD) :
    W14 m ρ c (no_index (main_v193 : DevRef τ sig)) = Out.G2 (W13 m ρ c (main_v190 : DevRef τ sig)) (W13 m ρ c (main_v192 : DevRef τ sig)) :=
  (W14_arr m ρ c 2).trans (Out.out2 (V13 m ρ) c)
theorem W14_keep' (c : Dev nD) {b : Ref sig .tc} (hb : main_v193 ≠ b) :
    W14 m ρ c (no_index (Proc.devRef .tc b)) = W13 m ρ c (Proc.devRef .tc b) := W14_keep m ρ c b hb
theorem W16_out (c : Dev nD) :
    W16 m ρ c (no_index (main_v253 : DevRef τ sig)) = Out.G3 (W15 m ρ c (main_v250 : DevRef τ sig)) (W15 m ρ c (main_v252 : DevRef τ sig)) :=
  (W16_arr m ρ c 2).trans (Out.out3 (V15 m ρ) c)
theorem W16_keep' (c : Dev nD) {b : Ref sig .tc} (hb : main_v253 ≠ b) :
    W16 m ρ c (no_index (Proc.devRef .tc b)) = W15 m ρ c (Proc.devRef .tc b) := W16_keep m ρ c b hb

set_option maxHeartbeats 8000000 in
/-- After the fourth launch its result array holds two layers of the kernel's computation over the argument arrays. -/
theorem body_read (c : Dev nD) :
    W16 m ρ c (main_v253 : DevRef τ sig)
      = layerK (W0 m ρ c (main_arg1 : DevRef τ sig))
          (layerK (W0 m ρ c (main_arg1 : DevRef τ sig)) (W0 m ρ c (main_arg0 : DevRef τ sig)) (W0 m ρ c (main_arg2 : DevRef τ sig)) (W0 m ρ c (main_arg3 : DevRef τ sig)))
          (W0 m ρ c (main_arg4 : DevRef τ sig)) (W0 m ρ c (main_arg5 : DevRef τ sig)) := by
  rw [W16_out]
  simp (disch := decide) only [W15, W13, W11, W9_pre,
    hostOps3_agg, hostOps3_bias, hostOps3_frame, W14_keep', W14_out,
    hostOps2_wresh, hostOps2_frame, W12_keep', W12_out,
    hostOps1_agg, hostOps1_bias, hostOps1_frame, W10_keep', W10_out,
    pre_src0, pre_dst0, pre_norm0, pre_src1, pre_dst1, pre_norm1, pre_src2, pre_dst2, pre_norm2, pre_src3, pre_dst3, pre_norm3, pre_wresh,
    pre_arg0, pre_arg1, pre_arg2, pre_arg3, pre_arg4, pre_arg5]
  rfl

end Cert.KernelIdeal.Read

end
-- ==== Proof.KiReadTail.lean ====
/-
  The end of the kernel program, read back: the column means and variances of the second layer's output, the
  normalisation's scale and shift as rows, the zero-padded output layer, the last launch, and the two columns kept.
-/
import proofs.«115534_j8151847928363_1_alg».proof.Proof.KiVals
import proofs.«115534_j8151847928363_1_alg».proof.Proof.KiArgs
import proofs.«115534_j8151847928363_1_alg».proof.Proof.KiStages
import proofs.«115534_j8151847928363_1_alg».proof.Proof.KiOut4
import proofs.«115534_j8151847928363_1_alg».proof.Proof.RefReadDefs
import Idealize.ShloMosaic.Lib.StableHlo.Run

set_option maxRecDepth 16384

noncomputable section

namespace Cert.KernelIdeal.Read

open Cert.KernelIdeal Cert.KernelIdeal.Gen Cert.KernelIdeal.Frm
open Idealize.ShloMosaic Idealize.ShloMosaic.TcCoe Idealize.SL.Sem Idealize.ShloMosaic.StableHlo

/-! ### The host stretches at any contents -/

set_option maxHeartbeats 4000000 in
/-- The last stretch keeps the first two columns of the last launch's result. -/
theorem st5_v275 (V : Valuation τ sig (Elt Ideal)) :
    after hostOps5 V (no_index (main_v275 : DevRef τ sig)) = outCols (F := Ideal) (V (main_v274 : DevRef τ sig)) := by
  after_results_simp
  rfl

set_option maxHeartbeats 4000000 in
/-- The column means of the second layer's output. -/
theorem st4_v256 (V : Valuation τ sig (Elt Ideal)) :
    after hostOps4 V (no_index (main_v256 : DevRef τ sig)) = Cert.ReferenceIdeal.RefRead.bnMean (F := Ideal) (V (main_v253 : DevRef τ sig)) := by
  after_results_simp
  rfl

set_option maxHeartbeats 4000000 in
theorem st4_c58 (V : Valuation τ sig (Elt Ideal)) :
    after hostOps4 V (no_index (main_c_58 : DevRef τ sig)) = constantI S_ 32 0#32 := by
  after_results_simp

set_option maxHeartbeats 4000000 in
theorem st4_v253 (V : Valuation τ sig (Elt Ideal)) :
    after hostOps4 V (no_index (main_v253 : DevRef τ sig)) = V (main_v253 : DevRef τ sig) := by
  after_results_simp

set_option maxHeartbeats 8000000 in
/-- The biased column variances of the second layer's output, the count's integer summand being the zero word. -/
theorem st41_v257 (V : Valuation τ sig (Elt Ideal)) (hc : V (main_c_58 : DevRef τ sig) = constantI S_ 32 0#32) :
    after hostOps4_1 V (no_index (main_v257 : DevRef τ sig)) = Cert.ReferenceIdeal.RefRead.bnVar (F := Ideal) (V (main_v253 : DevRef τ sig)) := by
  after_results_simp
  rw [hc]
  rfl

set_option maxHeartbeats 8000000 in
theorem st41_v253 (V : Valuation τ sig (Elt Ideal)) :
    after hostOps4_1 V (no_index (main_v253 : DevRef τ sig)) = V (main_v253 : DevRef τ sig) := by
  after_results_simp

set_option maxHeartbeats 8000000 in
theorem st41_v256 (V : Valuation τ sig (Elt Ideal)) :
    after hostOps4_1 V (no_index (main_v256 : DevRef τ sig)) = V (main_v256 : DevRef τ sig) := by
  after_results_simp

set_option maxHeartbeats 8000000 in
/-- The scale row: gamma times the reciprocal square root of the variance plus epsilon. -/
theorem st42_v270 (V : Valuation τ sig (Elt Ideal)) :
    after hostOps4_2 V (no_index (main_v270 : DevRef τ sig))
      = rowOf (F := Ideal) (mulf (V (main_arg6 : DevRef τ sig))
          (Host.rsqrt (addf (V (main_v257 : DevRef τ sig)) (broadcastInDim S128 ![] bcast_S_S128 (constant (F := Ideal) S_ .f32 0x3727C5AC#32))))) := by
  after_results_simp
  rfl

set_option maxHeartbeats 8000000 in
/-- The shift row: beta minus the mean times the scale. -/
theorem st42_v271 (V : Valuation τ sig (Elt Ideal)) :
    after hostOps4_2 V (no_index (main_v271 : DevRef τ sig))
      = rowOf (F := Ideal) (subf (V (main_arg7 : DevRef τ sig)) (mulf (V (main_v256 : DevRef τ sig)) (mulf (V (main_arg6 : DevRef τ sig))
          (Host.rsqrt (addf (V (main_v257 : DevRef τ sig)) (broadcastInDim S128 ![] bcast_S_S128 (constant (F := Ideal) S_ .f32 0x3727C5AC#32))))))) := by
  after_results_simp
  rfl

set_option maxHeartbeats 8000000 in
theorem st42_v272 (V : Valuation τ sig (Elt Ideal)) :
    after hostOps4_2 V (no_index (main_v272 : DevRef τ sig)) = rowOf (F := Ideal) (V (main_arg9 : DevRef τ sig)) := by
  after_results_simp
  rfl

set_option maxHeartbeats 8000000 in
theorem st42_v266 (V : Valuation τ sig (Elt Ideal)) :
    after hostOps4_2 V (no_index (main_v266 : DevRef τ sig)) = padW (F := Ideal) (V (main_arg10 : DevRef τ sig)) := by
  after_results_simp
  rfl

set_option maxHeartbeats 8000000 in
theorem st42_v273 (V : Valuation τ sig (Elt Ideal)) :
    after hostOps4_2 V (no_index (main_v273 : DevRef τ sig)) = rowOf (F := Ideal) (padB (F := Ideal) (V (main_arg11 : DevRef τ sig))) := by
  after_results_simp
  rfl

set_option maxHeartbeats 8000000 in
theorem st42_v253 (V : Valuation τ sig (Elt Ideal)) :
    after hostOps4_2 V (no_index (main_v253 : DevRef τ sig)) = V (main_v253 : DevRef τ sig) := by
  after_results_simp

/-! ### The boundaries of the program's end -/

variable (m : (ℓ : Loc nD τ sig) → Buf (Elt Ideal) ℓ) (ρ : Dev nD → PrngReg)

/-- An argument buffer holds at the eighteenth boundary what it held at launch. -/
theorem W18_args (c : Dev nD) (b : Ref sig .tc) (hb : b ∈ argRefs) : W18 m ρ c (Proc.devRef .tc b) = W0 m ρ c (Proc.devRef .tc b) :=
  (W18_arg m ρ c b hb).trans <| (W17_arg m ρ c b hb).trans <| (W16_arg m ρ c b hb).trans <| (W15_arg m ρ c b hb).trans <| (W14_arg m ρ c b hb).trans <| (W13_arg m ρ c b hb).trans <| (W12_arg m ρ c b hb).trans <| (W11_arg m ρ c b hb).trans <| (W10_arg m ρ c b hb).trans <| (W9_arg m ρ c b hb).trans <| (W8_arg m ρ c b hb).trans <| (W7_arg m ρ c b hb).trans <| (W6_arg m ρ c b hb).trans <| (W5_arg m ρ c b hb).trans <| (W4_arg m ρ c b hb).trans <| (W3_arg m ρ c b hb).trans <| (W2_arg m ρ c b hb).trans <| (W1_arg m ρ c b hb)

/-- … and at the nineteenth. -/
theorem W19_args (c : Dev nD) (b : Ref sig .tc) (hb : b ∈ argRefs) : W19 m ρ c (Proc.devRef .tc b) = W0 m ρ c (Proc.devRef .tc b) :=
  (W19_arg m ρ c b hb).trans (W18_args m ρ c b hb)

/-- The second layer's output reaches the last launch as the fourth launch left it. -/
theorem v253_at19 (c : Dev nD) : W19 m ρ c (main_v253 : DevRef τ sig) = W16 m ρ c (main_v253 : DevRef τ sig) :=
  (st42_v253 (W18 m ρ c)).trans ((st41_v253 (W17 m ρ c)).trans (st4_v253 (W16 m ρ c)))

/-- The column means, where the scale and shift are formed. -/
theorem mean_at18 (c : Dev nD) :
    W18 m ρ c (main_v256 : DevRef τ sig) = Cert.ReferenceIdeal.RefRead.bnMean (F := Ideal) (W16 m ρ c (main_v253 : DevRef τ sig)) :=
  (st41_v256 (W17 m ρ c)).trans (st4_v256 (W16 m ρ c))

/-- The column variances, where the scale and shift are formed. -/
theorem var_at18 (c : Dev nD) :
    W18 m ρ c (main_v257 : DevRef τ sig) = Cert.ReferenceIdeal.RefRead.bnVar (F := Ideal) (W16 m ρ c (main_v253 : DevRef τ sig)) :=
  (st41_v257 (W17 m ρ c) (st4_c58 (W16 m ρ c))).trans (congrArg (Cert.ReferenceIdeal.RefRead.bnVar (F := Ideal)) (st4_v253 (W16 m ρ c)))

set_option maxHeartbeats 4000000 in
/-- The last launch's scale row. -/
theorem scale_row (c : Dev nD) :
    W19 m ρ c (main_v270 : DevRef τ sig) = rowOf (F := Ideal) (scaleOf (F := Ideal) (W16 m ρ c (main_v253 : DevRef τ sig)) (W0 m ρ c (main_arg6 : DevRef τ sig))) := by
  refine (st42_v270 (W18 m ρ c)).trans ?_
  rw [var_at18 m ρ c, W18_args m ρ c main_arg6 (by decide)]
  rfl

set_option maxHeartbeats 4000000 in
/-- The last launch's shift row. -/
theorem shift_row (c : Dev nD) :
    W19 m ρ c (main_v271 : DevRef τ sig) = rowOf (F := Ideal) (shiftOf (F := Ideal) (W16 m ρ c (main_v253 : DevRef τ sig)) (W0 m ρ c (main_arg6 : DevRef τ sig)) (W0 m ρ c (main_arg7 : DevRef τ sig))) := by
  refine (st42_v271 (W18 m ρ c)).trans ?_
  rw [var_at18 m ρ c, mean_at18 m ρ c, W18_args m ρ c main_arg6 (by decide), W18_args m ρ c main_arg7 (by decide)]
  rfl

/-- The last launch's first bias row. -/
theorem b1_row (c : Dev nD) : W19 m ρ c (main_v272 : DevRef τ sig) = rowOf (F := Ideal) (W0 m ρ c (main_arg9 : DevRef τ sig)) := by
  refine (st42_v272 (W18 m ρ c)).trans ?_
  rw [W18_args m ρ c main_arg9 (by decide)]

/-- The last launch's padded output weights. -/
theorem w2_pad (c : Dev nD) : W19 m ρ c (main_v266 : DevRef τ sig) = padW (F := Ideal) (W0 m ρ c (main_arg10 : DevRef τ sig)) := by
  refine (st42_v266 (W18 m ρ c)).trans ?_
  rw [W18_args m ρ c main_arg10 (by decide)]

/-- The last launch's padded output bias row. -/
theorem b2_row (c : Dev nD) : W19 m ρ c (main_v273 : DevRef τ sig) = rowOf (F := Ideal) (padB (F := Ideal) (W0 m ρ c (main_arg11 : DevRef τ sig))) := by
  refine (st42_v273 (W18 m ρ c)).trans ?_
  rw [W18_args m ρ c main_arg11 (by decide)]

set_option maxHeartbeats 8000000 in
/-- The program's result: the first two columns of the last stage applied to the second layer's output, with the scale and
    shift formed from its column statistics and the normalisation's parameters, and the zero-padded output layer. -/
theorem tail_read (c : Dev nD) :
    W21 m ρ c (main_v275 : DevRef τ sig)
      = outCols (F := Ideal) (Out.G4 (W16 m ρ c (main_v253 : DevRef τ sig)) (rowOf (F := Ideal) (scaleOf (F := Ideal) (W16 m ρ c (main_v253 : DevRef τ sig)) (W0 m ρ c (main_arg6 : DevRef τ sig))))
          (rowOf (F := Ideal) (shiftOf (F := Ideal) (W16 m ρ c (main_v253 : DevRef τ sig)) (W0 m ρ c (main_arg6 : DevRef τ sig)) (W0 m ρ c (main_arg7 : DevRef τ sig)))) (W0 m ρ c (main_arg8 : DevRef τ sig)) (rowOf (F := Ideal) (W0 m ρ c (main_arg9 : DevRef τ sig)))
          (padW (F := Ideal) (W0 m ρ c (main_arg10 : DevRef τ sig))) (rowOf (F := Ideal) (padB (F := Ideal) (W0 m ρ c (main_arg11 : DevRef τ sig))))) := by
  refine (st5_v275 (W20 m ρ c)).trans (congrArg (outCols (F := Ideal)) ?_)
  refine ((W20_arr m ρ c 7).trans (Out.out4 (V19 m ρ) c)).trans ?_
  show Out.G4 (W19 m ρ c (main_v253 : DevRef τ sig)) (W19 m ρ c (main_v270 : DevRef τ sig)) (W19 m ρ c (main_v271 : DevRef τ sig))
    (W19 m ρ c (main_arg8 : DevRef τ sig)) (W19 m ρ c (main_v272 : DevRef τ sig)) (W19 m ρ c (main_v266 : DevRef τ sig))
    (W19 m ρ c (main_v273 : DevRef τ sig)) = _
  rw [v253_at19 m ρ c, scale_row m ρ c, shift_row m ρ c, W19_args m ρ c main_arg8 (by decide), b1_row m ρ c, w2_pad m ρ c, b2_row m ρ c]

end Cert.KernelIdeal.Read

end
-- ==== Proof.Bridge.lean ====
/-
  The two idealized programs compute one function of the arguments. The reference's result is its composed stages
  (two relational graph-convolution layers, the batch normalisation, the two-layer head); the kernel program's result, read
  back through its 21 segments, is the same head applied to the normalisation written as a scale and a shift, over layers
  whose four relations are projected by one wide matrix product and summed after their aggregations. A layer agrees with the
  reference's with no side condition; the normalisation agrees because every value involved is a real number, which the
  precondition gives for the inputs and every stage preserves.
-/
import proofs.«115534_j8151847928363_1_alg».proof.Defs
import proofs.«115534_j8151847928363_1_alg».proof.Proof.Gen.KernelIdeal
import proofs.«115534_j8151847928363_1_alg».proof.Proof.Gen.ReferenceIdeal
import proofs.«115534_j8151847928363_1_alg».proof.Proof.Gen.Pre_finite_inputs
import proofs.«115534_j8151847928363_1_alg».proof.Proof.KiRun
import proofs.«115534_j8151847928363_1_alg».proof.Proof.RefRead
import proofs.«115534_j8151847928363_1_alg».proof.Proof.PreReal
import proofs.«115534_j8151847928363_1_alg».proof.Proof.RefReal
import proofs.«115534_j8151847928363_1_alg».proof.Proof.LayerEq
import proofs.«115534_j8151847928363_1_alg».proof.Proof.HeadEq
import proofs.«115534_j8151847928363_1_alg».proof.Proof.KiReadBody
import proofs.«115534_j8151847928363_1_alg».proof.Proof.KiReadTail

set_option maxRecDepth 16384

noncomputable section

namespace Cert.Bridge

open Idealize.ShloMosaic Idealize.ShloMosaic.TcCoe Idealize.SL.Sem Cert.FiniteOps
open Cert.ReferenceIdeal

set_option maxHeartbeats 1000000 in
/-- From memories that agree on the arguments both idealized programs run to the end with equal results and unchanged
    arguments: the kernel program's result buffer, read back, is the reference's composed stages of the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Frm.W21 m ρ c (Proc.devRef .tc Cert.KernelIdeal.main_v275), Cert.KernelIdeal.Frm.run (F := Ideal) m ρ, ?_⟩
  refine (θ_run Cert.ReferenceIdeal.defs _ _).mono (fun _ h c => ⟨(h c).1.trans ?_, (h c).2⟩) (Cert.ReferenceIdeal.RefRun.run_out (F := Ideal) m' ρ')
  obtain ⟨h0, h2, h3, h4, h5, h6, h7, h8, h9, h10, h11⟩ := Cert.PreReal.real_of_fn _ _ _ _ _ _ _ _ _ _ _ _ (hpre c)
  obtain ⟨e0, e1, e2, e3, e4, e5, e6, e7, e8, e9, e10, e11⟩ := hagree c
  have e0' : StableHlo.launchContents m' c (Proc.devRef .tc Cert.ReferenceIdeal.main_arg0) = Cert.KernelIdeal.Frm.W0 m ρ c (Proc.devRef .tc Cert.KernelIdeal.main_arg0) := e0
  have e1' : StableHlo.launchContents m' c (Proc.devRef .tc Cert.ReferenceIdeal.main_arg1) = Cert.KernelIdeal.Frm.W0 m ρ c (Proc.devRef .tc Cert.KernelIdeal.main_arg1) := e1
  have e2' : StableHlo.launchContents m' c (Proc.devRef .tc Cert.ReferenceIdeal.main_arg2) = Cert.KernelIdeal.Frm.W0 m ρ c (Proc.devRef .tc Cert.KernelIdeal.main_arg2) := e2
  have e3' : StableHlo.launchContents m' c (Proc.devRef .tc Cert.ReferenceIdeal.main_arg3) = Cert.KernelIdeal.Frm.W0 m ρ c (Proc.devRef .tc Cert.KernelIdeal.main_arg3) := e3
  have e4' : StableHlo.launchContents m' c (Proc.devRef .tc Cert.ReferenceIdeal.main_arg4) = Cert.KernelIdeal.Frm.W0 m ρ c (Proc.devRef .tc Cert.KernelIdeal.main_arg4) := e4
  have e5' : StableHlo.launchContents m' c (Proc.devRef .tc Cert.ReferenceIdeal.main_arg5) = Cert.KernelIdeal.Frm.W0 m ρ c (Proc.devRef .tc Cert.KernelIdeal.main_arg5) := e5
  have e6' : StableHlo.launchContents m' c (Proc.devRef .tc Cert.ReferenceIdeal.main_arg6) = Cert.KernelIdeal.Frm.W0 m ρ c (Proc.devRef .tc Cert.KernelIdeal.main_arg6) := e6
  have e7' : StableHlo.launchContents m' c (Proc.devRef .tc Cert.ReferenceIdeal.main_arg7) = Cert.KernelIdeal.Frm.W0 m ρ c (Proc.devRef .tc Cert.KernelIdeal.main_arg7) := e7
  have e8' : StableHlo.launchContents m' c (Proc.devRef .tc Cert.ReferenceIdeal.main_arg8) = Cert.KernelIdeal.Frm.W0 m ρ c (Proc.devRef .tc Cert.KernelIdeal.main_arg8) := e8
  have e9' : StableHlo.launchContents m' c (Proc.devRef .tc Cert.ReferenceIdeal.main_arg9) = Cert.KernelIdeal.Frm.W0 m ρ c (Proc.devRef .tc Cert.KernelIdeal.main_arg9) := e9
  have e10' : StableHlo.launchContents m' c (Proc.devRef .tc Cert.ReferenceIdeal.main_arg10) = Cert.KernelIdeal.Frm.W0 m ρ c (Proc.devRef .tc Cert.KernelIdeal.main_arg10) := e10
  have e11' : StableHlo.launchContents m' c (Proc.devRef .tc Cert.ReferenceIdeal.main_arg11) = Cert.KernelIdeal.Frm.W0 m ρ c (Proc.devRef .tc Cert.KernelIdeal.main_arg11) := e11
  rw [RefRead.res_eq, e0', e1', e2', e3', e4', e5', e6', e7', e8', e9', e10', e11']
  refine Eq.symm ((Cert.KernelIdeal.Read.tail_read m ρ c).trans ?_)
  rw [Cert.KernelIdeal.Read.body_read m ρ c]
  unfold Cert.KernelIdeal.Read.layerK
  rw [layer_eq, layer_eq]
  exact head_eq _ _ _ _ _ _ _ (Cert.ReferenceIdeal.RefReal.h2_real _ h0 h2 h3 h4 h5) h6 h7

end Cert.Bridge

end
-- ==== Proof.lean ====
/-
  The certificate of a two-layer relational graph convolution (four relations, messages gathered by source, scaled by the
  symmetric degree normalisation and summed by target), batch normalisation with batch statistics, a hidden linear layer
  with the negative part cut off, and a two-column output layer: the kernel program (three kernels launched five times
  over 25 row blocks, the gathers and sums between them on the host) against the plain reference.

  The three frames: each program runs to the end, faults nowhere and leaves its arguments unchanged — the two kernel programs
  as 21 segments (host stretches and the five launches), the reference as one list of host operations. The idealization
  rewrote nothing. At the exact instance both programs compute one function of the arguments: the launches' matrix products are
  the reference's, sliced per relation; a relation's aggregation is the same composition on both sides; the four relations'
  sums and biases are regrouped in a commutative monoid; and the normalisation h·(γ·r) + (β − μ·(γ·r)) = ((h − μ)·r)·γ + β
  is an identity of real numbers, every intermediate value being real when the inputs are.
-/
import proofs.«115534_j8151847928363_1_alg».proof.Defs
import proofs.«115534_j8151847928363_1_alg».proof.Proof.Gen.Kernel
import proofs.«115534_j8151847928363_1_alg».proof.Proof.Gen.KernelIdeal
import proofs.«115534_j8151847928363_1_alg».proof.Proof.Gen.ReferenceIdeal
import proofs.«115534_j8151847928363_1_alg».proof.Proof.Gen.Pre_finite_inputs
import proofs.«115534_j8151847928363_1_alg».proof.Proof.KbRun
import proofs.«115534_j8151847928363_1_alg».proof.Proof.KiRun
import proofs.«115534_j8151847928363_1_alg».proof.Proof.RefRun
import proofs.«115534_j8151847928363_1_alg».proof.Proof.Bridge
import Idealize.ShloMosaic.Adequacy
import Idealize.ShloMosaic.Init

noncomputable section

namespace Cert.Proof

open Idealize.ShloMosaic Idealize.SL.Sem

/-- The word-level kernel program runs and leaves its arguments as launched: its run, the result forgotten. -/
theorem frame_k : Cert.frame_Kernel (hKernel := Cert.Kernel.Gen.facts) (hPre_finite_inputs := Cert.Pre_finite_inputs.Gen.facts) := fun m ρ _ =>
  (θ_run Cert.Kernel.defs _ _).mono (fun _ h c => (h c).2) (Cert.Kernel.Frm.run (F := Bits) m ρ)

/-- The same for the program read over exact extended reals. -/
theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (Cert.KernelIdeal.Frm.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefRun.frame, trivial, Cert.Bridge.algebraic⟩

end Cert.Proof

end
